-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v92)) (v2 : (c : Dev Cert.KernelIdeal.nD) → Buf (Elt Ideal) ((c.tc : Thread Cert.KernelIdeal.nD Cert.KernelIdeal.τ).loc Cert.KernelIdeal.main_v94)) (v3 : (c : Dev Cert.KernelIdeal.nD) → Buf (Elt Ideal) ((c.tc : Thread Cert.KernelIdeal.nD Cert.KernelIdeal.τ).loc Cert.KernelIdeal.main_v96)) (v4 : (c : Dev Cert.KernelIdeal.nD) → Buf (Elt Ideal) ((c.tc : Thread Cert.KernelIdeal.nD Cert.KernelIdeal.τ).loc Cert.KernelIdeal.main_v143)) (v5 : (c : Dev Cert.KernelIdeal.nD) → Buf (Elt Ideal) ((c.tc : Thread Cert.KernelIdeal.nD Cert.KernelIdeal.τ).loc Cert.KernelIdeal.main_v176)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_v94) = v2 c
          ∧ r.2.mem ((c.tc : Thread Cert.KernelIdeal.nD Cert.KernelIdeal.τ).loc Cert.KernelIdeal.main_v96) = v3 c
          ∧ r.2.mem ((c.tc : Thread Cert.KernelIdeal.nD Cert.KernelIdeal.τ).loc Cert.KernelIdeal.main_v143) = v4 c
          ∧ r.2.mem ((c.tc : Thread Cert.KernelIdeal.nD Cert.KernelIdeal.τ).loc Cert.KernelIdeal.main_v176) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v187) = v1 c
          ∧ r.2.mem ((c.tc : Thread Cert.ReferenceIdeal.nD Cert.ReferenceIdeal.τ).loc Cert.ReferenceIdeal.main_v200) = v2 c
          ∧ r.2.mem ((c.tc : Thread Cert.ReferenceIdeal.nD Cert.ReferenceIdeal.τ).loc Cert.ReferenceIdeal.main_v213) = v3 c
          ∧ r.2.mem ((c.tc : Thread Cert.ReferenceIdeal.nD Cert.ReferenceIdeal.τ).loc Cert.ReferenceIdeal.main_v312) = v4 c
          ∧ r.2.mem ((c.tc : Thread Cert.ReferenceIdeal.nD Cert.ReferenceIdeal.τ).loc Cert.ReferenceIdeal.main_v411) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x450000 : Shape := ⟨2, ![2, 450000]⟩
abbrev S450000 : Shape := ⟨1, ![450000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S450000 : S_.BroadcastsInDim S450000 (![] : Fin 0 → Fin S450000.rank)
  reducesTo_S450000_S_d0 : S450000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg14 : FVec F S128 .f32) (main_arg15 : FVec F S128x128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg15
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg10 : FVec F S128x128 .f32) (main_arg11 : FVec F S128 .f32) (main_arg12 : FVec F S128x128 .f32) (main_arg13 : FVec F S128 .f32) (main_arg14 : FVec F S128 .f32) (main_arg15 : FVec F S128x128 .f32) (main_arg16 : FVec F S128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_v48 main_v49 main_v50

def fn_part1 {F : FTy → Type} [FloatOps F] (main_arg7 : FVec F S128x128 .f32) (main_arg8 : FVec F S128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128x128 .f32) (main_arg16 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_v33

def fn {F : FTy → Type} [FloatOps F] (main_arg0 : FVec F S50000x128 .f32) (main_arg1 : IVec S2x450000 32) (main_arg2 : FVec F S450000 .f32) (main_arg3 : IVec S50000 32) (main_arg4 : IVec S50000 32) (main_arg5 : FVec F S128x128 .f32) (main_arg6 : FVec F S128 .f32) (main_arg7 : FVec F S128x128 .f32) (main_arg8 : FVec F S128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128x128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S450000 .f32 := Host.absf main_arg2
  let main_cst_0 : FVec F S_ .f32 := constant S_ .f32 0x7F800000#32
  let main_v5 : FVec F S450000 .f32 := broadcastInDim S450000 ![] bcast_S_S450000 main_cst_0
  let main_v6 : IVec S450000 1 := cmpf .olt main_v4 main_v5
  let main_c_1 : IVec S_ 1 := constantI S_ 1 1#1
  let main_v7 : IVec S_ 1 := (fun x v => Host.reduce IntOp.andi x v reducesTo_S450000_S_d0 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x450000 : Shape := ⟨2, ![2, 450000]⟩
abbrev S450000 : Shape := ⟨1, ![450000]⟩
abbrev S50000 : Shape := ⟨1, ![50000]⟩
abbrev S128x128 : Shape := ⟨2, ![128, 128]⟩
abbrev S128 : Shape := ⟨1, ![128]⟩
abbrev S1x450000 : Shape := ⟨2, ![1, 450000]⟩
abbrev S_ : Shape := ⟨0, ![]⟩
abbrev S450000x1 : Shape := ⟨2, ![450000, 1]⟩
abbrev S1x128 : Shape := ⟨2, ![1, 128]⟩
abbrev S2000x128 : Shape := ⟨2, ![2000, 128]⟩
abbrev S450000x128 : Shape := ⟨2, ![450000, 128]⟩
abbrev S50000x1 : Shape := ⟨2, ![50000, 1]⟩

abbrev nBuf : Space → Nat
  | .hbm => 231
  | .vmem => 84
  | .smem => 0
  | _ => 0

abbrev hbmTy0_0 (i : Nat) : BufTy := match i % 128 with
  | 0 => ⟨S50000x128, .f32⟩
  | 1 => ⟨S2x450000, .i32⟩
  | 2 => ⟨S450000, .f32⟩
  | 3 => ⟨S50000, .i32⟩
  | 4 => ⟨S50000, .i32⟩
  | 5 => ⟨S128x128, .f32⟩
  | 6 => ⟨S128, .f32⟩
  | 7 => ⟨S128x128, .f32⟩
  | 8 => ⟨S128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128x128, .f32⟩
  | 16 => ⟨S128, .f32⟩
  | 17 => ⟨S1x450000, .i32⟩
  | 18 => ⟨S450000, .i32⟩
  | 19 => ⟨S1x450000, .i32⟩
  | 20 => ⟨S450000, .i32⟩
  | 21 => ⟨S_, .f32⟩
  | 22 => ⟨S50000, .f32⟩
  | 23 => ⟨S450000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S450000, .i32⟩
  | 35 => ⟨S450000, .i1⟩
  | 36 => ⟨S_, .i32⟩
  | 37 => ⟨S450000, .i32⟩
  | 38 => ⟨S450000, .i32⟩
  | 39 => ⟨S450000, .i32⟩
  | 40 => ⟨S450000x1, .i32⟩
  | 41 => ⟨S450000, .f32⟩
  | 42 => ⟨S450000, .f32⟩
  | 43 => ⟨S_, .i32⟩
  | 44 => ⟨S450000, .i32⟩
  | 45 => ⟨S450000, .i1⟩
  | 46 => ⟨S_, .i32⟩
  | 47 => ⟨S450000, .i32⟩
  | 48 => ⟨S450000, .i32⟩
  | 49 => ⟨S450000, .i32⟩
  | 50 => ⟨S450000x1, .i32⟩
  | 51 => ⟨S450000, .f32⟩
  | 52 => ⟨S450000, .f32⟩
  | 53 => ⟨S1x128, .f32⟩
  | 54 => ⟨S50000x128, .f32⟩
  | 55 => ⟨S_, .i32⟩
  | 56 => ⟨S450000, .i32⟩
  | 57 => ⟨S450000, .i1⟩
  | 58 => ⟨S_, .i32⟩
  | 59 => ⟨S450000, .i32⟩
  | 60 => ⟨S450000, .i32⟩
  | 61 => ⟨S450000, .i32⟩
  | 62 => ⟨S450000x1, .i32⟩
  | 63 => ⟨S450000x128, .f32⟩
  | 64 => ⟨S450000x1, .f32⟩
  | 65 => ⟨S450000x128, .f32⟩
  | 66 => ⟨S450000x128, .f32⟩
  | 67 => ⟨S_, .f32⟩
  | 68 => ⟨S50000x128, .f32⟩
  | 69 => ⟨S450000x1, .i32⟩
  | 70 => ⟨S50000x128, .f32⟩
  | 71 => ⟨S1x128, .f32⟩
  | 72 => ⟨S1x128, .f32⟩
  | 73 => ⟨S50000x128, .f32⟩
  | 74 => ⟨S_, .i32⟩
  | 75 => ⟨S450000, .i32⟩
  | 76 => ⟨S450000, .i1⟩
  | 77 => ⟨S_, .i32⟩
  | 78 => ⟨S450000, .i32⟩
  | 79 => ⟨S450000, .i32⟩
  | 80 => ⟨S450000, .i32⟩
  | 81 => ⟨S450000x1, .i32⟩
  | 82 => ⟨S450000x128, .f32⟩
  | 83 => ⟨S450000x1, .f32⟩
  | 84 => ⟨S450000x128, .f32⟩
  | 85 => ⟨S450000x128, .f32⟩
  | 86 => ⟨S_, .f32⟩
  | 87 => ⟨S50000x128, .f32⟩
  | 88 => ⟨S450000x1, .i32⟩
  | 89 => ⟨S50000x128, .f32⟩
  | 90 => ⟨S1x128, .f32⟩
  | 91 => ⟨S50000x128, .f32⟩
  | 92 => ⟨S1x128, .f32⟩
  | 93 => ⟨S50000x128, .f32⟩
  | 94 => ⟨S_, .i32⟩
  | 95 => ⟨S450000, .i32⟩
  | 96 => ⟨S450000, .i1⟩
  | 97 => ⟨S_, .i32⟩
  | 98 => ⟨S450000, .i32⟩
  | 99 => ⟨S450000, .i32⟩
  | 100 => ⟨S450000, .i32⟩
  | 101 => ⟨S450000x1, .i32⟩
  | 102 => ⟨S450000x128, .f32⟩
  | 103 => ⟨S450000x1, .f32⟩
  | 104 => ⟨S450000x128, .f32⟩
  | 105 => ⟨S450000x128, .f32⟩
  | 106 => ⟨S_, .f32⟩
  | 107 => ⟨S50000x128, .f32⟩
  | 108 => ⟨S450000x1, .i32⟩
  | 109 => ⟨S50000x128, .f32⟩
  | 110 => ⟨S1x128, .f32⟩
  | 111 => ⟨S1x128, .f32⟩
  | 112 => ⟨S50000x128, .f32⟩
  | 113 => ⟨S_, .i32⟩
  | 114 => ⟨S450000, .i32⟩
  | 115 => ⟨S450000, .i1⟩
  | 116 => ⟨S_, .i32⟩
  | 117 => ⟨S450000, .i32⟩
  | 118 => ⟨S450000, .i32⟩
  | 119 => ⟨S450000, .i32⟩
  | 120 => ⟨S450000x1, .i32⟩
  | 121 => ⟨S450000x128, .f32⟩
  | 122 => ⟨S450000x1, .f32⟩
  | 123 => ⟨S450000x128, .f32⟩
  | 124 => ⟨S450000x128, .f32⟩
  | 125 => ⟨S_, .f32⟩
  | 126 => ⟨S50000x128, .f32⟩
  | 127 => ⟨S450000x1, .i32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S1x128, .f32⟩
  | 4 => ⟨S1x128, .f32⟩
  | 5 => ⟨S1x128, .f32⟩
  | 6 => ⟨S1x128, .f32⟩
  | 7 => ⟨S_, .i32⟩
  | 8 => ⟨S50000, .i32⟩
  | 9 => ⟨S50000, .i1⟩
  | 10 => ⟨S_, .i32⟩
  | 11 => ⟨S50000, .i32⟩
  | 12 => ⟨S50000, .i32⟩
  | 13 => ⟨S50000, .i32⟩
  | 14 => ⟨S50000x1, .i32⟩
  | 15 => ⟨S50000x128, .f32⟩
  | 16 => ⟨S_, .i32⟩
  | 17 => ⟨S50000, .i32⟩
  | 18 => ⟨S50000, .i1⟩
  | 19 => ⟨S_, .i32⟩
  | 20 => ⟨S50000, .i32⟩
  | 21 => ⟨S50000, .i32⟩
  | 22 => ⟨S50000, .i32⟩
  | 23 => ⟨S50000x1, .i32⟩
  | 24 => ⟨S50000x128, .f32⟩
  | 25 => ⟨S1x128, .f32⟩
  | 26 => ⟨S50000x128, .f32⟩
  | 27 => ⟨S_, .i32⟩
  | 28 => ⟨S450000, .i32⟩
  | 29 => ⟨S450000, .i1⟩
  | 30 => ⟨S_, .i32⟩
  | 31 => ⟨S450000, .i32⟩
  | 32 => ⟨S450000, .i32⟩
  | 33 => ⟨S450000, .i32⟩
  | 34 => ⟨S450000x1, .i32⟩
  | 35 => ⟨S450000x128, .f32⟩
  | 36 => ⟨S450000x1, .f32⟩
  | 37 => ⟨S450000x128, .f32⟩
  | 38 => ⟨S450000x128, .f32⟩
  | 39 => ⟨S_, .f32⟩
  | 40 => ⟨S50000x128, .f32⟩
  | 41 => ⟨S450000x1, .i32⟩
  | 42 => ⟨S50000x128, .f32⟩
  | 43 => ⟨S1x128, .f32⟩
  | 44 => ⟨S1x128, .f32⟩
  | 45 => ⟨S50000x128, .f32⟩
  | 46 => ⟨S_, .i32⟩
  | 47 => ⟨S450000, .i32⟩
  | 48 => ⟨S450000, .i1⟩
  | 49 => ⟨S_, .i32⟩
  | 50 => ⟨S450000, .i32⟩
  | 51 => ⟨S450000, .i32⟩
  | 52 => ⟨S450000, .i32⟩
  | 53 => ⟨S450000x1, .i32⟩
  | 54 => ⟨S450000x128, .f32⟩
  | 55 => ⟨S450000x1, .f32⟩
  | 56 => ⟨S450000x128, .f32⟩
  | 57 => ⟨S450000x128, .f32⟩
  | 58 => ⟨S_, .f32⟩
  | 59 => ⟨S50000x128, .f32⟩
  | 60 => ⟨S450000x1, .i32⟩
  | 61 => ⟨S50000x128, .f32⟩
  | 62 => ⟨S1x128, .f32⟩
  | 63 => ⟨S50000x128, .f32⟩
  | 64 => ⟨S1x128, .f32⟩
  | 65 => ⟨S50000x128, .f32⟩
  | 66 => ⟨S_, .i32⟩
  | 67 => ⟨S450000, .i32⟩
  | 68 => ⟨S450000, .i1⟩
  | 69 => ⟨S_, .i32⟩
  | 70 => ⟨S450000, .i32⟩
  | 71 => ⟨S450000, .i32⟩
  | 72 => ⟨S450000, .i32⟩
  | 73 => ⟨S450000x1, .i32⟩
  | 74 => ⟨S450000x128, .f32⟩
  | 75 => ⟨S450000x1, .f32⟩
  | 76 => ⟨S450000x128, .f32⟩
  | 77 => ⟨S450000x128, .f32⟩
  | 78 => ⟨S_, .f32⟩
  | 79 => ⟨S50000x128, .f32⟩
  | 80 => ⟨S450000x1, .i32⟩
  | 81 => ⟨S50000x128, .f32⟩
  | 82 => ⟨S1x128, .f32⟩
  | 83 => ⟨S1x128, .f32⟩
  | 84 => ⟨S50000x128, .f32⟩
  | 85 => ⟨S_, .i32⟩
  | 86 => ⟨S450000, .i32⟩
  | 87 => ⟨S450000, .i1⟩
  | 88 => ⟨S_, .i32⟩
  | 89 => ⟨S450000, .i32⟩
  | 90 => ⟨S450000, .i32⟩
  | 91 => ⟨S450000, .i32⟩
  | 92 => ⟨S450000x1, .i32⟩
  | 93 => ⟨S450000x128, .f32⟩
  | 94 => ⟨S450000x1, .f32⟩
  | 95 => ⟨S450000x128, .f32⟩
  | 96 => ⟨S450000x128, .f32⟩
  | 97 => ⟨S_, .f32⟩
  | 98 => ⟨S50000x128, .f32⟩
  | 99 => ⟨S450000x1, .i32⟩
  | 100 => ⟨S50000x128, .f32⟩
  | 101 => ⟨S1x128, .f32⟩
  | 102 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S128x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S128x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S1x128, .f32⟩
  | .local _ .vmem, ⟨57, _⟩ => ⟨S128x128, .f32⟩
  | .local _ .vmem, ⟨58, _⟩ => ⟨S1x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S1x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S128x128, .f32⟩
  | .local _ .vmem, ⟨69, _⟩ => ⟨S1x128, .f32⟩
  | .local _ .vmem, ⟨70, _⟩ => ⟨S2000x128, .f32⟩
  | .local _ .vmem, ⟨71, _⟩ => ⟨S2000x128, .f32⟩
  | .local _ .vmem, ⟨72, _⟩ => ⟨S2000x128, .f32⟩
  | .local _ .vmem, ⟨73, _⟩ => ⟨S2000x128, .f32⟩
  | .local _ .vmem, ⟨74, _⟩ => ⟨S1x128, .f32⟩
  | .local _ .vmem, ⟨75, _⟩ => ⟨S128x128, .f32⟩
  | .local _ .vmem, ⟨76, _⟩ => ⟨S1x128, .f32⟩
  | .local _ .vmem, ⟨77, _⟩ => ⟨S2000x128, .f32⟩
  | .local _ .vmem, ⟨78, _⟩ => ⟨S2000x128, .f32⟩
  | .local _ .vmem, ⟨79, _⟩ => ⟨S2000x128, .f32⟩
  | .local _ .vmem, ⟨80, _⟩ => ⟨S2000x128, .f32⟩
  | .local _ .vmem, ⟨81, _⟩ => ⟨S1x128, .f32⟩
  | .local _ .vmem, ⟨82, _⟩ => ⟨S2000x128, .f32⟩
  | .local _ .vmem, ⟨83, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_v10 : Ref sig .tc := ⟨.hbm, 32, rfl⟩
abbrev main_c : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_5 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_8 : Ref sig .tc := ⟨.hbm, 74, rfl⟩
abbrev main_v45 : Ref sig .tc := ⟨.hbm, 75, rfl⟩
abbrev main_v46 : Ref sig .tc := ⟨.hbm, 76, rfl⟩
abbrev main_c_9 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_11 : Ref sig .tc := ⟨.hbm, 94, rfl⟩
abbrev main_v62 : Ref sig .tc := ⟨.hbm, 95, rfl⟩
abbrev main_v63 : Ref sig .tc := ⟨.hbm, 96, rfl⟩
abbrev main_c_12 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_13 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_14 : Ref sig .tc := ⟨.hbm, 113, rfl⟩
abbrev main_v78 : Ref sig .tc := ⟨.hbm, 114, rfl⟩
abbrev main_v79 : Ref sig .tc := ⟨.hbm, 115, rfl⟩
abbrev main_c_15 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_16 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_c_17 : Ref sig .tc := ⟨.hbm, 135, rfl⟩
abbrev main_v97 : Ref sig .tc := ⟨.hbm, 136, rfl⟩
abbrev main_v98 : Ref sig .tc := ⟨.hbm, 137, rfl⟩
abbrev main_c_18 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_19 : Ref sig .tc := ⟨.hbm, 144, rfl⟩
abbrev main_v104 : Ref sig .tc := ⟨.hbm, 145, rfl⟩
abbrev main_v105 : Ref sig .tc := ⟨.hbm, 146, rfl⟩
abbrev main_c_20 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_c_21 : Ref sig .tc := ⟨.hbm, 155, rfl⟩
abbrev main_v113 : Ref sig .tc := ⟨.hbm, 156, rfl⟩
abbrev main_v114 : Ref sig .tc := ⟨.hbm, 157, rfl⟩
abbrev main_c_22 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_23 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_c_24 : Ref sig .tc := ⟨.hbm, 174, rfl⟩
abbrev main_v129 : Ref sig .tc := ⟨.hbm, 175, rfl⟩
abbrev main_v130 : Ref sig .tc := ⟨.hbm, 176, rfl⟩
abbrev main_c_25 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_26 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_c_27 : Ref sig .tc := ⟨.hbm, 194, rfl⟩
abbrev main_v146 : Ref sig .tc := ⟨.hbm, 195, rfl⟩
abbrev main_v147 : Ref sig .tc := ⟨.hbm, 196, rfl⟩
abbrev main_c_28 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_cst_29 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_c_30 : Ref sig .tc := ⟨.hbm, 213, rfl⟩
abbrev main_v162 : Ref sig .tc := ⟨.hbm, 214, rfl⟩
abbrev main_v163 : Ref sig .tc := ⟨.hbm, 215, rfl⟩
abbrev main_c_31 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_cst_32 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg4_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_scratch0 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_scratch0 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg2_0 : Ref sig .tc := ⟨.vmem, 57, rfl⟩
abbrev cc9_stg3_0 : Ref sig .tc := ⟨.vmem, 58, rfl⟩
abbrev cc9_stg4_0 : Ref sig .tc := ⟨.vmem, 59, rfl⟩
abbrev cc9_stg4_1 : Ref sig .tc := ⟨.vmem, 60, rfl⟩
abbrev cc10_stg0_0 : Ref sig .tc := ⟨.vmem, 61, rfl⟩
abbrev cc10_stg0_1 : Ref sig .tc := ⟨.vmem, 62, rfl⟩
abbrev cc10_stg1_0 : Ref sig .tc := ⟨.vmem, 63, rfl⟩
abbrev cc10_stg2_0 : Ref sig .tc := ⟨.vmem, 64, rfl⟩
abbrev cc10_stg2_1 : Ref sig .tc := ⟨.vmem, 65, rfl⟩
abbrev cc11_stg0_0 : Ref sig .tc := ⟨.vmem, 66, rfl⟩
abbrev cc11_stg0_1 : Ref sig .tc := ⟨.vmem, 67, rfl⟩
abbrev cc11_stg1_0 : Ref sig .tc := ⟨.vmem, 68, rfl⟩
abbrev cc11_stg2_0 : Ref sig .tc := ⟨.vmem, 69, rfl⟩
abbrev cc11_stg3_0 : Ref sig .tc := ⟨.vmem, 70, rfl⟩
abbrev cc11_stg3_1 : Ref sig .tc := ⟨.vmem, 71, rfl⟩
abbrev cc12_stg0_0 : Ref sig .tc := ⟨.vmem, 72, rfl⟩
abbrev cc12_stg0_1 : Ref sig .tc := ⟨.vmem, 73, rfl⟩
abbrev cc12_stg1_0 : Ref sig .tc := ⟨.vmem, 74, rfl⟩
abbrev cc12_stg2_0 : Ref sig .tc := ⟨.vmem, 75, rfl⟩
abbrev cc12_stg3_0 : Ref sig .tc := ⟨.vmem, 76, rfl⟩
abbrev cc12_stg4_0 : Ref sig .tc := ⟨.vmem, 77, rfl⟩
abbrev cc12_stg4_1 : Ref sig .tc := ⟨.vmem, 78, rfl⟩
abbrev cc13_stg0_0 : Ref sig .tc := ⟨.vmem, 79, rfl⟩
abbrev cc13_stg0_1 : Ref sig .tc := ⟨.vmem, 80, rfl⟩
abbrev cc13_stg1_0 : Ref sig .tc := ⟨.vmem, 81, rfl⟩
abbrev cc13_stg2_0 : Ref sig .tc := ⟨.vmem, 82, rfl⟩
abbrev cc13_stg2_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem4_0 : DmaSem sig := 29
abbrev cc4_sem4_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc7_sem0_0 : DmaSem sig := 41
abbrev cc7_sem0_1 : DmaSem sig := 42
abbrev cc7_sem1_0 : DmaSem sig := 43
abbrev cc7_sem2_0 : DmaSem sig := 44
abbrev cc7_sem3_0 : DmaSem sig := 45
abbrev cc8_sem0_0 : DmaSem sig := 46
abbrev cc8_sem0_1 : DmaSem sig := 47
abbrev cc8_sem1_0 : DmaSem sig := 48
abbrev cc8_sem2_0 : DmaSem sig := 49
abbrev cc8_sem3_0 : DmaSem sig := 50
abbrev cc8_sem3_1 : DmaSem sig := 51
abbrev cc9_sem0_0 : DmaSem sig := 52
abbrev cc9_sem0_1 : DmaSem sig := 53
abbrev cc9_sem1_0 : DmaSem sig := 54
abbrev cc9_sem2_0 : DmaSem sig := 55
abbrev cc9_sem3_0 : DmaSem sig := 56
abbrev cc9_sem4_0 : DmaSem sig := 57
abbrev cc9_sem4_1 : DmaSem sig := 58
abbrev cc10_sem0_0 : DmaSem sig := 59
abbrev cc10_sem0_1 : DmaSem sig := 60
abbrev cc10_sem1_0 : DmaSem sig := 61
abbrev cc10_sem2_0 : DmaSem sig := 62
abbrev cc10_sem2_1 : DmaSem sig := 63
abbrev cc11_sem0_0 : DmaSem sig := 64
abbrev cc11_sem0_1 : DmaSem sig := 65
abbrev cc11_sem1_0 : DmaSem sig := 66
abbrev cc11_sem2_0 : DmaSem sig := 67
abbrev cc11_sem3_0 : DmaSem sig := 68
abbrev cc11_sem3_1 : DmaSem sig := 69
abbrev cc12_sem0_0 : DmaSem sig := 70
abbrev cc12_sem0_1 : DmaSem sig := 71
abbrev cc12_sem1_0 : DmaSem sig := 72
abbrev cc12_sem2_0 : DmaSem sig := 73
abbrev cc12_sem3_0 : DmaSem sig := 74
abbrev cc12_sem4_0 : DmaSem sig := 75
abbrev cc12_sem4_1 : DmaSem sig := 76
abbrev cc13_sem0_0 : DmaSem sig := 77
abbrev cc13_sem0_1 : DmaSem sig := 78
abbrev cc13_sem1_0 : DmaSem sig := 79
abbrev cc13_sem2_0 : DmaSem sig := 80
abbrev cc13_sem2_1 : DmaSem sig := 81

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def k6_cond2 (i : grid6.Coords) : BitVec 1 :=
  let arg0 : BitVec 32 := BitVec.ofNat 32 (i 0).val
  let c24_i32 : BitVec 32 := 24#32
  let v12 : BitVec 1 := Scalar.cmpi .eq arg0 c24_i32
  let v13 : BitVec 32 := Scalar.extui v12
  let c0_i32_6 : BitVec 32 := 0#32
  let v14 : BitVec 1 := Scalar.cmpi .ne v13 c0_i32_6
  v14

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![25], ![false]⟩

def k7_cond2 (i : grid7.Coords) : BitVec 1 :=
  let arg0 : BitVec 32 := BitVec.ofNat 32 (i 0).val
  let c24_i32 : BitVec 32 := 24#32
  let v12 : BitVec 1 := Scalar.cmpi .eq arg0 c24_i32
  let v13 : BitVec 32 := Scalar.extui v12
  let c0_i32_6 : BitVec 32 := 0#32
  let v14 : BitVec 1 := Scalar.cmpi .ne v13 c0_i32_6
  v14

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S2000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S2000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S2000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S128x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S2000x128 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S2000x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

class Facts₀ : Prop where
  slices_S2x450000_S1x450000_0_0 : S2x450000.Slices ![0, 0] S1x450000
  shapeCasts_S1x450000_S450000 : S1x450000.ShapeCasts S450000
  slices_S2x450000_S1x450000_1_0 : S2x450000.Slices ![1, 0] S1x450000
  bcast_S_S50000 : S_.BroadcastsInDim S50000 (![] : Fin 0 → Fin S50000.rank)
  bcast_S450000_S450000x1_0 : S450000.BroadcastsInDim S450000x1 (![0] : Fin 1 → Fin S450000x1.rank)
  bcast_S_S450000 : S_.BroadcastsInDim S450000 (![] : Fin 0 → Fin S450000.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S450000x1_S450000x128_0_1 : S450000x1.BroadcastsInDim S450000x128 (![0, 1] : Fin 2 → Fin S450000x128.rank)
  bcast_S_S50000x128 : S_.BroadcastsInDim S50000x128 (![] : Fin 0 → Fin S50000x128.rank)
  shapeCasts_S2000x128_S2000x128 : S2000x128.ShapeCasts S2000x128
  reduces_S2000x128_S128 : S2000x128.Reduces [0] S128
  bcast_S50000_S50000x1_0 : S50000.BroadcastsInDim S50000x1 (![0] : Fin 1 → Fin S50000x1.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S2000x128_S128x128_S2000x128_1_0_0_1_n_n_wf : DotDims.WF S2000x128 S128x128 S2000x128 [1] [0] [0] [1] [] []
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1
  dot_S1x128_S128x128_S1x128_1_0_0_1_n_n_wf : DotDims.WF S1x128 S128x128 S1x128 [1] [0] [0] [1] [] []
  gather_S50000x128_S50000x1_S50000x128_1_0_n_n_0_1_1128_wf : GatherDims.WF S50000x128 S50000x1 S50000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S50000x128.size a
  hwx4_4 : ∀ i : grid4.Coords, EltTy.bits .f32 = 32 ∨ (Rect.block (s := S50000x128) S2000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x128.size a ≤ S50000x128.size a
  hwx8_3 : ∀ i : grid8.Coords, EltTy.bits .f32 = 32 ∨ (Rect.block (s := S50000x128) S2000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2000x128.size a ≤ S50000x128.size a
  hwx9_4 : ∀ i : grid9.Coords, EltTy.bits .f32 = 32 ∨ (Rect.block (s := S50000x128) S2000x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x128.size a ≤ S50000x128.size a
  hwx10_2 : ∀ i : grid10.Coords, EltTy.bits .f32 = 32 ∨ (Rect.block (s := S50000x128) S2000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2000x128.size a ≤ S50000x128.size a
  hwx11_3 : ∀ i : grid11.Coords, EltTy.bits .f32 = 32 ∨ (Rect.block (s := S50000x128) S2000x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S50000x128.size a
  hwx12_0 : ∀ i : grid12.Coords, EltTy.bits .f32 = 32 ∨ (Rect.block (s := S50000x128) S2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x128.size a ≤ S1x128.size a
  hwx12_1 : ∀ i : grid12.Coords, EltTy.bits .f32 = 32 ∨ (Rect.block (s := S1x128) S1x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128x128.size a ≤ S128x128.size a
  hwx12_2 : ∀ i : grid12.Coords, EltTy.bits .f32 = 32 ∨ (Rect.block (s := S128x128) S128x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S2000x128.size a ≤ S50000x128.size a
  hwx12_4 : ∀ i : grid12.Coords, EltTy.bits .f32 = 32 ∨ (Rect.block (s := S50000x128) S2000x128.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S50000x128.size a
  hwx13_0 : ∀ i : grid13.Coords, EltTy.bits .f32 = 32 ∨ (Rect.block (s := S50000x128) S2000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2000x128.size a ≤ S50000x128.size a
  hwx13_2 : ∀ i : grid13.Coords, EltTy.bits .f32 = 32 ∨ (Rect.block (s := S50000x128) S2000x128.size (cc13_transform_2 i) (hinb13_2 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v57) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v74) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v76) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77) S2000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v90) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v91) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v92) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v59) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg15) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v93) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v94) S1x128.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v92) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg15) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v95) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v96) S1x128.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v103) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg5) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v111) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v112) S2000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v125) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v126) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg7) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v127) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v128) S2000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v141) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v142) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v143) S2000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v110) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg10) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v144) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v145) S2000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v158) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v159) S1x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_arg12) S128x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v160) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v161) S2000x128.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v174) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v175) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v176) S2000x128.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

class Facts : Prop extends Facts₀ where

variable [Facts]
-- ==== ReferenceIdeal.lean ====
abbrev S50000x128 : Shape := ⟨2, ![50000, 128]⟩
abbrev S2x450000 : Shape := ⟨2, ![2, 450000]⟩
abbrev S450000 : Shape := ⟨1, ![450000]⟩
abbrev S50000 : Shape := ⟨1, ![50000]⟩
abbrev S128x128 : Shape := ⟨2, ![128, 128]⟩
abbrev S128 : Shape := ⟨1, ![128]⟩
abbrev S1x450000 : Shape := ⟨2, ![1, 450000]⟩
abbrev S1x128 : Shape := ⟨2, ![1, 128]⟩
abbrev S_ : Shape := ⟨0, ![]⟩
abbrev S450000x1 : Shape := ⟨2, ![450000, 1]⟩
abbrev S450000x128 : Shape := ⟨2, ![450000, 128]⟩
abbrev S50000x1 : Shape := ⟨2, ![50000, 1]⟩

abbrev nBuf : Space → Nat
  | .hbm => 545
  | .vmem => 0
  | .smem => 0
  | _ => 0

abbrev hbmTy0_0 (i : Nat) : BufTy := match i % 128 with
  | 0 => ⟨S50000x128, .f32⟩
  | 1 => ⟨S2x450000, .i32⟩
  | 2 => ⟨S450000, .f32⟩
  | 3 => ⟨S50000, .i32⟩
  | 4 => ⟨S50000, .i32⟩
  | 5 => ⟨S128x128, .f32⟩
  | 6 => ⟨S128, .f32⟩
  | 7 => ⟨S128x128, .f32⟩
  | 8 => ⟨S128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128x128, .f32⟩
  | 16 => ⟨S128, .f32⟩
  | 17 => ⟨S1x450000, .i32⟩
  | 18 => ⟨S450000, .i32⟩
  | 19 => ⟨S1x450000, .i32⟩
  | 20 => ⟨S450000, .i32⟩
  | 21 => ⟨S50000x128, .f32⟩
  | 22 => ⟨S1x128, .f32⟩
  | 23 => ⟨S50000x128, .f32⟩
  | 24 => ⟨S50000x128, .f32⟩
  | 25 => ⟨S_, .f32⟩
  | 26 => ⟨S50000, .f32⟩
  | 27 => ⟨S450000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S450000, .i32⟩
  | 39 => ⟨S450000, .i1⟩
  | 40 => ⟨S_, .i32⟩
  | 41 => ⟨S450000, .i32⟩
  | 42 => ⟨S450000, .i32⟩
  | 43 => ⟨S450000, .i32⟩
  | 44 => ⟨S450000x1, .i32⟩
  | 45 => ⟨S450000, .f32⟩
  | 46 => ⟨S450000, .f32⟩
  | 47 => ⟨S_, .i32⟩
  | 48 => ⟨S450000, .i32⟩
  | 49 => ⟨S450000, .i1⟩
  | 50 => ⟨S_, .i32⟩
  | 51 => ⟨S450000, .i32⟩
  | 52 => ⟨S450000, .i32⟩
  | 53 => ⟨S450000, .i32⟩
  | 54 => ⟨S450000x1, .i32⟩
  | 55 => ⟨S450000, .f32⟩
  | 56 => ⟨S450000, .f32⟩
  | 57 => ⟨S_, .i32⟩
  | 58 => ⟨S450000, .i32⟩
  | 59 => ⟨S450000, .i1⟩
  | 60 => ⟨S_, .i32⟩
  | 61 => ⟨S450000, .i32⟩
  | 62 => ⟨S450000, .i32⟩
  | 63 => ⟨S450000, .i32⟩
  | 64 => ⟨S450000x1, .i32⟩
  | 65 => ⟨S450000x128, .f32⟩
  | 66 => ⟨S450000x1, .f32⟩
  | 67 => ⟨S450000x128, .f32⟩
  | 68 => ⟨S450000x128, .f32⟩
  | 69 => ⟨S_, .f32⟩
  | 70 => ⟨S50000x128, .f32⟩
  | 71 => ⟨S450000x1, .i32⟩
  | 72 => ⟨S50000x128, .f32⟩
  | 73 => ⟨S_, .f32⟩
  | 74 => ⟨S50000x128, .f32⟩
  | 75 => ⟨S50000x128, .i1⟩
  | 76 => ⟨S1x128, .f32⟩
  | 77 => ⟨S50000x128, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000, .f32⟩
  | 86 => ⟨S450000x1, .i32⟩
  | 87 => ⟨S50000, .f32⟩
  | 88 => ⟨S_, .f32⟩
  | 89 => ⟨S50000, .f32⟩
  | 90 => ⟨S50000, .i1⟩
  | 91 => ⟨S50000, .f32⟩
  | 92 => ⟨S_, .f32⟩
  | 93 => ⟨S_, .f32⟩
  | 94 => ⟨S50000, .f32⟩
  | 95 => ⟨S50000, .f32⟩
  | 96 => ⟨S_, .i32⟩
  | 97 => ⟨S450000, .i32⟩
  | 98 => ⟨S450000, .i1⟩
  | 99 => ⟨S_, .i32⟩
  | 100 => ⟨S450000, .i32⟩
  | 101 => ⟨S450000, .i32⟩
  | 102 => ⟨S450000, .i32⟩
  | 103 => ⟨S450000x1, .i32⟩
  | 104 => ⟨S450000, .f32⟩
  | 105 => ⟨S450000, .f32⟩
  | 106 => ⟨S_, .i32⟩
  | 107 => ⟨S450000, .i32⟩
  | 108 => ⟨S450000, .i1⟩
  | 109 => ⟨S_, .i32⟩
  | 110 => ⟨S450000, .i32⟩
  | 111 => ⟨S450000, .i32⟩
  | 112 => ⟨S450000, .i32⟩
  | 113 => ⟨S450000x1, .i32⟩
  | 114 => ⟨S450000, .f32⟩
  | 115 => ⟨S450000, .f32⟩
  | 116 => ⟨S_, .i32⟩
  | 117 => ⟨S450000, .i32⟩
  | 118 => ⟨S450000, .i1⟩
  | 119 => ⟨S_, .i32⟩
  | 120 => ⟨S450000, .i32⟩
  | 121 => ⟨S450000, .i32⟩
  | 122 => ⟨S450000, .i32⟩
  | 123 => ⟨S450000x1, .i32⟩
  | 124 => ⟨S450000x128, .f32⟩
  | 125 => ⟨S450000x1, .f32⟩
  | 126 => ⟨S450000x128, .f32⟩
  | 127 => ⟨S450000x128, .f32⟩
  | _ => ⟨S50000x128, .f32⟩

abbrev hbmTy0_1 (i : Nat) : BufTy := match i % 128 with
  | 0 => ⟨S_, .f32⟩
  | 1 => ⟨S50000x128, .f32⟩
  | 2 => ⟨S450000x1, .i32⟩
  | 3 => ⟨S50000x128, .f32⟩
  | 4 => ⟨S_, .f32⟩
  | 5 => ⟨S50000x128, .f32⟩
  | 6 => ⟨S50000x128, .i1⟩
  | 7 => ⟨S1x128, .f32⟩
  | 8 => ⟨S50000x128, .f32⟩
  | 9 => ⟨S50000x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S_, .f32⟩
  | 16 => ⟨S50000, .f32⟩
  | 17 => ⟨S450000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S450000, .i32⟩
  | 29 => ⟨S450000, .i1⟩
  | 30 => ⟨S_, .i32⟩
  | 31 => ⟨S450000, .i32⟩
  | 32 => ⟨S450000, .i32⟩
  | 33 => ⟨S450000, .i32⟩
  | 34 => ⟨S450000x1, .i32⟩
  | 35 => ⟨S450000, .f32⟩
  | 36 => ⟨S450000, .f32⟩
  | 37 => ⟨S_, .i32⟩
  | 38 => ⟨S450000, .i32⟩
  | 39 => ⟨S450000, .i1⟩
  | 40 => ⟨S_, .i32⟩
  | 41 => ⟨S450000, .i32⟩
  | 42 => ⟨S450000, .i32⟩
  | 43 => ⟨S450000, .i32⟩
  | 44 => ⟨S450000x1, .i32⟩
  | 45 => ⟨S450000, .f32⟩
  | 46 => ⟨S450000, .f32⟩
  | 47 => ⟨S_, .i32⟩
  | 48 => ⟨S450000, .i32⟩
  | 49 => ⟨S450000, .i1⟩
  | 50 => ⟨S_, .i32⟩
  | 51 => ⟨S450000, .i32⟩
  | 52 => ⟨S450000, .i32⟩
  | 53 => ⟨S450000, .i32⟩
  | 54 => ⟨S450000x1, .i32⟩
  | 55 => ⟨S450000x128, .f32⟩
  | 56 => ⟨S450000x1, .f32⟩
  | 57 => ⟨S450000x128, .f32⟩
  | 58 => ⟨S450000x128, .f32⟩
  | 59 => ⟨S_, .f32⟩
  | 60 => ⟨S50000x128, .f32⟩
  | 61 => ⟨S450000x1, .i32⟩
  | 62 => ⟨S50000x128, .f32⟩
  | 63 => ⟨S_, .f32⟩
  | 64 => ⟨S50000x128, .f32⟩
  | 65 => ⟨S50000x128, .i1⟩
  | 66 => ⟨S1x128, .f32⟩
  | 67 => ⟨S50000x128, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000, .f32⟩
  | 76 => ⟨S450000x1, .i32⟩
  | 77 => ⟨S50000, .f32⟩
  | 78 => ⟨S_, .f32⟩
  | 79 => ⟨S50000, .f32⟩
  | 80 => ⟨S50000, .i1⟩
  | 81 => ⟨S50000, .f32⟩
  | 82 => ⟨S_, .f32⟩
  | 83 => ⟨S_, .f32⟩
  | 84 => ⟨S50000, .f32⟩
  | 85 => ⟨S50000, .f32⟩
  | 86 => ⟨S_, .i32⟩
  | 87 => ⟨S450000, .i32⟩
  | 88 => ⟨S450000, .i1⟩
  | 89 => ⟨S_, .i32⟩
  | 90 => ⟨S450000, .i32⟩
  | 91 => ⟨S450000, .i32⟩
  | 92 => ⟨S450000, .i32⟩
  | 93 => ⟨S450000x1, .i32⟩
  | 94 => ⟨S450000, .f32⟩
  | 95 => ⟨S450000, .f32⟩
  | 96 => ⟨S_, .i32⟩
  | 97 => ⟨S450000, .i32⟩
  | 98 => ⟨S450000, .i1⟩
  | 99 => ⟨S_, .i32⟩
  | 100 => ⟨S450000, .i32⟩
  | 101 => ⟨S450000, .i32⟩
  | 102 => ⟨S450000, .i32⟩
  | 103 => ⟨S450000x1, .i32⟩
  | 104 => ⟨S450000, .f32⟩
  | 105 => ⟨S450000, .f32⟩
  | 106 => ⟨S_, .i32⟩
  | 107 => ⟨S450000, .i32⟩
  | 108 => ⟨S450000, .i1⟩
  | 109 => ⟨S_, .i32⟩
  | 110 => ⟨S450000, .i32⟩
  | 111 => ⟨S450000, .i32⟩
  | 112 => ⟨S450000, .i32⟩
  | 113 => ⟨S450000x1, .i32⟩
  | 114 => ⟨S450000x128, .f32⟩
  | 115 => ⟨S450000x1, .f32⟩
  | 116 => ⟨S450000x128, .f32⟩
  | 117 => ⟨S450000x128, .f32⟩
  | 118 => ⟨S_, .f32⟩
  | 119 => ⟨S50000x128, .f32⟩
  | 120 => ⟨S450000x1, .i32⟩
  | 121 => ⟨S50000x128, .f32⟩
  | 122 => ⟨S_, .f32⟩
  | 123 => ⟨S50000x128, .f32⟩
  | 124 => ⟨S50000x128, .i1⟩
  | 125 => ⟨S1x128, .f32⟩
  | 126 => ⟨S50000x128, .f32⟩
  | 127 => ⟨S50000x128, .f32⟩
  | _ => ⟨S50000x128, .f32⟩

abbrev hbmTy0_2 (i : Nat) : BufTy := match i % 128 with
  | 0 => ⟨S50000x128, .f32⟩
  | 1 => ⟨S_, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S1x128, .f32⟩
  | 8 => ⟨S1x128, .f32⟩
  | 9 => ⟨S_, .f32⟩
  | 10 => ⟨S1x128, .f32⟩
  | 11 => ⟨S1x128, .f32⟩
  | 12 => ⟨S_, .f32⟩
  | 13 => ⟨S1x128, .f32⟩
  | 14 => ⟨S1x128, .f32⟩
  | 15 => ⟨S1x128, .f32⟩
  | 16 => ⟨S1x128, .f32⟩
  | 17 => ⟨S1x128, .f32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S1x128, .f32⟩
  | 25 => ⟨S1x128, .f32⟩
  | 26 => ⟨S_, .f32⟩
  | 27 => ⟨S1x128, .f32⟩
  | 28 => ⟨S1x128, .f32⟩
  | 29 => ⟨S_, .f32⟩
  | 30 => ⟨S1x128, .f32⟩
  | 31 => ⟨S1x128, .f32⟩
  | 32 => ⟨S1x128, .f32⟩
  | 33 => ⟨S1x128, .f32⟩
  | 34 => ⟨S1x128, .f32⟩
  | 35 => ⟨S_, .i32⟩
  | 36 => ⟨S50000, .i32⟩
  | 37 => ⟨S50000, .i1⟩
  | 38 => ⟨S_, .i32⟩
  | 39 => ⟨S50000, .i32⟩
  | 40 => ⟨S50000, .i32⟩
  | 41 => ⟨S50000, .i32⟩
  | 42 => ⟨S50000x1, .i32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000, .f32⟩
  | 50 => ⟨S450000x1, .i32⟩
  | 51 => ⟨S50000, .f32⟩
  | 52 => ⟨S_, .f32⟩
  | 53 => ⟨S50000, .f32⟩
  | 54 => ⟨S50000, .i1⟩
  | 55 => ⟨S50000, .f32⟩
  | 56 => ⟨S_, .f32⟩
  | 57 => ⟨S_, .f32⟩
  | 58 => ⟨S50000, .f32⟩
  | 59 => ⟨S50000, .f32⟩
  | 60 => ⟨S_, .i32⟩
  | 61 => ⟨S450000, .i32⟩
  | 62 => ⟨S450000, .i1⟩
  | 63 => ⟨S_, .i32⟩
  | 64 => ⟨S450000, .i32⟩
  | 65 => ⟨S450000, .i32⟩
  | 66 => ⟨S450000, .i32⟩
  | 67 => ⟨S450000x1, .i32⟩
  | 68 => ⟨S450000, .f32⟩
  | 69 => ⟨S450000, .f32⟩
  | 70 => ⟨S_, .i32⟩
  | 71 => ⟨S450000, .i32⟩
  | 72 => ⟨S450000, .i1⟩
  | 73 => ⟨S_, .i32⟩
  | 74 => ⟨S450000, .i32⟩
  | 75 => ⟨S450000, .i32⟩
  | 76 => ⟨S450000, .i32⟩
  | 77 => ⟨S450000x1, .i32⟩
  | 78 => ⟨S450000, .f32⟩
  | 79 => ⟨S450000, .f32⟩
  | 80 => ⟨S_, .i32⟩
  | 81 => ⟨S450000, .i32⟩
  | 82 => ⟨S450000, .i1⟩
  | 83 => ⟨S_, .i32⟩
  | 84 => ⟨S450000, .i32⟩
  | 85 => ⟨S450000, .i32⟩
  | 86 => ⟨S450000, .i32⟩
  | 87 => ⟨S450000x1, .i32⟩
  | 88 => ⟨S450000x128, .f32⟩
  | 89 => ⟨S450000x1, .f32⟩
  | 90 => ⟨S450000x128, .f32⟩
  | 91 => ⟨S450000x128, .f32⟩
  | 92 => ⟨S_, .f32⟩
  | 93 => ⟨S50000x128, .f32⟩
  | 94 => ⟨S450000x1, .i32⟩
  | 95 => ⟨S50000x128, .f32⟩
  | 96 => ⟨S_, .f32⟩
  | 97 => ⟨S50000x128, .f32⟩
  | 98 => ⟨S50000x128, .i1⟩
  | 99 => ⟨S1x128, .f32⟩
  | 100 => ⟨S50000x128, .f32⟩
  | 101 => ⟨S50000x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S50000, .f32⟩
  | 109 => ⟨S450000x1, .i32⟩
  | 110 => ⟨S50000, .f32⟩
  | 111 => ⟨S_, .f32⟩
  | 112 => ⟨S50000, .f32⟩
  | 113 => ⟨S50000, .i1⟩
  | 114 => ⟨S50000, .f32⟩
  | 115 => ⟨S_, .f32⟩
  | 116 => ⟨S_, .f32⟩
  | 117 => ⟨S50000, .f32⟩
  | 118 => ⟨S50000, .f32⟩
  | 119 => ⟨S_, .i32⟩
  | 120 => ⟨S450000, .i32⟩
  | 121 => ⟨S450000, .i1⟩
  | 122 => ⟨S_, .i32⟩
  | 123 => ⟨S450000, .i32⟩
  | 124 => ⟨S450000, .i32⟩
  | 125 => ⟨S450000, .i32⟩
  | 126 => ⟨S450000x1, .i32⟩
  | 127 => ⟨S450000, .f32⟩
  | _ => ⟨S50000x128, .f32⟩

abbrev hbmTy0_3 (i : Nat) : BufTy := match i % 128 with
  | 0 => ⟨S450000, .f32⟩
  | 1 => ⟨S_, .i32⟩
  | 2 => ⟨S450000, .i32⟩
  | 3 => ⟨S450000, .i1⟩
  | 4 => ⟨S_, .i32⟩
  | 5 => ⟨S450000, .i32⟩
  | 6 => ⟨S450000, .i32⟩
  | 7 => ⟨S450000, .i32⟩
  | 8 => ⟨S450000x1, .i32⟩
  | 9 => ⟨S450000, .f32⟩
  | 10 => ⟨S450000, .f32⟩
  | 11 => ⟨S_, .i32⟩
  | 12 => ⟨S450000, .i32⟩
  | 13 => ⟨S450000, .i1⟩
  | 14 => ⟨S_, .i32⟩
  | 15 => ⟨S450000, .i32⟩
  | 16 => ⟨S450000, .i32⟩
  | 17 => ⟨S450000, .i32⟩
  | 18 => ⟨S450000x1, .i32⟩
  | 19 => ⟨S450000x128, .f32⟩
  | 20 => ⟨S450000x1, .f32⟩
  | 21 => ⟨S450000x128, .f32⟩
  | 22 => ⟨S450000x128, .f32⟩
  | 23 => ⟨S_, .f32⟩
  | 24 => ⟨S50000x128, .f32⟩
  | 25 => ⟨S450000x1, .i32⟩
  | 26 => ⟨S50000x128, .f32⟩
  | 27 => ⟨S_, .f32⟩
  | 28 => ⟨S50000x128, .f32⟩
  | 29 => ⟨S50000x128, .i1⟩
  | 30 => ⟨S1x128, .f32⟩
  | 31 => ⟨S50000x128, .f32⟩
  | 32 => ⟨S50000x128, .f32⟩
  | 33 => ⟨S50000x128, .f32⟩
  | 34 => ⟨S_, .i32⟩
  | 35 => ⟨S50000, .i32⟩
  | 36 => ⟨S50000, .i1⟩
  | 37 => ⟨S_, .i32⟩
  | 38 => ⟨S50000, .i32⟩
  | 39 => ⟨S50000, .i32⟩
  | 40 => ⟨S50000, .i32⟩
  | 41 => ⟨S50000x1, .i32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S50000, .f32⟩
  | 49 => ⟨S450000x1, .i32⟩
  | 50 => ⟨S50000, .f32⟩
  | 51 => ⟨S_, .f32⟩
  | 52 => ⟨S50000, .f32⟩
  | 53 => ⟨S50000, .i1⟩
  | 54 => ⟨S50000, .f32⟩
  | 55 => ⟨S_, .f32⟩
  | 56 => ⟨S_, .f32⟩
  | 57 => ⟨S50000, .f32⟩
  | 58 => ⟨S50000, .f32⟩
  | 59 => ⟨S_, .i32⟩
  | 60 => ⟨S450000, .i32⟩
  | 61 => ⟨S450000, .i1⟩
  | 62 => ⟨S_, .i32⟩
  | 63 => ⟨S450000, .i32⟩
  | 64 => ⟨S450000, .i32⟩
  | 65 => ⟨S450000, .i32⟩
  | 66 => ⟨S450000x1, .i32⟩
  | 67 => ⟨S450000, .f32⟩
  | 68 => ⟨S450000, .f32⟩
  | 69 => ⟨S_, .i32⟩
  | 70 => ⟨S450000, .i32⟩
  | 71 => ⟨S450000, .i1⟩
  | 72 => ⟨S_, .i32⟩
  | 73 => ⟨S450000, .i32⟩
  | 74 => ⟨S450000, .i32⟩
  | 75 => ⟨S450000, .i32⟩
  | 76 => ⟨S450000x1, .i32⟩
  | 77 => ⟨S450000, .f32⟩
  | 78 => ⟨S450000, .f32⟩
  | 79 => ⟨S_, .i32⟩
  | 80 => ⟨S450000, .i32⟩
  | 81 => ⟨S450000, .i1⟩
  | 82 => ⟨S_, .i32⟩
  | 83 => ⟨S450000, .i32⟩
  | 84 => ⟨S450000, .i32⟩
  | 85 => ⟨S450000, .i32⟩
  | 86 => ⟨S450000x1, .i32⟩
  | 87 => ⟨S450000x128, .f32⟩
  | 88 => ⟨S450000x1, .f32⟩
  | 89 => ⟨S450000x128, .f32⟩
  | 90 => ⟨S450000x128, .f32⟩
  | 91 => ⟨S_, .f32⟩
  | 92 => ⟨S50000x128, .f32⟩
  | 93 => ⟨S450000x1, .i32⟩
  | 94 => ⟨S50000x128, .f32⟩
  | 95 => ⟨S_, .f32⟩
  | 96 => ⟨S50000x128, .f32⟩
  | 97 => ⟨S50000x128, .i1⟩
  | 98 => ⟨S1x128, .f32⟩
  | 99 => ⟨S50000x128, .f32⟩
  | 100 => ⟨S50000x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000, .f32⟩
  | 108 => ⟨S450000x1, .i32⟩
  | 109 => ⟨S50000, .f32⟩
  | 110 => ⟨S_, .f32⟩
  | 111 => ⟨S50000, .f32⟩
  | 112 => ⟨S50000, .i1⟩
  | 113 => ⟨S50000, .f32⟩
  | 114 => ⟨S_, .f32⟩
  | 115 => ⟨S_, .f32⟩
  | 116 => ⟨S50000, .f32⟩
  | 117 => ⟨S50000, .f32⟩
  | 118 => ⟨S_, .i32⟩
  | 119 => ⟨S450000, .i32⟩
  | 120 => ⟨S450000, .i1⟩
  | 121 => ⟨S_, .i32⟩
  | 122 => ⟨S450000, .i32⟩
  | 123 => ⟨S450000, .i32⟩
  | 124 => ⟨S450000, .i32⟩
  | 125 => ⟨S450000x1, .i32⟩
  | 126 => ⟨S450000, .f32⟩
  | 127 => ⟨S450000, .f32⟩
  | _ => ⟨S50000x128, .f32⟩

abbrev hbmTy0_4 (i : Nat) : BufTy := match i % 128 with
  | 0 => ⟨S_, .i32⟩
  | 1 => ⟨S450000, .i32⟩
  | 2 => ⟨S450000, .i1⟩
  | 3 => ⟨S_, .i32⟩
  | 4 => ⟨S450000, .i32⟩
  | 5 => ⟨S450000, .i32⟩
  | 6 => ⟨S450000, .i32⟩
  | 7 => ⟨S450000x1, .i32⟩
  | 8 => ⟨S450000, .f32⟩
  | 9 => ⟨S450000, .f32⟩
  | 10 => ⟨S_, .i32⟩
  | 11 => ⟨S450000, .i32⟩
  | 12 => ⟨S450000, .i1⟩
  | 13 => ⟨S_, .i32⟩
  | 14 => ⟨S450000, .i32⟩
  | 15 => ⟨S450000, .i32⟩
  | 16 => ⟨S450000, .i32⟩
  | 17 => ⟨S450000x1, .i32⟩
  | 18 => ⟨S450000x128, .f32⟩
  | 19 => ⟨S450000x1, .f32⟩
  | 20 => ⟨S450000x128, .f32⟩
  | 21 => ⟨S450000x128, .f32⟩
  | 22 => ⟨S_, .f32⟩
  | 23 => ⟨S50000x128, .f32⟩
  | 24 => ⟨S450000x1, .i32⟩
  | 25 => ⟨S50000x128, .f32⟩
  | 26 => ⟨S_, .f32⟩
  | 27 => ⟨S50000x128, .f32⟩
  | 28 => ⟨S50000x128, .i1⟩
  | 29 => ⟨S1x128, .f32⟩
  | 30 => ⟨S50000x128, .f32⟩
  | 31 => ⟨S50000x128, .f32⟩
  | 32 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_3 : Ref sig .tc := ⟨.hbm, 47, rfl⟩
abbrev main_v23 : Ref sig .tc := ⟨.hbm, 48, rfl⟩
abbrev main_v24 : Ref sig .tc := ⟨.hbm, 49, rfl⟩
abbrev main_c_4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_5 : Ref sig .tc := ⟨.hbm, 57, rfl⟩
abbrev main_v31 : Ref sig .tc := ⟨.hbm, 58, rfl⟩
abbrev main_v32 : Ref sig .tc := ⟨.hbm, 59, rfl⟩
abbrev main_c_6 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_11 : Ref sig .tc := ⟨.hbm, 92, rfl⟩
abbrev main_call2_v0 : Ref sig .tc := ⟨.hbm, 93, rfl⟩
abbrev main_call2_v1 : Ref sig .tc := ⟨.hbm, 94, rfl⟩
abbrev main_v60 : Ref sig .tc := ⟨.hbm, 95, rfl⟩
abbrev main_c_12 : Ref sig .tc := ⟨.hbm, 96, rfl⟩
abbrev main_v61 : Ref sig .tc := ⟨.hbm, 97, rfl⟩
abbrev main_v62 : Ref sig .tc := ⟨.hbm, 98, rfl⟩
abbrev main_c_13 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_14 : Ref sig .tc := ⟨.hbm, 106, rfl⟩
abbrev main_v69 : Ref sig .tc := ⟨.hbm, 107, rfl⟩
abbrev main_v70 : Ref sig .tc := ⟨.hbm, 108, rfl⟩
abbrev main_c_15 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_16 : Ref sig .tc := ⟨.hbm, 116, rfl⟩
abbrev main_v77 : Ref sig .tc := ⟨.hbm, 117, rfl⟩
abbrev main_v78 : Ref sig .tc := ⟨.hbm, 118, rfl⟩
abbrev main_c_17 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_18 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_19 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_20 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_21 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_22 : Ref sig .tc := ⟨.hbm, 151, rfl⟩
abbrev main_call4_v0 : Ref sig .tc := ⟨.hbm, 152, rfl⟩
abbrev main_call4_v1 : Ref sig .tc := ⟨.hbm, 153, rfl⟩
abbrev main_v106 : Ref sig .tc := ⟨.hbm, 154, rfl⟩
abbrev main_c_23 : Ref sig .tc := ⟨.hbm, 155, rfl⟩
abbrev main_v107 : Ref sig .tc := ⟨.hbm, 156, rfl⟩
abbrev main_v108 : Ref sig .tc := ⟨.hbm, 157, rfl⟩
abbrev main_c_24 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_c_25 : Ref sig .tc := ⟨.hbm, 165, rfl⟩
abbrev main_v115 : Ref sig .tc := ⟨.hbm, 166, rfl⟩
abbrev main_v116 : Ref sig .tc := ⟨.hbm, 167, rfl⟩
abbrev main_c_26 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_c_27 : Ref sig .tc := ⟨.hbm, 175, rfl⟩
abbrev main_v123 : Ref sig .tc := ⟨.hbm, 176, rfl⟩
abbrev main_v124 : Ref sig .tc := ⟨.hbm, 177, rfl⟩
abbrev main_c_28 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_cst_29 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_cst_30 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_cst_31 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_cst_32 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_cst_33 : Ref sig .tc := ⟨.hbm, 210, rfl⟩
abbrev main_call6_v0 : Ref sig .tc := ⟨.hbm, 211, rfl⟩
abbrev main_call6_v1 : Ref sig .tc := ⟨.hbm, 212, rfl⟩
abbrev main_v152 : Ref sig .tc := ⟨.hbm, 213, rfl⟩
abbrev main_c_34 : Ref sig .tc := ⟨.hbm, 214, rfl⟩
abbrev main_v153 : Ref sig .tc := ⟨.hbm, 215, rfl⟩
abbrev main_v154 : Ref sig .tc := ⟨.hbm, 216, rfl⟩
abbrev main_c_35 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_c_36 : Ref sig .tc := ⟨.hbm, 224, rfl⟩
abbrev main_v161 : Ref sig .tc := ⟨.hbm, 225, rfl⟩
abbrev main_v162 : Ref sig .tc := ⟨.hbm, 226, rfl⟩
abbrev main_c_37 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_c_38 : Ref sig .tc := ⟨.hbm, 234, rfl⟩
abbrev main_v169 : Ref sig .tc := ⟨.hbm, 235, rfl⟩
abbrev main_v170 : Ref sig .tc := ⟨.hbm, 236, rfl⟩
abbrev main_c_39 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_cst_40 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_cst_41 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_cst_42 : Ref sig .tc := ⟨.hbm, 257, rfl⟩
abbrev main_v188 : Ref sig .tc := ⟨.hbm, 258, rfl⟩
abbrev main_v189 : Ref sig .tc := ⟨.hbm, 259, rfl⟩
abbrev main_cst_43 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_cst_44 : Ref sig .tc := ⟨.hbm, 265, rfl⟩
abbrev main_v194 : Ref sig .tc := ⟨.hbm, 266, rfl⟩
abbrev main_v195 : Ref sig .tc := ⟨.hbm, 267, rfl⟩
abbrev main_cst_45 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_cst_46 : Ref sig .tc := ⟨.hbm, 274, rfl⟩
abbrev main_v201 : Ref sig .tc := ⟨.hbm, 275, rfl⟩
abbrev main_v202 : Ref sig .tc := ⟨.hbm, 276, rfl⟩
abbrev main_cst_47 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_cst_48 : Ref sig .tc := ⟨.hbm, 282, rfl⟩
abbrev main_v207 : Ref sig .tc := ⟨.hbm, 283, rfl⟩
abbrev main_v208 : Ref sig .tc := ⟨.hbm, 284, rfl⟩
abbrev main_cst_49 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_c_50 : Ref sig .tc := ⟨.hbm, 291, rfl⟩
abbrev main_v214 : Ref sig .tc := ⟨.hbm, 292, rfl⟩
abbrev main_v215 : Ref sig .tc := ⟨.hbm, 293, rfl⟩
abbrev main_c_51 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_cst_52 : Ref sig .tc := ⟨.hbm, 304, rfl⟩
abbrev main_v225 : Ref sig .tc := ⟨.hbm, 305, rfl⟩
abbrev main_v226 : Ref sig .tc := ⟨.hbm, 306, rfl⟩
abbrev main_v227 : Ref sig .tc := ⟨.hbm, 307, rfl⟩
abbrev main_cst_53 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_cst_54 : Ref sig .tc := ⟨.hbm, 312, rfl⟩
abbrev main_call8_v0 : Ref sig .tc := ⟨.hbm, 313, rfl⟩
abbrev main_call8_v1 : Ref sig .tc := ⟨.hbm, 314, rfl⟩
abbrev main_v231 : Ref sig .tc := ⟨.hbm, 315, rfl⟩
abbrev main_c_55 : Ref sig .tc := ⟨.hbm, 316, rfl⟩
abbrev main_v232 : Ref sig .tc := ⟨.hbm, 317, rfl⟩
abbrev main_v233 : Ref sig .tc := ⟨.hbm, 318, rfl⟩
abbrev main_c_56 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_v237 : Ref sig .tc := ⟨.hbm, 323, rfl⟩
abbrev main_v238 : Ref sig .tc := ⟨.hbm, 324, rfl⟩
abbrev main_v239 : Ref sig .tc := ⟨.hbm, 325, rfl⟩
abbrev main_c_57 : Ref sig .tc := ⟨.hbm, 326, rfl⟩
abbrev main_v240 : Ref sig .tc := ⟨.hbm, 327, rfl⟩
abbrev main_v241 : Ref sig .tc := ⟨.hbm, 328, rfl⟩
abbrev main_c_58 : Ref sig .tc := ⟨.hbm, 329, rfl⟩
abbrev main_v242 : Ref sig .tc := ⟨.hbm, 330, rfl⟩
abbrev main_v243 : Ref sig .tc := ⟨.hbm, 331, rfl⟩
abbrev main_v244 : Ref sig .tc := ⟨.hbm, 332, rfl⟩
abbrev main_v245 : Ref sig .tc := ⟨.hbm, 333, rfl⟩
abbrev main_v246 : Ref sig .tc := ⟨.hbm, 334, rfl⟩
abbrev main_v247 : Ref sig .tc := ⟨.hbm, 335, rfl⟩
abbrev main_c_59 : Ref sig .tc := ⟨.hbm, 336, rfl⟩
abbrev main_v248 : Ref sig .tc := ⟨.hbm, 337, rfl⟩
abbrev main_v249 : Ref sig .tc := ⟨.hbm, 338, rfl⟩
abbrev main_c_60 : Ref sig .tc := ⟨.hbm, 339, rfl⟩
abbrev main_v250 : Ref sig .tc := ⟨.hbm, 340, rfl⟩
abbrev main_v251 : Ref sig .tc := ⟨.hbm, 341, rfl⟩
abbrev main_v252 : Ref sig .tc := ⟨.hbm, 342, rfl⟩
abbrev main_v253 : Ref sig .tc := ⟨.hbm, 343, rfl⟩
abbrev main_v254 : Ref sig .tc := ⟨.hbm, 344, rfl⟩
abbrev main_v255 : Ref sig .tc := ⟨.hbm, 345, rfl⟩
abbrev main_v256 : Ref sig .tc := ⟨.hbm, 346, rfl⟩
abbrev main_v257 : Ref sig .tc := ⟨.hbm, 347, rfl⟩
abbrev main_cst_61 : Ref sig .tc := ⟨.hbm, 348, rfl⟩
abbrev main_v258 : Ref sig .tc := ⟨.hbm, 349, rfl⟩
abbrev main_v259 : Ref sig .tc := ⟨.hbm, 350, rfl⟩
abbrev main_v260 : Ref sig .tc := ⟨.hbm, 351, rfl⟩
abbrev main_cst_62 : Ref sig .tc := ⟨.hbm, 352, rfl⟩
abbrev main_v261 : Ref sig .tc := ⟨.hbm, 353, rfl⟩
abbrev main_v262 : Ref sig .tc := ⟨.hbm, 354, rfl⟩
abbrev main_v263 : Ref sig .tc := ⟨.hbm, 355, rfl⟩
abbrev main_v264 : Ref sig .tc := ⟨.hbm, 356, rfl⟩
abbrev main_v265 : Ref sig .tc := ⟨.hbm, 357, rfl⟩
abbrev main_v266 : Ref sig .tc := ⟨.hbm, 358, rfl⟩
abbrev main_v267 : Ref sig .tc := ⟨.hbm, 359, rfl⟩
abbrev main_v268 : Ref sig .tc := ⟨.hbm, 360, rfl⟩
abbrev main_v269 : Ref sig .tc := ⟨.hbm, 361, rfl⟩
abbrev main_v270 : Ref sig .tc := ⟨.hbm, 362, rfl⟩
abbrev main_cst_63 : Ref sig .tc := ⟨.hbm, 363, rfl⟩
abbrev main_v271 : Ref sig .tc := ⟨.hbm, 364, rfl⟩
abbrev main_v272 : Ref sig .tc := ⟨.hbm, 365, rfl⟩
abbrev main_v273 : Ref sig .tc := ⟨.hbm, 366, rfl⟩
abbrev main_cst_64 : Ref sig .tc := ⟨.hbm, 367, rfl⟩
abbrev main_v274 : Ref sig .tc := ⟨.hbm, 368, rfl⟩
abbrev main_v275 : Ref sig .tc := ⟨.hbm, 369, rfl⟩
abbrev main_v276 : Ref sig .tc := ⟨.hbm, 370, rfl⟩
abbrev main_cst_65 : Ref sig .tc := ⟨.hbm, 371, rfl⟩
abbrev main_call10_v0 : Ref sig .tc := ⟨.hbm, 372, rfl⟩
abbrev main_call10_v1 : Ref sig .tc := ⟨.hbm, 373, rfl⟩
abbrev main_v277 : Ref sig .tc := ⟨.hbm, 374, rfl⟩
abbrev main_c_66 : Ref sig .tc := ⟨.hbm, 375, rfl⟩
abbrev main_v278 : Ref sig .tc := ⟨.hbm, 376, rfl⟩
abbrev main_v279 : Ref sig .tc := ⟨.hbm, 377, rfl⟩
abbrev main_c_67 : Ref sig .tc := ⟨.hbm, 378, rfl⟩
abbrev main_v280 : Ref sig .tc := ⟨.hbm, 379, rfl⟩
abbrev main_v281 : Ref sig .tc := ⟨.hbm, 380, rfl⟩
abbrev main_v282 : Ref sig .tc := ⟨.hbm, 381, rfl⟩
abbrev main_v283 : Ref sig .tc := ⟨.hbm, 382, rfl⟩
abbrev main_v284 : Ref sig .tc := ⟨.hbm, 383, rfl⟩
abbrev main_v285 : Ref sig .tc := ⟨.hbm, 384, rfl⟩
abbrev main_c_68 : Ref sig .tc := ⟨.hbm, 385, rfl⟩
abbrev main_v286 : Ref sig .tc := ⟨.hbm, 386, rfl⟩
abbrev main_v287 : Ref sig .tc := ⟨.hbm, 387, rfl⟩
abbrev main_c_69 : Ref sig .tc := ⟨.hbm, 388, rfl⟩
abbrev main_v288 : Ref sig .tc := ⟨.hbm, 389, rfl⟩
abbrev main_v289 : Ref sig .tc := ⟨.hbm, 390, rfl⟩
abbrev main_v290 : Ref sig .tc := ⟨.hbm, 391, rfl⟩
abbrev main_v291 : Ref sig .tc := ⟨.hbm, 392, rfl⟩
abbrev main_v292 : Ref sig .tc := ⟨.hbm, 393, rfl⟩
abbrev main_v293 : Ref sig .tc := ⟨.hbm, 394, rfl⟩
abbrev main_c_70 : Ref sig .tc := ⟨.hbm, 395, rfl⟩
abbrev main_v294 : Ref sig .tc := ⟨.hbm, 396, rfl⟩
abbrev main_v295 : Ref sig .tc := ⟨.hbm, 397, rfl⟩
abbrev main_c_71 : Ref sig .tc := ⟨.hbm, 398, rfl⟩
abbrev main_v296 : Ref sig .tc := ⟨.hbm, 399, rfl⟩
abbrev main_v297 : Ref sig .tc := ⟨.hbm, 400, rfl⟩
abbrev main_v298 : Ref sig .tc := ⟨.hbm, 401, rfl⟩
abbrev main_v299 : Ref sig .tc := ⟨.hbm, 402, rfl⟩
abbrev main_v300 : Ref sig .tc := ⟨.hbm, 403, rfl⟩
abbrev main_v301 : Ref sig .tc := ⟨.hbm, 404, rfl⟩
abbrev main_v302 : Ref sig .tc := ⟨.hbm, 405, rfl⟩
abbrev main_v303 : Ref sig .tc := ⟨.hbm, 406, rfl⟩
abbrev main_cst_72 : Ref sig .tc := ⟨.hbm, 407, rfl⟩
abbrev main_v304 : Ref sig .tc := ⟨.hbm, 408, rfl⟩
abbrev main_v305 : Ref sig .tc := ⟨.hbm, 409, rfl⟩
abbrev main_v306 : Ref sig .tc := ⟨.hbm, 410, rfl⟩
abbrev main_cst_73 : Ref sig .tc := ⟨.hbm, 411, rfl⟩
abbrev main_v307 : Ref sig .tc := ⟨.hbm, 412, rfl⟩
abbrev main_v308 : Ref sig .tc := ⟨.hbm, 413, rfl⟩
abbrev main_v309 : Ref sig .tc := ⟨.hbm, 414, rfl⟩
abbrev main_v310 : Ref sig .tc := ⟨.hbm, 415, rfl⟩
abbrev main_v311 : Ref sig .tc := ⟨.hbm, 416, rfl⟩
abbrev main_v312 : Ref sig .tc := ⟨.hbm, 417, rfl⟩
abbrev main_c_74 : Ref sig .tc := ⟨.hbm, 418, rfl⟩
abbrev main_v313 : Ref sig .tc := ⟨.hbm, 419, rfl⟩
abbrev main_v314 : Ref sig .tc := ⟨.hbm, 420, rfl⟩
abbrev main_c_75 : Ref sig .tc := ⟨.hbm, 421, rfl⟩
abbrev main_v315 : Ref sig .tc := ⟨.hbm, 422, rfl⟩
abbrev main_v316 : Ref sig .tc := ⟨.hbm, 423, rfl⟩
abbrev main_v317 : Ref sig .tc := ⟨.hbm, 424, rfl⟩
abbrev main_v318 : Ref sig .tc := ⟨.hbm, 425, rfl⟩
abbrev main_v319 : Ref sig .tc := ⟨.hbm, 426, rfl⟩
abbrev main_v320 : Ref sig .tc := ⟨.hbm, 427, rfl⟩
abbrev main_v321 : Ref sig .tc := ⟨.hbm, 428, rfl⟩
abbrev main_v322 : Ref sig .tc := ⟨.hbm, 429, rfl⟩
abbrev main_v323 : Ref sig .tc := ⟨.hbm, 430, rfl⟩
abbrev main_cst_76 : Ref sig .tc := ⟨.hbm, 431, rfl⟩
abbrev main_v324 : Ref sig .tc := ⟨.hbm, 432, rfl⟩
abbrev main_v325 : Ref sig .tc := ⟨.hbm, 433, rfl⟩
abbrev main_v326 : Ref sig .tc := ⟨.hbm, 434, rfl⟩
abbrev main_cst_77 : Ref sig .tc := ⟨.hbm, 435, rfl⟩
abbrev main_v327 : Ref sig .tc := ⟨.hbm, 436, rfl⟩
abbrev main_v328 : Ref sig .tc := ⟨.hbm, 437, rfl⟩
abbrev main_v329 : Ref sig .tc := ⟨.hbm, 438, rfl⟩
abbrev main_cst_78 : Ref sig .tc := ⟨.hbm, 439, rfl⟩
abbrev main_call12_v0 : Ref sig .tc := ⟨.hbm, 440, rfl⟩
abbrev main_call12_v1 : Ref sig .tc := ⟨.hbm, 441, rfl⟩
abbrev main_v330 : Ref sig .tc := ⟨.hbm, 442, rfl⟩
abbrev main_c_79 : Ref sig .tc := ⟨.hbm, 443, rfl⟩
abbrev main_v331 : Ref sig .tc := ⟨.hbm, 444, rfl⟩
abbrev main_v332 : Ref sig .tc := ⟨.hbm, 445, rfl⟩
abbrev main_c_80 : Ref sig .tc := ⟨.hbm, 446, rfl⟩
abbrev main_v333 : Ref sig .tc := ⟨.hbm, 447, rfl⟩
abbrev main_v334 : Ref sig .tc := ⟨.hbm, 448, rfl⟩
abbrev main_v335 : Ref sig .tc := ⟨.hbm, 449, rfl⟩
abbrev main_v336 : Ref sig .tc := ⟨.hbm, 450, rfl⟩
abbrev main_v337 : Ref sig .tc := ⟨.hbm, 451, rfl⟩
abbrev main_v338 : Ref sig .tc := ⟨.hbm, 452, rfl⟩
abbrev main_c_81 : Ref sig .tc := ⟨.hbm, 453, rfl⟩
abbrev main_v339 : Ref sig .tc := ⟨.hbm, 454, rfl⟩
abbrev main_v340 : Ref sig .tc := ⟨.hbm, 455, rfl⟩
abbrev main_c_82 : Ref sig .tc := ⟨.hbm, 456, rfl⟩
abbrev main_v341 : Ref sig .tc := ⟨.hbm, 457, rfl⟩
abbrev main_v342 : Ref sig .tc := ⟨.hbm, 458, rfl⟩
abbrev main_v343 : Ref sig .tc := ⟨.hbm, 459, rfl⟩
abbrev main_v344 : Ref sig .tc := ⟨.hbm, 460, rfl⟩
abbrev main_v345 : Ref sig .tc := ⟨.hbm, 461, rfl⟩
abbrev main_v346 : Ref sig .tc := ⟨.hbm, 462, rfl⟩
abbrev main_c_83 : Ref sig .tc := ⟨.hbm, 463, rfl⟩
abbrev main_v347 : Ref sig .tc := ⟨.hbm, 464, rfl⟩
abbrev main_v348 : Ref sig .tc := ⟨.hbm, 465, rfl⟩
abbrev main_c_84 : Ref sig .tc := ⟨.hbm, 466, rfl⟩
abbrev main_v349 : Ref sig .tc := ⟨.hbm, 467, rfl⟩
abbrev main_v350 : Ref sig .tc := ⟨.hbm, 468, rfl⟩
abbrev main_v351 : Ref sig .tc := ⟨.hbm, 469, rfl⟩
abbrev main_v352 : Ref sig .tc := ⟨.hbm, 470, rfl⟩
abbrev main_v353 : Ref sig .tc := ⟨.hbm, 471, rfl⟩
abbrev main_v354 : Ref sig .tc := ⟨.hbm, 472, rfl⟩
abbrev main_v355 : Ref sig .tc := ⟨.hbm, 473, rfl⟩
abbrev main_v356 : Ref sig .tc := ⟨.hbm, 474, rfl⟩
abbrev main_cst_85 : Ref sig .tc := ⟨.hbm, 475, rfl⟩
abbrev main_v357 : Ref sig .tc := ⟨.hbm, 476, rfl⟩
abbrev main_v358 : Ref sig .tc := ⟨.hbm, 477, rfl⟩
abbrev main_v359 : Ref sig .tc := ⟨.hbm, 478, rfl⟩
abbrev main_cst_86 : Ref sig .tc := ⟨.hbm, 479, rfl⟩
abbrev main_v360 : Ref sig .tc := ⟨.hbm, 480, rfl⟩
abbrev main_v361 : Ref sig .tc := ⟨.hbm, 481, rfl⟩
abbrev main_v362 : Ref sig .tc := ⟨.hbm, 482, rfl⟩
abbrev main_v363 : Ref sig .tc := ⟨.hbm, 483, rfl⟩
abbrev main_v364 : Ref sig .tc := ⟨.hbm, 484, rfl⟩
abbrev main_v365 : Ref sig .tc := ⟨.hbm, 485, rfl⟩
abbrev main_v366 : Ref sig .tc := ⟨.hbm, 486, rfl⟩
abbrev main_v367 : Ref sig .tc := ⟨.hbm, 487, rfl⟩
abbrev main_v368 : Ref sig .tc := ⟨.hbm, 488, rfl⟩
abbrev main_v369 : Ref sig .tc := ⟨.hbm, 489, rfl⟩
abbrev main_cst_87 : Ref sig .tc := ⟨.hbm, 490, rfl⟩
abbrev main_v370 : Ref sig .tc := ⟨.hbm, 491, rfl⟩
abbrev main_v371 : Ref sig .tc := ⟨.hbm, 492, rfl⟩
abbrev main_v372 : Ref sig .tc := ⟨.hbm, 493, rfl⟩
abbrev main_cst_88 : Ref sig .tc := ⟨.hbm, 494, rfl⟩
abbrev main_v373 : Ref sig .tc := ⟨.hbm, 495, rfl⟩
abbrev main_v374 : Ref sig .tc := ⟨.hbm, 496, rfl⟩
abbrev main_v375 : Ref sig .tc := ⟨.hbm, 497, rfl⟩
abbrev main_cst_89 : Ref sig .tc := ⟨.hbm, 498, rfl⟩
abbrev main_call14_v0 : Ref sig .tc := ⟨.hbm, 499, rfl⟩
abbrev main_call14_v1 : Ref sig .tc := ⟨.hbm, 500, rfl⟩
abbrev main_v376 : Ref sig .tc := ⟨.hbm, 501, rfl⟩
abbrev main_c_90 : Ref sig .tc := ⟨.hbm, 502, rfl⟩
abbrev main_v377 : Ref sig .tc := ⟨.hbm, 503, rfl⟩
abbrev main_v378 : Ref sig .tc := ⟨.hbm, 504, rfl⟩
abbrev main_c_91 : Ref sig .tc := ⟨.hbm, 505, rfl⟩
abbrev main_v379 : Ref sig .tc := ⟨.hbm, 506, rfl⟩
abbrev main_v380 : Ref sig .tc := ⟨.hbm, 507, rfl⟩
abbrev main_v381 : Ref sig .tc := ⟨.hbm, 508, rfl⟩
abbrev main_v382 : Ref sig .tc := ⟨.hbm, 509, rfl⟩
abbrev main_v383 : Ref sig .tc := ⟨.hbm, 510, rfl⟩
abbrev main_v384 : Ref sig .tc := ⟨.hbm, 511, rfl⟩
abbrev main_c_92 : Ref sig .tc := ⟨.hbm, 512, rfl⟩
abbrev main_v385 : Ref sig .tc := ⟨.hbm, 513, rfl⟩
abbrev main_v386 : Ref sig .tc := ⟨.hbm, 514, rfl⟩
abbrev main_c_93 : Ref sig .tc := ⟨.hbm, 515, rfl⟩
abbrev main_v387 : Ref sig .tc := ⟨.hbm, 516, rfl⟩
abbrev main_v388 : Ref sig .tc := ⟨.hbm, 517, rfl⟩
abbrev main_v389 : Ref sig .tc := ⟨.hbm, 518, rfl⟩
abbrev main_v390 : Ref sig .tc := ⟨.hbm, 519, rfl⟩
abbrev main_v391 : Ref sig .tc := ⟨.hbm, 520, rfl⟩
abbrev main_v392 : Ref sig .tc := ⟨.hbm, 521, rfl⟩
abbrev main_c_94 : Ref sig .tc := ⟨.hbm, 522, rfl⟩
abbrev main_v393 : Ref sig .tc := ⟨.hbm, 523, rfl⟩
abbrev main_v394 : Ref sig .tc := ⟨.hbm, 524, rfl⟩
abbrev main_c_95 : Ref sig .tc := ⟨.hbm, 525, rfl⟩
abbrev main_v395 : Ref sig .tc := ⟨.hbm, 526, rfl⟩
abbrev main_v396 : Ref sig .tc := ⟨.hbm, 527, rfl⟩
abbrev main_v397 : Ref sig .tc := ⟨.hbm, 528, rfl⟩
abbrev main_v398 : Ref sig .tc := ⟨.hbm, 529, rfl⟩
abbrev main_v399 : Ref sig .tc := ⟨.hbm, 530, rfl⟩
abbrev main_v400 : Ref sig .tc := ⟨.hbm, 531, rfl⟩
abbrev main_v401 : Ref sig .tc := ⟨.hbm, 532, rfl⟩
abbrev main_v402 : Ref sig .tc := ⟨.hbm, 533, rfl⟩
abbrev main_cst_96 : Ref sig .tc := ⟨.hbm, 534, rfl⟩
abbrev main_v403 : Ref sig .tc := ⟨.hbm, 535, rfl⟩
abbrev main_v404 : Ref sig .tc := ⟨.hbm, 536, rfl⟩
abbrev main_v405 : Ref sig .tc := ⟨.hbm, 537, rfl⟩
abbrev main_cst_97 : Ref sig .tc := ⟨.hbm, 538, rfl⟩
abbrev main_v406 : Ref sig .tc := ⟨.hbm, 539, rfl⟩
abbrev main_v407 : Ref sig .tc := ⟨.hbm, 540, rfl⟩
abbrev main_v408 : Ref sig .tc := ⟨.hbm, 541, rfl⟩
abbrev main_v409 : Ref sig .tc := ⟨.hbm, 542, rfl⟩
abbrev main_v410 : Ref sig .tc := ⟨.hbm, 543, rfl⟩
abbrev main_v411 : Ref sig .tc := ⟨.hbm, 544, rfl⟩

abbrev nD : Nat := 1
abbrev τ : Topo := Topo.v7x

variable {F : FTy → Type} [FloatOps F]

class Facts₀ : Prop where
  slices_S2x450000_S1x450000_0_0 : S2x450000.Slices ![0, 0] S1x450000
  shapeCasts_S1x450000_S450000 : S1x450000.ShapeCasts S450000
  slices_S2x450000_S1x450000_1_0 : S2x450000.Slices ![1, 0] S1x450000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000 : S_.BroadcastsInDim S50000 (![] : Fin 0 → Fin S50000.rank)
  bcast_S450000_S450000x1_0 : S450000.BroadcastsInDim S450000x1 (![0] : Fin 1 → Fin S450000x1.rank)
  bcast_S_S450000 : S_.BroadcastsInDim S450000 (![] : Fin 0 → Fin S450000.rank)
  bcast_S450000x1_S450000x128_0_1 : S450000x1.BroadcastsInDim S450000x128 (![0, 1] : Fin 2 → Fin S450000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S1x128 : S_.BroadcastsInDim S1x128 (![] : Fin 0 → Fin S1x128.rank)
  bcast_S50000_S50000x1_0 : S50000.BroadcastsInDim S50000x1 (![0] : Fin 1 → Fin S50000x1.rank)
  dot_S50000x128_S128x128_S50000x128_1_0_0_1_n_n_wf : DotDims.WF S50000x128 S128x128 S50000x128 [1] [0] [0] [1] [] []
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1
  dot_S1x128_S128x128_S1x128_1_0_0_1_n_n_wf : DotDims.WF S1x128 S128x128 S1x128 [1] [0] [0] [1] [] []
  gather_S50000x128_S50000x1_S50000x128_1_0_n_n_0_1_1128_wf : GatherDims.WF S50000x128 S50000x1 S50000x128 [1] [0] [] [0] [] 1 ![1, 128]

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf

class Facts : Prop extends Facts₀ where

variable [Facts]
-- ==== Proof.Ledger.lean ====
/-
  The idealization ledger of this kernel has two entries, both the same rewrite: the pooling kernel multiplies the
  column sums by the single-precision literal nearest to 1/50000, and the idealized kernel reads that literal as the
  rational 1/50000 itself (the mean over 50000 rows). Each entry's statement is that the table of named constants
  gives the name that value.
-/
import proofs.«113219_j18691697672631_1_alg».proof.Defs

noncomputable section

open Idealize.ShloMosaic

namespace Cert.Proof.Parts

/-- Both ledger entries: the name `inv_50000` denotes the rational 1/50000 in the table of named constants. -/
theorem preserves : Cert.preserves_Kernel_KernelIdeal :=
  ⟨IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl⟩

end Cert.Proof.Parts

end
-- ==== Proof.Spec.lean ====
/-
  The reference computation, named piece by piece over its literal shapes: the two rows of the edge list, the
  symmetric degree normalisation of the edge weights, an affine layer, the weighted neighbourhood sum, the
  parametric rectifier, the two-layer encoder, the pooled projection and the row permutation. Each composite is
  spelt exactly as the reference's host operations compose (same operation, same shape record, same operand
  order), so that a stretch of the reference's run equals it by unfolding alone. The affine layer, the rectifier
  and the pooled projection are given first over a 1x128 ROW (bias, slope) and then over the 128-vector, the
  vector form being the row form at the vector's broadcast to a row.
-/
import proofs.«113219_j18691697672631_1_alg».proof.ReferenceIdeal

noncomputable section

namespace Cert.Spec

open Cert.ReferenceIdeal Idealize.ShloMosaic Idealize.SL.Sem Idealize.ShloMosaic.StableHlo

variable {F : FTy → Type} [FloatOps F] [Facts₀]
open Facts₀

/-- The contents of a buffer of shape `s` and element type `d`. -/
abbrev C (F : FTy → Type) (s : Shape) (d : EltTy) : Type := (⟨s, d⟩ : BufTy).Contents (Elt F)

/-- Row 0 of the edge list: the source node of every edge. -/
def srcOf (ei : C F S2x450000 .i32) : C F S450000 .i32 :=
  shapeCast _ (extractStridedSlice S1x450000 ![0, 0] ei slices_S2x450000_S1x450000_0_0) shapeCasts_S1x450000_S450000

/-- Row 1 of the edge list: the destination node of every edge. -/
def dstOf (ei : C F S2x450000 .i32) : C F S450000 .i32 :=
  shapeCast _ (extractStridedSlice S1x450000 ![1, 0] ei slices_S2x450000_S1x450000_1_0) shapeCasts_S1x450000_S450000

/-- The index operand of a gather along the edges: a negative index wraps by the node count, then one column. -/
def gIdx (s : C F S450000 .i32) : C F S450000x1 .i32 :=
  broadcastInDim S450000x1 ![0] bcast_S450000_S450000x1_0
    (select (cmpi .slt s (broadcastInDim S450000 ![] bcast_S_S450000 (constantI S_ 32 0#32)))
      (addi s (broadcastInDim S450000 ![] bcast_S_S450000 (constantI S_ 32 50000#32))) s)

/-- The index operand of a scatter-addition along the edges: the indices as one column. -/
def sIdx (d : C F S450000 .i32) : C F S450000x1 .i32 :=
  broadcastInDim S450000x1 ![0] bcast_S450000_S450000x1_0 d

/-- The weighted in-degree of every node: the edge weights summed at their destinations. -/
def deg (ei : C F S2x450000 .i32) (w : C F S450000 .f32) : C F S50000 .f32 :=
  Host.scatterAdd scatter_S50000_S450000x1_S450000_n_0_0_1
    (broadcastInDim S50000 ![] bcast_S_S50000 (constant S_ .f32 0x00000000#32)) (sIdx (dstOf ei)) w

/-- The inverse square root of the degree where it is positive, zero elsewhere. -/
def dinv (ei : C F S2x450000 .i32) (w : C F S450000 .f32) : C F S50000 .f32 :=
  select (cmpf .ogt (deg ei w) (broadcastInDim S50000 ![] bcast_S_S50000 (constant S_ .f32 0x00000000#32)))
    (Host.rsqrt (deg ei w)) (broadcastInDim S50000 ![] bcast_S_S50000 (id (constant S_ .f32 0x00000000#32)))

/-- The normalised weight of every edge: dinv at its source, times its weight, times dinv at its destination. -/
def norm (ei : C F S2x450000 .i32) (w : C F S450000 .f32) : C F S450000 .f32 :=
  mulf (mulf (Host.gather gather_S50000_S450000x1_S450000_n_0_n_n_0_1_1 (dinv ei w) (gIdx (srcOf ei))) w)
    (Host.gather gather_S50000_S450000x1_S450000_n_0_n_n_0_1_1 (dinv ei w) (gIdx (dstOf ei)))

/-- The affine layer over a bias ROW: x W plus the row at every node. -/
def linRow (x : C F S50000x128 .f32) (W : C F S128x128 .f32) (brow : C F S1x128 .f32) : C F S50000x128 .f32 :=
  addf (Host.dotGeneral dot_S50000x128_S128x128_S50000x128_1_0_0_1_n_n none x W)
    (broadcastInDim S50000x128 ![0, 1] bcast_S1x128_S50000x128_0_1 brow)

/-- The affine layer: x W + b. -/
def lin (x : C F S50000x128 .f32) (W : C F S128x128 .f32) (b : C F S128 .f32) : C F S50000x128 .f32 :=
  linRow x W (broadcastInDim S1x128 ![1] bcast_S128_S1x128_1 b)

/-- The weighted neighbourhood sum: the rows of h at the edges' sources, scaled by the edges' normalised weights,
    summed at the edges' destinations. -/
def conv (h : C F S50000x128 .f32) (ei : C F S2x450000 .i32) (nrm : C F S450000 .f32) : C F S50000x128 .f32 :=
  Host.scatterAdd scatter_S50000x128_S450000x1_S450000x128_1_0_0_1
    (broadcastInDim S50000x128 ![] bcast_S_S50000x128 (constant S_ .f32 0x00000000#32)) (sIdx (dstOf ei))
    (mulf (Host.gather gather_S50000x128_S450000x1_S450000x128_1_0_n_n_0_1_1128 h (gIdx (srcOf ei)))
      (broadcastInDim S450000x128 ![0, 1] bcast_S450000x1_S450000x128_0_1
        (broadcastInDim S450000x1 ![0] bcast_S450000_S450000x1_0 nrm)))

/-- The parametric rectifier over a slope ROW: z where z is at least 0, the slope times z elsewhere. -/
def preluRow (z : C F S50000x128 .f32) (arow : C F S1x128 .f32) : C F S50000x128 .f32 :=
  select (cmpf .oge z (broadcastInDim S50000x128 ![] bcast_S_S50000x128 (constant S_ .f32 0x00000000#32))) z
    (mulf (broadcastInDim S50000x128 ![0, 1] bcast_S1x128_S50000x128_0_1 arow) z)

/-- The parametric rectifier, one slope per feature. -/
def prelu (z : C F S50000x128 .f32) (alpha : C F S128 .f32) : C F S50000x128 .f32 :=
  preluRow z (broadcastInDim S1x128 ![1] bcast_S128_S1x128_1 alpha)

/-- One graph-convolution layer followed by the rectifier. -/
def layer (x : C F S50000x128 .f32) (ei : C F S2x450000 .i32) (w : C F S450000 .f32)
    (W : C F S128x128 .f32) (b : C F S128 .f32) (alpha : C F S128 .f32) : C F S50000x128 .f32 :=
  prelu (conv (lin x W b) ei (norm ei w)) alpha

/-- The two-layer encoder. -/
def gconv (x : C F S50000x128 .f32) (ei : C F S2x450000 .i32) (w : C F S450000 .f32)
    (W1 : C F S128x128 .f32) (b1 : C F S128 .f32) (W2 : C F S128x128 .f32) (b2 : C F S128 .f32)
    (alpha : C F S128 .f32) : C F S50000x128 .f32 :=
  prelu (conv (lin (prelu (conv (lin x W1 b1) ei (norm ei w)) alpha) W2 b2) ei (norm ei w)) alpha

/-- The logistic function of the mean over the nodes, as a row. -/
def sigMean (z : C F S50000x128 .f32) : C F S1x128 .f32 :=
  Host.divf (broadcastInDim S1x128 ![] bcast_S_S1x128 (constant S_ .f32 0x3F800000#32))
    (addf (broadcastInDim S1x128 ![] bcast_S_S1x128 (constant S_ .f32 0x3F800000#32))
      (Host.exp (Host.negf (Host.divf
        (broadcastInDim S1x128 ![1] bcast_S128_S1x128_1
          (Host.reduceAdd z (constant S_ .f32 0x00000000#32) reducesTo_S50000x128_S128_d0 h_S_))
        (broadcastInDim S1x128 ![] bcast_S_S1x128 (constant S_ .f32 0x47435000#32))))))

/-- The pooled projection over a bias ROW. -/
def poolRow (z : C F S50000x128 .f32) (W : C F S128x128 .f32) (brow : C F S1x128 .f32) : C F S1x128 .f32 :=
  addf (Host.dotGeneral dot_S1x128_S128x128_S1x128_1_0_0_1_n_n none (sigMean z) W) brow

/-- The pooled projection: sigmoid(mean over the nodes of z) W + b. -/
def pool (z : C F S50000x128 .f32) (W : C F S128x128 .f32) (b : C F S128 .f32) : C F S1x128 .f32 :=
  poolRow z W (broadcastInDim S1x128 ![1] bcast_S128_S1x128_1 b)

/-- The rows of x in the order perm gives (a negative index wraps by the node count). -/
def permute (x : C F S50000x128 .f32) (perm : C F S50000 .i32) : C F S50000x128 .f32 :=
  Host.gather gather_S50000x128_S50000x1_S50000x128_1_0_n_n_0_1_1128 x
    (broadcastInDim S50000x1 ![0] bcast_S50000_S50000x1_0
      (select (cmpi .slt perm (broadcastInDim S50000 ![] bcast_S_S50000 (constantI S_ 32 0#32)))
        (addi perm (broadcastInDim S50000 ![] bcast_S_S50000 (constantI S_ 32 50000#32))) perm))

theorem lin_eq (x : C F S50000x128 .f32) (W : C F S128x128 .f32) (b : C F S128 .f32) :
    lin x W b = linRow x W (broadcastInDim S1x128 ![1] bcast_S128_S1x128_1 b) := rfl

theorem prelu_eq (z : C F S50000x128 .f32) (alpha : C F S128 .f32) :
    prelu z alpha = preluRow z (broadcastInDim S1x128 ![1] bcast_S128_S1x128_1 alpha) := rfl

theorem pool_eq (z : C F S50000x128 .f32) (W : C F S128x128 .f32) (b : C F S128 .f32) :
    pool z W b = poolRow z W (broadcastInDim S1x128 ![1] bcast_S128_S1x128_1 b) := rfl

theorem gconv_eq (x : C F S50000x128 .f32) (ei : C F S2x450000 .i32) (w : C F S450000 .f32)
    (W1 : C F S128x128 .f32) (b1 : C F S128 .f32) (W2 : C F S128x128 .f32) (b2 : C F S128 .f32)
    (alpha : C F S128 .f32) :
    gconv x ei w W1 b1 W2 b2 alpha = layer (layer x ei w W1 b1 alpha) ei w W2 b2 alpha := rfl

end Cert.Spec

end
-- ==== Proof.LibHostLine.lean ====
/-
  A straight line of host operations each of which writes one buffer of its own.

  When the operations of a line write pairwise different buffers, what a buffer holds after the line (or after a
  prefix of it) is decided locally: a buffer nobody writes keeps its contents (`after_take_unwritten`), and the
  buffer written at position `n` holds the result of operation `n` over the contents just before it, whatever
  follows (`after_take_at`). The corollaries name the four builders a printed reference uses, so that the
  operation at a literal position is recovered by unification (`hop` by `rfl`) and the statement speaks of its
  function and operand buffers directly.
-/
import Idealize.ShloMosaic.Lib.StableHlo.Run

noncomputable section

namespace Idealize.ShloMosaic.StableHlo

open Idealize.ShloMosaic.TcCoe

variable {τ : Topo} {sig : RefSig} {Val : EltTy → Type}

/-- Running two lines one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- The operations `ops` write the buffers `W`, one each, in order. -/
def WritesOne (ops : List (HloOp τ sig Val)) (W : List (Ref sig .tc)) : Prop :=
  List.Forall₂ (fun op y => op.writes = {Proc.devRef (τ := τ) .tc y}) ops W

theorem WritesOne.append {l₁ l₂ : List (HloOp τ sig Val)} {W₁ W₂ : List (Ref sig .tc)} (h₁ : WritesOne l₁ W₁)
    (h₂ : WritesOne l₂ W₂) : WritesOne (l₁ ++ l₂) (W₁ ++ W₂) := by
  induction h₁ with
  | nil => exact h₂
  | cons hw _ ih => exact List.Forall₂.cons hw ih

theorem WritesOne.take {ops : List (HloOp τ sig Val)} {W : List (Ref sig .tc)} (h : WritesOne ops W) (N : Nat) :
    WritesOne (ops.take N) (W.take N) := by
  induction h generalizing N with
  | nil => simp only [List.take_nil]; exact List.Forall₂.nil
  | cons hw _ ih =>
    cases N with
    | zero => exact List.Forall₂.nil
    | succ N => exact List.Forall₂.cons hw (ih N)

theorem WritesOne.length_eq {ops : List (HloOp τ sig Val)} {W : List (Ref sig .tc)} (h : WritesOne ops W) :
    ops.length = W.length := List.Forall₂.length_eq h

/-- A buffer that is none of the written ones keeps its contents through the line. -/
theorem after_unwritten {ops : List (HloOp τ sig Val)} {W : List (Ref sig .tc)} (h : WritesOne ops W) {b : Ref sig .tc}
    (hb : b ∉ W) (V : Valuation τ sig Val) : after ops V (Proc.devRef .tc b) = V (Proc.devRef .tc b) := by
  induction h generalizing V with
  | nil => rfl
  | @cons op y ops W hw _ ih =>
    have hby : b ≠ y := fun e => hb (e ▸ List.mem_cons_self)
    rw [after_cons, ih (fun hm => hb (List.mem_cons_of_mem _ hm)),
      op.result_of_not_mem V (by rw [hw, Finset.mem_singleton]; exact fun e => hby (Proc.devRef_injective _ e))]

/-- And through any prefix of it. -/
theorem after_take_unwritten {ops : List (HloOp τ sig Val)} {W : List (Ref sig .tc)} (h : WritesOne ops W) {b : Ref sig .tc}
    (hb : b ∉ W) (V : Valuation τ sig Val) (N : Nat) :
    after (ops.take N) V (Proc.devRef .tc b) = V (Proc.devRef .tc b) :=
  after_unwritten (h.take N) (fun hm => hb (List.mem_of_mem_take hm)) V

/-- **The buffer written at position `n`**, after any prefix that includes that position, holds operation `n`'s
    result over the contents just before it: no later operation writes it again. -/
theorem after_take_at {ops : List (HloOp τ sig Val)} {W : List (Ref sig .tc)} (h : WritesOne ops W) (hnd : W.Nodup)
    (V : Valuation τ sig Val) (n N : Nat) (hnN : n < N) (hn : n < ops.length) (hn' : n < W.length) :
    after (ops.take N) V (Proc.devRef .tc W[n]) = (ops[n]).result (after (ops.take n) V) (Proc.devRef .tc W[n]) := by
  induction h generalizing V n N with
  | nil => exact absurd hn (Nat.not_lt_zero _)
  | @cons op y ops W hw hrest ih =>
    obtain ⟨N, rfl⟩ : ∃ N', N = N' + 1 := ⟨N - 1, by omega⟩
    have hy : y ∉ W := (List.nodup_cons.1 hnd).1
    cases n with
    | zero =>
      show after (ops.take N) (op.result V) (Proc.devRef .tc y) = op.result V (Proc.devRef .tc y)
      exact after_take_unwritten hrest hy _ N
    | succ n =>
      have hn0 : n < ops.length := by simpa using hn
      have hn0' : n < W.length := by simpa using hn'
      show after (ops.take N) (op.result V) (Proc.devRef .tc W[n]) = (ops[n]).result (after (ops.take n) (op.result V)) (Proc.devRef .tc W[n])
      exact ih (List.nodup_cons.1 hnd).2 (op.result V) n N (by omega) hn0 hn0'

section Builders

variable {ops : List (HloOp τ sig Val)} {W : List (Ref sig .tc)}

/-- Position `n` is a constant: its buffer holds the constant. -/
theorem after_take_nullary (h : WritesOne ops W) (hnd : W.Nodup) (V : Valuation τ sig Val) (n N : Nat) (hnN : n < N)
    (hn : n < ops.length) (hn' : n < W.length) (y : Ref sig .tc) (v : y.ty.Contents Val) (hy)
    (hop : ops[n] = nullary y v hy) (hW : W[n] = y) :
    after (ops.take N) V (Proc.devRef .tc y) = v := by
  have e := after_take_at h hnd V n N hnN hn hn'
  rw [hop, hW] at e
  exact e.trans (nullary_result y v hy _)

/-- Position `n` applies `f` to the buffer `x`: its buffer holds `f` of what `x` held just before. -/
theorem after_take_unary (h : WritesOne ops W) (hnd : W.Nodup) (V : Valuation τ sig Val) (n N : Nat) (hnN : n < N)
    (hn : n < ops.length) (hn' : n < W.length) (x y : Ref sig .tc) (f : x.ty.Contents Val → y.ty.Contents Val) (hx hy)
    (hop : ops[n] = unary x y f hx hy) (hW : W[n] = y) :
    after (ops.take N) V (Proc.devRef .tc y) = f (after (ops.take n) V (Proc.devRef .tc x)) := by
  have e := after_take_at h hnd V n N hnN hn hn'
  rw [hop, hW] at e
  exact e.trans (unary_result x y f hx hy _)

/-- Position `n` applies `f` to the buffers `a` and `b`. -/
theorem after_take_binary (h : WritesOne ops W) (hnd : W.Nodup) (V : Valuation τ sig Val) (n N : Nat) (hnN : n < N)
    (hn : n < ops.length) (hn' : n < W.length) (a b y : Ref sig .tc)
    (f : a.ty.Contents Val → b.ty.Contents Val → y.ty.Contents Val) (ha hb hy)
    (hop : ops[n] = binary a b y f ha hb hy) (hW : W[n] = y) :
    after (ops.take N) V (Proc.devRef .tc y)
      = f (after (ops.take n) V (Proc.devRef .tc a)) (after (ops.take n) V (Proc.devRef .tc b)) := by
  have e := after_take_at h hnd V n N hnN hn hn'
  rw [hop, hW] at e
  exact e.trans (binary_result a b y f ha hb hy _)

/-- Position `n` applies `f` to a family of buffers. -/
theorem after_take_nary (h : WritesOne ops W) (hnd : W.Nodup) (V : Valuation τ sig Val) (n N : Nat) (hnN : n < N)
    (hn : n < ops.length) (hn' : n < W.length) {k : Nat} (xs : Fin k → Ref sig .tc) (y : Ref sig .tc)
    (f : ((i : Fin k) → (xs i).ty.Contents Val) → y.ty.Contents Val) (hxs hy)
    (hop : ops[n] = nary xs y f hxs hy) (hW : W[n] = y) :
    after (ops.take N) V (Proc.devRef .tc y) = f (fun i => after (ops.take n) V (Proc.devRef .tc (xs i))) := by
  have e := after_take_at h hnd V n N hnN hn hn'
  rw [hop, hW] at e
  exact e.trans (nary_result xs y f hxs hy _)

end Builders

end Idealize.ShloMosaic.StableHlo

end
-- ==== Proof.Ref.Base.lean ====
/-
  What every later state of the reference's run keeps of the launch contents: the seventeen argument arrays as
  launched, and the two rows of the edge list (source and destination node of every edge) once the first four
  operations have cut them out of the edge array.
-/
import proofs.«113219_j18691697672631_1_alg».proof.Proof.Gen.ReferenceIdeal
import proofs.«113219_j18691697672631_1_alg».proof.Proof.Spec
import proofs.«113219_j18691697672631_1_alg».proof.Proof.LibHostLine
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The state `S` holds the arguments as the launch contents `V` do. -/
structure KeptArgs (V S : Valuation τ sig (Elt F)) : Prop where
  a0 : S (Proc.devRef .tc main_arg0) = V (Proc.devRef .tc main_arg0)
  a1 : S (Proc.devRef .tc main_arg1) = V (Proc.devRef .tc main_arg1)
  a2 : S (Proc.devRef .tc main_arg2) = V (Proc.devRef .tc main_arg2)
  a3 : S (Proc.devRef .tc main_arg3) = V (Proc.devRef .tc main_arg3)
  a4 : S (Proc.devRef .tc main_arg4) = V (Proc.devRef .tc main_arg4)
  a5 : S (Proc.devRef .tc main_arg5) = V (Proc.devRef .tc main_arg5)
  a6 : S (Proc.devRef .tc main_arg6) = V (Proc.devRef .tc main_arg6)
  a7 : S (Proc.devRef .tc main_arg7) = V (Proc.devRef .tc main_arg7)
  a8 : S (Proc.devRef .tc main_arg8) = V (Proc.devRef .tc main_arg8)
  a9 : S (Proc.devRef .tc main_arg9) = V (Proc.devRef .tc main_arg9)
  a10 : S (Proc.devRef .tc main_arg10) = V (Proc.devRef .tc main_arg10)
  a11 : S (Proc.devRef .tc main_arg11) = V (Proc.devRef .tc main_arg11)
  a12 : S (Proc.devRef .tc main_arg12) = V (Proc.devRef .tc main_arg12)
  a13 : S (Proc.devRef .tc main_arg13) = V (Proc.devRef .tc main_arg13)
  a14 : S (Proc.devRef .tc main_arg14) = V (Proc.devRef .tc main_arg14)
  a15 : S (Proc.devRef .tc main_arg15) = V (Proc.devRef .tc main_arg15)
  a16 : S (Proc.devRef .tc main_arg16) = V (Proc.devRef .tc main_arg16)

/-- The state `S` holds the arguments as launched and the two rows of the launched edge list. -/
structure Kept (V S : Valuation τ sig (Elt F)) : Prop extends KeptArgs V S where
  src : S (Proc.devRef .tc main_v1) = Cert.Spec.srcOf (V (Proc.devRef .tc main_arg1))
  dst : S (Proc.devRef .tc main_v3) = Cert.Spec.dstOf (V (Proc.devRef .tc main_arg1))

/-- The launch contents keep themselves. -/
theorem KeptArgs.refl (V : Valuation τ sig (Elt F)) : KeptArgs V V :=
  ⟨rfl, rfl, rfl, rfl, rfl, rfl, rfl, rfl, rfl, rfl, rfl, rfl, rfl, rfl, rfl, rfl, rfl⟩

end Cert.ReferenceIdeal.Hand

end
-- ==== Proof.Ref.Idx.lean ====
/-
  The index operations of the reference: the two rows of the edge list cut out of the edge array (source and
  destination node of every edge), and the two row permutations of the node features (a gather of the rows at the
  permutation, a negative index wrapping by the node count).
-/
import proofs.«113219_j18691697672631_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
/-- The edge list's row 0 and row 1, each as a vector. -/
abbrev ops00 : List (HloOp τ sig (Elt F)) :=
  [ unary main_arg1 main_v0 ((extractStridedSlice S1x450000 ![0, 0] · slices_S2x450000_S1x450000_0_0) : (⟨S2x450000, .i32⟩ : BufTy).Contents (Elt F) → (⟨S1x450000, .i32⟩ : BufTy).Contents (Elt F)),
    reshape main_v0 main_v1 rfl shapeCasts_S1x450000_S450000,
    unary main_arg1 main_v2 ((extractStridedSlice S1x450000 ![1, 0] · slices_S2x450000_S1x450000_1_0) : (⟨S2x450000, .i32⟩ : BufTy).Contents (Elt F) → (⟨S1x450000, .i32⟩ : BufTy).Contents (Elt F)),
    reshape main_v2 main_v3 rfl shapeCasts_S1x450000_S450000 ]

/-- The buffers these operations write, one each, in order. -/
def wr00 : List (Ref sig .tc) :=
  [main_v0, main_v1, main_v2, main_v3]

set_option maxRecDepth 4096 in
theorem writes00 : WritesOne (τ := τ) (ops00 (F := F)) wr00 :=
  .cons rfl (.cons rfl (.cons rfl (.cons rfl (List.Forall₂.nil))))

set_option maxRecDepth 4096 in
/-- Every operation here touches TensorCore buffers only. -/
theorem sub00 : (ops00 (F := F)).Forall fun op => op.bufs ⊆ tcRefs τ sig :=
  ⟨unary_bufs_sub .., reshape_bufs_sub .., unary_bufs_sub .., reshape_bufs_sub ..⟩

set_option maxRecDepth 4096 in
/-- No operation here allocates: each determines its result. -/
theorem fresh00 : (ops00 (F := F)).Forall fun op => op.fresh = ∅ :=
  ⟨rfl, rfl, rfl, rfl⟩

/-- After the four slicing operations the state holds the arguments and the two rows of the edge list. -/
theorem sl_kept (V : Valuation τ sig (Elt F)) : Kept V (after ops00 V) :=
  ⟨⟨after_unwritten writes00 (by decide) V,
    after_unwritten writes00 (by decide) V,
    after_unwritten writes00 (by decide) V,
    after_unwritten writes00 (by decide) V,
    after_unwritten writes00 (by decide) V,
    after_unwritten writes00 (by decide) V,
    after_unwritten writes00 (by decide) V,
    after_unwritten writes00 (by decide) V,
    after_unwritten writes00 (by decide) V,
    after_unwritten writes00 (by decide) V,
    after_unwritten writes00 (by decide) V,
    after_unwritten writes00 (by decide) V,
    after_unwritten writes00 (by decide) V,
    after_unwritten writes00 (by decide) V,
    after_unwritten writes00 (by decide) V,
    after_unwritten writes00 (by decide) V,
    after_unwritten writes00 (by decide) V⟩,
    by after_results_simp <;> rfl, by after_results_simp <;> rfl⟩

set_option maxHeartbeats 2000000 in
/-- The node features' rows gathered at the first permutation. -/
abbrev ops11 : List (HloOp τ sig (Elt F)) :=
  [ nullary main_c_50 (constantI S_ 32 0#32),
    unary main_c_50 main_v214 (broadcastInDim S50000 ![] bcast_S_S50000 : (⟨S_, .i32⟩ : BufTy).Contents (Elt F) → (⟨S50000, .i32⟩ : BufTy).Contents (Elt F)),
    binary main_arg3 main_v214 main_v215 (cmpi .slt : (⟨S50000, .i32⟩ : BufTy).Contents (Elt F) → (⟨S50000, .i32⟩ : BufTy).Contents (Elt F) → (⟨S50000, .i1⟩ : BufTy).Contents (Elt F)),
    nullary main_c_51 (constantI S_ 32 50000#32),
    unary main_c_51 main_v216 (broadcastInDim S50000 ![] bcast_S_S50000 : (⟨S_, .i32⟩ : BufTy).Contents (Elt F) → (⟨S50000, .i32⟩ : BufTy).Contents (Elt F)),
    binary main_arg3 main_v216 main_v217 (addi : (⟨S50000, .i32⟩ : BufTy).Contents (Elt F) → (⟨S50000, .i32⟩ : BufTy).Contents (Elt F) → (⟨S50000, .i32⟩ : BufTy).Contents (Elt F)),
    ternary main_v215 main_v217 main_arg3 main_v218 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v218 main_v219 (broadcastInDim S50000x1 ![0] bcast_S50000_S50000x1_0 : (⟨S50000, .i32⟩ : BufTy).Contents (Elt F) → (⟨S50000x1, .i32⟩ : BufTy).Contents (Elt F)),
    binary main_arg0 main_v219 main_v220 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)) ]

/-- The buffers these operations write, one each, in order. -/
def wr11 : List (Ref sig .tc) :=
  [main_c_50, main_v214, main_v215, main_c_51, main_v216, main_v217, main_v218, main_v219, main_v220]

set_option maxRecDepth 4096 in
theorem writes11 : WritesOne (τ := τ) (ops11 (F := F)) wr11 :=
  .cons rfl (.cons rfl (.cons rfl (.cons rfl (.cons rfl (.cons rfl (.cons rfl (.cons rfl (.cons rfl (List.Forall₂.nil)))))))))

set_option maxRecDepth 4096 in
/-- Every operation here touches TensorCore buffers only. -/
theorem sub11 : (ops11 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

set_option maxRecDepth 4096 in
/-- No operation here allocates: each determines its result. -/
theorem fresh11 : (ops11 (F := F)).Forall fun op => op.fresh = ∅ :=
  ⟨rfl, rfl, rfl, rfl, rfl, rfl, rfl, rfl, rfl⟩

/-- A buffer none of these operations writes holds after them what it held before. -/
theorem perm1_keep {b : Ref sig .tc} (hb : b ∉ wr11) (S : Valuation τ sig (Elt F)) :
    after ops11 S (Proc.devRef .tc b) = S (Proc.devRef .tc b) :=
  after_unwritten writes11 hb S

/-- The arguments and the two edge rows pass through these operations. -/
theorem perm1_kept {V S : Valuation τ sig (Elt F)} (h : Kept V S) : Kept V (after ops11 S) :=
  ⟨⟨(perm1_keep (by decide) S).trans h.a0,
    (perm1_keep (by decide) S).trans h.a1,
    (perm1_keep (by decide) S).trans h.a2,
    (perm1_keep (by decide) S).trans h.a3,
    (perm1_keep (by decide) S).trans h.a4,
    (perm1_keep (by decide) S).trans h.a5,
    (perm1_keep (by decide) S).trans h.a6,
    (perm1_keep (by decide) S).trans h.a7,
    (perm1_keep (by decide) S).trans h.a8,
    (perm1_keep (by decide) S).trans h.a9,
    (perm1_keep (by decide) S).trans h.a10,
    (perm1_keep (by decide) S).trans h.a11,
    (perm1_keep (by decide) S).trans h.a12,
    (perm1_keep (by decide) S).trans h.a13,
    (perm1_keep (by decide) S).trans h.a14,
    (perm1_keep (by decide) S).trans h.a15,
    (perm1_keep (by decide) S).trans h.a16⟩,
    (perm1_keep (by decide) S).trans h.src, (perm1_keep (by decide) S).trans h.dst⟩

/-- The node features with their rows permuted. -/
theorem perm1_val {V S : Valuation τ sig (Elt F)} (h : Kept V S) :
    after ops11 S (Proc.devRef .tc main_v220) = Cert.Spec.permute (V (Proc.devRef .tc main_arg0)) (V (Proc.devRef .tc main_arg3)) := by
  after_results_simp
  rw [h.a0, h.a3]
  rfl

set_option maxHeartbeats 2000000 in
/-- The node features' rows gathered at the second permutation. -/
abbrev ops16 : List (HloOp τ sig (Elt F)) :=
  [ nullary main_c_74 (constantI S_ 32 0#32),
    unary main_c_74 main_v313 (broadcastInDim S50000 ![] bcast_S_S50000 : (⟨S_, .i32⟩ : BufTy).Contents (Elt F) → (⟨S50000, .i32⟩ : BufTy).Contents (Elt F)),
    binary main_arg4 main_v313 main_v314 (cmpi .slt : (⟨S50000, .i32⟩ : BufTy).Contents (Elt F) → (⟨S50000, .i32⟩ : BufTy).Contents (Elt F) → (⟨S50000, .i1⟩ : BufTy).Contents (Elt F)),
    nullary main_c_75 (constantI S_ 32 50000#32),
    unary main_c_75 main_v315 (broadcastInDim S50000 ![] bcast_S_S50000 : (⟨S_, .i32⟩ : BufTy).Contents (Elt F) → (⟨S50000, .i32⟩ : BufTy).Contents (Elt F)),
    binary main_arg4 main_v315 main_v316 (addi : (⟨S50000, .i32⟩ : BufTy).Contents (Elt F) → (⟨S50000, .i32⟩ : BufTy).Contents (Elt F) → (⟨S50000, .i32⟩ : BufTy).Contents (Elt F)),
    ternary main_v314 main_v316 main_arg4 main_v317 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v317 main_v318 (broadcastInDim S50000x1 ![0] bcast_S50000_S50000x1_0 : (⟨S50000, .i32⟩ : BufTy).Contents (Elt F) → (⟨S50000x1, .i32⟩ : BufTy).Contents (Elt F)),
    binary main_arg0 main_v318 main_v319 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)) ]

/-- The buffers these operations write, one each, in order. -/
def wr16 : List (Ref sig .tc) :=
  [main_c_74, main_v313, main_v314, main_c_75, main_v315, main_v316, main_v317, main_v318, main_v319]

set_option maxRecDepth 4096 in
theorem writes16 : WritesOne (τ := τ) (ops16 (F := F)) wr16 :=
  .cons rfl (.cons rfl (.cons rfl (.cons rfl (.cons rfl (.cons rfl (.cons rfl (.cons rfl (.cons rfl (List.Forall₂.nil)))))))))

set_option maxRecDepth 4096 in
/-- Every operation here touches TensorCore buffers only. -/
theorem sub16 : (ops16 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

set_option maxRecDepth 4096 in
/-- No operation here allocates: each determines its result. -/
theorem fresh16 : (ops16 (F := F)).Forall fun op => op.fresh = ∅ :=
  ⟨rfl, rfl, rfl, rfl, rfl, rfl, rfl, rfl, rfl⟩

/-- A buffer none of these operations writes holds after them what it held before. -/
theorem perm2_keep {b : Ref sig .tc} (hb : b ∉ wr16) (S : Valuation τ sig (Elt F)) :
    after ops16 S (Proc.devRef .tc b) = S (Proc.devRef .tc b) :=
  after_unwritten writes16 hb S

/-- The arguments and the two edge rows pass through these operations. -/
theorem perm2_kept {V S : Valuation τ sig (Elt F)} (h : Kept V S) : Kept V (after ops16 S) :=
  ⟨⟨(perm2_keep (by decide) S).trans h.a0,
    (perm2_keep (by decide) S).trans h.a1,
    (perm2_keep (by decide) S).trans h.a2,
    (perm2_keep (by decide) S).trans h.a3,
    (perm2_keep (by decide) S).trans h.a4,
    (perm2_keep (by decide) S).trans h.a5,
    (perm2_keep (by decide) S).trans h.a6,
    (perm2_keep (by decide) S).trans h.a7,
    (perm2_keep (by decide) S).trans h.a8,
    (perm2_keep (by decide) S).trans h.a9,
    (perm2_keep (by decide) S).trans h.a10,
    (perm2_keep (by decide) S).trans h.a11,
    (perm2_keep (by decide) S).trans h.a12,
    (perm2_keep (by decide) S).trans h.a13,
    (perm2_keep (by decide) S).trans h.a14,
    (perm2_keep (by decide) S).trans h.a15,
    (perm2_keep (by decide) S).trans h.a16⟩,
    (perm2_keep (by decide) S).trans h.src, (perm2_keep (by decide) S).trans h.dst⟩

/-- The node features with their rows permuted. -/
theorem perm2_val {V S : Valuation τ sig (Elt F)} (h : Kept V S) :
    after ops16 S (Proc.devRef .tc main_v319) = Cert.Spec.permute (V (Proc.devRef .tc main_arg0)) (V (Proc.devRef .tc main_arg4)) := by
  after_results_simp
  rw [h.a0, h.a4]
  rfl

end Cert.ReferenceIdeal.Hand

end
-- ==== Proof.Ref.L1a.lean ====
/-
  One layer of the first encoder over the node features: the affine image x W + b, the symmetric degree normalisation of the
  edge weights (recomputed here from the edge list and the weights), the weighted neighbourhood sum along the
  edges, and the parametric rectifier. The operations are listed as the reference prints them; the layer's output
  buffer ends at the named composite of the layer's input and the launched arguments.
-/
import proofs.«113219_j18691697672631_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
/-- Operations 4 to 61 of the reference, part of this layer. -/
abbrev ops01 : List (HloOp τ sig (Elt F)) :=
  [ binary main_arg0 main_arg5 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v5 (broadcastInDim S1x128 ![1] bcast_S128_S1x128_1 : (⟨S128, .f32⟩ : BufTy).Contents (Elt F) → (⟨S1x128, .f32⟩ : BufTy).Contents (Elt F)),
    unary main_v5 main_v6 (broadcastInDim S50000x128 ![0, 1] bcast_S1x128_S50000x128_0_1 : (⟨S1x128, .f32⟩ : BufTy).Contents (Elt F) → (⟨S50000x128, .f32⟩ : BufTy).Contents (Elt F)),
    binary main_v4 main_v6 main_v7 (addf : (⟨S50000x128, .f32⟩ : BufTy).Contents (Elt F) → (⟨S50000x128, .f32⟩ : BufTy).Contents (Elt F) → (⟨S50000x128, .f32⟩ : BufTy).Contents (Elt F)),
    nullary main_cst (constant S_ .f32 0x00000000#32),
    unary main_cst main_v8 (broadcastInDim S50000 ![] bcast_S_S50000 : (⟨S_, .f32⟩ : BufTy).Contents (Elt F) → (⟨S50000, .f32⟩ : BufTy).Contents (Elt F)),
    unary main_v3 main_v9 (broadcastInDim S450000x1 ![0] bcast_S450000_S450000x1_0 : (⟨S450000, .i32⟩ : BufTy).Contents (Elt F) → (⟨S450000x1, .i32⟩ : BufTy).Contents (Elt F)),
    ternary main_v8 main_v9 main_arg2 main_v10 ((fun x i u => Host.scatterAdd scatter_S50000_S450000x1_S450000_n_0_0_1 x i u) : (⟨S50000, .f32⟩ : BufTy).Contents (Elt F) → (⟨S450000x1, .i32⟩ : BufTy).Contents (Elt F) → (⟨S450000, .f32⟩ : BufTy).Contents (Elt F) → (⟨S50000, .f32⟩ : BufTy).Contents (Elt F)),
    nullary main_cst_0 (constant S_ .f32 0x00000000#32),
    unary main_cst_0 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_1 (constant S_ .f32 0x00000000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S450000 ![] bcast_S_S450000 : (⟨S_, .i32⟩ : BufTy).Contents (Elt F) → (⟨S450000, .i32⟩ : BufTy).Contents (Elt F)),
    binary main_v1 main_v15 main_v16 (cmpi .slt : (⟨S450000, .i32⟩ : BufTy).Contents (Elt F) → (⟨S450000, .i32⟩ : BufTy).Contents (Elt F) → (⟨S450000, .i1⟩ : BufTy).Contents (Elt F)),
    nullary main_c_2 (constantI S_ 32 50000#32),
    unary main_c_2 main_v17 (broadcastInDim S450000 ![] bcast_S_S450000 : (⟨S_, .i32⟩ : BufTy).Contents (Elt F) → (⟨S450000, .i32⟩ : BufTy).Contents (Elt F)),
    binary main_v1 main_v17 main_v18 (addi : (⟨S450000, .i32⟩ : BufTy).Contents (Elt F) → (⟨S450000, .i32⟩ : BufTy).Contents (Elt F) → (⟨S450000, .i32⟩ : BufTy).Contents (Elt F)),
    ternary main_v16 main_v18 main_v1 main_v19 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v19 main_v20 (broadcastInDim S450000x1 ![0] bcast_S450000_S450000x1_0 : (⟨S450000, .i32⟩ : BufTy).Contents (Elt F) → (⟨S450000x1, .i32⟩ : BufTy).Contents (Elt F)),
    binary main_v14 main_v20 main_v21 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v21 main_arg2 main_v22 (mulf : (⟨S450000, .f32⟩ : BufTy).Contents (Elt F) → (⟨S450000, .f32⟩ : BufTy).Contents (Elt F) → (⟨S450000, .f32⟩ : BufTy).Contents (Elt F)),
    nullary main_c_3 (constantI S_ 32 0#32),
    unary main_c_3 main_v23 (broadcastInDim S450000 ![] bcast_S_S450000 : (⟨S_, .i32⟩ : BufTy).Contents (Elt F) → (⟨S450000, .i32⟩ : BufTy).Contents (Elt F)),
    binary main_v3 main_v23 main_v24 (cmpi .slt : (⟨S450000, .i32⟩ : BufTy).Contents (Elt F) → (⟨S450000, .i32⟩ : BufTy).Contents (Elt F) → (⟨S450000, .i1⟩ : BufTy).Contents (Elt F)),
    nullary main_c_4 (constantI S_ 32 50000#32),
    unary main_c_4 main_v25 (broadcastInDim S450000 ![] bcast_S_S450000 : (⟨S_, .i32⟩ : BufTy).Contents (Elt F) → (⟨S450000, .i32⟩ : BufTy).Contents (Elt F)),
    binary main_v3 main_v25 main_v26 (addi : (⟨S450000, .i32⟩ : BufTy).Contents (Elt F) → (⟨S450000, .i32⟩ : BufTy).Contents (Elt F) → (⟨S450000, .i32⟩ : BufTy).Contents (Elt F)),
    ternary main_v24 main_v26 main_v3 main_v27 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v27 main_v28 (broadcastInDim S450000x1 ![0] bcast_S450000_S450000x1_0 : (⟨S450000, .i32⟩ : BufTy).Contents (Elt F) → (⟨S450000x1, .i32⟩ : BufTy).Contents (Elt F)),
    binary main_v14 main_v28 main_v29 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v22 main_v29 main_v30 (mulf : (⟨S450000, .f32⟩ : BufTy).Contents (Elt F) → (⟨S450000, .f32⟩ : BufTy).Contents (Elt F) → (⟨S450000, .f32⟩ : BufTy).Contents (Elt F)),
    nullary main_c_5 (constantI S_ 32 0#32),
    unary main_c_5 main_v31 (broadcastInDim S450000 ![] bcast_S_S450000 : (⟨S_, .i32⟩ : BufTy).Contents (Elt F) → (⟨S450000, .i32⟩ : BufTy).Contents (Elt F)),
    binary main_v1 main_v31 main_v32 (cmpi .slt : (⟨S450000, .i32⟩ : BufTy).Contents (Elt F) → (⟨S450000, .i32⟩ : BufTy).Contents (Elt F) → (⟨S450000, .i1⟩ : BufTy).Contents (Elt F)),
    nullary main_c_6 (constantI S_ 32 50000#32),
    unary main_c_6 main_v33 (broadcastInDim S450000 ![] bcast_S_S450000 : (⟨S_, .i32⟩ : BufTy).Contents (Elt F) → (⟨S450000, .i32⟩ : BufTy).Contents (Elt F)),
    binary main_v1 main_v33 main_v34 (addi : (⟨S450000, .i32⟩ : BufTy).Contents (Elt F) → (⟨S450000, .i32⟩ : BufTy).Contents (Elt F) → (⟨S450000, .i32⟩ : BufTy).Contents (Elt F)),
    ternary main_v32 main_v34 main_v1 main_v35 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v35 main_v36 (broadcastInDim S450000x1 ![0] bcast_S450000_S450000x1_0 : (⟨S450000, .i32⟩ : BufTy).Contents (Elt F) → (⟨S450000x1, .i32⟩ : BufTy).Contents (Elt F)),
    binary main_v7 main_v36 main_v37 ((fun x i => Host.gather gather_S50000x128_S450000x1_S450000x128_1_0_n_n_0_1_1128 x i) : (⟨S50000x128, .f32⟩ : BufTy).Contents (Elt F) → (⟨S450000x1, .i32⟩ : BufTy).Contents (Elt F) → (⟨S450000x128, .f32⟩ : BufTy).Contents (Elt F)),
    unary main_v30 main_v38 (broadcastInDim S450000x1 ![0] bcast_S450000_S450000x1_0 : (⟨S450000, .f32⟩ : BufTy).Contents (Elt F) → (⟨S450000x1, .f32⟩ : BufTy).Contents (Elt F)),
    unary main_v38 main_v39 (broadcastInDim S450000x128 ![0, 1] bcast_S450000x1_S450000x128_0_1 : (⟨S450000x1, .f32⟩ : BufTy).Contents (Elt F) → (⟨S450000x128, .f32⟩ : BufTy).Contents (Elt F)),
    binary main_v37 main_v39 main_v40 (mulf : (⟨S450000x128, .f32⟩ : BufTy).Contents (Elt F) → (⟨S450000x128, .f32⟩ : BufTy).Contents (Elt F) → (⟨S450000x128, .f32⟩ : BufTy).Contents (Elt F)),
    nullary main_cst_7 (constant S_ .f32 0x00000000#32),
    unary main_cst_7 main_v41 (broadcastInDim S50000x128 ![] bcast_S_S50000x128 : (⟨S_, .f32⟩ : BufTy).Contents (Elt F) → (⟨S50000x128, .f32⟩ : BufTy).Contents (Elt F)),
    unary main_v3 main_v42 (broadcastInDim S450000x1 ![0] bcast_S450000_S450000x1_0 : (⟨S450000, .i32⟩ : BufTy).Contents (Elt F) → (⟨S450000x1, .i32⟩ : BufTy).Contents (Elt F)),
    ternary main_v41 main_v42 main_v40 main_v43 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    nullary main_cst_8 (constant S_ .f32 0x00000000#32),
    unary main_cst_8 main_v44 (broadcastInDim S50000x128 ![] bcast_S_S50000x128 : (⟨S_, .f32⟩ : BufTy).Contents (Elt F) → (⟨S50000x128, .f32⟩ : BufTy).Contents (Elt F)),
    binary main_v43 main_v44 main_v45 (cmpf .oge : (⟨S50000x128, .f32⟩ : BufTy).Contents (Elt F) → (⟨S50000x128, .f32⟩ : BufTy).Contents (Elt F) → (⟨S50000x128, .i1⟩ : BufTy).Contents (Elt F)),
    unary main_arg9 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v47 main_v43 main_v48 (mulf : (⟨S50000x128, .f32⟩ : BufTy).Contents (Elt F) → (⟨S50000x128, .f32⟩ : BufTy).Contents (Elt F) → (⟨S50000x128, .f32⟩ : BufTy).Contents (Elt F)) ]

/-- The buffers these operations write, one each, in order. -/
def wr01 : List (Ref sig .tc) :=
  [main_v4, main_v5, main_v6, main_v7, main_cst, main_v8, main_v9, main_v10, main_cst_0, main_v11, main_v12, main_v13, main_cst_1, main_call0_v0, main_call0_v1, main_v14, main_c, main_v15, main_v16, main_c_2, main_v17, main_v18, main_v19, main_v20, main_v21, main_v22, main_c_3, main_v23, main_v24, main_c_4, main_v25, main_v26, main_v27, main_v28, main_v29, main_v30, main_c_5, main_v31, main_v32, main_c_6, main_v33, main_v34, main_v35, main_v36, main_v37, main_v38, main_v39, main_v40, main_cst_7, main_v41, main_v42, main_v43, main_cst_8, main_v44, main_v45, main_v46, main_v47, main_v48]

set_option maxRecDepth 4096 in
theorem writes01 : WritesOne (τ := τ) (ops01 (F := F)) wr01 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil))))))))))))))))))))))))))))))))))))))))))))))))))))))))))

set_option maxRecDepth 4096 in
/-- Every operation here touches TensorCore buffers only. -/
theorem sub01 : (ops01 (F := F)).Forall fun op => op.bufs ⊆ tcRefs τ sig :=
  ⟨binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

set_option maxRecDepth 4096 in
/-- No operation here allocates: each determines its result. -/
theorem fresh01 : (ops01 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 2000000 in
/-- Operations 62 to 62 of the reference, part of this layer. -/
abbrev ops02 : List (HloOp τ sig (Elt F)) :=
  [ TRef.ternary (TRef.of (T := ⟨S50000x128, .i1⟩) main_v45) (TRef.of (T := ⟨S50000x128, .f32⟩) main_v43) (TRef.of (T := ⟨S50000x128, .f32⟩) main_v48) (TRef.of (T := ⟨S50000x128, .f32⟩) main_v49) select ]

/-- The buffers these operations write, one each, in order. -/
def wr02 : List (Ref sig .tc) :=
  [main_v49]

set_option maxRecDepth 4096 in
theorem writes02 : WritesOne (τ := τ) (ops02 (F := F)) wr02 :=
  .cons rfl (List.Forall₂.nil)

set_option maxRecDepth 4096 in
/-- Every operation here touches TensorCore buffers only. -/
theorem sub02 : (ops02 (F := F)).Forall fun op => op.bufs ⊆ tcRefs τ sig :=
  ternary_bufs_sub ..

set_option maxRecDepth 4096 in
/-- No operation here allocates: each determines its result. -/
theorem fresh02 : (ops02 (F := F)).Forall fun op => op.fresh = ∅ :=
  rfl

/-- A buffer none of these operations writes holds after them what it held before. -/
theorem L1a_keep {b : Ref sig .tc} (hb : b ∉ wr01 ++ wr02) (S : Valuation τ sig (Elt F)) :
    after ops02 (after ops01 S) (Proc.devRef .tc b) = S (Proc.devRef .tc b) :=
  (after_unwritten writes02 (fun h => hb (List.mem_append_right _ (h))) (after ops01 S)).trans (after_unwritten writes01 (fun h => hb (List.mem_append_left _ h)) S)

/-- The arguments and the two edge rows pass through these operations. -/
theorem L1a_kept {V S : Valuation τ sig (Elt F)} (h : Kept V S) : Kept V (after ops02 (after ops01 S)) :=
  ⟨⟨(L1a_keep (by decide) S).trans h.a0,
    (L1a_keep (by decide) S).trans h.a1,
    (L1a_keep (by decide) S).trans h.a2,
    (L1a_keep (by decide) S).trans h.a3,
    (L1a_keep (by decide) S).trans h.a4,
    (L1a_keep (by decide) S).trans h.a5,
    (L1a_keep (by decide) S).trans h.a6,
    (L1a_keep (by decide) S).trans h.a7,
    (L1a_keep (by decide) S).trans h.a8,
    (L1a_keep (by decide) S).trans h.a9,
    (L1a_keep (by decide) S).trans h.a10,
    (L1a_keep (by decide) S).trans h.a11,
    (L1a_keep (by decide) S).trans h.a12,
    (L1a_keep (by decide) S).trans h.a13,
    (L1a_keep (by decide) S).trans h.a14,
    (L1a_keep (by decide) S).trans h.a15,
    (L1a_keep (by decide) S).trans h.a16⟩,
    (L1a_keep (by decide) S).trans h.src, (L1a_keep (by decide) S).trans h.dst⟩

/-- One layer: from a state that holds the arguments and the edge rows, and X at the layer's input, the layer's
    output buffer ends at the rectified weighted neighbourhood sum of the affine image of X. -/
theorem L1a_val {V S : Valuation τ sig (Elt F)} (h : Kept V S) (X : Cert.Spec.C F S50000x128 .f32)
    (hX : S (Proc.devRef .tc main_arg0) = X) :
    after ops02 (after ops01 S) (Proc.devRef .tc main_v49)
      = Cert.Spec.layer X (V (Proc.devRef .tc main_arg1)) (V (Proc.devRef .tc main_arg2)) (V (Proc.devRef .tc main_arg5)) (V (Proc.devRef .tc main_arg6)) (V (Proc.devRef .tc main_arg9)) := by
  after_results_simp
  rw [hX, h.src, h.dst, h.a2, h.a5, h.a6, h.a9]
  rfl

end Cert.ReferenceIdeal.Hand

end
-- ==== Proof.Ref.L2a.lean ====
/-
  One layer of the first encoder over the first layer's output: the affine image x W + b, the symmetric degree normalisation of the
  edge weights (recomputed here from the edge list and the weights), the weighted neighbourhood sum along the
  edges, and the parametric rectifier. The operations are listed as the reference prints them; the layer's output
  buffer ends at the named composite of the layer's input and the launched arguments.
-/
import proofs.«113219_j18691697672631_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
/-- Operations 63 to 121 of the reference, part of this layer. -/
abbrev ops03 : List (HloOp τ sig (Elt F)) :=
  [ binary main_v49 main_arg7 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x00000000#32),
    unary main_cst_9 main_v54 (broadcastInDim S50000 ![] bcast_S_S50000 : (⟨S_, .f32⟩ : BufTy).Contents (Elt F) → (⟨S50000, .f32⟩ : BufTy).Contents (Elt F)),
    unary main_v3 main_v55 (broadcastInDim S450000x1 ![0] bcast_S450000_S450000x1_0 : (⟨S450000, .i32⟩ : BufTy).Contents (Elt F) → (⟨S450000x1, .i32⟩ : BufTy).Contents (Elt F)),
    ternary main_v54 main_v55 main_arg2 main_v56 ((fun x i u => Host.scatterAdd scatter_S50000_S450000x1_S450000_n_0_0_1 x i u) : (⟨S50000, .f32⟩ : BufTy).Contents (Elt F) → (⟨S450000x1, .i32⟩ : BufTy).Contents (Elt F) → (⟨S450000, .f32⟩ : BufTy).Contents (Elt F) → (⟨S50000, .f32⟩ : BufTy).Contents (Elt F)),
    nullary main_cst_10 (constant S_ .f32 0x00000000#32),
    unary main_cst_10 main_v57 (broadcastInDim S50000 ![] bcast_S_S50000 : (⟨S_, .f32⟩ : BufTy).Contents (Elt F) → (⟨S50000, .f32⟩ : BufTy).Contents (Elt F)),
    binary main_v56 main_v57 main_v58 (cmpf .ogt : (⟨S50000, .f32⟩ : BufTy).Contents (Elt F) → (⟨S50000, .f32⟩ : BufTy).Contents (Elt F) → (⟨S50000, .i1⟩ : BufTy).Contents (Elt F)),
    unary main_v56 main_v59 (Host.rsqrt : (⟨S50000, .f32⟩ : BufTy).Contents (Elt F) → (⟨S50000, .f32⟩ : BufTy).Contents (Elt F)),
    nullary main_cst_11 (constant S_ .f32 0x00000000#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v58) (TRef.of (T := ⟨S50000, .f32⟩) main_v59) (TRef.of (T := ⟨S50000, .f32⟩) main_call2_v1) (TRef.of (T := ⟨S50000, .f32⟩) main_v60) select,
    nullary main_c_12 (constantI S_ 32 0#32),
    unary main_c_12 main_v61 (broadcastInDim S450000 ![] bcast_S_S450000 : (⟨S_, .i32⟩ : BufTy).Contents (Elt F) → (⟨S450000, .i32⟩ : BufTy).Contents (Elt F)),
    binary main_v1 main_v61 main_v62 (cmpi .slt : (⟨S450000, .i32⟩ : BufTy).Contents (Elt F) → (⟨S450000, .i32⟩ : BufTy).Contents (Elt F) → (⟨S450000, .i1⟩ : BufTy).Contents (Elt F)),
    nullary main_c_13 (constantI S_ 32 50000#32),
    unary main_c_13 main_v63 (broadcastInDim S450000 ![] bcast_S_S450000 : (⟨S_, .i32⟩ : BufTy).Contents (Elt F) → (⟨S450000, .i32⟩ : BufTy).Contents (Elt F)),
    binary main_v1 main_v63 main_v64 (addi : (⟨S450000, .i32⟩ : BufTy).Contents (Elt F) → (⟨S450000, .i32⟩ : BufTy).Contents (Elt F) → (⟨S450000, .i32⟩ : BufTy).Contents (Elt F)),
    ternary main_v62 main_v64 main_v1 main_v65 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v65 main_v66 (broadcastInDim S450000x1 ![0] bcast_S450000_S450000x1_0 : (⟨S450000, .i32⟩ : BufTy).Contents (Elt F) → (⟨S450000x1, .i32⟩ : BufTy).Contents (Elt F)),
    binary main_v60 main_v66 main_v67 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v67 main_arg2 main_v68 (mulf : (⟨S450000, .f32⟩ : BufTy).Contents (Elt F) → (⟨S450000, .f32⟩ : BufTy).Contents (Elt F) → (⟨S450000, .f32⟩ : BufTy).Contents (Elt F)),
    nullary main_c_14 (constantI S_ 32 0#32),
    unary main_c_14 main_v69 (broadcastInDim S450000 ![] bcast_S_S450000 : (⟨S_, .i32⟩ : BufTy).Contents (Elt F) → (⟨S450000, .i32⟩ : BufTy).Contents (Elt F)),
    binary main_v3 main_v69 main_v70 (cmpi .slt : (⟨S450000, .i32⟩ : BufTy).Contents (Elt F) → (⟨S450000, .i32⟩ : BufTy).Contents (Elt F) → (⟨S450000, .i1⟩ : BufTy).Contents (Elt F)),
    nullary main_c_15 (constantI S_ 32 50000#32),
    unary main_c_15 main_v71 (broadcastInDim S450000 ![] bcast_S_S450000 : (⟨S_, .i32⟩ : BufTy).Contents (Elt F) → (⟨S450000, .i32⟩ : BufTy).Contents (Elt F)),
    binary main_v3 main_v71 main_v72 (addi : (⟨S450000, .i32⟩ : BufTy).Contents (Elt F) → (⟨S450000, .i32⟩ : BufTy).Contents (Elt F) → (⟨S450000, .i32⟩ : BufTy).Contents (Elt F)),
    ternary main_v70 main_v72 main_v3 main_v73 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v73 main_v74 (broadcastInDim S450000x1 ![0] bcast_S450000_S450000x1_0 : (⟨S450000, .i32⟩ : BufTy).Contents (Elt F) → (⟨S450000x1, .i32⟩ : BufTy).Contents (Elt F)),
    binary main_v60 main_v74 main_v75 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v68 main_v75 main_v76 (mulf : (⟨S450000, .f32⟩ : BufTy).Contents (Elt F) → (⟨S450000, .f32⟩ : BufTy).Contents (Elt F) → (⟨S450000, .f32⟩ : BufTy).Contents (Elt F)),
    nullary main_c_16 (constantI S_ 32 0#32),
    unary main_c_16 main_v77 (broadcastInDim S450000 ![] bcast_S_S450000 : (⟨S_, .i32⟩ : BufTy).Contents (Elt F) → (⟨S450000, .i32⟩ : BufTy).Contents (Elt F)),
    binary main_v1 main_v77 main_v78 (cmpi .slt : (⟨S450000, .i32⟩ : BufTy).Contents (Elt F) → (⟨S450000, .i32⟩ : BufTy).Contents (Elt F) → (⟨S450000, .i1⟩ : BufTy).Contents (Elt F)),
    nullary main_c_17 (constantI S_ 32 50000#32),
    unary main_c_17 main_v79 (broadcastInDim S450000 ![] bcast_S_S450000 : (⟨S_, .i32⟩ : BufTy).Contents (Elt F) → (⟨S450000, .i32⟩ : BufTy).Contents (Elt F)),
    binary main_v1 main_v79 main_v80 (addi : (⟨S450000, .i32⟩ : BufTy).Contents (Elt F) → (⟨S450000, .i32⟩ : BufTy).Contents (Elt F) → (⟨S450000, .i32⟩ : BufTy).Contents (Elt F)),
    ternary main_v78 main_v80 main_v1 main_v81 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v81 main_v82 (broadcastInDim S450000x1 ![0] bcast_S450000_S450000x1_0 : (⟨S450000, .i32⟩ : BufTy).Contents (Elt F) → (⟨S450000x1, .i32⟩ : BufTy).Contents (Elt F)),
    binary main_v53 main_v82 main_v83 ((fun x i => Host.gather gather_S50000x128_S450000x1_S450000x128_1_0_n_n_0_1_1128 x i) : (⟨S50000x128, .f32⟩ : BufTy).Contents (Elt F) → (⟨S450000x1, .i32⟩ : BufTy).Contents (Elt F) → (⟨S450000x128, .f32⟩ : BufTy).Contents (Elt F)),
    unary main_v76 main_v84 (broadcastInDim S450000x1 ![0] bcast_S450000_S450000x1_0 : (⟨S450000, .f32⟩ : BufTy).Contents (Elt F) → (⟨S450000x1, .f32⟩ : BufTy).Contents (Elt F)),
    unary main_v84 main_v85 (broadcastInDim S450000x128 ![0, 1] bcast_S450000x1_S450000x128_0_1 : (⟨S450000x1, .f32⟩ : BufTy).Contents (Elt F) → (⟨S450000x128, .f32⟩ : BufTy).Contents (Elt F)),
    binary main_v83 main_v85 main_v86 (mulf : (⟨S450000x128, .f32⟩ : BufTy).Contents (Elt F) → (⟨S450000x128, .f32⟩ : BufTy).Contents (Elt F) → (⟨S450000x128, .f32⟩ : BufTy).Contents (Elt F)),
    nullary main_cst_18 (constant S_ .f32 0x00000000#32),
    unary main_cst_18 main_v87 (broadcastInDim S50000x128 ![] bcast_S_S50000x128 : (⟨S_, .f32⟩ : BufTy).Contents (Elt F) → (⟨S50000x128, .f32⟩ : BufTy).Contents (Elt F)),
    unary main_v3 main_v88 (broadcastInDim S450000x1 ![0] bcast_S450000_S450000x1_0 : (⟨S450000, .i32⟩ : BufTy).Contents (Elt F) → (⟨S450000x1, .i32⟩ : BufTy).Contents (Elt F)),
    ternary main_v87 main_v88 main_v86 main_v89 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    nullary main_cst_19 (constant S_ .f32 0x00000000#32),
    unary main_cst_19 main_v90 (broadcastInDim S50000x128 ![] bcast_S_S50000x128 : (⟨S_, .f32⟩ : BufTy).Contents (Elt F) → (⟨S50000x128, .f32⟩ : BufTy).Contents (Elt F)),
    binary main_v89 main_v90 main_v91 (cmpf .oge : (⟨S50000x128, .f32⟩ : BufTy).Contents (Elt F) → (⟨S50000x128, .f32⟩ : BufTy).Contents (Elt F) → (⟨S50000x128, .i1⟩ : BufTy).Contents (Elt F)),
    unary main_arg9 main_v92 (broadcastInDim S1x128 ![1] bcast_S128_S1x128_1 : (⟨S128, .f32⟩ : BufTy).Contents (Elt F) → (⟨S1x128, .f32⟩ : BufTy).Contents (Elt F)),
    unary main_v92 main_v93 (broadcastInDim S50000x128 ![0, 1] bcast_S1x128_S50000x128_0_1 : (⟨S1x128, .f32⟩ : BufTy).Contents (Elt F) → (⟨S50000x128, .f32⟩ : BufTy).Contents (Elt F)),
    binary main_v93 main_v89 main_v94 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v91) (TRef.of (T := ⟨S50000x128, .f32⟩) main_v89) (TRef.of (T := ⟨S50000x128, .f32⟩) main_v94) (TRef.of (T := ⟨S50000x128, .f32⟩) main_v95) select ]

/-- The buffers these operations write, one each, in order. -/
def wr03 : List (Ref sig .tc) :=
  [main_v50, main_v51, main_v52, main_v53, main_cst_9, main_v54, main_v55, main_v56, main_cst_10, main_v57, main_v58, main_v59, main_cst_11, main_call2_v0, main_call2_v1, main_v60, main_c_12, main_v61, main_v62, main_c_13, main_v63, main_v64, main_v65, main_v66, main_v67, main_v68, main_c_14, main_v69, main_v70, main_c_15, main_v71, main_v72, main_v73, main_v74, main_v75, main_v76, main_c_16, main_v77, main_v78, main_c_17, main_v79, main_v80, main_v81, main_v82, main_v83, main_v84, main_v85, main_v86, main_cst_18, main_v87, main_v88, main_v89, main_cst_19, main_v90, main_v91, main_v92, main_v93, main_v94, main_v95]

set_option maxRecDepth 4096 in
theorem writes03 : WritesOne (τ := τ) (ops03 (F := F)) wr03 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil)))))))))))))))))))))))))))))))))))))))))))))))))))))))))))

set_option maxRecDepth 4096 in
/-- Every operation here touches TensorCore buffers only. -/
theorem sub03 : (ops03 (F := F)).Forall fun op => op.bufs ⊆ tcRefs τ sig :=
  ⟨binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., ternary_bufs_sub ..⟩

set_option maxRecDepth 4096 in
/-- No operation here allocates: each determines its result. -/
theorem fresh03 : (ops03 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer none of these operations writes holds after them what it held before. -/
theorem L2a_keep {b : Ref sig .tc} (hb : b ∉ wr03) (S : Valuation τ sig (Elt F)) :
    after ops03 S (Proc.devRef .tc b) = S (Proc.devRef .tc b) :=
  after_unwritten writes03 hb S

/-- The arguments and the two edge rows pass through these operations. -/
theorem L2a_kept {V S : Valuation τ sig (Elt F)} (h : Kept V S) : Kept V (after ops03 S) :=
  ⟨⟨(L2a_keep (by decide) S).trans h.a0,
    (L2a_keep (by decide) S).trans h.a1,
    (L2a_keep (by decide) S).trans h.a2,
    (L2a_keep (by decide) S).trans h.a3,
    (L2a_keep (by decide) S).trans h.a4,
    (L2a_keep (by decide) S).trans h.a5,
    (L2a_keep (by decide) S).trans h.a6,
    (L2a_keep (by decide) S).trans h.a7,
    (L2a_keep (by decide) S).trans h.a8,
    (L2a_keep (by decide) S).trans h.a9,
    (L2a_keep (by decide) S).trans h.a10,
    (L2a_keep (by decide) S).trans h.a11,
    (L2a_keep (by decide) S).trans h.a12,
    (L2a_keep (by decide) S).trans h.a13,
    (L2a_keep (by decide) S).trans h.a14,
    (L2a_keep (by decide) S).trans h.a15,
    (L2a_keep (by decide) S).trans h.a16⟩,
    (L2a_keep (by decide) S).trans h.src, (L2a_keep (by decide) S).trans h.dst⟩

/-- One layer: from a state that holds the arguments and the edge rows, and X at the layer's input, the layer's
    output buffer ends at the rectified weighted neighbourhood sum of the affine image of X. -/
theorem L2a_val {V S : Valuation τ sig (Elt F)} (h : Kept V S) (X : Cert.Spec.C F S50000x128 .f32)
    (hX : S (Proc.devRef .tc main_v49) = X) :
    after ops03 S (Proc.devRef .tc main_v95)
      = Cert.Spec.layer X (V (Proc.devRef .tc main_arg1)) (V (Proc.devRef .tc main_arg2)) (V (Proc.devRef .tc main_arg7)) (V (Proc.devRef .tc main_arg8)) (V (Proc.devRef .tc main_arg9)) := by
  after_results_simp
  rw [hX, h.src, h.dst, h.a2, h.a7, h.a8, h.a9]
  rfl

end Cert.ReferenceIdeal.Hand

end
-- ==== Proof.Ref.L1b.lean ====
/-
  One layer of the second encoder over the node features: the affine image x W + b, the symmetric degree normalisation of the
  edge weights (recomputed here from the edge list and the weights), the weighted neighbourhood sum along the
  edges, and the parametric rectifier. The operations are listed as the reference prints them; the layer's output
  buffer ends at the named composite of the layer's input and the launched arguments.
-/
import proofs.«113219_j18691697672631_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
/-- Operations 122 to 123 of the reference, part of this layer. -/
abbrev ops04 : List (HloOp τ sig (Elt F)) :=
  [ binary main_arg0 main_arg10 main_v96 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg11 main_v97 (broadcastInDim S1x128 ![1] bcast_S128_S1x128_1 : (⟨S128, .f32⟩ : BufTy).Contents (Elt F) → (⟨S1x128, .f32⟩ : BufTy).Contents (Elt F)) ]

/-- The buffers these operations write, one each, in order. -/
def wr04 : List (Ref sig .tc) :=
  [main_v96, main_v97]

set_option maxRecDepth 4096 in
theorem writes04 : WritesOne (τ := τ) (ops04 (F := F)) wr04 :=
  .cons rfl (.cons rfl (List.Forall₂.nil))

set_option maxRecDepth 4096 in
/-- Every operation here touches TensorCore buffers only. -/
theorem sub04 : (ops04 (F := F)).Forall fun op => op.bufs ⊆ tcRefs τ sig :=
  ⟨binary_bufs_sub .., unary_bufs_sub ..⟩

set_option maxRecDepth 4096 in
/-- No operation here allocates: each determines its result. -/
theorem fresh04 : (ops04 (F := F)).Forall fun op => op.fresh = ∅ :=
  ⟨rfl, rfl⟩

set_option maxHeartbeats 2000000 in
/-- Operations 124 to 180 of the reference, part of this layer. -/
abbrev ops05 : List (HloOp τ sig (Elt F)) :=
  [ unary main_v97 main_v98 (broadcastInDim S50000x128 ![0, 1] bcast_S1x128_S50000x128_0_1 : (⟨S1x128, .f32⟩ : BufTy).Contents (Elt F) → (⟨S50000x128, .f32⟩ : BufTy).Contents (Elt F)),
    binary main_v96 main_v98 main_v99 (addf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x00000000#32),
    unary main_cst_20 main_v100 (broadcastInDim S50000 ![] bcast_S_S50000 : (⟨S_, .f32⟩ : BufTy).Contents (Elt F) → (⟨S50000, .f32⟩ : BufTy).Contents (Elt F)),
    unary main_v3 main_v101 (broadcastInDim S450000x1 ![0] bcast_S450000_S450000x1_0 : (⟨S450000, .i32⟩ : BufTy).Contents (Elt F) → (⟨S450000x1, .i32⟩ : BufTy).Contents (Elt F)),
    ternary main_v100 main_v101 main_arg2 main_v102 ((fun x i u => Host.scatterAdd scatter_S50000_S450000x1_S450000_n_0_0_1 x i u) : (⟨S50000, .f32⟩ : BufTy).Contents (Elt F) → (⟨S450000x1, .i32⟩ : BufTy).Contents (Elt F) → (⟨S450000, .f32⟩ : BufTy).Contents (Elt F) → (⟨S50000, .f32⟩ : BufTy).Contents (Elt F)),
    nullary main_cst_21 (constant S_ .f32 0x00000000#32),
    unary main_cst_21 main_v103 (broadcastInDim S50000 ![] bcast_S_S50000 : (⟨S_, .f32⟩ : BufTy).Contents (Elt F) → (⟨S50000, .f32⟩ : BufTy).Contents (Elt F)),
    binary main_v102 main_v103 main_v104 (cmpf .ogt : (⟨S50000, .f32⟩ : BufTy).Contents (Elt F) → (⟨S50000, .f32⟩ : BufTy).Contents (Elt F) → (⟨S50000, .i1⟩ : BufTy).Contents (Elt F)),
    unary main_v102 main_v105 (Host.rsqrt : (⟨S50000, .f32⟩ : BufTy).Contents (Elt F) → (⟨S50000, .f32⟩ : BufTy).Contents (Elt F)),
    nullary main_cst_22 (constant S_ .f32 0x00000000#32),
    TRef.unary (TRef.of (T := ⟨S_, .f32⟩) main_cst_22) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v104) (TRef.of (T := ⟨S50000, .f32⟩) main_v105) (TRef.of (T := ⟨S50000, .f32⟩) main_call4_v1) (TRef.of (T := ⟨S50000, .f32⟩) main_v106) select,
    nullary main_c_23 (constantI S_ 32 0#32),
    unary main_c_23 main_v107 (broadcastInDim S450000 ![] bcast_S_S450000 : (⟨S_, .i32⟩ : BufTy).Contents (Elt F) → (⟨S450000, .i32⟩ : BufTy).Contents (Elt F)),
    binary main_v1 main_v107 main_v108 (cmpi .slt : (⟨S450000, .i32⟩ : BufTy).Contents (Elt F) → (⟨S450000, .i32⟩ : BufTy).Contents (Elt F) → (⟨S450000, .i1⟩ : BufTy).Contents (Elt F)),
    nullary main_c_24 (constantI S_ 32 50000#32),
    unary main_c_24 main_v109 (broadcastInDim S450000 ![] bcast_S_S450000 : (⟨S_, .i32⟩ : BufTy).Contents (Elt F) → (⟨S450000, .i32⟩ : BufTy).Contents (Elt F)),
    binary main_v1 main_v109 main_v110 (addi : (⟨S450000, .i32⟩ : BufTy).Contents (Elt F) → (⟨S450000, .i32⟩ : BufTy).Contents (Elt F) → (⟨S450000, .i32⟩ : BufTy).Contents (Elt F)),
    ternary main_v108 main_v110 main_v1 main_v111 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v111 main_v112 (broadcastInDim S450000x1 ![0] bcast_S450000_S450000x1_0 : (⟨S450000, .i32⟩ : BufTy).Contents (Elt F) → (⟨S450000x1, .i32⟩ : BufTy).Contents (Elt F)),
    binary main_v106 main_v112 main_v113 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v113 main_arg2 main_v114 (mulf : (⟨S450000, .f32⟩ : BufTy).Contents (Elt F) → (⟨S450000, .f32⟩ : BufTy).Contents (Elt F) → (⟨S450000, .f32⟩ : BufTy).Contents (Elt F)),
    nullary main_c_25 (constantI S_ 32 0#32),
    unary main_c_25 main_v115 (broadcastInDim S450000 ![] bcast_S_S450000 : (⟨S_, .i32⟩ : BufTy).Contents (Elt F) → (⟨S450000, .i32⟩ : BufTy).Contents (Elt F)),
    binary main_v3 main_v115 main_v116 (cmpi .slt : (⟨S450000, .i32⟩ : BufTy).Contents (Elt F) → (⟨S450000, .i32⟩ : BufTy).Contents (Elt F) → (⟨S450000, .i1⟩ : BufTy).Contents (Elt F)),
    nullary main_c_26 (constantI S_ 32 50000#32),
    unary main_c_26 main_v117 (broadcastInDim S450000 ![] bcast_S_S450000 : (⟨S_, .i32⟩ : BufTy).Contents (Elt F) → (⟨S450000, .i32⟩ : BufTy).Contents (Elt F)),
    binary main_v3 main_v117 main_v118 (addi : (⟨S450000, .i32⟩ : BufTy).Contents (Elt F) → (⟨S450000, .i32⟩ : BufTy).Contents (Elt F) → (⟨S450000, .i32⟩ : BufTy).Contents (Elt F)),
    ternary main_v116 main_v118 main_v3 main_v119 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v119 main_v120 (broadcastInDim S450000x1 ![0] bcast_S450000_S450000x1_0 : (⟨S450000, .i32⟩ : BufTy).Contents (Elt F) → (⟨S450000x1, .i32⟩ : BufTy).Contents (Elt F)),
    binary main_v106 main_v120 main_v121 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v114 main_v121 main_v122 (mulf : (⟨S450000, .f32⟩ : BufTy).Contents (Elt F) → (⟨S450000, .f32⟩ : BufTy).Contents (Elt F) → (⟨S450000, .f32⟩ : BufTy).Contents (Elt F)),
    nullary main_c_27 (constantI S_ 32 0#32),
    unary main_c_27 main_v123 (broadcastInDim S450000 ![] bcast_S_S450000 : (⟨S_, .i32⟩ : BufTy).Contents (Elt F) → (⟨S450000, .i32⟩ : BufTy).Contents (Elt F)),
    binary main_v1 main_v123 main_v124 (cmpi .slt : (⟨S450000, .i32⟩ : BufTy).Contents (Elt F) → (⟨S450000, .i32⟩ : BufTy).Contents (Elt F) → (⟨S450000, .i1⟩ : BufTy).Contents (Elt F)),
    nullary main_c_28 (constantI S_ 32 50000#32),
    unary main_c_28 main_v125 (broadcastInDim S450000 ![] bcast_S_S450000 : (⟨S_, .i32⟩ : BufTy).Contents (Elt F) → (⟨S450000, .i32⟩ : BufTy).Contents (Elt F)),
    binary main_v1 main_v125 main_v126 (addi : (⟨S450000, .i32⟩ : BufTy).Contents (Elt F) → (⟨S450000, .i32⟩ : BufTy).Contents (Elt F) → (⟨S450000, .i32⟩ : BufTy).Contents (Elt F)),
    ternary main_v124 main_v126 main_v1 main_v127 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v127 main_v128 (broadcastInDim S450000x1 ![0] bcast_S450000_S450000x1_0 : (⟨S450000, .i32⟩ : BufTy).Contents (Elt F) → (⟨S450000x1, .i32⟩ : BufTy).Contents (Elt F)),
    binary main_v99 main_v128 main_v129 ((fun x i => Host.gather gather_S50000x128_S450000x1_S450000x128_1_0_n_n_0_1_1128 x i) : (⟨S50000x128, .f32⟩ : BufTy).Contents (Elt F) → (⟨S450000x1, .i32⟩ : BufTy).Contents (Elt F) → (⟨S450000x128, .f32⟩ : BufTy).Contents (Elt F)),
    unary main_v122 main_v130 (broadcastInDim S450000x1 ![0] bcast_S450000_S450000x1_0 : (⟨S450000, .f32⟩ : BufTy).Contents (Elt F) → (⟨S450000x1, .f32⟩ : BufTy).Contents (Elt F)),
    unary main_v130 main_v131 (broadcastInDim S450000x128 ![0, 1] bcast_S450000x1_S450000x128_0_1 : (⟨S450000x1, .f32⟩ : BufTy).Contents (Elt F) → (⟨S450000x128, .f32⟩ : BufTy).Contents (Elt F)),
    binary main_v129 main_v131 main_v132 (mulf : (⟨S450000x128, .f32⟩ : BufTy).Contents (Elt F) → (⟨S450000x128, .f32⟩ : BufTy).Contents (Elt F) → (⟨S450000x128, .f32⟩ : BufTy).Contents (Elt F)),
    nullary main_cst_29 (constant S_ .f32 0x00000000#32),
    unary main_cst_29 main_v133 (broadcastInDim S50000x128 ![] bcast_S_S50000x128 : (⟨S_, .f32⟩ : BufTy).Contents (Elt F) → (⟨S50000x128, .f32⟩ : BufTy).Contents (Elt F)),
    unary main_v3 main_v134 (broadcastInDim S450000x1 ![0] bcast_S450000_S450000x1_0 : (⟨S450000, .i32⟩ : BufTy).Contents (Elt F) → (⟨S450000x1, .i32⟩ : BufTy).Contents (Elt F)),
    ternary main_v133 main_v134 main_v132 main_v135 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    nullary main_cst_30 (constant S_ .f32 0x00000000#32),
    unary main_cst_30 main_v136 (broadcastInDim S50000x128 ![] bcast_S_S50000x128 : (⟨S_, .f32⟩ : BufTy).Contents (Elt F) → (⟨S50000x128, .f32⟩ : BufTy).Contents (Elt F)),
    binary main_v135 main_v136 main_v137 (cmpf .oge : (⟨S50000x128, .f32⟩ : BufTy).Contents (Elt F) → (⟨S50000x128, .f32⟩ : BufTy).Contents (Elt F) → (⟨S50000x128, .i1⟩ : BufTy).Contents (Elt F)),
    unary main_arg14 main_v138 (broadcastInDim S1x128 ![1] bcast_S128_S1x128_1 : (⟨S128, .f32⟩ : BufTy).Contents (Elt F) → (⟨S1x128, .f32⟩ : BufTy).Contents (Elt F)),
    unary main_v138 main_v139 (broadcastInDim S50000x128 ![0, 1] bcast_S1x128_S50000x128_0_1 : (⟨S1x128, .f32⟩ : BufTy).Contents (Elt F) → (⟨S50000x128, .f32⟩ : BufTy).Contents (Elt F)),
    binary main_v139 main_v135 main_v140 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v137) (TRef.of (T := ⟨S50000x128, .f32⟩) main_v135) (TRef.of (T := ⟨S50000x128, .f32⟩) main_v140) (TRef.of (T := ⟨S50000x128, .f32⟩) main_v141) select ]

/-- The buffers these operations write, one each, in order. -/
def wr05 : List (Ref sig .tc) :=
  [main_v98, main_v99, main_cst_20, main_v100, main_v101, main_v102, main_cst_21, main_v103, main_v104, main_v105, main_cst_22, main_call4_v0, main_call4_v1, main_v106, main_c_23, main_v107, main_v108, main_c_24, main_v109, main_v110, main_v111, main_v112, main_v113, main_v114, main_c_25, main_v115, main_v116, main_c_26, main_v117, main_v118, main_v119, main_v120, main_v121, main_v122, main_c_27, main_v123, main_v124, main_c_28, main_v125, main_v126, main_v127, main_v128, main_v129, main_v130, main_v131, main_v132, main_cst_29, main_v133, main_v134, main_v135, main_cst_30, main_v136, main_v137, main_v138, main_v139, main_v140, main_v141]

set_option maxRecDepth 4096 in
theorem writes05 : WritesOne (τ := τ) (ops05 (F := F)) wr05 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil)))))))))))))))))))))))))))))))))))))))))))))))))))))))))

set_option maxRecDepth 4096 in
/-- Every operation here touches TensorCore buffers only. -/
theorem sub05 : (ops05 (F := F)).Forall fun op => op.bufs ⊆ tcRefs τ sig :=
  ⟨unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., ternary_bufs_sub ..⟩

set_option maxRecDepth 4096 in
/-- No operation here allocates: each determines its result. -/
theorem fresh05 : (ops05 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer none of these operations writes holds after them what it held before. -/
theorem L1b_keep {b : Ref sig .tc} (hb : b ∉ wr04 ++ wr05) (S : Valuation τ sig (Elt F)) :
    after ops05 (after ops04 S) (Proc.devRef .tc b) = S (Proc.devRef .tc b) :=
  (after_unwritten writes05 (fun h => hb (List.mem_append_right _ (h))) (after ops04 S)).trans (after_unwritten writes04 (fun h => hb (List.mem_append_left _ h)) S)

/-- The arguments and the two edge rows pass through these operations. -/
theorem L1b_kept {V S : Valuation τ sig (Elt F)} (h : Kept V S) : Kept V (after ops05 (after ops04 S)) :=
  ⟨⟨(L1b_keep (by decide) S).trans h.a0,
    (L1b_keep (by decide) S).trans h.a1,
    (L1b_keep (by decide) S).trans h.a2,
    (L1b_keep (by decide) S).trans h.a3,
    (L1b_keep (by decide) S).trans h.a4,
    (L1b_keep (by decide) S).trans h.a5,
    (L1b_keep (by decide) S).trans h.a6,
    (L1b_keep (by decide) S).trans h.a7,
    (L1b_keep (by decide) S).trans h.a8,
    (L1b_keep (by decide) S).trans h.a9,
    (L1b_keep (by decide) S).trans h.a10,
    (L1b_keep (by decide) S).trans h.a11,
    (L1b_keep (by decide) S).trans h.a12,
    (L1b_keep (by decide) S).trans h.a13,
    (L1b_keep (by decide) S).trans h.a14,
    (L1b_keep (by decide) S).trans h.a15,
    (L1b_keep (by decide) S).trans h.a16⟩,
    (L1b_keep (by decide) S).trans h.src, (L1b_keep (by decide) S).trans h.dst⟩

/-- One layer: from a state that holds the arguments and the edge rows, and X at the layer's input, the layer's
    output buffer ends at the rectified weighted neighbourhood sum of the affine image of X. -/
theorem L1b_val {V S : Valuation τ sig (Elt F)} (h : Kept V S) (X : Cert.Spec.C F S50000x128 .f32)
    (hX : S (Proc.devRef .tc main_arg0) = X) :
    after ops05 (after ops04 S) (Proc.devRef .tc main_v141)
      = Cert.Spec.layer X (V (Proc.devRef .tc main_arg1)) (V (Proc.devRef .tc main_arg2)) (V (Proc.devRef .tc main_arg10)) (V (Proc.devRef .tc main_arg11)) (V (Proc.devRef .tc main_arg14)) := by
  after_results_simp
  rw [hX, h.src, h.dst, h.a2, h.a10, h.a11, h.a14]
  rfl

end Cert.ReferenceIdeal.Hand

end
-- ==== Proof.Ref.L2b.lean ====
/-
  One layer of the second encoder over the first layer's output: the affine image x W + b, the symmetric degree normalisation of the
  edge weights (recomputed here from the edge list and the weights), the weighted neighbourhood sum along the
  edges, and the parametric rectifier. The operations are listed as the reference prints them; the layer's output
  buffer ends at the named composite of the layer's input and the launched arguments.
-/
import proofs.«113219_j18691697672631_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
/-- Operations 181 to 185 of the reference, part of this layer. -/
abbrev ops06 : List (HloOp τ sig (Elt F)) :=
  [ binary main_v141 main_arg12 main_v142 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg13 main_v143 (broadcastInDim S1x128 ![1] bcast_S128_S1x128_1 : (⟨S128, .f32⟩ : BufTy).Contents (Elt F) → (⟨S1x128, .f32⟩ : BufTy).Contents (Elt F)),
    unary main_v143 main_v144 (broadcastInDim S50000x128 ![0, 1] bcast_S1x128_S50000x128_0_1 : (⟨S1x128, .f32⟩ : BufTy).Contents (Elt F) → (⟨S50000x128, .f32⟩ : BufTy).Contents (Elt F)),
    binary main_v142 main_v144 main_v145 (addf : (⟨S50000x128, .f32⟩ : BufTy).Contents (Elt F) → (⟨S50000x128, .f32⟩ : BufTy).Contents (Elt F) → (⟨S50000x128, .f32⟩ : BufTy).Contents (Elt F)),
    nullary main_cst_31 (constant S_ .f32 0x00000000#32) ]

/-- The buffers these operations write, one each, in order. -/
def wr06 : List (Ref sig .tc) :=
  [main_v142, main_v143, main_v144, main_v145, main_cst_31]

set_option maxRecDepth 4096 in
theorem writes06 : WritesOne (τ := τ) (ops06 (F := F)) wr06 :=
  .cons rfl (.cons rfl (.cons rfl (.cons rfl (.cons rfl (List.Forall₂.nil)))))

set_option maxRecDepth 4096 in
/-- Every operation here touches TensorCore buffers only. -/
theorem sub06 : (ops06 (F := F)).Forall fun op => op.bufs ⊆ tcRefs τ sig :=
  ⟨binary_bufs_sub .., unary_bufs_sub .., unary_bufs_sub .., binary_bufs_sub .., nullary_bufs_sub ..⟩

set_option maxRecDepth 4096 in
/-- No operation here allocates: each determines its result. -/
theorem fresh06 : (ops06 (F := F)).Forall fun op => op.fresh = ∅ :=
  ⟨rfl, rfl, rfl, rfl, rfl⟩

set_option maxHeartbeats 2000000 in
/-- Operations 186 to 239 of the reference, part of this layer. -/
abbrev ops07 : List (HloOp τ sig (Elt F)) :=
  [ unary main_cst_31 main_v146 (broadcastInDim S50000 ![] bcast_S_S50000 : (⟨S_, .f32⟩ : BufTy).Contents (Elt F) → (⟨S50000, .f32⟩ : BufTy).Contents (Elt F)),
    unary main_v3 main_v147 (broadcastInDim S450000x1 ![0] bcast_S450000_S450000x1_0 : (⟨S450000, .i32⟩ : BufTy).Contents (Elt F) → (⟨S450000x1, .i32⟩ : BufTy).Contents (Elt F)),
    ternary main_v146 main_v147 main_arg2 main_v148 ((fun x i u => Host.scatterAdd scatter_S50000_S450000x1_S450000_n_0_0_1 x i u) : (⟨S50000, .f32⟩ : BufTy).Contents (Elt F) → (⟨S450000x1, .i32⟩ : BufTy).Contents (Elt F) → (⟨S450000, .f32⟩ : BufTy).Contents (Elt F) → (⟨S50000, .f32⟩ : BufTy).Contents (Elt F)),
    nullary main_cst_32 (constant S_ .f32 0x00000000#32),
    unary main_cst_32 main_v149 (broadcastInDim S50000 ![] bcast_S_S50000 : (⟨S_, .f32⟩ : BufTy).Contents (Elt F) → (⟨S50000, .f32⟩ : BufTy).Contents (Elt F)),
    binary main_v148 main_v149 main_v150 (cmpf .ogt : (⟨S50000, .f32⟩ : BufTy).Contents (Elt F) → (⟨S50000, .f32⟩ : BufTy).Contents (Elt F) → (⟨S50000, .i1⟩ : BufTy).Contents (Elt F)),
    unary main_v148 main_v151 (Host.rsqrt : (⟨S50000, .f32⟩ : BufTy).Contents (Elt F) → (⟨S50000, .f32⟩ : BufTy).Contents (Elt F)),
    nullary main_cst_33 (constant S_ .f32 0x00000000#32),
    TRef.unary (TRef.of (T := ⟨S_, .f32⟩) main_cst_33) (TRef.of (T := ⟨S_, .f32⟩) main_call6_v0) id,
    TRef.unary (TRef.of (T := ⟨S_, .f32⟩) main_call6_v0) (TRef.of (T := ⟨S50000, .f32⟩) main_call6_v1) (broadcastInDim S50000 ![] bcast_S_S50000),
    TRef.ternary (TRef.of (T := ⟨S50000, .i1⟩) main_v150) (TRef.of (T := ⟨S50000, .f32⟩) main_v151) (TRef.of (T := ⟨S50000, .f32⟩) main_call6_v1) (TRef.of (T := ⟨S50000, .f32⟩) main_v152) select,
    nullary main_c_34 (constantI S_ 32 0#32),
    unary main_c_34 main_v153 (broadcastInDim S450000 ![] bcast_S_S450000 : (⟨S_, .i32⟩ : BufTy).Contents (Elt F) → (⟨S450000, .i32⟩ : BufTy).Contents (Elt F)),
    binary main_v1 main_v153 main_v154 (cmpi .slt : (⟨S450000, .i32⟩ : BufTy).Contents (Elt F) → (⟨S450000, .i32⟩ : BufTy).Contents (Elt F) → (⟨S450000, .i1⟩ : BufTy).Contents (Elt F)),
    nullary main_c_35 (constantI S_ 32 50000#32),
    unary main_c_35 main_v155 (broadcastInDim S450000 ![] bcast_S_S450000 : (⟨S_, .i32⟩ : BufTy).Contents (Elt F) → (⟨S450000, .i32⟩ : BufTy).Contents (Elt F)),
    binary main_v1 main_v155 main_v156 (addi : (⟨S450000, .i32⟩ : BufTy).Contents (Elt F) → (⟨S450000, .i32⟩ : BufTy).Contents (Elt F) → (⟨S450000, .i32⟩ : BufTy).Contents (Elt F)),
    ternary main_v154 main_v156 main_v1 main_v157 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v157 main_v158 (broadcastInDim S450000x1 ![0] bcast_S450000_S450000x1_0 : (⟨S450000, .i32⟩ : BufTy).Contents (Elt F) → (⟨S450000x1, .i32⟩ : BufTy).Contents (Elt F)),
    binary main_v152 main_v158 main_v159 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v159 main_arg2 main_v160 (mulf : (⟨S450000, .f32⟩ : BufTy).Contents (Elt F) → (⟨S450000, .f32⟩ : BufTy).Contents (Elt F) → (⟨S450000, .f32⟩ : BufTy).Contents (Elt F)),
    nullary main_c_36 (constantI S_ 32 0#32),
    unary main_c_36 main_v161 (broadcastInDim S450000 ![] bcast_S_S450000 : (⟨S_, .i32⟩ : BufTy).Contents (Elt F) → (⟨S450000, .i32⟩ : BufTy).Contents (Elt F)),
    binary main_v3 main_v161 main_v162 (cmpi .slt : (⟨S450000, .i32⟩ : BufTy).Contents (Elt F) → (⟨S450000, .i32⟩ : BufTy).Contents (Elt F) → (⟨S450000, .i1⟩ : BufTy).Contents (Elt F)),
    nullary main_c_37 (constantI S_ 32 50000#32),
    unary main_c_37 main_v163 (broadcastInDim S450000 ![] bcast_S_S450000 : (⟨S_, .i32⟩ : BufTy).Contents (Elt F) → (⟨S450000, .i32⟩ : BufTy).Contents (Elt F)),
    binary main_v3 main_v163 main_v164 (addi : (⟨S450000, .i32⟩ : BufTy).Contents (Elt F) → (⟨S450000, .i32⟩ : BufTy).Contents (Elt F) → (⟨S450000, .i32⟩ : BufTy).Contents (Elt F)),
    ternary main_v162 main_v164 main_v3 main_v165 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v165 main_v166 (broadcastInDim S450000x1 ![0] bcast_S450000_S450000x1_0 : (⟨S450000, .i32⟩ : BufTy).Contents (Elt F) → (⟨S450000x1, .i32⟩ : BufTy).Contents (Elt F)),
    binary main_v152 main_v166 main_v167 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v160 main_v167 main_v168 (mulf : (⟨S450000, .f32⟩ : BufTy).Contents (Elt F) → (⟨S450000, .f32⟩ : BufTy).Contents (Elt F) → (⟨S450000, .f32⟩ : BufTy).Contents (Elt F)),
    nullary main_c_38 (constantI S_ 32 0#32),
    unary main_c_38 main_v169 (broadcastInDim S450000 ![] bcast_S_S450000 : (⟨S_, .i32⟩ : BufTy).Contents (Elt F) → (⟨S450000, .i32⟩ : BufTy).Contents (Elt F)),
    binary main_v1 main_v169 main_v170 (cmpi .slt : (⟨S450000, .i32⟩ : BufTy).Contents (Elt F) → (⟨S450000, .i32⟩ : BufTy).Contents (Elt F) → (⟨S450000, .i1⟩ : BufTy).Contents (Elt F)),
    nullary main_c_39 (constantI S_ 32 50000#32),
    unary main_c_39 main_v171 (broadcastInDim S450000 ![] bcast_S_S450000 : (⟨S_, .i32⟩ : BufTy).Contents (Elt F) → (⟨S450000, .i32⟩ : BufTy).Contents (Elt F)),
    binary main_v1 main_v171 main_v172 (addi : (⟨S450000, .i32⟩ : BufTy).Contents (Elt F) → (⟨S450000, .i32⟩ : BufTy).Contents (Elt F) → (⟨S450000, .i32⟩ : BufTy).Contents (Elt F)),
    ternary main_v170 main_v172 main_v1 main_v173 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v173 main_v174 (broadcastInDim S450000x1 ![0] bcast_S450000_S450000x1_0 : (⟨S450000, .i32⟩ : BufTy).Contents (Elt F) → (⟨S450000x1, .i32⟩ : BufTy).Contents (Elt F)),
    binary main_v145 main_v174 main_v175 ((fun x i => Host.gather gather_S50000x128_S450000x1_S450000x128_1_0_n_n_0_1_1128 x i) : (⟨S50000x128, .f32⟩ : BufTy).Contents (Elt F) → (⟨S450000x1, .i32⟩ : BufTy).Contents (Elt F) → (⟨S450000x128, .f32⟩ : BufTy).Contents (Elt F)),
    unary main_v168 main_v176 (broadcastInDim S450000x1 ![0] bcast_S450000_S450000x1_0 : (⟨S450000, .f32⟩ : BufTy).Contents (Elt F) → (⟨S450000x1, .f32⟩ : BufTy).Contents (Elt F)),
    unary main_v176 main_v177 (broadcastInDim S450000x128 ![0, 1] bcast_S450000x1_S450000x128_0_1 : (⟨S450000x1, .f32⟩ : BufTy).Contents (Elt F) → (⟨S450000x128, .f32⟩ : BufTy).Contents (Elt F)),
    binary main_v175 main_v177 main_v178 (mulf : (⟨S450000x128, .f32⟩ : BufTy).Contents (Elt F) → (⟨S450000x128, .f32⟩ : BufTy).Contents (Elt F) → (⟨S450000x128, .f32⟩ : BufTy).Contents (Elt F)),
    nullary main_cst_40 (constant S_ .f32 0x00000000#32),
    unary main_cst_40 main_v179 (broadcastInDim S50000x128 ![] bcast_S_S50000x128 : (⟨S_, .f32⟩ : BufTy).Contents (Elt F) → (⟨S50000x128, .f32⟩ : BufTy).Contents (Elt F)),
    unary main_v3 main_v180 (broadcastInDim S450000x1 ![0] bcast_S450000_S450000x1_0 : (⟨S450000, .i32⟩ : BufTy).Contents (Elt F) → (⟨S450000x1, .i32⟩ : BufTy).Contents (Elt F)),
    ternary main_v179 main_v180 main_v178 main_v181 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    nullary main_cst_41 (constant S_ .f32 0x00000000#32),
    unary main_cst_41 main_v182 (broadcastInDim S50000x128 ![] bcast_S_S50000x128 : (⟨S_, .f32⟩ : BufTy).Contents (Elt F) → (⟨S50000x128, .f32⟩ : BufTy).Contents (Elt F)),
    binary main_v181 main_v182 main_v183 (cmpf .oge : (⟨S50000x128, .f32⟩ : BufTy).Contents (Elt F) → (⟨S50000x128, .f32⟩ : BufTy).Contents (Elt F) → (⟨S50000x128, .i1⟩ : BufTy).Contents (Elt F)),
    unary main_arg14 main_v184 (broadcastInDim S1x128 ![1] bcast_S128_S1x128_1 : (⟨S128, .f32⟩ : BufTy).Contents (Elt F) → (⟨S1x128, .f32⟩ : BufTy).Contents (Elt F)),
    unary main_v184 main_v185 (broadcastInDim S50000x128 ![0, 1] bcast_S1x128_S50000x128_0_1 : (⟨S1x128, .f32⟩ : BufTy).Contents (Elt F) → (⟨S50000x128, .f32⟩ : BufTy).Contents (Elt F)),
    binary main_v185 main_v181 main_v186 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v183) (TRef.of (T := ⟨S50000x128, .f32⟩) main_v181) (TRef.of (T := ⟨S50000x128, .f32⟩) main_v186) (TRef.of (T := ⟨S50000x128, .f32⟩) main_v187) select ]

/-- The buffers these operations write, one each, in order. -/
def wr07 : List (Ref sig .tc) :=
  [main_v146, main_v147, main_v148, main_cst_32, main_v149, main_v150, main_v151, main_cst_33, main_call6_v0, main_call6_v1, main_v152, main_c_34, main_v153, main_v154, main_c_35, main_v155, main_v156, main_v157, main_v158, main_v159, main_v160, main_c_36, main_v161, main_v162, main_c_37, main_v163, main_v164, main_v165, main_v166, main_v167, main_v168, main_c_38, main_v169, main_v170, main_c_39, main_v171, main_v172, main_v173, main_v174, main_v175, main_v176, main_v177, main_v178, main_cst_40, main_v179, main_v180, main_v181, main_cst_41, main_v182, main_v183, main_v184, main_v185, main_v186, main_v187]

set_option maxRecDepth 4096 in
theorem writes07 : WritesOne (τ := τ) (ops07 (F := F)) wr07 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil))))))))))))))))))))))))))))))))))))))))))))))))))))))

set_option maxRecDepth 4096 in
/-- Every operation here touches TensorCore buffers only. -/
theorem sub07 : (ops07 (F := F)).Forall fun op => op.bufs ⊆ tcRefs τ sig :=
  ⟨unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., ternary_bufs_sub ..⟩

set_option maxRecDepth 4096 in
/-- No operation here allocates: each determines its result. -/
theorem fresh07 : (ops07 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer none of these operations writes holds after them what it held before. -/
theorem L2b_keep {b : Ref sig .tc} (hb : b ∉ wr06 ++ wr07) (S : Valuation τ sig (Elt F)) :
    after ops07 (after ops06 S) (Proc.devRef .tc b) = S (Proc.devRef .tc b) :=
  (after_unwritten writes07 (fun h => hb (List.mem_append_right _ (h))) (after ops06 S)).trans (after_unwritten writes06 (fun h => hb (List.mem_append_left _ h)) S)

/-- The arguments and the two edge rows pass through these operations. -/
theorem L2b_kept {V S : Valuation τ sig (Elt F)} (h : Kept V S) : Kept V (after ops07 (after ops06 S)) :=
  ⟨⟨(L2b_keep (by decide) S).trans h.a0,
    (L2b_keep (by decide) S).trans h.a1,
    (L2b_keep (by decide) S).trans h.a2,
    (L2b_keep (by decide) S).trans h.a3,
    (L2b_keep (by decide) S).trans h.a4,
    (L2b_keep (by decide) S).trans h.a5,
    (L2b_keep (by decide) S).trans h.a6,
    (L2b_keep (by decide) S).trans h.a7,
    (L2b_keep (by decide) S).trans h.a8,
    (L2b_keep (by decide) S).trans h.a9,
    (L2b_keep (by decide) S).trans h.a10,
    (L2b_keep (by decide) S).trans h.a11,
    (L2b_keep (by decide) S).trans h.a12,
    (L2b_keep (by decide) S).trans h.a13,
    (L2b_keep (by decide) S).trans h.a14,
    (L2b_keep (by decide) S).trans h.a15,
    (L2b_keep (by decide) S).trans h.a16⟩,
    (L2b_keep (by decide) S).trans h.src, (L2b_keep (by decide) S).trans h.dst⟩

/-- One layer: from a state that holds the arguments and the edge rows, and X at the layer's input, the layer's
    output buffer ends at the rectified weighted neighbourhood sum of the affine image of X. -/
theorem L2b_val {V S : Valuation τ sig (Elt F)} (h : Kept V S) (X : Cert.Spec.C F S50000x128 .f32)
    (hX : S (Proc.devRef .tc main_v141) = X) :
    after ops07 (after ops06 S) (Proc.devRef .tc main_v187)
      = Cert.Spec.layer X (V (Proc.devRef .tc main_arg1)) (V (Proc.devRef .tc main_arg2)) (V (Proc.devRef .tc main_arg12)) (V (Proc.devRef .tc main_arg13)) (V (Proc.devRef .tc main_arg14)) := by
  after_results_simp
  rw [hX, h.src, h.dst, h.a2, h.a12, h.a13, h.a14]
  rfl

end Cert.ReferenceIdeal.Hand

end
-- ==== Proof.Ref.Pool.lean ====
/-
  The two pooled projections: the mean of an encoder's output over the nodes, its logistic function, and the
  projection x W + b of that row.
-/
import proofs.«113219_j18691697672631_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
/-- Operations 240 to 247: the first pooled projection, first part. -/
abbrev ops08 : List (HloOp τ sig (Elt F)) :=
  [ nullary main_cst_42 (constant S_ .f32 0x00000000#32),
    binary main_v95 main_cst_42 main_v188 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v188 main_v189 (broadcastInDim S1x128 ![1] bcast_S128_S1x128_1 : (⟨S128, .f32⟩ : BufTy).Contents (Elt F) → (⟨S1x128, .f32⟩ : BufTy).Contents (Elt F)),
    nullary main_cst_43 (constant S_ .f32 0x47435000#32),
    unary main_cst_43 main_v190 (broadcastInDim S1x128 ![] bcast_S_S1x128 : (⟨S_, .f32⟩ : BufTy).Contents (Elt F) → (⟨S1x128, .f32⟩ : BufTy).Contents (Elt F)),
    binary main_v189 main_v190 main_v191 (Host.divf : (⟨S1x128, .f32⟩ : BufTy).Contents (Elt F) → (⟨S1x128, .f32⟩ : BufTy).Contents (Elt F) → (⟨S1x128, .f32⟩ : BufTy).Contents (Elt F)),
    unary main_v191 main_v192 (Host.negf : (⟨S1x128, .f32⟩ : BufTy).Contents (Elt F) → (⟨S1x128, .f32⟩ : BufTy).Contents (Elt F)),
    unary main_v192 main_v193 (Host.exp : (⟨S1x128, .f32⟩ : BufTy).Contents (Elt F) → (⟨S1x128, .f32⟩ : BufTy).Contents (Elt F)) ]

/-- The buffers these operations write, one each, in order. -/
def wr08 : List (Ref sig .tc) :=
  [main_cst_42, main_v188, main_v189, main_cst_43, main_v190, main_v191, main_v192, main_v193]

set_option maxRecDepth 4096 in
theorem writes08 : WritesOne (τ := τ) (ops08 (F := F)) wr08 :=
  .cons rfl (.cons rfl (.cons rfl (.cons rfl (.cons rfl (.cons rfl (.cons rfl (.cons rfl (List.Forall₂.nil))))))))

set_option maxRecDepth 4096 in
/-- Every operation here touches TensorCore buffers only. -/
theorem sub08 : (ops08 (F := F)).Forall fun op => op.bufs ⊆ tcRefs τ sig :=
  ⟨nullary_bufs_sub .., binary_bufs_sub .., unary_bufs_sub .., nullary_bufs_sub .., unary_bufs_sub .., binary_bufs_sub .., unary_bufs_sub .., unary_bufs_sub ..⟩

set_option maxRecDepth 4096 in
/-- No operation here allocates: each determines its result. -/
theorem fresh08 : (ops08 (F := F)).Forall fun op => op.fresh = ∅ :=
  ⟨rfl, rfl, rfl, rfl, rfl, rfl, rfl, rfl⟩

set_option maxHeartbeats 2000000 in
/-- Operations 248 to 256: the first pooled projection, second part. -/
abbrev ops09 : List (HloOp τ sig (Elt F)) :=
  [ nullary main_cst_44 (constant S_ .f32 0x3F800000#32),
    unary main_cst_44 main_v194 (broadcastInDim S1x128 ![] bcast_S_S1x128 : (⟨S_, .f32⟩ : BufTy).Contents (Elt F) → (⟨S1x128, .f32⟩ : BufTy).Contents (Elt F)),
    binary main_v194 main_v193 main_v195 (addf : (⟨S1x128, .f32⟩ : BufTy).Contents (Elt F) → (⟨S1x128, .f32⟩ : BufTy).Contents (Elt F) → (⟨S1x128, .f32⟩ : BufTy).Contents (Elt F)),
    nullary main_cst_45 (constant S_ .f32 0x3F800000#32),
    unary main_cst_45 main_v196 (broadcastInDim S1x128 ![] bcast_S_S1x128 : (⟨S_, .f32⟩ : BufTy).Contents (Elt F) → (⟨S1x128, .f32⟩ : BufTy).Contents (Elt F)),
    binary main_v196 main_v195 main_v197 (Host.divf : (⟨S1x128, .f32⟩ : BufTy).Contents (Elt F) → (⟨S1x128, .f32⟩ : BufTy).Contents (Elt F) → (⟨S1x128, .f32⟩ : BufTy).Contents (Elt F)),
    binary main_v197 main_arg15 main_v198 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)),
    unary main_arg16 main_v199 (broadcastInDim S1x128 ![1] bcast_S128_S1x128_1 : (⟨S128, .f32⟩ : BufTy).Contents (Elt F) → (⟨S1x128, .f32⟩ : BufTy).Contents (Elt F)),
    binary main_v198 main_v199 main_v200 (addf : (⟨S1x128, .f32⟩ : BufTy).Contents (Elt F) → (⟨S1x128, .f32⟩ : BufTy).Contents (Elt F) → (⟨S1x128, .f32⟩ : BufTy).Contents (Elt F)) ]

/-- The buffers these operations write, one each, in order. -/
def wr09 : List (Ref sig .tc) :=
  [main_cst_44, main_v194, main_v195, main_cst_45, main_v196, main_v197, main_v198, main_v199, main_v200]

set_option maxRecDepth 4096 in
theorem writes09 : WritesOne (τ := τ) (ops09 (F := F)) wr09 :=
  .cons rfl (.cons rfl (.cons rfl (.cons rfl (.cons rfl (.cons rfl (.cons rfl (.cons rfl (.cons rfl (List.Forall₂.nil)))))))))

set_option maxRecDepth 4096 in
/-- Every operation here touches TensorCore buffers only. -/
theorem sub09 : (ops09 (F := F)).Forall fun op => op.bufs ⊆ tcRefs τ sig :=
  ⟨nullary_bufs_sub .., unary_bufs_sub .., binary_bufs_sub .., nullary_bufs_sub .., unary_bufs_sub .., binary_bufs_sub .., binary_bufs_sub .., unary_bufs_sub .., binary_bufs_sub ..⟩

set_option maxRecDepth 4096 in
/-- No operation here allocates: each determines its result. -/
theorem fresh09 : (ops09 (F := F)).Forall fun op => op.fresh = ∅ :=
  ⟨rfl, rfl, rfl, rfl, rfl, rfl, rfl, rfl, rfl⟩

/-- A buffer none of these operations writes holds after them what it held before. -/
theorem pool1_keep {b : Ref sig .tc} (hb : b ∉ wr08 ++ wr09) (S : Valuation τ sig (Elt F)) :
    after ops09 (after ops08 S) (Proc.devRef .tc b) = S (Proc.devRef .tc b) :=
  (after_unwritten writes09 (fun h => hb (List.mem_append_right _ (h))) (after ops08 S)).trans (after_unwritten writes08 (fun h => hb (List.mem_append_left _ h)) S)

/-- The arguments and the two edge rows pass through these operations. -/
theorem pool1_kept {V S : Valuation τ sig (Elt F)} (h : Kept V S) : Kept V (after ops09 (after ops08 S)) :=
  ⟨⟨(pool1_keep (by decide) S).trans h.a0,
    (pool1_keep (by decide) S).trans h.a1,
    (pool1_keep (by decide) S).trans h.a2,
    (pool1_keep (by decide) S).trans h.a3,
    (pool1_keep (by decide) S).trans h.a4,
    (pool1_keep (by decide) S).trans h.a5,
    (pool1_keep (by decide) S).trans h.a6,
    (pool1_keep (by decide) S).trans h.a7,
    (pool1_keep (by decide) S).trans h.a8,
    (pool1_keep (by decide) S).trans h.a9,
    (pool1_keep (by decide) S).trans h.a10,
    (pool1_keep (by decide) S).trans h.a11,
    (pool1_keep (by decide) S).trans h.a12,
    (pool1_keep (by decide) S).trans h.a13,
    (pool1_keep (by decide) S).trans h.a14,
    (pool1_keep (by decide) S).trans h.a15,
    (pool1_keep (by decide) S).trans h.a16⟩,
    (pool1_keep (by decide) S).trans h.src, (pool1_keep (by decide) S).trans h.dst⟩

/-- The pooled projection of Z, Z being what the state holds at the encoder's output. -/
theorem pool1_val {V S : Valuation τ sig (Elt F)} (h : Kept V S) (Z : Cert.Spec.C F S50000x128 .f32)
    (hZ : S (Proc.devRef .tc main_v95) = Z) :
    after ops09 (after ops08 S) (Proc.devRef .tc main_v200) = Cert.Spec.pool Z (V (Proc.devRef .tc main_arg15)) (V (Proc.devRef .tc main_arg16)) := by
  after_results_simp
  rw [hZ, h.a15, h.a16]
  rfl

set_option maxHeartbeats 2000000 in
/-- Operations 257 to 273: the second pooled projection. -/
abbrev ops10 : List (HloOp τ sig (Elt F)) :=
  [ nullary main_cst_46 (constant S_ .f32 0x00000000#32),
    binary main_v187 main_cst_46 main_v201 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v201 main_v202 (broadcastInDim S1x128 ![1] bcast_S128_S1x128_1 : (⟨S128, .f32⟩ : BufTy).Contents (Elt F) → (⟨S1x128, .f32⟩ : BufTy).Contents (Elt F)),
    nullary main_cst_47 (constant S_ .f32 0x47435000#32),
    unary main_cst_47 main_v203 (broadcastInDim S1x128 ![] bcast_S_S1x128 : (⟨S_, .f32⟩ : BufTy).Contents (Elt F) → (⟨S1x128, .f32⟩ : BufTy).Contents (Elt F)),
    binary main_v202 main_v203 main_v204 (Host.divf : (⟨S1x128, .f32⟩ : BufTy).Contents (Elt F) → (⟨S1x128, .f32⟩ : BufTy).Contents (Elt F) → (⟨S1x128, .f32⟩ : BufTy).Contents (Elt F)),
    unary main_v204 main_v205 (Host.negf : (⟨S1x128, .f32⟩ : BufTy).Contents (Elt F) → (⟨S1x128, .f32⟩ : BufTy).Contents (Elt F)),
    unary main_v205 main_v206 (Host.exp : (⟨S1x128, .f32⟩ : BufTy).Contents (Elt F) → (⟨S1x128, .f32⟩ : BufTy).Contents (Elt F)),
    nullary main_cst_48 (constant S_ .f32 0x3F800000#32),
    unary main_cst_48 main_v207 (broadcastInDim S1x128 ![] bcast_S_S1x128 : (⟨S_, .f32⟩ : BufTy).Contents (Elt F) → (⟨S1x128, .f32⟩ : BufTy).Contents (Elt F)),
    binary main_v207 main_v206 main_v208 (addf : (⟨S1x128, .f32⟩ : BufTy).Contents (Elt F) → (⟨S1x128, .f32⟩ : BufTy).Contents (Elt F) → (⟨S1x128, .f32⟩ : BufTy).Contents (Elt F)),
    nullary main_cst_49 (constant S_ .f32 0x3F800000#32),
    unary main_cst_49 main_v209 (broadcastInDim S1x128 ![] bcast_S_S1x128 : (⟨S_, .f32⟩ : BufTy).Contents (Elt F) → (⟨S1x128, .f32⟩ : BufTy).Contents (Elt F)),
    binary main_v209 main_v208 main_v210 (Host.divf : (⟨S1x128, .f32⟩ : BufTy).Contents (Elt F) → (⟨S1x128, .f32⟩ : BufTy).Contents (Elt F) → (⟨S1x128, .f32⟩ : BufTy).Contents (Elt F)),
    binary main_v210 main_arg15 main_v211 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)),
    unary main_arg16 main_v212 (broadcastInDim S1x128 ![1] bcast_S128_S1x128_1 : (⟨S128, .f32⟩ : BufTy).Contents (Elt F) → (⟨S1x128, .f32⟩ : BufTy).Contents (Elt F)),
    binary main_v211 main_v212 main_v213 (addf : (⟨S1x128, .f32⟩ : BufTy).Contents (Elt F) → (⟨S1x128, .f32⟩ : BufTy).Contents (Elt F) → (⟨S1x128, .f32⟩ : BufTy).Contents (Elt F)) ]

/-- The buffers these operations write, one each, in order. -/
def wr10 : List (Ref sig .tc) :=
  [main_cst_46, main_v201, main_v202, main_cst_47, main_v203, main_v204, main_v205, main_v206, main_cst_48, main_v207, main_v208, main_cst_49, main_v209, main_v210, main_v211, main_v212, main_v213]

set_option maxRecDepth 4096 in
theorem writes10 : WritesOne (τ := τ) (ops10 (F := F)) wr10 :=
  .cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil)))))))))))))))))

set_option maxRecDepth 4096 in
/-- Every operation here touches TensorCore buffers only. -/
theorem sub10 : (ops10 (F := F)).Forall fun op => op.bufs ⊆ tcRefs τ sig :=
  ⟨nullary_bufs_sub .., binary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub ..⟩

set_option maxRecDepth 4096 in
/-- No operation here allocates: each determines its result. -/
theorem fresh10 : (ops10 (F := F)).Forall fun op => op.fresh = ∅ :=
  ⟨rfl, rfl, rfl, rfl, rfl, rfl, rfl, rfl, rfl, rfl, rfl, rfl, rfl, rfl, rfl, rfl, rfl⟩

/-- A buffer none of these operations writes holds after them what it held before. -/
theorem pool2_keep {b : Ref sig .tc} (hb : b ∉ wr10) (S : Valuation τ sig (Elt F)) :
    after ops10 S (Proc.devRef .tc b) = S (Proc.devRef .tc b) :=
  after_unwritten writes10 hb S

/-- The arguments and the two edge rows pass through these operations. -/
theorem pool2_kept {V S : Valuation τ sig (Elt F)} (h : Kept V S) : Kept V (after ops10 S) :=
  ⟨⟨(pool2_keep (by decide) S).trans h.a0,
    (pool2_keep (by decide) S).trans h.a1,
    (pool2_keep (by decide) S).trans h.a2,
    (pool2_keep (by decide) S).trans h.a3,
    (pool2_keep (by decide) S).trans h.a4,
    (pool2_keep (by decide) S).trans h.a5,
    (pool2_keep (by decide) S).trans h.a6,
    (pool2_keep (by decide) S).trans h.a7,
    (pool2_keep (by decide) S).trans h.a8,
    (pool2_keep (by decide) S).trans h.a9,
    (pool2_keep (by decide) S).trans h.a10,
    (pool2_keep (by decide) S).trans h.a11,
    (pool2_keep (by decide) S).trans h.a12,
    (pool2_keep (by decide) S).trans h.a13,
    (pool2_keep (by decide) S).trans h.a14,
    (pool2_keep (by decide) S).trans h.a15,
    (pool2_keep (by decide) S).trans h.a16⟩,
    (pool2_keep (by decide) S).trans h.src, (pool2_keep (by decide) S).trans h.dst⟩

/-- The pooled projection of Z, Z being what the state holds at the encoder's output. -/
theorem pool2_val {V S : Valuation τ sig (Elt F)} (h : Kept V S) (Z : Cert.Spec.C F S50000x128 .f32)
    (hZ : S (Proc.devRef .tc main_v187) = Z) :
    after ops10 S (Proc.devRef .tc main_v213) = Cert.Spec.pool Z (V (Proc.devRef .tc main_arg15)) (V (Proc.devRef .tc main_arg16)) := by
  after_results_simp
  rw [hZ, h.a15, h.a16]
  rfl

end Cert.ReferenceIdeal.Hand

end
-- ==== Proof.Ref.L1an.lean ====
/-
  One layer of the first encoder over the features permuted by the first permutation: the affine image x W + b, the symmetric degree normalisation of the
  edge weights (recomputed here from the edge list and the weights), the weighted neighbourhood sum along the
  edges, and the parametric rectifier. The operations are listed as the reference prints them; the layer's output
  buffer ends at the named composite of the layer's input and the launched arguments.
-/
import proofs.«113219_j18691697672631_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
/-- Operations 283 to 309 of the reference, part of this layer. -/
abbrev ops12 : List (HloOp τ sig (Elt F)) :=
  [ binary main_v220 main_arg5 main_v221 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v222 (broadcastInDim S1x128 ![1] bcast_S128_S1x128_1 : (⟨S128, .f32⟩ : BufTy).Contents (Elt F) → (⟨S1x128, .f32⟩ : BufTy).Contents (Elt F)),
    unary main_v222 main_v223 (broadcastInDim S50000x128 ![0, 1] bcast_S1x128_S50000x128_0_1 : (⟨S1x128, .f32⟩ : BufTy).Contents (Elt F) → (⟨S50000x128, .f32⟩ : BufTy).Contents (Elt F)),
    binary main_v221 main_v223 main_v224 (addf : (⟨S50000x128, .f32⟩ : BufTy).Contents (Elt F) → (⟨S50000x128, .f32⟩ : BufTy).Contents (Elt F) → (⟨S50000x128, .f32⟩ : BufTy).Contents (Elt F)),
    nullary main_cst_52 (constant S_ .f32 0x00000000#32),
    unary main_cst_52 main_v225 (broadcastInDim S50000 ![] bcast_S_S50000 : (⟨S_, .f32⟩ : BufTy).Contents (Elt F) → (⟨S50000, .f32⟩ : BufTy).Contents (Elt F)),
    unary main_v3 main_v226 (broadcastInDim S450000x1 ![0] bcast_S450000_S450000x1_0 : (⟨S450000, .i32⟩ : BufTy).Contents (Elt F) → (⟨S450000x1, .i32⟩ : BufTy).Contents (Elt F)),
    ternary main_v225 main_v226 main_arg2 main_v227 ((fun x i u => Host.scatterAdd scatter_S50000_S450000x1_S450000_n_0_0_1 x i u) : (⟨S50000, .f32⟩ : BufTy).Contents (Elt F) → (⟨S450000x1, .i32⟩ : BufTy).Contents (Elt F) → (⟨S450000, .f32⟩ : BufTy).Contents (Elt F) → (⟨S50000, .f32⟩ : BufTy).Contents (Elt F)),
    nullary main_cst_53 (constant S_ .f32 0x00000000#32),
    unary main_cst_53 main_v228 (broadcastInDim S50000 ![] bcast_S_S50000 : (⟨S_, .f32⟩ : BufTy).Contents (Elt F) → (⟨S50000, .f32⟩ : BufTy).Contents (Elt F)),
    binary main_v227 main_v228 main_v229 (cmpf .ogt : (⟨S50000, .f32⟩ : BufTy).Contents (Elt F) → (⟨S50000, .f32⟩ : BufTy).Contents (Elt F) → (⟨S50000, .i1⟩ : BufTy).Contents (Elt F)),
    unary main_v227 main_v230 (Host.rsqrt : (⟨S50000, .f32⟩ : BufTy).Contents (Elt F) → (⟨S50000, .f32⟩ : BufTy).Contents (Elt F)),
    nullary main_cst_54 (constant S_ .f32 0x00000000#32),
    TRef.unary (TRef.of (T := ⟨S_, .f32⟩) main_cst_54) (TRef.of (T := ⟨S_, .f32⟩) main_call8_v0) id,
    TRef.unary (TRef.of (T := ⟨S_, .f32⟩) main_call8_v0) (TRef.of (T := ⟨S50000, .f32⟩) main_call8_v1) (broadcastInDim S50000 ![] bcast_S_S50000),
    TRef.ternary (TRef.of (T := ⟨S50000, .i1⟩) main_v229) (TRef.of (T := ⟨S50000, .f32⟩) main_v230) (TRef.of (T := ⟨S50000, .f32⟩) main_call8_v1) (TRef.of (T := ⟨S50000, .f32⟩) main_v231) select,
    nullary main_c_55 (constantI S_ 32 0#32),
    unary main_c_55 main_v232 (broadcastInDim S450000 ![] bcast_S_S450000 : (⟨S_, .i32⟩ : BufTy).Contents (Elt F) → (⟨S450000, .i32⟩ : BufTy).Contents (Elt F)),
    binary main_v1 main_v232 main_v233 (cmpi .slt : (⟨S450000, .i32⟩ : BufTy).Contents (Elt F) → (⟨S450000, .i32⟩ : BufTy).Contents (Elt F) → (⟨S450000, .i1⟩ : BufTy).Contents (Elt F)),
    nullary main_c_56 (constantI S_ 32 50000#32),
    unary main_c_56 main_v234 (broadcastInDim S450000 ![] bcast_S_S450000 : (⟨S_, .i32⟩ : BufTy).Contents (Elt F) → (⟨S450000, .i32⟩ : BufTy).Contents (Elt F)),
    binary main_v1 main_v234 main_v235 (addi : (⟨S450000, .i32⟩ : BufTy).Contents (Elt F) → (⟨S450000, .i32⟩ : BufTy).Contents (Elt F) → (⟨S450000, .i32⟩ : BufTy).Contents (Elt F)),
    ternary main_v233 main_v235 main_v1 main_v236 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v236 main_v237 (broadcastInDim S450000x1 ![0] bcast_S450000_S450000x1_0 : (⟨S450000, .i32⟩ : BufTy).Contents (Elt F) → (⟨S450000x1, .i32⟩ : BufTy).Contents (Elt F)),
    binary main_v231 main_v237 main_v238 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v238 main_arg2 main_v239 (mulf : (⟨S450000, .f32⟩ : BufTy).Contents (Elt F) → (⟨S450000, .f32⟩ : BufTy).Contents (Elt F) → (⟨S450000, .f32⟩ : BufTy).Contents (Elt F)),
    nullary main_c_57 (constantI S_ 32 0#32) ]

/-- The buffers these operations write, one each, in order. -/
def wr12 : List (Ref sig .tc) :=
  [main_v221, main_v222, main_v223, main_v224, main_cst_52, main_v225, main_v226, main_v227, main_cst_53, main_v228, main_v229, main_v230, main_cst_54, main_call8_v0, main_call8_v1, main_v231, main_c_55, main_v232, main_v233, main_c_56, main_v234, main_v235, main_v236, main_v237, main_v238, main_v239, main_c_57]

set_option maxRecDepth 4096 in
theorem writes12 : WritesOne (τ := τ) (ops12 (F := F)) wr12 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil)))))))))))))))))))))))))))

set_option maxRecDepth 4096 in
/-- Every operation here touches TensorCore buffers only. -/
theorem sub12 : (ops12 (F := F)).Forall fun op => op.bufs ⊆ tcRefs τ sig :=
  ⟨binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub ..⟩

set_option maxRecDepth 4096 in
/-- No operation here allocates: each determines its result. -/
theorem fresh12 : (ops12 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

set_option maxHeartbeats 2000000 in
/-- Operations 310 to 341 of the reference, part of this layer. -/
abbrev ops13 : List (HloOp τ sig (Elt F)) :=
  [ unary main_c_57 main_v240 (broadcastInDim S450000 ![] bcast_S_S450000 : (⟨S_, .i32⟩ : BufTy).Contents (Elt F) → (⟨S450000, .i32⟩ : BufTy).Contents (Elt F)),
    binary main_v3 main_v240 main_v241 (cmpi .slt : (⟨S450000, .i32⟩ : BufTy).Contents (Elt F) → (⟨S450000, .i32⟩ : BufTy).Contents (Elt F) → (⟨S450000, .i1⟩ : BufTy).Contents (Elt F)),
    nullary main_c_58 (constantI S_ 32 50000#32),
    unary main_c_58 main_v242 (broadcastInDim S450000 ![] bcast_S_S450000 : (⟨S_, .i32⟩ : BufTy).Contents (Elt F) → (⟨S450000, .i32⟩ : BufTy).Contents (Elt F)),
    binary main_v3 main_v242 main_v243 (addi : (⟨S450000, .i32⟩ : BufTy).Contents (Elt F) → (⟨S450000, .i32⟩ : BufTy).Contents (Elt F) → (⟨S450000, .i32⟩ : BufTy).Contents (Elt F)),
    ternary main_v241 main_v243 main_v3 main_v244 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v244 main_v245 (broadcastInDim S450000x1 ![0] bcast_S450000_S450000x1_0 : (⟨S450000, .i32⟩ : BufTy).Contents (Elt F) → (⟨S450000x1, .i32⟩ : BufTy).Contents (Elt F)),
    binary main_v231 main_v245 main_v246 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v239 main_v246 main_v247 (mulf : (⟨S450000, .f32⟩ : BufTy).Contents (Elt F) → (⟨S450000, .f32⟩ : BufTy).Contents (Elt F) → (⟨S450000, .f32⟩ : BufTy).Contents (Elt F)),
    nullary main_c_59 (constantI S_ 32 0#32),
    unary main_c_59 main_v248 (broadcastInDim S450000 ![] bcast_S_S450000 : (⟨S_, .i32⟩ : BufTy).Contents (Elt F) → (⟨S450000, .i32⟩ : BufTy).Contents (Elt F)),
    binary main_v1 main_v248 main_v249 (cmpi .slt : (⟨S450000, .i32⟩ : BufTy).Contents (Elt F) → (⟨S450000, .i32⟩ : BufTy).Contents (Elt F) → (⟨S450000, .i1⟩ : BufTy).Contents (Elt F)),
    nullary main_c_60 (constantI S_ 32 50000#32),
    unary main_c_60 main_v250 (broadcastInDim S450000 ![] bcast_S_S450000 : (⟨S_, .i32⟩ : BufTy).Contents (Elt F) → (⟨S450000, .i32⟩ : BufTy).Contents (Elt F)),
    binary main_v1 main_v250 main_v251 (addi : (⟨S450000, .i32⟩ : BufTy).Contents (Elt F) → (⟨S450000, .i32⟩ : BufTy).Contents (Elt F) → (⟨S450000, .i32⟩ : BufTy).Contents (Elt F)),
    ternary main_v249 main_v251 main_v1 main_v252 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v252 main_v253 (broadcastInDim S450000x1 ![0] bcast_S450000_S450000x1_0 : (⟨S450000, .i32⟩ : BufTy).Contents (Elt F) → (⟨S450000x1, .i32⟩ : BufTy).Contents (Elt F)),
    binary main_v224 main_v253 main_v254 ((fun x i => Host.gather gather_S50000x128_S450000x1_S450000x128_1_0_n_n_0_1_1128 x i) : (⟨S50000x128, .f32⟩ : BufTy).Contents (Elt F) → (⟨S450000x1, .i32⟩ : BufTy).Contents (Elt F) → (⟨S450000x128, .f32⟩ : BufTy).Contents (Elt F)),
    unary main_v247 main_v255 (broadcastInDim S450000x1 ![0] bcast_S450000_S450000x1_0 : (⟨S450000, .f32⟩ : BufTy).Contents (Elt F) → (⟨S450000x1, .f32⟩ : BufTy).Contents (Elt F)),
    unary main_v255 main_v256 (broadcastInDim S450000x128 ![0, 1] bcast_S450000x1_S450000x128_0_1 : (⟨S450000x1, .f32⟩ : BufTy).Contents (Elt F) → (⟨S450000x128, .f32⟩ : BufTy).Contents (Elt F)),
    binary main_v254 main_v256 main_v257 (mulf : (⟨S450000x128, .f32⟩ : BufTy).Contents (Elt F) → (⟨S450000x128, .f32⟩ : BufTy).Contents (Elt F) → (⟨S450000x128, .f32⟩ : BufTy).Contents (Elt F)),
    nullary main_cst_61 (constant S_ .f32 0x00000000#32),
    unary main_cst_61 main_v258 (broadcastInDim S50000x128 ![] bcast_S_S50000x128 : (⟨S_, .f32⟩ : BufTy).Contents (Elt F) → (⟨S50000x128, .f32⟩ : BufTy).Contents (Elt F)),
    unary main_v3 main_v259 (broadcastInDim S450000x1 ![0] bcast_S450000_S450000x1_0 : (⟨S450000, .i32⟩ : BufTy).Contents (Elt F) → (⟨S450000x1, .i32⟩ : BufTy).Contents (Elt F)),
    ternary main_v258 main_v259 main_v257 main_v260 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    nullary main_cst_62 (constant S_ .f32 0x00000000#32),
    unary main_cst_62 main_v261 (broadcastInDim S50000x128 ![] bcast_S_S50000x128 : (⟨S_, .f32⟩ : BufTy).Contents (Elt F) → (⟨S50000x128, .f32⟩ : BufTy).Contents (Elt F)),
    binary main_v260 main_v261 main_v262 (cmpf .oge : (⟨S50000x128, .f32⟩ : BufTy).Contents (Elt F) → (⟨S50000x128, .f32⟩ : BufTy).Contents (Elt F) → (⟨S50000x128, .i1⟩ : BufTy).Contents (Elt F)),
    unary main_arg9 main_v263 (broadcastInDim S1x128 ![1] bcast_S128_S1x128_1 : (⟨S128, .f32⟩ : BufTy).Contents (Elt F) → (⟨S1x128, .f32⟩ : BufTy).Contents (Elt F)),
    unary main_v263 main_v264 (broadcastInDim S50000x128 ![0, 1] bcast_S1x128_S50000x128_0_1 : (⟨S1x128, .f32⟩ : BufTy).Contents (Elt F) → (⟨S50000x128, .f32⟩ : BufTy).Contents (Elt F)),
    binary main_v264 main_v260 main_v265 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v262) (TRef.of (T := ⟨S50000x128, .f32⟩) main_v260) (TRef.of (T := ⟨S50000x128, .f32⟩) main_v265) (TRef.of (T := ⟨S50000x128, .f32⟩) main_v266) select ]

/-- The buffers these operations write, one each, in order. -/
def wr13 : List (Ref sig .tc) :=
  [main_v240, main_v241, main_c_58, main_v242, main_v243, main_v244, main_v245, main_v246, main_v247, main_c_59, main_v248, main_v249, main_c_60, main_v250, main_v251, main_v252, main_v253, main_v254, main_v255, main_v256, main_v257, main_cst_61, main_v258, main_v259, main_v260, main_cst_62, main_v261, main_v262, main_v263, main_v264, main_v265, main_v266]

set_option maxRecDepth 4096 in
theorem writes13 : WritesOne (τ := τ) (ops13 (F := F)) wr13 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil))))))))))))))))))))))))))))))))

set_option maxRecDepth 4096 in
/-- Every operation here touches TensorCore buffers only. -/
theorem sub13 : (ops13 (F := F)).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., ternary_bufs_sub ..⟩

set_option maxRecDepth 4096 in
/-- No operation here allocates: each determines its result. -/
theorem fresh13 : (ops13 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer none of these operations writes holds after them what it held before. -/
theorem L1an_keep {b : Ref sig .tc} (hb : b ∉ wr12 ++ wr13) (S : Valuation τ sig (Elt F)) :
    after ops13 (after ops12 S) (Proc.devRef .tc b) = S (Proc.devRef .tc b) :=
  (after_unwritten writes13 (fun h => hb (List.mem_append_right _ (h))) (after ops12 S)).trans (after_unwritten writes12 (fun h => hb (List.mem_append_left _ h)) S)

/-- The arguments and the two edge rows pass through these operations. -/
theorem L1an_kept {V S : Valuation τ sig (Elt F)} (h : Kept V S) : Kept V (after ops13 (after ops12 S)) :=
  ⟨⟨(L1an_keep (by decide) S).trans h.a0,
    (L1an_keep (by decide) S).trans h.a1,
    (L1an_keep (by decide) S).trans h.a2,
    (L1an_keep (by decide) S).trans h.a3,
    (L1an_keep (by decide) S).trans h.a4,
    (L1an_keep (by decide) S).trans h.a5,
    (L1an_keep (by decide) S).trans h.a6,
    (L1an_keep (by decide) S).trans h.a7,
    (L1an_keep (by decide) S).trans h.a8,
    (L1an_keep (by decide) S).trans h.a9,
    (L1an_keep (by decide) S).trans h.a10,
    (L1an_keep (by decide) S).trans h.a11,
    (L1an_keep (by decide) S).trans h.a12,
    (L1an_keep (by decide) S).trans h.a13,
    (L1an_keep (by decide) S).trans h.a14,
    (L1an_keep (by decide) S).trans h.a15,
    (L1an_keep (by decide) S).trans h.a16⟩,
    (L1an_keep (by decide) S).trans h.src, (L1an_keep (by decide) S).trans h.dst⟩

/-- One layer: from a state that holds the arguments and the edge rows, and X at the layer's input, the layer's
    output buffer ends at the rectified weighted neighbourhood sum of the affine image of X. -/
theorem L1an_val {V S : Valuation τ sig (Elt F)} (h : Kept V S) (X : Cert.Spec.C F S50000x128 .f32)
    (hX : S (Proc.devRef .tc main_v220) = X) :
    after ops13 (after ops12 S) (Proc.devRef .tc main_v266)
      = Cert.Spec.layer X (V (Proc.devRef .tc main_arg1)) (V (Proc.devRef .tc main_arg2)) (V (Proc.devRef .tc main_arg5)) (V (Proc.devRef .tc main_arg6)) (V (Proc.devRef .tc main_arg9)) := by
  after_results_simp
  rw [hX, h.src, h.dst, h.a2, h.a5, h.a6, h.a9]
  rfl

end Cert.ReferenceIdeal.Hand

end
-- ==== Proof.Ref.L2an.lean ====
/-
  One layer of the first encoder over the first layer's output on the permuted features: the affine image x W + b, the symmetric degree normalisation of the
  edge weights (recomputed here from the edge list and the weights), the weighted neighbourhood sum along the
  edges, and the parametric rectifier. The operations are listed as the reference prints them; the layer's output
  buffer ends at the named composite of the layer's input and the launched arguments.
-/
import proofs.«113219_j18691697672631_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
/-- Operations 342 to 371 of the reference, part of this layer. -/
abbrev ops14 : List (HloOp τ sig (Elt F)) :=
  [ binary main_v266 main_arg7 main_v267 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v268 (broadcastInDim S1x128 ![1] bcast_S128_S1x128_1 : (⟨S128, .f32⟩ : BufTy).Contents (Elt F) → (⟨S1x128, .f32⟩ : BufTy).Contents (Elt F)),
    unary main_v268 main_v269 (broadcastInDim S50000x128 ![0, 1] bcast_S1x128_S50000x128_0_1 : (⟨S1x128, .f32⟩ : BufTy).Contents (Elt F) → (⟨S50000x128, .f32⟩ : BufTy).Contents (Elt F)),
    binary main_v267 main_v269 main_v270 (addf : (⟨S50000x128, .f32⟩ : BufTy).Contents (Elt F) → (⟨S50000x128, .f32⟩ : BufTy).Contents (Elt F) → (⟨S50000x128, .f32⟩ : BufTy).Contents (Elt F)),
    nullary main_cst_63 (constant S_ .f32 0x00000000#32),
    unary main_cst_63 main_v271 (broadcastInDim S50000 ![] bcast_S_S50000 : (⟨S_, .f32⟩ : BufTy).Contents (Elt F) → (⟨S50000, .f32⟩ : BufTy).Contents (Elt F)),
    unary main_v3 main_v272 (broadcastInDim S450000x1 ![0] bcast_S450000_S450000x1_0 : (⟨S450000, .i32⟩ : BufTy).Contents (Elt F) → (⟨S450000x1, .i32⟩ : BufTy).Contents (Elt F)),
    ternary main_v271 main_v272 main_arg2 main_v273 ((fun x i u => Host.scatterAdd scatter_S50000_S450000x1_S450000_n_0_0_1 x i u) : (⟨S50000, .f32⟩ : BufTy).Contents (Elt F) → (⟨S450000x1, .i32⟩ : BufTy).Contents (Elt F) → (⟨S450000, .f32⟩ : BufTy).Contents (Elt F) → (⟨S50000, .f32⟩ : BufTy).Contents (Elt F)),
    nullary main_cst_64 (constant S_ .f32 0x00000000#32),
    unary main_cst_64 main_v274 (broadcastInDim S50000 ![] bcast_S_S50000 : (⟨S_, .f32⟩ : BufTy).Contents (Elt F) → (⟨S50000, .f32⟩ : BufTy).Contents (Elt F)),
    binary main_v273 main_v274 main_v275 (cmpf .ogt : (⟨S50000, .f32⟩ : BufTy).Contents (Elt F) → (⟨S50000, .f32⟩ : BufTy).Contents (Elt F) → (⟨S50000, .i1⟩ : BufTy).Contents (Elt F)),
    unary main_v273 main_v276 (Host.rsqrt : (⟨S50000, .f32⟩ : BufTy).Contents (Elt F) → (⟨S50000, .f32⟩ : BufTy).Contents (Elt F)),
    nullary main_cst_65 (constant S_ .f32 0x00000000#32),
    TRef.unary (TRef.of (T := ⟨S_, .f32⟩) main_cst_65) (TRef.of (T := ⟨S_, .f32⟩) main_call10_v0) id,
    TRef.unary (TRef.of (T := ⟨S_, .f32⟩) main_call10_v0) (TRef.of (T := ⟨S50000, .f32⟩) main_call10_v1) (broadcastInDim S50000 ![] bcast_S_S50000),
    TRef.ternary (TRef.of (T := ⟨S50000, .i1⟩) main_v275) (TRef.of (T := ⟨S50000, .f32⟩) main_v276) (TRef.of (T := ⟨S50000, .f32⟩) main_call10_v1) (TRef.of (T := ⟨S50000, .f32⟩) main_v277) select,
    nullary main_c_66 (constantI S_ 32 0#32),
    unary main_c_66 main_v278 (broadcastInDim S450000 ![] bcast_S_S450000 : (⟨S_, .i32⟩ : BufTy).Contents (Elt F) → (⟨S450000, .i32⟩ : BufTy).Contents (Elt F)),
    binary main_v1 main_v278 main_v279 (cmpi .slt : (⟨S450000, .i32⟩ : BufTy).Contents (Elt F) → (⟨S450000, .i32⟩ : BufTy).Contents (Elt F) → (⟨S450000, .i1⟩ : BufTy).Contents (Elt F)),
    nullary main_c_67 (constantI S_ 32 50000#32),
    unary main_c_67 main_v280 (broadcastInDim S450000 ![] bcast_S_S450000 : (⟨S_, .i32⟩ : BufTy).Contents (Elt F) → (⟨S450000, .i32⟩ : BufTy).Contents (Elt F)),
    binary main_v1 main_v280 main_v281 (addi : (⟨S450000, .i32⟩ : BufTy).Contents (Elt F) → (⟨S450000, .i32⟩ : BufTy).Contents (Elt F) → (⟨S450000, .i32⟩ : BufTy).Contents (Elt F)),
    ternary main_v279 main_v281 main_v1 main_v282 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v282 main_v283 (broadcastInDim S450000x1 ![0] bcast_S450000_S450000x1_0 : (⟨S450000, .i32⟩ : BufTy).Contents (Elt F) → (⟨S450000x1, .i32⟩ : BufTy).Contents (Elt F)),
    binary main_v277 main_v283 main_v284 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v284 main_arg2 main_v285 (mulf : (⟨S450000, .f32⟩ : BufTy).Contents (Elt F) → (⟨S450000, .f32⟩ : BufTy).Contents (Elt F) → (⟨S450000, .f32⟩ : BufTy).Contents (Elt F)),
    nullary main_c_68 (constantI S_ 32 0#32),
    unary main_c_68 main_v286 (broadcastInDim S450000 ![] bcast_S_S450000 : (⟨S_, .i32⟩ : BufTy).Contents (Elt F) → (⟨S450000, .i32⟩ : BufTy).Contents (Elt F)),
    binary main_v3 main_v286 main_v287 (cmpi .slt : (⟨S450000, .i32⟩ : BufTy).Contents (Elt F) → (⟨S450000, .i32⟩ : BufTy).Contents (Elt F) → (⟨S450000, .i1⟩ : BufTy).Contents (Elt F)),
    nullary main_c_69 (constantI S_ 32 50000#32) ]

/-- The buffers these operations write, one each, in order. -/
def wr14 : List (Ref sig .tc) :=
  [main_v267, main_v268, main_v269, main_v270, main_cst_63, main_v271, main_v272, main_v273, main_cst_64, main_v274, main_v275, main_v276, main_cst_65, main_call10_v0, main_call10_v1, main_v277, main_c_66, main_v278, main_v279, main_c_67, main_v280, main_v281, main_v282, main_v283, main_v284, main_v285, main_c_68, main_v286, main_v287, main_c_69]

set_option maxRecDepth 4096 in
theorem writes14 : WritesOne (τ := τ) (ops14 (F := F)) wr14 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil))))))))))))))))))))))))))))))

set_option maxRecDepth 4096 in
/-- Every operation here touches TensorCore buffers only. -/
theorem sub14 : (ops14 (F := F)).Forall fun op => op.bufs ⊆ tcRefs τ sig :=
  ⟨binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub ..⟩

set_option maxRecDepth 4096 in
/-- No operation here allocates: each determines its result. -/
theorem fresh14 : (ops14 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 2000000 in
/-- Operations 372 to 400 of the reference, part of this layer. -/
abbrev ops15 : List (HloOp τ sig (Elt F)) :=
  [ unary main_c_69 main_v288 (broadcastInDim S450000 ![] bcast_S_S450000 : (⟨S_, .i32⟩ : BufTy).Contents (Elt F) → (⟨S450000, .i32⟩ : BufTy).Contents (Elt F)),
    binary main_v3 main_v288 main_v289 (addi : (⟨S450000, .i32⟩ : BufTy).Contents (Elt F) → (⟨S450000, .i32⟩ : BufTy).Contents (Elt F) → (⟨S450000, .i32⟩ : BufTy).Contents (Elt F)),
    ternary main_v287 main_v289 main_v3 main_v290 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v290 main_v291 (broadcastInDim S450000x1 ![0] bcast_S450000_S450000x1_0 : (⟨S450000, .i32⟩ : BufTy).Contents (Elt F) → (⟨S450000x1, .i32⟩ : BufTy).Contents (Elt F)),
    binary main_v277 main_v291 main_v292 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v285 main_v292 main_v293 (mulf : (⟨S450000, .f32⟩ : BufTy).Contents (Elt F) → (⟨S450000, .f32⟩ : BufTy).Contents (Elt F) → (⟨S450000, .f32⟩ : BufTy).Contents (Elt F)),
    nullary main_c_70 (constantI S_ 32 0#32),
    unary main_c_70 main_v294 (broadcastInDim S450000 ![] bcast_S_S450000 : (⟨S_, .i32⟩ : BufTy).Contents (Elt F) → (⟨S450000, .i32⟩ : BufTy).Contents (Elt F)),
    binary main_v1 main_v294 main_v295 (cmpi .slt : (⟨S450000, .i32⟩ : BufTy).Contents (Elt F) → (⟨S450000, .i32⟩ : BufTy).Contents (Elt F) → (⟨S450000, .i1⟩ : BufTy).Contents (Elt F)),
    nullary main_c_71 (constantI S_ 32 50000#32),
    unary main_c_71 main_v296 (broadcastInDim S450000 ![] bcast_S_S450000 : (⟨S_, .i32⟩ : BufTy).Contents (Elt F) → (⟨S450000, .i32⟩ : BufTy).Contents (Elt F)),
    binary main_v1 main_v296 main_v297 (addi : (⟨S450000, .i32⟩ : BufTy).Contents (Elt F) → (⟨S450000, .i32⟩ : BufTy).Contents (Elt F) → (⟨S450000, .i32⟩ : BufTy).Contents (Elt F)),
    ternary main_v295 main_v297 main_v1 main_v298 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v298 main_v299 (broadcastInDim S450000x1 ![0] bcast_S450000_S450000x1_0 : (⟨S450000, .i32⟩ : BufTy).Contents (Elt F) → (⟨S450000x1, .i32⟩ : BufTy).Contents (Elt F)),
    binary main_v270 main_v299 main_v300 ((fun x i => Host.gather gather_S50000x128_S450000x1_S450000x128_1_0_n_n_0_1_1128 x i) : (⟨S50000x128, .f32⟩ : BufTy).Contents (Elt F) → (⟨S450000x1, .i32⟩ : BufTy).Contents (Elt F) → (⟨S450000x128, .f32⟩ : BufTy).Contents (Elt F)),
    unary main_v293 main_v301 (broadcastInDim S450000x1 ![0] bcast_S450000_S450000x1_0 : (⟨S450000, .f32⟩ : BufTy).Contents (Elt F) → (⟨S450000x1, .f32⟩ : BufTy).Contents (Elt F)),
    unary main_v301 main_v302 (broadcastInDim S450000x128 ![0, 1] bcast_S450000x1_S450000x128_0_1 : (⟨S450000x1, .f32⟩ : BufTy).Contents (Elt F) → (⟨S450000x128, .f32⟩ : BufTy).Contents (Elt F)),
    binary main_v300 main_v302 main_v303 (mulf : (⟨S450000x128, .f32⟩ : BufTy).Contents (Elt F) → (⟨S450000x128, .f32⟩ : BufTy).Contents (Elt F) → (⟨S450000x128, .f32⟩ : BufTy).Contents (Elt F)),
    nullary main_cst_72 (constant S_ .f32 0x00000000#32),
    unary main_cst_72 main_v304 (broadcastInDim S50000x128 ![] bcast_S_S50000x128 : (⟨S_, .f32⟩ : BufTy).Contents (Elt F) → (⟨S50000x128, .f32⟩ : BufTy).Contents (Elt F)),
    unary main_v3 main_v305 (broadcastInDim S450000x1 ![0] bcast_S450000_S450000x1_0 : (⟨S450000, .i32⟩ : BufTy).Contents (Elt F) → (⟨S450000x1, .i32⟩ : BufTy).Contents (Elt F)),
    ternary main_v304 main_v305 main_v303 main_v306 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    nullary main_cst_73 (constant S_ .f32 0x00000000#32),
    unary main_cst_73 main_v307 (broadcastInDim S50000x128 ![] bcast_S_S50000x128 : (⟨S_, .f32⟩ : BufTy).Contents (Elt F) → (⟨S50000x128, .f32⟩ : BufTy).Contents (Elt F)),
    binary main_v306 main_v307 main_v308 (cmpf .oge : (⟨S50000x128, .f32⟩ : BufTy).Contents (Elt F) → (⟨S50000x128, .f32⟩ : BufTy).Contents (Elt F) → (⟨S50000x128, .i1⟩ : BufTy).Contents (Elt F)),
    unary main_arg9 main_v309 (broadcastInDim S1x128 ![1] bcast_S128_S1x128_1 : (⟨S128, .f32⟩ : BufTy).Contents (Elt F) → (⟨S1x128, .f32⟩ : BufTy).Contents (Elt F)),
    unary main_v309 main_v310 (broadcastInDim S50000x128 ![0, 1] bcast_S1x128_S50000x128_0_1 : (⟨S1x128, .f32⟩ : BufTy).Contents (Elt F) → (⟨S50000x128, .f32⟩ : BufTy).Contents (Elt F)),
    binary main_v310 main_v306 main_v311 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v308) (TRef.of (T := ⟨S50000x128, .f32⟩) main_v306) (TRef.of (T := ⟨S50000x128, .f32⟩) main_v311) (TRef.of (T := ⟨S50000x128, .f32⟩) main_v312) select ]

/-- The buffers these operations write, one each, in order. -/
def wr15 : List (Ref sig .tc) :=
  [main_v288, main_v289, main_v290, main_v291, main_v292, main_v293, main_c_70, main_v294, main_v295, main_c_71, main_v296, main_v297, main_v298, main_v299, main_v300, main_v301, main_v302, main_v303, main_cst_72, main_v304, main_v305, main_v306, main_cst_73, main_v307, main_v308, main_v309, main_v310, main_v311, main_v312]

set_option maxRecDepth 4096 in
theorem writes15 : WritesOne (τ := τ) (ops15 (F := F)) wr15 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil)))))))))))))))))))))))))))))

set_option maxRecDepth 4096 in
/-- Every operation here touches TensorCore buffers only. -/
theorem sub15 : (ops15 (F := F)).Forall fun op => op.bufs ⊆ tcRefs τ sig :=
  ⟨unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., ternary_bufs_sub ..⟩

set_option maxRecDepth 4096 in
/-- No operation here allocates: each determines its result. -/
theorem fresh15 : (ops15 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer none of these operations writes holds after them what it held before. -/
theorem L2an_keep {b : Ref sig .tc} (hb : b ∉ wr14 ++ wr15) (S : Valuation τ sig (Elt F)) :
    after ops15 (after ops14 S) (Proc.devRef .tc b) = S (Proc.devRef .tc b) :=
  (after_unwritten writes15 (fun h => hb (List.mem_append_right _ (h))) (after ops14 S)).trans (after_unwritten writes14 (fun h => hb (List.mem_append_left _ h)) S)

/-- The arguments and the two edge rows pass through these operations. -/
theorem L2an_kept {V S : Valuation τ sig (Elt F)} (h : Kept V S) : Kept V (after ops15 (after ops14 S)) :=
  ⟨⟨(L2an_keep (by decide) S).trans h.a0,
    (L2an_keep (by decide) S).trans h.a1,
    (L2an_keep (by decide) S).trans h.a2,
    (L2an_keep (by decide) S).trans h.a3,
    (L2an_keep (by decide) S).trans h.a4,
    (L2an_keep (by decide) S).trans h.a5,
    (L2an_keep (by decide) S).trans h.a6,
    (L2an_keep (by decide) S).trans h.a7,
    (L2an_keep (by decide) S).trans h.a8,
    (L2an_keep (by decide) S).trans h.a9,
    (L2an_keep (by decide) S).trans h.a10,
    (L2an_keep (by decide) S).trans h.a11,
    (L2an_keep (by decide) S).trans h.a12,
    (L2an_keep (by decide) S).trans h.a13,
    (L2an_keep (by decide) S).trans h.a14,
    (L2an_keep (by decide) S).trans h.a15,
    (L2an_keep (by decide) S).trans h.a16⟩,
    (L2an_keep (by decide) S).trans h.src, (L2an_keep (by decide) S).trans h.dst⟩

/-- One layer: from a state that holds the arguments and the edge rows, and X at the layer's input, the layer's
    output buffer ends at the rectified weighted neighbourhood sum of the affine image of X. -/
theorem L2an_val {V S : Valuation τ sig (Elt F)} (h : Kept V S) (X : Cert.Spec.C F S50000x128 .f32)
    (hX : S (Proc.devRef .tc main_v266) = X) :
    after ops15 (after ops14 S) (Proc.devRef .tc main_v312)
      = Cert.Spec.layer X (V (Proc.devRef .tc main_arg1)) (V (Proc.devRef .tc main_arg2)) (V (Proc.devRef .tc main_arg7)) (V (Proc.devRef .tc main_arg8)) (V (Proc.devRef .tc main_arg9)) := by
  after_results_simp
  rw [hX, h.src, h.dst, h.a2, h.a7, h.a8, h.a9]
  rfl

end Cert.ReferenceIdeal.Hand

end
-- ==== Proof.Ref.L1bn.lean ====
/-
  One layer of the second encoder over the features permuted by the second permutation: the affine image x W + b, the symmetric degree normalisation of the
  edge weights (recomputed here from the edge list and the weights), the weighted neighbourhood sum along the
  edges, and the parametric rectifier. The operations are listed as the reference prints them; the layer's output
  buffer ends at the named composite of the layer's input and the launched arguments.
-/
import proofs.«113219_j18691697672631_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
/-- Operations 410 to 433 of the reference, part of this layer. -/
abbrev ops17 : List (HloOp τ sig (Elt F)) :=
  [ binary main_v319 main_arg10 main_v320 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg11 main_v321 (broadcastInDim S1x128 ![1] bcast_S128_S1x128_1 : (⟨S128, .f32⟩ : BufTy).Contents (Elt F) → (⟨S1x128, .f32⟩ : BufTy).Contents (Elt F)),
    unary main_v321 main_v322 (broadcastInDim S50000x128 ![0, 1] bcast_S1x128_S50000x128_0_1 : (⟨S1x128, .f32⟩ : BufTy).Contents (Elt F) → (⟨S50000x128, .f32⟩ : BufTy).Contents (Elt F)),
    binary main_v320 main_v322 main_v323 (addf : (⟨S50000x128, .f32⟩ : BufTy).Contents (Elt F) → (⟨S50000x128, .f32⟩ : BufTy).Contents (Elt F) → (⟨S50000x128, .f32⟩ : BufTy).Contents (Elt F)),
    nullary main_cst_76 (constant S_ .f32 0x00000000#32),
    unary main_cst_76 main_v324 (broadcastInDim S50000 ![] bcast_S_S50000 : (⟨S_, .f32⟩ : BufTy).Contents (Elt F) → (⟨S50000, .f32⟩ : BufTy).Contents (Elt F)),
    unary main_v3 main_v325 (broadcastInDim S450000x1 ![0] bcast_S450000_S450000x1_0 : (⟨S450000, .i32⟩ : BufTy).Contents (Elt F) → (⟨S450000x1, .i32⟩ : BufTy).Contents (Elt F)),
    ternary main_v324 main_v325 main_arg2 main_v326 ((fun x i u => Host.scatterAdd scatter_S50000_S450000x1_S450000_n_0_0_1 x i u) : (⟨S50000, .f32⟩ : BufTy).Contents (Elt F) → (⟨S450000x1, .i32⟩ : BufTy).Contents (Elt F) → (⟨S450000, .f32⟩ : BufTy).Contents (Elt F) → (⟨S50000, .f32⟩ : BufTy).Contents (Elt F)),
    nullary main_cst_77 (constant S_ .f32 0x00000000#32),
    unary main_cst_77 main_v327 (broadcastInDim S50000 ![] bcast_S_S50000 : (⟨S_, .f32⟩ : BufTy).Contents (Elt F) → (⟨S50000, .f32⟩ : BufTy).Contents (Elt F)),
    binary main_v326 main_v327 main_v328 (cmpf .ogt : (⟨S50000, .f32⟩ : BufTy).Contents (Elt F) → (⟨S50000, .f32⟩ : BufTy).Contents (Elt F) → (⟨S50000, .i1⟩ : BufTy).Contents (Elt F)),
    unary main_v326 main_v329 (Host.rsqrt : (⟨S50000, .f32⟩ : BufTy).Contents (Elt F) → (⟨S50000, .f32⟩ : BufTy).Contents (Elt F)),
    nullary main_cst_78 (constant S_ .f32 0x00000000#32),
    TRef.unary (TRef.of (T := ⟨S_, .f32⟩) main_cst_78) (TRef.of (T := ⟨S_, .f32⟩) main_call12_v0) id,
    TRef.unary (TRef.of (T := ⟨S_, .f32⟩) main_call12_v0) (TRef.of (T := ⟨S50000, .f32⟩) main_call12_v1) (broadcastInDim S50000 ![] bcast_S_S50000),
    TRef.ternary (TRef.of (T := ⟨S50000, .i1⟩) main_v328) (TRef.of (T := ⟨S50000, .f32⟩) main_v329) (TRef.of (T := ⟨S50000, .f32⟩) main_call12_v1) (TRef.of (T := ⟨S50000, .f32⟩) main_v330) select,
    nullary main_c_79 (constantI S_ 32 0#32),
    unary main_c_79 main_v331 (broadcastInDim S450000 ![] bcast_S_S450000 : (⟨S_, .i32⟩ : BufTy).Contents (Elt F) → (⟨S450000, .i32⟩ : BufTy).Contents (Elt F)),
    binary main_v1 main_v331 main_v332 (cmpi .slt : (⟨S450000, .i32⟩ : BufTy).Contents (Elt F) → (⟨S450000, .i32⟩ : BufTy).Contents (Elt F) → (⟨S450000, .i1⟩ : BufTy).Contents (Elt F)),
    nullary main_c_80 (constantI S_ 32 50000#32),
    unary main_c_80 main_v333 (broadcastInDim S450000 ![] bcast_S_S450000 : (⟨S_, .i32⟩ : BufTy).Contents (Elt F) → (⟨S450000, .i32⟩ : BufTy).Contents (Elt F)),
    binary main_v1 main_v333 main_v334 (addi : (⟨S450000, .i32⟩ : BufTy).Contents (Elt F) → (⟨S450000, .i32⟩ : BufTy).Contents (Elt F) → (⟨S450000, .i32⟩ : BufTy).Contents (Elt F)),
    ternary main_v332 main_v334 main_v1 main_v335 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v335 main_v336 (broadcastInDim S450000x1 ![0] bcast_S450000_S450000x1_0 : (⟨S450000, .i32⟩ : BufTy).Contents (Elt F) → (⟨S450000x1, .i32⟩ : BufTy).Contents (Elt F)) ]

/-- The buffers these operations write, one each, in order. -/
def wr17 : List (Ref sig .tc) :=
  [main_v320, main_v321, main_v322, main_v323, main_cst_76, main_v324, main_v325, main_v326, main_cst_77, main_v327, main_v328, main_v329, main_cst_78, main_call12_v0, main_call12_v1, main_v330, main_c_79, main_v331, main_v332, main_c_80, main_v333, main_v334, main_v335, main_v336]

set_option maxRecDepth 4096 in
theorem writes17 : WritesOne (τ := τ) (ops17 (F := F)) wr17 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil))))))))))))))))))))))))

set_option maxRecDepth 4096 in
/-- Every operation here touches TensorCore buffers only. -/
theorem sub17 : (ops17 (F := F)).Forall fun op => op.bufs ⊆ tcRefs τ sig :=
  ⟨binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub ..⟩

set_option maxRecDepth 4096 in
/-- No operation here allocates: each determines its result. -/
theorem fresh17 : (ops17 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

set_option maxHeartbeats 2000000 in
/-- Operations 434 to 468 of the reference, part of this layer. -/
abbrev ops18 : List (HloOp τ sig (Elt F)) :=
  [ binary main_v330 main_v336 main_v337 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v337 main_arg2 main_v338 (mulf : (⟨S450000, .f32⟩ : BufTy).Contents (Elt F) → (⟨S450000, .f32⟩ : BufTy).Contents (Elt F) → (⟨S450000, .f32⟩ : BufTy).Contents (Elt F)),
    nullary main_c_81 (constantI S_ 32 0#32),
    unary main_c_81 main_v339 (broadcastInDim S450000 ![] bcast_S_S450000 : (⟨S_, .i32⟩ : BufTy).Contents (Elt F) → (⟨S450000, .i32⟩ : BufTy).Contents (Elt F)),
    binary main_v3 main_v339 main_v340 (cmpi .slt : (⟨S450000, .i32⟩ : BufTy).Contents (Elt F) → (⟨S450000, .i32⟩ : BufTy).Contents (Elt F) → (⟨S450000, .i1⟩ : BufTy).Contents (Elt F)),
    nullary main_c_82 (constantI S_ 32 50000#32),
    unary main_c_82 main_v341 (broadcastInDim S450000 ![] bcast_S_S450000 : (⟨S_, .i32⟩ : BufTy).Contents (Elt F) → (⟨S450000, .i32⟩ : BufTy).Contents (Elt F)),
    binary main_v3 main_v341 main_v342 (addi : (⟨S450000, .i32⟩ : BufTy).Contents (Elt F) → (⟨S450000, .i32⟩ : BufTy).Contents (Elt F) → (⟨S450000, .i32⟩ : BufTy).Contents (Elt F)),
    ternary main_v340 main_v342 main_v3 main_v343 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v343 main_v344 (broadcastInDim S450000x1 ![0] bcast_S450000_S450000x1_0 : (⟨S450000, .i32⟩ : BufTy).Contents (Elt F) → (⟨S450000x1, .i32⟩ : BufTy).Contents (Elt F)),
    binary main_v330 main_v344 main_v345 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v338 main_v345 main_v346 (mulf : (⟨S450000, .f32⟩ : BufTy).Contents (Elt F) → (⟨S450000, .f32⟩ : BufTy).Contents (Elt F) → (⟨S450000, .f32⟩ : BufTy).Contents (Elt F)),
    nullary main_c_83 (constantI S_ 32 0#32),
    unary main_c_83 main_v347 (broadcastInDim S450000 ![] bcast_S_S450000 : (⟨S_, .i32⟩ : BufTy).Contents (Elt F) → (⟨S450000, .i32⟩ : BufTy).Contents (Elt F)),
    binary main_v1 main_v347 main_v348 (cmpi .slt : (⟨S450000, .i32⟩ : BufTy).Contents (Elt F) → (⟨S450000, .i32⟩ : BufTy).Contents (Elt F) → (⟨S450000, .i1⟩ : BufTy).Contents (Elt F)),
    nullary main_c_84 (constantI S_ 32 50000#32),
    unary main_c_84 main_v349 (broadcastInDim S450000 ![] bcast_S_S450000 : (⟨S_, .i32⟩ : BufTy).Contents (Elt F) → (⟨S450000, .i32⟩ : BufTy).Contents (Elt F)),
    binary main_v1 main_v349 main_v350 (addi : (⟨S450000, .i32⟩ : BufTy).Contents (Elt F) → (⟨S450000, .i32⟩ : BufTy).Contents (Elt F) → (⟨S450000, .i32⟩ : BufTy).Contents (Elt F)),
    ternary main_v348 main_v350 main_v1 main_v351 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v351 main_v352 (broadcastInDim S450000x1 ![0] bcast_S450000_S450000x1_0 : (⟨S450000, .i32⟩ : BufTy).Contents (Elt F) → (⟨S450000x1, .i32⟩ : BufTy).Contents (Elt F)),
    binary main_v323 main_v352 main_v353 ((fun x i => Host.gather gather_S50000x128_S450000x1_S450000x128_1_0_n_n_0_1_1128 x i) : (⟨S50000x128, .f32⟩ : BufTy).Contents (Elt F) → (⟨S450000x1, .i32⟩ : BufTy).Contents (Elt F) → (⟨S450000x128, .f32⟩ : BufTy).Contents (Elt F)),
    unary main_v346 main_v354 (broadcastInDim S450000x1 ![0] bcast_S450000_S450000x1_0 : (⟨S450000, .f32⟩ : BufTy).Contents (Elt F) → (⟨S450000x1, .f32⟩ : BufTy).Contents (Elt F)),
    unary main_v354 main_v355 (broadcastInDim S450000x128 ![0, 1] bcast_S450000x1_S450000x128_0_1 : (⟨S450000x1, .f32⟩ : BufTy).Contents (Elt F) → (⟨S450000x128, .f32⟩ : BufTy).Contents (Elt F)),
    binary main_v353 main_v355 main_v356 (mulf : (⟨S450000x128, .f32⟩ : BufTy).Contents (Elt F) → (⟨S450000x128, .f32⟩ : BufTy).Contents (Elt F) → (⟨S450000x128, .f32⟩ : BufTy).Contents (Elt F)),
    nullary main_cst_85 (constant S_ .f32 0x00000000#32),
    unary main_cst_85 main_v357 (broadcastInDim S50000x128 ![] bcast_S_S50000x128 : (⟨S_, .f32⟩ : BufTy).Contents (Elt F) → (⟨S50000x128, .f32⟩ : BufTy).Contents (Elt F)),
    unary main_v3 main_v358 (broadcastInDim S450000x1 ![0] bcast_S450000_S450000x1_0 : (⟨S450000, .i32⟩ : BufTy).Contents (Elt F) → (⟨S450000x1, .i32⟩ : BufTy).Contents (Elt F)),
    ternary main_v357 main_v358 main_v356 main_v359 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    nullary main_cst_86 (constant S_ .f32 0x00000000#32),
    unary main_cst_86 main_v360 (broadcastInDim S50000x128 ![] bcast_S_S50000x128 : (⟨S_, .f32⟩ : BufTy).Contents (Elt F) → (⟨S50000x128, .f32⟩ : BufTy).Contents (Elt F)),
    binary main_v359 main_v360 main_v361 (cmpf .oge : (⟨S50000x128, .f32⟩ : BufTy).Contents (Elt F) → (⟨S50000x128, .f32⟩ : BufTy).Contents (Elt F) → (⟨S50000x128, .i1⟩ : BufTy).Contents (Elt F)),
    unary main_arg14 main_v362 (broadcastInDim S1x128 ![1] bcast_S128_S1x128_1 : (⟨S128, .f32⟩ : BufTy).Contents (Elt F) → (⟨S1x128, .f32⟩ : BufTy).Contents (Elt F)),
    unary main_v362 main_v363 (broadcastInDim S50000x128 ![0, 1] bcast_S1x128_S50000x128_0_1 : (⟨S1x128, .f32⟩ : BufTy).Contents (Elt F) → (⟨S50000x128, .f32⟩ : BufTy).Contents (Elt F)),
    binary main_v363 main_v359 main_v364 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v361) (TRef.of (T := ⟨S50000x128, .f32⟩) main_v359) (TRef.of (T := ⟨S50000x128, .f32⟩) main_v364) (TRef.of (T := ⟨S50000x128, .f32⟩) main_v365) select ]

/-- The buffers these operations write, one each, in order. -/
def wr18 : List (Ref sig .tc) :=
  [main_v337, main_v338, main_c_81, main_v339, main_v340, main_c_82, main_v341, main_v342, main_v343, main_v344, main_v345, main_v346, main_c_83, main_v347, main_v348, main_c_84, main_v349, main_v350, main_v351, main_v352, main_v353, main_v354, main_v355, main_v356, main_cst_85, main_v357, main_v358, main_v359, main_cst_86, main_v360, main_v361, main_v362, main_v363, main_v364, main_v365]

set_option maxRecDepth 4096 in
theorem writes18 : WritesOne (τ := τ) (ops18 (F := F)) wr18 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil)))))))))))))))))))))))))))))))))))

set_option maxRecDepth 4096 in
/-- Every operation here touches TensorCore buffers only. -/
theorem sub18 : (ops18 (F := F)).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., ternary_bufs_sub ..⟩

set_option maxRecDepth 4096 in
/-- No operation here allocates: each determines its result. -/
theorem fresh18 : (ops18 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer none of these operations writes holds after them what it held before. -/
theorem L1bn_keep {b : Ref sig .tc} (hb : b ∉ wr17 ++ wr18) (S : Valuation τ sig (Elt F)) :
    after ops18 (after ops17 S) (Proc.devRef .tc b) = S (Proc.devRef .tc b) :=
  (after_unwritten writes18 (fun h => hb (List.mem_append_right _ (h))) (after ops17 S)).trans (after_unwritten writes17 (fun h => hb (List.mem_append_left _ h)) S)

/-- The arguments and the two edge rows pass through these operations. -/
theorem L1bn_kept {V S : Valuation τ sig (Elt F)} (h : Kept V S) : Kept V (after ops18 (after ops17 S)) :=
  ⟨⟨(L1bn_keep (by decide) S).trans h.a0,
    (L1bn_keep (by decide) S).trans h.a1,
    (L1bn_keep (by decide) S).trans h.a2,
    (L1bn_keep (by decide) S).trans h.a3,
    (L1bn_keep (by decide) S).trans h.a4,
    (L1bn_keep (by decide) S).trans h.a5,
    (L1bn_keep (by decide) S).trans h.a6,
    (L1bn_keep (by decide) S).trans h.a7,
    (L1bn_keep (by decide) S).trans h.a8,
    (L1bn_keep (by decide) S).trans h.a9,
    (L1bn_keep (by decide) S).trans h.a10,
    (L1bn_keep (by decide) S).trans h.a11,
    (L1bn_keep (by decide) S).trans h.a12,
    (L1bn_keep (by decide) S).trans h.a13,
    (L1bn_keep (by decide) S).trans h.a14,
    (L1bn_keep (by decide) S).trans h.a15,
    (L1bn_keep (by decide) S).trans h.a16⟩,
    (L1bn_keep (by decide) S).trans h.src, (L1bn_keep (by decide) S).trans h.dst⟩

/-- One layer: from a state that holds the arguments and the edge rows, and X at the layer's input, the layer's
    output buffer ends at the rectified weighted neighbourhood sum of the affine image of X. -/
theorem L1bn_val {V S : Valuation τ sig (Elt F)} (h : Kept V S) (X : Cert.Spec.C F S50000x128 .f32)
    (hX : S (Proc.devRef .tc main_v319) = X) :
    after ops18 (after ops17 S) (Proc.devRef .tc main_v365)
      = Cert.Spec.layer X (V (Proc.devRef .tc main_arg1)) (V (Proc.devRef .tc main_arg2)) (V (Proc.devRef .tc main_arg10)) (V (Proc.devRef .tc main_arg11)) (V (Proc.devRef .tc main_arg14)) := by
  after_results_simp
  rw [hX, h.src, h.dst, h.a2, h.a10, h.a11, h.a14]
  rfl

end Cert.ReferenceIdeal.Hand

end
-- ==== Proof.Ref.L2bn.lean ====
/-
  One layer of the second encoder over the first layer's output on the permuted features: the affine image x W + b, the symmetric degree normalisation of the
  edge weights (recomputed here from the edge list and the weights), the weighted neighbourhood sum along the
  edges, and the parametric rectifier. The operations are listed as the reference prints them; the layer's output
  buffer ends at the named composite of the layer's input and the launched arguments.
-/
import proofs.«113219_j18691697672631_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
/-- Operations 469 to 495 of the reference, part of this layer. -/
abbrev ops19 : List (HloOp τ sig (Elt F)) :=
  [ binary main_v365 main_arg12 main_v366 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg13 main_v367 (broadcastInDim S1x128 ![1] bcast_S128_S1x128_1 : (⟨S128, .f32⟩ : BufTy).Contents (Elt F) → (⟨S1x128, .f32⟩ : BufTy).Contents (Elt F)),
    unary main_v367 main_v368 (broadcastInDim S50000x128 ![0, 1] bcast_S1x128_S50000x128_0_1 : (⟨S1x128, .f32⟩ : BufTy).Contents (Elt F) → (⟨S50000x128, .f32⟩ : BufTy).Contents (Elt F)),
    binary main_v366 main_v368 main_v369 (addf : (⟨S50000x128, .f32⟩ : BufTy).Contents (Elt F) → (⟨S50000x128, .f32⟩ : BufTy).Contents (Elt F) → (⟨S50000x128, .f32⟩ : BufTy).Contents (Elt F)),
    nullary main_cst_87 (constant S_ .f32 0x00000000#32),
    unary main_cst_87 main_v370 (broadcastInDim S50000 ![] bcast_S_S50000 : (⟨S_, .f32⟩ : BufTy).Contents (Elt F) → (⟨S50000, .f32⟩ : BufTy).Contents (Elt F)),
    unary main_v3 main_v371 (broadcastInDim S450000x1 ![0] bcast_S450000_S450000x1_0 : (⟨S450000, .i32⟩ : BufTy).Contents (Elt F) → (⟨S450000x1, .i32⟩ : BufTy).Contents (Elt F)),
    ternary main_v370 main_v371 main_arg2 main_v372 ((fun x i u => Host.scatterAdd scatter_S50000_S450000x1_S450000_n_0_0_1 x i u) : (⟨S50000, .f32⟩ : BufTy).Contents (Elt F) → (⟨S450000x1, .i32⟩ : BufTy).Contents (Elt F) → (⟨S450000, .f32⟩ : BufTy).Contents (Elt F) → (⟨S50000, .f32⟩ : BufTy).Contents (Elt F)),
    nullary main_cst_88 (constant S_ .f32 0x00000000#32),
    unary main_cst_88 main_v373 (broadcastInDim S50000 ![] bcast_S_S50000 : (⟨S_, .f32⟩ : BufTy).Contents (Elt F) → (⟨S50000, .f32⟩ : BufTy).Contents (Elt F)),
    binary main_v372 main_v373 main_v374 (cmpf .ogt : (⟨S50000, .f32⟩ : BufTy).Contents (Elt F) → (⟨S50000, .f32⟩ : BufTy).Contents (Elt F) → (⟨S50000, .i1⟩ : BufTy).Contents (Elt F)),
    unary main_v372 main_v375 (Host.rsqrt : (⟨S50000, .f32⟩ : BufTy).Contents (Elt F) → (⟨S50000, .f32⟩ : BufTy).Contents (Elt F)),
    nullary main_cst_89 (constant S_ .f32 0x00000000#32),
    TRef.unary (TRef.of (T := ⟨S_, .f32⟩) main_cst_89) (TRef.of (T := ⟨S_, .f32⟩) main_call14_v0) id,
    TRef.unary (TRef.of (T := ⟨S_, .f32⟩) main_call14_v0) (TRef.of (T := ⟨S50000, .f32⟩) main_call14_v1) (broadcastInDim S50000 ![] bcast_S_S50000),
    TRef.ternary (TRef.of (T := ⟨S50000, .i1⟩) main_v374) (TRef.of (T := ⟨S50000, .f32⟩) main_v375) (TRef.of (T := ⟨S50000, .f32⟩) main_call14_v1) (TRef.of (T := ⟨S50000, .f32⟩) main_v376) select,
    nullary main_c_90 (constantI S_ 32 0#32),
    unary main_c_90 main_v377 (broadcastInDim S450000 ![] bcast_S_S450000 : (⟨S_, .i32⟩ : BufTy).Contents (Elt F) → (⟨S450000, .i32⟩ : BufTy).Contents (Elt F)),
    binary main_v1 main_v377 main_v378 (cmpi .slt : (⟨S450000, .i32⟩ : BufTy).Contents (Elt F) → (⟨S450000, .i32⟩ : BufTy).Contents (Elt F) → (⟨S450000, .i1⟩ : BufTy).Contents (Elt F)),
    nullary main_c_91 (constantI S_ 32 50000#32),
    unary main_c_91 main_v379 (broadcastInDim S450000 ![] bcast_S_S450000 : (⟨S_, .i32⟩ : BufTy).Contents (Elt F) → (⟨S450000, .i32⟩ : BufTy).Contents (Elt F)),
    binary main_v1 main_v379 main_v380 (addi : (⟨S450000, .i32⟩ : BufTy).Contents (Elt F) → (⟨S450000, .i32⟩ : BufTy).Contents (Elt F) → (⟨S450000, .i32⟩ : BufTy).Contents (Elt F)),
    ternary main_v378 main_v380 main_v1 main_v381 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v381 main_v382 (broadcastInDim S450000x1 ![0] bcast_S450000_S450000x1_0 : (⟨S450000, .i32⟩ : BufTy).Contents (Elt F) → (⟨S450000x1, .i32⟩ : BufTy).Contents (Elt F)),
    binary main_v376 main_v382 main_v383 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v383 main_arg2 main_v384 (mulf : (⟨S450000, .f32⟩ : BufTy).Contents (Elt F) → (⟨S450000, .f32⟩ : BufTy).Contents (Elt F) → (⟨S450000, .f32⟩ : BufTy).Contents (Elt F)),
    nullary main_c_92 (constantI S_ 32 0#32) ]

/-- The buffers these operations write, one each, in order. -/
def wr19 : List (Ref sig .tc) :=
  [main_v366, main_v367, main_v368, main_v369, main_cst_87, main_v370, main_v371, main_v372, main_cst_88, main_v373, main_v374, main_v375, main_cst_89, main_call14_v0, main_call14_v1, main_v376, main_c_90, main_v377, main_v378, main_c_91, main_v379, main_v380, main_v381, main_v382, main_v383, main_v384, main_c_92]

set_option maxRecDepth 4096 in
theorem writes19 : WritesOne (τ := τ) (ops19 (F := F)) wr19 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil)))))))))))))))))))))))))))

set_option maxRecDepth 4096 in
/-- Every operation here touches TensorCore buffers only. -/
theorem sub19 : (ops19 (F := F)).Forall fun op => op.bufs ⊆ tcRefs τ sig :=
  ⟨binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub ..⟩

set_option maxRecDepth 4096 in
/-- No operation here allocates: each determines its result. -/
theorem fresh19 : (ops19 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

set_option maxHeartbeats 2000000 in
/-- Operations 496 to 527 of the reference, part of this layer. -/
abbrev ops20 : List (HloOp τ sig (Elt F)) :=
  [ unary main_c_92 main_v385 (broadcastInDim S450000 ![] bcast_S_S450000 : (⟨S_, .i32⟩ : BufTy).Contents (Elt F) → (⟨S450000, .i32⟩ : BufTy).Contents (Elt F)),
    binary main_v3 main_v385 main_v386 (cmpi .slt : (⟨S450000, .i32⟩ : BufTy).Contents (Elt F) → (⟨S450000, .i32⟩ : BufTy).Contents (Elt F) → (⟨S450000, .i1⟩ : BufTy).Contents (Elt F)),
    nullary main_c_93 (constantI S_ 32 50000#32),
    unary main_c_93 main_v387 (broadcastInDim S450000 ![] bcast_S_S450000 : (⟨S_, .i32⟩ : BufTy).Contents (Elt F) → (⟨S450000, .i32⟩ : BufTy).Contents (Elt F)),
    binary main_v3 main_v387 main_v388 (addi : (⟨S450000, .i32⟩ : BufTy).Contents (Elt F) → (⟨S450000, .i32⟩ : BufTy).Contents (Elt F) → (⟨S450000, .i32⟩ : BufTy).Contents (Elt F)),
    ternary main_v386 main_v388 main_v3 main_v389 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v389 main_v390 (broadcastInDim S450000x1 ![0] bcast_S450000_S450000x1_0 : (⟨S450000, .i32⟩ : BufTy).Contents (Elt F) → (⟨S450000x1, .i32⟩ : BufTy).Contents (Elt F)),
    binary main_v376 main_v390 main_v391 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v384 main_v391 main_v392 (mulf : (⟨S450000, .f32⟩ : BufTy).Contents (Elt F) → (⟨S450000, .f32⟩ : BufTy).Contents (Elt F) → (⟨S450000, .f32⟩ : BufTy).Contents (Elt F)),
    nullary main_c_94 (constantI S_ 32 0#32),
    unary main_c_94 main_v393 (broadcastInDim S450000 ![] bcast_S_S450000 : (⟨S_, .i32⟩ : BufTy).Contents (Elt F) → (⟨S450000, .i32⟩ : BufTy).Contents (Elt F)),
    binary main_v1 main_v393 main_v394 (cmpi .slt : (⟨S450000, .i32⟩ : BufTy).Contents (Elt F) → (⟨S450000, .i32⟩ : BufTy).Contents (Elt F) → (⟨S450000, .i1⟩ : BufTy).Contents (Elt F)),
    nullary main_c_95 (constantI S_ 32 50000#32),
    unary main_c_95 main_v395 (broadcastInDim S450000 ![] bcast_S_S450000 : (⟨S_, .i32⟩ : BufTy).Contents (Elt F) → (⟨S450000, .i32⟩ : BufTy).Contents (Elt F)),
    binary main_v1 main_v395 main_v396 (addi : (⟨S450000, .i32⟩ : BufTy).Contents (Elt F) → (⟨S450000, .i32⟩ : BufTy).Contents (Elt F) → (⟨S450000, .i32⟩ : BufTy).Contents (Elt F)),
    ternary main_v394 main_v396 main_v1 main_v397 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v397 main_v398 (broadcastInDim S450000x1 ![0] bcast_S450000_S450000x1_0 : (⟨S450000, .i32⟩ : BufTy).Contents (Elt F) → (⟨S450000x1, .i32⟩ : BufTy).Contents (Elt F)),
    binary main_v369 main_v398 main_v399 ((fun x i => Host.gather gather_S50000x128_S450000x1_S450000x128_1_0_n_n_0_1_1128 x i) : (⟨S50000x128, .f32⟩ : BufTy).Contents (Elt F) → (⟨S450000x1, .i32⟩ : BufTy).Contents (Elt F) → (⟨S450000x128, .f32⟩ : BufTy).Contents (Elt F)),
    unary main_v392 main_v400 (broadcastInDim S450000x1 ![0] bcast_S450000_S450000x1_0 : (⟨S450000, .f32⟩ : BufTy).Contents (Elt F) → (⟨S450000x1, .f32⟩ : BufTy).Contents (Elt F)),
    unary main_v400 main_v401 (broadcastInDim S450000x128 ![0, 1] bcast_S450000x1_S450000x128_0_1 : (⟨S450000x1, .f32⟩ : BufTy).Contents (Elt F) → (⟨S450000x128, .f32⟩ : BufTy).Contents (Elt F)),
    binary main_v399 main_v401 main_v402 (mulf : (⟨S450000x128, .f32⟩ : BufTy).Contents (Elt F) → (⟨S450000x128, .f32⟩ : BufTy).Contents (Elt F) → (⟨S450000x128, .f32⟩ : BufTy).Contents (Elt F)),
    nullary main_cst_96 (constant S_ .f32 0x00000000#32),
    unary main_cst_96 main_v403 (broadcastInDim S50000x128 ![] bcast_S_S50000x128 : (⟨S_, .f32⟩ : BufTy).Contents (Elt F) → (⟨S50000x128, .f32⟩ : BufTy).Contents (Elt F)),
    unary main_v3 main_v404 (broadcastInDim S450000x1 ![0] bcast_S450000_S450000x1_0 : (⟨S450000, .i32⟩ : BufTy).Contents (Elt F) → (⟨S450000x1, .i32⟩ : BufTy).Contents (Elt F)),
    ternary main_v403 main_v404 main_v402 main_v405 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    nullary main_cst_97 (constant S_ .f32 0x00000000#32),
    unary main_cst_97 main_v406 (broadcastInDim S50000x128 ![] bcast_S_S50000x128 : (⟨S_, .f32⟩ : BufTy).Contents (Elt F) → (⟨S50000x128, .f32⟩ : BufTy).Contents (Elt F)),
    binary main_v405 main_v406 main_v407 (cmpf .oge : (⟨S50000x128, .f32⟩ : BufTy).Contents (Elt F) → (⟨S50000x128, .f32⟩ : BufTy).Contents (Elt F) → (⟨S50000x128, .i1⟩ : BufTy).Contents (Elt F)),
    unary main_arg14 main_v408 (broadcastInDim S1x128 ![1] bcast_S128_S1x128_1 : (⟨S128, .f32⟩ : BufTy).Contents (Elt F) → (⟨S1x128, .f32⟩ : BufTy).Contents (Elt F)),
    unary main_v408 main_v409 (broadcastInDim S50000x128 ![0, 1] bcast_S1x128_S50000x128_0_1 : (⟨S1x128, .f32⟩ : BufTy).Contents (Elt F) → (⟨S50000x128, .f32⟩ : BufTy).Contents (Elt F)),
    binary main_v409 main_v405 main_v410 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v407) (TRef.of (T := ⟨S50000x128, .f32⟩) main_v405) (TRef.of (T := ⟨S50000x128, .f32⟩) main_v410) (TRef.of (T := ⟨S50000x128, .f32⟩) main_v411) select ]

/-- The buffers these operations write, one each, in order. -/
def wr20 : List (Ref sig .tc) :=
  [main_v385, main_v386, main_c_93, main_v387, main_v388, main_v389, main_v390, main_v391, main_v392, main_c_94, main_v393, main_v394, main_c_95, main_v395, main_v396, main_v397, main_v398, main_v399, main_v400, main_v401, main_v402, main_cst_96, main_v403, main_v404, main_v405, main_cst_97, main_v406, main_v407, main_v408, main_v409, main_v410, main_v411]

set_option maxRecDepth 4096 in
theorem writes20 : WritesOne (τ := τ) (ops20 (F := F)) wr20 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil))))))))))))))))))))))))))))))))

set_option maxRecDepth 4096 in
/-- Every operation here touches TensorCore buffers only. -/
theorem sub20 : (ops20 (F := F)).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., ternary_bufs_sub ..⟩

set_option maxRecDepth 4096 in
/-- No operation here allocates: each determines its result. -/
theorem fresh20 : (ops20 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer none of these operations writes holds after them what it held before. -/
theorem L2bn_keep {b : Ref sig .tc} (hb : b ∉ wr19 ++ wr20) (S : Valuation τ sig (Elt F)) :
    after ops20 (after ops19 S) (Proc.devRef .tc b) = S (Proc.devRef .tc b) :=
  (after_unwritten writes20 (fun h => hb (List.mem_append_right _ (h))) (after ops19 S)).trans (after_unwritten writes19 (fun h => hb (List.mem_append_left _ h)) S)

/-- The arguments and the two edge rows pass through these operations. -/
theorem L2bn_kept {V S : Valuation τ sig (Elt F)} (h : Kept V S) : Kept V (after ops20 (after ops19 S)) :=
  ⟨⟨(L2bn_keep (by decide) S).trans h.a0,
    (L2bn_keep (by decide) S).trans h.a1,
    (L2bn_keep (by decide) S).trans h.a2,
    (L2bn_keep (by decide) S).trans h.a3,
    (L2bn_keep (by decide) S).trans h.a4,
    (L2bn_keep (by decide) S).trans h.a5,
    (L2bn_keep (by decide) S).trans h.a6,
    (L2bn_keep (by decide) S).trans h.a7,
    (L2bn_keep (by decide) S).trans h.a8,
    (L2bn_keep (by decide) S).trans h.a9,
    (L2bn_keep (by decide) S).trans h.a10,
    (L2bn_keep (by decide) S).trans h.a11,
    (L2bn_keep (by decide) S).trans h.a12,
    (L2bn_keep (by decide) S).trans h.a13,
    (L2bn_keep (by decide) S).trans h.a14,
    (L2bn_keep (by decide) S).trans h.a15,
    (L2bn_keep (by decide) S).trans h.a16⟩,
    (L2bn_keep (by decide) S).trans h.src, (L2bn_keep (by decide) S).trans h.dst⟩

/-- One layer: from a state that holds the arguments and the edge rows, and X at the layer's input, the layer's
    output buffer ends at the rectified weighted neighbourhood sum of the affine image of X. -/
theorem L2bn_val {V S : Valuation τ sig (Elt F)} (h : Kept V S) (X : Cert.Spec.C F S50000x128 .f32)
    (hX : S (Proc.devRef .tc main_v365) = X) :
    after ops20 (after ops19 S) (Proc.devRef .tc main_v411)
      = Cert.Spec.layer X (V (Proc.devRef .tc main_arg1)) (V (Proc.devRef .tc main_arg2)) (V (Proc.devRef .tc main_arg12)) (V (Proc.devRef .tc main_arg13)) (V (Proc.devRef .tc main_arg14)) := by
  after_results_simp
  rw [hX, h.src, h.dst, h.a2, h.a12, h.a13, h.a14]
  rfl

end Cert.ReferenceIdeal.Hand

end
-- ==== Proof.Ref.Run.lean ====
/-
  The reference's run. Its operations are the pieces of the stretch modules in order; the printed program is nine
  windows of sixty statements, each window the run of consecutive pieces, so the program is the run of the whole
  line. From any launch contents the line ends with the two encodings at the two-layer encoder of the node features,
  the two summaries at the pooled projections of the encodings, the two corrupted encodings at the encoder of the
  row-permuted features, and every argument array as launched.
-/
import proofs.«113219_j18691697672631_1_alg».proof.Proof.Ref.Idx
import proofs.«113219_j18691697672631_1_alg».proof.Proof.Ref.L1a
import proofs.«113219_j18691697672631_1_alg».proof.Proof.Ref.L2a
import proofs.«113219_j18691697672631_1_alg».proof.Proof.Ref.L1b
import proofs.«113219_j18691697672631_1_alg».proof.Proof.Ref.L2b
import proofs.«113219_j18691697672631_1_alg».proof.Proof.Ref.Pool
import proofs.«113219_j18691697672631_1_alg».proof.Proof.Ref.L1an
import proofs.«113219_j18691697672631_1_alg».proof.Proof.Ref.L2an
import proofs.«113219_j18691697672631_1_alg».proof.Proof.Ref.L1bn
import proofs.«113219_j18691697672631_1_alg».proof.Proof.Ref.L2bn

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's 528 operations, in order. -/
def opsAll : List (HloOp τ sig (Elt F)) :=
  ops00 ++ (ops01 ++ (ops02 ++ (ops03 ++ (ops04 ++ (ops05 ++ (ops06 ++ (ops07 ++ (ops08 ++ (ops09 ++ (ops10 ++ (ops11 ++ (ops12 ++ (ops13 ++ (ops14 ++ (ops15 ++ (ops16 ++ (ops17 ++ (ops18 ++ (ops19 ++ (ops20))))))))))))))))))))

/-- The operations of the program's window 0. -/
def win0 : List (HloOp τ sig (Elt F)) := ops00 ++ (ops01)
/-- The operations of the program's window 1. -/
def win1 : List (HloOp τ sig (Elt F)) := ops02 ++ (ops03 ++ (ops04))
/-- The operations of the program's window 2. -/
def win2 : List (HloOp τ sig (Elt F)) := ops05 ++ (ops06)
/-- The operations of the program's window 3. -/
def win3 : List (HloOp τ sig (Elt F)) := ops07 ++ (ops08)
/-- The operations of the program's window 4. -/
def win4 : List (HloOp τ sig (Elt F)) := ops09 ++ (ops10 ++ (ops11 ++ (ops12)))
/-- The operations of the program's window 5. -/
def win5 : List (HloOp τ sig (Elt F)) := ops13 ++ (ops14)
/-- The operations of the program's window 6. -/
def win6 : List (HloOp τ sig (Elt F)) := ops15 ++ (ops16 ++ (ops17))
/-- The operations of the program's window 7. -/
def win7 : List (HloOp τ sig (Elt F)) := ops18 ++ (ops19)
/-- The operations of the program's window 8. -/
def win8 : List (HloOp τ sig (Elt F)) := ops20

set_option maxRecDepth 8192 in
set_option maxHeartbeats 4000000 in
theorem part0_eq (c : Dev nD) : main_part0 (F := F) c = seq win0 := rfl
set_option maxRecDepth 8192 in
set_option maxHeartbeats 4000000 in
theorem part1_eq (c : Dev nD) : main_part1 (F := F) c = seq win1 := rfl
set_option maxRecDepth 8192 in
set_option maxHeartbeats 4000000 in
theorem part2_eq (c : Dev nD) : main_part2 (F := F) c = seq win2 := rfl
set_option maxRecDepth 8192 in
set_option maxHeartbeats 4000000 in
theorem part3_eq (c : Dev nD) : main_part3 (F := F) c = seq win3 := rfl
set_option maxRecDepth 8192 in
set_option maxHeartbeats 4000000 in
theorem part4_eq (c : Dev nD) : main_part4 (F := F) c = seq win4 := rfl
set_option maxRecDepth 8192 in
set_option maxHeartbeats 4000000 in
theorem part5_eq (c : Dev nD) : main_part5 (F := F) c = seq win5 := rfl
set_option maxRecDepth 8192 in
set_option maxHeartbeats 4000000 in
theorem part6_eq (c : Dev nD) : main_part6 (F := F) c = seq win6 := rfl
set_option maxRecDepth 8192 in
set_option maxHeartbeats 4000000 in
theorem part7_eq (c : Dev nD) : main_part7 (F := F) c = seq win7 := rfl
set_option maxRecDepth 8192 in
set_option maxHeartbeats 4000000 in
theorem part8_eq (c : Dev nD) : main_part8 (F := F) c = seq win8 := rfl

theorem opsAll_eq : (opsAll (F := F)) = win0 ++ (win1 ++ (win2 ++ (win3 ++ (win4 ++ (win5 ++ (win6 ++ (win7 ++ (win8)))))))) := by
  simp only [opsAll, win0, win1, win2, win3, win4, win5, win6, win7, win8, List.append_assoc]

theorem main_eq (c : Dev nD) : main (F := F) c = seq opsAll := by
  rw [opsAll_eq]
  simp only [seq_append, ← part0_eq c, ← part1_eq c, ← part2_eq c, ← part3_eq c, ← part4_eq c, ← part5_eq c, ← part6_eq c, ← part7_eq c, ← part8_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (opsAll (F := F)).Forall fun op => op.bufs ⊆ tcRefs τ sig :=
  List.forall_append.mpr ⟨sub00, List.forall_append.mpr ⟨sub01, List.forall_append.mpr ⟨sub02, List.forall_append.mpr ⟨sub03, List.forall_append.mpr ⟨sub04, List.forall_append.mpr ⟨sub05, List.forall_append.mpr ⟨sub06, List.forall_append.mpr ⟨sub07, List.forall_append.mpr ⟨sub08, List.forall_append.mpr ⟨sub09, List.forall_append.mpr ⟨sub10, List.forall_append.mpr ⟨sub11, List.forall_append.mpr ⟨sub12, List.forall_append.mpr ⟨sub13, List.forall_append.mpr ⟨sub14, List.forall_append.mpr ⟨sub15, List.forall_append.mpr ⟨sub16, List.forall_append.mpr ⟨sub17, List.forall_append.mpr ⟨sub18, List.forall_append.mpr ⟨sub19, sub20⟩⟩⟩⟩⟩⟩⟩⟩⟩⟩⟩⟩⟩⟩⟩⟩⟩⟩⟩⟩

theorem ops_fresh : (opsAll (F := F)).Forall fun op => op.fresh = ∅ :=
  List.forall_append.mpr ⟨fresh00, List.forall_append.mpr ⟨fresh01, List.forall_append.mpr ⟨fresh02, List.forall_append.mpr ⟨fresh03, List.forall_append.mpr ⟨fresh04, List.forall_append.mpr ⟨fresh05, List.forall_append.mpr ⟨fresh06, List.forall_append.mpr ⟨fresh07, List.forall_append.mpr ⟨fresh08, List.forall_append.mpr ⟨fresh09, List.forall_append.mpr ⟨fresh10, List.forall_append.mpr ⟨fresh11, List.forall_append.mpr ⟨fresh12, List.forall_append.mpr ⟨fresh13, List.forall_append.mpr ⟨fresh14, List.forall_append.mpr ⟨fresh15, List.forall_append.mpr ⟨fresh16, List.forall_append.mpr ⟨fresh17, List.forall_append.mpr ⟨fresh18, List.forall_append.mpr ⟨fresh19, fresh20⟩⟩⟩⟩⟩⟩⟩⟩⟩⟩⟩⟩⟩⟩⟩⟩⟩⟩⟩⟩

/-- What the buffers hold after the whole line, from any contents `V`: the six results at their composites of
    `V`'s arguments, the arguments as in `V`. -/
theorem vals (V : Valuation τ sig (Elt F)) :
    after opsAll V (Proc.devRef .tc main_v95) = Cert.Spec.gconv (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)) (V (Proc.devRef .tc main_arg9))
    ∧ after opsAll V (Proc.devRef .tc main_v187) = Cert.Spec.gconv (V (Proc.devRef .tc main_arg0)) (V (Proc.devRef .tc main_arg1)) (V (Proc.devRef .tc main_arg2)) (V (Proc.devRef .tc main_arg10)) (V (Proc.devRef .tc main_arg11)) (V (Proc.devRef .tc main_arg12)) (V (Proc.devRef .tc main_arg13)) (V (Proc.devRef .tc main_arg14))
    ∧ after opsAll V (Proc.devRef .tc main_v200) = Cert.Spec.pool (Cert.Spec.gconv (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)) (V (Proc.devRef .tc main_arg9))) (V (Proc.devRef .tc main_arg15)) (V (Proc.devRef .tc main_arg16))
    ∧ after opsAll V (Proc.devRef .tc main_v213) = Cert.Spec.pool (Cert.Spec.gconv (V (Proc.devRef .tc main_arg0)) (V (Proc.devRef .tc main_arg1)) (V (Proc.devRef .tc main_arg2)) (V (Proc.devRef .tc main_arg10)) (V (Proc.devRef .tc main_arg11)) (V (Proc.devRef .tc main_arg12)) (V (Proc.devRef .tc main_arg13)) (V (Proc.devRef .tc main_arg14))) (V (Proc.devRef .tc main_arg15)) (V (Proc.devRef .tc main_arg16))
    ∧ after opsAll V (Proc.devRef .tc main_v312) = Cert.Spec.gconv (Cert.Spec.permute (V (Proc.devRef .tc main_arg0)) (V (Proc.devRef .tc main_arg3))) (V (Proc.devRef .tc main_arg1)) (V (Proc.devRef .tc main_arg2)) (V (Proc.devRef .tc main_arg5)) (V (Proc.devRef .tc main_arg6)) (V (Proc.devRef .tc main_arg7)) (V (Proc.devRef .tc main_arg8)) (V (Proc.devRef .tc main_arg9))
    ∧ after opsAll V (Proc.devRef .tc main_v411) = Cert.Spec.gconv (Cert.Spec.permute (V (Proc.devRef .tc main_arg0)) (V (Proc.devRef .tc main_arg4))) (V (Proc.devRef .tc main_arg1)) (V (Proc.devRef .tc main_arg2)) (V (Proc.devRef .tc main_arg10)) (V (Proc.devRef .tc main_arg11)) (V (Proc.devRef .tc main_arg12)) (V (Proc.devRef .tc main_arg13)) (V (Proc.devRef .tc main_arg14))
    ∧ after opsAll V (Proc.devRef .tc main_arg0) = V (Proc.devRef .tc main_arg0)
    ∧ after opsAll V (Proc.devRef .tc main_arg1) = V (Proc.devRef .tc main_arg1)
    ∧ after opsAll V (Proc.devRef .tc main_arg2) = V (Proc.devRef .tc main_arg2)
    ∧ after opsAll V (Proc.devRef .tc main_arg3) = V (Proc.devRef .tc main_arg3)
    ∧ after opsAll V (Proc.devRef .tc main_arg4) = V (Proc.devRef .tc main_arg4)
    ∧ after opsAll V (Proc.devRef .tc main_arg5) = V (Proc.devRef .tc main_arg5)
    ∧ after opsAll V (Proc.devRef .tc main_arg6) = V (Proc.devRef .tc main_arg6)
    ∧ after opsAll V (Proc.devRef .tc main_arg7) = V (Proc.devRef .tc main_arg7)
    ∧ after opsAll V (Proc.devRef .tc main_arg8) = V (Proc.devRef .tc main_arg8)
    ∧ after opsAll V (Proc.devRef .tc main_arg9) = V (Proc.devRef .tc main_arg9)
    ∧ after opsAll V (Proc.devRef .tc main_arg10) = V (Proc.devRef .tc main_arg10)
    ∧ after opsAll V (Proc.devRef .tc main_arg11) = V (Proc.devRef .tc main_arg11)
    ∧ after opsAll V (Proc.devRef .tc main_arg12) = V (Proc.devRef .tc main_arg12)
    ∧ after opsAll V (Proc.devRef .tc main_arg13) = V (Proc.devRef .tc main_arg13)
    ∧ after opsAll V (Proc.devRef .tc main_arg14) = V (Proc.devRef .tc main_arg14)
    ∧ after opsAll V (Proc.devRef .tc main_arg15) = V (Proc.devRef .tc main_arg15)
    ∧ after opsAll V (Proc.devRef .tc main_arg16) = V (Proc.devRef .tc main_arg16) := by
  simp only [opsAll, after_append]
  have k0 := sl_kept V
  have y1 := L1a_val k0 _ k0.a0
  have k1 := L1a_kept k0
  have r0_2 := L2a_val k1 _ y1
  have k2 := L2a_kept k1
  have y3 := L1b_val k2 _ k2.a0
  have r0_3 := (L1b_keep (b := main_v95) (by decide) _).trans r0_2
  have k3 := L1b_kept k2
  have r1_4 := L2b_val k3 _ y3
  have r0_4 := (L2b_keep (b := main_v95) (by decide) _).trans r0_3
  have k4 := L2b_kept k3
  have r2_5 := pool1_val k4 _ r0_4
  have r0_5 := (pool1_keep (b := main_v95) (by decide) _).trans r0_4
  have r1_5 := (pool1_keep (b := main_v187) (by decide) _).trans r1_4
  have k5 := pool1_kept k4
  have r3_6 := pool2_val k5 _ r1_5
  have r0_6 := (pool2_keep (b := main_v95) (by decide) _).trans r0_5
  have r1_6 := (pool2_keep (b := main_v187) (by decide) _).trans r1_5
  have r2_6 := (pool2_keep (b := main_v200) (by decide) _).trans r2_5
  have k6 := pool2_kept k5
  have x7 := perm1_val k6
  have r0_7 := (perm1_keep (b := main_v95) (by decide) _).trans r0_6
  have r1_7 := (perm1_keep (b := main_v187) (by decide) _).trans r1_6
  have r2_7 := (perm1_keep (b := main_v200) (by decide) _).trans r2_6
  have r3_7 := (perm1_keep (b := main_v213) (by decide) _).trans r3_6
  have k7 := perm1_kept k6
  have y8 := L1an_val k7 _ x7
  have r0_8 := (L1an_keep (b := main_v95) (by decide) _).trans r0_7
  have r1_8 := (L1an_keep (b := main_v187) (by decide) _).trans r1_7
  have r2_8 := (L1an_keep (b := main_v200) (by decide) _).trans r2_7
  have r3_8 := (L1an_keep (b := main_v213) (by decide) _).trans r3_7
  have k8 := L1an_kept k7
  have r4_9 := L2an_val k8 _ y8
  have r0_9 := (L2an_keep (b := main_v95) (by decide) _).trans r0_8
  have r1_9 := (L2an_keep (b := main_v187) (by decide) _).trans r1_8
  have r2_9 := (L2an_keep (b := main_v200) (by decide) _).trans r2_8
  have r3_9 := (L2an_keep (b := main_v213) (by decide) _).trans r3_8
  have k9 := L2an_kept k8
  have x10 := perm2_val k9
  have r0_10 := (perm2_keep (b := main_v95) (by decide) _).trans r0_9
  have r1_10 := (perm2_keep (b := main_v187) (by decide) _).trans r1_9
  have r2_10 := (perm2_keep (b := main_v200) (by decide) _).trans r2_9
  have r3_10 := (perm2_keep (b := main_v213) (by decide) _).trans r3_9
  have r4_10 := (perm2_keep (b := main_v312) (by decide) _).trans r4_9
  have k10 := perm2_kept k9
  have y11 := L1bn_val k10 _ x10
  have r0_11 := (L1bn_keep (b := main_v95) (by decide) _).trans r0_10
  have r1_11 := (L1bn_keep (b := main_v187) (by decide) _).trans r1_10
  have r2_11 := (L1bn_keep (b := main_v200) (by decide) _).trans r2_10
  have r3_11 := (L1bn_keep (b := main_v213) (by decide) _).trans r3_10
  have r4_11 := (L1bn_keep (b := main_v312) (by decide) _).trans r4_10
  have k11 := L1bn_kept k10
  have r5_12 := L2bn_val k11 _ y11
  have r0_12 := (L2bn_keep (b := main_v95) (by decide) _).trans r0_11
  have r1_12 := (L2bn_keep (b := main_v187) (by decide) _).trans r1_11
  have r2_12 := (L2bn_keep (b := main_v200) (by decide) _).trans r2_11
  have r3_12 := (L2bn_keep (b := main_v213) (by decide) _).trans r3_11
  have r4_12 := (L2bn_keep (b := main_v312) (by decide) _).trans r4_11
  have k12 := L2bn_kept k11
  exact ⟨r0_12, r1_12, r2_12, r3_12, r4_12, r5_12, k12.a0, k12.a1, k12.a2, k12.a3, k12.a4, k12.a5, k12.a6, k12.a7, k12.a8, k12.a9, k12.a10, k12.a11, k12.a12, k12.a13, k12.a14, k12.a15, k12.a16⟩

/-- On every device, for any float values, from any memory with zero counters: every weakly fair execution of
    the reference terminates with each result at its named composite of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v95) = Cert.Spec.gconv (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v187) = Cert.Spec.gconv (m ((c.tc : Thread nD τ).loc main_arg0)) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v200) = Cert.Spec.pool (Cert.Spec.gconv (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg15)) (m ((c.tc : Thread nD τ).loc main_arg16))
      ∧ r.2.mem ((c.tc : Thread nD τ).loc main_v213) = Cert.Spec.pool (Cert.Spec.gconv (m ((c.tc : Thread nD τ).loc main_arg0)) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg15)) (m ((c.tc : Thread nD τ).loc main_arg16))
      ∧ r.2.mem ((c.tc : Thread nD τ).loc main_v312) = Cert.Spec.gconv (Cert.Spec.permute (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v411) = Cert.Spec.gconv (Cert.Spec.permute (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c =>
      have hv := vals (F := F) (launchContents m c)
      ⟨(h c main_v95).trans hv.1,
       (h c main_v187).trans hv.2.1,
       (h c main_v200).trans hv.2.2.1,
       (h c main_v213).trans hv.2.2.2.1,
       (h c main_v312).trans hv.2.2.2.2.1,
       (h c main_v411).trans hv.2.2.2.2.2.1,
       (h c main_arg0).trans hv.2.2.2.2.2.2.1,
       (h c main_arg1).trans hv.2.2.2.2.2.2.2.1,
       (h c main_arg2).trans hv.2.2.2.2.2.2.2.2.1,
       (h c main_arg3).trans hv.2.2.2.2.2.2.2.2.2.1,
       (h c main_arg4).trans hv.2.2.2.2.2.2.2.2.2.2.1,
       (h c main_arg5).trans hv.2.2.2.2.2.2.2.2.2.2.2.1,
       (h c main_arg6).trans hv.2.2.2.2.2.2.2.2.2.2.2.2.1,
       (h c main_arg7).trans hv.2.2.2.2.2.2.2.2.2.2.2.2.2.1,
       (h c main_arg8).trans hv.2.2.2.2.2.2.2.2.2.2.2.2.2.2.1,
       (h c main_arg9).trans hv.2.2.2.2.2.2.2.2.2.2.2.2.2.2.2.1,
       (h c main_arg10).trans hv.2.2.2.2.2.2.2.2.2.2.2.2.2.2.2.2.1,
       (h c main_arg11).trans hv.2.2.2.2.2.2.2.2.2.2.2.2.2.2.2.2.2.1,
       (h c main_arg12).trans hv.2.2.2.2.2.2.2.2.2.2.2.2.2.2.2.2.2.2.1,
       (h c main_arg13).trans hv.2.2.2.2.2.2.2.2.2.2.2.2.2.2.2.2.2.2.2.1,
       (h c main_arg14).trans hv.2.2.2.2.2.2.2.2.2.2.2.2.2.2.2.2.2.2.2.2.1,
       (h c main_arg15).trans hv.2.2.2.2.2.2.2.2.2.2.2.2.2.2.2.2.2.2.2.2.2.1,
       (h c main_arg16).trans hv.2.2.2.2.2.2.2.2.2.2.2.2.2.2.2.2.2.2.2.2.2.2⟩)
    (run_seq scopedRefs_eq scopedSems_eq defs main (fun _ => opsAll) main_eq (fun _ => ops_sub) m ρ
      (fun _ => List.forall_iff_forall_mem.mp ops_fresh))

end Cert.ReferenceIdeal.Hand

end
-- ==== Proof.RefFrame.lean ====
/-
  The reference is a straight line of host operations (matrix products, gathers along the edge list, scatter-additions
  into the destination nodes, pointwise arithmetic). Its run from any memory ends, faults nowhere, and writes no argument
  array: this is the run of the reference read back stretch by stretch, with the computed results dropped from its
  conclusion.
-/
import proofs.«113219_j18691697672631_1_alg».proof.Defs
import proofs.«113219_j18691697672631_1_alg».proof.Proof.Gen.Pre_finite_inputs
import proofs.«113219_j18691697672631_1_alg».proof.Proof.Ref.Run

noncomputable section

open Idealize.ShloMosaic Idealize.ShloMosaic.TcCoe Idealize.SL.Sem

namespace Cert.Proof.Parts

/-- The reference terminates without a fault and leaves its seventeen argument arrays as launched. -/
theorem frame_ri : Cert.frame_ReferenceIdeal := fun m ρ _ =>
  (θ_run Cert.ReferenceIdeal.defs _ _).mono (fun _ h c => (h c).2.2.2.2.2.2)
    (Cert.ReferenceIdeal.Hand.run (F := Ideal) m ρ)

end Cert.Proof.Parts

end
-- ==== Proof.K.Linear0.lean ====
/-
  Region 0 of the kernel program: the first linear layer of the first encoder, on one tile of 2000 rows.
  At a grid point the body reads the tile `x` (2000 x 128), the weights `W` (128 x 128) and the bias row `b` (1 x 128) and
  overwrites the output tile with `x W + b`: entry (p, q) is the sum over k of x(p, k) W(k, q), plus b(q). It keeps nothing
  between points; the weights and the bias are fetched once and stay where they are.

  Stated here for any contents `V` of the core's buffers on entry: what each window's staging buffer holds when the body
  runs, what the one store leaves in the output buffer, that the body run from those buffers ends with the inputs untouched
  and the output at that value, and from it the body obligation at every grid point.
-/
import proofs.«113219_j18691697672631_1_alg».proof.Proof.Gen.Kernel.Launch
import proofs.«113219_j18691697672631_1_alg».proof.Proof.Gen.Kernel.Skeleton
import proofs.«113219_j18691697672631_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile's staging buffer holds the tile of the point: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the weights at every point: fetched at the first point, the block index never moves,
    and the body leaves them as they were. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer holds the row at every point, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 2000 x 128 tile, the whole 128 x 128 weights and the whole 1 x 128 row as rectangles. -/
abbrev rTile0 : Rect S2000x128 := Rect.unit (s := S2000x128) ![0, 0] S2000x128.size inb_S2000x128_S2000x128_0_0
abbrev rMat0 : Rect S128x128 := Rect.unit (s := S128x128) ![0, 0] S128x128.size inb_S128x128_S128x128_0_0
abbrev rRow0 : Rect S1x128 := Rect.unit (s := S1x128) ![0, 0] S1x128.size inb_S1x128_S1x128_0_0

/-! ## What the body leaves in the output tile -/

/-- The output tile after the body: its one store, of the product plus the bias, over the whole buffer. -/
def out0_3 (x0 : Vec F S2000x128 .f32) (x1 : Vec F S128x128 .f32) (x2 : Vec F S1x128 .f32) : Vec F S2000x128 .f32 :=
  View.canon [⟨rTile0, k0_pay1 (View.ld x0 rTile0) (View.ld x1 rMat0) (View.ld x2 rRow0)⟩]

/-- The one store covers the buffer. -/
theorem cover0_3 (p0 : Vec F S2000x128 .f32) (y : S2000x128.Idx) :
    ∃ pc ∈ ([⟨rTile0, p0⟩] : List (View.Piece (Elt F) S2000x128 .f32)), y ∈ pc.1.set :=
  View.cover_of_tiled [⟨rTile0, p0⟩] S2000x128.size (by rfl) y

/-! ## The body's triple -/

set_option maxHeartbeats 1000000 in
/-- The body on whole staging buffers, the tile's at `x0`, the weights' at `x1`, the bias row's at `x2`, the output's at
    anything, runs to the continuation holding the inputs' as they were and the output's at `out0_3 x0 x1 x2`. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this region on core `c`: the arrays as the region finds them; after the body at point `t` each
    input's buffer at its block and the output's at the product plus the bias; the invariant the scoped buffers no window
    stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.PreluLinear1.lean ====
/-
  Region 1 of the kernel program: the first rectifier and the second linear layer of the first encoder, on one
  tile of 2000 rows.
  At a grid point the body reads the tile `c` (2000 x 128), the slope row `alpha` (1 x 128), the weights `W` (128 x 128)
  and the bias row `b` (1 x 128). It rectifies the tile entry by entry, `a = c` where `c >= 0` and `alpha * c` elsewhere, and
  overwrites the output tile with `a W + b`: entry (p, q) is the sum over k of a(p, k) W(k, q), plus b(q). It keeps
  nothing between points; the slope row, the weights and the bias are fetched once and stay where they are.

  Stated here for any contents `V` of the core's buffers on entry: what each window's staging buffer holds when the body
  runs, what the one store leaves in the output buffer, that the body run from those buffers ends with the inputs untouched
  and the output at that value, and from it the body obligation at every grid point.
-/
import proofs.«113219_j18691697672631_1_alg».proof.Proof.Gen.Kernel.Launch
import proofs.«113219_j18691697672631_1_alg».proof.Proof.Gen.Kernel.Skeleton
import proofs.«113219_j18691697672631_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile's staging buffer holds the tile of the point: it is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The slope row's staging buffer holds the row at every point: fetched at the first point, the block index never moves,
    and the body leaves it as it was. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weights' staging buffer holds the weights at every point, for the same reason. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the row at every point, for the same reason. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 2000 x 128 tile, the whole 128 x 128 weights and the whole 1 x 128 row as rectangles. -/
abbrev rTile1 : Rect S2000x128 := Rect.unit (s := S2000x128) ![0, 0] S2000x128.size inb_S2000x128_S2000x128_0_0
abbrev rMat1 : Rect S128x128 := Rect.unit (s := S128x128) ![0, 0] S128x128.size inb_S128x128_S128x128_0_0
abbrev rRow1 : Rect S1x128 := Rect.unit (s := S1x128) ![0, 0] S1x128.size inb_S1x128_S1x128_0_0

/-! ## What the body leaves in the output tile -/

/-- The output tile after the body: its one store, of the rectified tile's product with the weights plus the bias, over the
    whole buffer. -/
def out1_4 (x0 : Vec F S2000x128 .f32) (x1 : Vec F S1x128 .f32) (x2 : Vec F S128x128 .f32) (x3 : Vec F S1x128 .f32) :
    Vec F S2000x128 .f32 :=
  View.canon [⟨rTile1, k1_pay1 (View.ld x0 rTile1) (View.ld x1 rRow1) (View.ld x2 rMat1) (View.ld x3 rRow1)⟩]

/-- The one store covers the buffer. -/
theorem cover1_4 (p0 : Vec F S2000x128 .f32) (y : S2000x128.Idx) :
    ∃ pc ∈ ([⟨rTile1, p0⟩] : List (View.Piece (Elt F) S2000x128 .f32)), y ∈ pc.1.set :=
  View.cover_of_tiled [⟨rTile1, p0⟩] S2000x128.size (by rfl) y

/-! ## The body's triple -/

set_option maxHeartbeats 1000000 in
/-- The body on whole staging buffers, the tile's at `x0`, the slope row's at `x1`, the weights' at `x2`, the bias row's at
    `x3`, the output's at anything, runs to the continuation holding the inputs' as they were and the output's at
    `out1_4 x0 x1 x2 x3`. -/
theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S1x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__prelu_linear_kernel i arg1 harg1 arg2 harg2 arg3 harg3 arg4 harg4 arg5 harg5) K := by
  simp only [cc1__prelu_linear_kernel_eq_skeleton]; unfold cc1__prelu_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of this region on core `c`: the arrays as the region finds them; after the body at point `t` each
    input's buffer at its block and the output's at the rectified tile's product with the weights plus the bias; the
    invariant the scoped buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Prelu2.lean ====
/-
  Region 2 of the kernel program: the second rectifier of the first encoder, on one tile of 2000 rows.
  At a grid point the body reads the tile `c` (2000 x 128) and the slope row `alpha` (1 x 128) and overwrites the
  output tile with `c` where `c >= 0` and `alpha * c` elsewhere, entry by entry. It keeps nothing between points.

  Stated here for any contents `V` of the core's buffers on entry: what each window's staging buffer holds when
  the body runs (the window's block of its array, whether it was fetched at this point or at an earlier one with the
  same block index), what the one store leaves in the output buffer, and that the body run from those buffers ends
  with the inputs untouched and the output at that value.
-/
import proofs.«113219_j18691697672631_1_alg».proof.Proof.Gen.Kernel.Launch
import proofs.«113219_j18691697672631_1_alg».proof.Proof.Gen.Kernel.Skeleton
import proofs.«113219_j18691697672631_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The tile's staging buffer holds the tile of the point: it is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The slope row's staging buffer holds the row at every point: it is fetched at the first point, its block index never
    moves, and the body leaves it as it was. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 2000 x 128 tile as a rectangle, and the whole 1 x 128 row. -/
abbrev rTile2 : Rect S2000x128 := Rect.unit (s := S2000x128) ![0, 0] S2000x128.size inb_S2000x128_S2000x128_0_0
abbrev rRow2 : Rect S1x128 := Rect.unit (s := S1x128) ![0, 0] S1x128.size inb_S1x128_S1x128_0_0

/-! ## What the body leaves in the output tile -/

/-- The output tile after the body: its one store, of the rectified tile, over the whole buffer. -/
def out2_2 (x0 : Vec F S2000x128 .f32) (x1 : Vec F S1x128 .f32) : Vec F S2000x128 .f32 :=
  View.canon [⟨rTile2, k2_pay1 (View.ld x0 rTile2) (View.ld x1 rRow2)⟩]

/-- The one store covers the buffer. -/
theorem cover2_2 (p0 : Vec F S2000x128 .f32) (y : S2000x128.Idx) :
    ∃ pc ∈ ([⟨rTile2, p0⟩] : List (View.Piece (Elt F) S2000x128 .f32)), y ∈ pc.1.set :=
  View.cover_of_tiled [⟨rTile2, p0⟩] S2000x128.size (by rfl) y

/-! ## The body's triple -/

set_option maxHeartbeats 1000000 in
/-- The body on whole staging buffers, the tile's at `x0`, the slope row's at `x1`, the output's at anything, runs to the
    continuation holding the inputs' as they were and the output's at `out2_2 x0 x1`. -/
theorem sound_kernel2 (c : Dev nD) (E : Set ℕ) (i : grid2.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__prelu_kernel i arg1 harg1 arg2 harg2 arg3 harg3) K := by
  simp only [cc2__prelu_kernel_eq_skeleton]; unfold cc2__prelu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this region on core `c`: the arrays as the region finds them; after the body at point `t` the tile's
    and the slope row's buffers at their blocks and the output's at the rectified tile; the invariant the scoped buffers
    no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Linear3.lean ====
/-
  Region 3 of the kernel program: the first linear layer of the second encoder, on one tile of 2000 rows.
  At a grid point the body reads the tile `x` (2000 x 128), the weights `W` (128 x 128) and the bias row `b` (1 x 128) and
  overwrites the output tile with `x W + b`: entry (p, q) is the sum over k of x(p, k) W(k, q), plus b(q). It keeps nothing
  between points; the weights and the bias are fetched once and stay where they are.

  Stated here for any contents `V` of the core's buffers on entry: what each window's staging buffer holds when the body
  runs, what the one store leaves in the output buffer, that the body run from those buffers ends with the inputs untouched
  and the output at that value, and from it the body obligation at every grid point.
-/
import proofs.«113219_j18691697672631_1_alg».proof.Proof.Gen.Kernel.Launch
import proofs.«113219_j18691697672631_1_alg».proof.Proof.Gen.Kernel.Skeleton
import proofs.«113219_j18691697672631_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The tile's staging buffer holds the tile of the point: it is fetched at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weights' staging buffer holds the weights at every point: fetched at the first point, the block index never moves,
    and the body leaves them as they were. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias row's staging buffer holds the row at every point, for the same reason. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 2000 x 128 tile, the whole 128 x 128 weights and the whole 1 x 128 row as rectangles. -/
abbrev rTile3 : Rect S2000x128 := Rect.unit (s := S2000x128) ![0, 0] S2000x128.size inb_S2000x128_S2000x128_0_0
abbrev rMat3 : Rect S128x128 := Rect.unit (s := S128x128) ![0, 0] S128x128.size inb_S128x128_S128x128_0_0
abbrev rRow3 : Rect S1x128 := Rect.unit (s := S1x128) ![0, 0] S1x128.size inb_S1x128_S1x128_0_0

/-! ## What the body leaves in the output tile -/

/-- The output tile after the body: its one store, of the product plus the bias, over the whole buffer. -/
def out3_3 (x0 : Vec F S2000x128 .f32) (x1 : Vec F S128x128 .f32) (x2 : Vec F S1x128 .f32) : Vec F S2000x128 .f32 :=
  View.canon [⟨rTile3, k3_pay1 (View.ld x0 rTile3) (View.ld x1 rMat3) (View.ld x2 rRow3)⟩]

/-- The one store covers the buffer. -/
theorem cover3_3 (p0 : Vec F S2000x128 .f32) (y : S2000x128.Idx) :
    ∃ pc ∈ ([⟨rTile3, p0⟩] : List (View.Piece (Elt F) S2000x128 .f32)), y ∈ pc.1.set :=
  View.cover_of_tiled [⟨rTile3, p0⟩] S2000x128.size (by rfl) y

/-! ## The body's triple -/

set_option maxHeartbeats 1000000 in
/-- The body on whole staging buffers, the tile's at `x0`, the weights' at `x1`, the bias row's at `x2`, the output's at
    anything, runs to the continuation holding the inputs' as they were and the output's at `out3_3 x0 x1 x2`. -/
theorem sound_kernel3 (c : Dev nD) (E : Set ℕ) (i : grid3.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this region on core `c`: the arrays as the region finds them; after the body at point `t` each
    input's buffer at its block and the output's at the product plus the bias; the invariant the scoped buffers no window
    stages and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.PreluLinear4.lean ====
/-
  Region 4 of the kernel program: the first rectifier and the second linear layer of the second encoder, on
  one tile of 2000 rows.
  At a grid point the body reads the tile `c` (2000 x 128), the slope row `alpha` (1 x 128), the weights `W` (128 x 128)
  and the bias row `b` (1 x 128). It rectifies the tile entry by entry, `a = c` where `c >= 0` and `alpha * c` elsewhere, and
  overwrites the output tile with `a W + b`: entry (p, q) is the sum over k of a(p, k) W(k, q), plus b(q). It keeps
  nothing between points; the slope row, the weights and the bias are fetched once and stay where they are.

  Stated here for any contents `V` of the core's buffers on entry: what each window's staging buffer holds when the body
  runs, what the one store leaves in the output buffer, that the body run from those buffers ends with the inputs untouched
  and the output at that value, and from it the body obligation at every grid point.
-/
import proofs.«113219_j18691697672631_1_alg».proof.Proof.Gen.Kernel.Launch
import proofs.«113219_j18691697672631_1_alg».proof.Proof.Gen.Kernel.Skeleton
import proofs.«113219_j18691697672631_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The tile's staging buffer holds the tile of the point: it is fetched at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The slope row's staging buffer holds the row at every point: fetched at the first point, the block index never moves,
    and the body leaves it as it was. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The weights' staging buffer holds the weights at every point, for the same reason. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The bias row's staging buffer holds the row at every point, for the same reason. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 2000 x 128 tile, the whole 128 x 128 weights and the whole 1 x 128 row as rectangles. -/
abbrev rTile4 : Rect S2000x128 := Rect.unit (s := S2000x128) ![0, 0] S2000x128.size inb_S2000x128_S2000x128_0_0
abbrev rMat4 : Rect S128x128 := Rect.unit (s := S128x128) ![0, 0] S128x128.size inb_S128x128_S128x128_0_0
abbrev rRow4 : Rect S1x128 := Rect.unit (s := S1x128) ![0, 0] S1x128.size inb_S1x128_S1x128_0_0

/-! ## What the body leaves in the output tile -/

/-- The output tile after the body: its one store, of the rectified tile's product with the weights plus the bias, over the
    whole buffer. -/
def out4_4 (x0 : Vec F S2000x128 .f32) (x1 : Vec F S1x128 .f32) (x2 : Vec F S128x128 .f32) (x3 : Vec F S1x128 .f32) :
    Vec F S2000x128 .f32 :=
  View.canon [⟨rTile4, k4_pay1 (View.ld x0 rTile4) (View.ld x1 rRow4) (View.ld x2 rMat4) (View.ld x3 rRow4)⟩]

/-- The one store covers the buffer. -/
theorem cover4_4 (p0 : Vec F S2000x128 .f32) (y : S2000x128.Idx) :
    ∃ pc ∈ ([⟨rTile4, p0⟩] : List (View.Piece (Elt F) S2000x128 .f32)), y ∈ pc.1.set :=
  View.cover_of_tiled [⟨rTile4, p0⟩] S2000x128.size (by rfl) y

/-! ## The body's triple -/

set_option maxHeartbeats 1000000 in
/-- The body on whole staging buffers, the tile's at `x0`, the slope row's at `x1`, the weights' at `x2`, the bias row's at
    `x3`, the output's at anything, runs to the continuation holding the inputs' as they were and the output's at
    `out4_4 x0 x1 x2 x3`. -/
theorem sound_kernel4 (c : Dev nD) (E : Set ℕ) (i : grid4.Coords)
    (arg1 : Memref sig .tc .vmem S2000x128 .f32) (harg1 : arg1.IsWhole) (arg2 : Memref sig .tc .vmem S1x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S1x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out4_4 x0 x1 x2 x3)) -∗ K ⟨⟩))
      ⊢ wp frame (wpE (defs₀ (F := F)) Variants.none c none) E
          (cc4__prelu_linear_kernel i arg1 harg1 arg2 harg2 arg3 harg3 arg4 harg4 arg5 harg5) K := by
  simp only [cc4__prelu_linear_kernel_eq_skeleton]; unfold cc4__prelu_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of this region on core `c`: the arrays as the region finds them; after the body at point `t` each
    input's buffer at its block and the output's at the rectified tile's product with the weights plus the bias; the
    invariant the scoped buffers no window stages and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' buffers hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Prelu5.lean ====
/-
  Region 5 of the kernel program: the second rectifier of the second encoder, on one tile of 2000 rows.
  At a grid point the body reads the tile `c` (2000 x 128) and the slope row `alpha` (1 x 128) and overwrites the
  output tile with `c` where `c >= 0` and `alpha * c` elsewhere, entry by entry. It keeps nothing between points.

  Stated here for any contents `V` of the core's buffers on entry: what each window's staging buffer holds when
  the body runs (the window's block of its array, whether it was fetched at this point or at an earlier one with the
  same block index), what the one store leaves in the output buffer, and that the body run from those buffers ends
  with the inputs untouched and the output at that value.
-/
import proofs.«113219_j18691697672631_1_alg».proof.Proof.Gen.Kernel.Launch
import proofs.«113219_j18691697672631_1_alg».proof.Proof.Gen.Kernel.Skeleton
import proofs.«113219_j18691697672631_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The tile's staging buffer holds the tile of the point: it is fetched at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The slope row's staging buffer holds the row at every point: it is fetched at the first point, its block index never
    moves, and the body leaves it as it was. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 2000 x 128 tile as a rectangle, and the whole 1 x 128 row. -/
abbrev rTile5 : Rect S2000x128 := Rect.unit (s := S2000x128) ![0, 0] S2000x128.size inb_S2000x128_S2000x128_0_0
abbrev rRow5 : Rect S1x128 := Rect.unit (s := S1x128) ![0, 0] S1x128.size inb_S1x128_S1x128_0_0

/-! ## What the body leaves in the output tile -/

/-- The output tile after the body: its one store, of the rectified tile, over the whole buffer. -/
def out5_2 (x0 : Vec F S2000x128 .f32) (x1 : Vec F S1x128 .f32) : Vec F S2000x128 .f32 :=
  View.canon [⟨rTile5, k5_pay1 (View.ld x0 rTile5) (View.ld x1 rRow5)⟩]

/-- The one store covers the buffer. -/
theorem cover5_2 (p0 : Vec F S2000x128 .f32) (y : S2000x128.Idx) :
    ∃ pc ∈ ([⟨rTile5, p0⟩] : List (View.Piece (Elt F) S2000x128 .f32)), y ∈ pc.1.set :=
  View.cover_of_tiled [⟨rTile5, p0⟩] S2000x128.size (by rfl) y

/-! ## The body's triple -/

set_option maxHeartbeats 1000000 in
/-- The body on whole staging buffers, the tile's at `x0`, the slope row's at `x1`, the output's at anything, runs to the
    continuation holding the inputs' as they were and the output's at `out5_2 x0 x1`. -/
theorem sound_kernel5 (c : Dev nD) (E : Set ℕ) (i : grid5.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__prelu_kernel i arg1 harg1 arg2 harg2 arg3 harg3) K := by
  simp only [cc5__prelu_kernel_eq_skeleton]; unfold cc5__prelu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of this region on core `c`: the arrays as the region finds them; after the body at point `t` the tile's
    and the slope row's buffers at their blocks and the output's at the rectified tile; the invariant the scoped buffers
    no window stages and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Pool6Runs.lean ====
/-
  Region 6 of the kernel program: the pooled projection of the first view, over 25 tiles of 2000 rows.
  The body keeps a 1 x 128 accumulator in a scratch buffer across the grid points: at the first point it sets the
  accumulator to zero; at every point it adds the column sums of the point's tile to it; at the last point it multiplies
  the accumulated column sums by 1/50000 (the mean over the 50000 rows), applies the logistic function entry by entry,
  multiplies the resulting row by the 128 x 128 projection matrix, adds the bias row, and stores the 1 x 128 result.

  This module runs the body in its three control cases — the first point, a middle point, the last point — from whole
  staging buffers: which buffers it needs at what contents, and the pieces its stores leave in the accumulator and, at the
  last point, in the output row.
-/
import proofs.«113219_j18691697672631_1_alg».proof.Proof.Gen.Kernel.Launch
import proofs.«113219_j18691697672631_1_alg».proof.Proof.Gen.Kernel.Skeleton
import proofs.«113219_j18691697672631_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, over the grid -/

/-- The first branch (set the accumulator to zero) is taken where the grid coordinate is 0, -/
abbrev cond6_1 (i : grid6.Coords) : Prop := (Scalar.cmpi .ne (Scalar.extui (Scalar.cmpi .eq (BitVec.ofNat 32 (i 0).val) 0#32)) 0#32) = 1#1
theorem hcond6_1 : ∀ t : Fin cfg6.N, cond6_1 (grid6.coords t) ↔ t.val = 0 :=
  (by decide +kernel : ∀ t : Fin grid6.N, cond6_1 (grid6.coords t) ↔ t.val = 0)
/-- and the second (finish and store the result) where it is 24, the last of the 25 points. -/
abbrev cond6_2 (i : grid6.Coords) : Prop := k6_cond2 i = 1#1
theorem hcond6_2 : ∀ t : Fin cfg6.N, cond6_2 (grid6.coords t) ↔ t.val = 24 :=
  (by decide +kernel : ∀ t : Fin grid6.N, cond6_2 (grid6.coords t) ↔ t.val = 24)

/-! ## The body in its three cases -/

set_option maxHeartbeats 1000000 in
/-- THE FIRST POINT. From the tile at `x0` and the accumulator at anything, the body ends with the tile as it was and the
    accumulator overwritten twice: by zero, then by zero plus the tile's column sums. The pieces are what the run finds. -/
noncomputable def kernelRun6_A (c : Dev nD) (i : grid6.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc1 : cond6_1 i) (hc2 : ¬cond6_2 i)
    (x0 : Vec F S2000x128 .f32) :
    { L5 : List (View.Piece (Elt F) S1x128 .f32) //
      ∀ (E : Set ℕ) (K : PUnit → sProp 𝕄),
        iprop(owns (c : Thread nD τ) arg1 fullShare x0 ∗ (∃ d, owns (c : Thread nD τ) arg5 fullShare d)
            ∗ (iprop(owns (c : Thread nD τ) arg1 fullShare x0 ∗ (∃ f, arg5.view.loc (c : Thread nD τ) ↦[arg5.view.set]{fullShare} arg5.view.writes (Elt F) f L5)) -∗ K ⟨⟩))
          ⊢ wp frame (wpE (defs₀ (F := F)) Variants.none c none) E (cc6__pool_project_kernel i arg1 harg1 arg2 harg2 arg3 harg3 arg4 harg4 arg5 harg5) K } := by
  refine ⟨?_, fun E K => ?run⟩
  case run =>
    simp only [cc6__pool_project_kernel_eq_skeleton]; unfold cc6__pool_project_kernel_skel
    unfold owns
    iintro ⟨⟨%f0, %hf0, H0⟩, ⟨%d5, %f5, -, H5⟩, Hk⟩
    obtain rfl := harg1.eq_unread hf0
    sl_exec (disch := first | exact hc1 | exact hc2)
    sl_step
    iapply Hk
    isplitl [H0]
    · iexists _; isplitr; · ipureintro; exact harg1.read_unread _
      iexact H0
    iexists _; iexact H5

set_option maxHeartbeats 1000000 in
/-- A MIDDLE POINT. From the tile at `x0` and the accumulator at `s`, the body ends with the tile as it was and the
    accumulator overwritten by `s` plus the tile's column sums. -/
noncomputable def kernelRun6_B (c : Dev nD) (i : grid6.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc1 : ¬cond6_1 i) (hc2 : ¬cond6_2 i)
    (x0 : Vec F S2000x128 .f32) (s : Vec F S1x128 .f32) :
    { L5 : List (View.Piece (Elt F) S1x128 .f32) //
      ∀ (E : Set ℕ) (K : PUnit → sProp 𝕄),
        iprop(owns (c : Thread nD τ) arg1 fullShare x0 ∗ owns (c : Thread nD τ) arg5 fullShare s
            ∗ (iprop(owns (c : Thread nD τ) arg1 fullShare x0 ∗ (∃ f, arg5.view.loc (c : Thread nD τ) ↦[arg5.view.set]{fullShare} arg5.view.writes (Elt F) f L5)) -∗ K ⟨⟩))
          ⊢ wp frame (wpE (defs₀ (F := F)) Variants.none c none) E (cc6__pool_project_kernel i arg1 harg1 arg2 harg2 arg3 harg3 arg4 harg4 arg5 harg5) K } := by
  refine ⟨?_, fun E K => ?run⟩
  case run =>
    simp only [cc6__pool_project_kernel_eq_skeleton]; unfold cc6__pool_project_kernel_skel
    unfold owns
    iintro ⟨⟨%f0, %hf0, H0⟩, ⟨%f5, %hf5, H5⟩, Hk⟩
    obtain rfl := harg1.eq_unread hf0; obtain rfl := harg5.eq_unread hf5
    sl_exec (disch := first | exact hc1 | exact hc2)
    sl_step
    iapply Hk
    isplitl [H0]
    · iexists _; isplitr; · ipureintro; exact harg1.read_unread _
      iexact H0
    iexists _; iexact H5

set_option maxHeartbeats 1000000 in
/-- THE LAST POINT. From the tile at `x0`, the projection matrix at `x1`, the bias row at `x2`, the output row at anything
    and the accumulator at `s`, the body ends with the inputs as they were, the accumulator overwritten by `s` plus the
    tile's column sums, and the output row overwritten by the projected logistic of the mean. -/
noncomputable def kernelRun6_C (c : Dev nD) (i : grid6.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc1 : ¬cond6_1 i) (hc2 : cond6_2 i)
    (x0 : Vec F S2000x128 .f32) (x1 : Vec F S128x128 .f32) (x2 : Vec F S1x128 .f32) (s : Vec F S1x128 .f32) :
    { L : List (View.Piece (Elt F) S1x128 .f32) × List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare s
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc6__pool_project_kernel i arg1 harg1 arg2 harg2 arg3 harg3 arg4 harg4 arg5 harg5) K } := by
  refine ⟨⟨?_, ?_⟩, fun E K => ?run⟩
  case run =>
    simp only [cc6__pool_project_kernel_eq_skeleton]; unfold cc6__pool_project_kernel_skel
    unfold owns
    iintro ⟨⟨%f0, %hf0, H0⟩, ⟨%f1, %hf1, H1⟩, ⟨%f2, %hf2, H2⟩, ⟨%d4, %f4, -, H4⟩, ⟨%f5, %hf5, H5⟩, Hk⟩
    obtain rfl := harg1.eq_unread hf0; obtain rfl := harg2.eq_unread hf1; obtain rfl := harg3.eq_unread hf2; obtain rfl := harg5.eq_unread hf5
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; iexact H4
    iexists _; iexact H5

end Cert.Kernel.Hand

end
-- ==== Proof.K.Pool6.lean ====
/-
  Region 6 of the kernel program, continued: the accumulator point by point, the proof data of the region, and the
  body's run at every grid point.

  After point n the accumulator holds the column sums of tiles 0 … n (a recursion over the points: zero plus the first
  tile's sums, then each tile's sums on top of what the point before left). The region's invariant holds the accumulator at
  that value from point to point beside the scoped buffers the region never touches. The output row is stored at the last
  point only; at every other point its staging buffer goes back as it came.
-/
import proofs.«113219_j18691697672631_1_alg».proof.Proof.K.Pool6Runs
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The tile's staging buffer holds the tile of the point; the projection matrix's and the bias row's hold the matrix and the
    row at every point (fetched at the first point, the block index never moves, the body leaves them as they were). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The memrefs the body is called with -/

/-- The accumulator: the whole scratch buffer; and the view through which 1 x 128 contents are stated. -/
abbrev scr6 : Memref sig .tc .vmem S1x128 .f32 := Memref.whole cc6_scratch0
abbrev hscr6 : (scr6).IsWhole := Memref.isWhole_whole _
abbrev VS6 : View sig .tc .vmem S1x128 .f32 := (scr6).view
/-- Each window's current staging memref at point `t`, and its wholeness. -/
abbrev ms6_0 (t : Fin cfg6.N) : Memref sig .tc .vmem S2000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)

/-- The three cases' runs at point `t`'s memrefs. -/
abbrev runA6 (c : Dev nD) (t : Fin cfg6.N) (h1 : cond6_1 (grid6.coords t)) (h2 : ¬cond6_2 (grid6.coords t)) (x0 : Vec F S2000x128 .f32) :=
  kernelRun6_A (F := F) c (grid6.coords t) (ms6_0 t) (hs6_0 t) (ms6_1 t) (hs6_1 t) (ms6_2 t) (hs6_2 t) (ms6_3 t) (hs6_3 t) scr6 hscr6 h1 h2 x0
abbrev runB6 (c : Dev nD) (t : Fin cfg6.N) (h1 : ¬cond6_1 (grid6.coords t)) (h2 : ¬cond6_2 (grid6.coords t)) (x0 : Vec F S2000x128 .f32) (s : Vec F S1x128 .f32) :=
  kernelRun6_B (F := F) c (grid6.coords t) (ms6_0 t) (hs6_0 t) (ms6_1 t) (hs6_1 t) (ms6_2 t) (hs6_2 t) (ms6_3 t) (hs6_3 t) scr6 hscr6 h1 h2 x0 s
abbrev runC6 (c : Dev nD) (t : Fin cfg6.N) (h1 : ¬cond6_1 (grid6.coords t)) (h2 : cond6_2 (grid6.coords t)) (x0 : Vec F S2000x128 .f32)
    (x1 : Vec F S128x128 .f32) (x2 : Vec F S1x128 .f32) (s : Vec F S1x128 .f32) :=
  kernelRun6_C (F := F) c (grid6.coords t) (ms6_0 t) (hs6_0 t) (ms6_1 t) (hs6_1 t) (ms6_2 t) (hs6_2 t) (ms6_3 t) (hs6_3 t) scr6 hscr6 h1 h2 x0 x1 x2 s

/-- A list of pieces read back over junk: what a covering list of stores leaves, whatever was there. -/
abbrev readBack6 (L : List (View.Piece (Elt F) S1x128 .f32)) : Vec F S1x128 .f32 :=
  VS6.read (Elt F) (VS6.writes (Elt F) VS6.junk L)

/-- Each case's stores cover the buffers they write (one whole-row store last in each). -/
theorem coverA6 (c : Dev nD) (t : Fin cfg6.N) (h1) (h2) (x0 : Vec F S2000x128 .f32) (y : S1x128.Idx) :
    ∃ pc ∈ (runA6 c t h1 h2 x0).1, y ∈ pc.1.set :=
  View.cover_of_tiledL (runA6 c t h1 h2 x0).1 S1x128.size (by sl_kernel_rfl) y
theorem coverB6 (c : Dev nD) (t : Fin cfg6.N) (h1) (h2) (x0 : Vec F S2000x128 .f32) (s : Vec F S1x128 .f32) (y : S1x128.Idx) :
    ∃ pc ∈ (runB6 c t h1 h2 x0 s).1, y ∈ pc.1.set :=
  View.cover_of_tiledL (runB6 c t h1 h2 x0 s).1 S1x128.size (by sl_kernel_rfl) y
theorem coverC6_out (c : Dev nD) (t : Fin cfg6.N) (h1) (h2) (x0 : Vec F S2000x128 .f32) (x1 : Vec F S128x128 .f32) (x2 s : Vec F S1x128 .f32) (y : S1x128.Idx) :
    ∃ pc ∈ (runC6 c t h1 h2 x0 x1 x2 s).1.1, y ∈ pc.1.set :=
  View.cover_of_tiledL (runC6 c t h1 h2 x0 x1 x2 s).1.1 S1x128.size (by sl_kernel_rfl) y
theorem coverC6_scr (c : Dev nD) (t : Fin cfg6.N) (h1) (h2) (x0 : Vec F S2000x128 .f32) (x1 : Vec F S128x128 .f32) (x2 s : Vec F S1x128 .f32) (y : S1x128.Idx) :
    ∃ pc ∈ (runC6 c t h1 h2 x0 x1 x2 s).1.2, y ∈ pc.1.set :=
  View.cover_of_tiledL (runC6 c t h1 h2 x0 x1 x2 s).1.2 S1x128.size (by sl_kernel_rfl) y

/-! ## The accumulator after each point -/

/-- THE ACCUMULATION. What the accumulator holds after the body at point `n`: at the first point what the first case
    leaves; at a later point what that point's case leaves over what the point before left. -/
def sAt6 (c : Dev nD) : (n : ℕ) → n < cfg6.N → Vec F S1x128 .f32
  | 0, hn => readBack6 (runA6 c ⟨0, hn⟩ ((hcond6_1 ⟨0, hn⟩).mpr rfl)
      (fun h => absurd (show (0 : ℕ) = 24 from (hcond6_2 ⟨0, hn⟩).mp h) (by decide)) (iblk6 V c 0 ⟨0, hn⟩)).1
  | n + 1, hn =>
    if h24 : n + 1 = 24 then
      readBack6 (runC6 c ⟨n + 1, hn⟩ (fun h => absurd (show n + 1 = 0 from (hcond6_1 ⟨n + 1, hn⟩).mp h) (Nat.succ_ne_zero n))
        ((hcond6_2 ⟨n + 1, hn⟩).mpr h24) (iblk6 V c 0 ⟨n + 1, hn⟩) (iblk6 V c 1 ⟨n + 1, hn⟩) (iblk6 V c 2 ⟨n + 1, hn⟩)
        (sAt6 c n (Nat.lt_of_succ_lt hn))).1.2
    else
      readBack6 (runB6 c ⟨n + 1, hn⟩ (fun h => absurd (show n + 1 = 0 from (hcond6_1 ⟨n + 1, hn⟩).mp h) (Nat.succ_ne_zero n))
        (fun h => h24 ((hcond6_2 ⟨n + 1, hn⟩).mp h)) (iblk6 V c 0 ⟨n + 1, hn⟩) (sAt6 c n (Nat.lt_of_succ_lt hn))).1

/-- What the last point stores in the output row (junk at any other point: the row is not stored there). -/
def outAt6 (c : Dev nD) : (n : ℕ) → n < cfg6.N → Vec F S1x128 .f32
  | 0, _ => VS6.read (Elt F) VS6.junk
  | n + 1, hn =>
    if h24 : n + 1 = 24 then
      readBack6 (runC6 c ⟨n + 1, hn⟩ (fun h => absurd (show n + 1 = 0 from (hcond6_1 ⟨n + 1, hn⟩).mp h) (Nat.succ_ne_zero n))
        ((hcond6_2 ⟨n + 1, hn⟩).mpr h24) (iblk6 V c 0 ⟨n + 1, hn⟩) (iblk6 V c 1 ⟨n + 1, hn⟩) (iblk6 V c 2 ⟨n + 1, hn⟩)
        (sAt6 V c n (Nat.lt_of_succ_lt hn))).1.1
    else VS6.read (Elt F) VS6.junk

/-- The accumulator as the invariant holds it before point `n`: at anything before the first point, at what the point before
    left otherwise. -/
def scrState6 (c : Dev nD) : (n : ℕ) → n ≤ cfg6.N → sProp 𝕄
  | 0, _ => iprop(∃ d, owns (c : Thread nD τ) scr6 fullShare d)
  | n + 1, h => owns (c : Thread nD τ) scr6 fullShare (sAt6 V c n (Nat.lt_of_succ_le h))

/-- The two equations of `scrState6`. -/
theorem scrState6_zero (c : Dev nD) (h : 0 ≤ cfg6.N) : scrState6 V c 0 h = iprop(∃ d, owns (c : Thread nD τ) scr6 fullShare d) := rfl
theorem scrState6_succ (c : Dev nD) (n : ℕ) (h : n + 1 ≤ cfg6.N) :
    scrState6 V c (n + 1) h = owns (c : Thread nD τ) scr6 fullShare (sAt6 V c n (Nat.lt_of_succ_le h)) := rfl

/-! ## The pipeline's proof data -/

/-- The proof data of this region on core `c`: the arrays as the region finds them; after the body at point `t` each input's
    buffer at its block and the output row's at what the last point stores; the invariant: the accumulator at the running
    column sums, the other scoped buffers no window stages, and the generator register; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => outAt6 V c t.val t.isLt
  Φ t := iprop(scrState6 V c t.val (Nat.le_of_lt_succ t.isLt)
    ∗ Pipeline.scopedRestBut (Ix := Unit) (Name := ℕ) (U := UR sig nD τ) (Lvl := ℕ) (Val := Elt F) spec6 c [cc6_scratch0]
    ∗ ∃ r, prngReg c r)
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = outAt6 V c t.val t.isLt := by dsimp only [dat6]
theorem Φ6_eq (c : Dev nD) (t : Fin (cfg6.N + 1)) : (dat6 V c).Φ t = iprop(scrState6 V c t.val (Nat.le_of_lt_succ t.isLt)
    ∗ Pipeline.scopedRestBut (Ix := Unit) (Name := ℕ) (U := UR sig nD τ) (Lvl := ℕ) (Val := Elt F) spec6 c [cc6_scratch0]
    ∗ ∃ r, prngReg c r) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation -/

/-- The output row's window is idle except at the last point, and is written back at the last point only. -/
theorem hidle6 : ∀ t : Fin cfg6.N, cfg6.idle 3 (cfg6.grid.coords t) = !decide (t.val = 24) :=
  (by decide +kernel : ∀ t : Fin grid6.N, idle6 3 (grid6.coords t) = !decide (t.val = 24))
theorem hflush6 : ∀ t : Fin cfg6.N, (cfg6.win 3).flush t = decide (t.val = 24) :=
  (by decide +kernel : ∀ t : Fin grid6.N, win6_3.flush t = decide (t.val = 24))

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns: the output row's buffer as it came at a point that is not the last, at the stored row at the last. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ (match !decide (t.val = 24) with
        | true =>
          match decide (t.val = 24) with
          | false => iprop(∃ d, owns (c : Thread nD τ) (st6_3 t) fullShare ((dat6 V c).before 3 t d))
          | true => owns (c : Thread nD τ) (st6_3 t) fullShare ((dat6 V c).after 3 t)
        | false => owns (c : Thread nD τ) (st6_3 t) fullShare ((dat6 V c).after 3 t)))

set_option maxHeartbeats 1600000 in
/-- The body at any point, by the point's case. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl,
    after6_0, after6_1, after6_2, after6_3, Φ6_eq, Φ6_eq]
  obtain ⟨n, hn⟩ := t
  rcases n with _ | n
  · -- the first point
    have h24 : ¬ ((0 : ℕ) = 24) := by decide
    simp only [h24, decide_false, Bool.not_false]
    show iprop(iprop(scrState6 V c 0 _ ∗ _ ∗ _) ∗ _) ⊢ wp _ _ _ _ (fun _ => iprop(iprop(scrState6 V c 1 _ ∗ _ ∗ _) ∗ _))
    unfold scrState6 sAt6
    iintro ⟨⟨Hs, Hrest, Hp⟩, Ho, ⟨%d0, H0⟩, ⟨%d1, H1⟩, ⟨%d2, H2⟩, H3⟩
    iapply ((runA6 c ⟨0, hn⟩ ((hcond6_1 ⟨0, hn⟩).mpr rfl)
      (fun h => absurd (show (0 : ℕ) = 24 from (hcond6_2 ⟨0, hn⟩).mp h) (by decide)) (iblk6 V c 0 ⟨0, hn⟩)).2 Set.univ _)
    isplitl [H0]; · iexact H0
    isplitl [Hs]; · iexact Hs
    iintro ⟨H0, ⟨%e5, H5⟩⟩
    isplitl [H5 Hrest Hp]
    · isplitl [H5]
      · unfold owns; iexists _; isplitr
        swap; · iexact H5
        ipureintro; exact View.read_writes_of_cover _ _ _ _ _ (coverA6 c _ _ _ _)
      isplitl [Hrest]; · iexact Hrest
      iexact Hp
    isplitl [Ho]; · iexact Ho
    isplitl [H0]; · iexact H0
    isplitl [H1]; · iexact H1
    isplitl [H2]; · iexact H2
    iexact H3
  · by_cases h24 : n + 1 = 24
    · -- the last point
      have hd : decide ((⟨n + 1, hn⟩ : Fin cfg6.N).val = 24) = true := decide_eq_true h24
      simp only [hd, Bool.not_true]
      show iprop(iprop(scrState6 V c (n + 1) _ ∗ _ ∗ _) ∗ _) ⊢ wp _ _ _ _ (fun _ => iprop(iprop(scrState6 V c (n + 1 + 1) _ ∗ _ ∗ _) ∗ _))
      rw [scrState6_succ, scrState6_succ, sAt6, outAt6]
      simp only [dif_pos h24]
      iintro ⟨⟨Hs, Hrest, Hp⟩, Ho, ⟨%d0, H0⟩, ⟨%d1, H1⟩, ⟨%d2, H2⟩, ⟨%d3, H3⟩⟩
      iapply ((runC6 c ⟨n + 1, hn⟩ (fun h => absurd (show n + 1 = 0 from (hcond6_1 ⟨n + 1, hn⟩).mp h) (Nat.succ_ne_zero n))
        ((hcond6_2 ⟨n + 1, hn⟩).mpr h24) (iblk6 V c 0 ⟨n + 1, hn⟩) (iblk6 V c 1 ⟨n + 1, hn⟩) (iblk6 V c 2 ⟨n + 1, hn⟩)
        (sAt6 V c n (Nat.lt_of_succ_lt hn))).2 Set.univ _)
      isplitl [H0]; · iexact H0
      isplitl [H1]; · iexact H1
      isplitl [H2]; · iexact H2
      isplitl [H3]; · iexists _; iexact H3
      isplitl [Hs]; · iexact Hs
      iintro ⟨H0, H1, H2, ⟨%e4, H4⟩, ⟨%e5, H5⟩⟩
      isplitl [H5 Hrest Hp]
      · isplitl [H5]
        · unfold owns; iexists _; isplitr
          swap; · iexact H5
          ipureintro; exact View.read_writes_of_cover _ _ _ _ _ (coverC6_scr c _ _ _ _ _ _ _)
        isplitl [Hrest]; · iexact Hrest
        iexact Hp
      isplitl [Ho]; · iexact Ho
      isplitl [H0]; · iexact H0
      isplitl [H1]; · iexact H1
      isplitl [H2]; · iexact H2
      unfold owns; iexists _; isplitr
      swap; · iexact H4
      ipureintro; exact View.read_writes_of_cover _ _ _ _ _ (coverC6_out c _ _ _ _ _ _ _)
    · -- a middle point
      have hd : decide ((⟨n + 1, hn⟩ : Fin cfg6.N).val = 24) = false := decide_eq_false h24
      simp only [hd, Bool.not_false]
      show iprop(iprop(scrState6 V c (n + 1) _ ∗ _ ∗ _) ∗ _) ⊢ wp _ _ _ _ (fun _ => iprop(iprop(scrState6 V c (n + 1 + 1) _ ∗ _ ∗ _) ∗ _))
      rw [scrState6_succ, scrState6_succ, sAt6]
      simp only [dif_neg h24]
      iintro ⟨⟨Hs, Hrest, Hp⟩, Ho, ⟨%d0, H0⟩, ⟨%d1, H1⟩, ⟨%d2, H2⟩, H3⟩
      iapply ((runB6 c ⟨n + 1, hn⟩ (fun h => absurd (show n + 1 = 0 from (hcond6_1 ⟨n + 1, hn⟩).mp h) (Nat.succ_ne_zero n))
        (fun h => h24 ((hcond6_2 ⟨n + 1, hn⟩).mp h)) (iblk6 V c 0 ⟨n + 1, hn⟩) (sAt6 V c n (Nat.lt_of_succ_lt hn))).2 Set.univ _)
      isplitl [H0]; · iexact H0
      isplitl [Hs]; · iexact Hs
      iintro ⟨H0, ⟨%e5, H5⟩⟩
      isplitl [H5 Hrest Hp]
      · isplitl [H5]
        · unfold owns; iexists _; isplitr
          swap; · iexact H5
          ipureintro; exact View.read_writes_of_cover _ _ _ _ _ (coverB6 c _ _ _ _ _)
        isplitl [Hrest]; · iexact Hrest
        iexact Hp
      isplitl [Ho]; · iexact Ho
      isplitl [H0]; · iexact H0
      isplitl [H1]; · iexact H1
      isplitl [H2]; · iexact H2
      iexact H3

/-- The library's body obligation, at every point: the output row's window reduced by its idle points and its one
    write-back. -/
theorem body_obligation6 (c : Dev nD) : BodyObligation (dat6 (F := F) V c) (defs₀ (F := F)) Variants.none () Set.univ := fun t => by
  rw [bigSep_W6, bigSep_W6]
  have h := sound_body6 V c t
  unfold bodyPre6 bodyPost6 at h
  rw [← hidle6 t, ← hflush6 t] at h
  exact h

end Cert.Kernel.Hand

end
-- ==== Proof.K.Pool7Runs.lean ====
/-
  Region 7 of the kernel program: the pooled projection of the second view, over 25 tiles of 2000 rows.
  The body keeps a 1 x 128 accumulator in a scratch buffer across the grid points: at the first point it sets the
  accumulator to zero; at every point it adds the column sums of the point's tile to it; at the last point it multiplies
  the accumulated column sums by 1/50000 (the mean over the 50000 rows), applies the logistic function entry by entry,
  multiplies the resulting row by the 128 x 128 projection matrix, adds the bias row, and stores the 1 x 128 result.

  This module runs the body in its three control cases — the first point, a middle point, the last point — from whole
  staging buffers: which buffers it needs at what contents, and the pieces its stores leave in the accumulator and, at the
  last point, in the output row.
-/
import proofs.«113219_j18691697672631_1_alg».proof.Proof.Gen.Kernel.Launch
import proofs.«113219_j18691697672631_1_alg».proof.Proof.Gen.Kernel.Skeleton
import proofs.«113219_j18691697672631_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, over the grid -/

/-- The first branch (set the accumulator to zero) is taken where the grid coordinate is 0, -/
abbrev cond7_1 (i : grid7.Coords) : Prop := (Scalar.cmpi .ne (Scalar.extui (Scalar.cmpi .eq (BitVec.ofNat 32 (i 0).val) 0#32)) 0#32) = 1#1
theorem hcond7_1 : ∀ t : Fin cfg7.N, cond7_1 (grid7.coords t) ↔ t.val = 0 :=
  (by decide +kernel : ∀ t : Fin grid7.N, cond7_1 (grid7.coords t) ↔ t.val = 0)
/-- and the second (finish and store the result) where it is 24, the last of the 25 points. -/
abbrev cond7_2 (i : grid7.Coords) : Prop := k7_cond2 i = 1#1
theorem hcond7_2 : ∀ t : Fin cfg7.N, cond7_2 (grid7.coords t) ↔ t.val = 24 :=
  (by decide +kernel : ∀ t : Fin grid7.N, cond7_2 (grid7.coords t) ↔ t.val = 24)

/-! ## The body in its three cases -/

set_option maxHeartbeats 1000000 in
/-- THE FIRST POINT. From the tile at `x0` and the accumulator at anything, the body ends with the tile as it was and the
    accumulator overwritten twice: by zero, then by zero plus the tile's column sums. The pieces are what the run finds. -/
noncomputable def kernelRun7_A (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc1 : cond7_1 i) (hc2 : ¬cond7_2 i)
    (x0 : Vec F S2000x128 .f32) :
    { L5 : List (View.Piece (Elt F) S1x128 .f32) //
      ∀ (E : Set ℕ) (K : PUnit → sProp 𝕄),
        iprop(owns (c : Thread nD τ) arg1 fullShare x0 ∗ (∃ d, owns (c : Thread nD τ) arg5 fullShare d)
            ∗ (iprop(owns (c : Thread nD τ) arg1 fullShare x0 ∗ (∃ f, arg5.view.loc (c : Thread nD τ) ↦[arg5.view.set]{fullShare} arg5.view.writes (Elt F) f L5)) -∗ K ⟨⟩))
          ⊢ wp frame (wpE (defs₀ (F := F)) Variants.none c none) E (cc7__pool_project_kernel i arg1 harg1 arg2 harg2 arg3 harg3 arg4 harg4 arg5 harg5) K } := by
  refine ⟨?_, fun E K => ?run⟩
  case run =>
    simp only [cc7__pool_project_kernel_eq_skeleton]; unfold cc7__pool_project_kernel_skel
    unfold owns
    iintro ⟨⟨%f0, %hf0, H0⟩, ⟨%d5, %f5, -, H5⟩, Hk⟩
    obtain rfl := harg1.eq_unread hf0
    sl_exec (disch := first | exact hc1 | exact hc2)
    sl_step
    iapply Hk
    isplitl [H0]
    · iexists _; isplitr; · ipureintro; exact harg1.read_unread _
      iexact H0
    iexists _; iexact H5

set_option maxHeartbeats 1000000 in
/-- A MIDDLE POINT. From the tile at `x0` and the accumulator at `s`, the body ends with the tile as it was and the
    accumulator overwritten by `s` plus the tile's column sums. -/
noncomputable def kernelRun7_B (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc1 : ¬cond7_1 i) (hc2 : ¬cond7_2 i)
    (x0 : Vec F S2000x128 .f32) (s : Vec F S1x128 .f32) :
    { L5 : List (View.Piece (Elt F) S1x128 .f32) //
      ∀ (E : Set ℕ) (K : PUnit → sProp 𝕄),
        iprop(owns (c : Thread nD τ) arg1 fullShare x0 ∗ owns (c : Thread nD τ) arg5 fullShare s
            ∗ (iprop(owns (c : Thread nD τ) arg1 fullShare x0 ∗ (∃ f, arg5.view.loc (c : Thread nD τ) ↦[arg5.view.set]{fullShare} arg5.view.writes (Elt F) f L5)) -∗ K ⟨⟩))
          ⊢ wp frame (wpE (defs₀ (F := F)) Variants.none c none) E (cc7__pool_project_kernel i arg1 harg1 arg2 harg2 arg3 harg3 arg4 harg4 arg5 harg5) K } := by
  refine ⟨?_, fun E K => ?run⟩
  case run =>
    simp only [cc7__pool_project_kernel_eq_skeleton]; unfold cc7__pool_project_kernel_skel
    unfold owns
    iintro ⟨⟨%f0, %hf0, H0⟩, ⟨%f5, %hf5, H5⟩, Hk⟩
    obtain rfl := harg1.eq_unread hf0; obtain rfl := harg5.eq_unread hf5
    sl_exec (disch := first | exact hc1 | exact hc2)
    sl_step
    iapply Hk
    isplitl [H0]
    · iexists _; isplitr; · ipureintro; exact harg1.read_unread _
      iexact H0
    iexists _; iexact H5

set_option maxHeartbeats 1000000 in
/-- THE LAST POINT. From the tile at `x0`, the projection matrix at `x1`, the bias row at `x2`, the output row at anything
    and the accumulator at `s`, the body ends with the inputs as they were, the accumulator overwritten by `s` plus the
    tile's column sums, and the output row overwritten by the projected logistic of the mean. -/
noncomputable def kernelRun7_C (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc1 : ¬cond7_1 i) (hc2 : cond7_2 i)
    (x0 : Vec F S2000x128 .f32) (x1 : Vec F S128x128 .f32) (x2 : Vec F S1x128 .f32) (s : Vec F S1x128 .f32) :
    { L : List (View.Piece (Elt F) S1x128 .f32) × List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare s
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc7__pool_project_kernel i arg1 harg1 arg2 harg2 arg3 harg3 arg4 harg4 arg5 harg5) K } := by
  refine ⟨⟨?_, ?_⟩, fun E K => ?run⟩
  case run =>
    simp only [cc7__pool_project_kernel_eq_skeleton]; unfold cc7__pool_project_kernel_skel
    unfold owns
    iintro ⟨⟨%f0, %hf0, H0⟩, ⟨%f1, %hf1, H1⟩, ⟨%f2, %hf2, H2⟩, ⟨%d4, %f4, -, H4⟩, ⟨%f5, %hf5, H5⟩, Hk⟩
    obtain rfl := harg1.eq_unread hf0; obtain rfl := harg2.eq_unread hf1; obtain rfl := harg3.eq_unread hf2; obtain rfl := harg5.eq_unread hf5
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; iexact H4
    iexists _; iexact H5

end Cert.Kernel.Hand

end
-- ==== Proof.K.Pool7.lean ====
/-
  Region 7 of the kernel program, continued: the accumulator point by point, the proof data of the region, and the
  body's run at every grid point.

  After point n the accumulator holds the column sums of tiles 0 … n (a recursion over the points: zero plus the first
  tile's sums, then each tile's sums on top of what the point before left). The region's invariant holds the accumulator at
  that value from point to point beside the scoped buffers the region never touches. The output row is stored at the last
  point only; at every other point its staging buffer goes back as it came.
-/
import proofs.«113219_j18691697672631_1_alg».proof.Proof.K.Pool7Runs
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The tile's staging buffer holds the tile of the point; the projection matrix's and the bias row's hold the matrix and the
    row at every point (fetched at the first point, the block index never moves, the body leaves them as they were). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The memrefs the body is called with -/

/-- The accumulator: the whole scratch buffer; and the view through which 1 x 128 contents are stated. -/
abbrev scr7 : Memref sig .tc .vmem S1x128 .f32 := Memref.whole cc7_scratch0
abbrev hscr7 : (scr7).IsWhole := Memref.isWhole_whole _
abbrev VS7 : View sig .tc .vmem S1x128 .f32 := (scr7).view
/-- Each window's current staging memref at point `t`, and its wholeness. -/
abbrev ms7_0 (t : Fin cfg7.N) : Memref sig .tc .vmem S2000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S128x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)

/-- The three cases' runs at point `t`'s memrefs. -/
abbrev runA7 (c : Dev nD) (t : Fin cfg7.N) (h1 : cond7_1 (grid7.coords t)) (h2 : ¬cond7_2 (grid7.coords t)) (x0 : Vec F S2000x128 .f32) :=
  kernelRun7_A (F := F) c (grid7.coords t) (ms7_0 t) (hs7_0 t) (ms7_1 t) (hs7_1 t) (ms7_2 t) (hs7_2 t) (ms7_3 t) (hs7_3 t) scr7 hscr7 h1 h2 x0
abbrev runB7 (c : Dev nD) (t : Fin cfg7.N) (h1 : ¬cond7_1 (grid7.coords t)) (h2 : ¬cond7_2 (grid7.coords t)) (x0 : Vec F S2000x128 .f32) (s : Vec F S1x128 .f32) :=
  kernelRun7_B (F := F) c (grid7.coords t) (ms7_0 t) (hs7_0 t) (ms7_1 t) (hs7_1 t) (ms7_2 t) (hs7_2 t) (ms7_3 t) (hs7_3 t) scr7 hscr7 h1 h2 x0 s
abbrev runC7 (c : Dev nD) (t : Fin cfg7.N) (h1 : ¬cond7_1 (grid7.coords t)) (h2 : cond7_2 (grid7.coords t)) (x0 : Vec F S2000x128 .f32)
    (x1 : Vec F S128x128 .f32) (x2 : Vec F S1x128 .f32) (s : Vec F S1x128 .f32) :=
  kernelRun7_C (F := F) c (grid7.coords t) (ms7_0 t) (hs7_0 t) (ms7_1 t) (hs7_1 t) (ms7_2 t) (hs7_2 t) (ms7_3 t) (hs7_3 t) scr7 hscr7 h1 h2 x0 x1 x2 s

/-- A list of pieces read back over junk: what a covering list of stores leaves, whatever was there. -/
abbrev readBack7 (L : List (View.Piece (Elt F) S1x128 .f32)) : Vec F S1x128 .f32 :=
  VS7.read (Elt F) (VS7.writes (Elt F) VS7.junk L)

/-- Each case's stores cover the buffers they write (one whole-row store last in each). -/
theorem coverA7 (c : Dev nD) (t : Fin cfg7.N) (h1) (h2) (x0 : Vec F S2000x128 .f32) (y : S1x128.Idx) :
    ∃ pc ∈ (runA7 c t h1 h2 x0).1, y ∈ pc.1.set :=
  View.cover_of_tiledL (runA7 c t h1 h2 x0).1 S1x128.size (by sl_kernel_rfl) y
theorem coverB7 (c : Dev nD) (t : Fin cfg7.N) (h1) (h2) (x0 : Vec F S2000x128 .f32) (s : Vec F S1x128 .f32) (y : S1x128.Idx) :
    ∃ pc ∈ (runB7 c t h1 h2 x0 s).1, y ∈ pc.1.set :=
  View.cover_of_tiledL (runB7 c t h1 h2 x0 s).1 S1x128.size (by sl_kernel_rfl) y
theorem coverC7_out (c : Dev nD) (t : Fin cfg7.N) (h1) (h2) (x0 : Vec F S2000x128 .f32) (x1 : Vec F S128x128 .f32) (x2 s : Vec F S1x128 .f32) (y : S1x128.Idx) :
    ∃ pc ∈ (runC7 c t h1 h2 x0 x1 x2 s).1.1, y ∈ pc.1.set :=
  View.cover_of_tiledL (runC7 c t h1 h2 x0 x1 x2 s).1.1 S1x128.size (by sl_kernel_rfl) y
theorem coverC7_scr (c : Dev nD) (t : Fin cfg7.N) (h1) (h2) (x0 : Vec F S2000x128 .f32) (x1 : Vec F S128x128 .f32) (x2 s : Vec F S1x128 .f32) (y : S1x128.Idx) :
    ∃ pc ∈ (runC7 c t h1 h2 x0 x1 x2 s).1.2, y ∈ pc.1.set :=
  View.cover_of_tiledL (runC7 c t h1 h2 x0 x1 x2 s).1.2 S1x128.size (by sl_kernel_rfl) y

/-! ## The accumulator after each point -/

/-- THE ACCUMULATION. What the accumulator holds after the body at point `n`: at the first point what the first case
    leaves; at a later point what that point's case leaves over what the point before left. -/
def sAt7 (c : Dev nD) : (n : ℕ) → n < cfg7.N → Vec F S1x128 .f32
  | 0, hn => readBack7 (runA7 c ⟨0, hn⟩ ((hcond7_1 ⟨0, hn⟩).mpr rfl)
      (fun h => absurd (show (0 : ℕ) = 24 from (hcond7_2 ⟨0, hn⟩).mp h) (by decide)) (iblk7 V c 0 ⟨0, hn⟩)).1
  | n + 1, hn =>
    if h24 : n + 1 = 24 then
      readBack7 (runC7 c ⟨n + 1, hn⟩ (fun h => absurd (show n + 1 = 0 from (hcond7_1 ⟨n + 1, hn⟩).mp h) (Nat.succ_ne_zero n))
        ((hcond7_2 ⟨n + 1, hn⟩).mpr h24) (iblk7 V c 0 ⟨n + 1, hn⟩) (iblk7 V c 1 ⟨n + 1, hn⟩) (iblk7 V c 2 ⟨n + 1, hn⟩)
        (sAt7 c n (Nat.lt_of_succ_lt hn))).1.2
    else
      readBack7 (runB7 c ⟨n + 1, hn⟩ (fun h => absurd (show n + 1 = 0 from (hcond7_1 ⟨n + 1, hn⟩).mp h) (Nat.succ_ne_zero n))
        (fun h => h24 ((hcond7_2 ⟨n + 1, hn⟩).mp h)) (iblk7 V c 0 ⟨n + 1, hn⟩) (sAt7 c n (Nat.lt_of_succ_lt hn))).1

/-- What the last point stores in the output row (junk at any other point: the row is not stored there). -/
def outAt7 (c : Dev nD) : (n : ℕ) → n < cfg7.N → Vec F S1x128 .f32
  | 0, _ => VS7.read (Elt F) VS7.junk
  | n + 1, hn =>
    if h24 : n + 1 = 24 then
      readBack7 (runC7 c ⟨n + 1, hn⟩ (fun h => absurd (show n + 1 = 0 from (hcond7_1 ⟨n + 1, hn⟩).mp h) (Nat.succ_ne_zero n))
        ((hcond7_2 ⟨n + 1, hn⟩).mpr h24) (iblk7 V c 0 ⟨n + 1, hn⟩) (iblk7 V c 1 ⟨n + 1, hn⟩) (iblk7 V c 2 ⟨n + 1, hn⟩)
        (sAt7 V c n (Nat.lt_of_succ_lt hn))).1.1
    else VS7.read (Elt F) VS7.junk

/-- The accumulator as the invariant holds it before point `n`: at anything before the first point, at what the point before
    left otherwise. -/
def scrState7 (c : Dev nD) : (n : ℕ) → n ≤ cfg7.N → sProp 𝕄
  | 0, _ => iprop(∃ d, owns (c : Thread nD τ) scr7 fullShare d)
  | n + 1, h => owns (c : Thread nD τ) scr7 fullShare (sAt7 V c n (Nat.lt_of_succ_le h))

/-- The two equations of `scrState7`. -/
theorem scrState7_zero (c : Dev nD) (h : 0 ≤ cfg7.N) : scrState7 V c 0 h = iprop(∃ d, owns (c : Thread nD τ) scr7 fullShare d) := rfl
theorem scrState7_succ (c : Dev nD) (n : ℕ) (h : n + 1 ≤ cfg7.N) :
    scrState7 V c (n + 1) h = owns (c : Thread nD τ) scr7 fullShare (sAt7 V c n (Nat.lt_of_succ_le h)) := rfl

/-! ## The pipeline's proof data -/

/-- The proof data of this region on core `c`: the arrays as the region finds them; after the body at point `t` each input's
    buffer at its block and the output row's at what the last point stores; the invariant: the accumulator at the running
    column sums, the other scoped buffers no window stages, and the generator register; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => outAt7 V c t.val t.isLt
  Φ t := iprop(scrState7 V c t.val (Nat.le_of_lt_succ t.isLt)
    ∗ Pipeline.scopedRestBut (Ix := Unit) (Name := ℕ) (U := UR sig nD τ) (Lvl := ℕ) (Val := Elt F) spec7 c [cc7_scratch0]
    ∗ ∃ r, prngReg c r)
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = outAt7 V c t.val t.isLt := by dsimp only [dat7]
theorem Φ7_eq (c : Dev nD) (t : Fin (cfg7.N + 1)) : (dat7 V c).Φ t = iprop(scrState7 V c t.val (Nat.le_of_lt_succ t.isLt)
    ∗ Pipeline.scopedRestBut (Ix := Unit) (Name := ℕ) (U := UR sig nD τ) (Lvl := ℕ) (Val := Elt F) spec7 c [cc7_scratch0]
    ∗ ∃ r, prngReg c r) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation -/

/-- The output row's window is idle except at the last point, and is written back at the last point only. -/
theorem hidle7 : ∀ t : Fin cfg7.N, cfg7.idle 3 (cfg7.grid.coords t) = !decide (t.val = 24) :=
  (by decide +kernel : ∀ t : Fin grid7.N, idle7 3 (grid7.coords t) = !decide (t.val = 24))
theorem hflush7 : ∀ t : Fin cfg7.N, (cfg7.win 3).flush t = decide (t.val = 24) :=
  (by decide +kernel : ∀ t : Fin grid7.N, win7_3.flush t = decide (t.val = 24))

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns: the output row's buffer as it came at a point that is not the last, at the stored row at the last. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ (match !decide (t.val = 24) with
        | true =>
          match decide (t.val = 24) with
          | false => iprop(∃ d, owns (c : Thread nD τ) (st7_3 t) fullShare ((dat7 V c).before 3 t d))
          | true => owns (c : Thread nD τ) (st7_3 t) fullShare ((dat7 V c).after 3 t)
        | false => owns (c : Thread nD τ) (st7_3 t) fullShare ((dat7 V c).after 3 t)))

set_option maxHeartbeats 1600000 in
/-- The body at any point, by the point's case. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl,
    after7_0, after7_1, after7_2, after7_3, Φ7_eq, Φ7_eq]
  obtain ⟨n, hn⟩ := t
  rcases n with _ | n
  · -- the first point
    have h24 : ¬ ((0 : ℕ) = 24) := by decide
    simp only [h24, decide_false, Bool.not_false]
    show iprop(iprop(scrState7 V c 0 _ ∗ _ ∗ _) ∗ _) ⊢ wp _ _ _ _ (fun _ => iprop(iprop(scrState7 V c 1 _ ∗ _ ∗ _) ∗ _))
    unfold scrState7 sAt7
    iintro ⟨⟨Hs, Hrest, Hp⟩, Ho, ⟨%d0, H0⟩, ⟨%d1, H1⟩, ⟨%d2, H2⟩, H3⟩
    iapply ((runA7 c ⟨0, hn⟩ ((hcond7_1 ⟨0, hn⟩).mpr rfl)
      (fun h => absurd (show (0 : ℕ) = 24 from (hcond7_2 ⟨0, hn⟩).mp h) (by decide)) (iblk7 V c 0 ⟨0, hn⟩)).2 Set.univ _)
    isplitl [H0]; · iexact H0
    isplitl [Hs]; · iexact Hs
    iintro ⟨H0, ⟨%e5, H5⟩⟩
    isplitl [H5 Hrest Hp]
    · isplitl [H5]
      · unfold owns; iexists _; isplitr
        swap; · iexact H5
        ipureintro; exact View.read_writes_of_cover _ _ _ _ _ (coverA7 c _ _ _ _)
      isplitl [Hrest]; · iexact Hrest
      iexact Hp
    isplitl [Ho]; · iexact Ho
    isplitl [H0]; · iexact H0
    isplitl [H1]; · iexact H1
    isplitl [H2]; · iexact H2
    iexact H3
  · by_cases h24 : n + 1 = 24
    · -- the last point
      have hd : decide ((⟨n + 1, hn⟩ : Fin cfg7.N).val = 24) = true := decide_eq_true h24
      simp only [hd, Bool.not_true]
      show iprop(iprop(scrState7 V c (n + 1) _ ∗ _ ∗ _) ∗ _) ⊢ wp _ _ _ _ (fun _ => iprop(iprop(scrState7 V c (n + 1 + 1) _ ∗ _ ∗ _) ∗ _))
      rw [scrState7_succ, scrState7_succ, sAt7, outAt7]
      simp only [dif_pos h24]
      iintro ⟨⟨Hs, Hrest, Hp⟩, Ho, ⟨%d0, H0⟩, ⟨%d1, H1⟩, ⟨%d2, H2⟩, ⟨%d3, H3⟩⟩
      iapply ((runC7 c ⟨n + 1, hn⟩ (fun h => absurd (show n + 1 = 0 from (hcond7_1 ⟨n + 1, hn⟩).mp h) (Nat.succ_ne_zero n))
        ((hcond7_2 ⟨n + 1, hn⟩).mpr h24) (iblk7 V c 0 ⟨n + 1, hn⟩) (iblk7 V c 1 ⟨n + 1, hn⟩) (iblk7 V c 2 ⟨n + 1, hn⟩)
        (sAt7 V c n (Nat.lt_of_succ_lt hn))).2 Set.univ _)
      isplitl [H0]; · iexact H0
      isplitl [H1]; · iexact H1
      isplitl [H2]; · iexact H2
      isplitl [H3]; · iexists _; iexact H3
      isplitl [Hs]; · iexact Hs
      iintro ⟨H0, H1, H2, ⟨%e4, H4⟩, ⟨%e5, H5⟩⟩
      isplitl [H5 Hrest Hp]
      · isplitl [H5]
        · unfold owns; iexists _; isplitr
          swap; · iexact H5
          ipureintro; exact View.read_writes_of_cover _ _ _ _ _ (coverC7_scr c _ _ _ _ _ _ _)
        isplitl [Hrest]; · iexact Hrest
        iexact Hp
      isplitl [Ho]; · iexact Ho
      isplitl [H0]; · iexact H0
      isplitl [H1]; · iexact H1
      isplitl [H2]; · iexact H2
      unfold owns; iexists _; isplitr
      swap; · iexact H4
      ipureintro; exact View.read_writes_of_cover _ _ _ _ _ (coverC7_out c _ _ _ _ _ _ _)
    · -- a middle point
      have hd : decide ((⟨n + 1, hn⟩ : Fin cfg7.N).val = 24) = false := decide_eq_false h24
      simp only [hd, Bool.not_false]
      show iprop(iprop(scrState7 V c (n + 1) _ ∗ _ ∗ _) ∗ _) ⊢ wp _ _ _ _ (fun _ => iprop(iprop(scrState7 V c (n + 1 + 1) _ ∗ _ ∗ _) ∗ _))
      rw [scrState7_succ, scrState7_succ, sAt7]
      simp only [dif_neg h24]
      iintro ⟨⟨Hs, Hrest, Hp⟩, Ho, ⟨%d0, H0⟩, ⟨%d1, H1⟩, ⟨%d2, H2⟩, H3⟩
      iapply ((runB7 c ⟨n + 1, hn⟩ (fun h => absurd (show n + 1 = 0 from (hcond7_1 ⟨n + 1, hn⟩).mp h) (Nat.succ_ne_zero n))
        (fun h => h24 ((hcond7_2 ⟨n + 1, hn⟩).mp h)) (iblk7 V c 0 ⟨n + 1, hn⟩) (sAt7 V c n (Nat.lt_of_succ_lt hn))).2 Set.univ _)
      isplitl [H0]; · iexact H0
      isplitl [Hs]; · iexact Hs
      iintro ⟨H0, ⟨%e5, H5⟩⟩
      isplitl [H5 Hrest Hp]
      · isplitl [H5]
        · unfold owns; iexists _; isplitr
          swap; · iexact H5
          ipureintro; exact View.read_writes_of_cover _ _ _ _ _ (coverB7 c _ _ _ _ _)
        isplitl [Hrest]; · iexact Hrest
        iexact Hp
      isplitl [Ho]; · iexact Ho
      isplitl [H0]; · iexact H0
      isplitl [H1]; · iexact H1
      isplitl [H2]; · iexact H2
      iexact H3

/-- The library's body obligation, at every point: the output row's window reduced by its idle points and its one
    write-back. -/
theorem body_obligation7 (c : Dev nD) : BodyObligation (dat7 (F := F) V c) (defs₀ (F := F)) Variants.none () Set.univ := fun t => by
  rw [bigSep_W7, bigSep_W7]
  have h := sound_body7 V c t
  unfold bodyPre7 bodyPost7 at h
  rw [← hidle7 t, ← hflush7 t] at h
  exact h

end Cert.Kernel.Hand

end
-- ==== Proof.K.Linear8.lean ====
/-
  Region 8 of the kernel program: the first linear layer of the first encoder, run on the node features with
  their rows permuted by the first permutation, on one tile of 2000 rows.
  At a grid point the body reads the tile `x` (2000 x 128), the weights `W` (128 x 128) and the bias row `b` (1 x 128) and
  overwrites the output tile with `x W + b`: entry (p, q) is the sum over k of x(p, k) W(k, q), plus b(q). It keeps nothing
  between points; the weights and the bias are fetched once and stay where they are.

  Stated here for any contents `V` of the core's buffers on entry: what each window's staging buffer holds when the body
  runs, what the one store leaves in the output buffer, that the body run from those buffers ends with the inputs untouched
  and the output at that value, and from it the body obligation at every grid point.
-/
import proofs.«113219_j18691697672631_1_alg».proof.Proof.Gen.Kernel.Launch
import proofs.«113219_j18691697672631_1_alg».proof.Proof.Gen.Kernel.Skeleton
import proofs.«113219_j18691697672631_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The tile's staging buffer holds the tile of the point: it is fetched at every point. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The weights' staging buffer holds the weights at every point: fetched at the first point, the block index never moves,
    and the body leaves them as they were. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The bias row's staging buffer holds the row at every point, for the same reason. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole 2000 x 128 tile, the whole 128 x 128 weights and the whole 1 x 128 row as rectangles. -/
abbrev rTile8 : Rect S2000x128 := Rect.unit (s := S2000x128) ![0, 0] S2000x128.size inb_S2000x128_S2000x128_0_0
abbrev rMat8 : Rect S128x128 := Rect.unit (s := S128x128) ![0, 0] S128x128.size inb_S128x128_S128x128_0_0
abbrev rRow8 : Rect S1x128 := Rect.unit (s := S1x128) ![0, 0] S1x128.size inb_S1x128_S1x128_0_0

/-! ## What the body leaves in the output tile -/

/-- The output tile after the body: its one store, of the product plus the bias, over the whole buffer. -/
def out8_3 (x0 : Vec F S2000x128 .f32) (x1 : Vec F S128x128 .f32) (x2 : Vec F S1x128 .f32) : Vec F S2000x128 .f32 :=
  View.canon [⟨rTile8, k8_pay1 (View.ld x0 rTile8) (View.ld x1 rMat8) (View.ld x2 rRow8)⟩]

/-- The one store covers the buffer. -/
theorem cover8_3 (p0 : Vec F S2000x128 .f32) (y : S2000x128.Idx) :
    ∃ pc ∈ ([⟨rTile8, p0⟩] : List (View.Piece (Elt F) S2000x128 .f32)), y ∈ pc.1.set :=
  View.cover_of_tiled [⟨rTile8, p0⟩] S2000x128.size (by rfl) y

/-! ## The body's triple -/

set_option maxHeartbeats 1000000 in
/-- The body on whole staging buffers, the tile's at `x0`, the weights' at `x1`, the bias row's at `x2`, the output's at
    anything, runs to the continuation holding the inputs' as they were and the output's at `out8_3 x0 x1 x2`. -/
theorem sound_kernel8 (c : Dev nD) (E : Set ℕ) (i : grid8.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out8_3 x0 x1 x2)) -∗ K ⟨⟩))
      ⊢ wp frame (wpE (defs₀ (F := F)) Variants.none c none) E (cc8__linear_kernel i arg1 harg1 arg2 harg2 arg3 harg3 arg4 harg4) K := by
  simp only [cc8__linear_kernel_eq_skeleton]; unfold cc8__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of this region on core `c`: the arrays as the region finds them; after the body at point `t` each
    input's buffer at its block and the output's at the product plus the bias; the invariant the scoped buffers no window
    stages and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) :
    (dat8 V c).after 3 t = out8_3 (iblk8 V c 0 t) (iblk8 V c 1 t) (iblk8 V c 2 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' buffers hold their blocks, so the body's triple applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.PreluLinear9.lean ====
/-
  Region 9 of the kernel program: the first rectifier and the second linear layer of the first encoder, run
  on the node features with their rows permuted by the first permutation, on one tile of 2000 rows.
  At a grid point the body reads the tile `c` (2000 x 128), the slope row `alpha` (1 x 128), the weights `W` (128 x 128)
  and the bias row `b` (1 x 128). It rectifies the tile entry by entry, `a = c` where `c >= 0` and `alpha * c` elsewhere, and
  overwrites the output tile with `a W + b`: entry (p, q) is the sum over k of a(p, k) W(k, q), plus b(q). It keeps
  nothing between points; the slope row, the weights and the bias are fetched once and stay where they are.

  Stated here for any contents `V` of the core's buffers on entry: what each window's staging buffer holds when the body
  runs, what the one store leaves in the output buffer, that the body run from those buffers ends with the inputs untouched
  and the output at that value, and from it the body obligation at every grid point.
-/
import proofs.«113219_j18691697672631_1_alg».proof.Proof.Gen.Kernel.Launch
import proofs.«113219_j18691697672631_1_alg».proof.Proof.Gen.Kernel.Skeleton
import proofs.«113219_j18691697672631_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The tile's staging buffer holds the tile of the point: it is fetched at every point. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The slope row's staging buffer holds the row at every point: fetched at the first point, the block index never moves,
    and the body leaves it as it was. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The weights' staging buffer holds the weights at every point, for the same reason. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The bias row's staging buffer holds the row at every point, for the same reason. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The whole 2000 x 128 tile, the whole 128 x 128 weights and the whole 1 x 128 row as rectangles. -/
abbrev rTile9 : Rect S2000x128 := Rect.unit (s := S2000x128) ![0, 0] S2000x128.size inb_S2000x128_S2000x128_0_0
abbrev rMat9 : Rect S128x128 := Rect.unit (s := S128x128) ![0, 0] S128x128.size inb_S128x128_S128x128_0_0
abbrev rRow9 : Rect S1x128 := Rect.unit (s := S1x128) ![0, 0] S1x128.size inb_S1x128_S1x128_0_0

/-! ## What the body leaves in the output tile -/

/-- The output tile after the body: its one store, of the rectified tile's product with the weights plus the bias, over the
    whole buffer. -/
def out9_4 (x0 : Vec F S2000x128 .f32) (x1 : Vec F S1x128 .f32) (x2 : Vec F S128x128 .f32) (x3 : Vec F S1x128 .f32) :
    Vec F S2000x128 .f32 :=
  View.canon [⟨rTile9, k9_pay1 (View.ld x0 rTile9) (View.ld x1 rRow9) (View.ld x2 rMat9) (View.ld x3 rRow9)⟩]

/-- The one store covers the buffer. -/
theorem cover9_4 (p0 : Vec F S2000x128 .f32) (y : S2000x128.Idx) :
    ∃ pc ∈ ([⟨rTile9, p0⟩] : List (View.Piece (Elt F) S2000x128 .f32)), y ∈ pc.1.set :=
  View.cover_of_tiled [⟨rTile9, p0⟩] S2000x128.size (by rfl) y

/-! ## The body's triple -/

set_option maxHeartbeats 1000000 in
/-- The body on whole staging buffers, the tile's at `x0`, the slope row's at `x1`, the weights' at `x2`, the bias row's at
    `x3`, the output's at anything, runs to the continuation holding the inputs' as they were and the output's at
    `out9_4 x0 x1 x2 x3`. -/
theorem sound_kernel9 (c : Dev nD) (E : Set ℕ) (i : grid9.Coords)
    (arg1 : Memref sig .tc .vmem S2000x128 .f32) (harg1 : arg1.IsWhole) (arg2 : Memref sig .tc .vmem S1x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S1x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out9_4 x0 x1 x2 x3)) -∗ K ⟨⟩))
      ⊢ wp frame (wpE (defs₀ (F := F)) Variants.none c none) E
          (cc9__prelu_linear_kernel i arg1 harg1 arg2 harg2 arg3 harg3 arg4 harg4 arg5 harg5) K := by
  simp only [cc9__prelu_linear_kernel_eq_skeleton]; unfold cc9__prelu_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-! ## The pipeline's proof data -/

/-- The proof data of this region on core `c`: the arrays as the region finds them; after the body at point `t` each
    input's buffer at its block and the output's at the rectified tile's product with the weights plus the bias; the
    invariant the scoped buffers no window stages and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9_4 (iblk9 V c 0 t) (iblk9 V c 1 t) (iblk9 V c 2 t) (iblk9 V c 3 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' buffers hold their blocks, so the body's triple applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Prelu10.lean ====
/-
  Region 10 of the kernel program: the second rectifier of the first encoder, run on the node features with
  their rows permuted by the first permutation, on one tile of 2000 rows.
  At a grid point the body reads the tile `c` (2000 x 128) and the slope row `alpha` (1 x 128) and overwrites the
  output tile with `c` where `c >= 0` and `alpha * c` elsewhere, entry by entry. It keeps nothing between points.

  Stated here for any contents `V` of the core's buffers on entry: what each window's staging buffer holds when
  the body runs (the window's block of its array, whether it was fetched at this point or at an earlier one with the
  same block index), what the one store leaves in the output buffer, and that the body run from those buffers ends
  with the inputs untouched and the output at that value.
-/
import proofs.«113219_j18691697672631_1_alg».proof.Proof.Gen.Kernel.Launch
import proofs.«113219_j18691697672631_1_alg».proof.Proof.Gen.Kernel.Skeleton
import proofs.«113219_j18691697672631_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The tile's staging buffer holds the tile of the point: it is fetched at every point. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The slope row's staging buffer holds the row at every point: it is fetched at the first point, its block index never
    moves, and the body leaves it as it was. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

/-- The whole 2000 x 128 tile as a rectangle, and the whole 1 x 128 row. -/
abbrev rTile10 : Rect S2000x128 := Rect.unit (s := S2000x128) ![0, 0] S2000x128.size inb_S2000x128_S2000x128_0_0
abbrev rRow10 : Rect S1x128 := Rect.unit (s := S1x128) ![0, 0] S1x128.size inb_S1x128_S1x128_0_0

/-! ## What the body leaves in the output tile -/

/-- The output tile after the body: its one store, of the rectified tile, over the whole buffer. -/
def out10_2 (x0 : Vec F S2000x128 .f32) (x1 : Vec F S1x128 .f32) : Vec F S2000x128 .f32 :=
  View.canon [⟨rTile10, k10_pay1 (View.ld x0 rTile10) (View.ld x1 rRow10)⟩]

/-- The one store covers the buffer. -/
theorem cover10_2 (p0 : Vec F S2000x128 .f32) (y : S2000x128.Idx) :
    ∃ pc ∈ ([⟨rTile10, p0⟩] : List (View.Piece (Elt F) S2000x128 .f32)), y ∈ pc.1.set :=
  View.cover_of_tiled [⟨rTile10, p0⟩] S2000x128.size (by rfl) y

/-! ## The body's triple -/

set_option maxHeartbeats 1000000 in
/-- The body on whole staging buffers, the tile's at `x0`, the slope row's at `x1`, the output's at anything, runs to the
    continuation holding the inputs' as they were and the output's at `out10_2 x0 x1`. -/
theorem sound_kernel10 (c : Dev nD) (E : Set ℕ) (i : grid10.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out10_2 x0 x1)) -∗ K ⟨⟩))
      ⊢ wp frame (wpE (defs₀ (F := F)) Variants.none c none) E (cc10__prelu_kernel i arg1 harg1 arg2 harg2 arg3 harg3) K := by
  simp only [cc10__prelu_kernel_eq_skeleton]; unfold cc10__prelu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of this region on core `c`: the arrays as the region finds them; after the body at point `t` the tile's
    and the slope row's buffers at their blocks and the output's at the rectified tile; the invariant the scoped buffers
    no window stages and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' buffers hold their blocks, so the body's triple applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.Linear11.lean ====
/-
  Region 11 of the kernel program: the first linear layer of the second encoder, run on the node features
  with their rows permuted by the second permutation, on one tile of 2000 rows.
  At a grid point the body reads the tile `x` (2000 x 128), the weights `W` (128 x 128) and the bias row `b` (1 x 128) and
  overwrites the output tile with `x W + b`: entry (p, q) is the sum over k of x(p, k) W(k, q), plus b(q). It keeps nothing
  between points; the weights and the bias are fetched once and stay where they are.

  Stated here for any contents `V` of the core's buffers on entry: what each window's staging buffer holds when the body
  runs, what the one store leaves in the output buffer, that the body run from those buffers ends with the inputs untouched
  and the output at that value, and from it the body obligation at every grid point.
-/
import proofs.«113219_j18691697672631_1_alg».proof.Proof.Gen.Kernel.Launch
import proofs.«113219_j18691697672631_1_alg».proof.Proof.Gen.Kernel.Skeleton
import proofs.«113219_j18691697672631_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The tile's staging buffer holds the tile of the point: it is fetched at every point. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- The weights' staging buffer holds the weights at every point: fetched at the first point, the block index never moves,
    and the body leaves them as they were. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- The bias row's staging buffer holds the row at every point, for the same reason. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

/-- The whole 2000 x 128 tile, the whole 128 x 128 weights and the whole 1 x 128 row as rectangles. -/
abbrev rTile11 : Rect S2000x128 := Rect.unit (s := S2000x128) ![0, 0] S2000x128.size inb_S2000x128_S2000x128_0_0
abbrev rMat11 : Rect S128x128 := Rect.unit (s := S128x128) ![0, 0] S128x128.size inb_S128x128_S128x128_0_0
abbrev rRow11 : Rect S1x128 := Rect.unit (s := S1x128) ![0, 0] S1x128.size inb_S1x128_S1x128_0_0

/-! ## What the body leaves in the output tile -/

/-- The output tile after the body: its one store, of the product plus the bias, over the whole buffer. -/
def out11_3 (x0 : Vec F S2000x128 .f32) (x1 : Vec F S128x128 .f32) (x2 : Vec F S1x128 .f32) : Vec F S2000x128 .f32 :=
  View.canon [⟨rTile11, k11_pay1 (View.ld x0 rTile11) (View.ld x1 rMat11) (View.ld x2 rRow11)⟩]

/-- The one store covers the buffer. -/
theorem cover11_3 (p0 : Vec F S2000x128 .f32) (y : S2000x128.Idx) :
    ∃ pc ∈ ([⟨rTile11, p0⟩] : List (View.Piece (Elt F) S2000x128 .f32)), y ∈ pc.1.set :=
  View.cover_of_tiled [⟨rTile11, p0⟩] S2000x128.size (by rfl) y

/-! ## The body's triple -/

set_option maxHeartbeats 1000000 in
/-- The body on whole staging buffers, the tile's at `x0`, the weights' at `x1`, the bias row's at `x2`, the output's at
    anything, runs to the continuation holding the inputs' as they were and the output's at `out11_3 x0 x1 x2`. -/
theorem sound_kernel11 (c : Dev nD) (E : Set ℕ) (i : grid11.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out11_3 x0 x1 x2)) -∗ K ⟨⟩))
      ⊢ wp frame (wpE (defs₀ (F := F)) Variants.none c none) E (cc11__linear_kernel i arg1 harg1 arg2 harg2 arg3 harg3 arg4 harg4) K := by
  simp only [cc11__linear_kernel_eq_skeleton]; unfold cc11__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-! ## The pipeline's proof data -/

/-- The proof data of this region on core `c`: the arrays as the region finds them; after the body at point `t` each
    input's buffer at its block and the output's at the product plus the bias; the invariant the scoped buffers no window
    stages and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) :
    (dat11 V c).after 3 t = out11_3 (iblk11 V c 0 t) (iblk11 V c 1 t) (iblk11 V c 2 t) := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' buffers hold their blocks, so the body's triple applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.K.PreluLinear12.lean ====
/-
  Region 12 of the kernel program: the first rectifier and the second linear layer of the second encoder,
  run on the node features with their rows permuted by the second permutation, on one tile of 2000 rows.
  At a grid point the body reads the tile `c` (2000 x 128), the slope row `alpha` (1 x 128), the weights `W` (128 x 128)
  and the bias row `b` (1 x 128). It rectifies the tile entry by entry, `a = c` where `c >= 0` and `alpha * c` elsewhere, and
  overwrites the output tile with `a W + b`: entry (p, q) is the sum over k of a(p, k) W(k, q), plus b(q). It keeps
  nothing between points; the slope row, the weights and the bias are fetched once and stay where they are.

  Stated here for any contents `V` of the core's buffers on entry: what each window's staging buffer holds when the body
  runs, what the one store leaves in the output buffer, that the body run from those buffers ends with the inputs untouched
  and the output at that value, and from it the body obligation at every grid point.
-/
import proofs.«113219_j18691697672631_1_alg».proof.Proof.Gen.Kernel.Launch
import proofs.«113219_j18691697672631_1_alg».proof.Proof.Gen.Kernel.Skeleton
import proofs.«113219_j18691697672631_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The tile's staging buffer holds the tile of the point: it is fetched at every point. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- The slope row's staging buffer holds the row at every point: fetched at the first point, the block index never moves,
    and the body leaves it as it was. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- The weights' staging buffer holds the weights at every point, for the same reason. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- The bias row's staging buffer holds the row at every point, for the same reason. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

/-- The whole 2000 x 128 tile, the whole 128 x 128 weights and the whole 1 x 128 row as rectangles. -/
abbrev rTile12 : Rect S2000x128 := Rect.unit (s := S2000x128) ![0, 0] S2000x128.size inb_S2000x128_S2000x128_0_0
abbrev rMat12 : Rect S128x128 := Rect.unit (s := S128x128) ![0, 0] S128x128.size inb_S128x128_S128x128_0_0
abbrev rRow12 : Rect S1x128 := Rect.unit (s := S1x128) ![0, 0] S1x128.size inb_S1x128_S1x128_0_0

/-! ## What the body leaves in the output tile -/

/-- The output tile after the body: its one store, of the rectified tile's product with the weights plus the bias, over the
    whole buffer. -/
def out12_4 (x0 : Vec F S2000x128 .f32) (x1 : Vec F S1x128 .f32) (x2 : Vec F S128x128 .f32) (x3 : Vec F S1x128 .f32) :
    Vec F S2000x128 .f32 :=
  View.canon [⟨rTile12, k12_pay1 (View.ld x0 rTile12) (View.ld x1 rRow12) (View.ld x2 rMat12) (View.ld x3 rRow12)⟩]

/-- The one store covers the buffer. -/
theorem cover12_4 (p0 : Vec F S2000x128 .f32) (y : S2000x128.Idx) :
    ∃ pc ∈ ([⟨rTile12, p0⟩] : List (View.Piece (Elt F) S2000x128 .f32)), y ∈ pc.1.set :=
  View.cover_of_tiled [⟨rTile12, p0⟩] S2000x128.size (by rfl) y

/-! ## The body's triple -/

set_option maxHeartbeats 1000000 in
/-- The body on whole staging buffers, the tile's at `x0`, the slope row's at `x1`, the weights' at `x2`, the bias row's at
    `x3`, the output's at anything, runs to the continuation holding the inputs' as they were and the output's at
    `out12_4 x0 x1 x2 x3`. -/
theorem sound_kernel12 (c : Dev nD) (E : Set ℕ) (i : grid12.Coords)
    (arg1 : Memref sig .tc .vmem S2000x128 .f32) (harg1 : arg1.IsWhole) (arg2 : Memref sig .tc .vmem S1x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S1x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out12_4 x0 x1 x2 x3)) -∗ K ⟨⟩))
      ⊢ wp frame (wpE (defs₀ (F := F)) Variants.none c none) E
          (cc12__prelu_linear_kernel i arg1 harg1 arg2 harg2 arg3 harg3 arg4 harg4 arg5 harg5) K := by
  simp only [cc12__prelu_linear_kernel_eq_skeleton]; unfold cc12__prelu_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover12_4 _)

/-! ## The pipeline's proof data -/

/-- The proof data of this region on core `c`: the arrays as the region finds them; after the body at point `t` each
    input's buffer at its block and the output's at the rectified tile's product with the weights plus the bias; the
    invariant the scoped buffers no window stages and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => out12_4 (iblk12 V c 0 t) (iblk12 V c 1 t) (iblk12 V c 2 t) (iblk12 V c 3 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) :
    (dat12 V c).after 4 t = out12_4 (iblk12 V c 0 t) (iblk12 V c 1 t) (iblk12 V c 2 t) (iblk12 V c 3 t) := by dsimp only [dat12]

/-- Each input's current staging buffer holds its block at every point. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t))

/-- The body at any point: the inputs' buffers hold their blocks, so the body's triple applies; the invariant and the
    core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3]
  rw [show (dat12 V c).Φ t.succ = (dat12 V c).Φ t.castSucc from rfl,
    show (dat12 V c).owesAt () t.succ = (dat12 V c).owesAt () t.castSucc from rfl,
    after12_0, after12_1, after12_2, after12_3, after12_4]
  iintro ⟨HΦ, Ho, ⟨%d0, H0⟩, ⟨%d1, H1⟩, ⟨%d2, H2⟩, ⟨%d3, H3⟩, ⟨%d4, H4⟩⟩
  iapply (sound_kernel12 c Set.univ _ _ _ _ _ _ _ _ _ _ _ (iblk12 V c 0 t) (iblk12 V c 1 t) (iblk12 V c 2 t) (iblk12 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.K.Prelu13.lean ====
/-
  Region 13 of the kernel program: the second rectifier of the second encoder, run on the node features with
  their rows permuted by the second permutation, on one tile of 2000 rows.
  At a grid point the body reads the tile `c` (2000 x 128) and the slope row `alpha` (1 x 128) and overwrites the
  output tile with `c` where `c >= 0` and `alpha * c` elsewhere, entry by entry. It keeps nothing between points.

  Stated here for any contents `V` of the core's buffers on entry: what each window's staging buffer holds when
  the body runs (the window's block of its array, whether it was fetched at this point or at an earlier one with the
  same block index), what the one store leaves in the output buffer, and that the body run from those buffers ends
  with the inputs untouched and the output at that value.
-/
import proofs.«113219_j18691697672631_1_alg».proof.Proof.Gen.Kernel.Launch
import proofs.«113219_j18691697672631_1_alg».proof.Proof.Gen.Kernel.Skeleton
import proofs.«113219_j18691697672631_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The tile's staging buffer holds the tile of the point: it is fetched at every point. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- The slope row's staging buffer holds the row at every point: it is fetched at the first point, its block index never
    moves, and the body leaves it as it was. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses -/

/-- The whole 2000 x 128 tile as a rectangle, and the whole 1 x 128 row. -/
abbrev rTile13 : Rect S2000x128 := Rect.unit (s := S2000x128) ![0, 0] S2000x128.size inb_S2000x128_S2000x128_0_0
abbrev rRow13 : Rect S1x128 := Rect.unit (s := S1x128) ![0, 0] S1x128.size inb_S1x128_S1x128_0_0

/-! ## What the body leaves in the output tile -/

/-- The output tile after the body: its one store, of the rectified tile, over the whole buffer. -/
def out13_2 (x0 : Vec F S2000x128 .f32) (x1 : Vec F S1x128 .f32) : Vec F S2000x128 .f32 :=
  View.canon [⟨rTile13, k13_pay1 (View.ld x0 rTile13) (View.ld x1 rRow13)⟩]

/-- The one store covers the buffer. -/
theorem cover13_2 (p0 : Vec F S2000x128 .f32) (y : S2000x128.Idx) :
    ∃ pc ∈ ([⟨rTile13, p0⟩] : List (View.Piece (Elt F) S2000x128 .f32)), y ∈ pc.1.set :=
  View.cover_of_tiled [⟨rTile13, p0⟩] S2000x128.size (by rfl) y

/-! ## The body's triple -/

set_option maxHeartbeats 1000000 in
/-- The body on whole staging buffers, the tile's at `x0`, the slope row's at `x1`, the output's at anything, runs to the
    continuation holding the inputs' as they were and the output's at `out13_2 x0 x1`. -/
theorem sound_kernel13 (c : Dev nD) (E : Set ℕ) (i : grid13.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out13_2 x0 x1)) -∗ K ⟨⟩))
      ⊢ wp frame (wpE (defs₀ (F := F)) Variants.none c none) E (cc13__prelu_kernel i arg1 harg1 arg2 harg2 arg3 harg3) K := by
  simp only [cc13__prelu_kernel_eq_skeleton]; unfold cc13__prelu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

/-! ## The pipeline's proof data -/

/-- The proof data of this region on core `c`: the arrays as the region finds them; after the body at point `t` the tile's
    and the slope row's buffers at their blocks and the output's at the rectified tile; the invariant the scoped buffers
    no window stages and the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]

/-- Each input's current staging buffer holds its block at every point. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

/-- The body at any point: the inputs' buffers hold their blocks, so the body's triple applies; the invariant and the
    core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.K.Chain.lean ====
/-
  The contents of the core's buffers between the thirty items of the kernel program's main function: three host
  stretches, then fourteen kernel regions with a host stretch between each two. A host stretch changes the contents by
  running its operations; a region changes one buffer only, its output array, and leaves there what its pipeline writes
  back over the grid: the array after the write-backs of all its points, computed from the region's proof data at the
  contents the region is entered from.

  The generated frame states the same chain over unknown region outputs; here the unknowns are given these values,
  and the two chains are shown equal boundary by boundary.
-/
import proofs.«113219_j18691697672631_1_alg».proof.Proof.K.Linear0
import proofs.«113219_j18691697672631_1_alg».proof.Proof.K.PreluLinear1
import proofs.«113219_j18691697672631_1_alg».proof.Proof.K.Prelu2
import proofs.«113219_j18691697672631_1_alg».proof.Proof.K.Linear3
import proofs.«113219_j18691697672631_1_alg».proof.Proof.K.PreluLinear4
import proofs.«113219_j18691697672631_1_alg».proof.Proof.K.Prelu5
import proofs.«113219_j18691697672631_1_alg».proof.Proof.K.Pool6
import proofs.«113219_j18691697672631_1_alg».proof.Proof.K.Pool7
import proofs.«113219_j18691697672631_1_alg».proof.Proof.K.Linear8
import proofs.«113219_j18691697672631_1_alg».proof.Proof.K.PreluLinear9
import proofs.«113219_j18691697672631_1_alg».proof.Proof.K.Prelu10
import proofs.«113219_j18691697672631_1_alg».proof.Proof.K.Linear11
import proofs.«113219_j18691697672631_1_alg».proof.Proof.K.PreluLinear12
import proofs.«113219_j18691697672631_1_alg».proof.Proof.K.Prelu13
import proofs.«113219_j18691697672631_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] (m : (ℓ : Loc nD τ sig) → Buf (Elt F) ℓ)

/-! ## The boundary contents -/

/-- A boundary's contents read at the TensorCore's references: what a region's proof data take as entry contents. -/
abbrev tcv (W : Dev nD → Valuation τ sig (Elt F)) : (c : Dev nD) → (b : Ref sig .tc) → Buf (Elt F) ((c : Thread nD τ).loc b) :=
  fun c b => W c b

/-- Before region 0: the launch contents after the first three host stretches. -/
abbrev U3 : Dev nD → Valuation τ sig (Elt F) := fun c => V3 m c

/-- What region 0 (the first encoder's first linear layer) leaves in its output array: the array after every point's write-back. -/
def o4 (c : Dev nD) : Buf (Elt F) ((c : Thread nD τ).loc main_v28) := (dat0 (tcv (U3 m)) c).arrAt 3 cfg0.N
/-- After region 0: its output array at that value, every other buffer as the region found it. -/
def U4 (c : Dev nD) : Valuation τ sig (Elt F) := Function.update (U3 m c) main_v28 (o4 m c)
theorem U4_out (c : Dev nD) : U4 m c main_v28 = o4 m c := by
  unfold U4; exact Function.update_self _ _ _
theorem U4_ne (c : Dev nD) (b : Ref sig .tc) (h : b ≠ main_v28) : U4 m c b = U3 m c b := by
  unfold U4; exact Function.update_of_ne (StableHlo.devRef_ne_of_ne h) _ _
/-- After the host stretch that follows region 0. -/
abbrev U5 : Dev nD → Valuation τ sig (Elt F) := fun c => StableHlo.after hostOps1 (U4 m c)

/-- What region 1 (the first encoder's rectifier and second linear layer) leaves in its output array: the array after every point's write-back. -/
def o6 (c : Dev nD) : Buf (Elt F) ((c : Thread nD τ).loc main_v44) := (dat1 (tcv (U5 m)) c).arrAt 4 cfg1.N
/-- After region 1: its output array at that value, every other buffer as the region found it. -/
def U6 (c : Dev nD) : Valuation τ sig (Elt F) := Function.update (U5 m c) main_v44 (o6 m c)
theorem U6_out (c : Dev nD) : U6 m c main_v44 = o6 m c := by
  unfold U6; exact Function.update_self _ _ _
theorem U6_ne (c : Dev nD) (b : Ref sig .tc) (h : b ≠ main_v44) : U6 m c b = U5 m c b := by
  unfold U6; exact Function.update_of_ne (StableHlo.devRef_ne_of_ne h) _ _
/-- After the host stretch that follows region 1. -/
abbrev U7 : Dev nD → Valuation τ sig (Elt F) := fun c => StableHlo.after hostOps2 (U6 m c)

/-- What region 2 (the first encoder's closing rectifier) leaves in its output array: the array after every point's write-back. -/
def o8 (c : Dev nD) : Buf (Elt F) ((c : Thread nD τ).loc main_v59) := (dat2 (tcv (U7 m)) c).arrAt 2 cfg2.N
/-- After region 2: its output array at that value, every other buffer as the region found it. -/
def U8 (c : Dev nD) : Valuation τ sig (Elt F) := Function.update (U7 m c) main_v59 (o8 m c)
theorem U8_out (c : Dev nD) : U8 m c main_v59 = o8 m c := by
  unfold U8; exact Function.update_self _ _ _
theorem U8_ne (c : Dev nD) (b : Ref sig .tc) (h : b ≠ main_v59) : U8 m c b = U7 m c b := by
  unfold U8; exact Function.update_of_ne (StableHlo.devRef_ne_of_ne h) _ _
/-- After the host stretch that follows region 2. -/
abbrev U9 : Dev nD → Valuation τ sig (Elt F) := fun c => StableHlo.after hostOps3 (U8 m c)

/-- What region 3 (the second encoder's first linear layer) leaves in its output array: the array after every point's write-back. -/
def o10 (c : Dev nD) : Buf (Elt F) ((c : Thread nD τ).loc main_v61) := (dat3 (tcv (U9 m)) c).arrAt 3 cfg3.N
/-- After region 3: its output array at that value, every other buffer as the region found it. -/
def U10 (c : Dev nD) : Valuation τ sig (Elt F) := Function.update (U9 m c) main_v61 (o10 m c)
theorem U10_out (c : Dev nD) : U10 m c main_v61 = o10 m c := by
  unfold U10; exact Function.update_self _ _ _
theorem U10_ne (c : Dev nD) (b : Ref sig .tc) (h : b ≠ main_v61) : U10 m c b = U9 m c b := by
  unfold U10; exact Function.update_of_ne (StableHlo.devRef_ne_of_ne h) _ _
/-- After the host stretch that follows region 3. -/
abbrev U11 : Dev nD → Valuation τ sig (Elt F) := fun c => StableHlo.after hostOps4 (U10 m c)

/-- What region 4 (the second encoder's rectifier and second linear layer) leaves in its output array: the array after every point's write-back. -/
def o12 (c : Dev nD) : Buf (Elt F) ((c : Thread nD τ).loc main_v77) := (dat4 (tcv (U11 m)) c).arrAt 4 cfg4.N
/-- After region 4: its output array at that value, every other buffer as the region found it. -/
def U12 (c : Dev nD) : Valuation τ sig (Elt F) := Function.update (U11 m c) main_v77 (o12 m c)
theorem U12_out (c : Dev nD) : U12 m c main_v77 = o12 m c := by
  unfold U12; exact Function.update_self _ _ _
theorem U12_ne (c : Dev nD) (b : Ref sig .tc) (h : b ≠ main_v77) : U12 m c b = U11 m c b := by
  unfold U12; exact Function.update_of_ne (StableHlo.devRef_ne_of_ne h) _ _
/-- After the host stretch that follows region 4. -/
abbrev U13 : Dev nD → Valuation τ sig (Elt F) := fun c => StableHlo.after hostOps5 (U12 m c)

/-- What region 5 (the second encoder's closing rectifier) leaves in its output array: the array after every point's write-back. -/
def o14 (c : Dev nD) : Buf (Elt F) ((c : Thread nD τ).loc main_v92) := (dat5 (tcv (U13 m)) c).arrAt 2 cfg5.N
/-- After region 5: its output array at that value, every other buffer as the region found it. -/
def U14 (c : Dev nD) : Valuation τ sig (Elt F) := Function.update (U13 m c) main_v92 (o14 m c)
theorem U14_out (c : Dev nD) : U14 m c main_v92 = o14 m c := by
  unfold U14; exact Function.update_self _ _ _
theorem U14_ne (c : Dev nD) (b : Ref sig .tc) (h : b ≠ main_v92) : U14 m c b = U13 m c b := by
  unfold U14; exact Function.update_of_ne (StableHlo.devRef_ne_of_ne h) _ _
/-- After the host stretch that follows region 5. -/
abbrev U15 : Dev nD → Valuation τ sig (Elt F) := fun c => StableHlo.after hostOps6 (U14 m c)

/-- What region 6 (the pooling and projection of the first encoder's output) leaves in its output array: the array after every point's write-back. -/
def o16 (c : Dev nD) : Buf (Elt F) ((c : Thread nD τ).loc main_v94) := (dat6 (tcv (U15 m)) c).arrAt 3 cfg6.N
/-- After region 6: its output array at that value, every other buffer as the region found it. -/
def U16 (c : Dev nD) : Valuation τ sig (Elt F) := Function.update (U15 m c) main_v94 (o16 m c)
theorem U16_out (c : Dev nD) : U16 m c main_v94 = o16 m c := by
  unfold U16; exact Function.update_self _ _ _
theorem U16_ne (c : Dev nD) (b : Ref sig .tc) (h : b ≠ main_v94) : U16 m c b = U15 m c b := by
  unfold U16; exact Function.update_of_ne (StableHlo.devRef_ne_of_ne h) _ _
/-- After the host stretch that follows region 6. -/
abbrev U17 : Dev nD → Valuation τ sig (Elt F) := fun c => StableHlo.after hostOps7 (U16 m c)

/-- What region 7 (the pooling and projection of the second encoder's output) leaves in its output array: the array after every point's write-back. -/
def o18 (c : Dev nD) : Buf (Elt F) ((c : Thread nD τ).loc main_v96) := (dat7 (tcv (U17 m)) c).arrAt 3 cfg7.N
/-- After region 7: its output array at that value, every other buffer as the region found it. -/
def U18 (c : Dev nD) : Valuation τ sig (Elt F) := Function.update (U17 m c) main_v96 (o18 m c)
theorem U18_out (c : Dev nD) : U18 m c main_v96 = o18 m c := by
  unfold U18; exact Function.update_self _ _ _
theorem U18_ne (c : Dev nD) (b : Ref sig .tc) (h : b ≠ main_v96) : U18 m c b = U17 m c b := by
  unfold U18; exact Function.update_of_ne (StableHlo.devRef_ne_of_ne h) _ _
/-- After the host stretch that follows region 7. -/
abbrev U19 : Dev nD → Valuation τ sig (Elt F) := fun c => StableHlo.after hostOps8 (U18 m c)

/-- What region 8 (the first encoder's first linear layer on the first permuted input) leaves in its output array: the array after every point's write-back. -/
def o20 (c : Dev nD) : Buf (Elt F) ((c : Thread nD τ).loc main_v112) := (dat8 (tcv (U19 m)) c).arrAt 3 cfg8.N
/-- After region 8: its output array at that value, every other buffer as the region found it. -/
def U20 (c : Dev nD) : Valuation τ sig (Elt F) := Function.update (U19 m c) main_v112 (o20 m c)
theorem U20_out (c : Dev nD) : U20 m c main_v112 = o20 m c := by
  unfold U20; exact Function.update_self _ _ _
theorem U20_ne (c : Dev nD) (b : Ref sig .tc) (h : b ≠ main_v112) : U20 m c b = U19 m c b := by
  unfold U20; exact Function.update_of_ne (StableHlo.devRef_ne_of_ne h) _ _
/-- After the host stretch that follows region 8. -/
abbrev U21 : Dev nD → Valuation τ sig (Elt F) := fun c => StableHlo.after hostOps9 (U20 m c)

/-- What region 9 (the first encoder's rectifier and second linear layer on the first permuted input) leaves in its output array: the array after every point's write-back. -/
def o22 (c : Dev nD) : Buf (Elt F) ((c : Thread nD τ).loc main_v128) := (dat9 (tcv (U21 m)) c).arrAt 4 cfg9.N
/-- After region 9: its output array at that value, every other buffer as the region found it. -/
def U22 (c : Dev nD) : Valuation τ sig (Elt F) := Function.update (U21 m c) main_v128 (o22 m c)
theorem U22_out (c : Dev nD) : U22 m c main_v128 = o22 m c := by
  unfold U22; exact Function.update_self _ _ _
theorem U22_ne (c : Dev nD) (b : Ref sig .tc) (h : b ≠ main_v128) : U22 m c b = U21 m c b := by
  unfold U22; exact Function.update_of_ne (StableHlo.devRef_ne_of_ne h) _ _
/-- After the host stretch that follows region 9. -/
abbrev U23 : Dev nD → Valuation τ sig (Elt F) := fun c => StableHlo.after hostOps10 (U22 m c)

/-- What region 10 (the first encoder's closing rectifier on the first permuted input) leaves in its output array: the array after every point's write-back. -/
def o24 (c : Dev nD) : Buf (Elt F) ((c : Thread nD τ).loc main_v143) := (dat10 (tcv (U23 m)) c).arrAt 2 cfg10.N
/-- After region 10: its output array at that value, every other buffer as the region found it. -/
def U24 (c : Dev nD) : Valuation τ sig (Elt F) := Function.update (U23 m c) main_v143 (o24 m c)
theorem U24_out (c : Dev nD) : U24 m c main_v143 = o24 m c := by
  unfold U24; exact Function.update_self _ _ _
theorem U24_ne (c : Dev nD) (b : Ref sig .tc) (h : b ≠ main_v143) : U24 m c b = U23 m c b := by
  unfold U24; exact Function.update_of_ne (StableHlo.devRef_ne_of_ne h) _ _
/-- After the host stretch that follows region 10. -/
abbrev U25 : Dev nD → Valuation τ sig (Elt F) := fun c => StableHlo.after hostOps11 (U24 m c)

/-- What region 11 (the second encoder's first linear layer on the second permuted input) leaves in its output array: the array after every point's write-back. -/
def o26 (c : Dev nD) : Buf (Elt F) ((c : Thread nD τ).loc main_v145) := (dat11 (tcv (U25 m)) c).arrAt 3 cfg11.N
/-- After region 11: its output array at that value, every other buffer as the region found it. -/
def U26 (c : Dev nD) : Valuation τ sig (Elt F) := Function.update (U25 m c) main_v145 (o26 m c)
theorem U26_out (c : Dev nD) : U26 m c main_v145 = o26 m c := by
  unfold U26; exact Function.update_self _ _ _
theorem U26_ne (c : Dev nD) (b : Ref sig .tc) (h : b ≠ main_v145) : U26 m c b = U25 m c b := by
  unfold U26; exact Function.update_of_ne (StableHlo.devRef_ne_of_ne h) _ _
/-- After the host stretch that follows region 11. -/
abbrev U27 : Dev nD → Valuation τ sig (Elt F) := fun c => StableHlo.after hostOps12 (U26 m c)

/-- What region 12 (the second encoder's rectifier and second linear layer on the second permuted input) leaves in its output array: the array after every point's write-back. -/
def o28 (c : Dev nD) : Buf (Elt F) ((c : Thread nD τ).loc main_v161) := (dat12 (tcv (U27 m)) c).arrAt 4 cfg12.N
/-- After region 12: its output array at that value, every other buffer as the region found it. -/
def U28 (c : Dev nD) : Valuation τ sig (Elt F) := Function.update (U27 m c) main_v161 (o28 m c)
theorem U28_out (c : Dev nD) : U28 m c main_v161 = o28 m c := by
  unfold U28; exact Function.update_self _ _ _
theorem U28_ne (c : Dev nD) (b : Ref sig .tc) (h : b ≠ main_v161) : U28 m c b = U27 m c b := by
  unfold U28; exact Function.update_of_ne (StableHlo.devRef_ne_of_ne h) _ _
/-- After the host stretch that follows region 12. -/
abbrev U29 : Dev nD → Valuation τ sig (Elt F) := fun c => StableHlo.after hostOps13 (U28 m c)

/-- What region 13 (the second encoder's closing rectifier on the second permuted input) leaves in its output array: the array after every point's write-back. -/
def o30 (c : Dev nD) : Buf (Elt F) ((c : Thread nD τ).loc main_v176) := (dat13 (tcv (U29 m)) c).arrAt 2 cfg13.N
/-- After region 13: its output array at that value, every other buffer as the region found it. -/
def U30 (c : Dev nD) : Valuation τ sig (Elt F) := Function.update (U29 m c) main_v176 (o30 m c)
theorem U30_out (c : Dev nD) : U30 m c main_v176 = o30 m c := by
  unfold U30; exact Function.update_self _ _ _
theorem U30_ne (c : Dev nD) (b : Ref sig .tc) (h : b ≠ main_v176) : U30 m c b = U29 m c b := by
  unfold U30; exact Function.update_of_ne (StableHlo.devRef_ne_of_ne h) _ _

/-! ## The generated chain at these outputs -/

/-- The regions' outputs, as the generated frame reads them: after item J−1, the boundary contents above. -/
def outs : Outs (F := F) := fun J r c => match J with
  | 4 => U4 m c r
  | 6 => U6 m c r
  | 8 => U8 m c r
  | 10 => U10 m c r
  | 12 => U12 m c r
  | 14 => U14 m c r
  | 16 => U16 m c r
  | 18 => U18 m c r
  | 20 => U20 m c r
  | 22 => U22 m c r
  | 24 => U24 m c r
  | 26 => U26 m c r
  | 28 => U28 m c r
  | 30 => U30 m c r
  | _ => U3 m c r

/-- The generated frame's boundary contents at these outputs are the ones above, boundary by boundary. -/
theorem V4_eq (c : Dev nD) : V4 m (outs m) c = U4 m c := by
  show Function.update (V3 m c) _ (U4 m c main_v28) = _
  rw [U4_out]; rfl
theorem V5_eq (c : Dev nD) : V5 m (outs m) c = U5 m c := by
  show StableHlo.after hostOps1 (V4 m (outs m) c) = _
  rw [V4_eq]
theorem V6_eq (c : Dev nD) : V6 m (outs m) c = U6 m c := by
  show Function.update (V5 m (outs m) c) _ (U6 m c main_v44) = _
  rw [V5_eq, U6_out]; rfl
theorem V7_eq (c : Dev nD) : V7 m (outs m) c = U7 m c := by
  show StableHlo.after hostOps2 (V6 m (outs m) c) = _
  rw [V6_eq]
theorem V8_eq (c : Dev nD) : V8 m (outs m) c = U8 m c := by
  show Function.update (V7 m (outs m) c) _ (U8 m c main_v59) = _
  rw [V7_eq, U8_out]; rfl
theorem V9_eq (c : Dev nD) : V9 m (outs m) c = U9 m c := by
  show StableHlo.after hostOps3 (V8 m (outs m) c) = _
  rw [V8_eq]
theorem V10_eq (c : Dev nD) : V10 m (outs m) c = U10 m c := by
  show Function.update (V9 m (outs m) c) _ (U10 m c main_v61) = _
  rw [V9_eq, U10_out]; rfl
theorem V11_eq (c : Dev nD) : V11 m (outs m) c = U11 m c := by
  show StableHlo.after hostOps4 (V10 m (outs m) c) = _
  rw [V10_eq]
theorem V12_eq (c : Dev nD) : V12 m (outs m) c = U12 m c := by
  show Function.update (V11 m (outs m) c) _ (U12 m c main_v77) = _
  rw [V11_eq, U12_out]; rfl
theorem V13_eq (c : Dev nD) : V13 m (outs m) c = U13 m c := by
  show StableHlo.after hostOps5 (V12 m (outs m) c) = _
  rw [V12_eq]
theorem V14_eq (c : Dev nD) : V14 m (outs m) c = U14 m c := by
  show Function.update (V13 m (outs m) c) _ (U14 m c main_v92) = _
  rw [V13_eq, U14_out]; rfl
theorem V15_eq (c : Dev nD) : V15 m (outs m) c = U15 m c := by
  show StableHlo.after hostOps6 (V14 m (outs m) c) = _
  rw [V14_eq]
theorem V16_eq (c : Dev nD) : V16 m (outs m) c = U16 m c := by
  show Function.update (V15 m (outs m) c) _ (U16 m c main_v94) = _
  rw [V15_eq, U16_out]; rfl
theorem V17_eq (c : Dev nD) : V17 m (outs m) c = U17 m c := by
  show StableHlo.after hostOps7 (V16 m (outs m) c) = _
  rw [V16_eq]
theorem V18_eq (c : Dev nD) : V18 m (outs m) c = U18 m c := by
  show Function.update (V17 m (outs m) c) _ (U18 m c main_v96) = _
  rw [V17_eq, U18_out]; rfl
theorem V19_eq (c : Dev nD) : V19 m (outs m) c = U19 m c := by
  show StableHlo.after hostOps8 (V18 m (outs m) c) = _
  rw [V18_eq]
theorem V20_eq (c : Dev nD) : V20 m (outs m) c = U20 m c := by
  show Function.update (V19 m (outs m) c) _ (U20 m c main_v112) = _
  rw [V19_eq, U20_out]; rfl
theorem V21_eq (c : Dev nD) : V21 m (outs m) c = U21 m c := by
  show StableHlo.after hostOps9 (V20 m (outs m) c) = _
  rw [V20_eq]
theorem V22_eq (c : Dev nD) : V22 m (outs m) c = U22 m c := by
  show Function.update (V21 m (outs m) c) _ (U22 m c main_v128) = _
  rw [V21_eq, U22_out]; rfl
theorem V23_eq (c : Dev nD) : V23 m (outs m) c = U23 m c := by
  show StableHlo.after hostOps10 (V22 m (outs m) c) = _
  rw [V22_eq]
theorem V24_eq (c : Dev nD) : V24 m (outs m) c = U24 m c := by
  show Function.update (V23 m (outs m) c) _ (U24 m c main_v143) = _
  rw [V23_eq, U24_out]; rfl
theorem V25_eq (c : Dev nD) : V25 m (outs m) c = U25 m c := by
  show StableHlo.after hostOps11 (V24 m (outs m) c) = _
  rw [V24_eq]
theorem V26_eq (c : Dev nD) : V26 m (outs m) c = U26 m c := by
  show Function.update (V25 m (outs m) c) _ (U26 m c main_v145) = _
  rw [V25_eq, U26_out]; rfl
theorem V27_eq (c : Dev nD) : V27 m (outs m) c = U27 m c := by
  show StableHlo.after hostOps12 (V26 m (outs m) c) = _
  rw [V26_eq]
theorem V28_eq (c : Dev nD) : V28 m (outs m) c = U28 m c := by
  show Function.update (V27 m (outs m) c) _ (U28 m c main_v161) = _
  rw [V27_eq, U28_out]; rfl
theorem V29_eq (c : Dev nD) : V29 m (outs m) c = U29 m c := by
  show StableHlo.after hostOps13 (V28 m (outs m) c) = _
  rw [V28_eq]
theorem V30_eq (c : Dev nD) : V30 m (outs m) c = U30 m c := by
  show Function.update (V29 m (outs m) c) _ (U30 m c main_v176) = _
  rw [V29_eq, U30_out]; rfl

end Cert.Kernel.Hand

end
-- ==== Proof.K.RecBase.lean ====
/-
  What the fourteen regions' segment records of the kernel program share: the family of the regions' proof data, each at
  the contents its region is entered from, and what rides beside the buffers through every item of the main function.
-/
import proofs.«113219_j18691697672631_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] (m : (ℓ : Loc nD τ sig) → Buf (Elt F) ℓ)

local notation "𝕄" => MT nD τ sig Unit (Elt F) ℕ (UR sig nD τ) ℕ

/-! ## The proof data family and what rides beside the buffers -/

/-- The prefetched tables' admissible contents: no region has a table. -/
abbrev adm14 : (p : Fin 14) → (pcfgs (F := F) p).Adm := fun p => (cfgs p).toPCfg_adm

/-- Every region's proof data, each at the contents its region is entered from. -/
def pdats : (p : Fin 14) → (c : Dev nD) → Dat τ (Elt F) Unit ℕ (UR sig nD τ) ℕ (cfgs p) c
  | ⟨0, _⟩ => fun c => dat0 (tcv (U3 m)) c
  | ⟨1, _⟩ => fun c => dat1 (tcv (U5 m)) c
  | ⟨2, _⟩ => fun c => dat2 (tcv (U7 m)) c
  | ⟨3, _⟩ => fun c => dat3 (tcv (U9 m)) c
  | ⟨4, _⟩ => fun c => dat4 (tcv (U11 m)) c
  | ⟨5, _⟩ => fun c => dat5 (tcv (U13 m)) c
  | ⟨6, _⟩ => fun c => dat6 (tcv (U15 m)) c
  | ⟨7, _⟩ => fun c => dat7 (tcv (U17 m)) c
  | ⟨8, _⟩ => fun c => dat8 (tcv (U19 m)) c
  | ⟨9, _⟩ => fun c => dat9 (tcv (U21 m)) c
  | ⟨10, _⟩ => fun c => dat10 (tcv (U23 m)) c
  | ⟨11, _⟩ => fun c => dat11 (tcv (U25 m)) c
  | ⟨12, _⟩ => fun c => dat12 (tcv (U27 m)) c
  | ⟨13, _⟩ => fun c => dat13 (tcv (U29 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

end Cert.Kernel.Hand

end
-- ==== Proof.K.Rec0.lean ====
/-
  Region 0 of the kernel program (the first encoder's first linear layer) as a segment of the main function: entered
  with every unscoped buffer of the core at the contents before the region, left with them at the contents after it,
  which differ at the region's output array only.
-/
import proofs.«113219_j18691697672631_1_alg».proof.Proof.K.RecBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] (m : (ℓ : Loc nD τ sig) → Buf (Elt F) ℓ)

local notation "𝕄" => MT nD τ sig Unit (Elt F) ℕ (UR sig nD τ) ℕ

set_option maxHeartbeats 1000000 in
/-- At region 0's exit each of its arrays holds what the pipeline leaves: an input's array what it held on entry, the
    output's the array after every point's write-back. -/
theorem hF0 (c : Dev nD) (w : Fin cfg0.W) : (dat0 (tcv (U3 m)) c).arrAt w cfg0.N = tcv (U4 m) c (Pipeline.arrRef spec0 w) := by
  fin_cases w
  · exact ((dat0 (tcv (U3 m)) c).arrAt_in 0 rfl _).trans ((A_eq0 (tcv (U3 m)) c 0).trans (U4_ne m c main_arg0 (by decide)).symm)
  · exact ((dat0 (tcv (U3 m)) c).arrAt_in 1 rfl _).trans ((A_eq0 (tcv (U3 m)) c 1).trans (U4_ne m c main_arg5 (by decide)).symm)
  · exact ((dat0 (tcv (U3 m)) c).arrAt_in 2 rfl _).trans ((A_eq0 (tcv (U3 m)) c 2).trans (U4_ne m c main_v27 (by decide)).symm)
  · exact (U4_out m c).symm
/-- Every buffer that is none of region 0's arrays holds at its exit what it held on entry. -/
theorem hrest0 (c : Dev nD) : ∀ b, b ∉ Finset.univ.image (Pipeline.arrRef spec0) → tcv (U4 m) c b = tcv (U3 m) c b :=
  fun b hb => U4_ne m c b fun h => hb (h ▸ Finset.mem_image.mpr ⟨3, Finset.mem_univ _, rfl⟩)

-- applying a library lemma stated over the pinned configuration unifies with the printed one only when unification may
-- unfold plain definitions in a metavariable's type
set_option backward.isDefEq.respectTransparency.types false in
set_option maxHeartbeats 1000000 in
/-- Region 0 (the first encoder's first linear layer) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (tcv (U3 m)) c).loose
  hwaits := Pipeline.hwaits_of_owed_zero _ _ _ _ L lv 0 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (tcv (U3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (tcv (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tcv (U3 m) c) (tcv (U4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Rec1.lean ====
/-
  Region 1 of the kernel program (the first encoder's rectifier and second linear layer) as a segment of the main
  function: entered with every unscoped buffer of the core at the contents before the region, left with them at the
  contents after it, which differ at the region's output array only.
-/
import proofs.«113219_j18691697672631_1_alg».proof.Proof.K.RecBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] (m : (ℓ : Loc nD τ sig) → Buf (Elt F) ℓ)

local notation "𝕄" => MT nD τ sig Unit (Elt F) ℕ (UR sig nD τ) ℕ

set_option maxHeartbeats 1000000 in
/-- At region 1's exit each of its arrays holds what the pipeline leaves: an input's array what it held on entry, the
    output's the array after every point's write-back. -/
theorem hF1 (c : Dev nD) (w : Fin cfg1.W) : (dat1 (tcv (U5 m)) c).arrAt w cfg1.N = tcv (U6 m) c (Pipeline.arrRef spec1 w) := by
  fin_cases w
  · exact ((dat1 (tcv (U5 m)) c).arrAt_in 0 rfl _).trans ((A_eq1 (tcv (U5 m)) c 0).trans (U6_ne m c main_v41 (by decide)).symm)
  · exact ((dat1 (tcv (U5 m)) c).arrAt_in 1 rfl _).trans ((A_eq1 (tcv (U5 m)) c 1).trans (U6_ne m c main_v42 (by decide)).symm)
  · exact ((dat1 (tcv (U5 m)) c).arrAt_in 2 rfl _).trans ((A_eq1 (tcv (U5 m)) c 2).trans (U6_ne m c main_arg7 (by decide)).symm)
  · exact ((dat1 (tcv (U5 m)) c).arrAt_in 3 rfl _).trans ((A_eq1 (tcv (U5 m)) c 3).trans (U6_ne m c main_v43 (by decide)).symm)
  · exact (U6_out m c).symm
/-- Every buffer that is none of region 1's arrays holds at its exit what it held on entry. -/
theorem hrest1 (c : Dev nD) : ∀ b, b ∉ Finset.univ.image (Pipeline.arrRef spec1) → tcv (U6 m) c b = tcv (U5 m) c b :=
  fun b hb => U6_ne m c b fun h => hb (h ▸ Finset.mem_image.mpr ⟨4, Finset.mem_univ _, rfl⟩)

-- applying a library lemma stated over the pinned configuration unifies with the printed one only when unification may
-- unfold plain definitions in a metavariable's type
set_option backward.isDefEq.respectTransparency.types false in
set_option maxHeartbeats 1000000 in
/-- Region 1 (the first encoder's rectifier and second linear layer) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tcv (U5 m)) c).loose
  hwaits := Pipeline.hwaits_of_owed_zero _ _ _ _ L lv 1 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec1 c (tcv (U5 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (tcv (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (tcv (U5 m) c) (tcv (U6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Rec2.lean ====
/-
  Region 2 of the kernel program (the first encoder's closing rectifier) as a segment of the main function: entered
  with every unscoped buffer of the core at the contents before the region, left with them at the contents after it,
  which differ at the region's output array only.
-/
import proofs.«113219_j18691697672631_1_alg».proof.Proof.K.RecBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] (m : (ℓ : Loc nD τ sig) → Buf (Elt F) ℓ)

local notation "𝕄" => MT nD τ sig Unit (Elt F) ℕ (UR sig nD τ) ℕ

set_option maxHeartbeats 1000000 in
/-- At region 2's exit each of its arrays holds what the pipeline leaves: an input's array what it held on entry, the
    output's the array after every point's write-back. -/
theorem hF2 (c : Dev nD) (w : Fin cfg2.W) : (dat2 (tcv (U7 m)) c).arrAt w cfg2.N = tcv (U8 m) c (Pipeline.arrRef spec2 w) := by
  fin_cases w
  · exact ((dat2 (tcv (U7 m)) c).arrAt_in 0 rfl _).trans ((A_eq2 (tcv (U7 m)) c 0).trans (U8_ne m c main_v57 (by decide)).symm)
  · exact ((dat2 (tcv (U7 m)) c).arrAt_in 1 rfl _).trans ((A_eq2 (tcv (U7 m)) c 1).trans (U8_ne m c main_v58 (by decide)).symm)
  · exact (U8_out m c).symm
/-- Every buffer that is none of region 2's arrays holds at its exit what it held on entry. -/
theorem hrest2 (c : Dev nD) : ∀ b, b ∉ Finset.univ.image (Pipeline.arrRef spec2) → tcv (U8 m) c b = tcv (U7 m) c b :=
  fun b hb => U8_ne m c b fun h => hb (h ▸ Finset.mem_image.mpr ⟨2, Finset.mem_univ _, rfl⟩)

-- applying a library lemma stated over the pinned configuration unifies with the printed one only when unification may
-- unfold plain definitions in a metavariable's type
set_option backward.isDefEq.respectTransparency.types false in
set_option maxHeartbeats 1000000 in
/-- Region 2 (the first encoder's closing rectifier) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (tcv (U7 m)) c).loose
  hwaits := Pipeline.hwaits_of_owed_zero _ _ _ _ L lv 2 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec2 c (tcv (U7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (tcv (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (tcv (U7 m) c) (tcv (U8 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Rec3.lean ====
/-
  Region 3 of the kernel program (the second encoder's first linear layer) as a segment of the main function: entered
  with every unscoped buffer of the core at the contents before the region, left with them at the contents after it,
  which differ at the region's output array only.
-/
import proofs.«113219_j18691697672631_1_alg».proof.Proof.K.RecBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] (m : (ℓ : Loc nD τ sig) → Buf (Elt F) ℓ)

local notation "𝕄" => MT nD τ sig Unit (Elt F) ℕ (UR sig nD τ) ℕ

set_option maxHeartbeats 1000000 in
/-- At region 3's exit each of its arrays holds what the pipeline leaves: an input's array what it held on entry, the
    output's the array after every point's write-back. -/
theorem hF3 (c : Dev nD) (w : Fin cfg3.W) : (dat3 (tcv (U9 m)) c).arrAt w cfg3.N = tcv (U10 m) c (Pipeline.arrRef spec3 w) := by
  fin_cases w
  · exact ((dat3 (tcv (U9 m)) c).arrAt_in 0 rfl _).trans ((A_eq3 (tcv (U9 m)) c 0).trans (U10_ne m c main_arg0 (by decide)).symm)
  · exact ((dat3 (tcv (U9 m)) c).arrAt_in 1 rfl _).trans ((A_eq3 (tcv (U9 m)) c 1).trans (U10_ne m c main_arg10 (by decide)).symm)
  · exact ((dat3 (tcv (U9 m)) c).arrAt_in 2 rfl _).trans ((A_eq3 (tcv (U9 m)) c 2).trans (U10_ne m c main_v60 (by decide)).symm)
  · exact (U10_out m c).symm
/-- Every buffer that is none of region 3's arrays holds at its exit what it held on entry. -/
theorem hrest3 (c : Dev nD) : ∀ b, b ∉ Finset.univ.image (Pipeline.arrRef spec3) → tcv (U10 m) c b = tcv (U9 m) c b :=
  fun b hb => U10_ne m c b fun h => hb (h ▸ Finset.mem_image.mpr ⟨3, Finset.mem_univ _, rfl⟩)

-- applying a library lemma stated over the pinned configuration unifies with the printed one only when unification may
-- unfold plain definitions in a metavariable's type
set_option backward.isDefEq.respectTransparency.types false in
set_option maxHeartbeats 1000000 in
/-- Region 3 (the second encoder's first linear layer) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (tcv (U9 m)) c).loose
  hwaits := Pipeline.hwaits_of_owed_zero _ _ _ _ L lv 3 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec3 c (tcv (U9 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (tcv (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (tcv (U9 m) c) (tcv (U10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Rec4.lean ====
/-
  Region 4 of the kernel program (the second encoder's rectifier and second linear layer) as a segment of the main
  function: entered with every unscoped buffer of the core at the contents before the region, left with them at the
  contents after it, which differ at the region's output array only.
-/
import proofs.«113219_j18691697672631_1_alg».proof.Proof.K.RecBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] (m : (ℓ : Loc nD τ sig) → Buf (Elt F) ℓ)

local notation "𝕄" => MT nD τ sig Unit (Elt F) ℕ (UR sig nD τ) ℕ

set_option maxHeartbeats 1000000 in
/-- At region 4's exit each of its arrays holds what the pipeline leaves: an input's array what it held on entry, the
    output's the array after every point's write-back. -/
theorem hF4 (c : Dev nD) (w : Fin cfg4.W) : (dat4 (tcv (U11 m)) c).arrAt w cfg4.N = tcv (U12 m) c (Pipeline.arrRef spec4 w) := by
  fin_cases w
  · exact ((dat4 (tcv (U11 m)) c).arrAt_in 0 rfl _).trans ((A_eq4 (tcv (U11 m)) c 0).trans (U12_ne m c main_v74 (by decide)).symm)
  · exact ((dat4 (tcv (U11 m)) c).arrAt_in 1 rfl _).trans ((A_eq4 (tcv (U11 m)) c 1).trans (U12_ne m c main_v75 (by decide)).symm)
  · exact ((dat4 (tcv (U11 m)) c).arrAt_in 2 rfl _).trans ((A_eq4 (tcv (U11 m)) c 2).trans (U12_ne m c main_arg12 (by decide)).symm)
  · exact ((dat4 (tcv (U11 m)) c).arrAt_in 3 rfl _).trans ((A_eq4 (tcv (U11 m)) c 3).trans (U12_ne m c main_v76 (by decide)).symm)
  · exact (U12_out m c).symm
/-- Every buffer that is none of region 4's arrays holds at its exit what it held on entry. -/
theorem hrest4 (c : Dev nD) : ∀ b, b ∉ Finset.univ.image (Pipeline.arrRef spec4) → tcv (U12 m) c b = tcv (U11 m) c b :=
  fun b hb => U12_ne m c b fun h => hb (h ▸ Finset.mem_image.mpr ⟨4, Finset.mem_univ _, rfl⟩)

-- applying a library lemma stated over the pinned configuration unifies with the printed one only when unification may
-- unfold plain definitions in a metavariable's type
set_option backward.isDefEq.respectTransparency.types false in
set_option maxHeartbeats 1000000 in
/-- Region 4 (the second encoder's rectifier and second linear layer) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (tcv (U11 m)) c).loose
  hwaits := Pipeline.hwaits_of_owed_zero _ _ _ _ L lv 4 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec4 c (tcv (U11 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (tcv (U11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (tcv (U11 m) c) (tcv (U12 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Rec5.lean ====
/-
  Region 5 of the kernel program (the second encoder's closing rectifier) as a segment of the main function: entered
  with every unscoped buffer of the core at the contents before the region, left with them at the contents after it,
  which differ at the region's output array only.
-/
import proofs.«113219_j18691697672631_1_alg».proof.Proof.K.RecBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] (m : (ℓ : Loc nD τ sig) → Buf (Elt F) ℓ)

local notation "𝕄" => MT nD τ sig Unit (Elt F) ℕ (UR sig nD τ) ℕ

set_option maxHeartbeats 1000000 in
/-- At region 5's exit each of its arrays holds what the pipeline leaves: an input's array what it held on entry, the
    output's the array after every point's write-back. -/
theorem hF5 (c : Dev nD) (w : Fin cfg5.W) : (dat5 (tcv (U13 m)) c).arrAt w cfg5.N = tcv (U14 m) c (Pipeline.arrRef spec5 w) := by
  fin_cases w
  · exact ((dat5 (tcv (U13 m)) c).arrAt_in 0 rfl _).trans ((A_eq5 (tcv (U13 m)) c 0).trans (U14_ne m c main_v90 (by decide)).symm)
  · exact ((dat5 (tcv (U13 m)) c).arrAt_in 1 rfl _).trans ((A_eq5 (tcv (U13 m)) c 1).trans (U14_ne m c main_v91 (by decide)).symm)
  · exact (U14_out m c).symm
/-- Every buffer that is none of region 5's arrays holds at its exit what it held on entry. -/
theorem hrest5 (c : Dev nD) : ∀ b, b ∉ Finset.univ.image (Pipeline.arrRef spec5) → tcv (U14 m) c b = tcv (U13 m) c b :=
  fun b hb => U14_ne m c b fun h => hb (h ▸ Finset.mem_image.mpr ⟨2, Finset.mem_univ _, rfl⟩)

-- applying a library lemma stated over the pinned configuration unifies with the printed one only when unification may
-- unfold plain definitions in a metavariable's type
set_option backward.isDefEq.respectTransparency.types false in
set_option maxHeartbeats 1000000 in
/-- Region 5 (the second encoder's closing rectifier) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (tcv (U13 m)) c).loose
  hwaits := Pipeline.hwaits_of_owed_zero _ _ _ _ L lv 5 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec5 c (tcv (U13 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (tcv (U13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (tcv (U13 m) c) (tcv (U14 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Rec8.lean ====
/-
  Region 8 of the kernel program (the first encoder's first linear layer on the first permuted input) as a segment of
  the main function: entered with every unscoped buffer of the core at the contents before the region, left with them
  at the contents after it, which differ at the region's output array only.
-/
import proofs.«113219_j18691697672631_1_alg».proof.Proof.K.RecBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] (m : (ℓ : Loc nD τ sig) → Buf (Elt F) ℓ)

local notation "𝕄" => MT nD τ sig Unit (Elt F) ℕ (UR sig nD τ) ℕ

set_option maxHeartbeats 1000000 in
/-- At region 8's exit each of its arrays holds what the pipeline leaves: an input's array what it held on entry, the
    output's the array after every point's write-back. -/
theorem hF8 (c : Dev nD) (w : Fin cfg8.W) : (dat8 (tcv (U19 m)) c).arrAt w cfg8.N = tcv (U20 m) c (Pipeline.arrRef spec8 w) := by
  fin_cases w
  · exact ((dat8 (tcv (U19 m)) c).arrAt_in 0 rfl _).trans ((A_eq8 (tcv (U19 m)) c 0).trans (U20_ne m c main_v103 (by decide)).symm)
  · exact ((dat8 (tcv (U19 m)) c).arrAt_in 1 rfl _).trans ((A_eq8 (tcv (U19 m)) c 1).trans (U20_ne m c main_arg5 (by decide)).symm)
  · exact ((dat8 (tcv (U19 m)) c).arrAt_in 2 rfl _).trans ((A_eq8 (tcv (U19 m)) c 2).trans (U20_ne m c main_v111 (by decide)).symm)
  · exact (U20_out m c).symm
/-- Every buffer that is none of region 8's arrays holds at its exit what it held on entry. -/
theorem hrest8 (c : Dev nD) : ∀ b, b ∉ Finset.univ.image (Pipeline.arrRef spec8) → tcv (U20 m) c b = tcv (U19 m) c b :=
  fun b hb => U20_ne m c b fun h => hb (h ▸ Finset.mem_image.mpr ⟨3, Finset.mem_univ _, rfl⟩)

-- applying a library lemma stated over the pinned configuration unifies with the printed one only when unification may
-- unfold plain definitions in a metavariable's type
set_option backward.isDefEq.respectTransparency.types false in
set_option maxHeartbeats 1000000 in
/-- Region 8 (the first encoder's first linear layer on the first permuted input) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg8 : RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (tcv (U19 m)) c).loose
  hwaits := Pipeline.hwaits_of_owed_zero _ _ _ _ L lv 8 fun _ _ => rfl
  pre c := iprop(StableHlo.held (c : Thread nD τ) (Pipeline.ucRefs τ sig) (U19 m c) ∗ R c)
  post c := iprop(StableHlo.held (c : Thread nD τ) (Pipeline.ucRefs τ sig) (U20 m c) ∗ R c)
  X c := iprop(∃ r, prngReg c r)
  Y c := iprop(∃ r, prngReg c r)
  Z c := Pipeline.unscopedRest (Ix := Unit) (Name := ℕ) (U := UR sig nD τ) (Lvl := ℕ) spec8 c (tcv (U19 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (tcv (U19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (tcv (U19 m) c) (tcv (U20 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Rec9.lean ====
/-
  Region 9 of the kernel program (the first encoder's rectifier and second linear layer on the first permuted input)
  as a segment of the main function: entered with every unscoped buffer of the core at the contents before the region,
  left with them at the contents after it, which differ at the region's output array only.
-/
import proofs.«113219_j18691697672631_1_alg».proof.Proof.K.RecBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] (m : (ℓ : Loc nD τ sig) → Buf (Elt F) ℓ)

local notation "𝕄" => MT nD τ sig Unit (Elt F) ℕ (UR sig nD τ) ℕ

set_option maxHeartbeats 1000000 in
/-- At region 9's exit each of its arrays holds what the pipeline leaves: an input's array what it held on entry, the
    output's the array after every point's write-back. -/
theorem hF9 (c : Dev nD) (w : Fin cfg9.W) : (dat9 (tcv (U21 m)) c).arrAt w cfg9.N = tcv (U22 m) c (Pipeline.arrRef spec9 w) := by
  fin_cases w
  · exact ((dat9 (tcv (U21 m)) c).arrAt_in 0 rfl _).trans ((A_eq9 (tcv (U21 m)) c 0).trans (U22_ne m c main_v125 (by decide)).symm)
  · exact ((dat9 (tcv (U21 m)) c).arrAt_in 1 rfl _).trans ((A_eq9 (tcv (U21 m)) c 1).trans (U22_ne m c main_v126 (by decide)).symm)
  · exact ((dat9 (tcv (U21 m)) c).arrAt_in 2 rfl _).trans ((A_eq9 (tcv (U21 m)) c 2).trans (U22_ne m c main_arg7 (by decide)).symm)
  · exact ((dat9 (tcv (U21 m)) c).arrAt_in 3 rfl _).trans ((A_eq9 (tcv (U21 m)) c 3).trans (U22_ne m c main_v127 (by decide)).symm)
  · exact (U22_out m c).symm
/-- Every buffer that is none of region 9's arrays holds at its exit what it held on entry. -/
theorem hrest9 (c : Dev nD) : ∀ b, b ∉ Finset.univ.image (Pipeline.arrRef spec9) → tcv (U22 m) c b = tcv (U21 m) c b :=
  fun b hb => U22_ne m c b fun h => hb (h ▸ Finset.mem_image.mpr ⟨4, Finset.mem_univ _, rfl⟩)

-- applying a library lemma stated over the pinned configuration unifies with the printed one only when unification may
-- unfold plain definitions in a metavariable's type
set_option backward.isDefEq.respectTransparency.types false in
set_option maxHeartbeats 1000000 in
/-- Region 9 (the first encoder's rectifier and second linear layer on the first permuted input) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg9 : RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (tcv (U21 m)) c).loose
  hwaits := Pipeline.hwaits_of_owed_zero _ _ _ _ L lv 9 fun _ _ => rfl
  pre c := iprop(StableHlo.held (c : Thread nD τ) (Pipeline.ucRefs τ sig) (U21 m c) ∗ R c)
  post c := iprop(StableHlo.held (c : Thread nD τ) (Pipeline.ucRefs τ sig) (U22 m c) ∗ R c)
  X c := iprop(∃ r, prngReg c r)
  Y c := iprop(∃ r, prngReg c r)
  Z c := Pipeline.unscopedRest (Ix := Unit) (Name := ℕ) (U := UR sig nD τ) (Lvl := ℕ) spec9 c (tcv (U21 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (tcv (U21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (tcv (U21 m) c) (tcv (U22 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Rec10.lean ====
/-
  Region 10 of the kernel program (the first encoder's closing rectifier on the first permuted input) as a segment of
  the main function: entered with every unscoped buffer of the core at the contents before the region, left with them
  at the contents after it, which differ at the region's output array only.
-/
import proofs.«113219_j18691697672631_1_alg».proof.Proof.K.RecBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] (m : (ℓ : Loc nD τ sig) → Buf (Elt F) ℓ)

local notation "𝕄" => MT nD τ sig Unit (Elt F) ℕ (UR sig nD τ) ℕ

set_option maxHeartbeats 1000000 in
/-- At region 10's exit each of its arrays holds what the pipeline leaves: an input's array what it held on entry, the
    output's the array after every point's write-back. -/
theorem hF10 (c : Dev nD) (w : Fin cfg10.W) : (dat10 (tcv (U23 m)) c).arrAt w cfg10.N = tcv (U24 m) c (Pipeline.arrRef spec10 w) := by
  fin_cases w
  · exact ((dat10 (tcv (U23 m)) c).arrAt_in 0 rfl _).trans ((A_eq10 (tcv (U23 m)) c 0).trans (U24_ne m c main_v141 (by decide)).symm)
  · exact ((dat10 (tcv (U23 m)) c).arrAt_in 1 rfl _).trans ((A_eq10 (tcv (U23 m)) c 1).trans (U24_ne m c main_v142 (by decide)).symm)
  · exact (U24_out m c).symm
/-- Every buffer that is none of region 10's arrays holds at its exit what it held on entry. -/
theorem hrest10 (c : Dev nD) : ∀ b, b ∉ Finset.univ.image (Pipeline.arrRef spec10) → tcv (U24 m) c b = tcv (U23 m) c b :=
  fun b hb => U24_ne m c b fun h => hb (h ▸ Finset.mem_image.mpr ⟨2, Finset.mem_univ _, rfl⟩)

-- applying a library lemma stated over the pinned configuration unifies with the printed one only when unification may
-- unfold plain definitions in a metavariable's type
set_option backward.isDefEq.respectTransparency.types false in
set_option maxHeartbeats 1000000 in
/-- Region 10 (the first encoder's closing rectifier on the first permuted input) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg10 : RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (tcv (U23 m)) c).loose
  hwaits := Pipeline.hwaits_of_owed_zero _ _ _ _ L lv 10 fun _ _ => rfl
  pre c := iprop(StableHlo.held (c : Thread nD τ) (Pipeline.ucRefs τ sig) (U23 m c) ∗ R c)
  post c := iprop(StableHlo.held (c : Thread nD τ) (Pipeline.ucRefs τ sig) (U24 m c) ∗ R c)
  X c := iprop(∃ r, prngReg c r)
  Y c := iprop(∃ r, prngReg c r)
  Z c := Pipeline.unscopedRest (Ix := Unit) (Name := ℕ) (U := UR sig nD τ) (Lvl := ℕ) spec10 c (tcv (U23 m) c)
  hentry c := by
    rw [Pipeline.ownSems0_none]
    have hsplit := Pipeline.arrays_of_unscopedBufs (p := 10) (pcfgs (F := F)) adm (pdats m) launch10.win launch10.arr_whole c
      ((pdats m 10 c).share_full fun _ => rfl) (tcv (U23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (tcv (U23 m) c) (tcv (U24 m) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Rec11.lean ====
/-
  Region 11 of the kernel program (the second encoder's first linear layer on the second permuted input) as a segment
  of the main function: entered with every unscoped buffer of the core at the contents before the region, left with
  them at the contents after it, which differ at the region's output array only.
-/
import proofs.«113219_j18691697672631_1_alg».proof.Proof.K.RecBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] (m : (ℓ : Loc nD τ sig) → Buf (Elt F) ℓ)

local notation "𝕄" => MT nD τ sig Unit (Elt F) ℕ (UR sig nD τ) ℕ

set_option maxHeartbeats 1000000 in
/-- At region 11's exit each of its arrays holds what the pipeline leaves: an input's array what it held on entry, the
    output's the array after every point's write-back. -/
theorem hF11 (c : Dev nD) (w : Fin cfg11.W) : (dat11 (tcv (U25 m)) c).arrAt w cfg11.N = tcv (U26 m) c (Pipeline.arrRef spec11 w) := by
  fin_cases w
  · exact ((dat11 (tcv (U25 m)) c).arrAt_in 0 rfl _).trans ((A_eq11 (tcv (U25 m)) c 0).trans (U26_ne m c main_v110 (by decide)).symm)
  · exact ((dat11 (tcv (U25 m)) c).arrAt_in 1 rfl _).trans ((A_eq11 (tcv (U25 m)) c 1).trans (U26_ne m c main_arg10 (by decide)).symm)
  · exact ((dat11 (tcv (U25 m)) c).arrAt_in 2 rfl _).trans ((A_eq11 (tcv (U25 m)) c 2).trans (U26_ne m c main_v144 (by decide)).symm)
  · exact (U26_out m c).symm
/-- Every buffer that is none of region 11's arrays holds at its exit what it held on entry. -/
theorem hrest11 (c : Dev nD) : ∀ b, b ∉ Finset.univ.image (Pipeline.arrRef spec11) → tcv (U26 m) c b = tcv (U25 m) c b :=
  fun b hb => U26_ne m c b fun h => hb (h ▸ Finset.mem_image.mpr ⟨3, Finset.mem_univ _, rfl⟩)

-- applying a library lemma stated over the pinned configuration unifies with the printed one only when unification may
-- unfold plain definitions in a metavariable's type
set_option backward.isDefEq.respectTransparency.types false in
set_option maxHeartbeats 1000000 in
/-- Region 11 (the second encoder's first linear layer on the second permuted input) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg11 : RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (tcv (U25 m)) c).loose
  hwaits := Pipeline.hwaits_of_owed_zero _ _ _ _ L lv 11 fun _ _ => rfl
  pre c := iprop(StableHlo.held (c : Thread nD τ) (Pipeline.ucRefs τ sig) (U25 m c) ∗ R c)
  post c := iprop(StableHlo.held (c : Thread nD τ) (Pipeline.ucRefs τ sig) (U26 m c) ∗ R c)
  X c := iprop(∃ r, prngReg c r)
  Y c := iprop(∃ r, prngReg c r)
  Z c := Pipeline.unscopedRest (Ix := Unit) (Name := ℕ) (U := UR sig nD τ) (Lvl := ℕ) spec11 c (tcv (U25 m) c)
  hentry c := by
    rw [Pipeline.ownSems0_none]
    have hsplit := Pipeline.arrays_of_unscopedBufs (p := 11) (pcfgs (F := F)) adm (pdats m) launch11.win launch11.arr_whole c
      ((pdats m 11 c).share_full fun _ => rfl) (tcv (U25 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (tcv (U25 m) c) (tcv (U26 m) c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Rec12.lean ====
/-
  Region 12 of the kernel program (the second encoder's rectifier and second linear layer on the second permuted
  input) as a segment of the main function: entered with every unscoped buffer of the core at the contents before the
  region, left with them at the contents after it, which differ at the region's output array only.
-/
import proofs.«113219_j18691697672631_1_alg».proof.Proof.K.RecBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] (m : (ℓ : Loc nD τ sig) → Buf (Elt F) ℓ)

local notation "𝕄" => MT nD τ sig Unit (Elt F) ℕ (UR sig nD τ) ℕ

set_option maxHeartbeats 1000000 in
/-- At region 12's exit each of its arrays holds what the pipeline leaves: an input's array what it held on entry, the
    output's the array after every point's write-back. -/
theorem hF12 (c : Dev nD) (w : Fin cfg12.W) : (dat12 (tcv (U27 m)) c).arrAt w cfg12.N = tcv (U28 m) c (Pipeline.arrRef spec12 w) := by
  fin_cases w
  · exact ((dat12 (tcv (U27 m)) c).arrAt_in 0 rfl _).trans ((A_eq12 (tcv (U27 m)) c 0).trans (U28_ne m c main_v158 (by decide)).symm)
  · exact ((dat12 (tcv (U27 m)) c).arrAt_in 1 rfl _).trans ((A_eq12 (tcv (U27 m)) c 1).trans (U28_ne m c main_v159 (by decide)).symm)
  · exact ((dat12 (tcv (U27 m)) c).arrAt_in 2 rfl _).trans ((A_eq12 (tcv (U27 m)) c 2).trans (U28_ne m c main_arg12 (by decide)).symm)
  · exact ((dat12 (tcv (U27 m)) c).arrAt_in 3 rfl _).trans ((A_eq12 (tcv (U27 m)) c 3).trans (U28_ne m c main_v160 (by decide)).symm)
  · exact (U28_out m c).symm
/-- Every buffer that is none of region 12's arrays holds at its exit what it held on entry. -/
theorem hrest12 (c : Dev nD) : ∀ b, b ∉ Finset.univ.image (Pipeline.arrRef spec12) → tcv (U28 m) c b = tcv (U27 m) c b :=
  fun b hb => U28_ne m c b fun h => hb (h ▸ Finset.mem_image.mpr ⟨4, Finset.mem_univ _, rfl⟩)

-- applying a library lemma stated over the pinned configuration unifies with the printed one only when unification may
-- unfold plain definitions in a metavariable's type
set_option backward.isDefEq.respectTransparency.types false in
set_option maxHeartbeats 1000000 in
/-- Region 12 (the second encoder's rectifier and second linear layer on the second permuted input) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg12 : RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (tcv (U27 m)) c).loose
  hwaits := Pipeline.hwaits_of_owed_zero _ _ _ _ L lv 12 fun _ _ => rfl
  pre c := iprop(StableHlo.held (c : Thread nD τ) (Pipeline.ucRefs τ sig) (U27 m c) ∗ R c)
  post c := iprop(StableHlo.held (c : Thread nD τ) (Pipeline.ucRefs τ sig) (U28 m c) ∗ R c)
  X c := iprop(∃ r, prngReg c r)
  Y c := iprop(∃ r, prngReg c r)
  Z c := Pipeline.unscopedRest (Ix := Unit) (Name := ℕ) (U := UR sig nD τ) (Lvl := ℕ) spec12 c (tcv (U27 m) c)
  hentry c := by
    rw [Pipeline.ownSems0_none]
    have hsplit := Pipeline.arrays_of_unscopedBufs (p := 12) (pcfgs (F := F)) adm (pdats m) launch12.win launch12.arr_whole c
      ((pdats m 12 c).share_full fun _ => rfl) (tcv (U27 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (tcv (U27 m) c) (tcv (U28 m) c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Rec13.lean ====
/-
  Region 13 of the kernel program (the second encoder's closing rectifier on the second permuted input) as a segment
  of the main function: entered with every unscoped buffer of the core at the contents before the region, left with
  them at the contents after it, which differ at the region's output array only.
-/
import proofs.«113219_j18691697672631_1_alg».proof.Proof.K.RecBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] (m : (ℓ : Loc nD τ sig) → Buf (Elt F) ℓ)

local notation "𝕄" => MT nD τ sig Unit (Elt F) ℕ (UR sig nD τ) ℕ

set_option maxHeartbeats 1000000 in
/-- At region 13's exit each of its arrays holds what the pipeline leaves: an input's array what it held on entry, the
    output's the array after every point's write-back. -/
theorem hF13 (c : Dev nD) (w : Fin cfg13.W) : (dat13 (tcv (U29 m)) c).arrAt w cfg13.N = tcv (U30 m) c (Pipeline.arrRef spec13 w) := by
  fin_cases w
  · exact ((dat13 (tcv (U29 m)) c).arrAt_in 0 rfl _).trans ((A_eq13 (tcv (U29 m)) c 0).trans (U30_ne m c main_v174 (by decide)).symm)
  · exact ((dat13 (tcv (U29 m)) c).arrAt_in 1 rfl _).trans ((A_eq13 (tcv (U29 m)) c 1).trans (U30_ne m c main_v175 (by decide)).symm)
  · exact (U30_out m c).symm
/-- Every buffer that is none of region 13's arrays holds at its exit what it held on entry. -/
theorem hrest13 (c : Dev nD) : ∀ b, b ∉ Finset.univ.image (Pipeline.arrRef spec13) → tcv (U30 m) c b = tcv (U29 m) c b :=
  fun b hb => U30_ne m c b fun h => hb (h ▸ Finset.mem_image.mpr ⟨2, Finset.mem_univ _, rfl⟩)

-- applying a library lemma stated over the pinned configuration unifies with the printed one only when unification may
-- unfold plain definitions in a metavariable's type
set_option backward.isDefEq.respectTransparency.types false in
set_option maxHeartbeats 1000000 in
/-- Region 13 (the second encoder's closing rectifier on the second permuted input) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg13 : RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (tcv (U29 m)) c).loose
  hwaits := Pipeline.hwaits_of_owed_zero _ _ _ _ L lv 13 fun _ _ => rfl
  pre c := iprop(StableHlo.held (c : Thread nD τ) (Pipeline.ucRefs τ sig) (U29 m c) ∗ R c)
  post c := iprop(StableHlo.held (c : Thread nD τ) (Pipeline.ucRefs τ sig) (U30 m c) ∗ R c)
  X c := iprop(∃ r, prngReg c r)
  Y c := iprop(∃ r, prngReg c r)
  Z c := Pipeline.unscopedRest (Ix := Unit) (Name := ℕ) (U := UR sig nD τ) (Lvl := ℕ) spec13 c (tcv (U29 m) c)
  hentry c := by
    rw [Pipeline.ownSems0_none]
    have hsplit := Pipeline.arrays_of_unscopedBufs (p := 13) (pcfgs (F := F)) adm (pdats m) launch13.win launch13.arr_whole c
      ((pdats m 13 c).share_full fun _ => rfl) (tcv (U29 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (tcv (U29 m) c) (tcv (U30 m) c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Records.lean ====
/-
  The twelve plain regions of the kernel program as segments of the main function, gathered.
-/
import proofs.«113219_j18691697672631_1_alg».proof.Proof.K.Rec0
import proofs.«113219_j18691697672631_1_alg».proof.Proof.K.Rec1
import proofs.«113219_j18691697672631_1_alg».proof.Proof.K.Rec2
import proofs.«113219_j18691697672631_1_alg».proof.Proof.K.Rec3
import proofs.«113219_j18691697672631_1_alg».proof.Proof.K.Rec4
import proofs.«113219_j18691697672631_1_alg».proof.Proof.K.Rec5
import proofs.«113219_j18691697672631_1_alg».proof.Proof.K.Rec8
import proofs.«113219_j18691697672631_1_alg».proof.Proof.K.Rec9
import proofs.«113219_j18691697672631_1_alg».proof.Proof.K.Rec10
import proofs.«113219_j18691697672631_1_alg».proof.Proof.K.Rec11
import proofs.«113219_j18691697672631_1_alg».proof.Proof.K.Rec12
import proofs.«113219_j18691697672631_1_alg».proof.Proof.K.Rec13
-- ==== Proof.K.Pool6Rest.lean ====
/-
  Region 6 of the kernel program: the accumulator between the region's ends. On entry the scratch buffer is one of
  the core's scoped buffers that no window stages, held at some contents: it is taken out of them and becomes the invariant's
  accumulator "at anything". On exit the accumulator, at the column sums of all 25 tiles, goes back among them.
-/
import proofs.«113219_j18691697672631_1_alg».proof.Proof.K.Pool6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Entering: the scoped buffers no window stages and the generator register make the invariant before the first point. -/
theorem Φ6_in (c : Dev nD) :
    iprop((∃ r, prngReg c r) ∗ Pipeline.scopedRest (Ix := Unit) (Name := ℕ) (U := UR sig nD τ) (Lvl := ℕ) (Val := Elt F) spec6 c)
      ⊢ ((dat6 V c).Φ 0 : sProp 𝕄) := by
  rw [Φ6_eq, show scrState6 V c (0 : Fin (cfg6.N + 1)).val (Nat.le_of_lt_succ (0 : Fin (cfg6.N + 1)).isLt) = _ from scrState6_zero V c _,
    scopedRest6_split]
  simp only [owns_whole_eq]
  iintro ⟨Hp, ⟨%f, Hs⟩, Hrest⟩
  isplitl [Hs]
  · iexists f; iexists f; isplitr; · ipureintro; rfl
    iexact Hs
  isplitl [Hrest]; · iexact Hrest
  iexact Hp

/-- Leaving: the invariant after the last point gives them back. -/
theorem Φ6_out (c : Dev nD) :
    ((dat6 V c).Φ (Fin.last cfg6.N) : sProp 𝕄)
      ⊢ iprop((∃ r, prngReg c r) ∗ Pipeline.scopedRest (Ix := Unit) (Name := ℕ) (U := UR sig nD τ) (Lvl := ℕ) (Val := Elt F) spec6 c) := by
  rw [Φ6_eq, show scrState6 V c (Fin.last cfg6.N).val (Nat.le_of_lt_succ (Fin.last cfg6.N).isLt) = _ from scrState6_succ V c 24 _,
    scopedRest6_split]
  simp only [owns_whole_eq]
  iintro ⟨⟨%f, -, Hs⟩, Hrest, Hp⟩
  isplitl [Hp]; · iexact Hp
  isplitl [Hs]; · iexists f; iexact Hs
  iexact Hrest

end Cert.Kernel.Hand

end
-- ==== Proof.K.Rec6.lean ====
/-
  Region 6 of the kernel program (the pooled projection of the first view) as a segment of the main function:
  entered with every unscoped buffer of the core at the contents before the region, left with them at the contents after
  it, which differ at the region's output row only. The scratch accumulator is a scoped buffer: it enters the region's
  invariant out of the scoped buffers no window stages, and goes back among them at the end.
-/
import proofs.«113219_j18691697672631_1_alg».proof.Proof.K.RecBase
import proofs.«113219_j18691697672631_1_alg».proof.Proof.K.Pool6Rest

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] (m : (ℓ : Loc nD τ sig) → Buf (Elt F) ℓ)

local notation "𝕄" => MT nD τ sig Unit (Elt F) ℕ (UR sig nD τ) ℕ

-- applying a library lemma stated over the pinned configuration unifies with the printed one only when unification may
-- unfold plain definitions in a metavariable's type
set_option backward.isDefEq.respectTransparency.types false in
set_option maxHeartbeats 1000000 in
/-- Region 6 over the thread state: its arrays are split out of the unscoped buffers on entry and put back on exit, the
    output row's at what the last point wrote back and the inputs' as they were; the generator register and the scratch
    accumulator go into the region's invariant and come back; nothing is owed; the kernel has no semaphore of its own. -/
def reg6 : RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (tcv (U15 m)) c).loose
  hwaits := Pipeline.hwaits_of_owed_zero _ _ _ _ L lv 6 fun _ _ => rfl
  pre c := iprop(StableHlo.held (c : Thread nD τ) (Pipeline.ucRefs τ sig) (U15 m c) ∗ R c)
  post c := iprop(StableHlo.held (c : Thread nD τ) (Pipeline.ucRefs τ sig) (U16 m c) ∗ R c)
  X c := iprop(∃ r, prngReg c r)
  Y c := iprop(∃ r, prngReg c r)
  Z c := Pipeline.unscopedRest (Ix := Unit) (Name := ℕ) (U := UR sig nD τ) (Lvl := ℕ) spec6 c (tcv (U15 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (tcv (U15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (tcv (U15 m)) c).Φ 0 from rfl]
    iintro ⟨Hp, -, Hr⟩
    iapply (Φ6_in (tcv (U15 m)) c)
    isplitl [Hp]; · iexact Hp
    iexact Hr
  hout c := by
    rw [Pipeline.ownSems0_none, show (pdats m 6 c).Φ (Fin.last _) = (dat6 (tcv (U15 m)) c).Φ (Fin.last cfg6.N) from rfl]
    iintro H
    ihave H' := (Φ6_out (tcv (U15 m)) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (tcv (U15 m) c) (tcv (U16 m) c) ((pdats m 6 c).arrAt · cfg6.N)
      (fun w => by
        fin_cases w
        · exact (((pdats m 6 c).arrAt_in 0 rfl _).trans (A_eq6 (tcv (U15 m)) c 0)).trans (U16_ne m c main_v59 (by decide)).symm
        · exact (((pdats m 6 c).arrAt_in 1 rfl _).trans (A_eq6 (tcv (U15 m)) c 1)).trans (U16_ne m c main_arg15 (by decide)).symm
        · exact (((pdats m 6 c).arrAt_in 2 rfl _).trans (A_eq6 (tcv (U15 m)) c 2)).trans (U16_ne m c main_v93 (by decide)).symm
        · exact (U16_out m c).symm)
      (fun b hb => U16_ne m c b fun h => hb (h ▸ Finset.mem_image.mpr ⟨3, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Pool7Rest.lean ====
/-
  Region 7 of the kernel program: the accumulator between the region's ends. On entry the scratch buffer is one of
  the core's scoped buffers that no window stages, held at some contents: it is taken out of them and becomes the invariant's
  accumulator "at anything". On exit the accumulator, at the column sums of all 25 tiles, goes back among them.
-/
import proofs.«113219_j18691697672631_1_alg».proof.Proof.K.Pool7

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Entering: the scoped buffers no window stages and the generator register make the invariant before the first point. -/
theorem Φ7_in (c : Dev nD) :
    iprop((∃ r, prngReg c r) ∗ Pipeline.scopedRest (Ix := Unit) (Name := ℕ) (U := UR sig nD τ) (Lvl := ℕ) (Val := Elt F) spec7 c)
      ⊢ ((dat7 V c).Φ 0 : sProp 𝕄) := by
  rw [Φ7_eq, show scrState7 V c (0 : Fin (cfg7.N + 1)).val (Nat.le_of_lt_succ (0 : Fin (cfg7.N + 1)).isLt) = _ from scrState7_zero V c _,
    scopedRest7_split]
  simp only [owns_whole_eq]
  iintro ⟨Hp, ⟨%f, Hs⟩, Hrest⟩
  isplitl [Hs]
  · iexists f; iexists f; isplitr; · ipureintro; rfl
    iexact Hs
  isplitl [Hrest]; · iexact Hrest
  iexact Hp

/-- Leaving: the invariant after the last point gives them back. -/
theorem Φ7_out (c : Dev nD) :
    ((dat7 V c).Φ (Fin.last cfg7.N) : sProp 𝕄)
      ⊢ iprop((∃ r, prngReg c r) ∗ Pipeline.scopedRest (Ix := Unit) (Name := ℕ) (U := UR sig nD τ) (Lvl := ℕ) (Val := Elt F) spec7 c) := by
  rw [Φ7_eq, show scrState7 V c (Fin.last cfg7.N).val (Nat.le_of_lt_succ (Fin.last cfg7.N).isLt) = _ from scrState7_succ V c 24 _,
    scopedRest7_split]
  simp only [owns_whole_eq]
  iintro ⟨⟨%f, -, Hs⟩, Hrest, Hp⟩
  isplitl [Hp]; · iexact Hp
  isplitl [Hs]; · iexists f; iexact Hs
  iexact Hrest

end Cert.Kernel.Hand

end
-- ==== Proof.K.Rec7.lean ====
/-
  Region 7 of the kernel program (the pooled projection of the second view) as a segment of the main function:
  entered with every unscoped buffer of the core at the contents before the region, left with them at the contents after
  it, which differ at the region's output row only. The scratch accumulator is a scoped buffer: it enters the region's
  invariant out of the scoped buffers no window stages, and goes back among them at the end.
-/
import proofs.«113219_j18691697672631_1_alg».proof.Proof.K.RecBase
import proofs.«113219_j18691697672631_1_alg».proof.Proof.K.Pool7Rest

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] (m : (ℓ : Loc nD τ sig) → Buf (Elt F) ℓ)

local notation "𝕄" => MT nD τ sig Unit (Elt F) ℕ (UR sig nD τ) ℕ

-- applying a library lemma stated over the pinned configuration unifies with the printed one only when unification may
-- unfold plain definitions in a metavariable's type
set_option backward.isDefEq.respectTransparency.types false in
set_option maxHeartbeats 1000000 in
/-- Region 7 over the thread state: its arrays are split out of the unscoped buffers on entry and put back on exit, the
    output row's at what the last point wrote back and the inputs' as they were; the generator register and the scratch
    accumulator go into the region's invariant and come back; nothing is owed; the kernel has no semaphore of its own. -/
def reg7 : RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (tcv (U17 m)) c).loose
  hwaits := Pipeline.hwaits_of_owed_zero _ _ _ _ L lv 7 fun _ _ => rfl
  pre c := iprop(StableHlo.held (c : Thread nD τ) (Pipeline.ucRefs τ sig) (U17 m c) ∗ R c)
  post c := iprop(StableHlo.held (c : Thread nD τ) (Pipeline.ucRefs τ sig) (U18 m c) ∗ R c)
  X c := iprop(∃ r, prngReg c r)
  Y c := iprop(∃ r, prngReg c r)
  Z c := Pipeline.unscopedRest (Ix := Unit) (Name := ℕ) (U := UR sig nD τ) (Lvl := ℕ) spec7 c (tcv (U17 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (tcv (U17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (tcv (U17 m)) c).Φ 0 from rfl]
    iintro ⟨Hp, -, Hr⟩
    iapply (Φ7_in (tcv (U17 m)) c)
    isplitl [Hp]; · iexact Hp
    iexact Hr
  hout c := by
    rw [Pipeline.ownSems0_none, show (pdats m 7 c).Φ (Fin.last _) = (dat7 (tcv (U17 m)) c).Φ (Fin.last cfg7.N) from rfl]
    iintro H
    ihave H' := (Φ7_out (tcv (U17 m)) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (tcv (U17 m) c) (tcv (U18 m) c) ((pdats m 7 c).arrAt · cfg7.N)
      (fun w => by
        fin_cases w
        · exact (((pdats m 7 c).arrAt_in 0 rfl _).trans (A_eq7 (tcv (U17 m)) c 0)).trans (U18_ne m c main_v92 (by decide)).symm
        · exact (((pdats m 7 c).arrAt_in 1 rfl _).trans (A_eq7 (tcv (U17 m)) c 1)).trans (U18_ne m c main_arg15 (by decide)).symm
        · exact (((pdats m 7 c).arrAt_in 2 rfl _).trans (A_eq7 (tcv (U17 m)) c 2)).trans (U18_ne m c main_v95 (by decide)).symm
        · exact (U18_out m c).symm)
      (fun b hb => U18_ne m c b fun h => hb (h ▸ Finset.mem_image.mpr ⟨3, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunCond.lean ====
/-
  The run of the kernel program with its final memory read back, given the fourteen regions' segment records: from any memory,
  with zero counters, every weakly fair execution of the program terminates, and in every final memory each unscoped buffer
  of each core holds the contents the last boundary names — the launch contents carried through the host stretches
  (each operation's result written to its buffer) and through the regions (each region's output array at what its
  write-backs leave, every other buffer untouched). The frame (no argument array is written) and the results' values are
  both read off this one statement.
-/
import proofs.«113219_j18691697672631_1_alg».proof.Proof.Gen.Kernel.Regions

set_option maxRecDepth 1772

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run, given the regions' records: every unscoped buffer ends at the last boundary's contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 14) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 15 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE14 : ∀ c : Dev nD, E 14 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V13 m outs c) ∗ E 5 c) ⊢ R5.pre c)
    (hpost5 : ∀ c : Dev nD, R5.post c ⊢ iprop(StableHlo.held (c : Thread nD τ) (Pipeline.ucRefs τ sig) (V14 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V15 m outs c) ∗ E 6 c) ⊢ R6.pre c)
    (hpost6 : ∀ c : Dev nD, R6.post c ⊢ iprop(StableHlo.held (c : Thread nD τ) (Pipeline.ucRefs τ sig) (V16 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V17 m outs c) ∗ E 7 c) ⊢ R7.pre c)
    (hpost7 : ∀ c : Dev nD, R7.post c ⊢ iprop(StableHlo.held (c : Thread nD τ) (Pipeline.ucRefs τ sig) (V18 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V19 m outs c) ∗ E 8 c) ⊢ R8.pre c)
    (hpost8 : ∀ c : Dev nD, R8.post c ⊢ iprop(StableHlo.held (c : Thread nD τ) (Pipeline.ucRefs τ sig) (V20 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V21 m outs c) ∗ E 9 c) ⊢ R9.pre c)
    (hpost9 : ∀ c : Dev nD, R9.post c ⊢ iprop(StableHlo.held (c : Thread nD τ) (Pipeline.ucRefs τ sig) (V22 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V23 m outs c) ∗ E 10 c) ⊢ R10.pre c)
    (hpost10 : ∀ c : Dev nD, R10.post c ⊢ iprop(StableHlo.held (c : Thread nD τ) (Pipeline.ucRefs τ sig) (V24 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V25 m outs c) ∗ E 11 c) ⊢ R11.pre c)
    (hpost11 : ∀ c : Dev nD, R11.post c ⊢ iprop(StableHlo.held (c : Thread nD τ) (Pipeline.ucRefs τ sig) (V26 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V27 m outs c) ∗ E 12 c) ⊢ R12.pre c)
    (hpost12 : ∀ c : Dev nD, R12.post c ⊢ iprop(StableHlo.held (c : Thread nD τ) (Pipeline.ucRefs τ sig) (V28 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V29 m outs c) ∗ E 13 c) ⊢ R13.pre c)
    (hpost13 : ∀ c : Dev nD, R13.post c ⊢ iprop(StableHlo.held (c : Thread nD τ) (Pipeline.ucRefs τ sig) (V30 m outs c) ∗ E 14 c)) :
    θ_run defs (onTc (τ := τ) (main (F := F))) ⟨m, fun _ => 0, ρ⟩ (fun r => ∀ c : Dev nD,
      ∀ b ∈ Pipeline.ucRefs τ sig, r.2.mem (((c.tc : Thread nD τ)).1, b) = V30 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13)
    (fun c Q => by
      rewrite [main_chain c, Seg.run_eq_chain,
        show (segs m outs 𝒱₀ L lv E ι pdats R0 R1 R2 R3 R4 R5 R6 R7 R8 R9 R10 R11 R12 R13 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V30 m outs c))
    (hch := fun c => ⟨.rfl, .rfl, .rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, (hpost13 c).trans (sep_mono .rfl (hE14 c))⟩)
    (hinit := ?_) (QY := fun c s => ∀ b ∈ Pipeline.ucRefs τ sig, s.mem (((c.tc : Thread nD τ)).1, b) = V30 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V30 m outs c) s') $$ [Hh HSI]
    · isplitl [Hh] <;> iassumption
    icases Hr with ⟨%h, HSI⟩
    imodintro
    isplitr
    · ipureintro
      exact h
    · iexact HSI

end Cert.Kernel.Hand

end
-- ==== Proof.K.RunAll.lean ====
/-
  The kernel program's run, with all fourteen regions' records in place: from any memory, with zero counters, every
  weakly fair execution terminates, and every unscoped buffer of every core ends at the last boundary's contents — the
  launch contents carried through the sixteen host stretches and the fourteen regions. Read at the argument arrays this is
  the frame (no host operation and no region writes an argument); read at the six result arrays it is their values.
-/
import proofs.«113219_j18691697672631_1_alg».proof.Proof.K.Records
import proofs.«113219_j18691697672631_1_alg».proof.Proof.K.Rec6
import proofs.«113219_j18691697672631_1_alg».proof.Proof.K.Rec7
import proofs.«113219_j18691697672631_1_alg».proof.Proof.K.RunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] (m : (ℓ : Loc nD τ sig) → Buf (Elt F) ℓ)

local notation "𝕄" => MT nD τ sig Unit (Elt F) ℕ (UR sig nD τ) ℕ

/-- At launch each core's generator register and its dues (nothing) make what rides beside the buffers. -/
theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  have hcore : ∀ c : Dev nD, iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))
      ⊢ (R (F := F) c : sProp 𝕄) := fun c => by
    iintro ⟨-, HO, -, Hp, -⟩
    isplitl [Hp]; · iexists _; iexact Hp
    iexists ∅; iexact HO
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (fun c : Dev nD => R (F := F) c) : sProp 𝕄) :=
    bigSep_mono fun c _ => hcore c
  iintro ⟨H, -⟩
  imodintro
  iapply hmono
  iexact H

set_option backward.isDefEq.respectTransparency.types false in
set_option maxHeartbeats 2000000 in
/-- THE RUN: every unscoped buffer ends at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c.tc : Thread nD τ)).1, b) = V30 m (outs m) c b) := by
  exact run_cond m (Ix := Unit) (U := UR sig nD τ) (Lvl := ℕ) (EP := emb₁) (ι := ()) (𝒱₀ := 𝒱₀) (L := L) (lv := lv) (hL := fun _ _ => rfl)
    (ρ := ρ) (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c) (hE0 := launch_rest ρ) (hE14 := fun c => by iintro ⟨-, H⟩; iexact H)
    (R0 := reg0 m) (hpre0 := fun c => .rfl) (hpost0 := fun c => by rw [V4_eq]; exact .rfl)
    (R1 := reg1 m) (hpre1 := fun c => by rw [V5_eq]; exact .rfl) (hpost1 := fun c => by rw [V6_eq]; exact .rfl)
    (R2 := reg2 m) (hpre2 := fun c => by rw [V7_eq]; exact .rfl) (hpost2 := fun c => by rw [V8_eq]; exact .rfl)
    (R3 := reg3 m) (hpre3 := fun c => by rw [V9_eq]; exact .rfl) (hpost3 := fun c => by rw [V10_eq]; exact .rfl)
    (R4 := reg4 m) (hpre4 := fun c => by rw [V11_eq]; exact .rfl) (hpost4 := fun c => by rw [V12_eq]; exact .rfl)
    (R5 := reg5 m) (hpre5 := fun c => by rw [V13_eq]; exact .rfl) (hpost5 := fun c => by rw [V14_eq]; exact .rfl)
    (R6 := reg6 m) (hpre6 := fun c => by rw [V15_eq]; exact .rfl) (hpost6 := fun c => by rw [V16_eq]; exact .rfl)
    (R7 := reg7 m) (hpre7 := fun c => by rw [V17_eq]; exact .rfl) (hpost7 := fun c => by rw [V18_eq]; exact .rfl)
    (R8 := reg8 m) (hpre8 := fun c => by rw [V19_eq]; exact .rfl) (hpost8 := fun c => by rw [V20_eq]; exact .rfl)
    (R9 := reg9 m) (hpre9 := fun c => by rw [V21_eq]; exact .rfl) (hpost9 := fun c => by rw [V22_eq]; exact .rfl)
    (R10 := reg10 m) (hpre10 := fun c => by rw [V23_eq]; exact .rfl) (hpost10 := fun c => by rw [V24_eq]; exact .rfl)
    (R11 := reg11 m) (hpre11 := fun c => by rw [V25_eq]; exact .rfl) (hpost11 := fun c => by rw [V26_eq]; exact .rfl)
    (R12 := reg12 m) (hpre12 := fun c => by rw [V27_eq]; exact .rfl) (hpost12 := fun c => by rw [V28_eq]; exact .rfl)
    (R13 := reg13 m) (hpre13 := fun c => by rw [V29_eq]; exact .rfl) (hpost13 := fun c => by rw [V30_eq]; exact .rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the program terminates without a fault and every argument array ends as launched — no host operation and
    no region writes one, so the last boundary's contents at an argument are the launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c (Proc.devRef .tc main_arg0) (mem_uc main_arg0 (by decide))).trans (V30_main_arg0 m (outs m) c),
      (h c (Proc.devRef .tc main_arg1) (mem_uc main_arg1 (by decide))).trans (V30_main_arg1 m (outs m) c),
      (h c (Proc.devRef .tc main_arg2) (mem_uc main_arg2 (by decide))).trans (V30_main_arg2 m (outs m) c),
      (h c (Proc.devRef .tc main_arg3) (mem_uc main_arg3 (by decide))).trans (V30_main_arg3 m (outs m) c),
      (h c (Proc.devRef .tc main_arg4) (mem_uc main_arg4 (by decide))).trans (V30_main_arg4 m (outs m) c),
      (h c (Proc.devRef .tc main_arg5) (mem_uc main_arg5 (by decide))).trans (V30_main_arg5 m (outs m) c),
      (h c (Proc.devRef .tc main_arg6) (mem_uc main_arg6 (by decide))).trans (V30_main_arg6 m (outs m) c),
      (h c (Proc.devRef .tc main_arg7) (mem_uc main_arg7 (by decide))).trans (V30_main_arg7 m (outs m) c),
      (h c (Proc.devRef .tc main_arg8) (mem_uc main_arg8 (by decide))).trans (V30_main_arg8 m (outs m) c),
      (h c (Proc.devRef .tc main_arg9) (mem_uc main_arg9 (by decide))).trans (V30_main_arg9 m (outs m) c),
      (h c (Proc.devRef .tc main_arg10) (mem_uc main_arg10 (by decide))).trans (V30_main_arg10 m (outs m) c),
      (h c (Proc.devRef .tc main_arg11) (mem_uc main_arg11 (by decide))).trans (V30_main_arg11 m (outs m) c),
      (h c (Proc.devRef .tc main_arg12) (mem_uc main_arg12 (by decide))).trans (V30_main_arg12 m (outs m) c),
      (h c (Proc.devRef .tc main_arg13) (mem_uc main_arg13 (by decide))).trans (V30_main_arg13 m (outs m) c),
      (h c (Proc.devRef .tc main_arg14) (mem_uc main_arg14 (by decide))).trans (V30_main_arg14 m (outs m) c),
      (h c (Proc.devRef .tc main_arg15) (mem_uc main_arg15 (by decide))).trans (V30_main_arg15 m (outs m) c),
      (h c (Proc.devRef .tc main_arg16) (mem_uc main_arg16 (by decide))).trans (V30_main_arg16 m (outs m) c)⟩) (run_all m ρ)

end Cert.Kernel.Hand

end
-- ==== Proof.KI.Linear0.lean ====
/-
  Region 0 of the idealized kernel program: the first linear layer of the first encoder, on one tile of 2000 rows.
  At a grid point the body reads the tile `x` (2000 x 128), the weights `W` (128 x 128) and the bias row `b` (1 x 128) and
  overwrites the output tile with `x W + b`: entry (p, q) is the sum over k of x(p, k) W(k, q), plus b(q). It keeps nothing
  between points; the weights and the bias are fetched once and stay where they are.

  Stated here for any contents `V` of the core's buffers on entry: what each window's staging buffer holds when the body
  runs, what the one store leaves in the output buffer, that the body run from those buffers ends with the inputs untouched
  and the output at that value, and from it the body obligation at every grid point.
-/
import proofs.«113219_j18691697672631_1_alg».proof.Proof.Gen.KernelIdeal.Launch
import proofs.«113219_j18691697672631_1_alg».proof.Proof.Gen.KernelIdeal.Skeleton
import proofs.«113219_j18691697672631_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile's staging buffer holds the tile of the point: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the weights at every point: fetched at the first point, the block index never moves,
    and the body leaves them as they were. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer holds the row at every point, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 2000 x 128 tile, the whole 128 x 128 weights and the whole 1 x 128 row as rectangles. -/
abbrev rTile0 : Rect S2000x128 := Rect.unit (s := S2000x128) ![0, 0] S2000x128.size inb_S2000x128_S2000x128_0_0
abbrev rMat0 : Rect S128x128 := Rect.unit (s := S128x128) ![0, 0] S128x128.size inb_S128x128_S128x128_0_0
abbrev rRow0 : Rect S1x128 := Rect.unit (s := S1x128) ![0, 0] S1x128.size inb_S1x128_S1x128_0_0

/-! ## What the body leaves in the output tile -/

/-- The output tile after the body: its one store, of the product plus the bias, over the whole buffer. -/
def out0_3 (x0 : Vec F S2000x128 .f32) (x1 : Vec F S128x128 .f32) (x2 : Vec F S1x128 .f32) : Vec F S2000x128 .f32 :=
  View.canon [⟨rTile0, k0_pay1 (View.ld x0 rTile0) (View.ld x1 rMat0) (View.ld x2 rRow0)⟩]

/-- The one store covers the buffer. -/
theorem cover0_3 (p0 : Vec F S2000x128 .f32) (y : S2000x128.Idx) :
    ∃ pc ∈ ([⟨rTile0, p0⟩] : List (View.Piece (Elt F) S2000x128 .f32)), y ∈ pc.1.set :=
  View.cover_of_tiled [⟨rTile0, p0⟩] S2000x128.size (by rfl) y

/-! ## The body's triple -/

set_option maxHeartbeats 1000000 in
/-- The body on whole staging buffers, the tile's at `x0`, the weights' at `x1`, the bias row's at `x2`, the output's at
    anything, runs to the continuation holding the inputs' as they were and the output's at `out0_3 x0 x1 x2`. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this region on core `c`: the arrays as the region finds them; after the body at point `t` each
    input's buffer at its block and the output's at the product plus the bias; the invariant the scoped buffers no window
    stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.PreluLinear1.lean ====
/-
  Region 1 of the idealized kernel program: the first rectifier and the second linear layer of the first encoder, on one
  tile of 2000 rows.
  At a grid point the body reads the tile `c` (2000 x 128), the slope row `alpha` (1 x 128), the weights `W` (128 x 128)
  and the bias row `b` (1 x 128). It rectifies the tile entry by entry, `a = c` where `c >= 0` and `alpha * c` elsewhere, and
  overwrites the output tile with `a W + b`: entry (p, q) is the sum over k of a(p, k) W(k, q), plus b(q). It keeps
  nothing between points; the slope row, the weights and the bias are fetched once and stay where they are.

  Stated here for any contents `V` of the core's buffers on entry: what each window's staging buffer holds when the body
  runs, what the one store leaves in the output buffer, that the body run from those buffers ends with the inputs untouched
  and the output at that value, and from it the body obligation at every grid point.
-/
import proofs.«113219_j18691697672631_1_alg».proof.Proof.Gen.KernelIdeal.Launch
import proofs.«113219_j18691697672631_1_alg».proof.Proof.Gen.KernelIdeal.Skeleton
import proofs.«113219_j18691697672631_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile's staging buffer holds the tile of the point: it is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The slope row's staging buffer holds the row at every point: fetched at the first point, the block index never moves,
    and the body leaves it as it was. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weights' staging buffer holds the weights at every point, for the same reason. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the row at every point, for the same reason. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 2000 x 128 tile, the whole 128 x 128 weights and the whole 1 x 128 row as rectangles. -/
abbrev rTile1 : Rect S2000x128 := Rect.unit (s := S2000x128) ![0, 0] S2000x128.size inb_S2000x128_S2000x128_0_0
abbrev rMat1 : Rect S128x128 := Rect.unit (s := S128x128) ![0, 0] S128x128.size inb_S128x128_S128x128_0_0
abbrev rRow1 : Rect S1x128 := Rect.unit (s := S1x128) ![0, 0] S1x128.size inb_S1x128_S1x128_0_0

/-! ## What the body leaves in the output tile -/

/-- The output tile after the body: its one store, of the rectified tile's product with the weights plus the bias, over the
    whole buffer. -/
def out1_4 (x0 : Vec F S2000x128 .f32) (x1 : Vec F S1x128 .f32) (x2 : Vec F S128x128 .f32) (x3 : Vec F S1x128 .f32) :
    Vec F S2000x128 .f32 :=
  View.canon [⟨rTile1, k1_pay1 (View.ld x0 rTile1) (View.ld x1 rRow1) (View.ld x2 rMat1) (View.ld x3 rRow1)⟩]

/-- The one store covers the buffer. -/
theorem cover1_4 (p0 : Vec F S2000x128 .f32) (y : S2000x128.Idx) :
    ∃ pc ∈ ([⟨rTile1, p0⟩] : List (View.Piece (Elt F) S2000x128 .f32)), y ∈ pc.1.set :=
  View.cover_of_tiled [⟨rTile1, p0⟩] S2000x128.size (by rfl) y

/-! ## The body's triple -/

set_option maxHeartbeats 1000000 in
/-- The body on whole staging buffers, the tile's at `x0`, the slope row's at `x1`, the weights' at `x2`, the bias row's at
    `x3`, the output's at anything, runs to the continuation holding the inputs' as they were and the output's at
    `out1_4 x0 x1 x2 x3`. -/
theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S1x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__prelu_linear_kernel i arg1 harg1 arg2 harg2 arg3 harg3 arg4 harg4 arg5 harg5) K := by
  simp only [cc1__prelu_linear_kernel_eq_skeleton]; unfold cc1__prelu_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of this region on core `c`: the arrays as the region finds them; after the body at point `t` each
    input's buffer at its block and the output's at the rectified tile's product with the weights plus the bias; the
    invariant the scoped buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Prelu2.lean ====
/-
  Region 2 of the idealized kernel program: the second rectifier of the first encoder, on one tile of 2000 rows.
  At a grid point the body reads the tile `c` (2000 x 128) and the slope row `alpha` (1 x 128) and overwrites the
  output tile with `c` where `c >= 0` and `alpha * c` elsewhere, entry by entry. It keeps nothing between points.

  Stated here for any contents `V` of the core's buffers on entry: what each window's staging buffer holds when
  the body runs (the window's block of its array, whether it was fetched at this point or at an earlier one with the
  same block index), what the one store leaves in the output buffer, and that the body run from those buffers ends
  with the inputs untouched and the output at that value.
-/
import proofs.«113219_j18691697672631_1_alg».proof.Proof.Gen.KernelIdeal.Launch
import proofs.«113219_j18691697672631_1_alg».proof.Proof.Gen.KernelIdeal.Skeleton
import proofs.«113219_j18691697672631_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The tile's staging buffer holds the tile of the point: it is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The slope row's staging buffer holds the row at every point: it is fetched at the first point, its block index never
    moves, and the body leaves it as it was. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 2000 x 128 tile as a rectangle, and the whole 1 x 128 row. -/
abbrev rTile2 : Rect S2000x128 := Rect.unit (s := S2000x128) ![0, 0] S2000x128.size inb_S2000x128_S2000x128_0_0
abbrev rRow2 : Rect S1x128 := Rect.unit (s := S1x128) ![0, 0] S1x128.size inb_S1x128_S1x128_0_0

/-! ## What the body leaves in the output tile -/

/-- The output tile after the body: its one store, of the rectified tile, over the whole buffer. -/
def out2_2 (x0 : Vec F S2000x128 .f32) (x1 : Vec F S1x128 .f32) : Vec F S2000x128 .f32 :=
  View.canon [⟨rTile2, k2_pay1 (View.ld x0 rTile2) (View.ld x1 rRow2)⟩]

/-- The one store covers the buffer. -/
theorem cover2_2 (p0 : Vec F S2000x128 .f32) (y : S2000x128.Idx) :
    ∃ pc ∈ ([⟨rTile2, p0⟩] : List (View.Piece (Elt F) S2000x128 .f32)), y ∈ pc.1.set :=
  View.cover_of_tiled [⟨rTile2, p0⟩] S2000x128.size (by rfl) y

/-! ## The body's triple -/

set_option maxHeartbeats 1000000 in
/-- The body on whole staging buffers, the tile's at `x0`, the slope row's at `x1`, the output's at anything, runs to the
    continuation holding the inputs' as they were and the output's at `out2_2 x0 x1`. -/
theorem sound_kernel2 (c : Dev nD) (E : Set ℕ) (i : grid2.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__prelu_kernel i arg1 harg1 arg2 harg2 arg3 harg3) K := by
  simp only [cc2__prelu_kernel_eq_skeleton]; unfold cc2__prelu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this region on core `c`: the arrays as the region finds them; after the body at point `t` the tile's
    and the slope row's buffers at their blocks and the output's at the rectified tile; the invariant the scoped buffers
    no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Linear3.lean ====
/-
  Region 3 of the idealized kernel program: the first linear layer of the second encoder, on one tile of 2000 rows.
  At a grid point the body reads the tile `x` (2000 x 128), the weights `W` (128 x 128) and the bias row `b` (1 x 128) and
  overwrites the output tile with `x W + b`: entry (p, q) is the sum over k of x(p, k) W(k, q), plus b(q). It keeps nothing
  between points; the weights and the bias are fetched once and stay where they are.

  Stated here for any contents `V` of the core's buffers on entry: what each window's staging buffer holds when the body
  runs, what the one store leaves in the output buffer, that the body run from those buffers ends with the inputs untouched
  and the output at that value, and from it the body obligation at every grid point.
-/
import proofs.«113219_j18691697672631_1_alg».proof.Proof.Gen.KernelIdeal.Launch
import proofs.«113219_j18691697672631_1_alg».proof.Proof.Gen.KernelIdeal.Skeleton
import proofs.«113219_j18691697672631_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The tile's staging buffer holds the tile of the point: it is fetched at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weights' staging buffer holds the weights at every point: fetched at the first point, the block index never moves,
    and the body leaves them as they were. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias row's staging buffer holds the row at every point, for the same reason. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 2000 x 128 tile, the whole 128 x 128 weights and the whole 1 x 128 row as rectangles. -/
abbrev rTile3 : Rect S2000x128 := Rect.unit (s := S2000x128) ![0, 0] S2000x128.size inb_S2000x128_S2000x128_0_0
abbrev rMat3 : Rect S128x128 := Rect.unit (s := S128x128) ![0, 0] S128x128.size inb_S128x128_S128x128_0_0
abbrev rRow3 : Rect S1x128 := Rect.unit (s := S1x128) ![0, 0] S1x128.size inb_S1x128_S1x128_0_0

/-! ## What the body leaves in the output tile -/

/-- The output tile after the body: its one store, of the product plus the bias, over the whole buffer. -/
def out3_3 (x0 : Vec F S2000x128 .f32) (x1 : Vec F S128x128 .f32) (x2 : Vec F S1x128 .f32) : Vec F S2000x128 .f32 :=
  View.canon [⟨rTile3, k3_pay1 (View.ld x0 rTile3) (View.ld x1 rMat3) (View.ld x2 rRow3)⟩]

/-- The one store covers the buffer. -/
theorem cover3_3 (p0 : Vec F S2000x128 .f32) (y : S2000x128.Idx) :
    ∃ pc ∈ ([⟨rTile3, p0⟩] : List (View.Piece (Elt F) S2000x128 .f32)), y ∈ pc.1.set :=
  View.cover_of_tiled [⟨rTile3, p0⟩] S2000x128.size (by rfl) y

/-! ## The body's triple -/

set_option maxHeartbeats 1000000 in
/-- The body on whole staging buffers, the tile's at `x0`, the weights' at `x1`, the bias row's at `x2`, the output's at
    anything, runs to the continuation holding the inputs' as they were and the output's at `out3_3 x0 x1 x2`. -/
theorem sound_kernel3 (c : Dev nD) (E : Set ℕ) (i : grid3.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this region on core `c`: the arrays as the region finds them; after the body at point `t` each
    input's buffer at its block and the output's at the product plus the bias; the invariant the scoped buffers no window
    stages and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.PreluLinear4.lean ====
/-
  Region 4 of the idealized kernel program: the first rectifier and the second linear layer of the second encoder, on
  one tile of 2000 rows.
  At a grid point the body reads the tile `c` (2000 x 128), the slope row `alpha` (1 x 128), the weights `W` (128 x 128)
  and the bias row `b` (1 x 128). It rectifies the tile entry by entry, `a = c` where `c >= 0` and `alpha * c` elsewhere, and
  overwrites the output tile with `a W + b`: entry (p, q) is the sum over k of a(p, k) W(k, q), plus b(q). It keeps
  nothing between points; the slope row, the weights and the bias are fetched once and stay where they are.

  Stated here for any contents `V` of the core's buffers on entry: what each window's staging buffer holds when the body
  runs, what the one store leaves in the output buffer, that the body run from those buffers ends with the inputs untouched
  and the output at that value, and from it the body obligation at every grid point.
-/
import proofs.«113219_j18691697672631_1_alg».proof.Proof.Gen.KernelIdeal.Launch
import proofs.«113219_j18691697672631_1_alg».proof.Proof.Gen.KernelIdeal.Skeleton
import proofs.«113219_j18691697672631_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The tile's staging buffer holds the tile of the point: it is fetched at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The slope row's staging buffer holds the row at every point: fetched at the first point, the block index never moves,
    and the body leaves it as it was. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The weights' staging buffer holds the weights at every point, for the same reason. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The bias row's staging buffer holds the row at every point, for the same reason. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 2000 x 128 tile, the whole 128 x 128 weights and the whole 1 x 128 row as rectangles. -/
abbrev rTile4 : Rect S2000x128 := Rect.unit (s := S2000x128) ![0, 0] S2000x128.size inb_S2000x128_S2000x128_0_0
abbrev rMat4 : Rect S128x128 := Rect.unit (s := S128x128) ![0, 0] S128x128.size inb_S128x128_S128x128_0_0
abbrev rRow4 : Rect S1x128 := Rect.unit (s := S1x128) ![0, 0] S1x128.size inb_S1x128_S1x128_0_0

/-! ## What the body leaves in the output tile -/

/-- The output tile after the body: its one store, of the rectified tile's product with the weights plus the bias, over the
    whole buffer. -/
def out4_4 (x0 : Vec F S2000x128 .f32) (x1 : Vec F S1x128 .f32) (x2 : Vec F S128x128 .f32) (x3 : Vec F S1x128 .f32) :
    Vec F S2000x128 .f32 :=
  View.canon [⟨rTile4, k4_pay1 (View.ld x0 rTile4) (View.ld x1 rRow4) (View.ld x2 rMat4) (View.ld x3 rRow4)⟩]

/-- The one store covers the buffer. -/
theorem cover4_4 (p0 : Vec F S2000x128 .f32) (y : S2000x128.Idx) :
    ∃ pc ∈ ([⟨rTile4, p0⟩] : List (View.Piece (Elt F) S2000x128 .f32)), y ∈ pc.1.set :=
  View.cover_of_tiled [⟨rTile4, p0⟩] S2000x128.size (by rfl) y

/-! ## The body's triple -/

set_option maxHeartbeats 1000000 in
/-- The body on whole staging buffers, the tile's at `x0`, the slope row's at `x1`, the weights' at `x2`, the bias row's at
    `x3`, the output's at anything, runs to the continuation holding the inputs' as they were and the output's at
    `out4_4 x0 x1 x2 x3`. -/
theorem sound_kernel4 (c : Dev nD) (E : Set ℕ) (i : grid4.Coords)
    (arg1 : Memref sig .tc .vmem S2000x128 .f32) (harg1 : arg1.IsWhole) (arg2 : Memref sig .tc .vmem S1x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S1x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out4_4 x0 x1 x2 x3)) -∗ K ⟨⟩))
      ⊢ wp frame (wpE (defs₀ (F := F)) Variants.none c none) E
          (cc4__prelu_linear_kernel i arg1 harg1 arg2 harg2 arg3 harg3 arg4 harg4 arg5 harg5) K := by
  simp only [cc4__prelu_linear_kernel_eq_skeleton]; unfold cc4__prelu_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of this region on core `c`: the arrays as the region finds them; after the body at point `t` each
    input's buffer at its block and the output's at the rectified tile's product with the weights plus the bias; the
    invariant the scoped buffers no window stages and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' buffers hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Prelu5.lean ====
/-
  Region 5 of the idealized kernel program: the second rectifier of the second encoder, on one tile of 2000 rows.
  At a grid point the body reads the tile `c` (2000 x 128) and the slope row `alpha` (1 x 128) and overwrites the
  output tile with `c` where `c >= 0` and `alpha * c` elsewhere, entry by entry. It keeps nothing between points.

  Stated here for any contents `V` of the core's buffers on entry: what each window's staging buffer holds when
  the body runs (the window's block of its array, whether it was fetched at this point or at an earlier one with the
  same block index), what the one store leaves in the output buffer, and that the body run from those buffers ends
  with the inputs untouched and the output at that value.
-/
import proofs.«113219_j18691697672631_1_alg».proof.Proof.Gen.KernelIdeal.Launch
import proofs.«113219_j18691697672631_1_alg».proof.Proof.Gen.KernelIdeal.Skeleton
import proofs.«113219_j18691697672631_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The tile's staging buffer holds the tile of the point: it is fetched at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The slope row's staging buffer holds the row at every point: it is fetched at the first point, its block index never
    moves, and the body leaves it as it was. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 2000 x 128 tile as a rectangle, and the whole 1 x 128 row. -/
abbrev rTile5 : Rect S2000x128 := Rect.unit (s := S2000x128) ![0, 0] S2000x128.size inb_S2000x128_S2000x128_0_0
abbrev rRow5 : Rect S1x128 := Rect.unit (s := S1x128) ![0, 0] S1x128.size inb_S1x128_S1x128_0_0

/-! ## What the body leaves in the output tile -/

/-- The output tile after the body: its one store, of the rectified tile, over the whole buffer. -/
def out5_2 (x0 : Vec F S2000x128 .f32) (x1 : Vec F S1x128 .f32) : Vec F S2000x128 .f32 :=
  View.canon [⟨rTile5, k5_pay1 (View.ld x0 rTile5) (View.ld x1 rRow5)⟩]

/-- The one store covers the buffer. -/
theorem cover5_2 (p0 : Vec F S2000x128 .f32) (y : S2000x128.Idx) :
    ∃ pc ∈ ([⟨rTile5, p0⟩] : List (View.Piece (Elt F) S2000x128 .f32)), y ∈ pc.1.set :=
  View.cover_of_tiled [⟨rTile5, p0⟩] S2000x128.size (by rfl) y

/-! ## The body's triple -/

set_option maxHeartbeats 1000000 in
/-- The body on whole staging buffers, the tile's at `x0`, the slope row's at `x1`, the output's at anything, runs to the
    continuation holding the inputs' as they were and the output's at `out5_2 x0 x1`. -/
theorem sound_kernel5 (c : Dev nD) (E : Set ℕ) (i : grid5.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__prelu_kernel i arg1 harg1 arg2 harg2 arg3 harg3) K := by
  simp only [cc5__prelu_kernel_eq_skeleton]; unfold cc5__prelu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of this region on core `c`: the arrays as the region finds them; after the body at point `t` the tile's
    and the slope row's buffers at their blocks and the output's at the rectified tile; the invariant the scoped buffers
    no window stages and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Pool6Runs.lean ====
/-
  Region 6 of the idealized kernel program: the pooled projection of the first view, over 25 tiles of 2000 rows.
  The body keeps a 1 x 128 accumulator in a scratch buffer across the grid points: at the first point it sets the
  accumulator to zero; at every point it adds the column sums of the point's tile to it; at the last point it multiplies
  the accumulated column sums by 1/50000 (the mean over the 50000 rows), applies the logistic function entry by entry,
  multiplies the resulting row by the 128 x 128 projection matrix, adds the bias row, and stores the 1 x 128 result.

  This module runs the body in its three control cases — the first point, a middle point, the last point — from whole
  staging buffers: which buffers it needs at what contents, and the pieces its stores leave in the accumulator and, at the
  last point, in the output row.
-/
import proofs.«113219_j18691697672631_1_alg».proof.Proof.Gen.KernelIdeal.Launch
import proofs.«113219_j18691697672631_1_alg».proof.Proof.Gen.KernelIdeal.Skeleton
import proofs.«113219_j18691697672631_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's two branch conditions, over the grid -/

/-- The first branch (set the accumulator to zero) is taken where the grid coordinate is 0, -/
abbrev cond6_1 (i : grid6.Coords) : Prop := (Scalar.cmpi .ne (Scalar.extui (Scalar.cmpi .eq (BitVec.ofNat 32 (i 0).val) 0#32)) 0#32) = 1#1
theorem hcond6_1 : ∀ t : Fin cfg6.N, cond6_1 (grid6.coords t) ↔ t.val = 0 :=
  (by decide +kernel : ∀ t : Fin grid6.N, cond6_1 (grid6.coords t) ↔ t.val = 0)
/-- and the second (finish and store the result) where it is 24, the last of the 25 points. -/
abbrev cond6_2 (i : grid6.Coords) : Prop := k6_cond2 i = 1#1
theorem hcond6_2 : ∀ t : Fin cfg6.N, cond6_2 (grid6.coords t) ↔ t.val = 24 :=
  (by decide +kernel : ∀ t : Fin grid6.N, cond6_2 (grid6.coords t) ↔ t.val = 24)

/-! ## The body in its three cases -/

set_option maxHeartbeats 1000000 in
/-- THE FIRST POINT. From the tile at `x0` and the accumulator at anything, the body ends with the tile as it was and the
    accumulator overwritten twice: by zero, then by zero plus the tile's column sums. The pieces are what the run finds. -/
noncomputable def kernelRun6_A (c : Dev nD) (i : grid6.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc1 : cond6_1 i) (hc2 : ¬cond6_2 i)
    (x0 : Vec F S2000x128 .f32) :
    { L5 : List (View.Piece (Elt F) S1x128 .f32) //
      ∀ (E : Set ℕ) (K : PUnit → sProp 𝕄),
        iprop(owns (c : Thread nD τ) arg1 fullShare x0 ∗ (∃ d, owns (c : Thread nD τ) arg5 fullShare d)
            ∗ (iprop(owns (c : Thread nD τ) arg1 fullShare x0 ∗ (∃ f, arg5.view.loc (c : Thread nD τ) ↦[arg5.view.set]{fullShare} arg5.view.writes (Elt F) f L5)) -∗ K ⟨⟩))
          ⊢ wp frame (wpE (defs₀ (F := F)) Variants.none c none) E (cc6__pool_project_kernel i arg1 harg1 arg2 harg2 arg3 harg3 arg4 harg4 arg5 harg5) K } := by
  refine ⟨?_, fun E K => ?run⟩
  case run =>
    simp only [cc6__pool_project_kernel_eq_skeleton]; unfold cc6__pool_project_kernel_skel
    unfold owns
    iintro ⟨⟨%f0, %hf0, H0⟩, ⟨%d5, %f5, -, H5⟩, Hk⟩
    obtain rfl := harg1.eq_unread hf0
    sl_exec (disch := first | exact hc1 | exact hc2)
    sl_step
    iapply Hk
    isplitl [H0]
    · iexists _; isplitr; · ipureintro; exact harg1.read_unread _
      iexact H0
    iexists _; iexact H5

set_option maxHeartbeats 1000000 in
/-- A MIDDLE POINT. From the tile at `x0` and the accumulator at `s`, the body ends with the tile as it was and the
    accumulator overwritten by `s` plus the tile's column sums. -/
noncomputable def kernelRun6_B (c : Dev nD) (i : grid6.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc1 : ¬cond6_1 i) (hc2 : ¬cond6_2 i)
    (x0 : Vec F S2000x128 .f32) (s : Vec F S1x128 .f32) :
    { L5 : List (View.Piece (Elt F) S1x128 .f32) //
      ∀ (E : Set ℕ) (K : PUnit → sProp 𝕄),
        iprop(owns (c : Thread nD τ) arg1 fullShare x0 ∗ owns (c : Thread nD τ) arg5 fullShare s
            ∗ (iprop(owns (c : Thread nD τ) arg1 fullShare x0 ∗ (∃ f, arg5.view.loc (c : Thread nD τ) ↦[arg5.view.set]{fullShare} arg5.view.writes (Elt F) f L5)) -∗ K ⟨⟩))
          ⊢ wp frame (wpE (defs₀ (F := F)) Variants.none c none) E (cc6__pool_project_kernel i arg1 harg1 arg2 harg2 arg3 harg3 arg4 harg4 arg5 harg5) K } := by
  refine ⟨?_, fun E K => ?run⟩
  case run =>
    simp only [cc6__pool_project_kernel_eq_skeleton]; unfold cc6__pool_project_kernel_skel
    unfold owns
    iintro ⟨⟨%f0, %hf0, H0⟩, ⟨%f5, %hf5, H5⟩, Hk⟩
    obtain rfl := harg1.eq_unread hf0; obtain rfl := harg5.eq_unread hf5
    sl_exec (disch := first | exact hc1 | exact hc2)
    sl_step
    iapply Hk
    isplitl [H0]
    · iexists _; isplitr; · ipureintro; exact harg1.read_unread _
      iexact H0
    iexists _; iexact H5

set_option maxHeartbeats 1000000 in
/-- THE LAST POINT. From the tile at `x0`, the projection matrix at `x1`, the bias row at `x2`, the output row at anything
    and the accumulator at `s`, the body ends with the inputs as they were, the accumulator overwritten by `s` plus the
    tile's column sums, and the output row overwritten by the projected logistic of the mean. -/
noncomputable def kernelRun6_C (c : Dev nD) (i : grid6.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc1 : ¬cond6_1 i) (hc2 : cond6_2 i)
    (x0 : Vec F S2000x128 .f32) (x1 : Vec F S128x128 .f32) (x2 : Vec F S1x128 .f32) (s : Vec F S1x128 .f32) :
    { L : List (View.Piece (Elt F) S1x128 .f32) × List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare s
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc6__pool_project_kernel i arg1 harg1 arg2 harg2 arg3 harg3 arg4 harg4 arg5 harg5) K } := by
  refine ⟨⟨?_, ?_⟩, fun E K => ?run⟩
  case run =>
    simp only [cc6__pool_project_kernel_eq_skeleton]; unfold cc6__pool_project_kernel_skel
    unfold owns
    iintro ⟨⟨%f0, %hf0, H0⟩, ⟨%f1, %hf1, H1⟩, ⟨%f2, %hf2, H2⟩, ⟨%d4, %f4, -, H4⟩, ⟨%f5, %hf5, H5⟩, Hk⟩
    obtain rfl := harg1.eq_unread hf0; obtain rfl := harg2.eq_unread hf1; obtain rfl := harg3.eq_unread hf2; obtain rfl := harg5.eq_unread hf5
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; iexact H4
    iexists _; iexact H5

end Cert.KernelIdeal.Hand

end
-- ==== Proof.KI.Pool6.lean ====
/-
  Region 6 of the idealized kernel program, continued: the accumulator point by point, the proof data of the region, and the
  body's run at every grid point.

  After point n the accumulator holds the column sums of tiles 0 … n (a recursion over the points: zero plus the first
  tile's sums, then each tile's sums on top of what the point before left). The region's invariant holds the accumulator at
  that value from point to point beside the scoped buffers the region never touches. The output row is stored at the last
  point only; at every other point its staging buffer goes back as it came.
-/
import proofs.«113219_j18691697672631_1_alg».proof.Proof.KI.Pool6Runs
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The tile's staging buffer holds the tile of the point; the projection matrix's and the bias row's hold the matrix and the
    row at every point (fetched at the first point, the block index never moves, the body leaves them as they were). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The memrefs the body is called with -/

/-- The accumulator: the whole scratch buffer; and the view through which 1 x 128 contents are stated. -/
abbrev scr6 : Memref sig .tc .vmem S1x128 .f32 := Memref.whole cc6_scratch0
abbrev hscr6 : (scr6).IsWhole := Memref.isWhole_whole _
abbrev VS6 : View sig .tc .vmem S1x128 .f32 := (scr6).view
/-- Each window's current staging memref at point `t`, and its wholeness. -/
abbrev ms6_0 (t : Fin cfg6.N) : Memref sig .tc .vmem S2000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)

/-- The three cases' runs at point `t`'s memrefs. -/
abbrev runA6 (c : Dev nD) (t : Fin cfg6.N) (h1 : cond6_1 (grid6.coords t)) (h2 : ¬cond6_2 (grid6.coords t)) (x0 : Vec F S2000x128 .f32) :=
  kernelRun6_A (F := F) c (grid6.coords t) (ms6_0 t) (hs6_0 t) (ms6_1 t) (hs6_1 t) (ms6_2 t) (hs6_2 t) (ms6_3 t) (hs6_3 t) scr6 hscr6 h1 h2 x0
abbrev runB6 (c : Dev nD) (t : Fin cfg6.N) (h1 : ¬cond6_1 (grid6.coords t)) (h2 : ¬cond6_2 (grid6.coords t)) (x0 : Vec F S2000x128 .f32) (s : Vec F S1x128 .f32) :=
  kernelRun6_B (F := F) c (grid6.coords t) (ms6_0 t) (hs6_0 t) (ms6_1 t) (hs6_1 t) (ms6_2 t) (hs6_2 t) (ms6_3 t) (hs6_3 t) scr6 hscr6 h1 h2 x0 s
abbrev runC6 (c : Dev nD) (t : Fin cfg6.N) (h1 : ¬cond6_1 (grid6.coords t)) (h2 : cond6_2 (grid6.coords t)) (x0 : Vec F S2000x128 .f32)
    (x1 : Vec F S128x128 .f32) (x2 : Vec F S1x128 .f32) (s : Vec F S1x128 .f32) :=
  kernelRun6_C (F := F) c (grid6.coords t) (ms6_0 t) (hs6_0 t) (ms6_1 t) (hs6_1 t) (ms6_2 t) (hs6_2 t) (ms6_3 t) (hs6_3 t) scr6 hscr6 h1 h2 x0 x1 x2 s

/-- A list of pieces read back over junk: what a covering list of stores leaves, whatever was there. -/
abbrev readBack6 (L : List (View.Piece (Elt F) S1x128 .f32)) : Vec F S1x128 .f32 :=
  VS6.read (Elt F) (VS6.writes (Elt F) VS6.junk L)

/-- Each case's stores cover the buffers they write (one whole-row store last in each). -/
theorem coverA6 (c : Dev nD) (t : Fin cfg6.N) (h1) (h2) (x0 : Vec F S2000x128 .f32) (y : S1x128.Idx) :
    ∃ pc ∈ (runA6 c t h1 h2 x0).1, y ∈ pc.1.set :=
  View.cover_of_tiledL (runA6 c t h1 h2 x0).1 S1x128.size (by sl_kernel_rfl) y
theorem coverB6 (c : Dev nD) (t : Fin cfg6.N) (h1) (h2) (x0 : Vec F S2000x128 .f32) (s : Vec F S1x128 .f32) (y : S1x128.Idx) :
    ∃ pc ∈ (runB6 c t h1 h2 x0 s).1, y ∈ pc.1.set :=
  View.cover_of_tiledL (runB6 c t h1 h2 x0 s).1 S1x128.size (by sl_kernel_rfl) y
theorem coverC6_out (c : Dev nD) (t : Fin cfg6.N) (h1) (h2) (x0 : Vec F S2000x128 .f32) (x1 : Vec F S128x128 .f32) (x2 s : Vec F S1x128 .f32) (y : S1x128.Idx) :
    ∃ pc ∈ (runC6 c t h1 h2 x0 x1 x2 s).1.1, y ∈ pc.1.set :=
  View.cover_of_tiledL (runC6 c t h1 h2 x0 x1 x2 s).1.1 S1x128.size (by sl_kernel_rfl) y
theorem coverC6_scr (c : Dev nD) (t : Fin cfg6.N) (h1) (h2) (x0 : Vec F S2000x128 .f32) (x1 : Vec F S128x128 .f32) (x2 s : Vec F S1x128 .f32) (y : S1x128.Idx) :
    ∃ pc ∈ (runC6 c t h1 h2 x0 x1 x2 s).1.2, y ∈ pc.1.set :=
  View.cover_of_tiledL (runC6 c t h1 h2 x0 x1 x2 s).1.2 S1x128.size (by sl_kernel_rfl) y

/-! ## The accumulator after each point -/

/-- THE ACCUMULATION. What the accumulator holds after the body at point `n`: at the first point what the first case
    leaves; at a later point what that point's case leaves over what the point before left. -/
def sAt6 (c : Dev nD) : (n : ℕ) → n < cfg6.N → Vec F S1x128 .f32
  | 0, hn => readBack6 (runA6 c ⟨0, hn⟩ ((hcond6_1 ⟨0, hn⟩).mpr rfl)
      (fun h => absurd (show (0 : ℕ) = 24 from (hcond6_2 ⟨0, hn⟩).mp h) (by decide)) (iblk6 V c 0 ⟨0, hn⟩)).1
  | n + 1, hn =>
    if h24 : n + 1 = 24 then
      readBack6 (runC6 c ⟨n + 1, hn⟩ (fun h => absurd (show n + 1 = 0 from (hcond6_1 ⟨n + 1, hn⟩).mp h) (Nat.succ_ne_zero n))
        ((hcond6_2 ⟨n + 1, hn⟩).mpr h24) (iblk6 V c 0 ⟨n + 1, hn⟩) (iblk6 V c 1 ⟨n + 1, hn⟩) (iblk6 V c 2 ⟨n + 1, hn⟩)
        (sAt6 c n (Nat.lt_of_succ_lt hn))).1.2
    else
      readBack6 (runB6 c ⟨n + 1, hn⟩ (fun h => absurd (show n + 1 = 0 from (hcond6_1 ⟨n + 1, hn⟩).mp h) (Nat.succ_ne_zero n))
        (fun h => h24 ((hcond6_2 ⟨n + 1, hn⟩).mp h)) (iblk6 V c 0 ⟨n + 1, hn⟩) (sAt6 c n (Nat.lt_of_succ_lt hn))).1

/-- What the last point stores in the output row (junk at any other point: the row is not stored there). -/
def outAt6 (c : Dev nD) : (n : ℕ) → n < cfg6.N → Vec F S1x128 .f32
  | 0, _ => VS6.read (Elt F) VS6.junk
  | n + 1, hn =>
    if h24 : n + 1 = 24 then
      readBack6 (runC6 c ⟨n + 1, hn⟩ (fun h => absurd (show n + 1 = 0 from (hcond6_1 ⟨n + 1, hn⟩).mp h) (Nat.succ_ne_zero n))
        ((hcond6_2 ⟨n + 1, hn⟩).mpr h24) (iblk6 V c 0 ⟨n + 1, hn⟩) (iblk6 V c 1 ⟨n + 1, hn⟩) (iblk6 V c 2 ⟨n + 1, hn⟩)
        (sAt6 V c n (Nat.lt_of_succ_lt hn))).1.1
    else VS6.read (Elt F) VS6.junk

/-- The accumulator as the invariant holds it before point `n`: at anything before the first point, at what the point before
    left otherwise. -/
def scrState6 (c : Dev nD) : (n : ℕ) → n ≤ cfg6.N → sProp 𝕄
  | 0, _ => iprop(∃ d, owns (c : Thread nD τ) scr6 fullShare d)
  | n + 1, h => owns (c : Thread nD τ) scr6 fullShare (sAt6 V c n (Nat.lt_of_succ_le h))

/-- The two equations of `scrState6`. -/
theorem scrState6_zero (c : Dev nD) (h : 0 ≤ cfg6.N) : scrState6 V c 0 h = iprop(∃ d, owns (c : Thread nD τ) scr6 fullShare d) := rfl
theorem scrState6_succ (c : Dev nD) (n : ℕ) (h : n + 1 ≤ cfg6.N) :
    scrState6 V c (n + 1) h = owns (c : Thread nD τ) scr6 fullShare (sAt6 V c n (Nat.lt_of_succ_le h)) := rfl

/-! ## The pipeline's proof data -/

/-- The proof data of this region on core `c`: the arrays as the region finds them; after the body at point `t` each input's
    buffer at its block and the output row's at what the last point stores; the invariant: the accumulator at the running
    column sums, the other scoped buffers no window stages, and the generator register; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => outAt6 V c t.val t.isLt
  Φ t := iprop(scrState6 V c t.val (Nat.le_of_lt_succ t.isLt)
    ∗ Pipeline.scopedRestBut (Ix := Unit) (Name := ℕ) (U := UR sig nD τ) (Lvl := ℕ) (Val := Elt F) spec6 c [cc6_scratch0]
    ∗ ∃ r, prngReg c r)
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = outAt6 V c t.val t.isLt := by dsimp only [dat6]
theorem Φ6_eq (c : Dev nD) (t : Fin (cfg6.N + 1)) : (dat6 V c).Φ t = iprop(scrState6 V c t.val (Nat.le_of_lt_succ t.isLt)
    ∗ Pipeline.scopedRestBut (Ix := Unit) (Name := ℕ) (U := UR sig nD τ) (Lvl := ℕ) (Val := Elt F) spec6 c [cc6_scratch0]
    ∗ ∃ r, prngReg c r) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation -/

/-- The output row's window is idle except at the last point, and is written back at the last point only. -/
theorem hidle6 : ∀ t : Fin cfg6.N, cfg6.idle 3 (cfg6.grid.coords t) = !decide (t.val = 24) :=
  (by decide +kernel : ∀ t : Fin grid6.N, idle6 3 (grid6.coords t) = !decide (t.val = 24))
theorem hflush6 : ∀ t : Fin cfg6.N, (cfg6.win 3).flush t = decide (t.val = 24) :=
  (by decide +kernel : ∀ t : Fin grid6.N, win6_3.flush t = decide (t.val = 24))

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns: the output row's buffer as it came at a point that is not the last, at the stored row at the last. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ (match !decide (t.val = 24) with
        | true =>
          match decide (t.val = 24) with
          | false => iprop(∃ d, owns (c : Thread nD τ) (st6_3 t) fullShare ((dat6 V c).before 3 t d))
          | true => owns (c : Thread nD τ) (st6_3 t) fullShare ((dat6 V c).after 3 t)
        | false => owns (c : Thread nD τ) (st6_3 t) fullShare ((dat6 V c).after 3 t)))

set_option maxHeartbeats 1600000 in
/-- The body at any point, by the point's case. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl,
    after6_0, after6_1, after6_2, after6_3, Φ6_eq, Φ6_eq]
  obtain ⟨n, hn⟩ := t
  rcases n with _ | n
  · -- the first point
    have h24 : ¬ ((0 : ℕ) = 24) := by decide
    simp only [h24, decide_false, Bool.not_false]
    show iprop(iprop(scrState6 V c 0 _ ∗ _ ∗ _) ∗ _) ⊢ wp _ _ _ _ (fun _ => iprop(iprop(scrState6 V c 1 _ ∗ _ ∗ _) ∗ _))
    unfold scrState6 sAt6
    iintro ⟨⟨Hs, Hrest, Hp⟩, Ho, ⟨%d0, H0⟩, ⟨%d1, H1⟩, ⟨%d2, H2⟩, H3⟩
    iapply ((runA6 c ⟨0, hn⟩ ((hcond6_1 ⟨0, hn⟩).mpr rfl)
      (fun h => absurd (show (0 : ℕ) = 24 from (hcond6_2 ⟨0, hn⟩).mp h) (by decide)) (iblk6 V c 0 ⟨0, hn⟩)).2 Set.univ _)
    isplitl [H0]; · iexact H0
    isplitl [Hs]; · iexact Hs
    iintro ⟨H0, ⟨%e5, H5⟩⟩
    isplitl [H5 Hrest Hp]
    · isplitl [H5]
      · unfold owns; iexists _; isplitr
        swap; · iexact H5
        ipureintro; exact View.read_writes_of_cover _ _ _ _ _ (coverA6 c _ _ _ _)
      isplitl [Hrest]; · iexact Hrest
      iexact Hp
    isplitl [Ho]; · iexact Ho
    isplitl [H0]; · iexact H0
    isplitl [H1]; · iexact H1
    isplitl [H2]; · iexact H2
    iexact H3
  · by_cases h24 : n + 1 = 24
    · -- the last point
      have hd : decide ((⟨n + 1, hn⟩ : Fin cfg6.N).val = 24) = true := decide_eq_true h24
      simp only [hd, Bool.not_true]
      show iprop(iprop(scrState6 V c (n + 1) _ ∗ _ ∗ _) ∗ _) ⊢ wp _ _ _ _ (fun _ => iprop(iprop(scrState6 V c (n + 1 + 1) _ ∗ _ ∗ _) ∗ _))
      rw [scrState6_succ, scrState6_succ, sAt6, outAt6]
      simp only [dif_pos h24]
      iintro ⟨⟨Hs, Hrest, Hp⟩, Ho, ⟨%d0, H0⟩, ⟨%d1, H1⟩, ⟨%d2, H2⟩, ⟨%d3, H3⟩⟩
      iapply ((runC6 c ⟨n + 1, hn⟩ (fun h => absurd (show n + 1 = 0 from (hcond6_1 ⟨n + 1, hn⟩).mp h) (Nat.succ_ne_zero n))
        ((hcond6_2 ⟨n + 1, hn⟩).mpr h24) (iblk6 V c 0 ⟨n + 1, hn⟩) (iblk6 V c 1 ⟨n + 1, hn⟩) (iblk6 V c 2 ⟨n + 1, hn⟩)
        (sAt6 V c n (Nat.lt_of_succ_lt hn))).2 Set.univ _)
      isplitl [H0]; · iexact H0
      isplitl [H1]; · iexact H1
      isplitl [H2]; · iexact H2
      isplitl [H3]; · iexists _; iexact H3
      isplitl [Hs]; · iexact Hs
      iintro ⟨H0, H1, H2, ⟨%e4, H4⟩, ⟨%e5, H5⟩⟩
      isplitl [H5 Hrest Hp]
      · isplitl [H5]
        · unfold owns; iexists _; isplitr
          swap; · iexact H5
          ipureintro; exact View.read_writes_of_cover _ _ _ _ _ (coverC6_scr c _ _ _ _ _ _ _)
        isplitl [Hrest]; · iexact Hrest
        iexact Hp
      isplitl [Ho]; · iexact Ho
      isplitl [H0]; · iexact H0
      isplitl [H1]; · iexact H1
      isplitl [H2]; · iexact H2
      unfold owns; iexists _; isplitr
      swap; · iexact H4
      ipureintro; exact View.read_writes_of_cover _ _ _ _ _ (coverC6_out c _ _ _ _ _ _ _)
    · -- a middle point
      have hd : decide ((⟨n + 1, hn⟩ : Fin cfg6.N).val = 24) = false := decide_eq_false h24
      simp only [hd, Bool.not_false]
      show iprop(iprop(scrState6 V c (n + 1) _ ∗ _ ∗ _) ∗ _) ⊢ wp _ _ _ _ (fun _ => iprop(iprop(scrState6 V c (n + 1 + 1) _ ∗ _ ∗ _) ∗ _))
      rw [scrState6_succ, scrState6_succ, sAt6]
      simp only [dif_neg h24]
      iintro ⟨⟨Hs, Hrest, Hp⟩, Ho, ⟨%d0, H0⟩, ⟨%d1, H1⟩, ⟨%d2, H2⟩, H3⟩
      iapply ((runB6 c ⟨n + 1, hn⟩ (fun h => absurd (show n + 1 = 0 from (hcond6_1 ⟨n + 1, hn⟩).mp h) (Nat.succ_ne_zero n))
        (fun h => h24 ((hcond6_2 ⟨n + 1, hn⟩).mp h)) (iblk6 V c 0 ⟨n + 1, hn⟩) (sAt6 V c n (Nat.lt_of_succ_lt hn))).2 Set.univ _)
      isplitl [H0]; · iexact H0
      isplitl [Hs]; · iexact Hs
      iintro ⟨H0, ⟨%e5, H5⟩⟩
      isplitl [H5 Hrest Hp]
      · isplitl [H5]
        · unfold owns; iexists _; isplitr
          swap; · iexact H5
          ipureintro; exact View.read_writes_of_cover _ _ _ _ _ (coverB6 c _ _ _ _ _)
        isplitl [Hrest]; · iexact Hrest
        iexact Hp
      isplitl [Ho]; · iexact Ho
      isplitl [H0]; · iexact H0
      isplitl [H1]; · iexact H1
      isplitl [H2]; · iexact H2
      iexact H3

/-- The library's body obligation, at every point: the output row's window reduced by its idle points and its one
    write-back. -/
theorem body_obligation6 (c : Dev nD) : BodyObligation (dat6 (F := F) V c) (defs₀ (F := F)) Variants.none () Set.univ := fun t => by
  rw [bigSep_W6, bigSep_W6]
  have h := sound_body6 V c t
  unfold bodyPre6 bodyPost6 at h
  rw [← hidle6 t, ← hflush6 t] at h
  exact h

end Cert.KernelIdeal.Hand

end
-- ==== Proof.KI.Pool7Runs.lean ====
/-
  Region 7 of the idealized kernel program: the pooled projection of the second view, over 25 tiles of 2000 rows.
  The body keeps a 1 x 128 accumulator in a scratch buffer across the grid points: at the first point it sets the
  accumulator to zero; at every point it adds the column sums of the point's tile to it; at the last point it multiplies
  the accumulated column sums by 1/50000 (the mean over the 50000 rows), applies the logistic function entry by entry,
  multiplies the resulting row by the 128 x 128 projection matrix, adds the bias row, and stores the 1 x 128 result.

  This module runs the body in its three control cases — the first point, a middle point, the last point — from whole
  staging buffers: which buffers it needs at what contents, and the pieces its stores leave in the accumulator and, at the
  last point, in the output row.
-/
import proofs.«113219_j18691697672631_1_alg».proof.Proof.Gen.KernelIdeal.Launch
import proofs.«113219_j18691697672631_1_alg».proof.Proof.Gen.KernelIdeal.Skeleton
import proofs.«113219_j18691697672631_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's two branch conditions, over the grid -/

/-- The first branch (set the accumulator to zero) is taken where the grid coordinate is 0, -/
abbrev cond7_1 (i : grid7.Coords) : Prop := (Scalar.cmpi .ne (Scalar.extui (Scalar.cmpi .eq (BitVec.ofNat 32 (i 0).val) 0#32)) 0#32) = 1#1
theorem hcond7_1 : ∀ t : Fin cfg7.N, cond7_1 (grid7.coords t) ↔ t.val = 0 :=
  (by decide +kernel : ∀ t : Fin grid7.N, cond7_1 (grid7.coords t) ↔ t.val = 0)
/-- and the second (finish and store the result) where it is 24, the last of the 25 points. -/
abbrev cond7_2 (i : grid7.Coords) : Prop := k7_cond2 i = 1#1
theorem hcond7_2 : ∀ t : Fin cfg7.N, cond7_2 (grid7.coords t) ↔ t.val = 24 :=
  (by decide +kernel : ∀ t : Fin grid7.N, cond7_2 (grid7.coords t) ↔ t.val = 24)

/-! ## The body in its three cases -/

set_option maxHeartbeats 1000000 in
/-- THE FIRST POINT. From the tile at `x0` and the accumulator at anything, the body ends with the tile as it was and the
    accumulator overwritten twice: by zero, then by zero plus the tile's column sums. The pieces are what the run finds. -/
noncomputable def kernelRun7_A (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc1 : cond7_1 i) (hc2 : ¬cond7_2 i)
    (x0 : Vec F S2000x128 .f32) :
    { L5 : List (View.Piece (Elt F) S1x128 .f32) //
      ∀ (E : Set ℕ) (K : PUnit → sProp 𝕄),
        iprop(owns (c : Thread nD τ) arg1 fullShare x0 ∗ (∃ d, owns (c : Thread nD τ) arg5 fullShare d)
            ∗ (iprop(owns (c : Thread nD τ) arg1 fullShare x0 ∗ (∃ f, arg5.view.loc (c : Thread nD τ) ↦[arg5.view.set]{fullShare} arg5.view.writes (Elt F) f L5)) -∗ K ⟨⟩))
          ⊢ wp frame (wpE (defs₀ (F := F)) Variants.none c none) E (cc7__pool_project_kernel i arg1 harg1 arg2 harg2 arg3 harg3 arg4 harg4 arg5 harg5) K } := by
  refine ⟨?_, fun E K => ?run⟩
  case run =>
    simp only [cc7__pool_project_kernel_eq_skeleton]; unfold cc7__pool_project_kernel_skel
    unfold owns
    iintro ⟨⟨%f0, %hf0, H0⟩, ⟨%d5, %f5, -, H5⟩, Hk⟩
    obtain rfl := harg1.eq_unread hf0
    sl_exec (disch := first | exact hc1 | exact hc2)
    sl_step
    iapply Hk
    isplitl [H0]
    · iexists _; isplitr; · ipureintro; exact harg1.read_unread _
      iexact H0
    iexists _; iexact H5

set_option maxHeartbeats 1000000 in
/-- A MIDDLE POINT. From the tile at `x0` and the accumulator at `s`, the body ends with the tile as it was and the
    accumulator overwritten by `s` plus the tile's column sums. -/
noncomputable def kernelRun7_B (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc1 : ¬cond7_1 i) (hc2 : ¬cond7_2 i)
    (x0 : Vec F S2000x128 .f32) (s : Vec F S1x128 .f32) :
    { L5 : List (View.Piece (Elt F) S1x128 .f32) //
      ∀ (E : Set ℕ) (K : PUnit → sProp 𝕄),
        iprop(owns (c : Thread nD τ) arg1 fullShare x0 ∗ owns (c : Thread nD τ) arg5 fullShare s
            ∗ (iprop(owns (c : Thread nD τ) arg1 fullShare x0 ∗ (∃ f, arg5.view.loc (c : Thread nD τ) ↦[arg5.view.set]{fullShare} arg5.view.writes (Elt F) f L5)) -∗ K ⟨⟩))
          ⊢ wp frame (wpE (defs₀ (F := F)) Variants.none c none) E (cc7__pool_project_kernel i arg1 harg1 arg2 harg2 arg3 harg3 arg4 harg4 arg5 harg5) K } := by
  refine ⟨?_, fun E K => ?run⟩
  case run =>
    simp only [cc7__pool_project_kernel_eq_skeleton]; unfold cc7__pool_project_kernel_skel
    unfold owns
    iintro ⟨⟨%f0, %hf0, H0⟩, ⟨%f5, %hf5, H5⟩, Hk⟩
    obtain rfl := harg1.eq_unread hf0; obtain rfl := harg5.eq_unread hf5
    sl_exec (disch := first | exact hc1 | exact hc2)
    sl_step
    iapply Hk
    isplitl [H0]
    · iexists _; isplitr; · ipureintro; exact harg1.read_unread _
      iexact H0
    iexists _; iexact H5

set_option maxHeartbeats 1000000 in
/-- THE LAST POINT. From the tile at `x0`, the projection matrix at `x1`, the bias row at `x2`, the output row at anything
    and the accumulator at `s`, the body ends with the inputs as they were, the accumulator overwritten by `s` plus the
    tile's column sums, and the output row overwritten by the projected logistic of the mean. -/
noncomputable def kernelRun7_C (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc1 : ¬cond7_1 i) (hc2 : cond7_2 i)
    (x0 : Vec F S2000x128 .f32) (x1 : Vec F S128x128 .f32) (x2 : Vec F S1x128 .f32) (s : Vec F S1x128 .f32) :
    { L : List (View.Piece (Elt F) S1x128 .f32) × List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare s
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc7__pool_project_kernel i arg1 harg1 arg2 harg2 arg3 harg3 arg4 harg4 arg5 harg5) K } := by
  refine ⟨⟨?_, ?_⟩, fun E K => ?run⟩
  case run =>
    simp only [cc7__pool_project_kernel_eq_skeleton]; unfold cc7__pool_project_kernel_skel
    unfold owns
    iintro ⟨⟨%f0, %hf0, H0⟩, ⟨%f1, %hf1, H1⟩, ⟨%f2, %hf2, H2⟩, ⟨%d4, %f4, -, H4⟩, ⟨%f5, %hf5, H5⟩, Hk⟩
    obtain rfl := harg1.eq_unread hf0; obtain rfl := harg2.eq_unread hf1; obtain rfl := harg3.eq_unread hf2; obtain rfl := harg5.eq_unread hf5
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; iexact H4
    iexists _; iexact H5

end Cert.KernelIdeal.Hand

end
-- ==== Proof.KI.Pool7.lean ====
/-
  Region 7 of the idealized kernel program, continued: the accumulator point by point, the proof data of the region, and the
  body's run at every grid point.

  After point n the accumulator holds the column sums of tiles 0 … n (a recursion over the points: zero plus the first
  tile's sums, then each tile's sums on top of what the point before left). The region's invariant holds the accumulator at
  that value from point to point beside the scoped buffers the region never touches. The output row is stored at the last
  point only; at every other point its staging buffer goes back as it came.
-/
import proofs.«113219_j18691697672631_1_alg».proof.Proof.KI.Pool7Runs
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The tile's staging buffer holds the tile of the point; the projection matrix's and the bias row's hold the matrix and the
    row at every point (fetched at the first point, the block index never moves, the body leaves them as they were). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The memrefs the body is called with -/

/-- The accumulator: the whole scratch buffer; and the view through which 1 x 128 contents are stated. -/
abbrev scr7 : Memref sig .tc .vmem S1x128 .f32 := Memref.whole cc7_scratch0
abbrev hscr7 : (scr7).IsWhole := Memref.isWhole_whole _
abbrev VS7 : View sig .tc .vmem S1x128 .f32 := (scr7).view
/-- Each window's current staging memref at point `t`, and its wholeness. -/
abbrev ms7_0 (t : Fin cfg7.N) : Memref sig .tc .vmem S2000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S128x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)

/-- The three cases' runs at point `t`'s memrefs. -/
abbrev runA7 (c : Dev nD) (t : Fin cfg7.N) (h1 : cond7_1 (grid7.coords t)) (h2 : ¬cond7_2 (grid7.coords t)) (x0 : Vec F S2000x128 .f32) :=
  kernelRun7_A (F := F) c (grid7.coords t) (ms7_0 t) (hs7_0 t) (ms7_1 t) (hs7_1 t) (ms7_2 t) (hs7_2 t) (ms7_3 t) (hs7_3 t) scr7 hscr7 h1 h2 x0
abbrev runB7 (c : Dev nD) (t : Fin cfg7.N) (h1 : ¬cond7_1 (grid7.coords t)) (h2 : ¬cond7_2 (grid7.coords t)) (x0 : Vec F S2000x128 .f32) (s : Vec F S1x128 .f32) :=
  kernelRun7_B (F := F) c (grid7.coords t) (ms7_0 t) (hs7_0 t) (ms7_1 t) (hs7_1 t) (ms7_2 t) (hs7_2 t) (ms7_3 t) (hs7_3 t) scr7 hscr7 h1 h2 x0 s
abbrev runC7 (c : Dev nD) (t : Fin cfg7.N) (h1 : ¬cond7_1 (grid7.coords t)) (h2 : cond7_2 (grid7.coords t)) (x0 : Vec F S2000x128 .f32)
    (x1 : Vec F S128x128 .f32) (x2 : Vec F S1x128 .f32) (s : Vec F S1x128 .f32) :=
  kernelRun7_C (F := F) c (grid7.coords t) (ms7_0 t) (hs7_0 t) (ms7_1 t) (hs7_1 t) (ms7_2 t) (hs7_2 t) (ms7_3 t) (hs7_3 t) scr7 hscr7 h1 h2 x0 x1 x2 s

/-- A list of pieces read back over junk: what a covering list of stores leaves, whatever was there. -/
abbrev readBack7 (L : List (View.Piece (Elt F) S1x128 .f32)) : Vec F S1x128 .f32 :=
  VS7.read (Elt F) (VS7.writes (Elt F) VS7.junk L)

/-- Each case's stores cover the buffers they write (one whole-row store last in each). -/
theorem coverA7 (c : Dev nD) (t : Fin cfg7.N) (h1) (h2) (x0 : Vec F S2000x128 .f32) (y : S1x128.Idx) :
    ∃ pc ∈ (runA7 c t h1 h2 x0).1, y ∈ pc.1.set :=
  View.cover_of_tiledL (runA7 c t h1 h2 x0).1 S1x128.size (by sl_kernel_rfl) y
theorem coverB7 (c : Dev nD) (t : Fin cfg7.N) (h1) (h2) (x0 : Vec F S2000x128 .f32) (s : Vec F S1x128 .f32) (y : S1x128.Idx) :
    ∃ pc ∈ (runB7 c t h1 h2 x0 s).1, y ∈ pc.1.set :=
  View.cover_of_tiledL (runB7 c t h1 h2 x0 s).1 S1x128.size (by sl_kernel_rfl) y
theorem coverC7_out (c : Dev nD) (t : Fin cfg7.N) (h1) (h2) (x0 : Vec F S2000x128 .f32) (x1 : Vec F S128x128 .f32) (x2 s : Vec F S1x128 .f32) (y : S1x128.Idx) :
    ∃ pc ∈ (runC7 c t h1 h2 x0 x1 x2 s).1.1, y ∈ pc.1.set :=
  View.cover_of_tiledL (runC7 c t h1 h2 x0 x1 x2 s).1.1 S1x128.size (by sl_kernel_rfl) y
theorem coverC7_scr (c : Dev nD) (t : Fin cfg7.N) (h1) (h2) (x0 : Vec F S2000x128 .f32) (x1 : Vec F S128x128 .f32) (x2 s : Vec F S1x128 .f32) (y : S1x128.Idx) :
    ∃ pc ∈ (runC7 c t h1 h2 x0 x1 x2 s).1.2, y ∈ pc.1.set :=
  View.cover_of_tiledL (runC7 c t h1 h2 x0 x1 x2 s).1.2 S1x128.size (by sl_kernel_rfl) y

/-! ## The accumulator after each point -/

/-- THE ACCUMULATION. What the accumulator holds after the body at point `n`: at the first point what the first case
    leaves; at a later point what that point's case leaves over what the point before left. -/
def sAt7 (c : Dev nD) : (n : ℕ) → n < cfg7.N → Vec F S1x128 .f32
  | 0, hn => readBack7 (runA7 c ⟨0, hn⟩ ((hcond7_1 ⟨0, hn⟩).mpr rfl)
      (fun h => absurd (show (0 : ℕ) = 24 from (hcond7_2 ⟨0, hn⟩).mp h) (by decide)) (iblk7 V c 0 ⟨0, hn⟩)).1
  | n + 1, hn =>
    if h24 : n + 1 = 24 then
      readBack7 (runC7 c ⟨n + 1, hn⟩ (fun h => absurd (show n + 1 = 0 from (hcond7_1 ⟨n + 1, hn⟩).mp h) (Nat.succ_ne_zero n))
        ((hcond7_2 ⟨n + 1, hn⟩).mpr h24) (iblk7 V c 0 ⟨n + 1, hn⟩) (iblk7 V c 1 ⟨n + 1, hn⟩) (iblk7 V c 2 ⟨n + 1, hn⟩)
        (sAt7 c n (Nat.lt_of_succ_lt hn))).1.2
    else
      readBack7 (runB7 c ⟨n + 1, hn⟩ (fun h => absurd (show n + 1 = 0 from (hcond7_1 ⟨n + 1, hn⟩).mp h) (Nat.succ_ne_zero n))
        (fun h => h24 ((hcond7_2 ⟨n + 1, hn⟩).mp h)) (iblk7 V c 0 ⟨n + 1, hn⟩) (sAt7 c n (Nat.lt_of_succ_lt hn))).1

/-- What the last point stores in the output row (junk at any other point: the row is not stored there). -/
def outAt7 (c : Dev nD) : (n : ℕ) → n < cfg7.N → Vec F S1x128 .f32
  | 0, _ => VS7.read (Elt F) VS7.junk
  | n + 1, hn =>
    if h24 : n + 1 = 24 then
      readBack7 (runC7 c ⟨n + 1, hn⟩ (fun h => absurd (show n + 1 = 0 from (hcond7_1 ⟨n + 1, hn⟩).mp h) (Nat.succ_ne_zero n))
        ((hcond7_2 ⟨n + 1, hn⟩).mpr h24) (iblk7 V c 0 ⟨n + 1, hn⟩) (iblk7 V c 1 ⟨n + 1, hn⟩) (iblk7 V c 2 ⟨n + 1, hn⟩)
        (sAt7 V c n (Nat.lt_of_succ_lt hn))).1.1
    else VS7.read (Elt F) VS7.junk

/-- The accumulator as the invariant holds it before point `n`: at anything before the first point, at what the point before
    left otherwise. -/
def scrState7 (c : Dev nD) : (n : ℕ) → n ≤ cfg7.N → sProp 𝕄
  | 0, _ => iprop(∃ d, owns (c : Thread nD τ) scr7 fullShare d)
  | n + 1, h => owns (c : Thread nD τ) scr7 fullShare (sAt7 V c n (Nat.lt_of_succ_le h))

/-- The two equations of `scrState7`. -/
theorem scrState7_zero (c : Dev nD) (h : 0 ≤ cfg7.N) : scrState7 V c 0 h = iprop(∃ d, owns (c : Thread nD τ) scr7 fullShare d) := rfl
theorem scrState7_succ (c : Dev nD) (n : ℕ) (h : n + 1 ≤ cfg7.N) :
    scrState7 V c (n + 1) h = owns (c : Thread nD τ) scr7 fullShare (sAt7 V c n (Nat.lt_of_succ_le h)) := rfl

/-! ## The pipeline's proof data -/

/-- The proof data of this region on core `c`: the arrays as the region finds them; after the body at point `t` each input's
    buffer at its block and the output row's at what the last point stores; the invariant: the accumulator at the running
    column sums, the other scoped buffers no window stages, and the generator register; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => outAt7 V c t.val t.isLt
  Φ t := iprop(scrState7 V c t.val (Nat.le_of_lt_succ t.isLt)
    ∗ Pipeline.scopedRestBut (Ix := Unit) (Name := ℕ) (U := UR sig nD τ) (Lvl := ℕ) (Val := Elt F) spec7 c [cc7_scratch0]
    ∗ ∃ r, prngReg c r)
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = outAt7 V c t.val t.isLt := by dsimp only [dat7]
theorem Φ7_eq (c : Dev nD) (t : Fin (cfg7.N + 1)) : (dat7 V c).Φ t = iprop(scrState7 V c t.val (Nat.le_of_lt_succ t.isLt)
    ∗ Pipeline.scopedRestBut (Ix := Unit) (Name := ℕ) (U := UR sig nD τ) (Lvl := ℕ) (Val := Elt F) spec7 c [cc7_scratch0]
    ∗ ∃ r, prngReg c r) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation -/

/-- The output row's window is idle except at the last point, and is written back at the last point only. -/
theorem hidle7 : ∀ t : Fin cfg7.N, cfg7.idle 3 (cfg7.grid.coords t) = !decide (t.val = 24) :=
  (by decide +kernel : ∀ t : Fin grid7.N, idle7 3 (grid7.coords t) = !decide (t.val = 24))
theorem hflush7 : ∀ t : Fin cfg7.N, (cfg7.win 3).flush t = decide (t.val = 24) :=
  (by decide +kernel : ∀ t : Fin grid7.N, win7_3.flush t = decide (t.val = 24))

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns: the output row's buffer as it came at a point that is not the last, at the stored row at the last. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ (match !decide (t.val = 24) with
        | true =>
          match decide (t.val = 24) with
          | false => iprop(∃ d, owns (c : Thread nD τ) (st7_3 t) fullShare ((dat7 V c).before 3 t d))
          | true => owns (c : Thread nD τ) (st7_3 t) fullShare ((dat7 V c).after 3 t)
        | false => owns (c : Thread nD τ) (st7_3 t) fullShare ((dat7 V c).after 3 t)))

set_option maxHeartbeats 1600000 in
/-- The body at any point, by the point's case. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl,
    after7_0, after7_1, after7_2, after7_3, Φ7_eq, Φ7_eq]
  obtain ⟨n, hn⟩ := t
  rcases n with _ | n
  · -- the first point
    have h24 : ¬ ((0 : ℕ) = 24) := by decide
    simp only [h24, decide_false, Bool.not_false]
    show iprop(iprop(scrState7 V c 0 _ ∗ _ ∗ _) ∗ _) ⊢ wp _ _ _ _ (fun _ => iprop(iprop(scrState7 V c 1 _ ∗ _ ∗ _) ∗ _))
    unfold scrState7 sAt7
    iintro ⟨⟨Hs, Hrest, Hp⟩, Ho, ⟨%d0, H0⟩, ⟨%d1, H1⟩, ⟨%d2, H2⟩, H3⟩
    iapply ((runA7 c ⟨0, hn⟩ ((hcond7_1 ⟨0, hn⟩).mpr rfl)
      (fun h => absurd (show (0 : ℕ) = 24 from (hcond7_2 ⟨0, hn⟩).mp h) (by decide)) (iblk7 V c 0 ⟨0, hn⟩)).2 Set.univ _)
    isplitl [H0]; · iexact H0
    isplitl [Hs]; · iexact Hs
    iintro ⟨H0, ⟨%e5, H5⟩⟩
    isplitl [H5 Hrest Hp]
    · isplitl [H5]
      · unfold owns; iexists _; isplitr
        swap; · iexact H5
        ipureintro; exact View.read_writes_of_cover _ _ _ _ _ (coverA7 c _ _ _ _)
      isplitl [Hrest]; · iexact Hrest
      iexact Hp
    isplitl [Ho]; · iexact Ho
    isplitl [H0]; · iexact H0
    isplitl [H1]; · iexact H1
    isplitl [H2]; · iexact H2
    iexact H3
  · by_cases h24 : n + 1 = 24
    · -- the last point
      have hd : decide ((⟨n + 1, hn⟩ : Fin cfg7.N).val = 24) = true := decide_eq_true h24
      simp only [hd, Bool.not_true]
      show iprop(iprop(scrState7 V c (n + 1) _ ∗ _ ∗ _) ∗ _) ⊢ wp _ _ _ _ (fun _ => iprop(iprop(scrState7 V c (n + 1 + 1) _ ∗ _ ∗ _) ∗ _))
      rw [scrState7_succ, scrState7_succ, sAt7, outAt7]
      simp only [dif_pos h24]
      iintro ⟨⟨Hs, Hrest, Hp⟩, Ho, ⟨%d0, H0⟩, ⟨%d1, H1⟩, ⟨%d2, H2⟩, ⟨%d3, H3⟩⟩
      iapply ((runC7 c ⟨n + 1, hn⟩ (fun h => absurd (show n + 1 = 0 from (hcond7_1 ⟨n + 1, hn⟩).mp h) (Nat.succ_ne_zero n))
        ((hcond7_2 ⟨n + 1, hn⟩).mpr h24) (iblk7 V c 0 ⟨n + 1, hn⟩) (iblk7 V c 1 ⟨n + 1, hn⟩) (iblk7 V c 2 ⟨n + 1, hn⟩)
        (sAt7 V c n (Nat.lt_of_succ_lt hn))).2 Set.univ _)
      isplitl [H0]; · iexact H0
      isplitl [H1]; · iexact H1
      isplitl [H2]; · iexact H2
      isplitl [H3]; · iexists _; iexact H3
      isplitl [Hs]; · iexact Hs
      iintro ⟨H0, H1, H2, ⟨%e4, H4⟩, ⟨%e5, H5⟩⟩
      isplitl [H5 Hrest Hp]
      · isplitl [H5]
        · unfold owns; iexists _; isplitr
          swap; · iexact H5
          ipureintro; exact View.read_writes_of_cover _ _ _ _ _ (coverC7_scr c _ _ _ _ _ _ _)
        isplitl [Hrest]; · iexact Hrest
        iexact Hp
      isplitl [Ho]; · iexact Ho
      isplitl [H0]; · iexact H0
      isplitl [H1]; · iexact H1
      isplitl [H2]; · iexact H2
      unfold owns; iexists _; isplitr
      swap; · iexact H4
      ipureintro; exact View.read_writes_of_cover _ _ _ _ _ (coverC7_out c _ _ _ _ _ _ _)
    · -- a middle point
      have hd : decide ((⟨n + 1, hn⟩ : Fin cfg7.N).val = 24) = false := decide_eq_false h24
      simp only [hd, Bool.not_false]
      show iprop(iprop(scrState7 V c (n + 1) _ ∗ _ ∗ _) ∗ _) ⊢ wp _ _ _ _ (fun _ => iprop(iprop(scrState7 V c (n + 1 + 1) _ ∗ _ ∗ _) ∗ _))
      rw [scrState7_succ, scrState7_succ, sAt7]
      simp only [dif_neg h24]
      iintro ⟨⟨Hs, Hrest, Hp⟩, Ho, ⟨%d0, H0⟩, ⟨%d1, H1⟩, ⟨%d2, H2⟩, H3⟩
      iapply ((runB7 c ⟨n + 1, hn⟩ (fun h => absurd (show n + 1 = 0 from (hcond7_1 ⟨n + 1, hn⟩).mp h) (Nat.succ_ne_zero n))
        (fun h => h24 ((hcond7_2 ⟨n + 1, hn⟩).mp h)) (iblk7 V c 0 ⟨n + 1, hn⟩) (sAt7 V c n (Nat.lt_of_succ_lt hn))).2 Set.univ _)
      isplitl [H0]; · iexact H0
      isplitl [Hs]; · iexact Hs
      iintro ⟨H0, ⟨%e5, H5⟩⟩
      isplitl [H5 Hrest Hp]
      · isplitl [H5]
        · unfold owns; iexists _; isplitr
          swap; · iexact H5
          ipureintro; exact View.read_writes_of_cover _ _ _ _ _ (coverB7 c _ _ _ _ _)
        isplitl [Hrest]; · iexact Hrest
        iexact Hp
      isplitl [Ho]; · iexact Ho
      isplitl [H0]; · iexact H0
      isplitl [H1]; · iexact H1
      isplitl [H2]; · iexact H2
      iexact H3

/-- The library's body obligation, at every point: the output row's window reduced by its idle points and its one
    write-back. -/
theorem body_obligation7 (c : Dev nD) : BodyObligation (dat7 (F := F) V c) (defs₀ (F := F)) Variants.none () Set.univ := fun t => by
  rw [bigSep_W7, bigSep_W7]
  have h := sound_body7 V c t
  unfold bodyPre7 bodyPost7 at h
  rw [← hidle7 t, ← hflush7 t] at h
  exact h

end Cert.KernelIdeal.Hand

end
-- ==== Proof.KI.Linear8.lean ====
/-
  Region 8 of the idealized kernel program: the first linear layer of the first encoder, run on the node features with
  their rows permuted by the first permutation, on one tile of 2000 rows.
  At a grid point the body reads the tile `x` (2000 x 128), the weights `W` (128 x 128) and the bias row `b` (1 x 128) and
  overwrites the output tile with `x W + b`: entry (p, q) is the sum over k of x(p, k) W(k, q), plus b(q). It keeps nothing
  between points; the weights and the bias are fetched once and stay where they are.

  Stated here for any contents `V` of the core's buffers on entry: what each window's staging buffer holds when the body
  runs, what the one store leaves in the output buffer, that the body run from those buffers ends with the inputs untouched
  and the output at that value, and from it the body obligation at every grid point.
-/
import proofs.«113219_j18691697672631_1_alg».proof.Proof.Gen.KernelIdeal.Launch
import proofs.«113219_j18691697672631_1_alg».proof.Proof.Gen.KernelIdeal.Skeleton
import proofs.«113219_j18691697672631_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The tile's staging buffer holds the tile of the point: it is fetched at every point. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The weights' staging buffer holds the weights at every point: fetched at the first point, the block index never moves,
    and the body leaves them as they were. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The bias row's staging buffer holds the row at every point, for the same reason. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole 2000 x 128 tile, the whole 128 x 128 weights and the whole 1 x 128 row as rectangles. -/
abbrev rTile8 : Rect S2000x128 := Rect.unit (s := S2000x128) ![0, 0] S2000x128.size inb_S2000x128_S2000x128_0_0
abbrev rMat8 : Rect S128x128 := Rect.unit (s := S128x128) ![0, 0] S128x128.size inb_S128x128_S128x128_0_0
abbrev rRow8 : Rect S1x128 := Rect.unit (s := S1x128) ![0, 0] S1x128.size inb_S1x128_S1x128_0_0

/-! ## What the body leaves in the output tile -/

/-- The output tile after the body: its one store, of the product plus the bias, over the whole buffer. -/
def out8_3 (x0 : Vec F S2000x128 .f32) (x1 : Vec F S128x128 .f32) (x2 : Vec F S1x128 .f32) : Vec F S2000x128 .f32 :=
  View.canon [⟨rTile8, k8_pay1 (View.ld x0 rTile8) (View.ld x1 rMat8) (View.ld x2 rRow8)⟩]

/-- The one store covers the buffer. -/
theorem cover8_3 (p0 : Vec F S2000x128 .f32) (y : S2000x128.Idx) :
    ∃ pc ∈ ([⟨rTile8, p0⟩] : List (View.Piece (Elt F) S2000x128 .f32)), y ∈ pc.1.set :=
  View.cover_of_tiled [⟨rTile8, p0⟩] S2000x128.size (by rfl) y

/-! ## The body's triple -/

set_option maxHeartbeats 1000000 in
/-- The body on whole staging buffers, the tile's at `x0`, the weights' at `x1`, the bias row's at `x2`, the output's at
    anything, runs to the continuation holding the inputs' as they were and the output's at `out8_3 x0 x1 x2`. -/
theorem sound_kernel8 (c : Dev nD) (E : Set ℕ) (i : grid8.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out8_3 x0 x1 x2)) -∗ K ⟨⟩))
      ⊢ wp frame (wpE (defs₀ (F := F)) Variants.none c none) E (cc8__linear_kernel i arg1 harg1 arg2 harg2 arg3 harg3 arg4 harg4) K := by
  simp only [cc8__linear_kernel_eq_skeleton]; unfold cc8__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of this region on core `c`: the arrays as the region finds them; after the body at point `t` each
    input's buffer at its block and the output's at the product plus the bias; the invariant the scoped buffers no window
    stages and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) :
    (dat8 V c).after 3 t = out8_3 (iblk8 V c 0 t) (iblk8 V c 1 t) (iblk8 V c 2 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' buffers hold their blocks, so the body's triple applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.PreluLinear9.lean ====
/-
  Region 9 of the idealized kernel program: the first rectifier and the second linear layer of the first encoder, run
  on the node features with their rows permuted by the first permutation, on one tile of 2000 rows.
  At a grid point the body reads the tile `c` (2000 x 128), the slope row `alpha` (1 x 128), the weights `W` (128 x 128)
  and the bias row `b` (1 x 128). It rectifies the tile entry by entry, `a = c` where `c >= 0` and `alpha * c` elsewhere, and
  overwrites the output tile with `a W + b`: entry (p, q) is the sum over k of a(p, k) W(k, q), plus b(q). It keeps
  nothing between points; the slope row, the weights and the bias are fetched once and stay where they are.

  Stated here for any contents `V` of the core's buffers on entry: what each window's staging buffer holds when the body
  runs, what the one store leaves in the output buffer, that the body run from those buffers ends with the inputs untouched
  and the output at that value, and from it the body obligation at every grid point.
-/
import proofs.«113219_j18691697672631_1_alg».proof.Proof.Gen.KernelIdeal.Launch
import proofs.«113219_j18691697672631_1_alg».proof.Proof.Gen.KernelIdeal.Skeleton
import proofs.«113219_j18691697672631_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The tile's staging buffer holds the tile of the point: it is fetched at every point. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The slope row's staging buffer holds the row at every point: fetched at the first point, the block index never moves,
    and the body leaves it as it was. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The weights' staging buffer holds the weights at every point, for the same reason. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The bias row's staging buffer holds the row at every point, for the same reason. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The whole 2000 x 128 tile, the whole 128 x 128 weights and the whole 1 x 128 row as rectangles. -/
abbrev rTile9 : Rect S2000x128 := Rect.unit (s := S2000x128) ![0, 0] S2000x128.size inb_S2000x128_S2000x128_0_0
abbrev rMat9 : Rect S128x128 := Rect.unit (s := S128x128) ![0, 0] S128x128.size inb_S128x128_S128x128_0_0
abbrev rRow9 : Rect S1x128 := Rect.unit (s := S1x128) ![0, 0] S1x128.size inb_S1x128_S1x128_0_0

/-! ## What the body leaves in the output tile -/

/-- The output tile after the body: its one store, of the rectified tile's product with the weights plus the bias, over the
    whole buffer. -/
def out9_4 (x0 : Vec F S2000x128 .f32) (x1 : Vec F S1x128 .f32) (x2 : Vec F S128x128 .f32) (x3 : Vec F S1x128 .f32) :
    Vec F S2000x128 .f32 :=
  View.canon [⟨rTile9, k9_pay1 (View.ld x0 rTile9) (View.ld x1 rRow9) (View.ld x2 rMat9) (View.ld x3 rRow9)⟩]

/-- The one store covers the buffer. -/
theorem cover9_4 (p0 : Vec F S2000x128 .f32) (y : S2000x128.Idx) :
    ∃ pc ∈ ([⟨rTile9, p0⟩] : List (View.Piece (Elt F) S2000x128 .f32)), y ∈ pc.1.set :=
  View.cover_of_tiled [⟨rTile9, p0⟩] S2000x128.size (by rfl) y

/-! ## The body's triple -/

set_option maxHeartbeats 1000000 in
/-- The body on whole staging buffers, the tile's at `x0`, the slope row's at `x1`, the weights' at `x2`, the bias row's at
    `x3`, the output's at anything, runs to the continuation holding the inputs' as they were and the output's at
    `out9_4 x0 x1 x2 x3`. -/
theorem sound_kernel9 (c : Dev nD) (E : Set ℕ) (i : grid9.Coords)
    (arg1 : Memref sig .tc .vmem S2000x128 .f32) (harg1 : arg1.IsWhole) (arg2 : Memref sig .tc .vmem S1x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S1x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out9_4 x0 x1 x2 x3)) -∗ K ⟨⟩))
      ⊢ wp frame (wpE (defs₀ (F := F)) Variants.none c none) E
          (cc9__prelu_linear_kernel i arg1 harg1 arg2 harg2 arg3 harg3 arg4 harg4 arg5 harg5) K := by
  simp only [cc9__prelu_linear_kernel_eq_skeleton]; unfold cc9__prelu_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-! ## The pipeline's proof data -/

/-- The proof data of this region on core `c`: the arrays as the region finds them; after the body at point `t` each
    input's buffer at its block and the output's at the rectified tile's product with the weights plus the bias; the
    invariant the scoped buffers no window stages and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9_4 (iblk9 V c 0 t) (iblk9 V c 1 t) (iblk9 V c 2 t) (iblk9 V c 3 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' buffers hold their blocks, so the body's triple applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Prelu10.lean ====
/-
  Region 10 of the idealized kernel program: the second rectifier of the first encoder, run on the node features with
  their rows permuted by the first permutation, on one tile of 2000 rows.
  At a grid point the body reads the tile `c` (2000 x 128) and the slope row `alpha` (1 x 128) and overwrites the
  output tile with `c` where `c >= 0` and `alpha * c` elsewhere, entry by entry. It keeps nothing between points.

  Stated here for any contents `V` of the core's buffers on entry: what each window's staging buffer holds when
  the body runs (the window's block of its array, whether it was fetched at this point or at an earlier one with the
  same block index), what the one store leaves in the output buffer, and that the body run from those buffers ends
  with the inputs untouched and the output at that value.
-/
import proofs.«113219_j18691697672631_1_alg».proof.Proof.Gen.KernelIdeal.Launch
import proofs.«113219_j18691697672631_1_alg».proof.Proof.Gen.KernelIdeal.Skeleton
import proofs.«113219_j18691697672631_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The tile's staging buffer holds the tile of the point: it is fetched at every point. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The slope row's staging buffer holds the row at every point: it is fetched at the first point, its block index never
    moves, and the body leaves it as it was. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

/-- The whole 2000 x 128 tile as a rectangle, and the whole 1 x 128 row. -/
abbrev rTile10 : Rect S2000x128 := Rect.unit (s := S2000x128) ![0, 0] S2000x128.size inb_S2000x128_S2000x128_0_0
abbrev rRow10 : Rect S1x128 := Rect.unit (s := S1x128) ![0, 0] S1x128.size inb_S1x128_S1x128_0_0

/-! ## What the body leaves in the output tile -/

/-- The output tile after the body: its one store, of the rectified tile, over the whole buffer. -/
def out10_2 (x0 : Vec F S2000x128 .f32) (x1 : Vec F S1x128 .f32) : Vec F S2000x128 .f32 :=
  View.canon [⟨rTile10, k10_pay1 (View.ld x0 rTile10) (View.ld x1 rRow10)⟩]

/-- The one store covers the buffer. -/
theorem cover10_2 (p0 : Vec F S2000x128 .f32) (y : S2000x128.Idx) :
    ∃ pc ∈ ([⟨rTile10, p0⟩] : List (View.Piece (Elt F) S2000x128 .f32)), y ∈ pc.1.set :=
  View.cover_of_tiled [⟨rTile10, p0⟩] S2000x128.size (by rfl) y

/-! ## The body's triple -/

set_option maxHeartbeats 1000000 in
/-- The body on whole staging buffers, the tile's at `x0`, the slope row's at `x1`, the output's at anything, runs to the
    continuation holding the inputs' as they were and the output's at `out10_2 x0 x1`. -/
theorem sound_kernel10 (c : Dev nD) (E : Set ℕ) (i : grid10.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out10_2 x0 x1)) -∗ K ⟨⟩))
      ⊢ wp frame (wpE (defs₀ (F := F)) Variants.none c none) E (cc10__prelu_kernel i arg1 harg1 arg2 harg2 arg3 harg3) K := by
  simp only [cc10__prelu_kernel_eq_skeleton]; unfold cc10__prelu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of this region on core `c`: the arrays as the region finds them; after the body at point `t` the tile's
    and the slope row's buffers at their blocks and the output's at the rectified tile; the invariant the scoped buffers
    no window stages and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' buffers hold their blocks, so the body's triple applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.Linear11.lean ====
/-
  Region 11 of the idealized kernel program: the first linear layer of the second encoder, run on the node features
  with their rows permuted by the second permutation, on one tile of 2000 rows.
  At a grid point the body reads the tile `x` (2000 x 128), the weights `W` (128 x 128) and the bias row `b` (1 x 128) and
  overwrites the output tile with `x W + b`: entry (p, q) is the sum over k of x(p, k) W(k, q), plus b(q). It keeps nothing
  between points; the weights and the bias are fetched once and stay where they are.

  Stated here for any contents `V` of the core's buffers on entry: what each window's staging buffer holds when the body
  runs, what the one store leaves in the output buffer, that the body run from those buffers ends with the inputs untouched
  and the output at that value, and from it the body obligation at every grid point.
-/
import proofs.«113219_j18691697672631_1_alg».proof.Proof.Gen.KernelIdeal.Launch
import proofs.«113219_j18691697672631_1_alg».proof.Proof.Gen.KernelIdeal.Skeleton
import proofs.«113219_j18691697672631_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The tile's staging buffer holds the tile of the point: it is fetched at every point. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- The weights' staging buffer holds the weights at every point: fetched at the first point, the block index never moves,
    and the body leaves them as they were. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- The bias row's staging buffer holds the row at every point, for the same reason. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

/-- The whole 2000 x 128 tile, the whole 128 x 128 weights and the whole 1 x 128 row as rectangles. -/
abbrev rTile11 : Rect S2000x128 := Rect.unit (s := S2000x128) ![0, 0] S2000x128.size inb_S2000x128_S2000x128_0_0
abbrev rMat11 : Rect S128x128 := Rect.unit (s := S128x128) ![0, 0] S128x128.size inb_S128x128_S128x128_0_0
abbrev rRow11 : Rect S1x128 := Rect.unit (s := S1x128) ![0, 0] S1x128.size inb_S1x128_S1x128_0_0

/-! ## What the body leaves in the output tile -/

/-- The output tile after the body: its one store, of the product plus the bias, over the whole buffer. -/
def out11_3 (x0 : Vec F S2000x128 .f32) (x1 : Vec F S128x128 .f32) (x2 : Vec F S1x128 .f32) : Vec F S2000x128 .f32 :=
  View.canon [⟨rTile11, k11_pay1 (View.ld x0 rTile11) (View.ld x1 rMat11) (View.ld x2 rRow11)⟩]

/-- The one store covers the buffer. -/
theorem cover11_3 (p0 : Vec F S2000x128 .f32) (y : S2000x128.Idx) :
    ∃ pc ∈ ([⟨rTile11, p0⟩] : List (View.Piece (Elt F) S2000x128 .f32)), y ∈ pc.1.set :=
  View.cover_of_tiled [⟨rTile11, p0⟩] S2000x128.size (by rfl) y

/-! ## The body's triple -/

set_option maxHeartbeats 1000000 in
/-- The body on whole staging buffers, the tile's at `x0`, the weights' at `x1`, the bias row's at `x2`, the output's at
    anything, runs to the continuation holding the inputs' as they were and the output's at `out11_3 x0 x1 x2`. -/
theorem sound_kernel11 (c : Dev nD) (E : Set ℕ) (i : grid11.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out11_3 x0 x1 x2)) -∗ K ⟨⟩))
      ⊢ wp frame (wpE (defs₀ (F := F)) Variants.none c none) E (cc11__linear_kernel i arg1 harg1 arg2 harg2 arg3 harg3 arg4 harg4) K := by
  simp only [cc11__linear_kernel_eq_skeleton]; unfold cc11__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-! ## The pipeline's proof data -/

/-- The proof data of this region on core `c`: the arrays as the region finds them; after the body at point `t` each
    input's buffer at its block and the output's at the product plus the bias; the invariant the scoped buffers no window
    stages and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) :
    (dat11 V c).after 3 t = out11_3 (iblk11 V c 0 t) (iblk11 V c 1 t) (iblk11 V c 2 t) := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' buffers hold their blocks, so the body's triple applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.PreluLinear12.lean ====
/-
  Region 12 of the idealized kernel program: the first rectifier and the second linear layer of the second encoder,
  run on the node features with their rows permuted by the second permutation, on one tile of 2000 rows.
  At a grid point the body reads the tile `c` (2000 x 128), the slope row `alpha` (1 x 128), the weights `W` (128 x 128)
  and the bias row `b` (1 x 128). It rectifies the tile entry by entry, `a = c` where `c >= 0` and `alpha * c` elsewhere, and
  overwrites the output tile with `a W + b`: entry (p, q) is the sum over k of a(p, k) W(k, q), plus b(q). It keeps
  nothing between points; the slope row, the weights and the bias are fetched once and stay where they are.

  Stated here for any contents `V` of the core's buffers on entry: what each window's staging buffer holds when the body
  runs, what the one store leaves in the output buffer, that the body run from those buffers ends with the inputs untouched
  and the output at that value, and from it the body obligation at every grid point.
-/
import proofs.«113219_j18691697672631_1_alg».proof.Proof.Gen.KernelIdeal.Launch
import proofs.«113219_j18691697672631_1_alg».proof.Proof.Gen.KernelIdeal.Skeleton
import proofs.«113219_j18691697672631_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The tile's staging buffer holds the tile of the point: it is fetched at every point. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- The slope row's staging buffer holds the row at every point: fetched at the first point, the block index never moves,
    and the body leaves it as it was. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- The weights' staging buffer holds the weights at every point, for the same reason. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- The bias row's staging buffer holds the row at every point, for the same reason. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

/-- The whole 2000 x 128 tile, the whole 128 x 128 weights and the whole 1 x 128 row as rectangles. -/
abbrev rTile12 : Rect S2000x128 := Rect.unit (s := S2000x128) ![0, 0] S2000x128.size inb_S2000x128_S2000x128_0_0
abbrev rMat12 : Rect S128x128 := Rect.unit (s := S128x128) ![0, 0] S128x128.size inb_S128x128_S128x128_0_0
abbrev rRow12 : Rect S1x128 := Rect.unit (s := S1x128) ![0, 0] S1x128.size inb_S1x128_S1x128_0_0

/-! ## What the body leaves in the output tile -/

/-- The output tile after the body: its one store, of the rectified tile's product with the weights plus the bias, over the
    whole buffer. -/
def out12_4 (x0 : Vec F S2000x128 .f32) (x1 : Vec F S1x128 .f32) (x2 : Vec F S128x128 .f32) (x3 : Vec F S1x128 .f32) :
    Vec F S2000x128 .f32 :=
  View.canon [⟨rTile12, k12_pay1 (View.ld x0 rTile12) (View.ld x1 rRow12) (View.ld x2 rMat12) (View.ld x3 rRow12)⟩]

/-- The one store covers the buffer. -/
theorem cover12_4 (p0 : Vec F S2000x128 .f32) (y : S2000x128.Idx) :
    ∃ pc ∈ ([⟨rTile12, p0⟩] : List (View.Piece (Elt F) S2000x128 .f32)), y ∈ pc.1.set :=
  View.cover_of_tiled [⟨rTile12, p0⟩] S2000x128.size (by rfl) y

/-! ## The body's triple -/

set_option maxHeartbeats 1000000 in
/-- The body on whole staging buffers, the tile's at `x0`, the slope row's at `x1`, the weights' at `x2`, the bias row's at
    `x3`, the output's at anything, runs to the continuation holding the inputs' as they were and the output's at
    `out12_4 x0 x1 x2 x3`. -/
theorem sound_kernel12 (c : Dev nD) (E : Set ℕ) (i : grid12.Coords)
    (arg1 : Memref sig .tc .vmem S2000x128 .f32) (harg1 : arg1.IsWhole) (arg2 : Memref sig .tc .vmem S1x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S1x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out12_4 x0 x1 x2 x3)) -∗ K ⟨⟩))
      ⊢ wp frame (wpE (defs₀ (F := F)) Variants.none c none) E
          (cc12__prelu_linear_kernel i arg1 harg1 arg2 harg2 arg3 harg3 arg4 harg4 arg5 harg5) K := by
  simp only [cc12__prelu_linear_kernel_eq_skeleton]; unfold cc12__prelu_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover12_4 _)

/-! ## The pipeline's proof data -/

/-- The proof data of this region on core `c`: the arrays as the region finds them; after the body at point `t` each
    input's buffer at its block and the output's at the rectified tile's product with the weights plus the bias; the
    invariant the scoped buffers no window stages and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => out12_4 (iblk12 V c 0 t) (iblk12 V c 1 t) (iblk12 V c 2 t) (iblk12 V c 3 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) :
    (dat12 V c).after 4 t = out12_4 (iblk12 V c 0 t) (iblk12 V c 1 t) (iblk12 V c 2 t) (iblk12 V c 3 t) := by dsimp only [dat12]

/-- Each input's current staging buffer holds its block at every point. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t))

/-- The body at any point: the inputs' buffers hold their blocks, so the body's triple applies; the invariant and the
    core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3]
  rw [show (dat12 V c).Φ t.succ = (dat12 V c).Φ t.castSucc from rfl,
    show (dat12 V c).owesAt () t.succ = (dat12 V c).owesAt () t.castSucc from rfl,
    after12_0, after12_1, after12_2, after12_3, after12_4]
  iintro ⟨HΦ, Ho, ⟨%d0, H0⟩, ⟨%d1, H1⟩, ⟨%d2, H2⟩, ⟨%d3, H3⟩, ⟨%d4, H4⟩⟩
  iapply (sound_kernel12 c Set.univ _ _ _ _ _ _ _ _ _ _ _ (iblk12 V c 0 t) (iblk12 V c 1 t) (iblk12 V c 2 t) (iblk12 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KI.Prelu13.lean ====
/-
  Region 13 of the idealized kernel program: the second rectifier of the second encoder, run on the node features with
  their rows permuted by the second permutation, on one tile of 2000 rows.
  At a grid point the body reads the tile `c` (2000 x 128) and the slope row `alpha` (1 x 128) and overwrites the
  output tile with `c` where `c >= 0` and `alpha * c` elsewhere, entry by entry. It keeps nothing between points.

  Stated here for any contents `V` of the core's buffers on entry: what each window's staging buffer holds when
  the body runs (the window's block of its array, whether it was fetched at this point or at an earlier one with the
  same block index), what the one store leaves in the output buffer, and that the body run from those buffers ends
  with the inputs untouched and the output at that value.
-/
import proofs.«113219_j18691697672631_1_alg».proof.Proof.Gen.KernelIdeal.Launch
import proofs.«113219_j18691697672631_1_alg».proof.Proof.Gen.KernelIdeal.Skeleton
import proofs.«113219_j18691697672631_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The tile's staging buffer holds the tile of the point: it is fetched at every point. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- The slope row's staging buffer holds the row at every point: it is fetched at the first point, its block index never
    moves, and the body leaves it as it was. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses -/

/-- The whole 2000 x 128 tile as a rectangle, and the whole 1 x 128 row. -/
abbrev rTile13 : Rect S2000x128 := Rect.unit (s := S2000x128) ![0, 0] S2000x128.size inb_S2000x128_S2000x128_0_0
abbrev rRow13 : Rect S1x128 := Rect.unit (s := S1x128) ![0, 0] S1x128.size inb_S1x128_S1x128_0_0

/-! ## What the body leaves in the output tile -/

/-- The output tile after the body: its one store, of the rectified tile, over the whole buffer. -/
def out13_2 (x0 : Vec F S2000x128 .f32) (x1 : Vec F S1x128 .f32) : Vec F S2000x128 .f32 :=
  View.canon [⟨rTile13, k13_pay1 (View.ld x0 rTile13) (View.ld x1 rRow13)⟩]

/-- The one store covers the buffer. -/
theorem cover13_2 (p0 : Vec F S2000x128 .f32) (y : S2000x128.Idx) :
    ∃ pc ∈ ([⟨rTile13, p0⟩] : List (View.Piece (Elt F) S2000x128 .f32)), y ∈ pc.1.set :=
  View.cover_of_tiled [⟨rTile13, p0⟩] S2000x128.size (by rfl) y

/-! ## The body's triple -/

set_option maxHeartbeats 1000000 in
/-- The body on whole staging buffers, the tile's at `x0`, the slope row's at `x1`, the output's at anything, runs to the
    continuation holding the inputs' as they were and the output's at `out13_2 x0 x1`. -/
theorem sound_kernel13 (c : Dev nD) (E : Set ℕ) (i : grid13.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out13_2 x0 x1)) -∗ K ⟨⟩))
      ⊢ wp frame (wpE (defs₀ (F := F)) Variants.none c none) E (cc13__prelu_kernel i arg1 harg1 arg2 harg2 arg3 harg3) K := by
  simp only [cc13__prelu_kernel_eq_skeleton]; unfold cc13__prelu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

/-! ## The pipeline's proof data -/

/-- The proof data of this region on core `c`: the arrays as the region finds them; after the body at point `t` the tile's
    and the slope row's buffers at their blocks and the output's at the rectified tile; the invariant the scoped buffers
    no window stages and the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]

/-- Each input's current staging buffer holds its block at every point. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

/-- The body at any point: the inputs' buffers hold their blocks, so the body's triple applies; the invariant and the
    core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.KI.Chain.lean ====
/-
  The contents of the core's buffers between the thirty items of the idealized kernel program's main function: three host
  stretches, then fourteen kernel regions with a host stretch between each two. A host stretch changes the contents by
  running its operations; a region changes one buffer only, its output array, and leaves there what its pipeline writes
  back over the grid: the array after the write-backs of all its points, computed from the region's proof data at the
  contents the region is entered from.

  The generated frame states the same chain over unknown region outputs; here the unknowns are given these values,
  and the two chains are shown equal boundary by boundary.
-/
import proofs.«113219_j18691697672631_1_alg».proof.Proof.KI.Linear0
import proofs.«113219_j18691697672631_1_alg».proof.Proof.KI.PreluLinear1
import proofs.«113219_j18691697672631_1_alg».proof.Proof.KI.Prelu2
import proofs.«113219_j18691697672631_1_alg».proof.Proof.KI.Linear3
import proofs.«113219_j18691697672631_1_alg».proof.Proof.KI.PreluLinear4
import proofs.«113219_j18691697672631_1_alg».proof.Proof.KI.Prelu5
import proofs.«113219_j18691697672631_1_alg».proof.Proof.KI.Pool6
import proofs.«113219_j18691697672631_1_alg».proof.Proof.KI.Pool7
import proofs.«113219_j18691697672631_1_alg».proof.Proof.KI.Linear8
import proofs.«113219_j18691697672631_1_alg».proof.Proof.KI.PreluLinear9
import proofs.«113219_j18691697672631_1_alg».proof.Proof.KI.Prelu10
import proofs.«113219_j18691697672631_1_alg».proof.Proof.KI.Linear11
import proofs.«113219_j18691697672631_1_alg».proof.Proof.KI.PreluLinear12
import proofs.«113219_j18691697672631_1_alg».proof.Proof.KI.Prelu13
import proofs.«113219_j18691697672631_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] [Named F] (m : (ℓ : Loc nD τ sig) → Buf (Elt F) ℓ)

/-! ## The boundary contents -/

/-- A boundary's contents read at the TensorCore's references: what a region's proof data take as entry contents. -/
abbrev tcv (W : Dev nD → Valuation τ sig (Elt F)) : (c : Dev nD) → (b : Ref sig .tc) → Buf (Elt F) ((c : Thread nD τ).loc b) :=
  fun c b => W c b

/-- Before region 0: the launch contents after the first three host stretches. -/
abbrev U3 : Dev nD → Valuation τ sig (Elt F) := fun c => V3 m c

/-- What region 0 (the first encoder's first linear layer) leaves in its output array: the array after every point's write-back. -/
def o4 (c : Dev nD) : Buf (Elt F) ((c : Thread nD τ).loc main_v28) := (dat0 (tcv (U3 m)) c).arrAt 3 cfg0.N
/-- After region 0: its output array at that value, every other buffer as the region found it. -/
def U4 (c : Dev nD) : Valuation τ sig (Elt F) := Function.update (U3 m c) main_v28 (o4 m c)
theorem U4_out (c : Dev nD) : U4 m c main_v28 = o4 m c := by
  unfold U4; exact Function.update_self _ _ _
theorem U4_ne (c : Dev nD) (b : Ref sig .tc) (h : b ≠ main_v28) : U4 m c b = U3 m c b := by
  unfold U4; exact Function.update_of_ne (StableHlo.devRef_ne_of_ne h) _ _
/-- After the host stretch that follows region 0. -/
abbrev U5 : Dev nD → Valuation τ sig (Elt F) := fun c => StableHlo.after hostOps1 (U4 m c)

/-- What region 1 (the first encoder's rectifier and second linear layer) leaves in its output array: the array after every point's write-back. -/
def o6 (c : Dev nD) : Buf (Elt F) ((c : Thread nD τ).loc main_v44) := (dat1 (tcv (U5 m)) c).arrAt 4 cfg1.N
/-- After region 1: its output array at that value, every other buffer as the region found it. -/
def U6 (c : Dev nD) : Valuation τ sig (Elt F) := Function.update (U5 m c) main_v44 (o6 m c)
theorem U6_out (c : Dev nD) : U6 m c main_v44 = o6 m c := by
  unfold U6; exact Function.update_self _ _ _
theorem U6_ne (c : Dev nD) (b : Ref sig .tc) (h : b ≠ main_v44) : U6 m c b = U5 m c b := by
  unfold U6; exact Function.update_of_ne (StableHlo.devRef_ne_of_ne h) _ _
/-- After the host stretch that follows region 1. -/
abbrev U7 : Dev nD → Valuation τ sig (Elt F) := fun c => StableHlo.after hostOps2 (U6 m c)

/-- What region 2 (the first encoder's closing rectifier) leaves in its output array: the array after every point's write-back. -/
def o8 (c : Dev nD) : Buf (Elt F) ((c : Thread nD τ).loc main_v59) := (dat2 (tcv (U7 m)) c).arrAt 2 cfg2.N
/-- After region 2: its output array at that value, every other buffer as the region found it. -/
def U8 (c : Dev nD) : Valuation τ sig (Elt F) := Function.update (U7 m c) main_v59 (o8 m c)
theorem U8_out (c : Dev nD) : U8 m c main_v59 = o8 m c := by
  unfold U8; exact Function.update_self _ _ _
theorem U8_ne (c : Dev nD) (b : Ref sig .tc) (h : b ≠ main_v59) : U8 m c b = U7 m c b := by
  unfold U8; exact Function.update_of_ne (StableHlo.devRef_ne_of_ne h) _ _
/-- After the host stretch that follows region 2. -/
abbrev U9 : Dev nD → Valuation τ sig (Elt F) := fun c => StableHlo.after hostOps3 (U8 m c)

/-- What region 3 (the second encoder's first linear layer) leaves in its output array: the array after every point's write-back. -/
def o10 (c : Dev nD) : Buf (Elt F) ((c : Thread nD τ).loc main_v61) := (dat3 (tcv (U9 m)) c).arrAt 3 cfg3.N
/-- After region 3: its output array at that value, every other buffer as the region found it. -/
def U10 (c : Dev nD) : Valuation τ sig (Elt F) := Function.update (U9 m c) main_v61 (o10 m c)
theorem U10_out (c : Dev nD) : U10 m c main_v61 = o10 m c := by
  unfold U10; exact Function.update_self _ _ _
theorem U10_ne (c : Dev nD) (b : Ref sig .tc) (h : b ≠ main_v61) : U10 m c b = U9 m c b := by
  unfold U10; exact Function.update_of_ne (StableHlo.devRef_ne_of_ne h) _ _
/-- After the host stretch that follows region 3. -/
abbrev U11 : Dev nD → Valuation τ sig (Elt F) := fun c => StableHlo.after hostOps4 (U10 m c)

/-- What region 4 (the second encoder's rectifier and second linear layer) leaves in its output array: the array after every point's write-back. -/
def o12 (c : Dev nD) : Buf (Elt F) ((c : Thread nD τ).loc main_v77) := (dat4 (tcv (U11 m)) c).arrAt 4 cfg4.N
/-- After region 4: its output array at that value, every other buffer as the region found it. -/
def U12 (c : Dev nD) : Valuation τ sig (Elt F) := Function.update (U11 m c) main_v77 (o12 m c)
theorem U12_out (c : Dev nD) : U12 m c main_v77 = o12 m c := by
  unfold U12; exact Function.update_self _ _ _
theorem U12_ne (c : Dev nD) (b : Ref sig .tc) (h : b ≠ main_v77) : U12 m c b = U11 m c b := by
  unfold U12; exact Function.update_of_ne (StableHlo.devRef_ne_of_ne h) _ _
/-- After the host stretch that follows region 4. -/
abbrev U13 : Dev nD → Valuation τ sig (Elt F) := fun c => StableHlo.after hostOps5 (U12 m c)

/-- What region 5 (the second encoder's closing rectifier) leaves in its output array: the array after every point's write-back. -/
def o14 (c : Dev nD) : Buf (Elt F) ((c : Thread nD τ).loc main_v92) := (dat5 (tcv (U13 m)) c).arrAt 2 cfg5.N
/-- After region 5: its output array at that value, every other buffer as the region found it. -/
def U14 (c : Dev nD) : Valuation τ sig (Elt F) := Function.update (U13 m c) main_v92 (o14 m c)
theorem U14_out (c : Dev nD) : U14 m c main_v92 = o14 m c := by
  unfold U14; exact Function.update_self _ _ _
theorem U14_ne (c : Dev nD) (b : Ref sig .tc) (h : b ≠ main_v92) : U14 m c b = U13 m c b := by
  unfold U14; exact Function.update_of_ne (StableHlo.devRef_ne_of_ne h) _ _
/-- After the host stretch that follows region 5. -/
abbrev U15 : Dev nD → Valuation τ sig (Elt F) := fun c => StableHlo.after hostOps6 (U14 m c)

/-- What region 6 (the pooling and projection of the first encoder's output) leaves in its output array: the array after every point's write-back. -/
def o16 (c : Dev nD) : Buf (Elt F) ((c : Thread nD τ).loc main_v94) := (dat6 (tcv (U15 m)) c).arrAt 3 cfg6.N
/-- After region 6: its output array at that value, every other buffer as the region found it. -/
def U16 (c : Dev nD) : Valuation τ sig (Elt F) := Function.update (U15 m c) main_v94 (o16 m c)
theorem U16_out (c : Dev nD) : U16 m c main_v94 = o16 m c := by
  unfold U16; exact Function.update_self _ _ _
theorem U16_ne (c : Dev nD) (b : Ref sig .tc) (h : b ≠ main_v94) : U16 m c b = U15 m c b := by
  unfold U16; exact Function.update_of_ne (StableHlo.devRef_ne_of_ne h) _ _
/-- After the host stretch that follows region 6. -/
abbrev U17 : Dev nD → Valuation τ sig (Elt F) := fun c => StableHlo.after hostOps7 (U16 m c)

/-- What region 7 (the pooling and projection of the second encoder's output) leaves in its output array: the array after every point's write-back. -/
def o18 (c : Dev nD) : Buf (Elt F) ((c : Thread nD τ).loc main_v96) := (dat7 (tcv (U17 m)) c).arrAt 3 cfg7.N
/-- After region 7: its output array at that value, every other buffer as the region found it. -/
def U18 (c : Dev nD) : Valuation τ sig (Elt F) := Function.update (U17 m c) main_v96 (o18 m c)
theorem U18_out (c : Dev nD) : U18 m c main_v96 = o18 m c := by
  unfold U18; exact Function.update_self _ _ _
theorem U18_ne (c : Dev nD) (b : Ref sig .tc) (h : b ≠ main_v96) : U18 m c b = U17 m c b := by
  unfold U18; exact Function.update_of_ne (StableHlo.devRef_ne_of_ne h) _ _
/-- After the host stretch that follows region 7. -/
abbrev U19 : Dev nD → Valuation τ sig (Elt F) := fun c => StableHlo.after hostOps8 (U18 m c)

/-- What region 8 (the first encoder's first linear layer on the first permuted input) leaves in its output array: the array after every point's write-back. -/
def o20 (c : Dev nD) : Buf (Elt F) ((c : Thread nD τ).loc main_v112) := (dat8 (tcv (U19 m)) c).arrAt 3 cfg8.N
/-- After region 8: its output array at that value, every other buffer as the region found it. -/
def U20 (c : Dev nD) : Valuation τ sig (Elt F) := Function.update (U19 m c) main_v112 (o20 m c)
theorem U20_out (c : Dev nD) : U20 m c main_v112 = o20 m c := by
  unfold U20; exact Function.update_self _ _ _
theorem U20_ne (c : Dev nD) (b : Ref sig .tc) (h : b ≠ main_v112) : U20 m c b = U19 m c b := by
  unfold U20; exact Function.update_of_ne (StableHlo.devRef_ne_of_ne h) _ _
/-- After the host stretch that follows region 8. -/
abbrev U21 : Dev nD → Valuation τ sig (Elt F) := fun c => StableHlo.after hostOps9 (U20 m c)

/-- What region 9 (the first encoder's rectifier and second linear layer on the first permuted input) leaves in its output array: the array after every point's write-back. -/
def o22 (c : Dev nD) : Buf (Elt F) ((c : Thread nD τ).loc main_v128) := (dat9 (tcv (U21 m)) c).arrAt 4 cfg9.N
/-- After region 9: its output array at that value, every other buffer as the region found it. -/
def U22 (c : Dev nD) : Valuation τ sig (Elt F) := Function.update (U21 m c) main_v128 (o22 m c)
theorem U22_out (c : Dev nD) : U22 m c main_v128 = o22 m c := by
  unfold U22; exact Function.update_self _ _ _
theorem U22_ne (c : Dev nD) (b : Ref sig .tc) (h : b ≠ main_v128) : U22 m c b = U21 m c b := by
  unfold U22; exact Function.update_of_ne (StableHlo.devRef_ne_of_ne h) _ _
/-- After the host stretch that follows region 9. -/
abbrev U23 : Dev nD → Valuation τ sig (Elt F) := fun c => StableHlo.after hostOps10 (U22 m c)

/-- What region 10 (the first encoder's closing rectifier on the first permuted input) leaves in its output array: the array after every point's write-back. -/
def o24 (c : Dev nD) : Buf (Elt F) ((c : Thread nD τ).loc main_v143) := (dat10 (tcv (U23 m)) c).arrAt 2 cfg10.N
/-- After region 10: its output array at that value, every other buffer as the region found it. -/
def U24 (c : Dev nD) : Valuation τ sig (Elt F) := Function.update (U23 m c) main_v143 (o24 m c)
theorem U24_out (c : Dev nD) : U24 m c main_v143 = o24 m c := by
  unfold U24; exact Function.update_self _ _ _
theorem U24_ne (c : Dev nD) (b : Ref sig .tc) (h : b ≠ main_v143) : U24 m c b = U23 m c b := by
  unfold U24; exact Function.update_of_ne (StableHlo.devRef_ne_of_ne h) _ _
/-- After the host stretch that follows region 10. -/
abbrev U25 : Dev nD → Valuation τ sig (Elt F) := fun c => StableHlo.after hostOps11 (U24 m c)

/-- What region 11 (the second encoder's first linear layer on the second permuted input) leaves in its output array: the array after every point's write-back. -/
def o26 (c : Dev nD) : Buf (Elt F) ((c : Thread nD τ).loc main_v145) := (dat11 (tcv (U25 m)) c).arrAt 3 cfg11.N
/-- After region 11: its output array at that value, every other buffer as the region found it. -/
def U26 (c : Dev nD) : Valuation τ sig (Elt F) := Function.update (U25 m c) main_v145 (o26 m c)
theorem U26_out (c : Dev nD) : U26 m c main_v145 = o26 m c := by
  unfold U26; exact Function.update_self _ _ _
theorem U26_ne (c : Dev nD) (b : Ref sig .tc) (h : b ≠ main_v145) : U26 m c b = U25 m c b := by
  unfold U26; exact Function.update_of_ne (StableHlo.devRef_ne_of_ne h) _ _
/-- After the host stretch that follows region 11. -/
abbrev U27 : Dev nD → Valuation τ sig (Elt F) := fun c => StableHlo.after hostOps12 (U26 m c)

/-- What region 12 (the second encoder's rectifier and second linear layer on the second permuted input) leaves in its output array: the array after every point's write-back. -/
def o28 (c : Dev nD) : Buf (Elt F) ((c : Thread nD τ).loc main_v161) := (dat12 (tcv (U27 m)) c).arrAt 4 cfg12.N
/-- After region 12: its output array at that value, every other buffer as the region found it. -/
def U28 (c : Dev nD) : Valuation τ sig (Elt F) := Function.update (U27 m c) main_v161 (o28 m c)
theorem U28_out (c : Dev nD) : U28 m c main_v161 = o28 m c := by
  unfold U28; exact Function.update_self _ _ _
theorem U28_ne (c : Dev nD) (b : Ref sig .tc) (h : b ≠ main_v161) : U28 m c b = U27 m c b := by
  unfold U28; exact Function.update_of_ne (StableHlo.devRef_ne_of_ne h) _ _
/-- After the host stretch that follows region 12. -/
abbrev U29 : Dev nD → Valuation τ sig (Elt F) := fun c => StableHlo.after hostOps13 (U28 m c)

/-- What region 13 (the second encoder's closing rectifier on the second permuted input) leaves in its output array: the array after every point's write-back. -/
def o30 (c : Dev nD) : Buf (Elt F) ((c : Thread nD τ).loc main_v176) := (dat13 (tcv (U29 m)) c).arrAt 2 cfg13.N
/-- After region 13: its output array at that value, every other buffer as the region found it. -/
def U30 (c : Dev nD) : Valuation τ sig (Elt F) := Function.update (U29 m c) main_v176 (o30 m c)
theorem U30_out (c : Dev nD) : U30 m c main_v176 = o30 m c := by
  unfold U30; exact Function.update_self _ _ _
theorem U30_ne (c : Dev nD) (b : Ref sig .tc) (h : b ≠ main_v176) : U30 m c b = U29 m c b := by
  unfold U30; exact Function.update_of_ne (StableHlo.devRef_ne_of_ne h) _ _

/-! ## The generated chain at these outputs -/

/-- The regions' outputs, as the generated frame reads them: after item J−1, the boundary contents above. -/
def outs : Outs (F := F) := fun J r c => match J with
  | 4 => U4 m c r
  | 6 => U6 m c r
  | 8 => U8 m c r
  | 10 => U10 m c r
  | 12 => U12 m c r
  | 14 => U14 m c r
  | 16 => U16 m c r
  | 18 => U18 m c r
  | 20 => U20 m c r
  | 22 => U22 m c r
  | 24 => U24 m c r
  | 26 => U26 m c r
  | 28 => U28 m c r
  | 30 => U30 m c r
  | _ => U3 m c r

/-- The generated frame's boundary contents at these outputs are the ones above, boundary by boundary. -/
theorem V4_eq (c : Dev nD) : V4 m (outs m) c = U4 m c := by
  show Function.update (V3 m c) _ (U4 m c main_v28) = _
  rw [U4_out]; rfl
theorem V5_eq (c : Dev nD) : V5 m (outs m) c = U5 m c := by
  show StableHlo.after hostOps1 (V4 m (outs m) c) = _
  rw [V4_eq]
theorem V6_eq (c : Dev nD) : V6 m (outs m) c = U6 m c := by
  show Function.update (V5 m (outs m) c) _ (U6 m c main_v44) = _
  rw [V5_eq, U6_out]; rfl
theorem V7_eq (c : Dev nD) : V7 m (outs m) c = U7 m c := by
  show StableHlo.after hostOps2 (V6 m (outs m) c) = _
  rw [V6_eq]
theorem V8_eq (c : Dev nD) : V8 m (outs m) c = U8 m c := by
  show Function.update (V7 m (outs m) c) _ (U8 m c main_v59) = _
  rw [V7_eq, U8_out]; rfl
theorem V9_eq (c : Dev nD) : V9 m (outs m) c = U9 m c := by
  show StableHlo.after hostOps3 (V8 m (outs m) c) = _
  rw [V8_eq]
theorem V10_eq (c : Dev nD) : V10 m (outs m) c = U10 m c := by
  show Function.update (V9 m (outs m) c) _ (U10 m c main_v61) = _
  rw [V9_eq, U10_out]; rfl
theorem V11_eq (c : Dev nD) : V11 m (outs m) c = U11 m c := by
  show StableHlo.after hostOps4 (V10 m (outs m) c) = _
  rw [V10_eq]
theorem V12_eq (c : Dev nD) : V12 m (outs m) c = U12 m c := by
  show Function.update (V11 m (outs m) c) _ (U12 m c main_v77) = _
  rw [V11_eq, U12_out]; rfl
theorem V13_eq (c : Dev nD) : V13 m (outs m) c = U13 m c := by
  show StableHlo.after hostOps5 (V12 m (outs m) c) = _
  rw [V12_eq]
theorem V14_eq (c : Dev nD) : V14 m (outs m) c = U14 m c := by
  show Function.update (V13 m (outs m) c) _ (U14 m c main_v92) = _
  rw [V13_eq, U14_out]; rfl
theorem V15_eq (c : Dev nD) : V15 m (outs m) c = U15 m c := by
  show StableHlo.after hostOps6 (V14 m (outs m) c) = _
  rw [V14_eq]
theorem V16_eq (c : Dev nD) : V16 m (outs m) c = U16 m c := by
  show Function.update (V15 m (outs m) c) _ (U16 m c main_v94) = _
  rw [V15_eq, U16_out]; rfl
theorem V17_eq (c : Dev nD) : V17 m (outs m) c = U17 m c := by
  show StableHlo.after hostOps7 (V16 m (outs m) c) = _
  rw [V16_eq]
theorem V18_eq (c : Dev nD) : V18 m (outs m) c = U18 m c := by
  show Function.update (V17 m (outs m) c) _ (U18 m c main_v96) = _
  rw [V17_eq, U18_out]; rfl
theorem V19_eq (c : Dev nD) : V19 m (outs m) c = U19 m c := by
  show StableHlo.after hostOps8 (V18 m (outs m) c) = _
  rw [V18_eq]
theorem V20_eq (c : Dev nD) : V20 m (outs m) c = U20 m c := by
  show Function.update (V19 m (outs m) c) _ (U20 m c main_v112) = _
  rw [V19_eq, U20_out]; rfl
theorem V21_eq (c : Dev nD) : V21 m (outs m) c = U21 m c := by
  show StableHlo.after hostOps9 (V20 m (outs m) c) = _
  rw [V20_eq]
theorem V22_eq (c : Dev nD) : V22 m (outs m) c = U22 m c := by
  show Function.update (V21 m (outs m) c) _ (U22 m c main_v128) = _
  rw [V21_eq, U22_out]; rfl
theorem V23_eq (c : Dev nD) : V23 m (outs m) c = U23 m c := by
  show StableHlo.after hostOps10 (V22 m (outs m) c) = _
  rw [V22_eq]
theorem V24_eq (c : Dev nD) : V24 m (outs m) c = U24 m c := by
  show Function.update (V23 m (outs m) c) _ (U24 m c main_v143) = _
  rw [V23_eq, U24_out]; rfl
theorem V25_eq (c : Dev nD) : V25 m (outs m) c = U25 m c := by
  show StableHlo.after hostOps11 (V24 m (outs m) c) = _
  rw [V24_eq]
theorem V26_eq (c : Dev nD) : V26 m (outs m) c = U26 m c := by
  show Function.update (V25 m (outs m) c) _ (U26 m c main_v145) = _
  rw [V25_eq, U26_out]; rfl
theorem V27_eq (c : Dev nD) : V27 m (outs m) c = U27 m c := by
  show StableHlo.after hostOps12 (V26 m (outs m) c) = _
  rw [V26_eq]
theorem V28_eq (c : Dev nD) : V28 m (outs m) c = U28 m c := by
  show Function.update (V27 m (outs m) c) _ (U28 m c main_v161) = _
  rw [V27_eq, U28_out]; rfl
theorem V29_eq (c : Dev nD) : V29 m (outs m) c = U29 m c := by
  show StableHlo.after hostOps13 (V28 m (outs m) c) = _
  rw [V28_eq]
theorem V30_eq (c : Dev nD) : V30 m (outs m) c = U30 m c := by
  show Function.update (V29 m (outs m) c) _ (U30 m c main_v176) = _
  rw [V29_eq, U30_out]; rfl

end Cert.KernelIdeal.Hand

end
-- ==== Proof.KI.RecBase.lean ====
/-
  What the fourteen regions' segment records of the idealized kernel program share: the family of the regions' proof data, each at
  the contents its region is entered from, and what rides beside the buffers through every item of the main function.
-/
import proofs.«113219_j18691697672631_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] [Named F] (m : (ℓ : Loc nD τ sig) → Buf (Elt F) ℓ)

local notation "𝕄" => MT nD τ sig Unit (Elt F) ℕ (UR sig nD τ) ℕ

/-! ## The proof data family and what rides beside the buffers -/

/-- The prefetched tables' admissible contents: no region has a table. -/
abbrev adm14 : (p : Fin 14) → (pcfgs (F := F) p).Adm := fun p => (cfgs p).toPCfg_adm

/-- Every region's proof data, each at the contents its region is entered from. -/
def pdats : (p : Fin 14) → (c : Dev nD) → Dat τ (Elt F) Unit ℕ (UR sig nD τ) ℕ (cfgs p) c
  | ⟨0, _⟩ => fun c => dat0 (tcv (U3 m)) c
  | ⟨1, _⟩ => fun c => dat1 (tcv (U5 m)) c
  | ⟨2, _⟩ => fun c => dat2 (tcv (U7 m)) c
  | ⟨3, _⟩ => fun c => dat3 (tcv (U9 m)) c
  | ⟨4, _⟩ => fun c => dat4 (tcv (U11 m)) c
  | ⟨5, _⟩ => fun c => dat5 (tcv (U13 m)) c
  | ⟨6, _⟩ => fun c => dat6 (tcv (U15 m)) c
  | ⟨7, _⟩ => fun c => dat7 (tcv (U17 m)) c
  | ⟨8, _⟩ => fun c => dat8 (tcv (U19 m)) c
  | ⟨9, _⟩ => fun c => dat9 (tcv (U21 m)) c
  | ⟨10, _⟩ => fun c => dat10 (tcv (U23 m)) c
  | ⟨11, _⟩ => fun c => dat11 (tcv (U25 m)) c
  | ⟨12, _⟩ => fun c => dat12 (tcv (U27 m)) c
  | ⟨13, _⟩ => fun c => dat13 (tcv (U29 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

end Cert.KernelIdeal.Hand

end
-- ==== Proof.KI.Rec0.lean ====
/-
  Region 0 of the idealized kernel program (the first encoder's first linear layer) as a segment of the main function:
  entered with every unscoped buffer of the core at the contents before the region, left with them at the contents
  after it, which differ at the region's output array only.
-/
import proofs.«113219_j18691697672631_1_alg».proof.Proof.KI.RecBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] [Named F] (m : (ℓ : Loc nD τ sig) → Buf (Elt F) ℓ)

local notation "𝕄" => MT nD τ sig Unit (Elt F) ℕ (UR sig nD τ) ℕ

/-- At region 0's exit each of its arrays holds what the pipeline leaves: an input's array what it held on entry, the
    output's the array after every point's write-back. -/
theorem hF0 (c : Dev nD) (w : Fin cfg0.W) : (dat0 (tcv (U3 m)) c).arrAt w cfg0.N = tcv (U4 m) c (Pipeline.arrRef spec0 w) := by
  fin_cases w
  · exact ((dat0 (tcv (U3 m)) c).arrAt_in 0 rfl _).trans ((A_eq0 (tcv (U3 m)) c 0).trans (U4_ne m c main_arg0 (by decide)).symm)
  · exact ((dat0 (tcv (U3 m)) c).arrAt_in 1 rfl _).trans ((A_eq0 (tcv (U3 m)) c 1).trans (U4_ne m c main_arg5 (by decide)).symm)
  · exact ((dat0 (tcv (U3 m)) c).arrAt_in 2 rfl _).trans ((A_eq0 (tcv (U3 m)) c 2).trans (U4_ne m c main_v27 (by decide)).symm)
  · exact (U4_out m c).symm
/-- Every buffer that is none of region 0's arrays holds at its exit what it held on entry. -/
theorem hrest0 (c : Dev nD) : ∀ b, b ∉ Finset.univ.image (Pipeline.arrRef spec0) → tcv (U4 m) c b = tcv (U3 m) c b :=
  fun b hb => U4_ne m c b fun h => hb (h ▸ Finset.mem_image.mpr ⟨3, Finset.mem_univ _, rfl⟩)

-- applying a library lemma stated over the pinned configuration unifies with the printed one only when unification may
-- unfold plain definitions in a metavariable's type
set_option backward.isDefEq.respectTransparency.types false in
set_option maxHeartbeats 1000000 in
/-- Region 0 (the first encoder's first linear layer) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (tcv (U3 m)) c).loose
  hwaits := Pipeline.hwaits_of_owed_zero _ _ _ _ L lv 0 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (tcv (U3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (tcv (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tcv (U3 m) c) (tcv (U4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec1.lean ====
/-
  Region 1 of the idealized kernel program (the first encoder's rectifier and second linear layer) as a segment of the
  main function: entered with every unscoped buffer of the core at the contents before the region, left with them at
  the contents after it, which differ at the region's output array only.
-/
import proofs.«113219_j18691697672631_1_alg».proof.Proof.KI.RecBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] [Named F] (m : (ℓ : Loc nD τ sig) → Buf (Elt F) ℓ)

local notation "𝕄" => MT nD τ sig Unit (Elt F) ℕ (UR sig nD τ) ℕ

/-- At region 1's exit each of its arrays holds what the pipeline leaves: an input's array what it held on entry, the
    output's the array after every point's write-back. -/
theorem hF1 (c : Dev nD) (w : Fin cfg1.W) : (dat1 (tcv (U5 m)) c).arrAt w cfg1.N = tcv (U6 m) c (Pipeline.arrRef spec1 w) := by
  fin_cases w
  · exact ((dat1 (tcv (U5 m)) c).arrAt_in 0 rfl _).trans ((A_eq1 (tcv (U5 m)) c 0).trans (U6_ne m c main_v41 (by decide)).symm)
  · exact ((dat1 (tcv (U5 m)) c).arrAt_in 1 rfl _).trans ((A_eq1 (tcv (U5 m)) c 1).trans (U6_ne m c main_v42 (by decide)).symm)
  · exact ((dat1 (tcv (U5 m)) c).arrAt_in 2 rfl _).trans ((A_eq1 (tcv (U5 m)) c 2).trans (U6_ne m c main_arg7 (by decide)).symm)
  · exact ((dat1 (tcv (U5 m)) c).arrAt_in 3 rfl _).trans ((A_eq1 (tcv (U5 m)) c 3).trans (U6_ne m c main_v43 (by decide)).symm)
  · exact (U6_out m c).symm
/-- Every buffer that is none of region 1's arrays holds at its exit what it held on entry. -/
theorem hrest1 (c : Dev nD) : ∀ b, b ∉ Finset.univ.image (Pipeline.arrRef spec1) → tcv (U6 m) c b = tcv (U5 m) c b :=
  fun b hb => U6_ne m c b fun h => hb (h ▸ Finset.mem_image.mpr ⟨4, Finset.mem_univ _, rfl⟩)

-- applying a library lemma stated over the pinned configuration unifies with the printed one only when unification may
-- unfold plain definitions in a metavariable's type
set_option backward.isDefEq.respectTransparency.types false in
set_option maxHeartbeats 1000000 in
/-- Region 1 (the first encoder's rectifier and second linear layer) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tcv (U5 m)) c).loose
  hwaits := Pipeline.hwaits_of_owed_zero _ _ _ _ L lv 1 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec1 c (tcv (U5 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (tcv (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (tcv (U5 m) c) (tcv (U6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec2.lean ====
/-
  Region 2 of the idealized kernel program (the first encoder's closing rectifier) as a segment of the main function:
  entered with every unscoped buffer of the core at the contents before the region, left with them at the contents
  after it, which differ at the region's output array only.
-/
import proofs.«113219_j18691697672631_1_alg».proof.Proof.KI.RecBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] [Named F] (m : (ℓ : Loc nD τ sig) → Buf (Elt F) ℓ)

local notation "𝕄" => MT nD τ sig Unit (Elt F) ℕ (UR sig nD τ) ℕ

/-- At region 2's exit each of its arrays holds what the pipeline leaves: an input's array what it held on entry, the
    output's the array after every point's write-back. -/
theorem hF2 (c : Dev nD) (w : Fin cfg2.W) : (dat2 (tcv (U7 m)) c).arrAt w cfg2.N = tcv (U8 m) c (Pipeline.arrRef spec2 w) := by
  fin_cases w
  · exact ((dat2 (tcv (U7 m)) c).arrAt_in 0 rfl _).trans ((A_eq2 (tcv (U7 m)) c 0).trans (U8_ne m c main_v57 (by decide)).symm)
  · exact ((dat2 (tcv (U7 m)) c).arrAt_in 1 rfl _).trans ((A_eq2 (tcv (U7 m)) c 1).trans (U8_ne m c main_v58 (by decide)).symm)
  · exact (U8_out m c).symm
/-- Every buffer that is none of region 2's arrays holds at its exit what it held on entry. -/
theorem hrest2 (c : Dev nD) : ∀ b, b ∉ Finset.univ.image (Pipeline.arrRef spec2) → tcv (U8 m) c b = tcv (U7 m) c b :=
  fun b hb => U8_ne m c b fun h => hb (h ▸ Finset.mem_image.mpr ⟨2, Finset.mem_univ _, rfl⟩)

-- applying a library lemma stated over the pinned configuration unifies with the printed one only when unification may
-- unfold plain definitions in a metavariable's type
set_option backward.isDefEq.respectTransparency.types false in
set_option maxHeartbeats 1000000 in
/-- Region 2 (the first encoder's closing rectifier) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (tcv (U7 m)) c).loose
  hwaits := Pipeline.hwaits_of_owed_zero _ _ _ _ L lv 2 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec2 c (tcv (U7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (tcv (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (tcv (U7 m) c) (tcv (U8 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec3.lean ====
/-
  Region 3 of the idealized kernel program (the second encoder's first linear layer) as a segment of the main
  function: entered with every unscoped buffer of the core at the contents before the region, left with them at the
  contents after it, which differ at the region's output array only.
-/
import proofs.«113219_j18691697672631_1_alg».proof.Proof.KI.RecBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] [Named F] (m : (ℓ : Loc nD τ sig) → Buf (Elt F) ℓ)

local notation "𝕄" => MT nD τ sig Unit (Elt F) ℕ (UR sig nD τ) ℕ

/-- At region 3's exit each of its arrays holds what the pipeline leaves: an input's array what it held on entry, the
    output's the array after every point's write-back. -/
theorem hF3 (c : Dev nD) (w : Fin cfg3.W) : (dat3 (tcv (U9 m)) c).arrAt w cfg3.N = tcv (U10 m) c (Pipeline.arrRef spec3 w) := by
  fin_cases w
  · exact ((dat3 (tcv (U9 m)) c).arrAt_in 0 rfl _).trans ((A_eq3 (tcv (U9 m)) c 0).trans (U10_ne m c main_arg0 (by decide)).symm)
  · exact ((dat3 (tcv (U9 m)) c).arrAt_in 1 rfl _).trans ((A_eq3 (tcv (U9 m)) c 1).trans (U10_ne m c main_arg10 (by decide)).symm)
  · exact ((dat3 (tcv (U9 m)) c).arrAt_in 2 rfl _).trans ((A_eq3 (tcv (U9 m)) c 2).trans (U10_ne m c main_v60 (by decide)).symm)
  · exact (U10_out m c).symm
/-- Every buffer that is none of region 3's arrays holds at its exit what it held on entry. -/
theorem hrest3 (c : Dev nD) : ∀ b, b ∉ Finset.univ.image (Pipeline.arrRef spec3) → tcv (U10 m) c b = tcv (U9 m) c b :=
  fun b hb => U10_ne m c b fun h => hb (h ▸ Finset.mem_image.mpr ⟨3, Finset.mem_univ _, rfl⟩)

-- applying a library lemma stated over the pinned configuration unifies with the printed one only when unification may
-- unfold plain definitions in a metavariable's type
set_option backward.isDefEq.respectTransparency.types false in
set_option maxHeartbeats 1000000 in
/-- Region 3 (the second encoder's first linear layer) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (tcv (U9 m)) c).loose
  hwaits := Pipeline.hwaits_of_owed_zero _ _ _ _ L lv 3 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec3 c (tcv (U9 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (tcv (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (tcv (U9 m) c) (tcv (U10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec4.lean ====
/-
  Region 4 of the idealized kernel program (the second encoder's rectifier and second linear layer) as a segment of
  the main function: entered with every unscoped buffer of the core at the contents before the region, left with them
  at the contents after it, which differ at the region's output array only.
-/
import proofs.«113219_j18691697672631_1_alg».proof.Proof.KI.RecBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] [Named F] (m : (ℓ : Loc nD τ sig) → Buf (Elt F) ℓ)

local notation "𝕄" => MT nD τ sig Unit (Elt F) ℕ (UR sig nD τ) ℕ

set_option maxHeartbeats 1000000 in
/-- At region 4's exit each of its arrays holds what the pipeline leaves: an input's array what it held on entry, the
    output's the array after every point's write-back. -/
theorem hF4 (c : Dev nD) (w : Fin cfg4.W) : (dat4 (tcv (U11 m)) c).arrAt w cfg4.N = tcv (U12 m) c (Pipeline.arrRef spec4 w) := by
  fin_cases w
  · exact ((dat4 (tcv (U11 m)) c).arrAt_in 0 rfl _).trans ((A_eq4 (tcv (U11 m)) c 0).trans (U12_ne m c main_v74 (by decide)).symm)
  · exact ((dat4 (tcv (U11 m)) c).arrAt_in 1 rfl _).trans ((A_eq4 (tcv (U11 m)) c 1).trans (U12_ne m c main_v75 (by decide)).symm)
  · exact ((dat4 (tcv (U11 m)) c).arrAt_in 2 rfl _).trans ((A_eq4 (tcv (U11 m)) c 2).trans (U12_ne m c main_arg12 (by decide)).symm)
  · exact ((dat4 (tcv (U11 m)) c).arrAt_in 3 rfl _).trans ((A_eq4 (tcv (U11 m)) c 3).trans (U12_ne m c main_v76 (by decide)).symm)
  · exact (U12_out m c).symm
/-- Every buffer that is none of region 4's arrays holds at its exit what it held on entry. -/
theorem hrest4 (c : Dev nD) : ∀ b, b ∉ Finset.univ.image (Pipeline.arrRef spec4) → tcv (U12 m) c b = tcv (U11 m) c b :=
  fun b hb => U12_ne m c b fun h => hb (h ▸ Finset.mem_image.mpr ⟨4, Finset.mem_univ _, rfl⟩)

-- applying a library lemma stated over the pinned configuration unifies with the printed one only when unification may
-- unfold plain definitions in a metavariable's type
set_option backward.isDefEq.respectTransparency.types false in
set_option maxHeartbeats 1000000 in
/-- Region 4 (the second encoder's rectifier and second linear layer) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (tcv (U11 m)) c).loose
  hwaits := Pipeline.hwaits_of_owed_zero _ _ _ _ L lv 4 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec4 c (tcv (U11 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (tcv (U11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (tcv (U11 m) c) (tcv (U12 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec5.lean ====
/-
  Region 5 of the idealized kernel program (the second encoder's closing rectifier) as a segment of the main function:
  entered with every unscoped buffer of the core at the contents before the region, left with them at the contents
  after it, which differ at the region's output array only.
-/
import proofs.«113219_j18691697672631_1_alg».proof.Proof.KI.RecBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] [Named F] (m : (ℓ : Loc nD τ sig) → Buf (Elt F) ℓ)

local notation "𝕄" => MT nD τ sig Unit (Elt F) ℕ (UR sig nD τ) ℕ

/-- At region 5's exit each of its arrays holds what the pipeline leaves: an input's array what it held on entry, the
    output's the array after every point's write-back. -/
theorem hF5 (c : Dev nD) (w : Fin cfg5.W) : (dat5 (tcv (U13 m)) c).arrAt w cfg5.N = tcv (U14 m) c (Pipeline.arrRef spec5 w) := by
  fin_cases w
  · exact ((dat5 (tcv (U13 m)) c).arrAt_in 0 rfl _).trans ((A_eq5 (tcv (U13 m)) c 0).trans (U14_ne m c main_v90 (by decide)).symm)
  · exact ((dat5 (tcv (U13 m)) c).arrAt_in 1 rfl _).trans ((A_eq5 (tcv (U13 m)) c 1).trans (U14_ne m c main_v91 (by decide)).symm)
  · exact (U14_out m c).symm
/-- Every buffer that is none of region 5's arrays holds at its exit what it held on entry. -/
theorem hrest5 (c : Dev nD) : ∀ b, b ∉ Finset.univ.image (Pipeline.arrRef spec5) → tcv (U14 m) c b = tcv (U13 m) c b :=
  fun b hb => U14_ne m c b fun h => hb (h ▸ Finset.mem_image.mpr ⟨2, Finset.mem_univ _, rfl⟩)

-- applying a library lemma stated over the pinned configuration unifies with the printed one only when unification may
-- unfold plain definitions in a metavariable's type
set_option backward.isDefEq.respectTransparency.types false in
set_option maxHeartbeats 1000000 in
/-- Region 5 (the second encoder's closing rectifier) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (tcv (U13 m)) c).loose
  hwaits := Pipeline.hwaits_of_owed_zero _ _ _ _ L lv 5 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec5 c (tcv (U13 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (tcv (U13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (tcv (U13 m) c) (tcv (U14 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec8.lean ====
/-
  Region 8 of the idealized kernel program (the first encoder's first linear layer on the first permuted input) as a
  segment of the main function: entered with every unscoped buffer of the core at the contents before the region, left
  with them at the contents after it, which differ at the region's output array only.
-/
import proofs.«113219_j18691697672631_1_alg».proof.Proof.KI.RecBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] [Named F] (m : (ℓ : Loc nD τ sig) → Buf (Elt F) ℓ)

local notation "𝕄" => MT nD τ sig Unit (Elt F) ℕ (UR sig nD τ) ℕ

/-- At region 8's exit each of its arrays holds what the pipeline leaves: an input's array what it held on entry, the
    output's the array after every point's write-back. -/
theorem hF8 (c : Dev nD) (w : Fin cfg8.W) : (dat8 (tcv (U19 m)) c).arrAt w cfg8.N = tcv (U20 m) c (Pipeline.arrRef spec8 w) := by
  fin_cases w
  · exact ((dat8 (tcv (U19 m)) c).arrAt_in 0 rfl _).trans ((A_eq8 (tcv (U19 m)) c 0).trans (U20_ne m c main_v103 (by decide)).symm)
  · exact ((dat8 (tcv (U19 m)) c).arrAt_in 1 rfl _).trans ((A_eq8 (tcv (U19 m)) c 1).trans (U20_ne m c main_arg5 (by decide)).symm)
  · exact ((dat8 (tcv (U19 m)) c).arrAt_in 2 rfl _).trans ((A_eq8 (tcv (U19 m)) c 2).trans (U20_ne m c main_v111 (by decide)).symm)
  · exact (U20_out m c).symm
/-- Every buffer that is none of region 8's arrays holds at its exit what it held on entry. -/
theorem hrest8 (c : Dev nD) : ∀ b, b ∉ Finset.univ.image (Pipeline.arrRef spec8) → tcv (U20 m) c b = tcv (U19 m) c b :=
  fun b hb => U20_ne m c b fun h => hb (h ▸ Finset.mem_image.mpr ⟨3, Finset.mem_univ _, rfl⟩)

-- applying a library lemma stated over the pinned configuration unifies with the printed one only when unification may
-- unfold plain definitions in a metavariable's type
set_option backward.isDefEq.respectTransparency.types false in
set_option maxHeartbeats 1000000 in
/-- Region 8 (the first encoder's first linear layer on the first permuted input) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg8 : RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (tcv (U19 m)) c).loose
  hwaits := Pipeline.hwaits_of_owed_zero _ _ _ _ L lv 8 fun _ _ => rfl
  pre c := iprop(StableHlo.held (c : Thread nD τ) (Pipeline.ucRefs τ sig) (U19 m c) ∗ R c)
  post c := iprop(StableHlo.held (c : Thread nD τ) (Pipeline.ucRefs τ sig) (U20 m c) ∗ R c)
  X c := iprop(∃ r, prngReg c r)
  Y c := iprop(∃ r, prngReg c r)
  Z c := Pipeline.unscopedRest (Ix := Unit) (Name := ℕ) (U := UR sig nD τ) (Lvl := ℕ) spec8 c (tcv (U19 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (tcv (U19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (tcv (U19 m) c) (tcv (U20 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec9.lean ====
/-
  Region 9 of the idealized kernel program (the first encoder's rectifier and second linear layer on the first
  permuted input) as a segment of the main function: entered with every unscoped buffer of the core at the contents
  before the region, left with them at the contents after it, which differ at the region's output array only.
-/
import proofs.«113219_j18691697672631_1_alg».proof.Proof.KI.RecBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] [Named F] (m : (ℓ : Loc nD τ sig) → Buf (Elt F) ℓ)

local notation "𝕄" => MT nD τ sig Unit (Elt F) ℕ (UR sig nD τ) ℕ

/-- At region 9's exit each of its arrays holds what the pipeline leaves: an input's array what it held on entry, the
    output's the array after every point's write-back. -/
theorem hF9 (c : Dev nD) (w : Fin cfg9.W) : (dat9 (tcv (U21 m)) c).arrAt w cfg9.N = tcv (U22 m) c (Pipeline.arrRef spec9 w) := by
  fin_cases w
  · exact ((dat9 (tcv (U21 m)) c).arrAt_in 0 rfl _).trans ((A_eq9 (tcv (U21 m)) c 0).trans (U22_ne m c main_v125 (by decide)).symm)
  · exact ((dat9 (tcv (U21 m)) c).arrAt_in 1 rfl _).trans ((A_eq9 (tcv (U21 m)) c 1).trans (U22_ne m c main_v126 (by decide)).symm)
  · exact ((dat9 (tcv (U21 m)) c).arrAt_in 2 rfl _).trans ((A_eq9 (tcv (U21 m)) c 2).trans (U22_ne m c main_arg7 (by decide)).symm)
  · exact ((dat9 (tcv (U21 m)) c).arrAt_in 3 rfl _).trans ((A_eq9 (tcv (U21 m)) c 3).trans (U22_ne m c main_v127 (by decide)).symm)
  · exact (U22_out m c).symm
/-- Every buffer that is none of region 9's arrays holds at its exit what it held on entry. -/
theorem hrest9 (c : Dev nD) : ∀ b, b ∉ Finset.univ.image (Pipeline.arrRef spec9) → tcv (U22 m) c b = tcv (U21 m) c b :=
  fun b hb => U22_ne m c b fun h => hb (h ▸ Finset.mem_image.mpr ⟨4, Finset.mem_univ _, rfl⟩)

-- applying a library lemma stated over the pinned configuration unifies with the printed one only when unification may
-- unfold plain definitions in a metavariable's type
set_option backward.isDefEq.respectTransparency.types false in
set_option maxHeartbeats 1000000 in
/-- Region 9 (the first encoder's rectifier and second linear layer on the first permuted input) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg9 : RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (tcv (U21 m)) c).loose
  hwaits := Pipeline.hwaits_of_owed_zero _ _ _ _ L lv 9 fun _ _ => rfl
  pre c := iprop(StableHlo.held (c : Thread nD τ) (Pipeline.ucRefs τ sig) (U21 m c) ∗ R c)
  post c := iprop(StableHlo.held (c : Thread nD τ) (Pipeline.ucRefs τ sig) (U22 m c) ∗ R c)
  X c := iprop(∃ r, prngReg c r)
  Y c := iprop(∃ r, prngReg c r)
  Z c := Pipeline.unscopedRest (Ix := Unit) (Name := ℕ) (U := UR sig nD τ) (Lvl := ℕ) spec9 c (tcv (U21 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (tcv (U21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (tcv (U21 m) c) (tcv (U22 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec10.lean ====
/-
  Region 10 of the idealized kernel program (the first encoder's closing rectifier on the first permuted input) as a
  segment of the main function: entered with every unscoped buffer of the core at the contents before the region, left
  with them at the contents after it, which differ at the region's output array only.
-/
import proofs.«113219_j18691697672631_1_alg».proof.Proof.KI.RecBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] [Named F] (m : (ℓ : Loc nD τ sig) → Buf (Elt F) ℓ)

local notation "𝕄" => MT nD τ sig Unit (Elt F) ℕ (UR sig nD τ) ℕ

set_option maxHeartbeats 1000000 in
/-- At region 10's exit each of its arrays holds what the pipeline leaves: an input's array what it held on entry, the
    output's the array after every point's write-back. -/
theorem hF10 (c : Dev nD) (w : Fin cfg10.W) : (dat10 (tcv (U23 m)) c).arrAt w cfg10.N = tcv (U24 m) c (Pipeline.arrRef spec10 w) := by
  fin_cases w
  · exact ((dat10 (tcv (U23 m)) c).arrAt_in 0 rfl _).trans ((A_eq10 (tcv (U23 m)) c 0).trans (U24_ne m c main_v141 (by decide)).symm)
  · exact ((dat10 (tcv (U23 m)) c).arrAt_in 1 rfl _).trans ((A_eq10 (tcv (U23 m)) c 1).trans (U24_ne m c main_v142 (by decide)).symm)
  · exact (U24_out m c).symm
/-- Every buffer that is none of region 10's arrays holds at its exit what it held on entry. -/
theorem hrest10 (c : Dev nD) : ∀ b, b ∉ Finset.univ.image (Pipeline.arrRef spec10) → tcv (U24 m) c b = tcv (U23 m) c b :=
  fun b hb => U24_ne m c b fun h => hb (h ▸ Finset.mem_image.mpr ⟨2, Finset.mem_univ _, rfl⟩)

-- applying a library lemma stated over the pinned configuration unifies with the printed one only when unification may
-- unfold plain definitions in a metavariable's type
set_option backward.isDefEq.respectTransparency.types false in
set_option maxHeartbeats 1000000 in
/-- Region 10 (the first encoder's closing rectifier on the first permuted input) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg10 : RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (tcv (U23 m)) c).loose
  hwaits := Pipeline.hwaits_of_owed_zero _ _ _ _ L lv 10 fun _ _ => rfl
  pre c := iprop(StableHlo.held (c : Thread nD τ) (Pipeline.ucRefs τ sig) (U23 m c) ∗ R c)
  post c := iprop(StableHlo.held (c : Thread nD τ) (Pipeline.ucRefs τ sig) (U24 m c) ∗ R c)
  X c := iprop(∃ r, prngReg c r)
  Y c := iprop(∃ r, prngReg c r)
  Z c := Pipeline.unscopedRest (Ix := Unit) (Name := ℕ) (U := UR sig nD τ) (Lvl := ℕ) spec10 c (tcv (U23 m) c)
  hentry c := by
    rw [Pipeline.ownSems0_none]
    have hsplit := Pipeline.arrays_of_unscopedBufs (p := 10) (pcfgs (F := F)) adm (pdats m) launch10.win launch10.arr_whole c
      ((pdats m 10 c).share_full fun _ => rfl) (tcv (U23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (tcv (U23 m) c) (tcv (U24 m) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec11.lean ====
/-
  Region 11 of the idealized kernel program (the second encoder's first linear layer on the second permuted input) as
  a segment of the main function: entered with every unscoped buffer of the core at the contents before the region,
  left with them at the contents after it, which differ at the region's output array only.
-/
import proofs.«113219_j18691697672631_1_alg».proof.Proof.KI.RecBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] [Named F] (m : (ℓ : Loc nD τ sig) → Buf (Elt F) ℓ)

local notation "𝕄" => MT nD τ sig Unit (Elt F) ℕ (UR sig nD τ) ℕ

set_option maxHeartbeats 1000000 in
/-- At region 11's exit each of its arrays holds what the pipeline leaves: an input's array what it held on entry, the
    output's the array after every point's write-back. -/
theorem hF11 (c : Dev nD) (w : Fin cfg11.W) : (dat11 (tcv (U25 m)) c).arrAt w cfg11.N = tcv (U26 m) c (Pipeline.arrRef spec11 w) := by
  fin_cases w
  · exact ((dat11 (tcv (U25 m)) c).arrAt_in 0 rfl _).trans ((A_eq11 (tcv (U25 m)) c 0).trans (U26_ne m c main_v110 (by decide)).symm)
  · exact ((dat11 (tcv (U25 m)) c).arrAt_in 1 rfl _).trans ((A_eq11 (tcv (U25 m)) c 1).trans (U26_ne m c main_arg10 (by decide)).symm)
  · exact ((dat11 (tcv (U25 m)) c).arrAt_in 2 rfl _).trans ((A_eq11 (tcv (U25 m)) c 2).trans (U26_ne m c main_v144 (by decide)).symm)
  · exact (U26_out m c).symm
/-- Every buffer that is none of region 11's arrays holds at its exit what it held on entry. -/
theorem hrest11 (c : Dev nD) : ∀ b, b ∉ Finset.univ.image (Pipeline.arrRef spec11) → tcv (U26 m) c b = tcv (U25 m) c b :=
  fun b hb => U26_ne m c b fun h => hb (h ▸ Finset.mem_image.mpr ⟨3, Finset.mem_univ _, rfl⟩)

-- applying a library lemma stated over the pinned configuration unifies with the printed one only when unification may
-- unfold plain definitions in a metavariable's type
set_option backward.isDefEq.respectTransparency.types false in
set_option maxHeartbeats 1000000 in
/-- Region 11 (the second encoder's first linear layer on the second permuted input) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg11 : RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (tcv (U25 m)) c).loose
  hwaits := Pipeline.hwaits_of_owed_zero _ _ _ _ L lv 11 fun _ _ => rfl
  pre c := iprop(StableHlo.held (c : Thread nD τ) (Pipeline.ucRefs τ sig) (U25 m c) ∗ R c)
  post c := iprop(StableHlo.held (c : Thread nD τ) (Pipeline.ucRefs τ sig) (U26 m c) ∗ R c)
  X c := iprop(∃ r, prngReg c r)
  Y c := iprop(∃ r, prngReg c r)
  Z c := Pipeline.unscopedRest (Ix := Unit) (Name := ℕ) (U := UR sig nD τ) (Lvl := ℕ) spec11 c (tcv (U25 m) c)
  hentry c := by
    rw [Pipeline.ownSems0_none]
    have hsplit := Pipeline.arrays_of_unscopedBufs (p := 11) (pcfgs (F := F)) adm (pdats m) launch11.win launch11.arr_whole c
      ((pdats m 11 c).share_full fun _ => rfl) (tcv (U25 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (tcv (U25 m) c) (tcv (U26 m) c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec12.lean ====
/-
  Region 12 of the idealized kernel program (the second encoder's rectifier and second linear layer on the second
  permuted input) as a segment of the main function: entered with every unscoped buffer of the core at the contents
  before the region, left with them at the contents after it, which differ at the region's output array only.
-/
import proofs.«113219_j18691697672631_1_alg».proof.Proof.KI.RecBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] [Named F] (m : (ℓ : Loc nD τ sig) → Buf (Elt F) ℓ)

local notation "𝕄" => MT nD τ sig Unit (Elt F) ℕ (UR sig nD τ) ℕ

set_option maxHeartbeats 1000000 in
/-- At region 12's exit each of its arrays holds what the pipeline leaves: an input's array what it held on entry, the
    output's the array after every point's write-back. -/
theorem hF12 (c : Dev nD) (w : Fin cfg12.W) : (dat12 (tcv (U27 m)) c).arrAt w cfg12.N = tcv (U28 m) c (Pipeline.arrRef spec12 w) := by
  fin_cases w
  · exact ((dat12 (tcv (U27 m)) c).arrAt_in 0 rfl _).trans ((A_eq12 (tcv (U27 m)) c 0).trans (U28_ne m c main_v158 (by decide)).symm)
  · exact ((dat12 (tcv (U27 m)) c).arrAt_in 1 rfl _).trans ((A_eq12 (tcv (U27 m)) c 1).trans (U28_ne m c main_v159 (by decide)).symm)
  · exact ((dat12 (tcv (U27 m)) c).arrAt_in 2 rfl _).trans ((A_eq12 (tcv (U27 m)) c 2).trans (U28_ne m c main_arg12 (by decide)).symm)
  · exact ((dat12 (tcv (U27 m)) c).arrAt_in 3 rfl _).trans ((A_eq12 (tcv (U27 m)) c 3).trans (U28_ne m c main_v160 (by decide)).symm)
  · exact (U28_out m c).symm
/-- Every buffer that is none of region 12's arrays holds at its exit what it held on entry. -/
theorem hrest12 (c : Dev nD) : ∀ b, b ∉ Finset.univ.image (Pipeline.arrRef spec12) → tcv (U28 m) c b = tcv (U27 m) c b :=
  fun b hb => U28_ne m c b fun h => hb (h ▸ Finset.mem_image.mpr ⟨4, Finset.mem_univ _, rfl⟩)

-- applying a library lemma stated over the pinned configuration unifies with the printed one only when unification may
-- unfold plain definitions in a metavariable's type
set_option backward.isDefEq.respectTransparency.types false in
set_option maxHeartbeats 1000000 in
/-- Region 12 (the second encoder's rectifier and second linear layer on the second permuted input) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg12 : RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (tcv (U27 m)) c).loose
  hwaits := Pipeline.hwaits_of_owed_zero _ _ _ _ L lv 12 fun _ _ => rfl
  pre c := iprop(StableHlo.held (c : Thread nD τ) (Pipeline.ucRefs τ sig) (U27 m c) ∗ R c)
  post c := iprop(StableHlo.held (c : Thread nD τ) (Pipeline.ucRefs τ sig) (U28 m c) ∗ R c)
  X c := iprop(∃ r, prngReg c r)
  Y c := iprop(∃ r, prngReg c r)
  Z c := Pipeline.unscopedRest (Ix := Unit) (Name := ℕ) (U := UR sig nD τ) (Lvl := ℕ) spec12 c (tcv (U27 m) c)
  hentry c := by
    rw [Pipeline.ownSems0_none]
    have hsplit := Pipeline.arrays_of_unscopedBufs (p := 12) (pcfgs (F := F)) adm (pdats m) launch12.win launch12.arr_whole c
      ((pdats m 12 c).share_full fun _ => rfl) (tcv (U27 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (tcv (U27 m) c) (tcv (U28 m) c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec13.lean ====
/-
  Region 13 of the idealized kernel program (the second encoder's closing rectifier on the second permuted input) as a
  segment of the main function: entered with every unscoped buffer of the core at the contents before the region, left
  with them at the contents after it, which differ at the region's output array only.
-/
import proofs.«113219_j18691697672631_1_alg».proof.Proof.KI.RecBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] [Named F] (m : (ℓ : Loc nD τ sig) → Buf (Elt F) ℓ)

local notation "𝕄" => MT nD τ sig Unit (Elt F) ℕ (UR sig nD τ) ℕ

set_option maxHeartbeats 1000000 in
/-- At region 13's exit each of its arrays holds what the pipeline leaves: an input's array what it held on entry, the
    output's the array after every point's write-back. -/
theorem hF13 (c : Dev nD) (w : Fin cfg13.W) : (dat13 (tcv (U29 m)) c).arrAt w cfg13.N = tcv (U30 m) c (Pipeline.arrRef spec13 w) := by
  fin_cases w
  · exact ((dat13 (tcv (U29 m)) c).arrAt_in 0 rfl _).trans ((A_eq13 (tcv (U29 m)) c 0).trans (U30_ne m c main_v174 (by decide)).symm)
  · exact ((dat13 (tcv (U29 m)) c).arrAt_in 1 rfl _).trans ((A_eq13 (tcv (U29 m)) c 1).trans (U30_ne m c main_v175 (by decide)).symm)
  · exact (U30_out m c).symm
/-- Every buffer that is none of region 13's arrays holds at its exit what it held on entry. -/
theorem hrest13 (c : Dev nD) : ∀ b, b ∉ Finset.univ.image (Pipeline.arrRef spec13) → tcv (U30 m) c b = tcv (U29 m) c b :=
  fun b hb => U30_ne m c b fun h => hb (h ▸ Finset.mem_image.mpr ⟨2, Finset.mem_univ _, rfl⟩)

-- applying a library lemma stated over the pinned configuration unifies with the printed one only when unification may
-- unfold plain definitions in a metavariable's type
set_option backward.isDefEq.respectTransparency.types false in
set_option maxHeartbeats 1000000 in
/-- Region 13 (the second encoder's closing rectifier on the second permuted input) over the thread state: entered with every unscoped buffer at the
    contents before it, left with them at the contents after it. Its arrays are split out of the unscoped buffers on
    entry and put back on exit, the output's at what the pipeline wrote back and the inputs' as they were; the generator
    register goes into the region's invariant and comes back; nothing is owed; the kernel has no semaphore of its own. -/
def reg13 : RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (tcv (U29 m)) c).loose
  hwaits := Pipeline.hwaits_of_owed_zero _ _ _ _ L lv 13 fun _ _ => rfl
  pre c := iprop(StableHlo.held (c : Thread nD τ) (Pipeline.ucRefs τ sig) (U29 m c) ∗ R c)
  post c := iprop(StableHlo.held (c : Thread nD τ) (Pipeline.ucRefs τ sig) (U30 m c) ∗ R c)
  X c := iprop(∃ r, prngReg c r)
  Y c := iprop(∃ r, prngReg c r)
  Z c := Pipeline.unscopedRest (Ix := Unit) (Name := ℕ) (U := UR sig nD τ) (Lvl := ℕ) spec13 c (tcv (U29 m) c)
  hentry c := by
    rw [Pipeline.ownSems0_none]
    have hsplit := Pipeline.arrays_of_unscopedBufs (p := 13) (pcfgs (F := F)) adm (pdats m) launch13.win launch13.arr_whole c
      ((pdats m 13 c).share_full fun _ => rfl) (tcv (U29 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (tcv (U29 m) c) (tcv (U30 m) c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Records.lean ====
/-
  The twelve plain regions of the idealized kernel program as segments of the main function, gathered.
-/
import proofs.«113219_j18691697672631_1_alg».proof.Proof.KI.Rec0
import proofs.«113219_j18691697672631_1_alg».proof.Proof.KI.Rec1
import proofs.«113219_j18691697672631_1_alg».proof.Proof.KI.Rec2
import proofs.«113219_j18691697672631_1_alg».proof.Proof.KI.Rec3
import proofs.«113219_j18691697672631_1_alg».proof.Proof.KI.Rec4
import proofs.«113219_j18691697672631_1_alg».proof.Proof.KI.Rec5
import proofs.«113219_j18691697672631_1_alg».proof.Proof.KI.Rec8
import proofs.«113219_j18691697672631_1_alg».proof.Proof.KI.Rec9
import proofs.«113219_j18691697672631_1_alg».proof.Proof.KI.Rec10
import proofs.«113219_j18691697672631_1_alg».proof.Proof.KI.Rec11
import proofs.«113219_j18691697672631_1_alg».proof.Proof.KI.Rec12
import proofs.«113219_j18691697672631_1_alg».proof.Proof.KI.Rec13
-- ==== Proof.KI.Pool6Rest.lean ====
/-
  Region 6 of the idealized kernel program: the accumulator between the region's ends. On entry the scratch buffer is one of
  the core's scoped buffers that no window stages, held at some contents: it is taken out of them and becomes the invariant's
  accumulator "at anything". On exit the accumulator, at the column sums of all 25 tiles, goes back among them.
-/
import proofs.«113219_j18691697672631_1_alg».proof.Proof.KI.Pool6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Entering: the scoped buffers no window stages and the generator register make the invariant before the first point. -/
theorem Φ6_in (c : Dev nD) :
    iprop((∃ r, prngReg c r) ∗ Pipeline.scopedRest (Ix := Unit) (Name := ℕ) (U := UR sig nD τ) (Lvl := ℕ) (Val := Elt F) spec6 c)
      ⊢ ((dat6 V c).Φ 0 : sProp 𝕄) := by
  rw [Φ6_eq, show scrState6 V c (0 : Fin (cfg6.N + 1)).val (Nat.le_of_lt_succ (0 : Fin (cfg6.N + 1)).isLt) = _ from scrState6_zero V c _,
    scopedRest6_split]
  simp only [owns_whole_eq]
  iintro ⟨Hp, ⟨%f, Hs⟩, Hrest⟩
  isplitl [Hs]
  · iexists f; iexists f; isplitr; · ipureintro; rfl
    iexact Hs
  isplitl [Hrest]; · iexact Hrest
  iexact Hp

/-- Leaving: the invariant after the last point gives them back. -/
theorem Φ6_out (c : Dev nD) :
    ((dat6 V c).Φ (Fin.last cfg6.N) : sProp 𝕄)
      ⊢ iprop((∃ r, prngReg c r) ∗ Pipeline.scopedRest (Ix := Unit) (Name := ℕ) (U := UR sig nD τ) (Lvl := ℕ) (Val := Elt F) spec6 c) := by
  rw [Φ6_eq, show scrState6 V c (Fin.last cfg6.N).val (Nat.le_of_lt_succ (Fin.last cfg6.N).isLt) = _ from scrState6_succ V c 24 _,
    scopedRest6_split]
  simp only [owns_whole_eq]
  iintro ⟨⟨%f, -, Hs⟩, Hrest, Hp⟩
  isplitl [Hp]; · iexact Hp
  isplitl [Hs]; · iexists f; iexact Hs
  iexact Hrest

end Cert.KernelIdeal.Hand

end
-- ==== Proof.KI.Rec6.lean ====
/-
  Region 6 of the idealized kernel program (the pooled projection of the first view) as a segment of the main function:
  entered with every unscoped buffer of the core at the contents before the region, left with them at the contents after
  it, which differ at the region's output row only. The scratch accumulator is a scoped buffer: it enters the region's
  invariant out of the scoped buffers no window stages, and goes back among them at the end.
-/
import proofs.«113219_j18691697672631_1_alg».proof.Proof.KI.RecBase
import proofs.«113219_j18691697672631_1_alg».proof.Proof.KI.Pool6Rest

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] [Named F] (m : (ℓ : Loc nD τ sig) → Buf (Elt F) ℓ)

local notation "𝕄" => MT nD τ sig Unit (Elt F) ℕ (UR sig nD τ) ℕ

-- applying a library lemma stated over the pinned configuration unifies with the printed one only when unification may
-- unfold plain definitions in a metavariable's type
set_option backward.isDefEq.respectTransparency.types false in
set_option maxHeartbeats 1000000 in
/-- Region 6 over the thread state: its arrays are split out of the unscoped buffers on entry and put back on exit, the
    output row's at what the last point wrote back and the inputs' as they were; the generator register and the scratch
    accumulator go into the region's invariant and come back; nothing is owed; the kernel has no semaphore of its own. -/
def reg6 : RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (tcv (U15 m)) c).loose
  hwaits := Pipeline.hwaits_of_owed_zero _ _ _ _ L lv 6 fun _ _ => rfl
  pre c := iprop(StableHlo.held (c : Thread nD τ) (Pipeline.ucRefs τ sig) (U15 m c) ∗ R c)
  post c := iprop(StableHlo.held (c : Thread nD τ) (Pipeline.ucRefs τ sig) (U16 m c) ∗ R c)
  X c := iprop(∃ r, prngReg c r)
  Y c := iprop(∃ r, prngReg c r)
  Z c := Pipeline.unscopedRest (Ix := Unit) (Name := ℕ) (U := UR sig nD τ) (Lvl := ℕ) spec6 c (tcv (U15 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (tcv (U15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (tcv (U15 m)) c).Φ 0 from rfl]
    iintro ⟨Hp, -, Hr⟩
    iapply (Φ6_in (tcv (U15 m)) c)
    isplitl [Hp]; · iexact Hp
    iexact Hr
  hout c := by
    rw [Pipeline.ownSems0_none, show (pdats m 6 c).Φ (Fin.last _) = (dat6 (tcv (U15 m)) c).Φ (Fin.last cfg6.N) from rfl]
    iintro H
    ihave H' := (Φ6_out (tcv (U15 m)) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (tcv (U15 m) c) (tcv (U16 m) c) ((pdats m 6 c).arrAt · cfg6.N)
      (fun w => by
        fin_cases w
        · exact (((pdats m 6 c).arrAt_in 0 rfl _).trans (A_eq6 (tcv (U15 m)) c 0)).trans (U16_ne m c main_v59 (by decide)).symm
        · exact (((pdats m 6 c).arrAt_in 1 rfl _).trans (A_eq6 (tcv (U15 m)) c 1)).trans (U16_ne m c main_arg15 (by decide)).symm
        · exact (((pdats m 6 c).arrAt_in 2 rfl _).trans (A_eq6 (tcv (U15 m)) c 2)).trans (U16_ne m c main_v93 (by decide)).symm
        · exact (U16_out m c).symm)
      (fun b hb => U16_ne m c b fun h => hb (h ▸ Finset.mem_image.mpr ⟨3, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Pool7Rest.lean ====
/-
  Region 7 of the idealized kernel program: the accumulator between the region's ends. On entry the scratch buffer is one of
  the core's scoped buffers that no window stages, held at some contents: it is taken out of them and becomes the invariant's
  accumulator "at anything". On exit the accumulator, at the column sums of all 25 tiles, goes back among them.
-/
import proofs.«113219_j18691697672631_1_alg».proof.Proof.KI.Pool7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Entering: the scoped buffers no window stages and the generator register make the invariant before the first point. -/
theorem Φ7_in (c : Dev nD) :
    iprop((∃ r, prngReg c r) ∗ Pipeline.scopedRest (Ix := Unit) (Name := ℕ) (U := UR sig nD τ) (Lvl := ℕ) (Val := Elt F) spec7 c)
      ⊢ ((dat7 V c).Φ 0 : sProp 𝕄) := by
  rw [Φ7_eq, show scrState7 V c (0 : Fin (cfg7.N + 1)).val (Nat.le_of_lt_succ (0 : Fin (cfg7.N + 1)).isLt) = _ from scrState7_zero V c _,
    scopedRest7_split]
  simp only [owns_whole_eq]
  iintro ⟨Hp, ⟨%f, Hs⟩, Hrest⟩
  isplitl [Hs]
  · iexists f; iexists f; isplitr; · ipureintro; rfl
    iexact Hs
  isplitl [Hrest]; · iexact Hrest
  iexact Hp

/-- Leaving: the invariant after the last point gives them back. -/
theorem Φ7_out (c : Dev nD) :
    ((dat7 V c).Φ (Fin.last cfg7.N) : sProp 𝕄)
      ⊢ iprop((∃ r, prngReg c r) ∗ Pipeline.scopedRest (Ix := Unit) (Name := ℕ) (U := UR sig nD τ) (Lvl := ℕ) (Val := Elt F) spec7 c) := by
  rw [Φ7_eq, show scrState7 V c (Fin.last cfg7.N).val (Nat.le_of_lt_succ (Fin.last cfg7.N).isLt) = _ from scrState7_succ V c 24 _,
    scopedRest7_split]
  simp only [owns_whole_eq]
  iintro ⟨⟨%f, -, Hs⟩, Hrest, Hp⟩
  isplitl [Hp]; · iexact Hp
  isplitl [Hs]; · iexists f; iexact Hs
  iexact Hrest

end Cert.KernelIdeal.Hand

end
-- ==== Proof.KI.Rec7.lean ====
/-
  Region 7 of the idealized kernel program (the pooled projection of the second view) as a segment of the main function:
  entered with every unscoped buffer of the core at the contents before the region, left with them at the contents after
  it, which differ at the region's output row only. The scratch accumulator is a scoped buffer: it enters the region's
  invariant out of the scoped buffers no window stages, and goes back among them at the end.
-/
import proofs.«113219_j18691697672631_1_alg».proof.Proof.KI.RecBase
import proofs.«113219_j18691697672631_1_alg».proof.Proof.KI.Pool7Rest

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] [Named F] (m : (ℓ : Loc nD τ sig) → Buf (Elt F) ℓ)

local notation "𝕄" => MT nD τ sig Unit (Elt F) ℕ (UR sig nD τ) ℕ

-- applying a library lemma stated over the pinned configuration unifies with the printed one only when unification may
-- unfold plain definitions in a metavariable's type
set_option backward.isDefEq.respectTransparency.types false in
set_option maxHeartbeats 1000000 in
/-- Region 7 over the thread state: its arrays are split out of the unscoped buffers on entry and put back on exit, the
    output row's at what the last point wrote back and the inputs' as they were; the generator register and the scratch
    accumulator go into the region's invariant and come back; nothing is owed; the kernel has no semaphore of its own. -/
def reg7 : RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (tcv (U17 m)) c).loose
  hwaits := Pipeline.hwaits_of_owed_zero _ _ _ _ L lv 7 fun _ _ => rfl
  pre c := iprop(StableHlo.held (c : Thread nD τ) (Pipeline.ucRefs τ sig) (U17 m c) ∗ R c)
  post c := iprop(StableHlo.held (c : Thread nD τ) (Pipeline.ucRefs τ sig) (U18 m c) ∗ R c)
  X c := iprop(∃ r, prngReg c r)
  Y c := iprop(∃ r, prngReg c r)
  Z c := Pipeline.unscopedRest (Ix := Unit) (Name := ℕ) (U := UR sig nD τ) (Lvl := ℕ) spec7 c (tcv (U17 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (tcv (U17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (tcv (U17 m)) c).Φ 0 from rfl]
    iintro ⟨Hp, -, Hr⟩
    iapply (Φ7_in (tcv (U17 m)) c)
    isplitl [Hp]; · iexact Hp
    iexact Hr
  hout c := by
    rw [Pipeline.ownSems0_none, show (pdats m 7 c).Φ (Fin.last _) = (dat7 (tcv (U17 m)) c).Φ (Fin.last cfg7.N) from rfl]
    iintro H
    ihave H' := (Φ7_out (tcv (U17 m)) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (tcv (U17 m) c) (tcv (U18 m) c) ((pdats m 7 c).arrAt · cfg7.N)
      (fun w => by
        fin_cases w
        · exact (((pdats m 7 c).arrAt_in 0 rfl _).trans (A_eq7 (tcv (U17 m)) c 0)).trans (U18_ne m c main_v92 (by decide)).symm
        · exact (((pdats m 7 c).arrAt_in 1 rfl _).trans (A_eq7 (tcv (U17 m)) c 1)).trans (U18_ne m c main_arg15 (by decide)).symm
        · exact (((pdats m 7 c).arrAt_in 2 rfl _).trans (A_eq7 (tcv (U17 m)) c 2)).trans (U18_ne m c main_v95 (by decide)).symm
        · exact (U18_out m c).symm)
      (fun b hb => U18_ne m c b fun h => hb (h ▸ Finset.mem_image.mpr ⟨3, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunCond.lean ====
/-
  The run of the idealized kernel program with its final memory read back, given the fourteen regions' segment records: from any memory,
  with zero counters, every weakly fair execution of the program terminates, and in every final memory each unscoped buffer
  of each core holds the contents the last boundary names — the launch contents carried through the host stretches
  (each operation's result written to its buffer) and through the regions (each region's output array at what its
  write-backs leave, every other buffer untouched). The frame (no argument array is written) and the results' values are
  both read off this one statement.
-/
import proofs.«113219_j18691697672631_1_alg».proof.Proof.Gen.KernelIdeal.Regions

set_option maxRecDepth 1772

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

variable (m : (ℓ : Loc nD τ sig) → Buf (Elt F) ℓ)

set_option backward.isDefEq.respectTransparency.types false in
/-- The run, given the regions' records: every unscoped buffer ends at the last boundary's contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 14) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 15 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE14 : ∀ c : Dev nD, E 14 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V13 m outs c) ∗ E 5 c) ⊢ R5.pre c)
    (hpost5 : ∀ c : Dev nD, R5.post c ⊢ iprop(StableHlo.held (c : Thread nD τ) (Pipeline.ucRefs τ sig) (V14 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V15 m outs c) ∗ E 6 c) ⊢ R6.pre c)
    (hpost6 : ∀ c : Dev nD, R6.post c ⊢ iprop(StableHlo.held (c : Thread nD τ) (Pipeline.ucRefs τ sig) (V16 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V17 m outs c) ∗ E 7 c) ⊢ R7.pre c)
    (hpost7 : ∀ c : Dev nD, R7.post c ⊢ iprop(StableHlo.held (c : Thread nD τ) (Pipeline.ucRefs τ sig) (V18 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V19 m outs c) ∗ E 8 c) ⊢ R8.pre c)
    (hpost8 : ∀ c : Dev nD, R8.post c ⊢ iprop(StableHlo.held (c : Thread nD τ) (Pipeline.ucRefs τ sig) (V20 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V21 m outs c) ∗ E 9 c) ⊢ R9.pre c)
    (hpost9 : ∀ c : Dev nD, R9.post c ⊢ iprop(StableHlo.held (c : Thread nD τ) (Pipeline.ucRefs τ sig) (V22 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V23 m outs c) ∗ E 10 c) ⊢ R10.pre c)
    (hpost10 : ∀ c : Dev nD, R10.post c ⊢ iprop(StableHlo.held (c : Thread nD τ) (Pipeline.ucRefs τ sig) (V24 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V25 m outs c) ∗ E 11 c) ⊢ R11.pre c)
    (hpost11 : ∀ c : Dev nD, R11.post c ⊢ iprop(StableHlo.held (c : Thread nD τ) (Pipeline.ucRefs τ sig) (V26 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V27 m outs c) ∗ E 12 c) ⊢ R12.pre c)
    (hpost12 : ∀ c : Dev nD, R12.post c ⊢ iprop(StableHlo.held (c : Thread nD τ) (Pipeline.ucRefs τ sig) (V28 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V29 m outs c) ∗ E 13 c) ⊢ R13.pre c)
    (hpost13 : ∀ c : Dev nD, R13.post c ⊢ iprop(StableHlo.held (c : Thread nD τ) (Pipeline.ucRefs τ sig) (V30 m outs c) ∗ E 14 c)) :
    θ_run defs (onTc (τ := τ) (main (F := F))) ⟨m, fun _ => 0, ρ⟩ (fun r => ∀ c : Dev nD,
      ∀ b ∈ Pipeline.ucRefs τ sig, r.2.mem (((c.tc : Thread nD τ)).1, b) = V30 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13)
    (fun c Q => by
      rewrite [main_chain c, Seg.run_eq_chain,
        show (segs m outs 𝒱₀ L lv E ι pdats R0 R1 R2 R3 R4 R5 R6 R7 R8 R9 R10 R11 R12 R13 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V30 m outs c))
    (hch := fun c => ⟨.rfl, .rfl, .rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, (hpost13 c).trans (sep_mono .rfl (hE14 c))⟩)
    (hinit := ?_) (QY := fun c s => ∀ b ∈ Pipeline.ucRefs τ sig, s.mem (((c.tc : Thread nD τ)).1, b) = V30 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V30 m outs c) s') $$ [Hh HSI]
    · isplitl [Hh] <;> iassumption
    icases Hr with ⟨%h, HSI⟩
    imodintro
    isplitr
    · ipureintro
      exact h
    · iexact HSI

end Cert.KernelIdeal.Hand

end
-- ==== Proof.KI.RunAll.lean ====
/-
  The idealized kernel program's run, with all fourteen regions' records in place: from any memory, with zero counters, every
  weakly fair execution terminates, and every unscoped buffer of every core ends at the last boundary's contents — the
  launch contents carried through the sixteen host stretches and the fourteen regions. Read at the argument arrays this is
  the frame (no host operation and no region writes an argument); read at the six result arrays it is their values.
-/
import proofs.«113219_j18691697672631_1_alg».proof.Proof.KI.Records
import proofs.«113219_j18691697672631_1_alg».proof.Proof.KI.Rec6
import proofs.«113219_j18691697672631_1_alg».proof.Proof.KI.Rec7
import proofs.«113219_j18691697672631_1_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] [Named F] (m : (ℓ : Loc nD τ sig) → Buf (Elt F) ℓ)

local notation "𝕄" => MT nD τ sig Unit (Elt F) ℕ (UR sig nD τ) ℕ

/-- At launch each core's generator register and its dues (nothing) make what rides beside the buffers. -/
theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  have hcore : ∀ c : Dev nD, iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))
      ⊢ (R (F := F) c : sProp 𝕄) := fun c => by
    iintro ⟨-, HO, -, Hp, -⟩
    isplitl [Hp]; · iexists _; iexact Hp
    iexists ∅; iexact HO
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (fun c : Dev nD => R (F := F) c) : sProp 𝕄) :=
    bigSep_mono fun c _ => hcore c
  iintro ⟨H, -⟩
  imodintro
  iapply hmono
  iexact H

set_option backward.isDefEq.respectTransparency.types false in
set_option maxHeartbeats 2000000 in
/-- THE RUN: every unscoped buffer ends at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c.tc : Thread nD τ)).1, b) = V30 m (outs m) c b) := by
  exact run_cond m (Ix := Unit) (U := UR sig nD τ) (Lvl := ℕ) (EP := emb₁) (ι := ()) (𝒱₀ := 𝒱₀) (L := L) (lv := lv) (hL := fun _ _ => rfl)
    (ρ := ρ) (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c) (hE0 := launch_rest ρ) (hE14 := fun c => by iintro ⟨-, H⟩; iexact H)
    (R0 := reg0 m) (hpre0 := fun c => .rfl) (hpost0 := fun c => by rw [V4_eq]; exact .rfl)
    (R1 := reg1 m) (hpre1 := fun c => by rw [V5_eq]; exact .rfl) (hpost1 := fun c => by rw [V6_eq]; exact .rfl)
    (R2 := reg2 m) (hpre2 := fun c => by rw [V7_eq]; exact .rfl) (hpost2 := fun c => by rw [V8_eq]; exact .rfl)
    (R3 := reg3 m) (hpre3 := fun c => by rw [V9_eq]; exact .rfl) (hpost3 := fun c => by rw [V10_eq]; exact .rfl)
    (R4 := reg4 m) (hpre4 := fun c => by rw [V11_eq]; exact .rfl) (hpost4 := fun c => by rw [V12_eq]; exact .rfl)
    (R5 := reg5 m) (hpre5 := fun c => by rw [V13_eq]; exact .rfl) (hpost5 := fun c => by rw [V14_eq]; exact .rfl)
    (R6 := reg6 m) (hpre6 := fun c => by rw [V15_eq]; exact .rfl) (hpost6 := fun c => by rw [V16_eq]; exact .rfl)
    (R7 := reg7 m) (hpre7 := fun c => by rw [V17_eq]; exact .rfl) (hpost7 := fun c => by rw [V18_eq]; exact .rfl)
    (R8 := reg8 m) (hpre8 := fun c => by rw [V19_eq]; exact .rfl) (hpost8 := fun c => by rw [V20_eq]; exact .rfl)
    (R9 := reg9 m) (hpre9 := fun c => by rw [V21_eq]; exact .rfl) (hpost9 := fun c => by rw [V22_eq]; exact .rfl)
    (R10 := reg10 m) (hpre10 := fun c => by rw [V23_eq]; exact .rfl) (hpost10 := fun c => by rw [V24_eq]; exact .rfl)
    (R11 := reg11 m) (hpre11 := fun c => by rw [V25_eq]; exact .rfl) (hpost11 := fun c => by rw [V26_eq]; exact .rfl)
    (R12 := reg12 m) (hpre12 := fun c => by rw [V27_eq]; exact .rfl) (hpost12 := fun c => by rw [V28_eq]; exact .rfl)
    (R13 := reg13 m) (hpre13 := fun c => by rw [V29_eq]; exact .rfl) (hpost13 := fun c => by rw [V30_eq]; exact .rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the program terminates without a fault and every argument array ends as launched — no host operation and
    no region writes one, so the last boundary's contents at an argument are the launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c (Proc.devRef .tc main_arg0) (mem_uc main_arg0 (by decide))).trans (V30_main_arg0 m (outs m) c),
      (h c (Proc.devRef .tc main_arg1) (mem_uc main_arg1 (by decide))).trans (V30_main_arg1 m (outs m) c),
      (h c (Proc.devRef .tc main_arg2) (mem_uc main_arg2 (by decide))).trans (V30_main_arg2 m (outs m) c),
      (h c (Proc.devRef .tc main_arg3) (mem_uc main_arg3 (by decide))).trans (V30_main_arg3 m (outs m) c),
      (h c (Proc.devRef .tc main_arg4) (mem_uc main_arg4 (by decide))).trans (V30_main_arg4 m (outs m) c),
      (h c (Proc.devRef .tc main_arg5) (mem_uc main_arg5 (by decide))).trans (V30_main_arg5 m (outs m) c),
      (h c (Proc.devRef .tc main_arg6) (mem_uc main_arg6 (by decide))).trans (V30_main_arg6 m (outs m) c),
      (h c (Proc.devRef .tc main_arg7) (mem_uc main_arg7 (by decide))).trans (V30_main_arg7 m (outs m) c),
      (h c (Proc.devRef .tc main_arg8) (mem_uc main_arg8 (by decide))).trans (V30_main_arg8 m (outs m) c),
      (h c (Proc.devRef .tc main_arg9) (mem_uc main_arg9 (by decide))).trans (V30_main_arg9 m (outs m) c),
      (h c (Proc.devRef .tc main_arg10) (mem_uc main_arg10 (by decide))).trans (V30_main_arg10 m (outs m) c),
      (h c (Proc.devRef .tc main_arg11) (mem_uc main_arg11 (by decide))).trans (V30_main_arg11 m (outs m) c),
      (h c (Proc.devRef .tc main_arg12) (mem_uc main_arg12 (by decide))).trans (V30_main_arg12 m (outs m) c),
      (h c (Proc.devRef .tc main_arg13) (mem_uc main_arg13 (by decide))).trans (V30_main_arg13 m (outs m) c),
      (h c (Proc.devRef .tc main_arg14) (mem_uc main_arg14 (by decide))).trans (V30_main_arg14 m (outs m) c),
      (h c (Proc.devRef .tc main_arg15) (mem_uc main_arg15 (by decide))).trans (V30_main_arg15 m (outs m) c),
      (h c (Proc.devRef .tc main_arg16) (mem_uc main_arg16 (by decide))).trans (V30_main_arg16 m (outs m) c)⟩) (run_all m ρ)

end Cert.KernelIdeal.Hand

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.KIV.Tile.lean ====
/-
  The two tile computations the twelve plain regions are made of, read entry by entry at the ideal values.
  A linear tile takes 2000 rows x, the 128 x 128 weights W and a bias row b to x W + b: entry (p, q) is the sum over k of
  x(p, k) W(k, q), plus b(q). A parametric-rectifier tile takes 2000 rows x and a slope row a to x where x is at least
  zero and to a * x elsewhere, entry by entry. Each region's stored value is one of these, or the first applied to the second.
-/
import proofs.«113219_j18691697672631_1_alg».proof.Proof.Gen.KernelIdeal.Skeleton
import proofs.«113219_j18691697672631_1_alg».proof.Proof.LibDot
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.ValueIdx
open scoped BigOperators

/-- The linear tile: the matrix unit's product of the rows with the weights from a zero accumulator, plus the bias row
    repeated over the rows. -/
def linTile (x : FVec Ideal S2000x128 .f32) (W : FVec Ideal S128x128 .f32) (b : FVec Ideal S1x128 .f32) : FVec Ideal S2000x128 .f32 :=
  addf (matmul dot_S2000x128_S128x128_S2000x128_1_0_0_1_n_n none x W (constant S2000x128 .f32 0x00000000#32))
    (broadcastTo S2000x128 (shapeCast S1x128 b shapeCasts_S1x128_S1x128) broadcasts_S1x128_S2000x128)

/-- The rectifier tile: the rows where they are at least zero, the slope row times the rows elsewhere. -/
def preluTile (x : FVec Ideal S2000x128 .f32) (a : FVec Ideal S1x128 .f32) : FVec Ideal S2000x128 .f32 :=
  select (cmpf .oge (shapeCast S2000x128 x shapeCasts_S2000x128_S2000x128) (broadcast S2000x128 (Scalar.ofBits .f32 0x00000000#32 : Ideal .f32)))
    (shapeCast S2000x128 x shapeCasts_S2000x128_S2000x128)
    (mulf (broadcastTo S2000x128 (shapeCast S1x128 a shapeCasts_S1x128_S1x128) broadcasts_S1x128_S2000x128)
      (shapeCast S2000x128 x shapeCasts_S2000x128_S2000x128))

/-- The linear tile at (p, q): the sum over k of x(p, k) W(k, q), plus b(q). -/
theorem linTile_apply (x : FVec Ideal S2000x128 .f32) (W : FVec Ideal S128x128 .f32) (b : FVec Ideal S1x128 .f32)
    (p : Fin 2000) (q : Fin 128) :
    linTile x W b (ix2 p q) = (∑ k : Fin 128, x (ix2 p k) * W (ix2 k q)) + b (ix2 (0 : Fin 1) q) := by
  unfold linTile
  rw [addf_apply, shapeCast_self, broadcastTo_1b_ab_apply]
  congr 1
  exact LibDot.matmul_zero_apply dot_S2000x128_S128x128_S2000x128_1_0_0_1_n_n_wf none x W p q

/-- The rectifier tile at (p, q): x(p, q) when it is at least zero, a(q) x(p, q) otherwise. -/
theorem preluTile_apply (x : FVec Ideal S2000x128 .f32) (a : FVec Ideal S1x128 .f32) (p : Fin 2000) (q : Fin 128) :
    preluTile x a (ix2 p q)
      = Scalar.select (FloatOps.cmpf .oge (x (ix2 p q)) (Scalar.ofBits .f32 0x00000000#32 : Ideal .f32)) (x (ix2 p q))
          (a (ix2 (0 : Fin 1) q) * x (ix2 p q)) := by
  unfold preluTile
  rw [select_apply, cmpf_apply, mulf_apply, shapeCast_self, shapeCast_self, broadcastTo_1b_ab_apply, broadcast_apply]

/-- The stored values of the three kinds of region are these tiles. -/
theorem k0_pay1_eq (x : FVec Ideal S2000x128 .f32) (W : FVec Ideal S128x128 .f32) (b : FVec Ideal S1x128 .f32) :
    k0_pay1 (F := Ideal) x W b = linTile x W b := rfl
theorem k2_pay1_eq (x : FVec Ideal S2000x128 .f32) (a : FVec Ideal S1x128 .f32) :
    k2_pay1 (F := Ideal) x a = preluTile x a := rfl
theorem k1_pay1_eq (x : FVec Ideal S2000x128 .f32) (a : FVec Ideal S1x128 .f32) (W : FVec Ideal S128x128 .f32) (b : FVec Ideal S1x128 .f32) :
    k1_pay1 (F := Ideal) x a W b = linTile (preluTile x a) W b := rfl

end Cert.KernelIdeal.Hand

end
-- ==== Proof.KIV.TileSpec.lean ====
/-
  The two tile computations against the reference's whole-array layers, entry by entry at the ideal values: a tile
  whose rows are rows of the whole array, computed with the whole weights and the whole bias (or slope) row, holds at
  (p, q) what the whole-array layer holds at (r, q), r the array row that tile row p is.
-/
import proofs.«113219_j18691697672631_1_alg».proof.Proof.KIV.Tile
import proofs.«113219_j18691697672631_1_alg».proof.Proof.Spec

noncomputable section

namespace Cert.KernelIdeal.Hand

open Cert.KernelIdeal Cert.KernelIdeal.Gen
open Idealize.ShloMosaic Idealize.ShloMosaic.ValueIdx
open scoped BigOperators

variable [Cert.ReferenceIdeal.Facts₀]

/-- The reference's affine layer at (r, q): the sum over k of A(r, k) W(k, q), plus b(q). -/
theorem linRow_apply (A : FVec Ideal Cert.ReferenceIdeal.S50000x128 .f32) (W : FVec Ideal Cert.ReferenceIdeal.S128x128 .f32)
    (b : FVec Ideal Cert.ReferenceIdeal.S1x128 .f32) (r : Fin 50000) (q : Fin 128) :
    (Cert.Spec.linRow (F := Ideal) A W b (ix2 r q) : Ideal .f32) = (∑ k : Fin 128, (A (ix2 r k) : EReal) * W (ix2 k q)) + b (ix2 (0 : Fin 1) q) := by
  unfold Cert.Spec.linRow
  show Host.dotGeneral (F := Ideal) Cert.ReferenceIdeal.dot_S50000x128_S128x128_S50000x128_1_0_0_1_n_n none A W (ix2 r q)
      + broadcastInDim Cert.ReferenceIdeal.S50000x128 ![0, 1] Cert.ReferenceIdeal.Facts₀.bcast_S1x128_S50000x128_0_1 b (ix2 r q) = _
  congr 1
  · exact LibDot.dotGeneral_apply Cert.ReferenceIdeal.Facts₀.dot_S50000x128_S128x128_S50000x128_1_0_0_1_n_n_wf none A W r q
  · refine broadcastInDim_apply _ _ b (ix2 r q) (ix2 (0 : Fin 1) q) fun a => ?_
    match a with
    | ⟨0, _⟩ => rfl
    | ⟨1, _⟩ => rfl

/-- The reference's rectifier at (r, q): z(r, q) when it is at least zero, a(q) z(r, q) otherwise. -/
theorem preluRow_apply (z : FVec Ideal Cert.ReferenceIdeal.S50000x128 .f32) (a : FVec Ideal Cert.ReferenceIdeal.S1x128 .f32)
    (r : Fin 50000) (q : Fin 128) :
    (Cert.Spec.preluRow (F := Ideal) z a (ix2 r q) : Ideal .f32)
      = Scalar.select (FloatOps.cmpf .oge (z (ix2 r q) : Ideal .f32) (Scalar.ofBits .f32 0x00000000#32 : Ideal .f32)) (z (ix2 r q))
          ((a (ix2 (0 : Fin 1) q) : EReal) * z (ix2 r q)) := by
  unfold Cert.Spec.preluRow
  show Scalar.select (FloatOps.cmpf .oge (z (ix2 r q) : Ideal .f32)
        (broadcastInDim Cert.ReferenceIdeal.S50000x128 ![] Cert.ReferenceIdeal.Facts₀.bcast_S_S50000x128 (constant (F := Ideal) Cert.ReferenceIdeal.S_ .f32 0x00000000#32) (ix2 r q)))
      (z (ix2 r q))
      ((broadcastInDim Cert.ReferenceIdeal.S50000x128 ![0, 1] Cert.ReferenceIdeal.Facts₀.bcast_S1x128_S50000x128_0_1 a (ix2 r q) : EReal) * z (ix2 r q)) = _
  have e0 : broadcastInDim Cert.ReferenceIdeal.S50000x128 ![] Cert.ReferenceIdeal.Facts₀.bcast_S_S50000x128 (constant (F := Ideal) Cert.ReferenceIdeal.S_ .f32 0x00000000#32) (ix2 r q)
      = (Scalar.ofBits .f32 0x00000000#32 : Ideal .f32) :=
    broadcastInDim_apply _ _ _ (ix2 r q) ix0 fun a => a.elim0
  have e1 : broadcastInDim Cert.ReferenceIdeal.S50000x128 ![0, 1] Cert.ReferenceIdeal.Facts₀.bcast_S1x128_S50000x128_0_1 a (ix2 r q) = a (ix2 (0 : Fin 1) q) := by
    refine broadcastInDim_apply _ _ a (ix2 r q) (ix2 (0 : Fin 1) q) fun ax => ?_
    match ax with
    | ⟨0, _⟩ => rfl
    | ⟨1, _⟩ => rfl
  rw [e0, e1]

/-- A linear tile against the whole-array layer. -/
theorem linTile_eq_linRow (A : FVec Ideal Cert.ReferenceIdeal.S50000x128 .f32) (W : FVec Ideal Cert.ReferenceIdeal.S128x128 .f32)
    (b : FVec Ideal Cert.ReferenceIdeal.S1x128 .f32)
    (x0 : FVec Ideal S2000x128 .f32) (x1 : FVec Ideal S128x128 .f32) (x2 : FVec Ideal S1x128 .f32)
    (p : Fin 2000) (q : Fin 128) (r : Fin 50000)
    (hx : ∀ k : Fin 128, x0 (ix2 p k) = A (ix2 r k)) (hW : x1 = W) (hb : x2 = b) :
    linTile x0 x1 x2 (ix2 p q) = Cert.Spec.linRow (F := Ideal) A W b (ix2 r q) := by
  subst hW hb
  rw [linTile_apply, linRow_apply]
  congr 1
  exact Finset.sum_congr rfl fun k _ => by rw [hx k]

/-- A rectifier tile against the whole-array rectifier. -/
theorem preluTile_eq_preluRow (z : FVec Ideal Cert.ReferenceIdeal.S50000x128 .f32) (a : FVec Ideal Cert.ReferenceIdeal.S1x128 .f32)
    (x0 : FVec Ideal S2000x128 .f32) (x1 : FVec Ideal S1x128 .f32)
    (p : Fin 2000) (q : Fin 128) (r : Fin 50000)
    (hx : x0 (ix2 p q) = z (ix2 r q)) (ha : x1 = a) :
    preluTile x0 x1 (ix2 p q) = Cert.Spec.preluRow (F := Ideal) z a (ix2 r q) := by
  subst ha
  rw [preluTile_apply, preluRow_apply, hx]

/-- A rectifier tile fed to a linear tile against the whole-array rectifier fed to the whole-array layer. -/
theorem linTile_preluTile_eq (z : FVec Ideal Cert.ReferenceIdeal.S50000x128 .f32) (a : FVec Ideal Cert.ReferenceIdeal.S1x128 .f32)
    (W : FVec Ideal Cert.ReferenceIdeal.S128x128 .f32) (b : FVec Ideal Cert.ReferenceIdeal.S1x128 .f32)
    (x0 : FVec Ideal S2000x128 .f32) (x1 : FVec Ideal S1x128 .f32) (x2 : FVec Ideal S128x128 .f32) (x3 : FVec Ideal S1x128 .f32)
    (p : Fin 2000) (q : Fin 128) (r : Fin 50000)
    (hx : ∀ k : Fin 128, x0 (ix2 p k) = z (ix2 r k)) (ha : x1 = a) (hW : x2 = W) (hb : x3 = b) :
    linTile (preluTile x0 x1) x2 x3 (ix2 p q) = Cert.Spec.linRow (F := Ideal) (Cert.Spec.preluRow (F := Ideal) z a) W b (ix2 r q) :=
  linTile_eq_linRow (Cert.Spec.preluRow (F := Ideal) z a) W b (preluTile x0 x1) x2 x3 p q r
    (fun k => preluTile_eq_preluRow z a x0 x1 p k r (hx k) ha) hW hb

end Cert.KernelIdeal.Hand

end
-- ==== Proof.KIV.Linear0Value.lean ====
/-
  Region 0 of the idealized kernel program, as one function of the arrays it is entered with: when the region ends its
  output array holds the affine layer of its input array, x W + b at every row. Point t of the grid of 25 computes rows
  2000 t to 2000 t + 1999: its tile is those rows of the input, its weights and bias row are the whole arrays, and what it
  writes back is those rows of the layer; the 25 tiles cover the 50000 rows.
-/
import proofs.«113219_j18691697672631_1_alg».proof.Proof.KI.Linear0
import proofs.«113219_j18691697672631_1_alg».proof.Proof.KIV.TileSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable [Cert.ReferenceIdeal.Facts₀]

/-- The block index maps over the grid: the tile's and the output's block is the point's, the weights' and the row's the
    one block there is. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem hz0 : (![0, 0] : Fin 2 → Nat) = fun _ => 0 := funext fun a => by fin_cases a <;> rfl

section Blocks

variable {F : FTy → Type} [FloatOps F] [Named F]
variable (V : (c : Dev nD) → (b : Ref sig .tc) → Buf (Elt F) ((c : Thread nD τ).loc b))

/-- Point t's tile is rows 2000 t to 2000 t + 1999 of the input array. -/
theorem iblk0_0_apply (c : Dev nD) (t : Fin cfg0.N) (p : Fin 2000) (k : Fin 128) (r : Fin 50000) (hr : r.val = 2000 * t.val + p.val) :
    (iblk0 V c 0 t : S2000x128.Idx → Elt F .f32) (ix2 p k) = (V c (Pipeline.arrRef spec0 0) : S50000x128.Idx → Elt F .f32) (ix2 r k) := by
  obtain ⟨e0, e1, -⟩ := idx_facts0 t
  unfold iblk0
  rw [View.read_apply]
  refine congrArg (V c (Pipeline.arrRef spec0 0) : S50000x128.Idx → Elt F .f32) (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- Every point's weights block is the whole weights array. -/
theorem iblk0_1_eq (c : Dev nD) (t : Fin cfg0.N) :
    (iblk0 V c 1 t : S128x128.Idx → Elt F .f32) = (V c (Pipeline.arrRef spec0 1) : S128x128.Idx → Elt F .f32) := by
  obtain ⟨-, -, e0, e1, -⟩ := idx_facts0 t
  funext x
  unfold iblk0
  rw [View.read_apply]
  refine congrArg (V c (Pipeline.arrRef spec0 1) : S128x128.Idx → Elt F .f32) (funext fun a => Fin.ext ?_)
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- Every point's bias block is the whole bias row. -/
theorem iblk0_2_eq (c : Dev nD) (t : Fin cfg0.N) :
    (iblk0 V c 2 t : S1x128.Idx → Elt F .f32) = (V c (Pipeline.arrRef spec0 2) : S1x128.Idx → Elt F .f32) := by
  obtain ⟨-, -, -, -, e0, e1, -⟩ := idx_facts0 t
  funext x
  unfold iblk0
  rw [View.read_apply]
  refine congrArg (V c (Pipeline.arrRef spec0 2) : S1x128.Idx → Elt F .f32) (funext fun a => Fin.ext ?_)
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

end Blocks

variable (V : (c : Dev nD) → (b : Ref sig .tc) → Buf (Elt Ideal) ((c : Thread nD τ).loc b))

/-- Where entry (p, q) of point t's output block sits in the output array: row 2000 t + p, column q. -/
theorem emb0_3 (t : Fin cfg0.N) (p : Fin 2000) (q : Fin 128) (r : Fin 50000) (hr : r.val = 2000 * t.val + p.val) :
    (((cfg0.win 3).blk t).view.emb (ix2 p q) : S50000x128.Idx) = ix2 r q := by
  obtain ⟨-, -, -, -, -, -, e0, e1⟩ := idx_facts0 t
  refine funext fun a => Fin.ext ?_
  match a with
  | ⟨0, _⟩ => show win0_3.index t (0 : Fin 2) * 2000 + 1 * p.val = r.val; rw [e0, hr]; omega
  | ⟨1, _⟩ => show win0_3.index t (1 : Fin 2) * 128 + 1 * q.val = q.val; rw [e1]; omega

/-- What point t writes back is its block of the affine layer of the arrays the region was entered with. -/
theorem flushed0_eq (c : Dev nD) (t : Fin cfg0.N) :
    (dat0 (F := Ideal) V c).flushed 3 t = ((cfg0.win 3).blk t).view.read (Elt Ideal)
      (Cert.Spec.linRow (F := Ideal) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz0]
  simp only [View.ld_unit_zero (S := S2000x128) hz0, View.ld_unit_zero (S := S128x128) hz0, View.ld_unit_zero (S := S1x128) hz0]
  refine funext fun (j : S2000x128.Idx) => ?_
  obtain ⟨p, q, rfl⟩ : ∃ (p : Fin 2000) (q : Fin 128), j = ix2 p q := ⟨j 0, j 1, eq_ix2 j⟩
  have ht : t.val < 25 := Nat.lt_of_lt_of_eq t.isLt (N_0 : cfg0.N = 25)
  have hp : p.val < 2000 := p.isLt
  have e := emb0_3 t p q ⟨2000 * t.val + p.val, by omega⟩ rfl
  show linTile (iblk0 V c 0 t) (iblk0 V c 1 t) (iblk0 V c 2 t) (ix2 p q) = Cert.Spec.linRow (F := Ideal) _ _ _ (((cfg0.win 3).blk t).view.emb (ix2 p q))
  rw [e]
  exact linTile_eq_linRow _ _ _ _ _ _ p q _ (fun k => iblk0_0_apply V c t p k _ rfl) (iblk0_1_eq V c t) (iblk0_2_eq V c t)

/-- Every row of the output array is in some point's block: row r in point r / 2000's. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨-, -, -, -, -, -, e0, e1⟩ := idx_facts0 ⟨(i 0).val / 2000, hlt⟩
  have e0' : win0_3.index ⟨(i 0).val / 2000, hlt⟩ (0 : Fin 2) = (i 0).val / 2000 := e0
  refine ⟨⟨(i 0).val / 2000, hlt⟩, flush0_3 _, ?_⟩
  show i ∈ ((View.whole main_v28).slice (win0_3.rect ⟨(i 0).val / 2000, hlt⟩)).set
  rw [View.set_slice_whole, Rect.mem_set_unit]
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    rw [e0']; omega
  | ⟨1, _⟩ =>
    show win0_3.index ⟨(i 0).val / 2000, hlt⟩ (1 : Fin 2) * 128 ≤ (i 1).val ∧ (i 1).val < win0_3.index ⟨(i 0).val / 2000, hlt⟩ (1 : Fin 2) * 128 + 128
    rw [e1]; omega

/-- THE VALUE of region 0: its output array ends at the affine layer of the arrays it was entered with. -/
theorem value0 (c : Dev nD) :
    (dat0 (F := Ideal) V c).arrAt 3 cfg0.N
      = Cert.Spec.linRow (F := Ideal) (V c (Pipeline.arrRef spec0 0)) (V c (Pipeline.arrRef spec0 1)) (V c (Pipeline.arrRef spec0 2)) :=
  (dat0 (F := Ideal) V c).arrAt_eq_of_cover 3 _ (fun t _ => flushed0_eq V c t) cover0

end Cert.KernelIdeal.Hand

end
-- ==== Proof.KIV.PreluLinear1Value.lean ====
/-
  Region 1 of the idealized kernel program, as one function of the arrays it is entered with: when the region ends its
  output array holds the affine layer of the parametric rectifier of its input array, prelu(z, a) W + b at every row.
  Point t of the grid of 25 computes rows 2000 t to 2000 t + 1999: its tile is those rows of the input, its slope row,
  weights and bias row are the whole arrays, and what it writes back is those rows of the result; the 25 tiles cover the
  50000 rows.
-/
import proofs.«113219_j18691697672631_1_alg».proof.Proof.KI.PreluLinear1
import proofs.«113219_j18691697672631_1_alg».proof.Proof.KIV.TileSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable [Cert.ReferenceIdeal.Facts₀]

/-- The block index maps over the grid: the tile's and the output's block is the point's, the slope row's, the weights'
    and the bias row's the one block there is. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem hz1 : (![0, 0] : Fin 2 → Nat) = fun _ => 0 := funext fun a => by fin_cases a <;> rfl

section Blocks

variable {F : FTy → Type} [FloatOps F] [Named F]
variable (V : (c : Dev nD) → (b : Ref sig .tc) → Buf (Elt F) ((c : Thread nD τ).loc b))

/-- Point t's tile is rows 2000 t to 2000 t + 1999 of the input array. -/
theorem iblk1_0_apply (c : Dev nD) (t : Fin cfg1.N) (p : Fin 2000) (k : Fin 128) (r : Fin 50000) (hr : r.val = 2000 * t.val + p.val) :
    (iblk1 V c 0 t : S2000x128.Idx → Elt F .f32) (ix2 p k) = (V c (Pipeline.arrRef spec1 0) : S50000x128.Idx → Elt F .f32) (ix2 r k) := by
  obtain ⟨e0, e1, -⟩ := idx_facts1 t
  unfold iblk1
  rw [View.read_apply]
  refine congrArg (V c (Pipeline.arrRef spec1 0) : S50000x128.Idx → Elt F .f32) (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- Every point's slope block is the whole slope row. -/
theorem iblk1_1_eq (c : Dev nD) (t : Fin cfg1.N) :
    (iblk1 V c 1 t : S1x128.Idx → Elt F .f32) = (V c (Pipeline.arrRef spec1 1) : S1x128.Idx → Elt F .f32) := by
  obtain ⟨-, -, e0, e1, -⟩ := idx_facts1 t
  funext x
  unfold iblk1
  rw [View.read_apply]
  refine congrArg (V c (Pipeline.arrRef spec1 1) : S1x128.Idx → Elt F .f32) (funext fun a => Fin.ext ?_)
  match a with
  | ⟨0, _⟩ => show win1_1.index t (0 : Fin 2) * 1 + 1 * (x 0).val = (x 0).val; rw [e0]; omega
  | ⟨1, _⟩ => show win1_1.index t (1 : Fin 2) * 128 + 1 * (x 1).val = (x 1).val; rw [e1]; omega

/-- Every point's weights block is the whole weights array. -/
theorem iblk1_2_eq (c : Dev nD) (t : Fin cfg1.N) :
    (iblk1 V c 2 t : S128x128.Idx → Elt F .f32) = (V c (Pipeline.arrRef spec1 2) : S128x128.Idx → Elt F .f32) := by
  obtain ⟨-, -, -, -, e0, e1, -⟩ := idx_facts1 t
  funext x
  unfold iblk1
  rw [View.read_apply]
  refine congrArg (V c (Pipeline.arrRef spec1 2) : S128x128.Idx → Elt F .f32) (funext fun a => Fin.ext ?_)
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- Every point's bias block is the whole bias row. -/
theorem iblk1_3_eq (c : Dev nD) (t : Fin cfg1.N) :
    (iblk1 V c 3 t : S1x128.Idx → Elt F .f32) = (V c (Pipeline.arrRef spec1 3) : S1x128.Idx → Elt F .f32) := by
  obtain ⟨-, -, -, -, -, -, e0, e1, -⟩ := idx_facts1 t
  funext x
  unfold iblk1
  rw [View.read_apply]
  refine congrArg (V c (Pipeline.arrRef spec1 3) : S1x128.Idx → Elt F .f32) (funext fun a => Fin.ext ?_)
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

end Blocks

variable (V : (c : Dev nD) → (b : Ref sig .tc) → Buf (Elt Ideal) ((c : Thread nD τ).loc b))

/-- Where entry (p, q) of point t's output block sits in the output array: row 2000 t + p, column q. -/
theorem emb1_4 (t : Fin cfg1.N) (p : Fin 2000) (q : Fin 128) (r : Fin 50000) (hr : r.val = 2000 * t.val + p.val) :
    (((cfg1.win 4).blk t).view.emb (ix2 p q) : S50000x128.Idx) = ix2 r q := by
  obtain ⟨-, -, -, -, -, -, -, -, e0, e1⟩ := idx_facts1 t
  refine funext fun a => Fin.ext ?_
  match a with
  | ⟨0, _⟩ => show win1_4.index t (0 : Fin 2) * 2000 + 1 * p.val = r.val; rw [e0, hr]; omega
  | ⟨1, _⟩ => show win1_4.index t (1 : Fin 2) * 128 + 1 * q.val = q.val; rw [e1]; omega

/-- What point t writes back is its block of the affine layer of the rectifier of the arrays the region was entered with. -/
theorem flushed1_eq (c : Dev nD) (t : Fin cfg1.N) :
    (dat1 (F := Ideal) V c).flushed 4 t = ((cfg1.win 4).blk t).view.read (Elt Ideal)
      (Cert.Spec.linRow (F := Ideal)
        (Cert.Spec.preluRow (F := Ideal) (V c (Pipeline.arrRef spec1 0)) (V c (Pipeline.arrRef spec1 1)))
        (V c (Pipeline.arrRef spec1 2)) (V c (Pipeline.arrRef spec1 3))) := by
  show (cfg1.win 4).cut (grid1.coords t) ((dat1 V c).after 4 t) = _
  rw [after1_4]
  unfold out1_4
  rw [View.canon_unit_zero hz1]
  simp only [View.ld_unit_zero (S := S2000x128) hz1, View.ld_unit_zero (S := S128x128) hz1, View.ld_unit_zero (S := S1x128) hz1]
  refine funext fun (j : S2000x128.Idx) => ?_
  obtain ⟨p, q, rfl⟩ : ∃ (p : Fin 2000) (q : Fin 128), j = ix2 p q := ⟨j 0, j 1, eq_ix2 j⟩
  have ht : t.val < 25 := Nat.lt_of_lt_of_eq t.isLt (N_1 : cfg1.N = 25)
  have hp : p.val < 2000 := p.isLt
  have e := emb1_4 t p q ⟨2000 * t.val + p.val, by omega⟩ rfl
  show linTile (preluTile (iblk1 V c 0 t) (iblk1 V c 1 t)) (iblk1 V c 2 t) (iblk1 V c 3 t) (ix2 p q)
    = Cert.Spec.linRow (F := Ideal) (Cert.Spec.preluRow (F := Ideal) _ _) _ _ (((cfg1.win 4).blk t).view.emb (ix2 p q))
  rw [e]
  exact linTile_preluTile_eq _ _ _ _ _ _ _ _ p q _ (fun k => iblk1_0_apply V c t p k _ rfl) (iblk1_1_eq V c t) (iblk1_2_eq V c t) (iblk1_3_eq V c t)

/-- Every row of the output array is in some point's block: row r in point r / 2000's. -/
theorem cover1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  have hlt : (i 0).val / 2000 < cfg1.N := by rw [hN]; omega
  obtain ⟨-, -, -, -, -, -, -, -, e0, e1⟩ := idx_facts1 ⟨(i 0).val / 2000, hlt⟩
  have e0' : win1_4.index ⟨(i 0).val / 2000, hlt⟩ (0 : Fin 2) = (i 0).val / 2000 := e0
  refine ⟨⟨(i 0).val / 2000, hlt⟩, flush1_4 _, ?_⟩
  show i ∈ ((View.whole main_v44).slice (win1_4.rect ⟨(i 0).val / 2000, hlt⟩)).set
  rw [View.set_slice_whole, Rect.mem_set_unit]
  intro a
  match a with
  | ⟨0, _⟩ =>
    show win1_4.index ⟨(i 0).val / 2000, hlt⟩ (0 : Fin 2) * 2000 ≤ (i 0).val ∧ (i 0).val < win1_4.index ⟨(i 0).val / 2000, hlt⟩ (0 : Fin 2) * 2000 + 2000
    rw [e0']; omega
  | ⟨1, _⟩ =>
    show win1_4.index ⟨(i 0).val / 2000, hlt⟩ (1 : Fin 2) * 128 ≤ (i 1).val ∧ (i 1).val < win1_4.index ⟨(i 0).val / 2000, hlt⟩ (1 : Fin 2) * 128 + 128
    rw [e1]; omega

/-- THE VALUE of region 1: its output array ends at the affine layer of the rectifier of the arrays it was entered with. -/
theorem value1 (c : Dev nD) :
    (dat1 (F := Ideal) V c).arrAt 4 cfg1.N
      = Cert.Spec.linRow (F := Ideal)
          (Cert.Spec.preluRow (F := Ideal) (V c (Pipeline.arrRef spec1 0)) (V c (Pipeline.arrRef spec1 1)))
          (V c (Pipeline.arrRef spec1 2)) (V c (Pipeline.arrRef spec1 3)) :=
  (dat1 (F := Ideal) V c).arrAt_eq_of_cover 4 _ (fun t _ => flushed1_eq V c t) cover1

end Cert.KernelIdeal.Hand

end
-- ==== Proof.KIV.Prelu2Value.lean ====
/-
  Region 2 of the idealized kernel program, as one function of the arrays it is entered with: when the region ends its
  output array holds the parametric rectifier of its input array, z where z is at least zero and the slope times z
  elsewhere. Point t of the grid of 25 computes rows 2000 t to 2000 t + 1999: its tile is those rows of the input, its
  slope row is the whole row, and what it writes back is those rows of the rectifier; the 25 tiles cover the 50000 rows.
-/
import proofs.«113219_j18691697672631_1_alg».proof.Proof.KI.Prelu2
import proofs.«113219_j18691697672631_1_alg».proof.Proof.KIV.TileSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable [Cert.ReferenceIdeal.Facts₀]

/-- The block index maps over the grid: the tile's and the output's block is the point's, the slope row's the one block
    there is. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem hz2 : (![0, 0] : Fin 2 → Nat) = fun _ => 0 := funext fun a => by fin_cases a <;> rfl

section Blocks

variable {F : FTy → Type} [FloatOps F] [Named F]
variable (V : (c : Dev nD) → (b : Ref sig .tc) → Buf (Elt F) ((c : Thread nD τ).loc b))

/-- Point t's tile is rows 2000 t to 2000 t + 1999 of the input array. -/
theorem iblk2_0_apply (c : Dev nD) (t : Fin cfg2.N) (p : Fin 2000) (k : Fin 128) (r : Fin 50000) (hr : r.val = 2000 * t.val + p.val) :
    (iblk2 V c 0 t : S2000x128.Idx → Elt F .f32) (ix2 p k) = (V c (Pipeline.arrRef spec2 0) : S50000x128.Idx → Elt F .f32) (ix2 r k) := by
  obtain ⟨e0, e1, -⟩ := idx_facts2 t
  unfold iblk2
  rw [View.read_apply]
  refine congrArg (V c (Pipeline.arrRef spec2 0) : S50000x128.Idx → Elt F .f32) (funext fun a => Fin.ext ?_)
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

/-- Every point's slope block is the whole slope row. -/
theorem iblk2_1_eq (c : Dev nD) (t : Fin cfg2.N) :
    (iblk2 V c 1 t : S1x128.Idx → Elt F .f32) = (V c (Pipeline.arrRef spec2 1) : S1x128.Idx → Elt F .f32) := by
  obtain ⟨-, -, e0, e1, -⟩ := idx_facts2 t
  funext x
  unfold iblk2
  rw [View.read_apply]
  refine congrArg (V c (Pipeline.arrRef spec2 1) : S1x128.Idx → Elt F .f32) (funext fun a => Fin.ext ?_)
  match a with
  | ⟨0, _⟩ => show win2_1.index t (0 : Fin 2) * 1 + 1 * (x 0).val = (x 0).val; rw [e0]; omega
  | ⟨1, _⟩ => show win2_1.index t (1 : Fin 2) * 128 + 1 * (x 1).val = (x 1).val; rw [e1]; omega

end Blocks

variable (V : (c : Dev nD) → (b : Ref sig .tc) → Buf (Elt Ideal) ((c : Thread nD τ).loc b))

/-- Where entry (p, q) of point t's output block sits in the output array: row 2000 t + p, column q. -/
theorem emb2_2 (t : Fin cfg2.N) (p : Fin 2000) (q : Fin 128) (r : Fin 50000) (hr : r.val = 2000 * t.val + p.val) :
    (((cfg2.win 2).blk t).view.emb (ix2 p q) : S50000x128.Idx) = ix2 r q := by
  obtain ⟨-, -, -, -, e0, e1⟩ := idx_facts2 t
  refine funext fun a => Fin.ext ?_
  match a with
  | ⟨0, _⟩ => show win2_2.index t (0 : Fin 2) * 2000 + 1 * p.val = r.val; rw [e0, hr]; omega
  | ⟨1, _⟩ => show win2_2.index t (1 : Fin 2) * 128 + 1 * q.val = q.val; rw [e1]; omega

/-- What point t writes back is its block of the rectifier of the arrays the region was entered with. -/
theorem flushed2_eq (c : Dev nD) (t : Fin cfg2.N) :
    (dat2 (F := Ideal) V c).flushed 2 t = ((cfg2.win 2).blk t).view.read (Elt Ideal)
      (Cert.Spec.preluRow (F := Ideal) (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S2000x128) hz2, View.ld_unit_zero (S := S1x128) hz2]
  refine funext fun (j : S2000x128.Idx) => ?_
  obtain ⟨p, q, rfl⟩ : ∃ (p : Fin 2000) (q : Fin 128), j = ix2 p q := ⟨j 0, j 1, eq_ix2 j⟩
  have ht : t.val < 25 := Nat.lt_of_lt_of_eq t.isLt (N_2 : cfg2.N = 25)
  have hp : p.val < 2000 := p.isLt
  have e := emb2_2 t p q ⟨2000 * t.val + p.val, by omega⟩ rfl
  show preluTile (iblk2 V c 0 t) (iblk2 V c 1 t) (ix2 p q) = Cert.Spec.preluRow (F := Ideal) _ _ (((cfg2.win 2).blk t).view.emb (ix2 p q))
  rw [e]
  exact preluTile_eq_preluRow _ _ _ _ p q _ (iblk2_0_apply V c t p q _ rfl) (iblk2_1_eq V c t)

/-- Every row of the output array is in some point's block: row r in point r / 2000's. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  have hlt : (i 0).val / 2000 < cfg2.N := by rw [hN]; omega
  obtain ⟨-, -, -, -, e0, e1⟩ := idx_facts2 ⟨(i 0).val / 2000, hlt⟩
  have e0' : win2_2.index ⟨(i 0).val / 2000, hlt⟩ (0 : Fin 2) = (i 0).val / 2000 := e0
  refine ⟨⟨(i 0).val / 2000, hlt⟩, flush2_2 _, ?_⟩
  show i ∈ ((View.whole main_v59).slice (win2_2.rect ⟨(i 0).val / 2000, hlt⟩)).set
  rw [View.set_slice_whole, Rect.mem_set_unit]
  intro a
  match a with
  | ⟨0, _⟩ =>
    show win2_2.index ⟨(i 0).val / 2000, hlt⟩ (0 : Fin 2) * 2000 ≤ (i 0).val ∧ (i 0).val < win2_2.index ⟨(i 0).val / 2000, hlt⟩ (0 : Fin 2) * 2000 + 2000
    rw [e0']; omega
  | ⟨1, _⟩ =>
    show win2_2.index ⟨(i 0).val / 2000, hlt⟩ (1 : Fin 2) * 128 ≤ (i 1).val ∧ (i 1).val < win2_2.index ⟨(i 0).val / 2000, hlt⟩ (1 : Fin 2) * 128 + 128
    rw [e1]; omega

/-- THE VALUE of region 2: its output array ends at the rectifier of the arrays it was entered with. -/
theorem value2 (c : Dev nD) :
    (dat2 (F := Ideal) V c).arrAt 2 cfg2.N
      = Cert.Spec.preluRow (F := Ideal) (V c (Pipeline.arrRef spec2 0)) (V c (Pipeline.arrRef spec2 1)) :=
  (dat2 (F := Ideal) V c).arrAt_eq_of_cover 2 _ (fun t _ => flushed2_eq V c t) cover2

end Cert.KernelIdeal.Hand

end
-- ==== Proof.KIV.Linear3Value.lean ====
/-
  Region 3 of the idealized kernel program, as one function of the arrays it is entered with: when the region ends its
  output array holds the affine layer of its input array, x W + b at every row. Point t of the grid of 25 computes rows
  2000 t to 2000 t + 1999: its tile is those rows of the input, its weights and bias row are the whole arrays, and what it
  writes back is those rows of the layer; the 25 tiles cover the 50000 rows.
-/
import proofs.«113219_j18691697672631_1_alg».proof.Proof.KI.Linear3
import proofs.«113219_j18691697672631_1_alg».proof.Proof.KIV.TileSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable [Cert.ReferenceIdeal.Facts₀]

/-- The block index maps over the grid: the tile's and the output's block is the point's, the weights' and the row's the
    one block there is. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem hz3 : (![0, 0] : Fin 2 → Nat) = fun _ => 0 := funext fun a => by fin_cases a <;> rfl

section Blocks

variable {F : FTy → Type} [FloatOps F] [Named F]
variable (V : (c : Dev nD) → (b : Ref sig .tc) → Buf (Elt F) ((c : Thread nD τ).loc b))

/-- Point t's tile is rows 2000 t to 2000 t + 1999 of the input array. -/
theorem iblk3_0_apply (c : Dev nD) (t : Fin cfg3.N) (p : Fin 2000) (k : Fin 128) (r : Fin 50000) (hr : r.val = 2000 * t.val + p.val) :
    (iblk3 V c 0 t : S2000x128.Idx → Elt F .f32) (ix2 p k) = (V c (Pipeline.arrRef spec3 0) : S50000x128.Idx → Elt F .f32) (ix2 r k) := by
  obtain ⟨e0, e1, -⟩ := idx_facts3 t
  unfold iblk3
  rw [View.read_apply]
  refine congrArg (V c (Pipeline.arrRef spec3 0) : S50000x128.Idx → Elt F .f32) (funext fun a => Fin.ext ?_)
  match a with
  | ⟨0, _⟩ => show win3_0.index t (0 : Fin 2) * 2000 + 1 * p.val = r.val; rw [e0, hr]; omega
  | ⟨1, _⟩ => show win3_0.index t (1 : Fin 2) * 128 + 1 * k.val = k.val; rw [e1]; omega

/-- Every point's weights block is the whole weights array. -/
theorem iblk3_1_eq (c : Dev nD) (t : Fin cfg3.N) :
    (iblk3 V c 1 t : S128x128.Idx → Elt F .f32) = (V c (Pipeline.arrRef spec3 1) : S128x128.Idx → Elt F .f32) := by
  obtain ⟨-, -, e0, e1, -⟩ := idx_facts3 t
  funext x
  unfold iblk3
  rw [View.read_apply]
  refine congrArg (V c (Pipeline.arrRef spec3 1) : S128x128.Idx → Elt F .f32) (funext fun a => Fin.ext ?_)
  match a with
  | ⟨0, _⟩ => show win3_1.index t (0 : Fin 2) * 128 + 1 * (x 0).val = (x 0).val; rw [e0]; omega
  | ⟨1, _⟩ => show win3_1.index t (1 : Fin 2) * 128 + 1 * (x 1).val = (x 1).val; rw [e1]; omega

/-- Every point's bias block is the whole bias row. -/
theorem iblk3_2_eq (c : Dev nD) (t : Fin cfg3.N) :
    (iblk3 V c 2 t : S1x128.Idx → Elt F .f32) = (V c (Pipeline.arrRef spec3 2) : S1x128.Idx → Elt F .f32) := by
  obtain ⟨-, -, -, -, e0, e1, -⟩ := idx_facts3 t
  funext x
  unfold iblk3
  rw [View.read_apply]
  refine congrArg (V c (Pipeline.arrRef spec3 2) : S1x128.Idx → Elt F .f32) (funext fun a => Fin.ext ?_)
  match a with
  | ⟨0, _⟩ => show win3_2.index t (0 : Fin 2) * 1 + 1 * (x 0).val = (x 0).val; rw [e0]; omega
  | ⟨1, _⟩ => show win3_2.index t (1 : Fin 2) * 128 + 1 * (x 1).val = (x 1).val; rw [e1]; omega

end Blocks

variable (V : (c : Dev nD) → (b : Ref sig .tc) → Buf (Elt Ideal) ((c : Thread nD τ).loc b))

/-- Where entry (p, q) of point t's output block sits in the output array: row 2000 t + p, column q. -/
theorem emb3_3 (t : Fin cfg3.N) (p : Fin 2000) (q : Fin 128) (r : Fin 50000) (hr : r.val = 2000 * t.val + p.val) :
    (((cfg3.win 3).blk t).view.emb (ix2 p q) : S50000x128.Idx) = ix2 r q := by
  obtain ⟨-, -, -, -, -, -, e0, e1⟩ := idx_facts3 t
  refine funext fun a => Fin.ext ?_
  match a with
  | ⟨0, _⟩ => show win3_3.index t (0 : Fin 2) * 2000 + 1 * p.val = r.val; rw [e0, hr]; omega
  | ⟨1, _⟩ => show win3_3.index t (1 : Fin 2) * 128 + 1 * q.val = q.val; rw [e1]; omega

/-- What point t writes back is its block of the affine layer of the arrays the region was entered with. -/
theorem flushed3_eq (c : Dev nD) (t : Fin cfg3.N) :
    (dat3 (F := Ideal) V c).flushed 3 t = ((cfg3.win 3).blk t).view.read (Elt Ideal)
      (Cert.Spec.linRow (F := Ideal) (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz3]
  simp only [View.ld_unit_zero (S := S2000x128) hz3, View.ld_unit_zero (S := S128x128) hz3, View.ld_unit_zero (S := S1x128) hz3]
  refine funext fun (j : S2000x128.Idx) => ?_
  obtain ⟨p, q, rfl⟩ : ∃ (p : Fin 2000) (q : Fin 128), j = ix2 p q := ⟨j 0, j 1, eq_ix2 j⟩
  have ht : t.val < 25 := Nat.lt_of_lt_of_eq t.isLt (N_3 : cfg3.N = 25)
  have hp : p.val < 2000 := p.isLt
  have e := emb3_3 t p q ⟨2000 * t.val + p.val, by omega⟩ rfl
  show linTile (iblk3 V c 0 t) (iblk3 V c 1 t) (iblk3 V c 2 t) (ix2 p q) = Cert.Spec.linRow (F := Ideal) _ _ _ (((cfg3.win 3).blk t).view.emb (ix2 p q))
  rw [e]
  exact linTile_eq_linRow _ _ _ _ _ _ p q _ (fun k => iblk3_0_apply V c t p k _ rfl) (iblk3_1_eq V c t) (iblk3_2_eq V c t)

/-- Every row of the output array is in some point's block: row r in point r / 2000's. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 25 := N_3
  have hlt : (i 0).val / 2000 < cfg3.N := by rw [hN]; omega
  obtain ⟨-, -, -, -, -, -, e0, e1⟩ := idx_facts3 ⟨(i 0).val / 2000, hlt⟩
  have e0' : win3_3.index ⟨(i 0).val / 2000, hlt⟩ (0 : Fin 2) = (i 0).val / 2000 := e0
  refine ⟨⟨(i 0).val / 2000, hlt⟩, flush3_3 _, ?_⟩
  show i ∈ ((View.whole main_v61).slice (win3_3.rect ⟨(i 0).val / 2000, hlt⟩)).set
  rw [View.set_slice_whole, Rect.mem_set_unit]
  intro a
  match a with
  | ⟨0, _⟩ =>
    show win3_3.index ⟨(i 0).val / 2000, hlt⟩ (0 : Fin 2) * 2000 ≤ (i 0).val ∧ (i 0).val < win3_3.index ⟨(i 0).val / 2000, hlt⟩ (0 : Fin 2) * 2000 + 2000
    rw [e0']; omega
  | ⟨1, _⟩ =>
    show win3_3.index ⟨(i 0).val / 2000, hlt⟩ (1 : Fin 2) * 128 ≤ (i 1).val ∧ (i 1).val < win3_3.index ⟨(i 0).val / 2000, hlt⟩ (1 : Fin 2) * 128 + 128
    rw [e1]; omega

/-- THE VALUE of region 3: its output array ends at the affine layer of the arrays it was entered with. -/
theorem value3 (c : Dev nD) :
    (dat3 (F := Ideal) V c).arrAt 3 cfg3.N
      = Cert.Spec.linRow (F := Ideal) (V c (Pipeline.arrRef spec3 0)) (V c (Pipeline.arrRef spec3 1)) (V c (Pipeline.arrRef spec3 2)) :=
  (dat3 (F := Ideal) V c).arrAt_eq_of_cover 3 _ (fun t _ => flushed3_eq V c t) cover3

end Cert.KernelIdeal.Hand

end
-- ==== Proof.KIV.PreluLinear4Value.lean ====
/-
  Region 4 of the idealized kernel program, as one function of the arrays it is entered with: when the region ends its
  output array holds the affine layer of the parametric rectifier of its input array, prelu(z, a) W + b at every row.
  Point t of the grid of 25 computes rows 2000 t to 2000 t + 1999: its tile is those rows of the input, its slope row,
  weights and bias row are the whole arrays, and what it writes back is those rows of the result; the 25 tiles cover the
  50000 rows.
-/
import proofs.«113219_j18691697672631_1_alg».proof.Proof.KI.PreluLinear4
import proofs.«113219_j18691697672631_1_alg».proof.Proof.KIV.TileSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable [Cert.ReferenceIdeal.Facts₀]

/-- The block index maps over the grid: the tile's and the output's block is the point's, the slope row's, the weights'
    and the bias row's the one block there is. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

theorem hz4 : (![0, 0] : Fin 2 → Nat) = fun _ => 0 := funext fun a => by fin_cases a <;> rfl

section Blocks

variable {F : FTy → Type} [FloatOps F] [Named F]
variable (V : (c : Dev nD) → (b : Ref sig .tc) → Buf (Elt F) ((c : Thread nD τ).loc b))

/-- Point t's tile is rows 2000 t to 2000 t + 1999 of the input array. -/
theorem iblk4_0_apply (c : Dev nD) (t : Fin cfg4.N) (p : Fin 2000) (k : Fin 128) (r : Fin 50000) (hr : r.val = 2000 * t.val + p.val) :
    (iblk4 V c 0 t : S2000x128.Idx → Elt F .f32) (ix2 p k) = (V c (Pipeline.arrRef spec4 0) : S50000x128.Idx → Elt F .f32) (ix2 r k) := by
  obtain ⟨e0, e1, -⟩ := idx_facts4 t
  unfold iblk4
  rw [View.read_apply]
  refine congrArg (V c (Pipeline.arrRef spec4 0) : S50000x128.Idx → Elt F .f32) (funext fun a => Fin.ext ?_)
  match a with
  | ⟨0, _⟩ => show win4_0.index t (0 : Fin 2) * 2000 + 1 * p.val = r.val; rw [e0, hr]; omega
  | ⟨1, _⟩ => show win4_0.index t (1 : Fin 2) * 128 + 1 * k.val = k.val; rw [e1]; omega

/-- Every point's slope block is the whole slope row. -/
theorem iblk4_1_eq (c : Dev nD) (t : Fin cfg4.N) :
    (iblk4 V c 1 t : S1x128.Idx → Elt F .f32) = (V c (Pipeline.arrRef spec4 1) : S1x128.Idx → Elt F .f32) := by
  obtain ⟨-, -, e0, e1, -⟩ := idx_facts4 t
  funext x
  unfold iblk4
  rw [View.read_apply]
  refine congrArg (V c (Pipeline.arrRef spec4 1) : S1x128.Idx → Elt F .f32) (funext fun a => Fin.ext ?_)
  match a with
  | ⟨0, _⟩ => show win4_1.index t (0 : Fin 2) * 1 + 1 * (x 0).val = (x 0).val; rw [e0]; omega
  | ⟨1, _⟩ => show win4_1.index t (1 : Fin 2) * 128 + 1 * (x 1).val = (x 1).val; rw [e1]; omega

/-- Every point's weights block is the whole weights array. -/
theorem iblk4_2_eq (c : Dev nD) (t : Fin cfg4.N) :
    (iblk4 V c 2 t : S128x128.Idx → Elt F .f32) = (V c (Pipeline.arrRef spec4 2) : S128x128.Idx → Elt F .f32) := by
  obtain ⟨-, -, -, -, e0, e1, -⟩ := idx_facts4 t
  funext x
  unfold iblk4
  rw [View.read_apply]
  refine congrArg (V c (Pipeline.arrRef spec4 2) : S128x128.Idx → Elt F .f32) (funext fun a => Fin.ext ?_)
  match a with
  | ⟨0, _⟩ => show win4_2.index t (0 : Fin 2) * 128 + 1 * (x 0).val = (x 0).val; rw [e0]; omega
  | ⟨1, _⟩ => show win4_2.index t (1 : Fin 2) * 128 + 1 * (x 1).val = (x 1).val; rw [e1]; omega

/-- Every point's bias block is the whole bias row. -/
theorem iblk4_3_eq (c : Dev nD) (t : Fin cfg4.N) :
    (iblk4 V c 3 t : S1x128.Idx → Elt F .f32) = (V c (Pipeline.arrRef spec4 3) : S1x128.Idx → Elt F .f32) := by
  obtain ⟨-, -, -, -, -, -, e0, e1, -⟩ := idx_facts4 t
  funext x
  unfold iblk4
  rw [View.read_apply]
  refine congrArg (V c (Pipeline.arrRef spec4 3) : S1x128.Idx → Elt F .f32) (funext fun a => Fin.ext ?_)
  match a with
  | ⟨0, _⟩ => show win4_3.index t (0 : Fin 2) * 1 + 1 * (x 0).val = (x 0).val; rw [e0]; omega
  | ⟨1, _⟩ => show win4_3.index t (1 : Fin 2) * 128 + 1 * (x 1).val = (x 1).val; rw [e1]; omega

end Blocks

variable (V : (c : Dev nD) → (b : Ref sig .tc) → Buf (Elt Ideal) ((c : Thread nD τ).loc b))

/-- Where entry (p, q) of point t's output block sits in the output array: row 2000 t + p, column q. -/
theorem emb4_4 (t : Fin cfg4.N) (p : Fin 2000) (q : Fin 128) (r : Fin 50000) (hr : r.val = 2000 * t.val + p.val) :
    (((cfg4.win 4).blk t).view.emb (ix2 p q) : S50000x128.Idx) = ix2 r q := by
  obtain ⟨-, -, -, -, -, -, -, -, e0, e1⟩ := idx_facts4 t
  refine funext fun a => Fin.ext ?_
  match a with
  | ⟨0, _⟩ => show win4_4.index t (0 : Fin 2) * 2000 + 1 * p.val = r.val; rw [e0, hr]; omega
  | ⟨1, _⟩ => show win4_4.index t (1 : Fin 2) * 128 + 1 * q.val = q.val; rw [e1]; omega

/-- What point t writes back is its block of the affine layer of the rectifier of the arrays the region was entered with. -/
theorem flushed4_eq (c : Dev nD) (t : Fin cfg4.N) :
    (dat4 (F := Ideal) V c).flushed 4 t = ((cfg4.win 4).blk t).view.read (Elt Ideal)
      (Cert.Spec.linRow (F := Ideal)
        (Cert.Spec.preluRow (F := Ideal) (V c (Pipeline.arrRef spec4 0)) (V c (Pipeline.arrRef spec4 1)))
        (V c (Pipeline.arrRef spec4 2)) (V c (Pipeline.arrRef spec4 3))) := by
  show (cfg4.win 4).cut (grid4.coords t) ((dat4 V c).after 4 t) = _
  rw [after4_4]
  unfold out4_4
  rw [View.canon_unit_zero hz4]
  simp only [View.ld_unit_zero (S := S2000x128) hz4, View.ld_unit_zero (S := S128x128) hz4, View.ld_unit_zero (S := S1x128) hz4]
  refine funext fun (j : S2000x128.Idx) => ?_
  obtain ⟨p, q, rfl⟩ : ∃ (p : Fin 2000) (q : Fin 128), j = ix2 p q := ⟨j 0, j 1, eq_ix2 j⟩
  have ht : t.val < 25 := Nat.lt_of_lt_of_eq t.isLt (N_4 : cfg4.N = 25)
  have hp : p.val < 2000 := p.isLt
  have e := emb4_4 t p q ⟨2000 * t.val + p.val, by omega⟩ rfl
  show linTile (preluTile (iblk4 V c 0 t) (iblk4 V c 1 t)) (iblk4 V c 2 t) (iblk4 V c 3 t) (ix2 p q)
    = Cert.Spec.linRow (F := Ideal) (Cert.Spec.preluRow (F := Ideal) _ _) _ _ (((cfg4.win 4).blk t).view.emb (ix2 p q))
  rw [e]
  exact linTile_preluTile_eq _ _ _ _ _ _ _ _ p q _ (fun k => iblk4_0_apply V c t p k _ rfl) (iblk4_1_eq V c t) (iblk4_2_eq V c t) (iblk4_3_eq V c t)

/-- Every row of the output array is in some point's block: row r in point r / 2000's. -/
theorem cover4 (i : S50000x128.Idx) : ∃ t : Fin cfg4.N, (cfg4.win 4).flush t = true ∧ i ∈ ((cfg4.win 4).blk t).view.set := by
  have hi0 : (i 0).val < 50000 := (i 0).isLt
  have hi1 : (i 1).val < 128 := (i 1).isLt
  have hN : cfg4.N = 25 := N_4
  have hlt : (i 0).val / 2000 < cfg4.N := by rw [hN]; omega
  obtain ⟨-, -, -, -, -, -, -, -, e0, e1⟩ := idx_facts4 ⟨(i 0).val / 2000, hlt⟩
  have e0' : win4_4.index ⟨(i 0).val / 2000, hlt⟩ (0 : Fin 2) = (i 0).val / 2000 := e0
  refine ⟨⟨(i 0).val / 2000, hlt⟩, flush4_4 _, ?_⟩
  show i ∈ ((View.whole main_v77).slice (win4_4.rect ⟨(i 0).val / 2000, hlt⟩)).set
  rw [View.set_slice_whole, Rect.mem_set_unit]
  intro a
  match a with
  | ⟨0, _⟩ =>
    show win4_4.index ⟨(i 0).val / 2000, hlt⟩ (0 : Fin 2) * 2000 ≤ (i 0).val ∧ (i 0).val < win4_4.index ⟨(i 0).val / 2000, hlt⟩ (0 : Fin 2) * 2000 + 2000
    rw [e0']; omega
  | ⟨1, _⟩ =>
    show win4_4.index ⟨(i 0).val / 2000, hlt⟩ (1 : Fin 2) * 128 ≤ (i 1).val ∧ (i 1).val < win4_4.index ⟨(i 0).val / 2000, hlt⟩ (1 : Fin 2) * 128 + 128
    rw [e1]; omega

/-- THE VALUE of region 4: its output array ends at the affine layer of the rectifier of the arrays it was entered with. -/
theorem value4 (c : Dev nD) :
    (dat4 (F := Ideal) V c).arrAt 4 cfg4.N
      = Cert.Spec.linRow (F := Ideal)
          (Cert.Spec.preluRow (F := Ideal) (V c (Pipeline.arrRef spec4 0)) (V c (Pipeline.arrRef spec4 1)))
          (V c (Pipeline.arrRef spec4 2)) (V c (Pipeline.arrRef spec4 3)) :=
  (dat4 (F := Ideal) V c).arrAt_eq_of_cover 4 _ (fun t _ => flushed4_eq V c t) cover4

end Cert.KernelIdeal.Hand

end
-- ==== Proof.KIV.Prelu5Value.lean ====
/-
  Region 5 of the idealized kernel program, as one function of the arrays it is entered with: when the region ends its
  output array holds the parametric rectifier of its input array, z where z is at least zero and the slope times z
  elsewhere. Point t of the grid of 25 computes rows 2000 t to 2000 t + 1999: its tile is those rows of the input, its
  slope row is the whole row, and what it writes back is those rows of the rectifier; the 25 tiles cover the 50000 rows.
-/
import proofs.«113219_j18691697672631_1_alg».proof.Proof.KI.Prelu5
import proofs.«113219_j18691697672631_1_alg».proof.Proof.KIV.TileSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable [Cert.ReferenceIdeal.Facts₀]

/-- The block index maps over the grid: the tile's and the output's block is the point's, the slope row's the one block
    there is. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem hz5 : (![0, 0] : Fin 2 → Nat) = fun _ => 0 := funext fun a => by fin_cases a <;> rfl

section Blocks

variable {F : FTy → Type} [FloatOps F] [Named F]
variable (V : (c : Dev nD) → (b : Ref sig .tc) → Buf (Elt F) ((c : Thread nD τ).loc b))

/-- Point t's tile is rows 2000 t to 2000 t + 1999 of the input array. -/
theorem iblk5_0_apply (c : Dev nD) (t : Fin cfg5.N) (p : Fin 2000) (k : Fin 128) (r : Fin 50000) (hr : r.val = 2000 * t.val + p.val) :
    (iblk5 V c 0 t : S2000x128.Idx → Elt F .f32) (ix2 p k) = (V c (Pipeline.arrRef spec5 0) : S50000x128.Idx → Elt F .f32) (ix2 r k) := by
  obtain ⟨e0, e1, -⟩ := idx_facts5 t
  unfold iblk5
  rw [View.read_apply]
  refine congrArg (V c (Pipeline.arrRef spec5 0) : S50000x128.Idx → Elt F .f32) (funext fun a => Fin.ext ?_)
  match a with
  | ⟨0, _⟩ => show win5_0.index t (0 : Fin 2) * 2000 + 1 * p.val = r.val; rw [e0, hr]; omega
  | ⟨1, _⟩ => show win5_0.index t (1 : Fin 2) * 128 + 1 * k.val = k.val; rw [e1]; omega

/-- Every point's slope block is the whole slope row. -/
theorem iblk5_1_eq (c : Dev nD) (t : Fin cfg5.N) :
    (iblk5 V c 1 t : S1x128.Idx → Elt F .f32) = (V c (Pipeline.arrRef spec5 1) : S1x128.Idx → Elt F .f32) := by
  obtain ⟨-, -, e0, e1, -⟩ := idx_facts5 t
  funext x
  unfold iblk5
  rw [View.read_apply]
  refine congrArg (V c (Pipeline.arrRef spec5 1) : S1x128.Idx → Elt F .f32) (funext fun a => Fin.ext ?_)
  match a with
  | ⟨0, _⟩ => show win5_1.index t (0 : Fin 2) * 1 + 1 * (x 0).val = (x 0).val; rw [e0]; omega
  | ⟨1, _⟩ => show win5_1.index t (1 : Fin 2) * 128 + 1 * (x 1).val = (x 1).val; rw [e1]; omega

end Blocks

variable (V : (c : Dev nD) → (b : Ref sig .tc) → Buf (Elt Ideal) ((c : Thread nD τ).loc b))

/-- Where entry (p, q) of point t's output block sits in the output array: row 2000 t + p, column q. -/
theorem emb5_2 (t : Fin cfg5.N) (p : Fin 2000) (q : Fin 128) (r : Fin 50000) (hr : r.val = 2000 * t.val + p.val) :
    (((cfg5.win 2).blk t).view.emb (ix2 p q) : S50000x128.Idx) = ix2 r q := by
  obtain ⟨-, -, -, -, e0, e1⟩ := idx_facts5 t
  refine funext fun a => Fin.ext ?_
  match a with
  | ⟨0, _⟩ => show win5_2.index t (0 : Fin 2) * 2000 + 1 * p.val = r.val; rw [e0, hr]; omega
  | ⟨1, _⟩ => show win5_2.index t (1 : Fin 2) * 128 + 1 * q.val = q.val; rw [e1]; omega

/-- What point t writes back is its block of the rectifier of the arrays the region was entered with. -/
theorem flushed5_eq (c : Dev nD) (t : Fin cfg5.N) :
    (dat5 (F := Ideal) V c).flushed 2 t = ((cfg5.win 2).blk t).view.read (Elt Ideal)
      (Cert.Spec.preluRow (F := Ideal) (V c (Pipeline.arrRef spec5 0)) (V c (Pipeline.arrRef spec5 1))) := by
  show (cfg5.win 2).cut (grid5.coords t) ((dat5 V c).after 2 t) = _
  rw [after5_2]
  unfold out5_2
  rw [View.canon_unit_zero hz5]
  simp only [View.ld_unit_zero (S := S2000x128) hz5, View.ld_unit_zero (S := S1x128) hz5]
  refine funext fun (j : S2000x128.Idx) => ?_
  obtain ⟨p, q, rfl⟩ : ∃ (p : Fin 2000) (q : Fin 128), j = ix2 p q := ⟨j 0, j 1, eq_ix2 j⟩
  have ht : t.val < 25 := Nat.lt_of_lt_of_eq t.isLt (N_5 : cfg5.N = 25)
  have hp : p.val < 2000 := p.isLt
  have e := emb5_2 t p q ⟨2000 * t.val + p.val, by omega⟩ rfl
  show preluTile (iblk5 V c 0 t) (iblk5 V c 1 t) (ix2 p q) = Cert.Spec.preluRow (F := Ideal) _ _ (((cfg5.win 2).blk t).view.emb (ix2 p q))
  rw [e]
  exact preluTile_eq_preluRow _ _ _ _ p q _ (iblk5_0_apply V c t p q _ rfl) (iblk5_1_eq V c t)

/-- Every row of the output array is in some point's block: row r in point r / 2000's. -/
theorem cover5 (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 25 := N_5
  have hlt : (i 0).val / 2000 < cfg5.N := by rw [hN]; omega
  obtain ⟨-, -, -, -, e0, e1⟩ := idx_facts5 ⟨(i 0).val / 2000, hlt⟩
  have e0' : win5_2.index ⟨(i 0).val / 2000, hlt⟩ (0 : Fin 2) = (i 0).val / 2000 := e0
  refine ⟨⟨(i 0).val / 2000, hlt⟩, flush5_2 _, ?_⟩
  show i ∈ ((View.whole main_v92).slice (win5_2.rect ⟨(i 0).val / 2000, hlt⟩)).set
  rw [View.set_slice_whole, Rect.mem_set_unit]
  intro a
  match a with
  | ⟨0, _⟩ =>
    show win5_2.index ⟨(i 0).val / 2000, hlt⟩ (0 : Fin 2) * 2000 ≤ (i 0).val ∧ (i 0).val < win5_2.index ⟨(i 0).val / 2000, hlt⟩ (0 : Fin 2) * 2000 + 2000
    rw [e0']; omega
  | ⟨1, _⟩ =>
    show win5_2.index ⟨(i 0).val / 2000, hlt⟩ (1 : Fin 2) * 128 ≤ (i 1).val ∧ (i 1).val < win5_2.index ⟨(i 0).val / 2000, hlt⟩ (1 : Fin 2) * 128 + 128
    rw [e1]; omega

/-- THE VALUE of region 5: its output array ends at the rectifier of the arrays it was entered with. -/
theorem value5 (c : Dev nD) :
    (dat5 (F := Ideal) V c).arrAt 2 cfg5.N
      = Cert.Spec.preluRow (F := Ideal) (V c (Pipeline.arrRef spec5 0)) (V c (Pipeline.arrRef spec5 1)) :=
  (dat5 (F := Ideal) V c).arrAt_eq_of_cover 2 _ (fun t _ => flushed5_eq V c t) cover5

end Cert.KernelIdeal.Hand

end
-- ==== Proof.KIV.TileCast.lean ====
/-
  A linear tile whose rows pass through a cast to their own shape first, against the whole-array layer: the cast is the
  identity, so the tile is the plain linear tile.
-/
import proofs.«113219_j18691697672631_1_alg».proof.Proof.KIV.TileSpec

noncomputable section

namespace Cert.KernelIdeal.Hand

open Cert.KernelIdeal Cert.KernelIdeal.Gen
open Idealize.ShloMosaic Idealize.ShloMosaic.ValueIdx

variable [Cert.ReferenceIdeal.Facts₀]

theorem linTile_cast_eq_linRow (A : FVec Ideal Cert.ReferenceIdeal.S50000x128 .f32) (W : FVec Ideal Cert.ReferenceIdeal.S128x128 .f32)
    (b : FVec Ideal Cert.ReferenceIdeal.S1x128 .f32)
    (x0 : FVec Ideal S2000x128 .f32) (x1 : FVec Ideal S128x128 .f32) (x2 : FVec Ideal S1x128 .f32)
    (p : Fin 2000) (q : Fin 128) (r : Fin 50000)
    (hx : ∀ k : Fin 128, x0 (ix2 p k) = A (ix2 r k)) (hW : x1 = W) (hb : x2 = b) :
    linTile (shapeCast S2000x128 x0 shapeCasts_S2000x128_S2000x128) x1 x2 (ix2 p q) = Cert.Spec.linRow (F := Ideal) A W b (ix2 r q) := by
  rw [shapeCast_self]
  exact linTile_eq_linRow A W b x0 x1 x2 p q r hx hW hb

end Cert.KernelIdeal.Hand

end
-- ==== Proof.KIV.Linear8Value.lean ====
/-
  Region 8 of the idealized kernel program, as one function of the arrays it is entered with: when the region ends its
  output array holds the affine layer of its input array, x W + b at every row. Point t of the grid of 25 computes rows
  2000 t to 2000 t + 1999: its tile is those rows of the input, its weights and bias row are the whole arrays, and what it
  writes back is those rows of the layer; the 25 tiles cover the 50000 rows.
-/
import proofs.«113219_j18691697672631_1_alg».proof.Proof.KI.Linear8
import proofs.«113219_j18691697672631_1_alg».proof.Proof.KIV.TileCast
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable [Cert.ReferenceIdeal.Facts₀]

/-- The block index maps over the grid: the tile's and the output's block is the point's, the weights' and the row's the
    one block there is. -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

theorem hz8 : (![0, 0] : Fin 2 → Nat) = fun _ => 0 := funext fun a => by fin_cases a <;> rfl

section Blocks

variable {F : FTy → Type} [FloatOps F] [Named F]
variable (V : (c : Dev nD) → (b : Ref sig .tc) → Buf (Elt F) ((c : Thread nD τ).loc b))

/-- Point t's tile is rows 2000 t to 2000 t + 1999 of the input array. -/
theorem iblk8_0_apply (c : Dev nD) (t : Fin cfg8.N) (p : Fin 2000) (k : Fin 128) (r : Fin 50000) (hr : r.val = 2000 * t.val + p.val) :
    (iblk8 V c 0 t : S2000x128.Idx → Elt F .f32) (ix2 p k) = (V c (Pipeline.arrRef spec8 0) : S50000x128.Idx → Elt F .f32) (ix2 r k) := by
  obtain ⟨e0, e1, -⟩ := idx_facts8 t
  unfold iblk8
  rw [View.read_apply]
  refine congrArg (V c (Pipeline.arrRef spec8 0) : S50000x128.Idx → Elt F .f32) (funext fun a => Fin.ext ?_)
  match a with
  | ⟨0, _⟩ => show win8_0.index t (0 : Fin 2) * 2000 + 1 * p.val = r.val; rw [e0, hr]; omega
  | ⟨1, _⟩ => show win8_0.index t (1 : Fin 2) * 128 + 1 * k.val = k.val; rw [e1]; omega

/-- Every point's weights block is the whole weights array. -/
theorem iblk8_1_eq (c : Dev nD) (t : Fin cfg8.N) :
    (iblk8 V c 1 t : S128x128.Idx → Elt F .f32) = (V c (Pipeline.arrRef spec8 1) : S128x128.Idx → Elt F .f32) := by
  obtain ⟨-, -, e0, e1, -⟩ := idx_facts8 t
  funext x
  unfold iblk8
  rw [View.read_apply]
  refine congrArg (V c (Pipeline.arrRef spec8 1) : S128x128.Idx → Elt F .f32) (funext fun a => Fin.ext ?_)
  match a with
  | ⟨0, _⟩ => show win8_1.index t (0 : Fin 2) * 128 + 1 * (x 0).val = (x 0).val; rw [e0]; omega
  | ⟨1, _⟩ => show win8_1.index t (1 : Fin 2) * 128 + 1 * (x 1).val = (x 1).val; rw [e1]; omega

/-- Every point's bias block is the whole bias row. -/
theorem iblk8_2_eq (c : Dev nD) (t : Fin cfg8.N) :
    (iblk8 V c 2 t : S1x128.Idx → Elt F .f32) = (V c (Pipeline.arrRef spec8 2) : S1x128.Idx → Elt F .f32) := by
  obtain ⟨-, -, -, -, e0, e1, -⟩ := idx_facts8 t
  funext x
  unfold iblk8
  rw [View.read_apply]
  refine congrArg (V c (Pipeline.arrRef spec8 2) : S1x128.Idx → Elt F .f32) (funext fun a => Fin.ext ?_)
  match a with
  | ⟨0, _⟩ => show win8_2.index t (0 : Fin 2) * 1 + 1 * (x 0).val = (x 0).val; rw [e0]; omega
  | ⟨1, _⟩ => show win8_2.index t (1 : Fin 2) * 128 + 1 * (x 1).val = (x 1).val; rw [e1]; omega

end Blocks

variable (V : (c : Dev nD) → (b : Ref sig .tc) → Buf (Elt Ideal) ((c : Thread nD τ).loc b))

/-- Where entry (p, q) of point t's output block sits in the output array: row 2000 t + p, column q. -/
theorem emb8_3 (t : Fin cfg8.N) (p : Fin 2000) (q : Fin 128) (r : Fin 50000) (hr : r.val = 2000 * t.val + p.val) :
    (((cfg8.win 3).blk t).view.emb (ix2 p q) : S50000x128.Idx) = ix2 r q := by
  obtain ⟨-, -, -, -, -, -, e0, e1⟩ := idx_facts8 t
  refine funext fun a => Fin.ext ?_
  match a with
  | ⟨0, _⟩ => show win8_3.index t (0 : Fin 2) * 2000 + 1 * p.val = r.val; rw [e0, hr]; omega
  | ⟨1, _⟩ => show win8_3.index t (1 : Fin 2) * 128 + 1 * q.val = q.val; rw [e1]; omega

/-- What point t writes back is its block of the affine layer of the arrays the region was entered with. -/
theorem flushed8_eq (c : Dev nD) (t : Fin cfg8.N) :
    (dat8 (F := Ideal) V c).flushed 3 t = ((cfg8.win 3).blk t).view.read (Elt Ideal)
      (Cert.Spec.linRow (F := Ideal) (V c (Pipeline.arrRef spec8 0)) (V c (Pipeline.arrRef spec8 1)) (V c (Pipeline.arrRef spec8 2))) := by
  show (cfg8.win 3).cut (grid8.coords t) ((dat8 V c).after 3 t) = _
  rw [after8_3]
  unfold out8_3
  rw [View.canon_unit_zero hz8]
  simp only [View.ld_unit_zero (S := S2000x128) hz8, View.ld_unit_zero (S := S128x128) hz8, View.ld_unit_zero (S := S1x128) hz8]
  refine funext fun (j : S2000x128.Idx) => ?_
  obtain ⟨p, q, rfl⟩ : ∃ (p : Fin 2000) (q : Fin 128), j = ix2 p q := ⟨j 0, j 1, eq_ix2 j⟩
  have ht : t.val < 25 := Nat.lt_of_lt_of_eq t.isLt (N_8 : cfg8.N = 25)
  have hp : p.val < 2000 := p.isLt
  have e := emb8_3 t p q ⟨2000 * t.val + p.val, by omega⟩ rfl
  show linTile (shapeCast S2000x128 (iblk8 V c 0 t) shapeCasts_S2000x128_S2000x128) (iblk8 V c 1 t) (iblk8 V c 2 t) (ix2 p q) = Cert.Spec.linRow (F := Ideal) _ _ _ (((cfg8.win 3).blk t).view.emb (ix2 p q))
  rw [e]
  exact linTile_cast_eq_linRow _ _ _ _ _ _ p q _ (fun k => iblk8_0_apply V c t p k _ rfl) (iblk8_1_eq V c t) (iblk8_2_eq V c t)

/-- Every row of the output array is in some point's block: row r in point r / 2000's. -/
theorem cover8 (i : S50000x128.Idx) : ∃ t : Fin cfg8.N, (cfg8.win 3).flush t = true ∧ i ∈ ((cfg8.win 3).blk t).view.set := by
  have hi0 : (i 0).val < 50000 := (i 0).isLt
  have hi1 : (i 1).val < 128 := (i 1).isLt
  have hN : cfg8.N = 25 := N_8
  have hlt : (i 0).val / 2000 < cfg8.N := by rw [hN]; omega
  obtain ⟨-, -, -, -, -, -, e0, e1⟩ := idx_facts8 ⟨(i 0).val / 2000, hlt⟩
  have e0' : win8_3.index ⟨(i 0).val / 2000, hlt⟩ (0 : Fin 2) = (i 0).val / 2000 := e0
  refine ⟨⟨(i 0).val / 2000, hlt⟩, flush8_3 _, ?_⟩
  show i ∈ ((View.whole main_v112).slice (win8_3.rect ⟨(i 0).val / 2000, hlt⟩)).set
  rw [View.set_slice_whole, Rect.mem_set_unit]
  intro a
  match a with
  | ⟨0, _⟩ =>
    show win8_3.index ⟨(i 0).val / 2000, hlt⟩ (0 : Fin 2) * 2000 ≤ (i 0).val ∧ (i 0).val < win8_3.index ⟨(i 0).val / 2000, hlt⟩ (0 : Fin 2) * 2000 + 2000
    rw [e0']; omega
  | ⟨1, _⟩ =>
    show win8_3.index ⟨(i 0).val / 2000, hlt⟩ (1 : Fin 2) * 128 ≤ (i 1).val ∧ (i 1).val < win8_3.index ⟨(i 0).val / 2000, hlt⟩ (1 : Fin 2) * 128 + 128
    rw [e1]; omega

/-- THE VALUE of region 8: its output array ends at the affine layer of the arrays it was entered with. -/
theorem value8 (c : Dev nD) :
    (dat8 (F := Ideal) V c).arrAt 3 cfg8.N
      = Cert.Spec.linRow (F := Ideal) (V c (Pipeline.arrRef spec8 0)) (V c (Pipeline.arrRef spec8 1)) (V c (Pipeline.arrRef spec8 2)) :=
  (dat8 (F := Ideal) V c).arrAt_eq_of_cover 3 _ (fun t _ => flushed8_eq V c t) cover8

end Cert.KernelIdeal.Hand

end
-- ==== Proof.KIV.PreluLinear9Value.lean ====
/-
  Region 9 of the idealized kernel program, as one function of the arrays it is entered with: when the region ends its
  output array holds the affine layer of the parametric rectifier of its input array, prelu(z, a) W + b at every row.
  Point t of the grid of 25 computes rows 2000 t to 2000 t + 1999: its tile is those rows of the input, its slope row,
  weights and bias row are the whole arrays, and what it writes back is those rows of the result; the 25 tiles cover the
  50000 rows.
-/
import proofs.«113219_j18691697672631_1_alg».proof.Proof.KI.PreluLinear9
import proofs.«113219_j18691697672631_1_alg».proof.Proof.KIV.TileSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable [Cert.ReferenceIdeal.Facts₀]

/-- The block index maps over the grid: the tile's and the output's block is the point's, the slope row's, the weights'
    and the bias row's the one block there is. -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

theorem hz9 : (![0, 0] : Fin 2 → Nat) = fun _ => 0 := funext fun a => by fin_cases a <;> rfl

section Blocks

variable {F : FTy → Type} [FloatOps F] [Named F]
variable (V : (c : Dev nD) → (b : Ref sig .tc) → Buf (Elt F) ((c : Thread nD τ).loc b))

/-- Point t's tile is rows 2000 t to 2000 t + 1999 of the input array. -/
theorem iblk9_0_apply (c : Dev nD) (t : Fin cfg9.N) (p : Fin 2000) (k : Fin 128) (r : Fin 50000) (hr : r.val = 2000 * t.val + p.val) :
    (iblk9 V c 0 t : S2000x128.Idx → Elt F .f32) (ix2 p k) = (V c (Pipeline.arrRef spec9 0) : S50000x128.Idx → Elt F .f32) (ix2 r k) := by
  obtain ⟨e0, e1, -⟩ := idx_facts9 t
  unfold iblk9
  rw [View.read_apply]
  refine congrArg (V c (Pipeline.arrRef spec9 0) : S50000x128.Idx → Elt F .f32) (funext fun a => Fin.ext ?_)
  match a with
  | ⟨0, _⟩ => show win9_0.index t (0 : Fin 2) * 2000 + 1 * p.val = r.val; rw [e0, hr]; omega
  | ⟨1, _⟩ => show win9_0.index t (1 : Fin 2) * 128 + 1 * k.val = k.val; rw [e1]; omega

/-- Every point's slope block is the whole slope row. -/
theorem iblk9_1_eq (c : Dev nD) (t : Fin cfg9.N) :
    (iblk9 V c 1 t : S1x128.Idx → Elt F .f32) = (V c (Pipeline.arrRef spec9 1) : S1x128.Idx → Elt F .f32) := by
  obtain ⟨-, -, e0, e1, -⟩ := idx_facts9 t
  funext x
  unfold iblk9
  rw [View.read_apply]
  refine congrArg (V c (Pipeline.arrRef spec9 1) : S1x128.Idx → Elt F .f32) (funext fun a => Fin.ext ?_)
  match a with
  | ⟨0, _⟩ => show win9_1.index t (0 : Fin 2) * 1 + 1 * (x 0).val = (x 0).val; rw [e0]; omega
  | ⟨1, _⟩ => show win9_1.index t (1 : Fin 2) * 128 + 1 * (x 1).val = (x 1).val; rw [e1]; omega

/-- Every point's weights block is the whole weights array. -/
theorem iblk9_2_eq (c : Dev nD) (t : Fin cfg9.N) :
    (iblk9 V c 2 t : S128x128.Idx → Elt F .f32) = (V c (Pipeline.arrRef spec9 2) : S128x128.Idx → Elt F .f32) := by
  obtain ⟨-, -, -, -, e0, e1, -⟩ := idx_facts9 t
  funext x
  unfold iblk9
  rw [View.read_apply]
  refine congrArg (V c (Pipeline.arrRef spec9 2) : S128x128.Idx → Elt F .f32) (funext fun a => Fin.ext ?_)
  match a with
  | ⟨0, _⟩ => show win9_2.index t (0 : Fin 2) * 128 + 1 * (x 0).val = (x 0).val; rw [e0]; omega
  | ⟨1, _⟩ => show win9_2.index t (1 : Fin 2) * 128 + 1 * (x 1).val = (x 1).val; rw [e1]; omega

/-- Every point's bias block is the whole bias row. -/
theorem iblk9_3_eq (c : Dev nD) (t : Fin cfg9.N) :
    (iblk9 V c 3 t : S1x128.Idx → Elt F .f32) = (V c (Pipeline.arrRef spec9 3) : S1x128.Idx → Elt F .f32) := by
  obtain ⟨-, -, -, -, -, -, e0, e1, -⟩ := idx_facts9 t
  funext x
  unfold iblk9
  rw [View.read_apply]
  refine congrArg (V c (Pipeline.arrRef spec9 3) : S1x128.Idx → Elt F .f32) (funext fun a => Fin.ext ?_)
  match a with
  | ⟨0, _⟩ => show win9_3.index t (0 : Fin 2) * 1 + 1 * (x 0).val = (x 0).val; rw [e0]; omega
  | ⟨1, _⟩ => show win9_3.index t (1 : Fin 2) * 128 + 1 * (x 1).val = (x 1).val; rw [e1]; omega

end Blocks

variable (V : (c : Dev nD) → (b : Ref sig .tc) → Buf (Elt Ideal) ((c : Thread nD τ).loc b))

/-- Where entry (p, q) of point t's output block sits in the output array: row 2000 t + p, column q. -/
theorem emb9_4 (t : Fin cfg9.N) (p : Fin 2000) (q : Fin 128) (r : Fin 50000) (hr : r.val = 2000 * t.val + p.val) :
    (((cfg9.win 4).blk t).view.emb (ix2 p q) : S50000x128.Idx) = ix2 r q := by
  obtain ⟨-, -, -, -, -, -, -, -, e0, e1⟩ := idx_facts9 t
  refine funext fun a => Fin.ext ?_
  match a with
  | ⟨0, _⟩ => show win9_4.index t (0 : Fin 2) * 2000 + 1 * p.val = r.val; rw [e0, hr]; omega
  | ⟨1, _⟩ => show win9_4.index t (1 : Fin 2) * 128 + 1 * q.val = q.val; rw [e1]; omega

/-- What point t writes back is its block of the affine layer of the rectifier of the arrays the region was entered with. -/
theorem flushed9_eq (c : Dev nD) (t : Fin cfg9.N) :
    (dat9 (F := Ideal) V c).flushed 4 t = ((cfg9.win 4).blk t).view.read (Elt Ideal)
      (Cert.Spec.linRow (F := Ideal)
        (Cert.Spec.preluRow (F := Ideal) (V c (Pipeline.arrRef spec9 0)) (V c (Pipeline.arrRef spec9 1)))
        (V c (Pipeline.arrRef spec9 2)) (V c (Pipeline.arrRef spec9 3))) := by
  show (cfg9.win 4).cut (grid9.coords t) ((dat9 V c).after 4 t) = _
  rw [after9_4]
  unfold out9_4
  rw [View.canon_unit_zero hz9]
  simp only [View.ld_unit_zero (S := S2000x128) hz9, View.ld_unit_zero (S := S128x128) hz9, View.ld_unit_zero (S := S1x128) hz9]
  refine funext fun (j : S2000x128.Idx) => ?_
  obtain ⟨p, q, rfl⟩ : ∃ (p : Fin 2000) (q : Fin 128), j = ix2 p q := ⟨j 0, j 1, eq_ix2 j⟩
  have ht : t.val < 25 := Nat.lt_of_lt_of_eq t.isLt (N_9 : cfg9.N = 25)
  have hp : p.val < 2000 := p.isLt
  have e := emb9_4 t p q ⟨2000 * t.val + p.val, by omega⟩ rfl
  show linTile (preluTile (iblk9 V c 0 t) (iblk9 V c 1 t)) (iblk9 V c 2 t) (iblk9 V c 3 t) (ix2 p q)
    = Cert.Spec.linRow (F := Ideal) (Cert.Spec.preluRow (F := Ideal) _ _) _ _ (((cfg9.win 4).blk t).view.emb (ix2 p q))
  rw [e]
  exact linTile_preluTile_eq _ _ _ _ _ _ _ _ p q _ (fun k => iblk9_0_apply V c t p k _ rfl) (iblk9_1_eq V c t) (iblk9_2_eq V c t) (iblk9_3_eq V c t)

/-- Every row of the output array is in some point's block: row r in point r / 2000's. -/
theorem cover9 (i : S50000x128.Idx) : ∃ t : Fin cfg9.N, (cfg9.win 4).flush t = true ∧ i ∈ ((cfg9.win 4).blk t).view.set := by
  have hi0 : (i 0).val < 50000 := (i 0).isLt
  have hi1 : (i 1).val < 128 := (i 1).isLt
  have hN : cfg9.N = 25 := N_9
  have hlt : (i 0).val / 2000 < cfg9.N := by rw [hN]; omega
  obtain ⟨-, -, -, -, -, -, -, -, e0, e1⟩ := idx_facts9 ⟨(i 0).val / 2000, hlt⟩
  have e0' : win9_4.index ⟨(i 0).val / 2000, hlt⟩ (0 : Fin 2) = (i 0).val / 2000 := e0
  refine ⟨⟨(i 0).val / 2000, hlt⟩, flush9_4 _, ?_⟩
  show i ∈ ((View.whole main_v128).slice (win9_4.rect ⟨(i 0).val / 2000, hlt⟩)).set
  rw [View.set_slice_whole, Rect.mem_set_unit]
  intro a
  match a with
  | ⟨0, _⟩ =>
    show win9_4.index ⟨(i 0).val / 2000, hlt⟩ (0 : Fin 2) * 2000 ≤ (i 0).val ∧ (i 0).val < win9_4.index ⟨(i 0).val / 2000, hlt⟩ (0 : Fin 2) * 2000 + 2000
    rw [e0']; omega
  | ⟨1, _⟩ =>
    show win9_4.index ⟨(i 0).val / 2000, hlt⟩ (1 : Fin 2) * 128 ≤ (i 1).val ∧ (i 1).val < win9_4.index ⟨(i 0).val / 2000, hlt⟩ (1 : Fin 2) * 128 + 128
    rw [e1]; omega

/-- THE VALUE of region 9: its output array ends at the affine layer of the rectifier of the arrays it was entered with. -/
theorem value9 (c : Dev nD) :
    (dat9 (F := Ideal) V c).arrAt 4 cfg9.N
      = Cert.Spec.linRow (F := Ideal)
          (Cert.Spec.preluRow (F := Ideal) (V c (Pipeline.arrRef spec9 0)) (V c (Pipeline.arrRef spec9 1)))
          (V c (Pipeline.arrRef spec9 2)) (V c (Pipeline.arrRef spec9 3)) :=
  (dat9 (F := Ideal) V c).arrAt_eq_of_cover 4 _ (fun t _ => flushed9_eq V c t) cover9

end Cert.KernelIdeal.Hand

end
-- ==== Proof.KIV.Prelu10Value.lean ====
/-
  Region 10 of the idealized kernel program, as one function of the arrays it is entered with: when the region ends its
  output array holds the parametric rectifier of its input array, z where z is at least zero and the slope times z
  elsewhere. Point t of the grid of 25 computes rows 2000 t to 2000 t + 1999: its tile is those rows of the input, its
  slope row is the whole row, and what it writes back is those rows of the rectifier; the 25 tiles cover the 50000 rows.
-/
import proofs.«113219_j18691697672631_1_alg».proof.Proof.KI.Prelu10
import proofs.«113219_j18691697672631_1_alg».proof.Proof.KIV.TileSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable [Cert.ReferenceIdeal.Facts₀]

/-- The block index maps over the grid: the tile's and the output's block is the point's, the slope row's the one block
    there is. -/
theorem idx_facts10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

theorem hz10 : (![0, 0] : Fin 2 → Nat) = fun _ => 0 := funext fun a => by fin_cases a <;> rfl

section Blocks

variable {F : FTy → Type} [FloatOps F] [Named F]
variable (V : (c : Dev nD) → (b : Ref sig .tc) → Buf (Elt F) ((c : Thread nD τ).loc b))

/-- Point t's tile is rows 2000 t to 2000 t + 1999 of the input array. -/
theorem iblk10_0_apply (c : Dev nD) (t : Fin cfg10.N) (p : Fin 2000) (k : Fin 128) (r : Fin 50000) (hr : r.val = 2000 * t.val + p.val) :
    (iblk10 V c 0 t : S2000x128.Idx → Elt F .f32) (ix2 p k) = (V c (Pipeline.arrRef spec10 0) : S50000x128.Idx → Elt F .f32) (ix2 r k) := by
  obtain ⟨e0, e1, -⟩ := idx_facts10 t
  unfold iblk10
  rw [View.read_apply]
  refine congrArg (V c (Pipeline.arrRef spec10 0) : S50000x128.Idx → Elt F .f32) (funext fun a => Fin.ext ?_)
  match a with
  | ⟨0, _⟩ => show win10_0.index t (0 : Fin 2) * 2000 + 1 * p.val = r.val; rw [e0, hr]; omega
  | ⟨1, _⟩ => show win10_0.index t (1 : Fin 2) * 128 + 1 * k.val = k.val; rw [e1]; omega

/-- Every point's slope block is the whole slope row. -/
theorem iblk10_1_eq (c : Dev nD) (t : Fin cfg10.N) :
    (iblk10 V c 1 t : S1x128.Idx → Elt F .f32) = (V c (Pipeline.arrRef spec10 1) : S1x128.Idx → Elt F .f32) := by
  obtain ⟨-, -, e0, e1, -⟩ := idx_facts10 t
  funext x
  unfold iblk10
  rw [View.read_apply]
  refine congrArg (V c (Pipeline.arrRef spec10 1) : S1x128.Idx → Elt F .f32) (funext fun a => Fin.ext ?_)
  match a with
  | ⟨0, _⟩ => show win10_1.index t (0 : Fin 2) * 1 + 1 * (x 0).val = (x 0).val; rw [e0]; omega
  | ⟨1, _⟩ => show win10_1.index t (1 : Fin 2) * 128 + 1 * (x 1).val = (x 1).val; rw [e1]; omega

end Blocks

variable (V : (c : Dev nD) → (b : Ref sig .tc) → Buf (Elt Ideal) ((c : Thread nD τ).loc b))

/-- Where entry (p, q) of point t's output block sits in the output array: row 2000 t + p, column q. -/
theorem emb10_2 (t : Fin cfg10.N) (p : Fin 2000) (q : Fin 128) (r : Fin 50000) (hr : r.val = 2000 * t.val + p.val) :
    (((cfg10.win 2).blk t).view.emb (ix2 p q) : S50000x128.Idx) = ix2 r q := by
  obtain ⟨-, -, -, -, e0, e1⟩ := idx_facts10 t
  refine funext fun a => Fin.ext ?_
  match a with
  | ⟨0, _⟩ => show win10_2.index t (0 : Fin 2) * 2000 + 1 * p.val = r.val; rw [e0, hr]; omega
  | ⟨1, _⟩ => show win10_2.index t (1 : Fin 2) * 128 + 1 * q.val = q.val; rw [e1]; omega

/-- What point t writes back is its block of the rectifier of the arrays the region was entered with. -/
theorem flushed10_eq (c : Dev nD) (t : Fin cfg10.N) :
    (dat10 (F := Ideal) V c).flushed 2 t = ((cfg10.win 2).blk t).view.read (Elt Ideal)
      (Cert.Spec.preluRow (F := Ideal) (V c (Pipeline.arrRef spec10 0)) (V c (Pipeline.arrRef spec10 1))) := by
  show (cfg10.win 2).cut (grid10.coords t) ((dat10 V c).after 2 t) = _
  rw [after10_2]
  unfold out10_2
  rw [View.canon_unit_zero hz10]
  simp only [View.ld_unit_zero (S := S2000x128) hz10, View.ld_unit_zero (S := S1x128) hz10]
  refine funext fun (j : S2000x128.Idx) => ?_
  obtain ⟨p, q, rfl⟩ : ∃ (p : Fin 2000) (q : Fin 128), j = ix2 p q := ⟨j 0, j 1, eq_ix2 j⟩
  have ht : t.val < 25 := Nat.lt_of_lt_of_eq t.isLt (N_10 : cfg10.N = 25)
  have hp : p.val < 2000 := p.isLt
  have e := emb10_2 t p q ⟨2000 * t.val + p.val, by omega⟩ rfl
  show preluTile (iblk10 V c 0 t) (iblk10 V c 1 t) (ix2 p q) = Cert.Spec.preluRow (F := Ideal) _ _ (((cfg10.win 2).blk t).view.emb (ix2 p q))
  rw [e]
  exact preluTile_eq_preluRow _ _ _ _ p q _ (iblk10_0_apply V c t p q _ rfl) (iblk10_1_eq V c t)

/-- Every row of the output array is in some point's block: row r in point r / 2000's. -/
theorem cover10 (i : S50000x128.Idx) : ∃ t : Fin cfg10.N, (cfg10.win 2).flush t = true ∧ i ∈ ((cfg10.win 2).blk t).view.set := by
  have hi0 : (i 0).val < 50000 := (i 0).isLt
  have hi1 : (i 1).val < 128 := (i 1).isLt
  have hN : cfg10.N = 25 := N_10
  have hlt : (i 0).val / 2000 < cfg10.N := by rw [hN]; omega
  obtain ⟨-, -, -, -, e0, e1⟩ := idx_facts10 ⟨(i 0).val / 2000, hlt⟩
  have e0' : win10_2.index ⟨(i 0).val / 2000, hlt⟩ (0 : Fin 2) = (i 0).val / 2000 := e0
  refine ⟨⟨(i 0).val / 2000, hlt⟩, flush10_2 _, ?_⟩
  show i ∈ ((View.whole main_v143).slice (win10_2.rect ⟨(i 0).val / 2000, hlt⟩)).set
  rw [View.set_slice_whole, Rect.mem_set_unit]
  intro a
  match a with
  | ⟨0, _⟩ =>
    show win10_2.index ⟨(i 0).val / 2000, hlt⟩ (0 : Fin 2) * 2000 ≤ (i 0).val ∧ (i 0).val < win10_2.index ⟨(i 0).val / 2000, hlt⟩ (0 : Fin 2) * 2000 + 2000
    rw [e0']; omega
  | ⟨1, _⟩ =>
    show win10_2.index ⟨(i 0).val / 2000, hlt⟩ (1 : Fin 2) * 128 ≤ (i 1).val ∧ (i 1).val < win10_2.index ⟨(i 0).val / 2000, hlt⟩ (1 : Fin 2) * 128 + 128
    rw [e1]; omega

/-- THE VALUE of region 10: its output array ends at the rectifier of the arrays it was entered with. -/
theorem value10 (c : Dev nD) :
    (dat10 (F := Ideal) V c).arrAt 2 cfg10.N
      = Cert.Spec.preluRow (F := Ideal) (V c (Pipeline.arrRef spec10 0)) (V c (Pipeline.arrRef spec10 1)) :=
  (dat10 (F := Ideal) V c).arrAt_eq_of_cover 2 _ (fun t _ => flushed10_eq V c t) cover10

end Cert.KernelIdeal.Hand

end
-- ==== Proof.KIV.Linear11Value.lean ====
/-
  Region 11 of the idealized kernel program, as one function of the arrays it is entered with: when the region ends its
  output array holds the affine layer of its input array, x W + b at every row. Point t of the grid of 25 computes rows
  2000 t to 2000 t + 1999: its tile is those rows of the input, its weights and bias row are the whole arrays, and what it
  writes back is those rows of the layer; the 25 tiles cover the 50000 rows.
-/
import proofs.«113219_j18691697672631_1_alg».proof.Proof.KI.Linear11
import proofs.«113219_j18691697672631_1_alg».proof.Proof.KIV.TileCast
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable [Cert.ReferenceIdeal.Facts₀]

/-- The block index maps over the grid: the tile's and the output's block is the point's, the weights' and the row's the
    one block there is. -/
theorem idx_facts11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

theorem hz11 : (![0, 0] : Fin 2 → Nat) = fun _ => 0 := funext fun a => by fin_cases a <;> rfl

section Blocks

variable {F : FTy → Type} [FloatOps F] [Named F]
variable (V : (c : Dev nD) → (b : Ref sig .tc) → Buf (Elt F) ((c : Thread nD τ).loc b))

/-- Point t's tile is rows 2000 t to 2000 t + 1999 of the input array. -/
theorem iblk11_0_apply (c : Dev nD) (t : Fin cfg11.N) (p : Fin 2000) (k : Fin 128) (r : Fin 50000) (hr : r.val = 2000 * t.val + p.val) :
    (iblk11 V c 0 t : S2000x128.Idx → Elt F .f32) (ix2 p k) = (V c (Pipeline.arrRef spec11 0) : S50000x128.Idx → Elt F .f32) (ix2 r k) := by
  obtain ⟨e0, e1, -⟩ := idx_facts11 t
  unfold iblk11
  rw [View.read_apply]
  refine congrArg (V c (Pipeline.arrRef spec11 0) : S50000x128.Idx → Elt F .f32) (funext fun a => Fin.ext ?_)
  match a with
  | ⟨0, _⟩ => show win11_0.index t (0 : Fin 2) * 2000 + 1 * p.val = r.val; rw [e0, hr]; omega
  | ⟨1, _⟩ => show win11_0.index t (1 : Fin 2) * 128 + 1 * k.val = k.val; rw [e1]; omega

/-- Every point's weights block is the whole weights array. -/
theorem iblk11_1_eq (c : Dev nD) (t : Fin cfg11.N) :
    (iblk11 V c 1 t : S128x128.Idx → Elt F .f32) = (V c (Pipeline.arrRef spec11 1) : S128x128.Idx → Elt F .f32) := by
  obtain ⟨-, -, e0, e1, -⟩ := idx_facts11 t
  funext x
  unfold iblk11
  rw [View.read_apply]
  refine congrArg (V c (Pipeline.arrRef spec11 1) : S128x128.Idx → Elt F .f32) (funext fun a => Fin.ext ?_)
  match a with
  | ⟨0, _⟩ => show win11_1.index t (0 : Fin 2) * 128 + 1 * (x 0).val = (x 0).val; rw [e0]; omega
  | ⟨1, _⟩ => show win11_1.index t (1 : Fin 2) * 128 + 1 * (x 1).val = (x 1).val; rw [e1]; omega

/-- Every point's bias block is the whole bias row. -/
theorem iblk11_2_eq (c : Dev nD) (t : Fin cfg11.N) :
    (iblk11 V c 2 t : S1x128.Idx → Elt F .f32) = (V c (Pipeline.arrRef spec11 2) : S1x128.Idx → Elt F .f32) := by
  obtain ⟨-, -, -, -, e0, e1, -⟩ := idx_facts11 t
  funext x
  unfold iblk11
  rw [View.read_apply]
  refine congrArg (V c (Pipeline.arrRef spec11 2) : S1x128.Idx → Elt F .f32) (funext fun a => Fin.ext ?_)
  match a with
  | ⟨0, _⟩ => show win11_2.index t (0 : Fin 2) * 1 + 1 * (x 0).val = (x 0).val; rw [e0]; omega
  | ⟨1, _⟩ => show win11_2.index t (1 : Fin 2) * 128 + 1 * (x 1).val = (x 1).val; rw [e1]; omega

end Blocks

variable (V : (c : Dev nD) → (b : Ref sig .tc) → Buf (Elt Ideal) ((c : Thread nD τ).loc b))

/-- Where entry (p, q) of point t's output block sits in the output array: row 2000 t + p, column q. -/
theorem emb11_3 (t : Fin cfg11.N) (p : Fin 2000) (q : Fin 128) (r : Fin 50000) (hr : r.val = 2000 * t.val + p.val) :
    (((cfg11.win 3).blk t).view.emb (ix2 p q) : S50000x128.Idx) = ix2 r q := by
  obtain ⟨-, -, -, -, -, -, e0, e1⟩ := idx_facts11 t
  refine funext fun a => Fin.ext ?_
  match a with
  | ⟨0, _⟩ => show win11_3.index t (0 : Fin 2) * 2000 + 1 * p.val = r.val; rw [e0, hr]; omega
  | ⟨1, _⟩ => show win11_3.index t (1 : Fin 2) * 128 + 1 * q.val = q.val; rw [e1]; omega

/-- What point t writes back is its block of the affine layer of the arrays the region was entered with. -/
theorem flushed11_eq (c : Dev nD) (t : Fin cfg11.N) :
    (dat11 (F := Ideal) V c).flushed 3 t = ((cfg11.win 3).blk t).view.read (Elt Ideal)
      (Cert.Spec.linRow (F := Ideal) (V c (Pipeline.arrRef spec11 0)) (V c (Pipeline.arrRef spec11 1)) (V c (Pipeline.arrRef spec11 2))) := by
  show (cfg11.win 3).cut (grid11.coords t) ((dat11 V c).after 3 t) = _
  rw [after11_3]
  unfold out11_3
  rw [View.canon_unit_zero hz11]
  simp only [View.ld_unit_zero (S := S2000x128) hz11, View.ld_unit_zero (S := S128x128) hz11, View.ld_unit_zero (S := S1x128) hz11]
  refine funext fun (j : S2000x128.Idx) => ?_
  obtain ⟨p, q, rfl⟩ : ∃ (p : Fin 2000) (q : Fin 128), j = ix2 p q := ⟨j 0, j 1, eq_ix2 j⟩
  have ht : t.val < 25 := Nat.lt_of_lt_of_eq t.isLt (N_11 : cfg11.N = 25)
  have hp : p.val < 2000 := p.isLt
  have e := emb11_3 t p q ⟨2000 * t.val + p.val, by omega⟩ rfl
  show linTile (shapeCast S2000x128 (iblk11 V c 0 t) shapeCasts_S2000x128_S2000x128) (iblk11 V c 1 t) (iblk11 V c 2 t) (ix2 p q) = Cert.Spec.linRow (F := Ideal) _ _ _ (((cfg11.win 3).blk t).view.emb (ix2 p q))
  rw [e]
  exact linTile_cast_eq_linRow _ _ _ _ _ _ p q _ (fun k => iblk11_0_apply V c t p k _ rfl) (iblk11_1_eq V c t) (iblk11_2_eq V c t)

/-- Every row of the output array is in some point's block: row r in point r / 2000's. -/
theorem cover11 (i : S50000x128.Idx) : ∃ t : Fin cfg11.N, (cfg11.win 3).flush t = true ∧ i ∈ ((cfg11.win 3).blk t).view.set := by
  have hi0 : (i 0).val < 50000 := (i 0).isLt
  have hi1 : (i 1).val < 128 := (i 1).isLt
  have hN : cfg11.N = 25 := N_11
  have hlt : (i 0).val / 2000 < cfg11.N := by rw [hN]; omega
  obtain ⟨-, -, -, -, -, -, e0, e1⟩ := idx_facts11 ⟨(i 0).val / 2000, hlt⟩
  have e0' : win11_3.index ⟨(i 0).val / 2000, hlt⟩ (0 : Fin 2) = (i 0).val / 2000 := e0
  refine ⟨⟨(i 0).val / 2000, hlt⟩, flush11_3 _, ?_⟩
  show i ∈ ((View.whole main_v145).slice (win11_3.rect ⟨(i 0).val / 2000, hlt⟩)).set
  rw [View.set_slice_whole, Rect.mem_set_unit]
  intro a
  match a with
  | ⟨0, _⟩ =>
    show win11_3.index ⟨(i 0).val / 2000, hlt⟩ (0 : Fin 2) * 2000 ≤ (i 0).val ∧ (i 0).val < win11_3.index ⟨(i 0).val / 2000, hlt⟩ (0 : Fin 2) * 2000 + 2000
    rw [e0']; omega
  | ⟨1, _⟩ =>
    show win11_3.index ⟨(i 0).val / 2000, hlt⟩ (1 : Fin 2) * 128 ≤ (i 1).val ∧ (i 1).val < win11_3.index ⟨(i 0).val / 2000, hlt⟩ (1 : Fin 2) * 128 + 128
    rw [e1]; omega

/-- THE VALUE of region 11: its output array ends at the affine layer of the arrays it was entered with. -/
theorem value11 (c : Dev nD) :
    (dat11 (F := Ideal) V c).arrAt 3 cfg11.N
      = Cert.Spec.linRow (F := Ideal) (V c (Pipeline.arrRef spec11 0)) (V c (Pipeline.arrRef spec11 1)) (V c (Pipeline.arrRef spec11 2)) :=
  (dat11 (F := Ideal) V c).arrAt_eq_of_cover 3 _ (fun t _ => flushed11_eq V c t) cover11

end Cert.KernelIdeal.Hand

end
-- ==== Proof.KIV.PreluLinear12Value.lean ====
/-
  Region 12 of the idealized kernel program, as one function of the arrays it is entered with: when the region ends its
  output array holds the affine layer of the parametric rectifier of its input array, prelu(z, a) W + b at every row.
  Point t of the grid of 25 computes rows 2000 t to 2000 t + 1999: its tile is those rows of the input, its slope row,
  weights and bias row are the whole arrays, and what it writes back is those rows of the result; the 25 tiles cover the
  50000 rows.
-/
import proofs.«113219_j18691697672631_1_alg».proof.Proof.KI.PreluLinear12
import proofs.«113219_j18691697672631_1_alg».proof.Proof.KIV.TileSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable [Cert.ReferenceIdeal.Facts₀]

/-- The block index maps over the grid: the tile's and the output's block is the point's, the slope row's, the weights'
    and the bias row's the one block there is. -/
theorem idx_facts12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = t.val ∧ win12_4.index t (1 : Fin 2) = 0 :=
  (by decide +kernel : ∀ t : Fin grid12.N, _)

theorem hz12 : (![0, 0] : Fin 2 → Nat) = fun _ => 0 := funext fun a => by fin_cases a <;> rfl

section Blocks

variable {F : FTy → Type} [FloatOps F] [Named F]
variable (V : (c : Dev nD) → (b : Ref sig .tc) → Buf (Elt F) ((c : Thread nD τ).loc b))

/-- Point t's tile is rows 2000 t to 2000 t + 1999 of the input array. -/
theorem iblk12_0_apply (c : Dev nD) (t : Fin cfg12.N) (p : Fin 2000) (k : Fin 128) (r : Fin 50000) (hr : r.val = 2000 * t.val + p.val) :
    (iblk12 V c 0 t : S2000x128.Idx → Elt F .f32) (ix2 p k) = (V c (Pipeline.arrRef spec12 0) : S50000x128.Idx → Elt F .f32) (ix2 r k) := by
  obtain ⟨e0, e1, -⟩ := idx_facts12 t
  unfold iblk12
  rw [View.read_apply]
  refine congrArg (V c (Pipeline.arrRef spec12 0) : S50000x128.Idx → Elt F .f32) (funext fun a => Fin.ext ?_)
  match a with
  | ⟨0, _⟩ => show win12_0.index t (0 : Fin 2) * 2000 + 1 * p.val = r.val; rw [e0, hr]; omega
  | ⟨1, _⟩ => show win12_0.index t (1 : Fin 2) * 128 + 1 * k.val = k.val; rw [e1]; omega

/-- Every point's slope block is the whole slope row. -/
theorem iblk12_1_eq (c : Dev nD) (t : Fin cfg12.N) :
    (iblk12 V c 1 t : S1x128.Idx → Elt F .f32) = (V c (Pipeline.arrRef spec12 1) : S1x128.Idx → Elt F .f32) := by
  obtain ⟨-, -, e0, e1, -⟩ := idx_facts12 t
  funext x
  unfold iblk12
  rw [View.read_apply]
  refine congrArg (V c (Pipeline.arrRef spec12 1) : S1x128.Idx → Elt F .f32) (funext fun a => Fin.ext ?_)
  match a with
  | ⟨0, _⟩ => show win12_1.index t (0 : Fin 2) * 1 + 1 * (x 0).val = (x 0).val; rw [e0]; omega
  | ⟨1, _⟩ => show win12_1.index t (1 : Fin 2) * 128 + 1 * (x 1).val = (x 1).val; rw [e1]; omega

/-- Every point's weights block is the whole weights array. -/
theorem iblk12_2_eq (c : Dev nD) (t : Fin cfg12.N) :
    (iblk12 V c 2 t : S128x128.Idx → Elt F .f32) = (V c (Pipeline.arrRef spec12 2) : S128x128.Idx → Elt F .f32) := by
  obtain ⟨-, -, -, -, e0, e1, -⟩ := idx_facts12 t
  funext x
  unfold iblk12
  rw [View.read_apply]
  refine congrArg (V c (Pipeline.arrRef spec12 2) : S128x128.Idx → Elt F .f32) (funext fun a => Fin.ext ?_)
  match a with
  | ⟨0, _⟩ => show win12_2.index t (0 : Fin 2) * 128 + 1 * (x 0).val = (x 0).val; rw [e0]; omega
  | ⟨1, _⟩ => show win12_2.index t (1 : Fin 2) * 128 + 1 * (x 1).val = (x 1).val; rw [e1]; omega

/-- Every point's bias block is the whole bias row. -/
theorem iblk12_3_eq (c : Dev nD) (t : Fin cfg12.N) :
    (iblk12 V c 3 t : S1x128.Idx → Elt F .f32) = (V c (Pipeline.arrRef spec12 3) : S1x128.Idx → Elt F .f32) := by
  obtain ⟨-, -, -, -, -, -, e0, e1, -⟩ := idx_facts12 t
  funext x
  unfold iblk12
  rw [View.read_apply]
  refine congrArg (V c (Pipeline.arrRef spec12 3) : S1x128.Idx → Elt F .f32) (funext fun a => Fin.ext ?_)
  match a with
  | ⟨0, _⟩ => show win12_3.index t (0 : Fin 2) * 1 + 1 * (x 0).val = (x 0).val; rw [e0]; omega
  | ⟨1, _⟩ => show win12_3.index t (1 : Fin 2) * 128 + 1 * (x 1).val = (x 1).val; rw [e1]; omega

end Blocks

variable (V : (c : Dev nD) → (b : Ref sig .tc) → Buf (Elt Ideal) ((c : Thread nD τ).loc b))

/-- Where entry (p, q) of point t's output block sits in the output array: row 2000 t + p, column q. -/
theorem emb12_4 (t : Fin cfg12.N) (p : Fin 2000) (q : Fin 128) (r : Fin 50000) (hr : r.val = 2000 * t.val + p.val) :
    (((cfg12.win 4).blk t).view.emb (ix2 p q) : S50000x128.Idx) = ix2 r q := by
  obtain ⟨-, -, -, -, -, -, -, -, e0, e1⟩ := idx_facts12 t
  refine funext fun a => Fin.ext ?_
  match a with
  | ⟨0, _⟩ => show win12_4.index t (0 : Fin 2) * 2000 + 1 * p.val = r.val; rw [e0, hr]; omega
  | ⟨1, _⟩ => show win12_4.index t (1 : Fin 2) * 128 + 1 * q.val = q.val; rw [e1]; omega

/-- What point t writes back is its block of the affine layer of the rectifier of the arrays the region was entered with. -/
theorem flushed12_eq (c : Dev nD) (t : Fin cfg12.N) :
    (dat12 (F := Ideal) V c).flushed 4 t = ((cfg12.win 4).blk t).view.read (Elt Ideal)
      (Cert.Spec.linRow (F := Ideal)
        (Cert.Spec.preluRow (F := Ideal) (V c (Pipeline.arrRef spec12 0)) (V c (Pipeline.arrRef spec12 1)))
        (V c (Pipeline.arrRef spec12 2)) (V c (Pipeline.arrRef spec12 3))) := by
  show (cfg12.win 4).cut (grid12.coords t) ((dat12 V c).after 4 t) = _
  rw [after12_4]
  unfold out12_4
  rw [View.canon_unit_zero hz12]
  simp only [View.ld_unit_zero (S := S2000x128) hz12, View.ld_unit_zero (S := S128x128) hz12, View.ld_unit_zero (S := S1x128) hz12]
  refine funext fun (j : S2000x128.Idx) => ?_
  obtain ⟨p, q, rfl⟩ : ∃ (p : Fin 2000) (q : Fin 128), j = ix2 p q := ⟨j 0, j 1, eq_ix2 j⟩
  have ht : t.val < 25 := Nat.lt_of_lt_of_eq t.isLt (N_12 : cfg12.N = 25)
  have hp : p.val < 2000 := p.isLt
  have e := emb12_4 t p q ⟨2000 * t.val + p.val, by omega⟩ rfl
  show linTile (preluTile (iblk12 V c 0 t) (iblk12 V c 1 t)) (iblk12 V c 2 t) (iblk12 V c 3 t) (ix2 p q)
    = Cert.Spec.linRow (F := Ideal) (Cert.Spec.preluRow (F := Ideal) _ _) _ _ (((cfg12.win 4).blk t).view.emb (ix2 p q))
  rw [e]
  exact linTile_preluTile_eq _ _ _ _ _ _ _ _ p q _ (fun k => iblk12_0_apply V c t p k _ rfl) (iblk12_1_eq V c t) (iblk12_2_eq V c t) (iblk12_3_eq V c t)

/-- Every row of the output array is in some point's block: row r in point r / 2000's. -/
theorem cover12 (i : S50000x128.Idx) : ∃ t : Fin cfg12.N, (cfg12.win 4).flush t = true ∧ i ∈ ((cfg12.win 4).blk t).view.set := by
  have hi0 : (i 0).val < 50000 := (i 0).isLt
  have hi1 : (i 1).val < 128 := (i 1).isLt
  have hN : cfg12.N = 25 := N_12
  have hlt : (i 0).val / 2000 < cfg12.N := by rw [hN]; omega
  obtain ⟨-, -, -, -, -, -, -, -, e0, e1⟩ := idx_facts12 ⟨(i 0).val / 2000, hlt⟩
  have e0' : win12_4.index ⟨(i 0).val / 2000, hlt⟩ (0 : Fin 2) = (i 0).val / 2000 := e0
  refine ⟨⟨(i 0).val / 2000, hlt⟩, flush12_4 _, ?_⟩
  show i ∈ ((View.whole main_v161).slice (win12_4.rect ⟨(i 0).val / 2000, hlt⟩)).set
  rw [View.set_slice_whole, Rect.mem_set_unit]
  intro a
  match a with
  | ⟨0, _⟩ =>
    show win12_4.index ⟨(i 0).val / 2000, hlt⟩ (0 : Fin 2) * 2000 ≤ (i 0).val ∧ (i 0).val < win12_4.index ⟨(i 0).val / 2000, hlt⟩ (0 : Fin 2) * 2000 + 2000
    rw [e0']; omega
  | ⟨1, _⟩ =>
    show win12_4.index ⟨(i 0).val / 2000, hlt⟩ (1 : Fin 2) * 128 ≤ (i 1).val ∧ (i 1).val < win12_4.index ⟨(i 0).val / 2000, hlt⟩ (1 : Fin 2) * 128 + 128
    rw [e1]; omega

/-- THE VALUE of region 12: its output array ends at the affine layer of the rectifier of the arrays it was entered with. -/
theorem value12 (c : Dev nD) :
    (dat12 (F := Ideal) V c).arrAt 4 cfg12.N
      = Cert.Spec.linRow (F := Ideal)
          (Cert.Spec.preluRow (F := Ideal) (V c (Pipeline.arrRef spec12 0)) (V c (Pipeline.arrRef spec12 1)))
          (V c (Pipeline.arrRef spec12 2)) (V c (Pipeline.arrRef spec12 3)) :=
  (dat12 (F := Ideal) V c).arrAt_eq_of_cover 4 _ (fun t _ => flushed12_eq V c t) cover12

end Cert.KernelIdeal.Hand

end
-- ==== Proof.KIV.Prelu13Value.lean ====
/-
  Region 13 of the idealized kernel program, as one function of the arrays it is entered with: when the region ends its
  output array holds the parametric rectifier of its input array, z where z is at least zero and the slope times z
  elsewhere. Point t of the grid of 25 computes rows 2000 t to 2000 t + 1999: its tile is those rows of the input, its
  slope row is the whole row, and what it writes back is those rows of the rectifier; the 25 tiles cover the 50000 rows.
-/
import proofs.«113219_j18691697672631_1_alg».proof.Proof.KI.Prelu13
import proofs.«113219_j18691697672631_1_alg».proof.Proof.KIV.TileSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable [Cert.ReferenceIdeal.Facts₀]

/-- The block index maps over the grid: the tile's and the output's block is the point's, the slope row's the one block
    there is. -/
theorem idx_facts13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0 :=
  (by decide +kernel : ∀ t : Fin grid13.N, _)

theorem hz13 : (![0, 0] : Fin 2 → Nat) = fun _ => 0 := funext fun a => by fin_cases a <;> rfl

section Blocks

variable {F : FTy → Type} [FloatOps F] [Named F]
variable (V : (c : Dev nD) → (b : Ref sig .tc) → Buf (Elt F) ((c : Thread nD τ).loc b))

/-- Point t's tile is rows 2000 t to 2000 t + 1999 of the input array. -/
theorem iblk13_0_apply (c : Dev nD) (t : Fin cfg13.N) (p : Fin 2000) (k : Fin 128) (r : Fin 50000) (hr : r.val = 2000 * t.val + p.val) :
    (iblk13 V c 0 t : S2000x128.Idx → Elt F .f32) (ix2 p k) = (V c (Pipeline.arrRef spec13 0) : S50000x128.Idx → Elt F .f32) (ix2 r k) := by
  obtain ⟨e0, e1, -⟩ := idx_facts13 t
  unfold iblk13
  rw [View.read_apply]
  refine congrArg (V c (Pipeline.arrRef spec13 0) : S50000x128.Idx → Elt F .f32) (funext fun a => Fin.ext ?_)
  match a with
  | ⟨0, _⟩ => show win13_0.index t (0 : Fin 2) * 2000 + 1 * p.val = r.val; rw [e0, hr]; omega
  | ⟨1, _⟩ => show win13_0.index t (1 : Fin 2) * 128 + 1 * k.val = k.val; rw [e1]; omega

/-- Every point's slope block is the whole slope row. -/
theorem iblk13_1_eq (c : Dev nD) (t : Fin cfg13.N) :
    (iblk13 V c 1 t : S1x128.Idx → Elt F .f32) = (V c (Pipeline.arrRef spec13 1) : S1x128.Idx → Elt F .f32) := by
  obtain ⟨-, -, e0, e1, -⟩ := idx_facts13 t
  funext x
  unfold iblk13
  rw [View.read_apply]
  refine congrArg (V c (Pipeline.arrRef spec13 1) : S1x128.Idx → Elt F .f32) (funext fun a => Fin.ext ?_)
  match a with
  | ⟨0, _⟩ => show win13_1.index t (0 : Fin 2) * 1 + 1 * (x 0).val = (x 0).val; rw [e0]; omega
  | ⟨1, _⟩ => show win13_1.index t (1 : Fin 2) * 128 + 1 * (x 1).val = (x 1).val; rw [e1]; omega

end Blocks

variable (V : (c : Dev nD) → (b : Ref sig .tc) → Buf (Elt Ideal) ((c : Thread nD τ).loc b))

/-- Where entry (p, q) of point t's output block sits in the output array: row 2000 t + p, column q. -/
theorem emb13_2 (t : Fin cfg13.N) (p : Fin 2000) (q : Fin 128) (r : Fin 50000) (hr : r.val = 2000 * t.val + p.val) :
    (((cfg13.win 2).blk t).view.emb (ix2 p q) : S50000x128.Idx) = ix2 r q := by
  obtain ⟨-, -, -, -, e0, e1⟩ := idx_facts13 t
  refine funext fun a => Fin.ext ?_
  match a with
  | ⟨0, _⟩ => show win13_2.index t (0 : Fin 2) * 2000 + 1 * p.val = r.val; rw [e0, hr]; omega
  | ⟨1, _⟩ => show win13_2.index t (1 : Fin 2) * 128 + 1 * q.val = q.val; rw [e1]; omega

/-- What point t writes back is its block of the rectifier of the arrays the region was entered with. -/
theorem flushed13_eq (c : Dev nD) (t : Fin cfg13.N) :
    (dat13 (F := Ideal) V c).flushed 2 t = ((cfg13.win 2).blk t).view.read (Elt Ideal)
      (Cert.Spec.preluRow (F := Ideal) (V c (Pipeline.arrRef spec13 0)) (V c (Pipeline.arrRef spec13 1))) := by
  show (cfg13.win 2).cut (grid13.coords t) ((dat13 V c).after 2 t) = _
  rw [after13_2]
  unfold out13_2
  rw [View.canon_unit_zero hz13]
  simp only [View.ld_unit_zero (S := S2000x128) hz13, View.ld_unit_zero (S := S1x128) hz13]
  refine funext fun (j : S2000x128.Idx) => ?_
  obtain ⟨p, q, rfl⟩ : ∃ (p : Fin 2000) (q : Fin 128), j = ix2 p q := ⟨j 0, j 1, eq_ix2 j⟩
  have ht : t.val < 25 := Nat.lt_of_lt_of_eq t.isLt (N_13 : cfg13.N = 25)
  have hp : p.val < 2000 := p.isLt
  have e := emb13_2 t p q ⟨2000 * t.val + p.val, by omega⟩ rfl
  show preluTile (iblk13 V c 0 t) (iblk13 V c 1 t) (ix2 p q) = Cert.Spec.preluRow (F := Ideal) _ _ (((cfg13.win 2).blk t).view.emb (ix2 p q))
  rw [e]
  exact preluTile_eq_preluRow _ _ _ _ p q _ (iblk13_0_apply V c t p q _ rfl) (iblk13_1_eq V c t)

/-- Every row of the output array is in some point's block: row r in point r / 2000's. -/
theorem cover13 (i : S50000x128.Idx) : ∃ t : Fin cfg13.N, (cfg13.win 2).flush t = true ∧ i ∈ ((cfg13.win 2).blk t).view.set := by
  have hi0 : (i 0).val < 50000 := (i 0).isLt
  have hi1 : (i 1).val < 128 := (i 1).isLt
  have hN : cfg13.N = 25 := N_13
  have hlt : (i 0).val / 2000 < cfg13.N := by rw [hN]; omega
  obtain ⟨-, -, -, -, e0, e1⟩ := idx_facts13 ⟨(i 0).val / 2000, hlt⟩
  have e0' : win13_2.index ⟨(i 0).val / 2000, hlt⟩ (0 : Fin 2) = (i 0).val / 2000 := e0
  refine ⟨⟨(i 0).val / 2000, hlt⟩, flush13_2 _, ?_⟩
  show i ∈ ((View.whole main_v176).slice (win13_2.rect ⟨(i 0).val / 2000, hlt⟩)).set
  rw [View.set_slice_whole, Rect.mem_set_unit]
  intro a
  match a with
  | ⟨0, _⟩ =>
    show win13_2.index ⟨(i 0).val / 2000, hlt⟩ (0 : Fin 2) * 2000 ≤ (i 0).val ∧ (i 0).val < win13_2.index ⟨(i 0).val / 2000, hlt⟩ (0 : Fin 2) * 2000 + 2000
    rw [e0']; omega
  | ⟨1, _⟩ =>
    show win13_2.index ⟨(i 0).val / 2000, hlt⟩ (1 : Fin 2) * 128 ≤ (i 1).val ∧ (i 1).val < win13_2.index ⟨(i 0).val / 2000, hlt⟩ (1 : Fin 2) * 128 + 128
    rw [e1]; omega

/-- THE VALUE of region 13: its output array ends at the rectifier of the arrays it was entered with. -/
theorem value13 (c : Dev nD) :
    (dat13 (F := Ideal) V c).arrAt 2 cfg13.N
      = Cert.Spec.preluRow (F := Ideal) (V c (Pipeline.arrRef spec13 0)) (V c (Pipeline.arrRef spec13 1)) :=
  (dat13 (F := Ideal) V c).arrAt_eq_of_cover 2 _ (fun t _ => flushed13_eq V c t) cover13

end Cert.KernelIdeal.Hand

end
-- ==== Proof.LibRow.lean ====
/-
  A vector laid out as a one-row matrix. Reshaping a length-n vector to shape 1×n and broadcasting it along a new
  leading axis of extent 1 are the same array: entry (0, q) is entry q of the vector.
-/
import Idealize.ShloMosaic.Lib.Pipeline.Value
import Idealize.ShloMosaic.Lib.ValueIdx

noncomputable section

namespace Cert.LibRow

open Idealize.ShloMosaic Idealize.ShloMosaic.ValueIdx

/-- The row-major reshape of a vector to one row is its broadcast along a new leading unit axis. -/
theorem reshape_row_eq_broadcast {n : Nat} {α : Type} (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, q, rfl⟩ : ∃ (z : Fin 1) (q : Fin n), j = ix2 z q := ⟨j 0, j 1, eq_ix2 j⟩
  have hq := q.isLt
  have hz := z.isLt
  rw [shapeCast_apply x h (ix2 z q) (ix1 q) (by
    rw [Shape.rowMajor_val_one, Shape.rowMajor_val_two]
    show q.val = z.val * n + q.val
    have : z.val = 0 := by omega
    rw [this]; omega)]
  exact (broadcastInDim_apply ![1] h' x (ix2 z q) (ix1 q) (fun a => by
    match a with
    | ⟨0, _⟩ => show q.val = if n = 1 then 0 else q.val; split <;> omega)).symm

end Cert.LibRow
-- ==== Proof.KIH.Base.lean ====
/-
  The host stretches of the tiled program, in the reference's terms. What every state of the tiled program's run
  keeps of the launch contents: the seventeen argument arrays as launched, the two rows of the edge list (source
  and destination node of every edge) and the normalised edge weights, which the tiled program computes once, in
  its first host stretch. A bias or slope vector enters a tiled region as a one-row matrix, the row-major reshape
  of the vector, which is the vector's broadcast to a row.
-/
import proofs.«113219_j18691697672631_1_alg».proof.Proof.Gen.KernelIdeal.Launch
import proofs.«113219_j18691697672631_1_alg».proof.Proof.Spec
import proofs.«113219_j18691697672631_1_alg».proof.Proof.LibHostLine
import proofs.«113219_j18691697672631_1_alg».proof.Proof.LibRow
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F] [Named F] [Cert.ReferenceIdeal.Facts₀]

/-- A 128-vector as a one-row matrix. -/
abbrev rowOf (b : Cert.Spec.C F Cert.ReferenceIdeal.S128 .f32) : Cert.Spec.C F Cert.ReferenceIdeal.S1x128 .f32 :=
  broadcastInDim Cert.ReferenceIdeal.S1x128 ![1] Cert.ReferenceIdeal.Facts₀.bcast_S128_S1x128_1 b

/-- The row-major reshape of a 128-vector to one row is that row. -/
theorem reshape_row (b : Cert.Spec.C F Cert.ReferenceIdeal.S128 .f32) (h : Cert.KernelIdeal.S128.ShapeCasts Cert.KernelIdeal.S1x128) :
    shapeCast Cert.KernelIdeal.S1x128 b h = rowOf b :=
  Cert.LibRow.reshape_row_eq_broadcast b h _

/-- The state `S` holds the arguments as the launch contents `V` do. -/
structure KKeptArgs (V S : Valuation τ sig (Elt F)) : Prop where
  a0 : S (Proc.devRef .tc main_arg0) = V (Proc.devRef .tc main_arg0)
  a1 : S (Proc.devRef .tc main_arg1) = V (Proc.devRef .tc main_arg1)
  a2 : S (Proc.devRef .tc main_arg2) = V (Proc.devRef .tc main_arg2)
  a3 : S (Proc.devRef .tc main_arg3) = V (Proc.devRef .tc main_arg3)
  a4 : S (Proc.devRef .tc main_arg4) = V (Proc.devRef .tc main_arg4)
  a5 : S (Proc.devRef .tc main_arg5) = V (Proc.devRef .tc main_arg5)
  a6 : S (Proc.devRef .tc main_arg6) = V (Proc.devRef .tc main_arg6)
  a7 : S (Proc.devRef .tc main_arg7) = V (Proc.devRef .tc main_arg7)
  a8 : S (Proc.devRef .tc main_arg8) = V (Proc.devRef .tc main_arg8)
  a9 : S (Proc.devRef .tc main_arg9) = V (Proc.devRef .tc main_arg9)
  a10 : S (Proc.devRef .tc main_arg10) = V (Proc.devRef .tc main_arg10)
  a11 : S (Proc.devRef .tc main_arg11) = V (Proc.devRef .tc main_arg11)
  a12 : S (Proc.devRef .tc main_arg12) = V (Proc.devRef .tc main_arg12)
  a13 : S (Proc.devRef .tc main_arg13) = V (Proc.devRef .tc main_arg13)
  a14 : S (Proc.devRef .tc main_arg14) = V (Proc.devRef .tc main_arg14)
  a15 : S (Proc.devRef .tc main_arg15) = V (Proc.devRef .tc main_arg15)
  a16 : S (Proc.devRef .tc main_arg16) = V (Proc.devRef .tc main_arg16)

/-- The state `S` holds the arguments as launched, the two rows of the launched edge list and the normalised
    edge weights. -/
structure KKept (V S : Valuation τ sig (Elt F)) : Prop extends KKeptArgs V S where
  src : S (Proc.devRef .tc main_v1) = Cert.Spec.srcOf (V (Proc.devRef .tc main_arg1))
  dst : S (Proc.devRef .tc main_v3) = Cert.Spec.dstOf (V (Proc.devRef .tc main_arg1))
  nrm : S (Proc.devRef .tc main_v26) = Cert.Spec.norm (V (Proc.devRef .tc main_arg1)) (V (Proc.devRef .tc main_arg2))

/-- The buffers the operations of `hostOps0` write, one each, in order. -/
def hwr0 : List (Ref sig .tc) :=
  [main_v0, main_v1, main_v2, main_v3, main_cst, main_v4, main_v5, main_v6, main_cst_0, main_v7, main_v8, main_v9, main_cst_1]

set_option maxRecDepth 4096 in
theorem hwrites0 : WritesOne (τ := τ) (hostOps0 (F := F)) hwr0 :=
  .cons rfl (.cons rfl (.cons rfl (.cons rfl (.cons rfl (.cons rfl (.cons rfl (.cons rfl (.cons rfl (.cons rfl (.cons rfl (.cons rfl (.cons rfl (List.Forall₂.nil)))))))))))))

/-- The buffers the operations of `hostOps0_1` write, one each, in order. -/
def hwr0_1 : List (Ref sig .tc) :=
  [main_call0_v0, main_call0_v1, main_v10]

set_option maxRecDepth 4096 in
theorem hwrites0_1 : WritesOne (τ := τ) (hostOps0_1 (F := F)) hwr0_1 :=
  .cons rfl (.cons rfl (.cons rfl (List.Forall₂.nil)))

/-- The buffers the operations of `hostOps0_2` write, one each, in order. -/
def hwr0_2 : List (Ref sig .tc) :=
  [main_c, main_v11, main_v12, main_c_2, main_v13, main_v14, main_v15, main_v16, main_v17, main_v18, main_c_3, main_v19, main_v20, main_c_4, main_v21, main_v22, main_v23, main_v24, main_v25, main_v26, main_v27]

set_option maxRecDepth 4096 in
theorem hwrites0_2 : WritesOne (τ := τ) (hostOps0_2 (F := F)) hwr0_2 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil)))))))))))))))))))))

/-- The buffers the operations of `hostOps1` write, one each, in order. -/
def hwr1 : List (Ref sig .tc) :=
  [main_c_5, main_v29, main_v30, main_c_6, main_v31, main_v32, main_v33, main_v34, main_v35, main_v36, main_v37, main_v38, main_cst_7, main_v39, main_v40, main_v41, main_v42, main_v43]

set_option maxRecDepth 4096 in
theorem hwrites1 : WritesOne (τ := τ) (hostOps1 (F := F)) hwr1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil))))))))))))))))))

/-- The buffers the operations of `hostOps2` write, one each, in order. -/
def hwr2 : List (Ref sig .tc) :=
  [main_c_8, main_v45, main_v46, main_c_9, main_v47, main_v48, main_v49, main_v50, main_v51, main_v52, main_v53, main_v54, main_cst_10, main_v55, main_v56, main_v57, main_v58]

set_option maxRecDepth 4096 in
theorem hwrites2 : WritesOne (τ := τ) (hostOps2 (F := F)) hwr2 :=
  .cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil)))))))))))))))))

/-- The buffers the operations of `hostOps3` write, one each, in order. -/
def hwr3 : List (Ref sig .tc) :=
  [main_v60]

set_option maxRecDepth 4096 in
theorem hwrites3 : WritesOne (τ := τ) (hostOps3 (F := F)) hwr3 :=
  .cons rfl (List.Forall₂.nil)

/-- The buffers the operations of `hostOps4` write, one each, in order. -/
def hwr4 : List (Ref sig .tc) :=
  [main_c_11, main_v62, main_v63, main_c_12, main_v64, main_v65, main_v66, main_v67, main_v68, main_v69, main_v70, main_v71, main_cst_13, main_v72, main_v73, main_v74, main_v75, main_v76]

set_option maxRecDepth 4096 in
theorem hwrites4 : WritesOne (τ := τ) (hostOps4 (F := F)) hwr4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil))))))))))))))))))

/-- The buffers the operations of `hostOps5` write, one each, in order. -/
def hwr5 : List (Ref sig .tc) :=
  [main_c_14, main_v78, main_v79, main_c_15, main_v80, main_v81, main_v82, main_v83, main_v84, main_v85, main_v86, main_v87, main_cst_16, main_v88, main_v89, main_v90, main_v91]

set_option maxRecDepth 4096 in
theorem hwrites5 : WritesOne (τ := τ) (hostOps5 (F := F)) hwr5 :=
  .cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil)))))))))))))))))

/-- The buffers the operations of `hostOps6` write, one each, in order. -/
def hwr6 : List (Ref sig .tc) :=
  [main_v93]

set_option maxRecDepth 4096 in
theorem hwrites6 : WritesOne (τ := τ) (hostOps6 (F := F)) hwr6 :=
  .cons rfl (List.Forall₂.nil)

/-- The buffers the operations of `hostOps7` write, one each, in order. -/
def hwr7 : List (Ref sig .tc) :=
  [main_v95]

set_option maxRecDepth 4096 in
theorem hwrites7 : WritesOne (τ := τ) (hostOps7 (F := F)) hwr7 :=
  .cons rfl (List.Forall₂.nil)

/-- The buffers the operations of `hostOps8` write, one each, in order. -/
def hwr8 : List (Ref sig .tc) :=
  [main_c_17, main_v97, main_v98, main_c_18, main_v99, main_v100, main_v101, main_v102, main_v103, main_c_19, main_v104, main_v105, main_c_20, main_v106, main_v107, main_v108, main_v109, main_v110, main_v111]

set_option maxRecDepth 4096 in
theorem hwrites8 : WritesOne (τ := τ) (hostOps8 (F := F)) hwr8 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil)))))))))))))))))))

/-- The buffers the operations of `hostOps9` write, one each, in order. -/
def hwr9 : List (Ref sig .tc) :=
  [main_c_21, main_v113, main_v114, main_c_22, main_v115, main_v116, main_v117, main_v118, main_v119, main_v120, main_v121, main_v122, main_cst_23, main_v123, main_v124, main_v125, main_v126, main_v127]

set_option maxRecDepth 4096 in
theorem hwrites9 : WritesOne (τ := τ) (hostOps9 (F := F)) hwr9 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil))))))))))))))))))

/-- The buffers the operations of `hostOps10` write, one each, in order. -/
def hwr10 : List (Ref sig .tc) :=
  [main_c_24, main_v129, main_v130, main_c_25, main_v131, main_v132, main_v133, main_v134, main_v135, main_v136, main_v137, main_v138, main_cst_26, main_v139, main_v140, main_v141, main_v142]

set_option maxRecDepth 4096 in
theorem hwrites10 : WritesOne (τ := τ) (hostOps10 (F := F)) hwr10 :=
  .cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil)))))))))))))))))

/-- The buffers the operations of `hostOps11` write, one each, in order. -/
def hwr11 : List (Ref sig .tc) :=
  [main_v144]

set_option maxRecDepth 4096 in
theorem hwrites11 : WritesOne (τ := τ) (hostOps11 (F := F)) hwr11 :=
  .cons rfl (List.Forall₂.nil)

/-- The buffers the operations of `hostOps12` write, one each, in order. -/
def hwr12 : List (Ref sig .tc) :=
  [main_c_27, main_v146, main_v147, main_c_28, main_v148, main_v149, main_v150, main_v151, main_v152, main_v153, main_v154, main_v155, main_cst_29, main_v156, main_v157, main_v158, main_v159, main_v160]

set_option maxRecDepth 4096 in
theorem hwrites12 : WritesOne (τ := τ) (hostOps12 (F := F)) hwr12 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil))))))))))))))))))

/-- The buffers the operations of `hostOps13` write, one each, in order. -/
def hwr13 : List (Ref sig .tc) :=
  [main_c_30, main_v162, main_v163, main_c_31, main_v164, main_v165, main_v166, main_v167, main_v168, main_v169, main_v170, main_v171, main_cst_32, main_v172, main_v173, main_v174, main_v175]

set_option maxRecDepth 4096 in
theorem hwrites13 : WritesOne (τ := τ) (hostOps13 (F := F)) hwr13 :=
  .cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil)))))))))))))))))

end Cert.KernelIdeal.Hand

end
-- ==== Proof.KIH.Host.lean ====
/-
  The host stretches of the tiled program, each over any contents: what the buffers a tiled region or a later
  stretch reads hold after the stretch, in the reference's terms, and that a buffer the stretch does not write keeps
  its contents. The first three stretches cut the edge list into its two rows and compute the degree normalisation
  of the edge weights; a stretch after a linear region is the weighted neighbourhood sum of the region's output
  along the edges; the stretch before the corrupted encoders permutes the rows of the node features; and each
  stretch reshapes the bias and slope vectors its next region takes to rows.
-/
import proofs.«113219_j18691697672631_1_alg».proof.Proof.KIH.Base

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F] [Named F] [Cert.ReferenceIdeal.Facts₀]

/-- A buffer the first three stretches do not write keeps its contents. -/
theorem host0_keep {b : Ref sig .tc} (hb : b ∉ hwr0 ++ (hwr0_1 ++ hwr0_2)) (S : Valuation τ sig (Elt F)) :
    after hostOps0_2 (after hostOps0_1 (after hostOps0 S)) (Proc.devRef .tc b) = S (Proc.devRef .tc b) :=
  (after_unwritten hwrites0_2 (fun h => hb (List.mem_append_right _ (List.mem_append_right _ h))) _).trans
    ((after_unwritten hwrites0_1 (fun h => hb (List.mem_append_right _ (List.mem_append_left _ h))) _).trans
      (after_unwritten hwrites0 (fun h => hb (List.mem_append_left _ h)) S))

/-- After the first three stretches the state holds the arguments, the two rows of the edge list and the
    normalised edge weights. -/
theorem host0_kept (V : Valuation τ sig (Elt F)) : KKept V (after hostOps0_2 (after hostOps0_1 (after hostOps0 V))) :=
  ⟨⟨host0_keep (by decide) V,
    host0_keep (by decide) V,
    host0_keep (by decide) V,
    host0_keep (by decide) V,
    host0_keep (by decide) V,
    host0_keep (by decide) V,
    host0_keep (by decide) V,
    host0_keep (by decide) V,
    host0_keep (by decide) V,
    host0_keep (by decide) V,
    host0_keep (by decide) V,
    host0_keep (by decide) V,
    host0_keep (by decide) V,
    host0_keep (by decide) V,
    host0_keep (by decide) V,
    host0_keep (by decide) V,
    host0_keep (by decide) V⟩,
    by after_results_simp <;> rfl, by after_results_simp <;> rfl, by after_results_simp <;> rfl⟩

/-- The first bias vector as a row. -/
theorem host0_row_main_v27 (V : Valuation τ sig (Elt F)) :
    after hostOps0_2 (after hostOps0_1 (after hostOps0 V)) (Proc.devRef .tc main_v27) = rowOf (V (Proc.devRef .tc main_arg6)) := by
  after_results_simp
  exact reshape_row _ _

/-- A buffer stretch 1 does not write keeps its contents. -/
theorem host1_keep {b : Ref sig .tc} (hb : b ∉ hwr1) (S : Valuation τ sig (Elt F)) :
    after hostOps1 S (Proc.devRef .tc b) = S (Proc.devRef .tc b) :=
  after_unwritten hwrites1 hb S

/-- The arguments, the two edge rows and the normalised weights pass through stretch 1. -/
theorem host1_kept {V S : Valuation τ sig (Elt F)} (h : KKept V S) : KKept V (after hostOps1 S) :=
  ⟨⟨(host1_keep (by decide) S).trans h.a0,
    (host1_keep (by decide) S).trans h.a1,
    (host1_keep (by decide) S).trans h.a2,
    (host1_keep (by decide) S).trans h.a3,
    (host1_keep (by decide) S).trans h.a4,
    (host1_keep (by decide) S).trans h.a5,
    (host1_keep (by decide) S).trans h.a6,
    (host1_keep (by decide) S).trans h.a7,
    (host1_keep (by decide) S).trans h.a8,
    (host1_keep (by decide) S).trans h.a9,
    (host1_keep (by decide) S).trans h.a10,
    (host1_keep (by decide) S).trans h.a11,
    (host1_keep (by decide) S).trans h.a12,
    (host1_keep (by decide) S).trans h.a13,
    (host1_keep (by decide) S).trans h.a14,
    (host1_keep (by decide) S).trans h.a15,
    (host1_keep (by decide) S).trans h.a16⟩,
    (host1_keep (by decide) S).trans h.src, (host1_keep (by decide) S).trans h.dst, (host1_keep (by decide) S).trans h.nrm⟩

/-- Stretch 1: the weighted neighbourhood sum along the edges of what the state holds at the preceding region's output. -/
theorem host1_conv {V S : Valuation τ sig (Elt F)} (h : KKept V S) :
    after hostOps1 S (Proc.devRef .tc main_v41)
      = Cert.Spec.conv (S (Proc.devRef .tc main_v28)) (V (Proc.devRef .tc main_arg1)) (Cert.Spec.norm (V (Proc.devRef .tc main_arg1)) (V (Proc.devRef .tc main_arg2))) := by
  after_results_simp
  rw [h.src, h.dst, h.nrm]
  rfl

/-- Stretch 1: argument 9 (a bias or slope vector) as a row. -/
theorem host1_row_main_v42 {V S : Valuation τ sig (Elt F)} (h : KKept V S) :
    after hostOps1 S (Proc.devRef .tc main_v42) = rowOf (V (Proc.devRef .tc main_arg9)) := by
  after_results_simp
  rw [h.a9]
  exact reshape_row _ _

/-- Stretch 1: argument 8 (a bias or slope vector) as a row. -/
theorem host1_row_main_v43 {V S : Valuation τ sig (Elt F)} (h : KKept V S) :
    after hostOps1 S (Proc.devRef .tc main_v43) = rowOf (V (Proc.devRef .tc main_arg8)) := by
  after_results_simp
  rw [h.a8]
  exact reshape_row _ _

/-- A buffer stretch 2 does not write keeps its contents. -/
theorem host2_keep {b : Ref sig .tc} (hb : b ∉ hwr2) (S : Valuation τ sig (Elt F)) :
    after hostOps2 S (Proc.devRef .tc b) = S (Proc.devRef .tc b) :=
  after_unwritten hwrites2 hb S

/-- The arguments, the two edge rows and the normalised weights pass through stretch 2. -/
theorem host2_kept {V S : Valuation τ sig (Elt F)} (h : KKept V S) : KKept V (after hostOps2 S) :=
  ⟨⟨(host2_keep (by decide) S).trans h.a0,
    (host2_keep (by decide) S).trans h.a1,
    (host2_keep (by decide) S).trans h.a2,
    (host2_keep (by decide) S).trans h.a3,
    (host2_keep (by decide) S).trans h.a4,
    (host2_keep (by decide) S).trans h.a5,
    (host2_keep (by decide) S).trans h.a6,
    (host2_keep (by decide) S).trans h.a7,
    (host2_keep (by decide) S).trans h.a8,
    (host2_keep (by decide) S).trans h.a9,
    (host2_keep (by decide) S).trans h.a10,
    (host2_keep (by decide) S).trans h.a11,
    (host2_keep (by decide) S).trans h.a12,
    (host2_keep (by decide) S).trans h.a13,
    (host2_keep (by decide) S).trans h.a14,
    (host2_keep (by decide) S).trans h.a15,
    (host2_keep (by decide) S).trans h.a16⟩,
    (host2_keep (by decide) S).trans h.src, (host2_keep (by decide) S).trans h.dst, (host2_keep (by decide) S).trans h.nrm⟩

/-- Stretch 2: the weighted neighbourhood sum along the edges of what the state holds at the preceding region's output. -/
theorem host2_conv {V S : Valuation τ sig (Elt F)} (h : KKept V S) :
    after hostOps2 S (Proc.devRef .tc main_v57)
      = Cert.Spec.conv (S (Proc.devRef .tc main_v44)) (V (Proc.devRef .tc main_arg1)) (Cert.Spec.norm (V (Proc.devRef .tc main_arg1)) (V (Proc.devRef .tc main_arg2))) := by
  after_results_simp
  rw [h.src, h.dst, h.nrm]
  rfl

/-- Stretch 2: argument 9 (a bias or slope vector) as a row. -/
theorem host2_row_main_v58 {V S : Valuation τ sig (Elt F)} (h : KKept V S) :
    after hostOps2 S (Proc.devRef .tc main_v58) = rowOf (V (Proc.devRef .tc main_arg9)) := by
  after_results_simp
  rw [h.a9]
  exact reshape_row _ _

/-- A buffer stretch 3 does not write keeps its contents. -/
theorem host3_keep {b : Ref sig .tc} (hb : b ∉ hwr3) (S : Valuation τ sig (Elt F)) :
    after hostOps3 S (Proc.devRef .tc b) = S (Proc.devRef .tc b) :=
  after_unwritten hwrites3 hb S

/-- The arguments, the two edge rows and the normalised weights pass through stretch 3. -/
theorem host3_kept {V S : Valuation τ sig (Elt F)} (h : KKept V S) : KKept V (after hostOps3 S) :=
  ⟨⟨(host3_keep (by decide) S).trans h.a0,
    (host3_keep (by decide) S).trans h.a1,
    (host3_keep (by decide) S).trans h.a2,
    (host3_keep (by decide) S).trans h.a3,
    (host3_keep (by decide) S).trans h.a4,
    (host3_keep (by decide) S).trans h.a5,
    (host3_keep (by decide) S).trans h.a6,
    (host3_keep (by decide) S).trans h.a7,
    (host3_keep (by decide) S).trans h.a8,
    (host3_keep (by decide) S).trans h.a9,
    (host3_keep (by decide) S).trans h.a10,
    (host3_keep (by decide) S).trans h.a11,
    (host3_keep (by decide) S).trans h.a12,
    (host3_keep (by decide) S).trans h.a13,
    (host3_keep (by decide) S).trans h.a14,
    (host3_keep (by decide) S).trans h.a15,
    (host3_keep (by decide) S).trans h.a16⟩,
    (host3_keep (by decide) S).trans h.src, (host3_keep (by decide) S).trans h.dst, (host3_keep (by decide) S).trans h.nrm⟩

/-- Stretch 3: argument 11 (a bias or slope vector) as a row. -/
theorem host3_row_main_v60 {V S : Valuation τ sig (Elt F)} (h : KKept V S) :
    after hostOps3 S (Proc.devRef .tc main_v60) = rowOf (V (Proc.devRef .tc main_arg11)) := by
  after_results_simp
  rw [h.a11]
  exact reshape_row _ _

/-- A buffer stretch 4 does not write keeps its contents. -/
theorem host4_keep {b : Ref sig .tc} (hb : b ∉ hwr4) (S : Valuation τ sig (Elt F)) :
    after hostOps4 S (Proc.devRef .tc b) = S (Proc.devRef .tc b) :=
  after_unwritten hwrites4 hb S

/-- The arguments, the two edge rows and the normalised weights pass through stretch 4. -/
theorem host4_kept {V S : Valuation τ sig (Elt F)} (h : KKept V S) : KKept V (after hostOps4 S) :=
  ⟨⟨(host4_keep (by decide) S).trans h.a0,
    (host4_keep (by decide) S).trans h.a1,
    (host4_keep (by decide) S).trans h.a2,
    (host4_keep (by decide) S).trans h.a3,
    (host4_keep (by decide) S).trans h.a4,
    (host4_keep (by decide) S).trans h.a5,
    (host4_keep (by decide) S).trans h.a6,
    (host4_keep (by decide) S).trans h.a7,
    (host4_keep (by decide) S).trans h.a8,
    (host4_keep (by decide) S).trans h.a9,
    (host4_keep (by decide) S).trans h.a10,
    (host4_keep (by decide) S).trans h.a11,
    (host4_keep (by decide) S).trans h.a12,
    (host4_keep (by decide) S).trans h.a13,
    (host4_keep (by decide) S).trans h.a14,
    (host4_keep (by decide) S).trans h.a15,
    (host4_keep (by decide) S).trans h.a16⟩,
    (host4_keep (by decide) S).trans h.src, (host4_keep (by decide) S).trans h.dst, (host4_keep (by decide) S).trans h.nrm⟩

/-- Stretch 4: the weighted neighbourhood sum along the edges of what the state holds at the preceding region's output. -/
theorem host4_conv {V S : Valuation τ sig (Elt F)} (h : KKept V S) :
    after hostOps4 S (Proc.devRef .tc main_v74)
      = Cert.Spec.conv (S (Proc.devRef .tc main_v61)) (V (Proc.devRef .tc main_arg1)) (Cert.Spec.norm (V (Proc.devRef .tc main_arg1)) (V (Proc.devRef .tc main_arg2))) := by
  after_results_simp
  rw [h.src, h.dst, h.nrm]
  rfl

/-- Stretch 4: argument 14 (a bias or slope vector) as a row. -/
theorem host4_row_main_v75 {V S : Valuation τ sig (Elt F)} (h : KKept V S) :
    after hostOps4 S (Proc.devRef .tc main_v75) = rowOf (V (Proc.devRef .tc main_arg14)) := by
  after_results_simp
  rw [h.a14]
  exact reshape_row _ _

/-- Stretch 4: argument 13 (a bias or slope vector) as a row. -/
theorem host4_row_main_v76 {V S : Valuation τ sig (Elt F)} (h : KKept V S) :
    after hostOps4 S (Proc.devRef .tc main_v76) = rowOf (V (Proc.devRef .tc main_arg13)) := by
  after_results_simp
  rw [h.a13]
  exact reshape_row _ _

/-- A buffer stretch 5 does not write keeps its contents. -/
theorem host5_keep {b : Ref sig .tc} (hb : b ∉ hwr5) (S : Valuation τ sig (Elt F)) :
    after hostOps5 S (Proc.devRef .tc b) = S (Proc.devRef .tc b) :=
  after_unwritten hwrites5 hb S

/-- The arguments, the two edge rows and the normalised weights pass through stretch 5. -/
theorem host5_kept {V S : Valuation τ sig (Elt F)} (h : KKept V S) : KKept V (after hostOps5 S) :=
  ⟨⟨(host5_keep (by decide) S).trans h.a0,
    (host5_keep (by decide) S).trans h.a1,
    (host5_keep (by decide) S).trans h.a2,
    (host5_keep (by decide) S).trans h.a3,
    (host5_keep (by decide) S).trans h.a4,
    (host5_keep (by decide) S).trans h.a5,
    (host5_keep (by decide) S).trans h.a6,
    (host5_keep (by decide) S).trans h.a7,
    (host5_keep (by decide) S).trans h.a8,
    (host5_keep (by decide) S).trans h.a9,
    (host5_keep (by decide) S).trans h.a10,
    (host5_keep (by decide) S).trans h.a11,
    (host5_keep (by decide) S).trans h.a12,
    (host5_keep (by decide) S).trans h.a13,
    (host5_keep (by decide) S).trans h.a14,
    (host5_keep (by decide) S).trans h.a15,
    (host5_keep (by decide) S).trans h.a16⟩,
    (host5_keep (by decide) S).trans h.src, (host5_keep (by decide) S).trans h.dst, (host5_keep (by decide) S).trans h.nrm⟩

/-- Stretch 5: the weighted neighbourhood sum along the edges of what the state holds at the preceding region's output. -/
theorem host5_conv {V S : Valuation τ sig (Elt F)} (h : KKept V S) :
    after hostOps5 S (Proc.devRef .tc main_v90)
      = Cert.Spec.conv (S (Proc.devRef .tc main_v77)) (V (Proc.devRef .tc main_arg1)) (Cert.Spec.norm (V (Proc.devRef .tc main_arg1)) (V (Proc.devRef .tc main_arg2))) := by
  after_results_simp
  rw [h.src, h.dst, h.nrm]
  rfl

/-- Stretch 5: argument 14 (a bias or slope vector) as a row. -/
theorem host5_row_main_v91 {V S : Valuation τ sig (Elt F)} (h : KKept V S) :
    after hostOps5 S (Proc.devRef .tc main_v91) = rowOf (V (Proc.devRef .tc main_arg14)) := by
  after_results_simp
  rw [h.a14]
  exact reshape_row _ _

/-- A buffer stretch 6 does not write keeps its contents. -/
theorem host6_keep {b : Ref sig .tc} (hb : b ∉ hwr6) (S : Valuation τ sig (Elt F)) :
    after hostOps6 S (Proc.devRef .tc b) = S (Proc.devRef .tc b) :=
  after_unwritten hwrites6 hb S

/-- The arguments, the two edge rows and the normalised weights pass through stretch 6. -/
theorem host6_kept {V S : Valuation τ sig (Elt F)} (h : KKept V S) : KKept V (after hostOps6 S) :=
  ⟨⟨(host6_keep (by decide) S).trans h.a0,
    (host6_keep (by decide) S).trans h.a1,
    (host6_keep (by decide) S).trans h.a2,
    (host6_keep (by decide) S).trans h.a3,
    (host6_keep (by decide) S).trans h.a4,
    (host6_keep (by decide) S).trans h.a5,
    (host6_keep (by decide) S).trans h.a6,
    (host6_keep (by decide) S).trans h.a7,
    (host6_keep (by decide) S).trans h.a8,
    (host6_keep (by decide) S).trans h.a9,
    (host6_keep (by decide) S).trans h.a10,
    (host6_keep (by decide) S).trans h.a11,
    (host6_keep (by decide) S).trans h.a12,
    (host6_keep (by decide) S).trans h.a13,
    (host6_keep (by decide) S).trans h.a14,
    (host6_keep (by decide) S).trans h.a15,
    (host6_keep (by decide) S).trans h.a16⟩,
    (host6_keep (by decide) S).trans h.src, (host6_keep (by decide) S).trans h.dst, (host6_keep (by decide) S).trans h.nrm⟩

/-- Stretch 6: argument 16 (a bias or slope vector) as a row. -/
theorem host6_row_main_v93 {V S : Valuation τ sig (Elt F)} (h : KKept V S) :
    after hostOps6 S (Proc.devRef .tc main_v93) = rowOf (V (Proc.devRef .tc main_arg16)) := by
  after_results_simp
  rw [h.a16]
  exact reshape_row _ _

/-- A buffer stretch 7 does not write keeps its contents. -/
theorem host7_keep {b : Ref sig .tc} (hb : b ∉ hwr7) (S : Valuation τ sig (Elt F)) :
    after hostOps7 S (Proc.devRef .tc b) = S (Proc.devRef .tc b) :=
  after_unwritten hwrites7 hb S

/-- The arguments, the two edge rows and the normalised weights pass through stretch 7. -/
theorem host7_kept {V S : Valuation τ sig (Elt F)} (h : KKept V S) : KKept V (after hostOps7 S) :=
  ⟨⟨(host7_keep (by decide) S).trans h.a0,
    (host7_keep (by decide) S).trans h.a1,
    (host7_keep (by decide) S).trans h.a2,
    (host7_keep (by decide) S).trans h.a3,
    (host7_keep (by decide) S).trans h.a4,
    (host7_keep (by decide) S).trans h.a5,
    (host7_keep (by decide) S).trans h.a6,
    (host7_keep (by decide) S).trans h.a7,
    (host7_keep (by decide) S).trans h.a8,
    (host7_keep (by decide) S).trans h.a9,
    (host7_keep (by decide) S).trans h.a10,
    (host7_keep (by decide) S).trans h.a11,
    (host7_keep (by decide) S).trans h.a12,
    (host7_keep (by decide) S).trans h.a13,
    (host7_keep (by decide) S).trans h.a14,
    (host7_keep (by decide) S).trans h.a15,
    (host7_keep (by decide) S).trans h.a16⟩,
    (host7_keep (by decide) S).trans h.src, (host7_keep (by decide) S).trans h.dst, (host7_keep (by decide) S).trans h.nrm⟩

/-- Stretch 7: argument 16 (a bias or slope vector) as a row. -/
theorem host7_row_main_v95 {V S : Valuation τ sig (Elt F)} (h : KKept V S) :
    after hostOps7 S (Proc.devRef .tc main_v95) = rowOf (V (Proc.devRef .tc main_arg16)) := by
  after_results_simp
  rw [h.a16]
  exact reshape_row _ _

/-- A buffer stretch 8 does not write keeps its contents. -/
theorem host8_keep {b : Ref sig .tc} (hb : b ∉ hwr8) (S : Valuation τ sig (Elt F)) :
    after hostOps8 S (Proc.devRef .tc b) = S (Proc.devRef .tc b) :=
  after_unwritten hwrites8 hb S

/-- The arguments, the two edge rows and the normalised weights pass through stretch 8. -/
theorem host8_kept {V S : Valuation τ sig (Elt F)} (h : KKept V S) : KKept V (after hostOps8 S) :=
  ⟨⟨(host8_keep (by decide) S).trans h.a0,
    (host8_keep (by decide) S).trans h.a1,
    (host8_keep (by decide) S).trans h.a2,
    (host8_keep (by decide) S).trans h.a3,
    (host8_keep (by decide) S).trans h.a4,
    (host8_keep (by decide) S).trans h.a5,
    (host8_keep (by decide) S).trans h.a6,
    (host8_keep (by decide) S).trans h.a7,
    (host8_keep (by decide) S).trans h.a8,
    (host8_keep (by decide) S).trans h.a9,
    (host8_keep (by decide) S).trans h.a10,
    (host8_keep (by decide) S).trans h.a11,
    (host8_keep (by decide) S).trans h.a12,
    (host8_keep (by decide) S).trans h.a13,
    (host8_keep (by decide) S).trans h.a14,
    (host8_keep (by decide) S).trans h.a15,
    (host8_keep (by decide) S).trans h.a16⟩,
    (host8_keep (by decide) S).trans h.src, (host8_keep (by decide) S).trans h.dst, (host8_keep (by decide) S).trans h.nrm⟩

/-- Stretch 8: argument 6 (a bias or slope vector) as a row. -/
theorem host8_row_main_v111 {V S : Valuation τ sig (Elt F)} (h : KKept V S) :
    after hostOps8 S (Proc.devRef .tc main_v111) = rowOf (V (Proc.devRef .tc main_arg6)) := by
  after_results_simp
  rw [h.a6]
  exact reshape_row _ _

/-- Stretch 8: the node features with their rows in the order of permutation 1. -/
theorem host8_perm_main_v103 {V S : Valuation τ sig (Elt F)} (h : KKept V S) :
    after hostOps8 S (Proc.devRef .tc main_v103) = Cert.Spec.permute (V (Proc.devRef .tc main_arg0)) (V (Proc.devRef .tc main_arg3)) := by
  after_results_simp
  rw [h.a0, h.a3]
  rfl

/-- Stretch 8: the node features with their rows in the order of permutation 2. -/
theorem host8_perm_main_v110 {V S : Valuation τ sig (Elt F)} (h : KKept V S) :
    after hostOps8 S (Proc.devRef .tc main_v110) = Cert.Spec.permute (V (Proc.devRef .tc main_arg0)) (V (Proc.devRef .tc main_arg4)) := by
  after_results_simp
  rw [h.a0, h.a4]
  rfl

/-- A buffer stretch 9 does not write keeps its contents. -/
theorem host9_keep {b : Ref sig .tc} (hb : b ∉ hwr9) (S : Valuation τ sig (Elt F)) :
    after hostOps9 S (Proc.devRef .tc b) = S (Proc.devRef .tc b) :=
  after_unwritten hwrites9 hb S

/-- The arguments, the two edge rows and the normalised weights pass through stretch 9. -/
theorem host9_kept {V S : Valuation τ sig (Elt F)} (h : KKept V S) : KKept V (after hostOps9 S) :=
  ⟨⟨(host9_keep (by decide) S).trans h.a0,
    (host9_keep (by decide) S).trans h.a1,
    (host9_keep (by decide) S).trans h.a2,
    (host9_keep (by decide) S).trans h.a3,
    (host9_keep (by decide) S).trans h.a4,
    (host9_keep (by decide) S).trans h.a5,
    (host9_keep (by decide) S).trans h.a6,
    (host9_keep (by decide) S).trans h.a7,
    (host9_keep (by decide) S).trans h.a8,
    (host9_keep (by decide) S).trans h.a9,
    (host9_keep (by decide) S).trans h.a10,
    (host9_keep (by decide) S).trans h.a11,
    (host9_keep (by decide) S).trans h.a12,
    (host9_keep (by decide) S).trans h.a13,
    (host9_keep (by decide) S).trans h.a14,
    (host9_keep (by decide) S).trans h.a15,
    (host9_keep (by decide) S).trans h.a16⟩,
    (host9_keep (by decide) S).trans h.src, (host9_keep (by decide) S).trans h.dst, (host9_keep (by decide) S).trans h.nrm⟩

/-- Stretch 9: the weighted neighbourhood sum along the edges of what the state holds at the preceding region's output. -/
theorem host9_conv {V S : Valuation τ sig (Elt F)} (h : KKept V S) :
    after hostOps9 S (Proc.devRef .tc main_v125)
      = Cert.Spec.conv (S (Proc.devRef .tc main_v112)) (V (Proc.devRef .tc main_arg1)) (Cert.Spec.norm (V (Proc.devRef .tc main_arg1)) (V (Proc.devRef .tc main_arg2))) := by
  after_results_simp
  rw [h.src, h.dst, h.nrm]
  rfl

/-- Stretch 9: argument 9 (a bias or slope vector) as a row. -/
theorem host9_row_main_v126 {V S : Valuation τ sig (Elt F)} (h : KKept V S) :
    after hostOps9 S (Proc.devRef .tc main_v126) = rowOf (V (Proc.devRef .tc main_arg9)) := by
  after_results_simp
  rw [h.a9]
  exact reshape_row _ _

/-- Stretch 9: argument 8 (a bias or slope vector) as a row. -/
theorem host9_row_main_v127 {V S : Valuation τ sig (Elt F)} (h : KKept V S) :
    after hostOps9 S (Proc.devRef .tc main_v127) = rowOf (V (Proc.devRef .tc main_arg8)) := by
  after_results_simp
  rw [h.a8]
  exact reshape_row _ _

/-- A buffer stretch 10 does not write keeps its contents. -/
theorem host10_keep {b : Ref sig .tc} (hb : b ∉ hwr10) (S : Valuation τ sig (Elt F)) :
    after hostOps10 S (Proc.devRef .tc b) = S (Proc.devRef .tc b) :=
  after_unwritten hwrites10 hb S

/-- The arguments, the two edge rows and the normalised weights pass through stretch 10. -/
theorem host10_kept {V S : Valuation τ sig (Elt F)} (h : KKept V S) : KKept V (after hostOps10 S) :=
  ⟨⟨(host10_keep (by decide) S).trans h.a0,
    (host10_keep (by decide) S).trans h.a1,
    (host10_keep (by decide) S).trans h.a2,
    (host10_keep (by decide) S).trans h.a3,
    (host10_keep (by decide) S).trans h.a4,
    (host10_keep (by decide) S).trans h.a5,
    (host10_keep (by decide) S).trans h.a6,
    (host10_keep (by decide) S).trans h.a7,
    (host10_keep (by decide) S).trans h.a8,
    (host10_keep (by decide) S).trans h.a9,
    (host10_keep (by decide) S).trans h.a10,
    (host10_keep (by decide) S).trans h.a11,
    (host10_keep (by decide) S).trans h.a12,
    (host10_keep (by decide) S).trans h.a13,
    (host10_keep (by decide) S).trans h.a14,
    (host10_keep (by decide) S).trans h.a15,
    (host10_keep (by decide) S).trans h.a16⟩,
    (host10_keep (by decide) S).trans h.src, (host10_keep (by decide) S).trans h.dst, (host10_keep (by decide) S).trans h.nrm⟩

/-- Stretch 10: the weighted neighbourhood sum along the edges of what the state holds at the preceding region's output. -/
theorem host10_conv {V S : Valuation τ sig (Elt F)} (h : KKept V S) :
    after hostOps10 S (Proc.devRef .tc main_v141)
      = Cert.Spec.conv (S (Proc.devRef .tc main_v128)) (V (Proc.devRef .tc main_arg1)) (Cert.Spec.norm (V (Proc.devRef .tc main_arg1)) (V (Proc.devRef .tc main_arg2))) := by
  after_results_simp
  rw [h.src, h.dst, h.nrm]
  rfl

/-- Stretch 10: argument 9 (a bias or slope vector) as a row. -/
theorem host10_row_main_v142 {V S : Valuation τ sig (Elt F)} (h : KKept V S) :
    after hostOps10 S (Proc.devRef .tc main_v142) = rowOf (V (Proc.devRef .tc main_arg9)) := by
  after_results_simp
  rw [h.a9]
  exact reshape_row _ _

/-- A buffer stretch 11 does not write keeps its contents. -/
theorem host11_keep {b : Ref sig .tc} (hb : b ∉ hwr11) (S : Valuation τ sig (Elt F)) :
    after hostOps11 S (Proc.devRef .tc b) = S (Proc.devRef .tc b) :=
  after_unwritten hwrites11 hb S

/-- The arguments, the two edge rows and the normalised weights pass through stretch 11. -/
theorem host11_kept {V S : Valuation τ sig (Elt F)} (h : KKept V S) : KKept V (after hostOps11 S) :=
  ⟨⟨(host11_keep (by decide) S).trans h.a0,
    (host11_keep (by decide) S).trans h.a1,
    (host11_keep (by decide) S).trans h.a2,
    (host11_keep (by decide) S).trans h.a3,
    (host11_keep (by decide) S).trans h.a4,
    (host11_keep (by decide) S).trans h.a5,
    (host11_keep (by decide) S).trans h.a6,
    (host11_keep (by decide) S).trans h.a7,
    (host11_keep (by decide) S).trans h.a8,
    (host11_keep (by decide) S).trans h.a9,
    (host11_keep (by decide) S).trans h.a10,
    (host11_keep (by decide) S).trans h.a11,
    (host11_keep (by decide) S).trans h.a12,
    (host11_keep (by decide) S).trans h.a13,
    (host11_keep (by decide) S).trans h.a14,
    (host11_keep (by decide) S).trans h.a15,
    (host11_keep (by decide) S).trans h.a16⟩,
    (host11_keep (by decide) S).trans h.src, (host11_keep (by decide) S).trans h.dst, (host11_keep (by decide) S).trans h.nrm⟩

/-- Stretch 11: argument 11 (a bias or slope vector) as a row. -/
theorem host11_row_main_v144 {V S : Valuation τ sig (Elt F)} (h : KKept V S) :
    after hostOps11 S (Proc.devRef .tc main_v144) = rowOf (V (Proc.devRef .tc main_arg11)) := by
  after_results_simp
  rw [h.a11]
  exact reshape_row _ _

/-- A buffer stretch 12 does not write keeps its contents. -/
theorem host12_keep {b : Ref sig .tc} (hb : b ∉ hwr12) (S : Valuation τ sig (Elt F)) :
    after hostOps12 S (Proc.devRef .tc b) = S (Proc.devRef .tc b) :=
  after_unwritten hwrites12 hb S

/-- The arguments, the two edge rows and the normalised weights pass through stretch 12. -/
theorem host12_kept {V S : Valuation τ sig (Elt F)} (h : KKept V S) : KKept V (after hostOps12 S) :=
  ⟨⟨(host12_keep (by decide) S).trans h.a0,
    (host12_keep (by decide) S).trans h.a1,
    (host12_keep (by decide) S).trans h.a2,
    (host12_keep (by decide) S).trans h.a3,
    (host12_keep (by decide) S).trans h.a4,
    (host12_keep (by decide) S).trans h.a5,
    (host12_keep (by decide) S).trans h.a6,
    (host12_keep (by decide) S).trans h.a7,
    (host12_keep (by decide) S).trans h.a8,
    (host12_keep (by decide) S).trans h.a9,
    (host12_keep (by decide) S).trans h.a10,
    (host12_keep (by decide) S).trans h.a11,
    (host12_keep (by decide) S).trans h.a12,
    (host12_keep (by decide) S).trans h.a13,
    (host12_keep (by decide) S).trans h.a14,
    (host12_keep (by decide) S).trans h.a15,
    (host12_keep (by decide) S).trans h.a16⟩,
    (host12_keep (by decide) S).trans h.src, (host12_keep (by decide) S).trans h.dst, (host12_keep (by decide) S).trans h.nrm⟩

/-- Stretch 12: the weighted neighbourhood sum along the edges of what the state holds at the preceding region's output. -/
theorem host12_conv {V S : Valuation τ sig (Elt F)} (h : KKept V S) :
    after hostOps12 S (Proc.devRef .tc main_v158)
      = Cert.Spec.conv (S (Proc.devRef .tc main_v145)) (V (Proc.devRef .tc main_arg1)) (Cert.Spec.norm (V (Proc.devRef .tc main_arg1)) (V (Proc.devRef .tc main_arg2))) := by
  after_results_simp
  rw [h.src, h.dst, h.nrm]
  rfl

/-- Stretch 12: argument 14 (a bias or slope vector) as a row. -/
theorem host12_row_main_v159 {V S : Valuation τ sig (Elt F)} (h : KKept V S) :
    after hostOps12 S (Proc.devRef .tc main_v159) = rowOf (V (Proc.devRef .tc main_arg14)) := by
  after_results_simp
  rw [h.a14]
  exact reshape_row _ _

/-- Stretch 12: argument 13 (a bias or slope vector) as a row. -/
theorem host12_row_main_v160 {V S : Valuation τ sig (Elt F)} (h : KKept V S) :
    after hostOps12 S (Proc.devRef .tc main_v160) = rowOf (V (Proc.devRef .tc main_arg13)) := by
  after_results_simp
  rw [h.a13]
  exact reshape_row _ _

/-- A buffer stretch 13 does not write keeps its contents. -/
theorem host13_keep {b : Ref sig .tc} (hb : b ∉ hwr13) (S : Valuation τ sig (Elt F)) :
    after hostOps13 S (Proc.devRef .tc b) = S (Proc.devRef .tc b) :=
  after_unwritten hwrites13 hb S

/-- The arguments, the two edge rows and the normalised weights pass through stretch 13. -/
theorem host13_kept {V S : Valuation τ sig (Elt F)} (h : KKept V S) : KKept V (after hostOps13 S) :=
  ⟨⟨(host13_keep (by decide) S).trans h.a0,
    (host13_keep (by decide) S).trans h.a1,
    (host13_keep (by decide) S).trans h.a2,
    (host13_keep (by decide) S).trans h.a3,
    (host13_keep (by decide) S).trans h.a4,
    (host13_keep (by decide) S).trans h.a5,
    (host13_keep (by decide) S).trans h.a6,
    (host13_keep (by decide) S).trans h.a7,
    (host13_keep (by decide) S).trans h.a8,
    (host13_keep (by decide) S).trans h.a9,
    (host13_keep (by decide) S).trans h.a10,
    (host13_keep (by decide) S).trans h.a11,
    (host13_keep (by decide) S).trans h.a12,
    (host13_keep (by decide) S).trans h.a13,
    (host13_keep (by decide) S).trans h.a14,
    (host13_keep (by decide) S).trans h.a15,
    (host13_keep (by decide) S).trans h.a16⟩,
    (host13_keep (by decide) S).trans h.src, (host13_keep (by decide) S).trans h.dst, (host13_keep (by decide) S).trans h.nrm⟩

/-- Stretch 13: the weighted neighbourhood sum along the edges of what the state holds at the preceding region's output. -/
theorem host13_conv {V S : Valuation τ sig (Elt F)} (h : KKept V S) :
    after hostOps13 S (Proc.devRef .tc main_v174)
      = Cert.Spec.conv (S (Proc.devRef .tc main_v161)) (V (Proc.devRef .tc main_arg1)) (Cert.Spec.norm (V (Proc.devRef .tc main_arg1)) (V (Proc.devRef .tc main_arg2))) := by
  after_results_simp
  rw [h.src, h.dst, h.nrm]
  rfl

/-- Stretch 13: argument 14 (a bias or slope vector) as a row. -/
theorem host13_row_main_v175 {V S : Valuation τ sig (Elt F)} (h : KKept V S) :
    after hostOps13 S (Proc.devRef .tc main_v175) = rowOf (V (Proc.devRef .tc main_arg14)) := by
  after_results_simp
  rw [h.a14]
  exact reshape_row _ _

end Cert.KernelIdeal.Hand

end
-- ==== Proof.KIH.Results.lean ====
/-
  The tiled program's six results in the reference's terms. Walking the boundary contents from the launch: a host
  stretch leaves the weighted neighbourhood sum, a permutation of the node features, or a bias or slope vector as a
  row; a tiled region leaves in its output array the affine layer, the rectifier followed by the affine layer, the
  rectifier, or the pooled projection of the arrays it was entered with; every other buffer keeps its contents. The
  last boundary holds, at the six result buffers, the two encodings, the two summaries and the two corrupted
  encodings as the same composites of the launched arguments as the reference's results.
-/
import proofs.«113219_j18691697672631_1_alg».proof.Proof.KI.Chain
import proofs.«113219_j18691697672631_1_alg».proof.Proof.KIV.Linear0Value
import proofs.«113219_j18691697672631_1_alg».proof.Proof.KIV.PreluLinear1Value
import proofs.«113219_j18691697672631_1_alg».proof.Proof.KIV.Prelu2Value
import proofs.«113219_j18691697672631_1_alg».proof.Proof.KIV.Linear3Value
import proofs.«113219_j18691697672631_1_alg».proof.Proof.KIV.PreluLinear4Value
import proofs.«113219_j18691697672631_1_alg».proof.Proof.KIV.Prelu5Value
import proofs.«113219_j18691697672631_1_alg».proof.Proof.KIV.Linear8Value
import proofs.«113219_j18691697672631_1_alg».proof.Proof.KIV.PreluLinear9Value
import proofs.«113219_j18691697672631_1_alg».proof.Proof.KIV.Prelu10Value
import proofs.«113219_j18691697672631_1_alg».proof.Proof.KIV.Linear11Value
import proofs.«113219_j18691697672631_1_alg».proof.Proof.KIV.PreluLinear12Value
import proofs.«113219_j18691697672631_1_alg».proof.Proof.KIV.Prelu13Value
import proofs.«113219_j18691697672631_1_alg».proof.Proof.KIH.Host

noncomputable section

namespace Cert.KernelIdeal.Hand

open Cert.KernelIdeal Cert.KernelIdeal.Gen Idealize.ShloMosaic Idealize.ShloMosaic.TcCoe Idealize.SL.Sem Idealize.ShloMosaic.StableHlo

variable [Cert.ReferenceIdeal.Facts₀]

set_option maxHeartbeats 4000000 in
set_option maxRecDepth 8192 in
/-- The six results of the tiled program at the last boundary, as composites of the launched arguments, given the
    values of the two pooling regions. -/
theorem kvals_of (m : (ℓ : Loc nD τ sig) → Buf (Elt Ideal) ℓ) (c : Dev nD)
    (hv6 : (dat6 (F := Ideal) (tcv (U15 m)) c).arrAt 3 cfg6.N
      = Cert.Spec.poolRow (U15 m c (Proc.devRef .tc main_v59)) (U15 m c (Proc.devRef .tc main_arg15)) (U15 m c (Proc.devRef .tc main_v93)))
    (hv7 : (dat7 (F := Ideal) (tcv (U17 m)) c).arrAt 3 cfg7.N
      = Cert.Spec.poolRow (U17 m c (Proc.devRef .tc main_v92)) (U17 m c (Proc.devRef .tc main_arg15)) (U17 m c (Proc.devRef .tc main_v95))) :
    U30 m c (Proc.devRef .tc main_v59) = Cert.Spec.gconv (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    ∧ U30 m c (Proc.devRef .tc main_v92) = Cert.Spec.gconv (m ((c.tc : Thread nD τ).loc main_arg0)) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
    ∧ U30 m c (Proc.devRef .tc main_v94) = Cert.Spec.pool (Cert.Spec.gconv (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg15)) (m ((c.tc : Thread nD τ).loc main_arg16))
    ∧ U30 m c (Proc.devRef .tc main_v96) = Cert.Spec.pool (Cert.Spec.gconv (m ((c.tc : Thread nD τ).loc main_arg0)) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg15)) (m ((c.tc : Thread nD τ).loc main_arg16))
    ∧ U30 m c (Proc.devRef .tc main_v143) = Cert.Spec.gconv (Cert.Spec.permute (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    ∧ U30 m c (Proc.devRef .tc main_v176) = Cert.Spec.gconv (Cert.Spec.permute (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have k3 : KKept (V0 m c) (U3 m c) := host0_kept (V0 m c)
  have f3_main_v27 : U3 m c (Proc.devRef .tc main_v27) = rowOf (V0 m c (Proc.devRef .tc main_arg6)) := host0_row_main_v27 (V0 m c)
  -- region 0
  have e4 : U4 m c (Proc.devRef .tc main_v28) = Cert.Spec.linRow (U3 m c (Proc.devRef .tc main_arg0)) (U3 m c (Proc.devRef .tc main_arg5)) (U3 m c (Proc.devRef .tc main_v27)) :=
    (U4_out m c).trans (value0 (tcv (U3 m)) c)
  have f4_main_v28 : U4 m c (Proc.devRef .tc main_v28) = (Cert.Spec.lin (V0 m c (Proc.devRef .tc main_arg0)) (V0 m c (Proc.devRef .tc main_arg5)) (V0 m c (Proc.devRef .tc main_arg6))) := by
    rw [e4, k3.a0, k3.a5, f3_main_v27] <;> rfl
  have k4 : KKept (V0 m c) (U4 m c) :=
    ⟨⟨(U4_ne m c main_arg0 (by decide)).trans k3.a0, (U4_ne m c main_arg1 (by decide)).trans k3.a1, (U4_ne m c main_arg2 (by decide)).trans k3.a2, (U4_ne m c main_arg3 (by decide)).trans k3.a3, (U4_ne m c main_arg4 (by decide)).trans k3.a4, (U4_ne m c main_arg5 (by decide)).trans k3.a5, (U4_ne m c main_arg6 (by decide)).trans k3.a6, (U4_ne m c main_arg7 (by decide)).trans k3.a7, (U4_ne m c main_arg8 (by decide)).trans k3.a8, (U4_ne m c main_arg9 (by decide)).trans k3.a9, (U4_ne m c main_arg10 (by decide)).trans k3.a10, (U4_ne m c main_arg11 (by decide)).trans k3.a11, (U4_ne m c main_arg12 (by decide)).trans k3.a12, (U4_ne m c main_arg13 (by decide)).trans k3.a13, (U4_ne m c main_arg14 (by decide)).trans k3.a14, (U4_ne m c main_arg15 (by decide)).trans k3.a15, (U4_ne m c main_arg16 (by decide)).trans k3.a16⟩,
      (U4_ne m c main_v1 (by decide)).trans k3.src, (U4_ne m c main_v3 (by decide)).trans k3.dst, (U4_ne m c main_v26 (by decide)).trans k3.nrm⟩
  -- host stretch 1
  have f5_main_v41 : U5 m c (Proc.devRef .tc main_v41) = (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) :=
    (host1_conv k4).trans (congrArg (fun z => Cert.Spec.conv z (V0 m c (Proc.devRef .tc main_arg1)) (Cert.Spec.norm (V0 m c (Proc.devRef .tc main_arg1)) (V0 m c (Proc.devRef .tc main_arg2)))) f4_main_v28)
  have f5_main_v42 : U5 m c (Proc.devRef .tc main_v42) = rowOf (V0 m c (Proc.devRef .tc main_arg9)) := host1_row_main_v42 k4
  have f5_main_v43 : U5 m c (Proc.devRef .tc main_v43) = rowOf (V0 m c (Proc.devRef .tc main_arg8)) := host1_row_main_v43 k4
  have k5 : KKept (V0 m c) (U5 m c) := host1_kept k4
  -- region 1
  have e6 : U6 m c (Proc.devRef .tc main_v44) = Cert.Spec.linRow (Cert.Spec.preluRow (U5 m c (Proc.devRef .tc main_v41)) (U5 m c (Proc.devRef .tc main_v42))) (U5 m c (Proc.devRef .tc main_arg7)) (U5 m c (Proc.devRef .tc main_v43)) :=
    (U6_out m c).trans (value1 (tcv (U5 m)) c)
  have f6_main_v44 : U6 m c (Proc.devRef .tc main_v44) = (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) := by
    rw [e6, f5_main_v41, f5_main_v42, k5.a7, f5_main_v43] <;> rfl
  have k6 : KKept (V0 m c) (U6 m c) :=
    ⟨⟨(U6_ne m c main_arg0 (by decide)).trans k5.a0, (U6_ne m c main_arg1 (by decide)).trans k5.a1, (U6_ne m c main_arg2 (by decide)).trans k5.a2, (U6_ne m c main_arg3 (by decide)).trans k5.a3, (U6_ne m c main_arg4 (by decide)).trans k5.a4, (U6_ne m c main_arg5 (by decide)).trans k5.a5, (U6_ne m c main_arg6 (by decide)).trans k5.a6, (U6_ne m c main_arg7 (by decide)).trans k5.a7, (U6_ne m c main_arg8 (by decide)).trans k5.a8, (U6_ne m c main_arg9 (by decide)).trans k5.a9, (U6_ne m c main_arg10 (by decide)).trans k5.a10, (U6_ne m c main_arg11 (by decide)).trans k5.a11, (U6_ne m c main_arg12 (by decide)).trans k5.a12, (U6_ne m c main_arg13 (by decide)).trans k5.a13, (U6_ne m c main_arg14 (by decide)).trans k5.a14, (U6_ne m c main_arg15 (by decide)).trans k5.a15, (U6_ne m c main_arg16 (by decide)).trans k5.a16⟩,
      (U6_ne m c main_v1 (by decide)).trans k5.src, (U6_ne m c main_v3 (by decide)).trans k5.dst, (U6_ne m c main_v26 (by decide)).trans k5.nrm⟩
  -- host stretch 2
  have f7_main_v57 : U7 m c (Proc.devRef .tc main_v57) = (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) :=
    (host2_conv k6).trans (congrArg (fun z => Cert.Spec.conv z (V0 m c (Proc.devRef .tc main_arg1)) (Cert.Spec.norm (V0 m c (Proc.devRef .tc main_arg1)) (V0 m c (Proc.devRef .tc main_arg2)))) f6_main_v44)
  have f7_main_v58 : U7 m c (Proc.devRef .tc main_v58) = rowOf (V0 m c (Proc.devRef .tc main_arg9)) := host2_row_main_v58 k6
  have k7 : KKept (V0 m c) (U7 m c) := host2_kept k6
  -- region 2
  have e8 : U8 m c (Proc.devRef .tc main_v59) = Cert.Spec.preluRow (U7 m c (Proc.devRef .tc main_v57)) (U7 m c (Proc.devRef .tc main_v58)) :=
    (U8_out m c).trans (value2 (tcv (U7 m)) c)
  have f8_main_v59 : U8 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := by
    rw [e8, f7_main_v57, f7_main_v58] <;> rfl
  have k8 : KKept (V0 m c) (U8 m c) :=
    ⟨⟨(U8_ne m c main_arg0 (by decide)).trans k7.a0, (U8_ne m c main_arg1 (by decide)).trans k7.a1, (U8_ne m c main_arg2 (by decide)).trans k7.a2, (U8_ne m c main_arg3 (by decide)).trans k7.a3, (U8_ne m c main_arg4 (by decide)).trans k7.a4, (U8_ne m c main_arg5 (by decide)).trans k7.a5, (U8_ne m c main_arg6 (by decide)).trans k7.a6, (U8_ne m c main_arg7 (by decide)).trans k7.a7, (U8_ne m c main_arg8 (by decide)).trans k7.a8, (U8_ne m c main_arg9 (by decide)).trans k7.a9, (U8_ne m c main_arg10 (by decide)).trans k7.a10, (U8_ne m c main_arg11 (by decide)).trans k7.a11, (U8_ne m c main_arg12 (by decide)).trans k7.a12, (U8_ne m c main_arg13 (by decide)).trans k7.a13, (U8_ne m c main_arg14 (by decide)).trans k7.a14, (U8_ne m c main_arg15 (by decide)).trans k7.a15, (U8_ne m c main_arg16 (by decide)).trans k7.a16⟩,
      (U8_ne m c main_v1 (by decide)).trans k7.src, (U8_ne m c main_v3 (by decide)).trans k7.dst, (U8_ne m c main_v26 (by decide)).trans k7.nrm⟩
  -- host stretch 3
  have f9_main_v60 : U9 m c (Proc.devRef .tc main_v60) = rowOf (V0 m c (Proc.devRef .tc main_arg11)) := host3_row_main_v60 k8
  have f9_main_v59 : U9 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (host3_keep (b := main_v59) (by decide) (U8 m c)).trans f8_main_v59
  have k9 : KKept (V0 m c) (U9 m c) := host3_kept k8
  -- region 3
  have e10 : U10 m c (Proc.devRef .tc main_v61) = Cert.Spec.linRow (U9 m c (Proc.devRef .tc main_arg0)) (U9 m c (Proc.devRef .tc main_arg10)) (U9 m c (Proc.devRef .tc main_v60)) :=
    (U10_out m c).trans (value3 (tcv (U9 m)) c)
  have f10_main_v61 : U10 m c (Proc.devRef .tc main_v61) = (Cert.Spec.lin (V0 m c (Proc.devRef .tc main_arg0)) (V0 m c (Proc.devRef .tc main_arg10)) (V0 m c (Proc.devRef .tc main_arg11))) := by
    rw [e10, k9.a0, k9.a10, f9_main_v60] <;> rfl
  have f10_main_v59 : U10 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (U10_ne m c main_v59 (by decide)).trans f9_main_v59
  have k10 : KKept (V0 m c) (U10 m c) :=
    ⟨⟨(U10_ne m c main_arg0 (by decide)).trans k9.a0, (U10_ne m c main_arg1 (by decide)).trans k9.a1, (U10_ne m c main_arg2 (by decide)).trans k9.a2, (U10_ne m c main_arg3 (by decide)).trans k9.a3, (U10_ne m c main_arg4 (by decide)).trans k9.a4, (U10_ne m c main_arg5 (by decide)).trans k9.a5, (U10_ne m c main_arg6 (by decide)).trans k9.a6, (U10_ne m c main_arg7 (by decide)).trans k9.a7, (U10_ne m c main_arg8 (by decide)).trans k9.a8, (U10_ne m c main_arg9 (by decide)).trans k9.a9, (U10_ne m c main_arg10 (by decide)).trans k9.a10, (U10_ne m c main_arg11 (by decide)).trans k9.a11, (U10_ne m c main_arg12 (by decide)).trans k9.a12, (U10_ne m c main_arg13 (by decide)).trans k9.a13, (U10_ne m c main_arg14 (by decide)).trans k9.a14, (U10_ne m c main_arg15 (by decide)).trans k9.a15, (U10_ne m c main_arg16 (by decide)).trans k9.a16⟩,
      (U10_ne m c main_v1 (by decide)).trans k9.src, (U10_ne m c main_v3 (by decide)).trans k9.dst, (U10_ne m c main_v26 (by decide)).trans k9.nrm⟩
  -- host stretch 4
  have f11_main_v74 : U11 m c (Proc.devRef .tc main_v74) = (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) :=
    (host4_conv k10).trans (congrArg (fun z => Cert.Spec.conv z (V0 m c (Proc.devRef .tc main_arg1)) (Cert.Spec.norm (V0 m c (Proc.devRef .tc main_arg1)) (V0 m c (Proc.devRef .tc main_arg2)))) f10_main_v61)
  have f11_main_v75 : U11 m c (Proc.devRef .tc main_v75) = rowOf (V0 m c (Proc.devRef .tc main_arg14)) := host4_row_main_v75 k10
  have f11_main_v76 : U11 m c (Proc.devRef .tc main_v76) = rowOf (V0 m c (Proc.devRef .tc main_arg13)) := host4_row_main_v76 k10
  have f11_main_v59 : U11 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (host4_keep (b := main_v59) (by decide) (U10 m c)).trans f10_main_v59
  have k11 : KKept (V0 m c) (U11 m c) := host4_kept k10
  -- region 4
  have e12 : U12 m c (Proc.devRef .tc main_v77) = Cert.Spec.linRow (Cert.Spec.preluRow (U11 m c (Proc.devRef .tc main_v74)) (U11 m c (Proc.devRef .tc main_v75))) (U11 m c (Proc.devRef .tc main_arg12)) (U11 m c (Proc.devRef .tc main_v76)) :=
    (U12_out m c).trans (value4 (tcv (U11 m)) c)
  have f12_main_v77 : U12 m c (Proc.devRef .tc main_v77) = (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) := by
    rw [e12, f11_main_v74, f11_main_v75, k11.a12, f11_main_v76] <;> rfl
  have f12_main_v59 : U12 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (U12_ne m c main_v59 (by decide)).trans f11_main_v59
  have k12 : KKept (V0 m c) (U12 m c) :=
    ⟨⟨(U12_ne m c main_arg0 (by decide)).trans k11.a0, (U12_ne m c main_arg1 (by decide)).trans k11.a1, (U12_ne m c main_arg2 (by decide)).trans k11.a2, (U12_ne m c main_arg3 (by decide)).trans k11.a3, (U12_ne m c main_arg4 (by decide)).trans k11.a4, (U12_ne m c main_arg5 (by decide)).trans k11.a5, (U12_ne m c main_arg6 (by decide)).trans k11.a6, (U12_ne m c main_arg7 (by decide)).trans k11.a7, (U12_ne m c main_arg8 (by decide)).trans k11.a8, (U12_ne m c main_arg9 (by decide)).trans k11.a9, (U12_ne m c main_arg10 (by decide)).trans k11.a10, (U12_ne m c main_arg11 (by decide)).trans k11.a11, (U12_ne m c main_arg12 (by decide)).trans k11.a12, (U12_ne m c main_arg13 (by decide)).trans k11.a13, (U12_ne m c main_arg14 (by decide)).trans k11.a14, (U12_ne m c main_arg15 (by decide)).trans k11.a15, (U12_ne m c main_arg16 (by decide)).trans k11.a16⟩,
      (U12_ne m c main_v1 (by decide)).trans k11.src, (U12_ne m c main_v3 (by decide)).trans k11.dst, (U12_ne m c main_v26 (by decide)).trans k11.nrm⟩
  -- host stretch 5
  have f13_main_v90 : U13 m c (Proc.devRef .tc main_v90) = (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) :=
    (host5_conv k12).trans (congrArg (fun z => Cert.Spec.conv z (V0 m c (Proc.devRef .tc main_arg1)) (Cert.Spec.norm (V0 m c (Proc.devRef .tc main_arg1)) (V0 m c (Proc.devRef .tc main_arg2)))) f12_main_v77)
  have f13_main_v91 : U13 m c (Proc.devRef .tc main_v91) = rowOf (V0 m c (Proc.devRef .tc main_arg14)) := host5_row_main_v91 k12
  have f13_main_v59 : U13 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (host5_keep (b := main_v59) (by decide) (U12 m c)).trans f12_main_v59
  have k13 : KKept (V0 m c) (U13 m c) := host5_kept k12
  -- region 5
  have e14 : U14 m c (Proc.devRef .tc main_v92) = Cert.Spec.preluRow (U13 m c (Proc.devRef .tc main_v90)) (U13 m c (Proc.devRef .tc main_v91)) :=
    (U14_out m c).trans (value5 (tcv (U13 m)) c)
  have f14_main_v92 : U14 m c (Proc.devRef .tc main_v92) = (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) := by
    rw [e14, f13_main_v90, f13_main_v91] <;> rfl
  have f14_main_v59 : U14 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (U14_ne m c main_v59 (by decide)).trans f13_main_v59
  have k14 : KKept (V0 m c) (U14 m c) :=
    ⟨⟨(U14_ne m c main_arg0 (by decide)).trans k13.a0, (U14_ne m c main_arg1 (by decide)).trans k13.a1, (U14_ne m c main_arg2 (by decide)).trans k13.a2, (U14_ne m c main_arg3 (by decide)).trans k13.a3, (U14_ne m c main_arg4 (by decide)).trans k13.a4, (U14_ne m c main_arg5 (by decide)).trans k13.a5, (U14_ne m c main_arg6 (by decide)).trans k13.a6, (U14_ne m c main_arg7 (by decide)).trans k13.a7, (U14_ne m c main_arg8 (by decide)).trans k13.a8, (U14_ne m c main_arg9 (by decide)).trans k13.a9, (U14_ne m c main_arg10 (by decide)).trans k13.a10, (U14_ne m c main_arg11 (by decide)).trans k13.a11, (U14_ne m c main_arg12 (by decide)).trans k13.a12, (U14_ne m c main_arg13 (by decide)).trans k13.a13, (U14_ne m c main_arg14 (by decide)).trans k13.a14, (U14_ne m c main_arg15 (by decide)).trans k13.a15, (U14_ne m c main_arg16 (by decide)).trans k13.a16⟩,
      (U14_ne m c main_v1 (by decide)).trans k13.src, (U14_ne m c main_v3 (by decide)).trans k13.dst, (U14_ne m c main_v26 (by decide)).trans k13.nrm⟩
  -- host stretch 6
  have f15_main_v93 : U15 m c (Proc.devRef .tc main_v93) = rowOf (V0 m c (Proc.devRef .tc main_arg16)) := host6_row_main_v93 k14
  have f15_main_v92 : U15 m c (Proc.devRef .tc main_v92) = (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) := (host6_keep (b := main_v92) (by decide) (U14 m c)).trans f14_main_v92
  have f15_main_v59 : U15 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (host6_keep (b := main_v59) (by decide) (U14 m c)).trans f14_main_v59
  have k15 : KKept (V0 m c) (U15 m c) := host6_kept k14
  -- region 6
  have e16 : U16 m c (Proc.devRef .tc main_v94) = Cert.Spec.poolRow (U15 m c (Proc.devRef .tc main_v59)) (U15 m c (Proc.devRef .tc main_arg15)) (U15 m c (Proc.devRef .tc main_v93)) :=
    (U16_out m c).trans hv6
  have f16_main_v94 : U16 m c (Proc.devRef .tc main_v94) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg15)) (V0 m c (Proc.devRef .tc main_arg16))) := by
    rw [e16, f15_main_v59, k15.a15, f15_main_v93] <;> rfl
  have f16_main_v92 : U16 m c (Proc.devRef .tc main_v92) = (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) := (U16_ne m c main_v92 (by decide)).trans f15_main_v92
  have f16_main_v59 : U16 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (U16_ne m c main_v59 (by decide)).trans f15_main_v59
  have k16 : KKept (V0 m c) (U16 m c) :=
    ⟨⟨(U16_ne m c main_arg0 (by decide)).trans k15.a0, (U16_ne m c main_arg1 (by decide)).trans k15.a1, (U16_ne m c main_arg2 (by decide)).trans k15.a2, (U16_ne m c main_arg3 (by decide)).trans k15.a3, (U16_ne m c main_arg4 (by decide)).trans k15.a4, (U16_ne m c main_arg5 (by decide)).trans k15.a5, (U16_ne m c main_arg6 (by decide)).trans k15.a6, (U16_ne m c main_arg7 (by decide)).trans k15.a7, (U16_ne m c main_arg8 (by decide)).trans k15.a8, (U16_ne m c main_arg9 (by decide)).trans k15.a9, (U16_ne m c main_arg10 (by decide)).trans k15.a10, (U16_ne m c main_arg11 (by decide)).trans k15.a11, (U16_ne m c main_arg12 (by decide)).trans k15.a12, (U16_ne m c main_arg13 (by decide)).trans k15.a13, (U16_ne m c main_arg14 (by decide)).trans k15.a14, (U16_ne m c main_arg15 (by decide)).trans k15.a15, (U16_ne m c main_arg16 (by decide)).trans k15.a16⟩,
      (U16_ne m c main_v1 (by decide)).trans k15.src, (U16_ne m c main_v3 (by decide)).trans k15.dst, (U16_ne m c main_v26 (by decide)).trans k15.nrm⟩
  -- host stretch 7
  have f17_main_v95 : U17 m c (Proc.devRef .tc main_v95) = rowOf (V0 m c (Proc.devRef .tc main_arg16)) := host7_row_main_v95 k16
  have f17_main_v94 : U17 m c (Proc.devRef .tc main_v94) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg15)) (V0 m c (Proc.devRef .tc main_arg16))) := (host7_keep (b := main_v94) (by decide) (U16 m c)).trans f16_main_v94
  have f17_main_v92 : U17 m c (Proc.devRef .tc main_v92) = (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) := (host7_keep (b := main_v92) (by decide) (U16 m c)).trans f16_main_v92
  have f17_main_v59 : U17 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (host7_keep (b := main_v59) (by decide) (U16 m c)).trans f16_main_v59
  have k17 : KKept (V0 m c) (U17 m c) := host7_kept k16
  -- region 7
  have e18 : U18 m c (Proc.devRef .tc main_v96) = Cert.Spec.poolRow (U17 m c (Proc.devRef .tc main_v92)) (U17 m c (Proc.devRef .tc main_arg15)) (U17 m c (Proc.devRef .tc main_v95)) :=
    (U18_out m c).trans hv7
  have f18_main_v96 : U18 m c (Proc.devRef .tc main_v96) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg15)) (V0 m c (Proc.devRef .tc main_arg16))) := by
    rw [e18, f17_main_v92, k17.a15, f17_main_v95] <;> rfl
  have f18_main_v94 : U18 m c (Proc.devRef .tc main_v94) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg15)) (V0 m c (Proc.devRef .tc main_arg16))) := (U18_ne m c main_v94 (by decide)).trans f17_main_v94
  have f18_main_v92 : U18 m c (Proc.devRef .tc main_v92) = (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) := (U18_ne m c main_v92 (by decide)).trans f17_main_v92
  have f18_main_v59 : U18 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (U18_ne m c main_v59 (by decide)).trans f17_main_v59
  have k18 : KKept (V0 m c) (U18 m c) :=
    ⟨⟨(U18_ne m c main_arg0 (by decide)).trans k17.a0, (U18_ne m c main_arg1 (by decide)).trans k17.a1, (U18_ne m c main_arg2 (by decide)).trans k17.a2, (U18_ne m c main_arg3 (by decide)).trans k17.a3, (U18_ne m c main_arg4 (by decide)).trans k17.a4, (U18_ne m c main_arg5 (by decide)).trans k17.a5, (U18_ne m c main_arg6 (by decide)).trans k17.a6, (U18_ne m c main_arg7 (by decide)).trans k17.a7, (U18_ne m c main_arg8 (by decide)).trans k17.a8, (U18_ne m c main_arg9 (by decide)).trans k17.a9, (U18_ne m c main_arg10 (by decide)).trans k17.a10, (U18_ne m c main_arg11 (by decide)).trans k17.a11, (U18_ne m c main_arg12 (by decide)).trans k17.a12, (U18_ne m c main_arg13 (by decide)).trans k17.a13, (U18_ne m c main_arg14 (by decide)).trans k17.a14, (U18_ne m c main_arg15 (by decide)).trans k17.a15, (U18_ne m c main_arg16 (by decide)).trans k17.a16⟩,
      (U18_ne m c main_v1 (by decide)).trans k17.src, (U18_ne m c main_v3 (by decide)).trans k17.dst, (U18_ne m c main_v26 (by decide)).trans k17.nrm⟩
  -- host stretch 8
  have f19_main_v111 : U19 m c (Proc.devRef .tc main_v111) = rowOf (V0 m c (Proc.devRef .tc main_arg6)) := host8_row_main_v111 k18
  have f19_main_v103 : U19 m c (Proc.devRef .tc main_v103) = (Cert.Spec.permute (V0 m c (Proc.devRef .tc main_arg0)) (V0 m c (Proc.devRef .tc main_arg3))) := host8_perm_main_v103 k18
  have f19_main_v110 : U19 m c (Proc.devRef .tc main_v110) = (Cert.Spec.permute (V0 m c (Proc.devRef .tc main_arg0)) (V0 m c (Proc.devRef .tc main_arg4))) := host8_perm_main_v110 k18
  have f19_main_v96 : U19 m c (Proc.devRef .tc main_v96) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg15)) (V0 m c (Proc.devRef .tc main_arg16))) := (host8_keep (b := main_v96) (by decide) (U18 m c)).trans f18_main_v96
  have f19_main_v94 : U19 m c (Proc.devRef .tc main_v94) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg15)) (V0 m c (Proc.devRef .tc main_arg16))) := (host8_keep (b := main_v94) (by decide) (U18 m c)).trans f18_main_v94
  have f19_main_v92 : U19 m c (Proc.devRef .tc main_v92) = (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) := (host8_keep (b := main_v92) (by decide) (U18 m c)).trans f18_main_v92
  have f19_main_v59 : U19 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (host8_keep (b := main_v59) (by decide) (U18 m c)).trans f18_main_v59
  have k19 : KKept (V0 m c) (U19 m c) := host8_kept k18
  -- region 8
  have e20 : U20 m c (Proc.devRef .tc main_v112) = Cert.Spec.linRow (U19 m c (Proc.devRef .tc main_v103)) (U19 m c (Proc.devRef .tc main_arg5)) (U19 m c (Proc.devRef .tc main_v111)) :=
    (U20_out m c).trans (value8 (tcv (U19 m)) c)
  have f20_main_v112 : U20 m c (Proc.devRef .tc main_v112) = (Cert.Spec.lin (Cert.Spec.permute (V0 m c (Proc.devRef .tc main_arg0)) (V0 m c (Proc.devRef .tc main_arg3))) (V0 m c (Proc.devRef .tc main_arg5)) (V0 m c (Proc.devRef .tc main_arg6))) := by
    rw [e20, f19_main_v103, k19.a5, f19_main_v111] <;> rfl
  have f20_main_v110 : U20 m c (Proc.devRef .tc main_v110) = (Cert.Spec.permute (V0 m c (Proc.devRef .tc main_arg0)) (V0 m c (Proc.devRef .tc main_arg4))) := (U20_ne m c main_v110 (by decide)).trans f19_main_v110
  have f20_main_v96 : U20 m c (Proc.devRef .tc main_v96) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg15)) (V0 m c (Proc.devRef .tc main_arg16))) := (U20_ne m c main_v96 (by decide)).trans f19_main_v96
  have f20_main_v94 : U20 m c (Proc.devRef .tc main_v94) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg15)) (V0 m c (Proc.devRef .tc main_arg16))) := (U20_ne m c main_v94 (by decide)).trans f19_main_v94
  have f20_main_v92 : U20 m c (Proc.devRef .tc main_v92) = (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) := (U20_ne m c main_v92 (by decide)).trans f19_main_v92
  have f20_main_v59 : U20 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (U20_ne m c main_v59 (by decide)).trans f19_main_v59
  have k20 : KKept (V0 m c) (U20 m c) :=
    ⟨⟨(U20_ne m c main_arg0 (by decide)).trans k19.a0, (U20_ne m c main_arg1 (by decide)).trans k19.a1, (U20_ne m c main_arg2 (by decide)).trans k19.a2, (U20_ne m c main_arg3 (by decide)).trans k19.a3, (U20_ne m c main_arg4 (by decide)).trans k19.a4, (U20_ne m c main_arg5 (by decide)).trans k19.a5, (U20_ne m c main_arg6 (by decide)).trans k19.a6, (U20_ne m c main_arg7 (by decide)).trans k19.a7, (U20_ne m c main_arg8 (by decide)).trans k19.a8, (U20_ne m c main_arg9 (by decide)).trans k19.a9, (U20_ne m c main_arg10 (by decide)).trans k19.a10, (U20_ne m c main_arg11 (by decide)).trans k19.a11, (U20_ne m c main_arg12 (by decide)).trans k19.a12, (U20_ne m c main_arg13 (by decide)).trans k19.a13, (U20_ne m c main_arg14 (by decide)).trans k19.a14, (U20_ne m c main_arg15 (by decide)).trans k19.a15, (U20_ne m c main_arg16 (by decide)).trans k19.a16⟩,
      (U20_ne m c main_v1 (by decide)).trans k19.src, (U20_ne m c main_v3 (by decide)).trans k19.dst, (U20_ne m c main_v26 (by decide)).trans k19.nrm⟩
  -- host stretch 9
  have f21_main_v125 : U21 m c (Proc.devRef .tc main_v125) = (Cert.Spec.conv (Cert.Spec.lin (Cert.Spec.permute (V0 m c (Proc.devRef .tc main_arg0)) (V0 m c (Proc.devRef .tc main_arg3))) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) :=
    (host9_conv k20).trans (congrArg (fun z => Cert.Spec.conv z (V0 m c (Proc.devRef .tc main_arg1)) (Cert.Spec.norm (V0 m c (Proc.devRef .tc main_arg1)) (V0 m c (Proc.devRef .tc main_arg2)))) f20_main_v112)
  have f21_main_v126 : U21 m c (Proc.devRef .tc main_v126) = rowOf (V0 m c (Proc.devRef .tc main_arg9)) := host9_row_main_v126 k20
  have f21_main_v127 : U21 m c (Proc.devRef .tc main_v127) = rowOf (V0 m c (Proc.devRef .tc main_arg8)) := host9_row_main_v127 k20
  have f21_main_v110 : U21 m c (Proc.devRef .tc main_v110) = (Cert.Spec.permute (V0 m c (Proc.devRef .tc main_arg0)) (V0 m c (Proc.devRef .tc main_arg4))) := (host9_keep (b := main_v110) (by decide) (U20 m c)).trans f20_main_v110
  have f21_main_v96 : U21 m c (Proc.devRef .tc main_v96) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg15)) (V0 m c (Proc.devRef .tc main_arg16))) := (host9_keep (b := main_v96) (by decide) (U20 m c)).trans f20_main_v96
  have f21_main_v94 : U21 m c (Proc.devRef .tc main_v94) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg15)) (V0 m c (Proc.devRef .tc main_arg16))) := (host9_keep (b := main_v94) (by decide) (U20 m c)).trans f20_main_v94
  have f21_main_v92 : U21 m c (Proc.devRef .tc main_v92) = (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) := (host9_keep (b := main_v92) (by decide) (U20 m c)).trans f20_main_v92
  have f21_main_v59 : U21 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (host9_keep (b := main_v59) (by decide) (U20 m c)).trans f20_main_v59
  have k21 : KKept (V0 m c) (U21 m c) := host9_kept k20
  -- region 9
  have e22 : U22 m c (Proc.devRef .tc main_v128) = Cert.Spec.linRow (Cert.Spec.preluRow (U21 m c (Proc.devRef .tc main_v125)) (U21 m c (Proc.devRef .tc main_v126))) (U21 m c (Proc.devRef .tc main_arg7)) (U21 m c (Proc.devRef .tc main_v127)) :=
    (U22_out m c).trans (value9 (tcv (U21 m)) c)
  have f22_main_v128 : U22 m c (Proc.devRef .tc main_v128) = (Cert.Spec.lin (Cert.Spec.prelu (Cert.Spec.conv (Cert.Spec.lin (Cert.Spec.permute (V0 m c (Proc.devRef .tc main_arg0)) (V0 m c (Proc.devRef .tc main_arg3))) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) := by
    rw [e22, f21_main_v125, f21_main_v126, k21.a7, f21_main_v127] <;> rfl
  have f22_main_v110 : U22 m c (Proc.devRef .tc main_v110) = (Cert.Spec.permute (V0 m c (Proc.devRef .tc main_arg0)) (V0 m c (Proc.devRef .tc main_arg4))) := (U22_ne m c main_v110 (by decide)).trans f21_main_v110
  have f22_main_v96 : U22 m c (Proc.devRef .tc main_v96) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg15)) (V0 m c (Proc.devRef .tc main_arg16))) := (U22_ne m c main_v96 (by decide)).trans f21_main_v96
  have f22_main_v94 : U22 m c (Proc.devRef .tc main_v94) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg15)) (V0 m c (Proc.devRef .tc main_arg16))) := (U22_ne m c main_v94 (by decide)).trans f21_main_v94
  have f22_main_v92 : U22 m c (Proc.devRef .tc main_v92) = (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) := (U22_ne m c main_v92 (by decide)).trans f21_main_v92
  have f22_main_v59 : U22 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (U22_ne m c main_v59 (by decide)).trans f21_main_v59
  have k22 : KKept (V0 m c) (U22 m c) :=
    ⟨⟨(U22_ne m c main_arg0 (by decide)).trans k21.a0, (U22_ne m c main_arg1 (by decide)).trans k21.a1, (U22_ne m c main_arg2 (by decide)).trans k21.a2, (U22_ne m c main_arg3 (by decide)).trans k21.a3, (U22_ne m c main_arg4 (by decide)).trans k21.a4, (U22_ne m c main_arg5 (by decide)).trans k21.a5, (U22_ne m c main_arg6 (by decide)).trans k21.a6, (U22_ne m c main_arg7 (by decide)).trans k21.a7, (U22_ne m c main_arg8 (by decide)).trans k21.a8, (U22_ne m c main_arg9 (by decide)).trans k21.a9, (U22_ne m c main_arg10 (by decide)).trans k21.a10, (U22_ne m c main_arg11 (by decide)).trans k21.a11, (U22_ne m c main_arg12 (by decide)).trans k21.a12, (U22_ne m c main_arg13 (by decide)).trans k21.a13, (U22_ne m c main_arg14 (by decide)).trans k21.a14, (U22_ne m c main_arg15 (by decide)).trans k21.a15, (U22_ne m c main_arg16 (by decide)).trans k21.a16⟩,
      (U22_ne m c main_v1 (by decide)).trans k21.src, (U22_ne m c main_v3 (by decide)).trans k21.dst, (U22_ne m c main_v26 (by decide)).trans k21.nrm⟩
  -- host stretch 10
  have f23_main_v141 : U23 m c (Proc.devRef .tc main_v141) = (Cert.Spec.conv (Cert.Spec.lin (Cert.Spec.prelu (Cert.Spec.conv (Cert.Spec.lin (Cert.Spec.permute (V0 m c (Proc.devRef .tc main_arg0)) (V0 m c (Proc.devRef .tc main_arg3))) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) :=
    (host10_conv k22).trans (congrArg (fun z => Cert.Spec.conv z (V0 m c (Proc.devRef .tc main_arg1)) (Cert.Spec.norm (V0 m c (Proc.devRef .tc main_arg1)) (V0 m c (Proc.devRef .tc main_arg2)))) f22_main_v128)
  have f23_main_v142 : U23 m c (Proc.devRef .tc main_v142) = rowOf (V0 m c (Proc.devRef .tc main_arg9)) := host10_row_main_v142 k22
  have f23_main_v110 : U23 m c (Proc.devRef .tc main_v110) = (Cert.Spec.permute (V0 m c (Proc.devRef .tc main_arg0)) (V0 m c (Proc.devRef .tc main_arg4))) := (host10_keep (b := main_v110) (by decide) (U22 m c)).trans f22_main_v110
  have f23_main_v96 : U23 m c (Proc.devRef .tc main_v96) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg15)) (V0 m c (Proc.devRef .tc main_arg16))) := (host10_keep (b := main_v96) (by decide) (U22 m c)).trans f22_main_v96
  have f23_main_v94 : U23 m c (Proc.devRef .tc main_v94) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg15)) (V0 m c (Proc.devRef .tc main_arg16))) := (host10_keep (b := main_v94) (by decide) (U22 m c)).trans f22_main_v94
  have f23_main_v92 : U23 m c (Proc.devRef .tc main_v92) = (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) := (host10_keep (b := main_v92) (by decide) (U22 m c)).trans f22_main_v92
  have f23_main_v59 : U23 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (host10_keep (b := main_v59) (by decide) (U22 m c)).trans f22_main_v59
  have k23 : KKept (V0 m c) (U23 m c) := host10_kept k22
  -- region 10
  have e24 : U24 m c (Proc.devRef .tc main_v143) = Cert.Spec.preluRow (U23 m c (Proc.devRef .tc main_v141)) (U23 m c (Proc.devRef .tc main_v142)) :=
    (U24_out m c).trans (value10 (tcv (U23 m)) c)
  have f24_main_v143 : U24 m c (Proc.devRef .tc main_v143) = (Cert.Spec.prelu (Cert.Spec.conv (Cert.Spec.lin (Cert.Spec.prelu (Cert.Spec.conv (Cert.Spec.lin (Cert.Spec.permute (V0 m c (Proc.devRef .tc main_arg0)) (V0 m c (Proc.devRef .tc main_arg3))) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := by
    rw [e24, f23_main_v141, f23_main_v142] <;> rfl
  have f24_main_v110 : U24 m c (Proc.devRef .tc main_v110) = (Cert.Spec.permute (V0 m c (Proc.devRef .tc main_arg0)) (V0 m c (Proc.devRef .tc main_arg4))) := (U24_ne m c main_v110 (by decide)).trans f23_main_v110
  have f24_main_v96 : U24 m c (Proc.devRef .tc main_v96) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg15)) (V0 m c (Proc.devRef .tc main_arg16))) := (U24_ne m c main_v96 (by decide)).trans f23_main_v96
  have f24_main_v94 : U24 m c (Proc.devRef .tc main_v94) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg15)) (V0 m c (Proc.devRef .tc main_arg16))) := (U24_ne m c main_v94 (by decide)).trans f23_main_v94
  have f24_main_v92 : U24 m c (Proc.devRef .tc main_v92) = (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) := (U24_ne m c main_v92 (by decide)).trans f23_main_v92
  have f24_main_v59 : U24 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (U24_ne m c main_v59 (by decide)).trans f23_main_v59
  have k24 : KKept (V0 m c) (U24 m c) :=
    ⟨⟨(U24_ne m c main_arg0 (by decide)).trans k23.a0, (U24_ne m c main_arg1 (by decide)).trans k23.a1, (U24_ne m c main_arg2 (by decide)).trans k23.a2, (U24_ne m c main_arg3 (by decide)).trans k23.a3, (U24_ne m c main_arg4 (by decide)).trans k23.a4, (U24_ne m c main_arg5 (by decide)).trans k23.a5, (U24_ne m c main_arg6 (by decide)).trans k23.a6, (U24_ne m c main_arg7 (by decide)).trans k23.a7, (U24_ne m c main_arg8 (by decide)).trans k23.a8, (U24_ne m c main_arg9 (by decide)).trans k23.a9, (U24_ne m c main_arg10 (by decide)).trans k23.a10, (U24_ne m c main_arg11 (by decide)).trans k23.a11, (U24_ne m c main_arg12 (by decide)).trans k23.a12, (U24_ne m c main_arg13 (by decide)).trans k23.a13, (U24_ne m c main_arg14 (by decide)).trans k23.a14, (U24_ne m c main_arg15 (by decide)).trans k23.a15, (U24_ne m c main_arg16 (by decide)).trans k23.a16⟩,
      (U24_ne m c main_v1 (by decide)).trans k23.src, (U24_ne m c main_v3 (by decide)).trans k23.dst, (U24_ne m c main_v26 (by decide)).trans k23.nrm⟩
  -- host stretch 11
  have f25_main_v144 : U25 m c (Proc.devRef .tc main_v144) = rowOf (V0 m c (Proc.devRef .tc main_arg11)) := host11_row_main_v144 k24
  have f25_main_v143 : U25 m c (Proc.devRef .tc main_v143) = (Cert.Spec.prelu (Cert.Spec.conv (Cert.Spec.lin (Cert.Spec.prelu (Cert.Spec.conv (Cert.Spec.lin (Cert.Spec.permute (V0 m c (Proc.devRef .tc main_arg0)) (V0 m c (Proc.devRef .tc main_arg3))) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (host11_keep (b := main_v143) (by decide) (U24 m c)).trans f24_main_v143
  have f25_main_v110 : U25 m c (Proc.devRef .tc main_v110) = (Cert.Spec.permute (V0 m c (Proc.devRef .tc main_arg0)) (V0 m c (Proc.devRef .tc main_arg4))) := (host11_keep (b := main_v110) (by decide) (U24 m c)).trans f24_main_v110
  have f25_main_v96 : U25 m c (Proc.devRef .tc main_v96) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg15)) (V0 m c (Proc.devRef .tc main_arg16))) := (host11_keep (b := main_v96) (by decide) (U24 m c)).trans f24_main_v96
  have f25_main_v94 : U25 m c (Proc.devRef .tc main_v94) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg15)) (V0 m c (Proc.devRef .tc main_arg16))) := (host11_keep (b := main_v94) (by decide) (U24 m c)).trans f24_main_v94
  have f25_main_v92 : U25 m c (Proc.devRef .tc main_v92) = (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) := (host11_keep (b := main_v92) (by decide) (U24 m c)).trans f24_main_v92
  have f25_main_v59 : U25 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (host11_keep (b := main_v59) (by decide) (U24 m c)).trans f24_main_v59
  have k25 : KKept (V0 m c) (U25 m c) := host11_kept k24
  -- region 11
  have e26 : U26 m c (Proc.devRef .tc main_v145) = Cert.Spec.linRow (U25 m c (Proc.devRef .tc main_v110)) (U25 m c (Proc.devRef .tc main_arg10)) (U25 m c (Proc.devRef .tc main_v144)) :=
    (U26_out m c).trans (value11 (tcv (U25 m)) c)
  have f26_main_v145 : U26 m c (Proc.devRef .tc main_v145) = (Cert.Spec.lin (Cert.Spec.permute (V0 m c (Proc.devRef .tc main_arg0)) (V0 m c (Proc.devRef .tc main_arg4))) (V0 m c (Proc.devRef .tc main_arg10)) (V0 m c (Proc.devRef .tc main_arg11))) := by
    rw [e26, f25_main_v110, k25.a10, f25_main_v144] <;> rfl
  have f26_main_v143 : U26 m c (Proc.devRef .tc main_v143) = (Cert.Spec.prelu (Cert.Spec.conv (Cert.Spec.lin (Cert.Spec.prelu (Cert.Spec.conv (Cert.Spec.lin (Cert.Spec.permute (V0 m c (Proc.devRef .tc main_arg0)) (V0 m c (Proc.devRef .tc main_arg3))) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (U26_ne m c main_v143 (by decide)).trans f25_main_v143
  have f26_main_v96 : U26 m c (Proc.devRef .tc main_v96) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg15)) (V0 m c (Proc.devRef .tc main_arg16))) := (U26_ne m c main_v96 (by decide)).trans f25_main_v96
  have f26_main_v94 : U26 m c (Proc.devRef .tc main_v94) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg15)) (V0 m c (Proc.devRef .tc main_arg16))) := (U26_ne m c main_v94 (by decide)).trans f25_main_v94
  have f26_main_v92 : U26 m c (Proc.devRef .tc main_v92) = (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) := (U26_ne m c main_v92 (by decide)).trans f25_main_v92
  have f26_main_v59 : U26 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (U26_ne m c main_v59 (by decide)).trans f25_main_v59
  have k26 : KKept (V0 m c) (U26 m c) :=
    ⟨⟨(U26_ne m c main_arg0 (by decide)).trans k25.a0, (U26_ne m c main_arg1 (by decide)).trans k25.a1, (U26_ne m c main_arg2 (by decide)).trans k25.a2, (U26_ne m c main_arg3 (by decide)).trans k25.a3, (U26_ne m c main_arg4 (by decide)).trans k25.a4, (U26_ne m c main_arg5 (by decide)).trans k25.a5, (U26_ne m c main_arg6 (by decide)).trans k25.a6, (U26_ne m c main_arg7 (by decide)).trans k25.a7, (U26_ne m c main_arg8 (by decide)).trans k25.a8, (U26_ne m c main_arg9 (by decide)).trans k25.a9, (U26_ne m c main_arg10 (by decide)).trans k25.a10, (U26_ne m c main_arg11 (by decide)).trans k25.a11, (U26_ne m c main_arg12 (by decide)).trans k25.a12, (U26_ne m c main_arg13 (by decide)).trans k25.a13, (U26_ne m c main_arg14 (by decide)).trans k25.a14, (U26_ne m c main_arg15 (by decide)).trans k25.a15, (U26_ne m c main_arg16 (by decide)).trans k25.a16⟩,
      (U26_ne m c main_v1 (by decide)).trans k25.src, (U26_ne m c main_v3 (by decide)).trans k25.dst, (U26_ne m c main_v26 (by decide)).trans k25.nrm⟩
  -- host stretch 12
  have f27_main_v158 : U27 m c (Proc.devRef .tc main_v158) = (Cert.Spec.conv (Cert.Spec.lin (Cert.Spec.permute (V0 m c (Proc.devRef .tc main_arg0)) (V0 m c (Proc.devRef .tc main_arg4))) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) :=
    (host12_conv k26).trans (congrArg (fun z => Cert.Spec.conv z (V0 m c (Proc.devRef .tc main_arg1)) (Cert.Spec.norm (V0 m c (Proc.devRef .tc main_arg1)) (V0 m c (Proc.devRef .tc main_arg2)))) f26_main_v145)
  have f27_main_v159 : U27 m c (Proc.devRef .tc main_v159) = rowOf (V0 m c (Proc.devRef .tc main_arg14)) := host12_row_main_v159 k26
  have f27_main_v160 : U27 m c (Proc.devRef .tc main_v160) = rowOf (V0 m c (Proc.devRef .tc main_arg13)) := host12_row_main_v160 k26
  have f27_main_v143 : U27 m c (Proc.devRef .tc main_v143) = (Cert.Spec.prelu (Cert.Spec.conv (Cert.Spec.lin (Cert.Spec.prelu (Cert.Spec.conv (Cert.Spec.lin (Cert.Spec.permute (V0 m c (Proc.devRef .tc main_arg0)) (V0 m c (Proc.devRef .tc main_arg3))) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (host12_keep (b := main_v143) (by decide) (U26 m c)).trans f26_main_v143
  have f27_main_v96 : U27 m c (Proc.devRef .tc main_v96) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg15)) (V0 m c (Proc.devRef .tc main_arg16))) := (host12_keep (b := main_v96) (by decide) (U26 m c)).trans f26_main_v96
  have f27_main_v94 : U27 m c (Proc.devRef .tc main_v94) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg15)) (V0 m c (Proc.devRef .tc main_arg16))) := (host12_keep (b := main_v94) (by decide) (U26 m c)).trans f26_main_v94
  have f27_main_v92 : U27 m c (Proc.devRef .tc main_v92) = (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) := (host12_keep (b := main_v92) (by decide) (U26 m c)).trans f26_main_v92
  have f27_main_v59 : U27 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (host12_keep (b := main_v59) (by decide) (U26 m c)).trans f26_main_v59
  have k27 : KKept (V0 m c) (U27 m c) := host12_kept k26
  -- region 12
  have e28 : U28 m c (Proc.devRef .tc main_v161) = Cert.Spec.linRow (Cert.Spec.preluRow (U27 m c (Proc.devRef .tc main_v158)) (U27 m c (Proc.devRef .tc main_v159))) (U27 m c (Proc.devRef .tc main_arg12)) (U27 m c (Proc.devRef .tc main_v160)) :=
    (U28_out m c).trans (value12 (tcv (U27 m)) c)
  have f28_main_v161 : U28 m c (Proc.devRef .tc main_v161) = (Cert.Spec.lin (Cert.Spec.prelu (Cert.Spec.conv (Cert.Spec.lin (Cert.Spec.permute (V0 m c (Proc.devRef .tc main_arg0)) (V0 m c (Proc.devRef .tc main_arg4))) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) := by
    rw [e28, f27_main_v158, f27_main_v159, k27.a12, f27_main_v160] <;> rfl
  have f28_main_v143 : U28 m c (Proc.devRef .tc main_v143) = (Cert.Spec.prelu (Cert.Spec.conv (Cert.Spec.lin (Cert.Spec.prelu (Cert.Spec.conv (Cert.Spec.lin (Cert.Spec.permute (V0 m c (Proc.devRef .tc main_arg0)) (V0 m c (Proc.devRef .tc main_arg3))) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (U28_ne m c main_v143 (by decide)).trans f27_main_v143
  have f28_main_v96 : U28 m c (Proc.devRef .tc main_v96) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg15)) (V0 m c (Proc.devRef .tc main_arg16))) := (U28_ne m c main_v96 (by decide)).trans f27_main_v96
  have f28_main_v94 : U28 m c (Proc.devRef .tc main_v94) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg15)) (V0 m c (Proc.devRef .tc main_arg16))) := (U28_ne m c main_v94 (by decide)).trans f27_main_v94
  have f28_main_v92 : U28 m c (Proc.devRef .tc main_v92) = (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) := (U28_ne m c main_v92 (by decide)).trans f27_main_v92
  have f28_main_v59 : U28 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (U28_ne m c main_v59 (by decide)).trans f27_main_v59
  have k28 : KKept (V0 m c) (U28 m c) :=
    ⟨⟨(U28_ne m c main_arg0 (by decide)).trans k27.a0, (U28_ne m c main_arg1 (by decide)).trans k27.a1, (U28_ne m c main_arg2 (by decide)).trans k27.a2, (U28_ne m c main_arg3 (by decide)).trans k27.a3, (U28_ne m c main_arg4 (by decide)).trans k27.a4, (U28_ne m c main_arg5 (by decide)).trans k27.a5, (U28_ne m c main_arg6 (by decide)).trans k27.a6, (U28_ne m c main_arg7 (by decide)).trans k27.a7, (U28_ne m c main_arg8 (by decide)).trans k27.a8, (U28_ne m c main_arg9 (by decide)).trans k27.a9, (U28_ne m c main_arg10 (by decide)).trans k27.a10, (U28_ne m c main_arg11 (by decide)).trans k27.a11, (U28_ne m c main_arg12 (by decide)).trans k27.a12, (U28_ne m c main_arg13 (by decide)).trans k27.a13, (U28_ne m c main_arg14 (by decide)).trans k27.a14, (U28_ne m c main_arg15 (by decide)).trans k27.a15, (U28_ne m c main_arg16 (by decide)).trans k27.a16⟩,
      (U28_ne m c main_v1 (by decide)).trans k27.src, (U28_ne m c main_v3 (by decide)).trans k27.dst, (U28_ne m c main_v26 (by decide)).trans k27.nrm⟩
  -- host stretch 13
  have f29_main_v174 : U29 m c (Proc.devRef .tc main_v174) = (Cert.Spec.conv (Cert.Spec.lin (Cert.Spec.prelu (Cert.Spec.conv (Cert.Spec.lin (Cert.Spec.permute (V0 m c (Proc.devRef .tc main_arg0)) (V0 m c (Proc.devRef .tc main_arg4))) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) :=
    (host13_conv k28).trans (congrArg (fun z => Cert.Spec.conv z (V0 m c (Proc.devRef .tc main_arg1)) (Cert.Spec.norm (V0 m c (Proc.devRef .tc main_arg1)) (V0 m c (Proc.devRef .tc main_arg2)))) f28_main_v161)
  have f29_main_v175 : U29 m c (Proc.devRef .tc main_v175) = rowOf (V0 m c (Proc.devRef .tc main_arg14)) := host13_row_main_v175 k28
  have f29_main_v143 : U29 m c (Proc.devRef .tc main_v143) = (Cert.Spec.prelu (Cert.Spec.conv (Cert.Spec.lin (Cert.Spec.prelu (Cert.Spec.conv (Cert.Spec.lin (Cert.Spec.permute (V0 m c (Proc.devRef .tc main_arg0)) (V0 m c (Proc.devRef .tc main_arg3))) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (host13_keep (b := main_v143) (by decide) (U28 m c)).trans f28_main_v143
  have f29_main_v96 : U29 m c (Proc.devRef .tc main_v96) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg15)) (V0 m c (Proc.devRef .tc main_arg16))) := (host13_keep (b := main_v96) (by decide) (U28 m c)).trans f28_main_v96
  have f29_main_v94 : U29 m c (Proc.devRef .tc main_v94) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg15)) (V0 m c (Proc.devRef .tc main_arg16))) := (host13_keep (b := main_v94) (by decide) (U28 m c)).trans f28_main_v94
  have f29_main_v92 : U29 m c (Proc.devRef .tc main_v92) = (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) := (host13_keep (b := main_v92) (by decide) (U28 m c)).trans f28_main_v92
  have f29_main_v59 : U29 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (host13_keep (b := main_v59) (by decide) (U28 m c)).trans f28_main_v59
  have k29 : KKept (V0 m c) (U29 m c) := host13_kept k28
  -- region 13
  have e30 : U30 m c (Proc.devRef .tc main_v176) = Cert.Spec.preluRow (U29 m c (Proc.devRef .tc main_v174)) (U29 m c (Proc.devRef .tc main_v175)) :=
    (U30_out m c).trans (value13 (tcv (U29 m)) c)
  have f30_main_v176 : U30 m c (Proc.devRef .tc main_v176) = (Cert.Spec.prelu (Cert.Spec.conv (Cert.Spec.lin (Cert.Spec.prelu (Cert.Spec.conv (Cert.Spec.lin (Cert.Spec.permute (V0 m c (Proc.devRef .tc main_arg0)) (V0 m c (Proc.devRef .tc main_arg4))) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) := by
    rw [e30, f29_main_v174, f29_main_v175] <;> rfl
  have f30_main_v143 : U30 m c (Proc.devRef .tc main_v143) = (Cert.Spec.prelu (Cert.Spec.conv (Cert.Spec.lin (Cert.Spec.prelu (Cert.Spec.conv (Cert.Spec.lin (Cert.Spec.permute (V0 m c (Proc.devRef .tc main_arg0)) (V0 m c (Proc.devRef .tc main_arg3))) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (U30_ne m c main_v143 (by decide)).trans f29_main_v143
  have f30_main_v96 : U30 m c (Proc.devRef .tc main_v96) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg15)) (V0 m c (Proc.devRef .tc main_arg16))) := (U30_ne m c main_v96 (by decide)).trans f29_main_v96
  have f30_main_v94 : U30 m c (Proc.devRef .tc main_v94) = (Cert.Spec.pool (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg15)) (V0 m c (Proc.devRef .tc main_arg16))) := (U30_ne m c main_v94 (by decide)).trans f29_main_v94
  have f30_main_v92 : U30 m c (Proc.devRef .tc main_v92) = (Cert.Spec.prelu (Cert.Spec.conv (Cert.Spec.lin (Cert.Spec.prelu (Cert.Spec.conv (Cert.Spec.lin (V0 m c (Proc.devRef .tc main_arg0)) (V0 m c (Proc.devRef .tc main_arg10)) (V0 m c (Proc.devRef .tc main_arg11))) (V0 m c (Proc.devRef .tc main_arg1)) (Cert.Spec.norm (V0 m c (Proc.devRef .tc main_arg1)) (V0 m c (Proc.devRef .tc main_arg2)))) (V0 m c (Proc.devRef .tc main_arg14))) (V0 m c (Proc.devRef .tc main_arg12)) (V0 m c (Proc.devRef .tc main_arg13))) (V0 m c (Proc.devRef .tc main_arg1)) (Cert.Spec.norm (V0 m c (Proc.devRef .tc main_arg1)) (V0 m c (Proc.devRef .tc main_arg2)))) (V0 m c (Proc.devRef .tc main_arg14))) := (U30_ne m c main_v92 (by decide)).trans f29_main_v92
  have f30_main_v59 : U30 m c (Proc.devRef .tc main_v59) = (Cert.Spec.prelu (Cert.Spec.conv (Cert.Spec.lin (Cert.Spec.prelu (Cert.Spec.conv (Cert.Spec.lin (V0 m c (Proc.devRef .tc main_arg0)) (V0 m c (Proc.devRef .tc main_arg5)) (V0 m c (Proc.devRef .tc main_arg6))) (V0 m c (Proc.devRef .tc main_arg1)) (Cert.Spec.norm (V0 m c (Proc.devRef .tc main_arg1)) (V0 m c (Proc.devRef .tc main_arg2)))) (V0 m c (Proc.devRef .tc main_arg9))) (V0 m c (Proc.devRef .tc main_arg7)) (V0 m c (Proc.devRef .tc main_arg8))) (V0 m c (Proc.devRef .tc main_arg1)) (Cert.Spec.norm (V0 m c (Proc.devRef .tc main_arg1)) (V0 m c (Proc.devRef .tc main_arg2)))) (V0 m c (Proc.devRef .tc main_arg9))) := (U30_ne m c main_v59 (by decide)).trans f29_main_v59
  have k30 : KKept (V0 m c) (U30 m c) :=
    ⟨⟨(U30_ne m c main_arg0 (by decide)).trans k29.a0, (U30_ne m c main_arg1 (by decide)).trans k29.a1, (U30_ne m c main_arg2 (by decide)).trans k29.a2, (U30_ne m c main_arg3 (by decide)).trans k29.a3, (U30_ne m c main_arg4 (by decide)).trans k29.a4, (U30_ne m c main_arg5 (by decide)).trans k29.a5, (U30_ne m c main_arg6 (by decide)).trans k29.a6, (U30_ne m c main_arg7 (by decide)).trans k29.a7, (U30_ne m c main_arg8 (by decide)).trans k29.a8, (U30_ne m c main_arg9 (by decide)).trans k29.a9, (U30_ne m c main_arg10 (by decide)).trans k29.a10, (U30_ne m c main_arg11 (by decide)).trans k29.a11, (U30_ne m c main_arg12 (by decide)).trans k29.a12, (U30_ne m c main_arg13 (by decide)).trans k29.a13, (U30_ne m c main_arg14 (by decide)).trans k29.a14, (U30_ne m c main_arg15 (by decide)).trans k29.a15, (U30_ne m c main_arg16 (by decide)).trans k29.a16⟩,
      (U30_ne m c main_v1 (by decide)).trans k29.src, (U30_ne m c main_v3 (by decide)).trans k29.dst, (U30_ne m c main_v26 (by decide)).trans k29.nrm⟩
  exact ⟨f30_main_v59, f30_main_v92, f30_main_v94, f30_main_v96, f30_main_v143, f30_main_v176⟩

end Cert.KernelIdeal.Hand

end
-- ==== Proof.KIV.Pool6Pieces.lean ====
/-
  Region 6 of the idealized kernel program: what each control case of the body leaves in the accumulator and, at the last
  point, in the output row, as the body's payloads of the buffers it was run from. The first point leaves zero plus the
  tile's column sums; a later point leaves what the accumulator held plus the tile's column sums; the last point stores the
  projection of the accumulator it has just updated.
-/
import proofs.«113219_j18691697672631_1_alg».proof.Proof.KI.Pool6
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F] [Named F]

theorem hz6 : (![0, 0] : Fin 2 → Nat) = fun _ => 0 := funext fun a => by fin_cases a <;> rfl

/-- The first point: the accumulator is set to zero and the tile's column sums are added. -/
theorem pieceA6 (c : Dev nD) (t : Fin cfg6.N) (h1) (h2) (x0 : Vec F S2000x128 .f32) :
    readBack6 (runA6 (F := F) c t h1 h2 x0).1 = k6_pay2 (k6_pay1 (F := F)) x0 := by
  show VS6.read (Elt F) (VS6.writes (Elt F) VS6.junk (runA6 (F := F) c t h1 h2 x0).1) = _
  rw [View.read_writes_eq_canon _ _ _ (coverA6 c t h1 h2 x0)]
  unfold runA6 kernelRun6_A
  dsimp only
  try sl_unfold_words
  rw [View.canon_cons_unit_zero hz6, View.readCov_unit_zero (S := S1x128) _ hz6]
  simp only [View.readAt_eq_ld, (hs6_0 t).read_unread, View.ld_unit_zero (S := S2000x128) hz6]

/-- A middle point: the tile's column sums are added to what the accumulator held. -/
theorem pieceB6 (c : Dev nD) (t : Fin cfg6.N) (h1) (h2) (x0 : Vec F S2000x128 .f32) (s : Vec F S1x128 .f32) :
    readBack6 (runB6 (F := F) c t h1 h2 x0 s).1 = k6_pay2 s x0 := by
  show VS6.read (Elt F) (VS6.writes (Elt F) VS6.junk (runB6 (F := F) c t h1 h2 x0 s).1) = _
  rw [View.read_writes_eq_canon _ _ _ (coverB6 c t h1 h2 x0 s)]
  unfold runB6 kernelRun6_B
  dsimp only
  try sl_unfold_words
  rw [View.canon_unit_zero hz6]
  simp only [View.readAt_eq_ld, (hs6_0 t).read_unread, hscr6.read_unread, View.ld_unit_zero (S := S2000x128) hz6,
    View.ld_unit_zero (S := S1x128) hz6]

/-- The last point, the accumulator: as at a middle point. -/
theorem pieceC6_scr (c : Dev nD) (t : Fin cfg6.N) (h1) (h2) (x0 : Vec F S2000x128 .f32) (x1 : Vec F S128x128 .f32) (x2 s : Vec F S1x128 .f32) :
    readBack6 (runC6 (F := F) c t h1 h2 x0 x1 x2 s).1.2 = k6_pay2 s x0 := by
  show VS6.read (Elt F) (VS6.writes (Elt F) VS6.junk (runC6 (F := F) c t h1 h2 x0 x1 x2 s).1.2) = _
  rw [View.read_writes_eq_canon _ _ _ (coverC6_scr c t h1 h2 x0 x1 x2 s)]
  unfold runC6 kernelRun6_C
  dsimp only
  try sl_unfold_words
  rw [View.canon_unit_zero hz6]
  simp only [View.readAt_eq_ld, (hs6_0 t).read_unread, hscr6.read_unread, View.ld_unit_zero (S := S2000x128) hz6,
    View.ld_unit_zero (S := S1x128) hz6]

/-- The last point, the output row: the projection of the accumulator just updated. -/
theorem pieceC6_out (c : Dev nD) (t : Fin cfg6.N) (h1) (h2) (x0 : Vec F S2000x128 .f32) (x1 : Vec F S128x128 .f32) (x2 s : Vec F S1x128 .f32) :
    readBack6 (runC6 (F := F) c t h1 h2 x0 x1 x2 s).1.1 = k6_pay3 (k6_pay2 s x0) x1 x2 := by
  show VS6.read (Elt F) (VS6.writes (Elt F) VS6.junk (runC6 (F := F) c t h1 h2 x0 x1 x2 s).1.1) = _
  rw [View.read_writes_eq_canon _ _ _ (coverC6_out c t h1 h2 x0 x1 x2 s)]
  unfold runC6 kernelRun6_C
  dsimp only
  try sl_unfold_words
  rw [View.canon_unit_zero hz6, View.readCov_unit_zero (S := S1x128) _ hz6]
  simp only [View.readAt_eq_ld, (hs6_0 t).read_unread, (hs6_1 t).read_unread, (hs6_2 t).read_unread, hscr6.read_unread,
    View.ld_unit_zero (S := S2000x128) hz6, View.ld_unit_zero (S := S128x128) hz6, View.ld_unit_zero (S := S1x128) hz6]

end Cert.KernelIdeal.Hand

end
-- ==== Proof.LibColSum.lean ====
/-
  Sums down the columns of a matrix, at the ideal values: a reduction by addition over axis 0 of an a × b array, from
  zero, read at column j, is the sum over the rows of the entries (k, j); and the same sum kept as a one-row matrix,
  read at (0, j). For any extents. (The companion of a row reduction, for kernels that keep the reduced axis on the
  sublanes: features down the rows, pixels along the columns.)
-/
import Idealize.ShloMosaic.PureOps.Ideal.Laws
import Idealize.ShloMosaic.Lib.ValueIdx
import Idealize.ShloMosaic.Lib.ValueLayout

noncomputable section

namespace Cert.LibColSum

open Idealize.ShloMosaic Idealize.ShloMosaic.ValueIdx
open scoped BigOperators

/-! ## Sums down the columns of a matrix -/

/-- The coordinate inserted on axis 0 of a column index. -/
theorem lift_col {a b : Nat} (h : (⟨2, ![a, b]⟩ : Shape).Reduces [0] ⟨1, ![b]⟩) (j : Fin b) (k : Fin a) :
    h.lift (ix1 j) k = ix2 k j := by
  funext c; apply Fin.ext
  match c with
  | ⟨0, _⟩ => rfl
  | ⟨1, _⟩ => rfl

/-- The sum of each column from zero, at column j: the sum over the rows. -/
theorem colSum_apply {a b : Nat} (y : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ y 0x00000000#32 h hφ hacc (ix1 j) = ∑ k : Fin a, y (ix2 k j) := by
  refine (Ideal.multiReduction_add_single y _ h hφ hacc (ix1 j)).trans ?_
  exact Finset.sum_congr rfl fun k _ => congrArg y (lift_col h j k)

/-- A column sum kept as a one-row matrix, at (0, j). -/
theorem colSumRow_apply {a b : Nat} (y : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ)
    (hc : (⟨1, ![b]⟩ : Shape).ShapeCasts ⟨2, ![1, b]⟩) (u : Fin 1) (j : Fin b) :
    shapeCast ⟨2, ![1, b]⟩ (multiReduction .add [0] ⟨1, ![b]⟩ y 0x00000000#32 h hφ hacc) hc (ix2 u j)
      = ∑ k : Fin a, y (ix2 k j) :=
  (shapeCast_a_1a_apply _ hc u j).trans (colSum_apply y h hφ hacc j)

end Cert.LibColSum

end
-- ==== Proof.KIV.PoolTile.lean ====
/-
  The pooled projection's two computations, read entry by entry at the ideal values. The accumulation takes a row s and
  2000 rows x to s plus the column sums of x: entry q is s(q) plus the sum over p of x(p, q). The projection takes the
  accumulated row a, the 128 x 128 matrix W and the bias row b to logistic(a / 50000) W + b, the division spelt as a
  product with the rational 1/50000.
-/
import proofs.«113219_j18691697672631_1_alg».proof.Proof.Gen.KernelIdeal.Skeleton
import proofs.«113219_j18691697672631_1_alg».proof.Proof.LibDot
import proofs.«113219_j18691697672631_1_alg».proof.Proof.LibColSum
import Idealize.ShloMosaic.Lib.ValueIdx
import Idealize.ShloMosaic.Lib.ValueLayout
import Idealize.ShloMosaic.PureOps.IdealRules

noncomputable section

namespace Cert.KernelIdeal.Hand

open Cert.KernelIdeal Cert.KernelIdeal.Gen
open Idealize.ShloMosaic Idealize.ShloMosaic.ValueIdx
open scoped BigOperators

/-- The accumulation: the row plus the column sums of the tile. -/
def poolAcc (s : FVec Ideal S1x128 .f32) (x : FVec Ideal S2000x128 .f32) : FVec Ideal S1x128 .f32 :=
  shapeCast S1x128
    (addf s (shapeCast S1x128
      (multiReduction .add [0] S128 (shapeCast S2000x128 x shapeCasts_S2000x128_S2000x128) 0x00000000#32 reduces_S2000x128_S128 (.inl rfl) rfl)
      shapeCasts_S128_S1x128))
    shapeCasts_S1x128_S1x128

/-- The zero row the first point starts from. -/
def poolZero : FVec Ideal S1x128 .f32 :=
  shapeCast S1x128 (broadcast S1x128 (Scalar.ofBits .f32 0x00000000#32 : Ideal .f32)) shapeCasts_S1x128_S1x128

/-- The projection of the accumulated row. -/
def poolOut (a : FVec Ideal S1x128 .f32) (W : FVec Ideal S128x128 .f32) (b : FVec Ideal S1x128 .f32) : FVec Ideal S1x128 .f32 :=
  addf (matmul dot_S1x128_S128x128_S1x128_1_0_0_1_n_n none
      (logistic (mulf a (broadcast S1x128 (Named.named (F := Ideal) κ "inv_50000" (φ := .f32) 0x37A7C5AC#32)))) W
      (constant S1x128 .f32 0x00000000#32))
    (shapeCast S1x128 b shapeCasts_S1x128_S1x128)

/-- The named reciprocal is the rational 1/50000. -/
theorem inv_50000 : Named.named (F := Ideal) κ "inv_50000" (φ := .f32) 0x37A7C5AC#32 = ((1 / 50000 : ℝ) : EReal) :=
  IdealRules.named_const.ideal_named_scalar _ _ _ _ rfl

/-- The zero row at q. -/
theorem poolZero_apply (q : Fin 128) : poolZero (ix2 (0 : Fin 1) q) = 0 := by
  unfold poolZero
  rw [shapeCast_self, broadcast_apply]
  exact Ideal.ofBits_zero_f32

/-- The accumulation at q: s(q) plus the sum down column q of the tile. -/
theorem poolAcc_apply (s : FVec Ideal S1x128 .f32) (x : FVec Ideal S2000x128 .f32) (q : Fin 128) :
    poolAcc s x (ix2 (0 : Fin 1) q) = s (ix2 (0 : Fin 1) q) + ∑ p : Fin 2000, x (ix2 p q) := by
  unfold poolAcc
  rw [shapeCast_self, addf_apply, shapeCast_self]
  congr 1
  exact LibColSum.colSumRow_apply x reduces_S2000x128_S128 (.inl rfl) rfl shapeCasts_S128_S1x128 0 q

/-- The projection at q: the sum over k of logistic(a(k) / 50000) W(k, q), plus b(q). -/
theorem poolOut_apply (a : FVec Ideal S1x128 .f32) (W : FVec Ideal S128x128 .f32) (b : FVec Ideal S1x128 .f32) (q : Fin 128) :
    poolOut a W b (ix2 (0 : Fin 1) q)
      = (∑ k : Fin 128, Ideal.logistic (a (ix2 (0 : Fin 1) k) * ((1 / 50000 : ℝ) : EReal)) * W (ix2 k q)) + b (ix2 (0 : Fin 1) q) := by
  unfold poolOut
  rw [addf_apply, shapeCast_self, inv_50000]
  congr 1
  exact LibDot.matmul_zero_apply dot_S1x128_S128x128_S1x128_1_0_0_1_n_n_wf none _ W 0 q

/-- The stored values of regions 6 and 7 are these. -/
theorem k6_pay1_eq : k6_pay1 (F := Ideal) = poolZero := rfl
theorem k6_pay2_eq (s : FVec Ideal S1x128 .f32) (x : FVec Ideal S2000x128 .f32) : k6_pay2 (F := Ideal) s x = poolAcc s x := rfl
theorem k6_pay3_eq (a : FVec Ideal S1x128 .f32) (W : FVec Ideal S128x128 .f32) (b : FVec Ideal S1x128 .f32) :
    k6_pay3 (F := Ideal) a W b = poolOut a W b := rfl
theorem k7_pay1_eq : k7_pay1 (F := Ideal) = poolZero := rfl
theorem k7_pay2_eq (s : FVec Ideal S1x128 .f32) (x : FVec Ideal S2000x128 .f32) : k7_pay2 (F := Ideal) s x = poolAcc s x := rfl
theorem k7_pay3_eq (a : FVec Ideal S1x128 .f32) (W : FVec Ideal S128x128 .f32) (b : FVec Ideal S1x128 .f32) :
    k7_pay3 (F := Ideal) a W b = poolOut a W b := rfl

end Cert.KernelIdeal.Hand

end
-- ==== Proof.LibSums.lean ====
import Idealize.ShloMosaic.Lib.ValueIdx

/-! # A sum taken tile by tile

A sum over `a · b` consecutive positions is the sum over `a` tiles of the sums over each tile's `b` positions; and a sum
whose terms vanish past position `n` is the sum of its first `n` terms. Stated for any commutative additive monoid. -/

namespace Cert.Sums

open scoped BigOperators

variable {M : Type} [AddCommMonoid M]

/-- Tile by tile: the sums over the tiles `k·b … k·b + b − 1`, `k < a`, add up to the sum over the first `a·b` positions. -/
theorem sum_tiles (a b : ℕ) (f : ℕ → M) :
    ∑ k ∈ Finset.range a, ∑ n : Fin b, f (k * b + n.val) = ∑ v ∈ Finset.range (a * b), f v := by
  induction a with
  | zero => simp
  | succ a ih =>
    rw [Finset.sum_range_succ, ih, Nat.succ_mul, Finset.sum_range_add]
    congr 1
    exact (Finset.sum_range (fun x => f (a * b + x))).symm

/-- Terms that vanish from position `n` on do not count. -/
theorem sum_range_of_tail_zero (n e : ℕ) (f : ℕ → M) (h : ∀ x, f (n + x) = 0) :
    ∑ v ∈ Finset.range (n + e), f v = ∑ v : Fin n, f v.val := by
  rw [Finset.sum_range_add, Finset.sum_range, Finset.sum_eq_zero (fun x _ => h x), add_zero]

end Cert.Sums
-- ==== Proof.KIV.PoolMath.lean ====
/-
  The arithmetic of the pooled projection, apart from any program. A sum over 50000 consecutive rows is the sum over 25
  tiles of 2000 rows; the product with the rational 1/50000 is the extended reals' quotient by 50000; and the two words the
  reference spells, 50000.0 and 1.0, denote those reals.
-/
import proofs.«113219_j18691697672631_1_alg».proof.Proof.LibSums
import Idealize.ShloMosaic.PureOps.Ideal
import Idealize.ShloMosaic.PureOps.Ideal.Laws

noncomputable section

namespace Cert.PoolMath

open Idealize.ShloMosaic
open scoped BigOperators

/-- The word 0x47435000 is 50000.0. -/
theorem ofBits_50000 : Ideal.ofBits .f32 0x47435000#32 = ((50000 : ℝ) : EReal) := by
  simp [Ideal.ofBits, Ideal.ieee, -EReal.coe_mul]; norm_num

/-- The word 0x3F800000 is 1.0. -/
theorem ofBits_one : Ideal.ofBits .f32 0x3F800000#32 = 1 := by
  simp [Ideal.ofBits, Ideal.ieee, -EReal.coe_mul]; norm_num

/-- The mean two ways: the product with 1/50000 is the quotient by 50000, on every extended real. -/
theorem mul_inv_eq_div (s : EReal) : s * ((1 / 50000 : ℝ) : EReal) = Ideal.div s ((50000 : ℝ) : EReal) :=
  (Ideal.div_coe (by norm_num : (50000 : ℝ) ≠ 0) s).symm

/-- The 25 tiles of 2000 rows add up to the 50000 rows. -/
theorem sum_25_tiles {M : Type} [AddCommMonoid M] (f : ℕ → M) :
    ∑ k ∈ Finset.range 25, ∑ p : Fin 2000, f (k * 2000 + p.val) = ∑ v : Fin 50000, f v.val := by
  rw [Cert.Sums.sum_tiles 25 2000 f]
  exact Finset.sum_range (n := 50000) f

end Cert.PoolMath

end
-- ==== Proof.KIV.PoolSpec.lean ====
/-
  The pooled projection against the reference's, entry by entry at the ideal values. The reference takes the mean over
  the 50000 rows as the host's sum down each column divided by 50000, applies the logistic function spelt
  1 / (1 + exp(-m)), multiplies the row by the matrix and adds the bias row. A projection of an accumulated row that holds,
  at every column, the sum down that column of the whole array is the same row.
-/
import proofs.«113219_j18691697672631_1_alg».proof.Proof.KIV.PoolTile
import proofs.«113219_j18691697672631_1_alg».proof.Proof.KIV.PoolMath
import proofs.«113219_j18691697672631_1_alg».proof.Proof.Spec

noncomputable section

namespace Cert.KernelIdeal.Hand

open Cert.KernelIdeal Cert.KernelIdeal.Gen
open Idealize.ShloMosaic Idealize.ShloMosaic.ValueIdx
open scoped BigOperators

variable [Cert.ReferenceIdeal.Facts₀]

/-- The shape fact that names the row inserted into a column index. -/
theorem hred50000 : Cert.ReferenceIdeal.S50000x128.Reduces [0] Cert.ReferenceIdeal.S128 := by decide

/-- The host's sum down column k, from zero, kept as a row. -/
theorem colSumRow_ref (z : FVec Ideal Cert.ReferenceIdeal.S50000x128 .f32) (k : Fin 128) :
    broadcastInDim Cert.ReferenceIdeal.S1x128 ![1] Cert.ReferenceIdeal.Facts₀.bcast_S128_S1x128_1
        (Host.reduceAdd (F := Ideal) z (constant (F := Ideal) Cert.ReferenceIdeal.S_ .f32 0x00000000#32)
          Cert.ReferenceIdeal.Facts₀.reducesTo_S50000x128_S128_d0 Cert.ReferenceIdeal.Facts₀.h_S_) (ix2 (0 : Fin 1) k)
      = ∑ v : Fin 50000, (z (ix2 v k) : EReal) := by
  refine (broadcastInDim_apply _ _ _ (ix2 (0 : Fin 1) k) (ix1 k) (fun a => by match a with | ⟨0, _⟩ => rfl)).trans ?_
  show Ideal.hostReduceAdd Cert.ReferenceIdeal.Facts₀.reducesTo_S50000x128_S128_d0 z (Ideal.ofBits .f32 0x00000000#32) (ix1 k) = _
  rw [Ideal.hostReduceAdd_single _ hred50000, Ideal.ofBits_zero_f32, zero_add]
  exact Finset.sum_congr rfl fun v _ => congrArg z (LibColSum.lift_col hred50000 k v)

/-- The reference's splats of 1.0 and of 50000.0 at an index. -/
theorem one_ref (k : Fin 128) :
    broadcastInDim Cert.ReferenceIdeal.S1x128 ![] Cert.ReferenceIdeal.Facts₀.bcast_S_S1x128
      (constant (F := Ideal) Cert.ReferenceIdeal.S_ .f32 0x3F800000#32) (ix2 (0 : Fin 1) k) = (1 : EReal) :=
  (broadcastInDim_apply _ _ _ (ix2 (0 : Fin 1) k) ix0 fun a => a.elim0).trans PoolMath.ofBits_one
theorem n_ref (k : Fin 128) :
    broadcastInDim Cert.ReferenceIdeal.S1x128 ![] Cert.ReferenceIdeal.Facts₀.bcast_S_S1x128
      (constant (F := Ideal) Cert.ReferenceIdeal.S_ .f32 0x47435000#32) (ix2 (0 : Fin 1) k) = ((50000 : ℝ) : EReal) :=
  (broadcastInDim_apply _ _ _ (ix2 (0 : Fin 1) k) ix0 fun a => a.elim0).trans PoolMath.ofBits_50000

/-- The reference's logistic of the mean at column k: the logistic function of the column's sum times 1/50000. -/
theorem sigMean_apply (z : FVec Ideal Cert.ReferenceIdeal.S50000x128 .f32) (k : Fin 128) :
    (Cert.Spec.sigMean (F := Ideal) z (ix2 (0 : Fin 1) k) : EReal)
      = Ideal.logistic ((∑ v : Fin 50000, (z (ix2 v k) : EReal)) * ((1 / 50000 : ℝ) : EReal)) := by
  unfold Cert.Spec.sigMean
  simp only [Host.divf, Host.exp, Host.negf, addf, Ideal.hostDivf_def, Ideal.hostUnary_exp_def, Ideal.hostNegf_def, Ideal.negf_def,
    Ideal.addf_def]
  rw [one_ref, n_ref, colSumRow_ref]
  unfold Ideal.logistic
  rw [PoolMath.mul_inv_eq_div]

/-- The reference's pooled projection at q. -/
theorem poolRow_apply (z : FVec Ideal Cert.ReferenceIdeal.S50000x128 .f32) (W : FVec Ideal Cert.ReferenceIdeal.S128x128 .f32)
    (b : FVec Ideal Cert.ReferenceIdeal.S1x128 .f32) (q : Fin 128) :
    (Cert.Spec.poolRow (F := Ideal) z W b (ix2 (0 : Fin 1) q) : EReal)
      = (∑ k : Fin 128, (Cert.Spec.sigMean (F := Ideal) z (ix2 (0 : Fin 1) k) : EReal) * W (ix2 k q)) + b (ix2 (0 : Fin 1) q) := by
  unfold Cert.Spec.poolRow
  show Host.dotGeneral (F := Ideal) Cert.ReferenceIdeal.dot_S1x128_S128x128_S1x128_1_0_0_1_n_n none (Cert.Spec.sigMean (F := Ideal) z) W (ix2 (0 : Fin 1) q)
      + b (ix2 (0 : Fin 1) q) = _
  congr 1
  exact LibDot.dotGeneral_apply Cert.ReferenceIdeal.Facts₀.dot_S1x128_S128x128_S1x128_1_0_0_1_n_n_wf none _ W 0 q

/-- The projection of a row that holds the column sums of the whole array, against the reference's pooled projection. -/
theorem poolOut_eq_poolRow (z : FVec Ideal Cert.ReferenceIdeal.S50000x128 .f32) (W : FVec Ideal Cert.ReferenceIdeal.S128x128 .f32)
    (b : FVec Ideal Cert.ReferenceIdeal.S1x128 .f32)
    (a : FVec Ideal S1x128 .f32) (x1 : FVec Ideal S128x128 .f32) (x2 : FVec Ideal S1x128 .f32) (q : Fin 128)
    (ha : ∀ k : Fin 128, a (ix2 (0 : Fin 1) k) = ∑ v : Fin 50000, (z (ix2 v k) : EReal)) (hW : x1 = W) (hb : x2 = b) :
    poolOut a x1 x2 (ix2 (0 : Fin 1) q) = Cert.Spec.poolRow (F := Ideal) z W b (ix2 (0 : Fin 1) q) := by
  subst hW hb
  rw [poolOut_apply, poolRow_apply]
  congr 1
  exact Finset.sum_congr rfl fun k _ => by rw [sigMean_apply, ha k]

end Cert.KernelIdeal.Hand

end
-- ==== Proof.KIV.Pool6Value.lean ====
/-
  Region 6 of the idealized kernel program, as one function of the arrays it is entered with: when the region ends its
  1 x 128 output row holds the pooled projection of its input array: the logistic function of the mean over the 50000
  rows, times the projection matrix, plus the bias row. After point n of the grid of 25 the accumulator holds, at column
  q, the sum of rows 0 to 2000 (n + 1) - 1 of the array at q: each point adds its tile's column sums, and point t's tile is
  rows 2000 t to 2000 t + 1999. The last point projects the full column sums and is the one point that writes the row back.
-/
import proofs.«113219_j18691697672631_1_alg».proof.Proof.KI.Pool6
import proofs.«113219_j18691697672631_1_alg».proof.Proof.KIV.Pool6Pieces
import proofs.«113219_j18691697672631_1_alg».proof.Proof.KIV.PoolSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable [Cert.ReferenceIdeal.Facts₀]

/-- The block index maps over the grid: the tile's block is the point's; the matrix's, the bias row's and the output
    row's the one block there is. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

section Blocks

variable {F : FTy → Type} [FloatOps F] [Named F]
variable (V : (c : Dev nD) → (b : Ref sig .tc) → Buf (Elt F) ((c : Thread nD τ).loc b))

/-- Point t's tile is rows 2000 t to 2000 t + 1999 of the input array. -/
theorem iblk6_0_apply (c : Dev nD) (t : Fin cfg6.N) (p : Fin 2000) (k : Fin 128) (r : Fin 50000) (hr : r.val = 2000 * t.val + p.val) :
    (iblk6 V c 0 t : S2000x128.Idx → Elt F .f32) (ix2 p k) = (V c (Pipeline.arrRef spec6 0) : S50000x128.Idx → Elt F .f32) (ix2 r k) := by
  obtain ⟨e0, e1, -⟩ := idx_facts6 t
  unfold iblk6
  rw [View.read_apply]
  refine congrArg (V c (Pipeline.arrRef spec6 0) : S50000x128.Idx → Elt F .f32) (funext fun a => Fin.ext ?_)
  match a with
  | ⟨0, _⟩ => show win6_0.index t (0 : Fin 2) * 2000 + 1 * p.val = r.val; rw [e0, hr]; omega
  | ⟨1, _⟩ => show win6_0.index t (1 : Fin 2) * 128 + 1 * k.val = k.val; rw [e1]; omega

/-- Every point's matrix block is the whole projection matrix. -/
theorem iblk6_1_eq (c : Dev nD) (t : Fin cfg6.N) :
    (iblk6 V c 1 t : S128x128.Idx → Elt F .f32) = (V c (Pipeline.arrRef spec6 1) : S128x128.Idx → Elt F .f32) := by
  obtain ⟨-, -, e0, e1, -⟩ := idx_facts6 t
  funext x
  unfold iblk6
  rw [View.read_apply]
  refine congrArg (V c (Pipeline.arrRef spec6 1) : S128x128.Idx → Elt F .f32) (funext fun a => Fin.ext ?_)
  match a with
  | ⟨0, _⟩ => show win6_1.index t (0 : Fin 2) * 128 + 1 * (x 0).val = (x 0).val; rw [e0]; omega
  | ⟨1, _⟩ => show win6_1.index t (1 : Fin 2) * 128 + 1 * (x 1).val = (x 1).val; rw [e1]; omega

/-- Every point's bias block is the whole bias row. -/
theorem iblk6_2_eq (c : Dev nD) (t : Fin cfg6.N) :
    (iblk6 V c 2 t : S1x128.Idx → Elt F .f32) = (V c (Pipeline.arrRef spec6 2) : S1x128.Idx → Elt F .f32) := by
  obtain ⟨-, -, -, -, e0, e1, -⟩ := idx_facts6 t
  funext x
  unfold iblk6
  rw [View.read_apply]
  refine congrArg (V c (Pipeline.arrRef spec6 2) : S1x128.Idx → Elt F .f32) (funext fun a => Fin.ext ?_)
  match a with
  | ⟨0, _⟩ => show win6_2.index t (0 : Fin 2) * 1 + 1 * (x 0).val = (x 0).val; rw [e0]; omega
  | ⟨1, _⟩ => show win6_2.index t (1 : Fin 2) * 128 + 1 * (x 1).val = (x 1).val; rw [e1]; omega

end Blocks

/-- Row v of an array at column q, zero past the last row. -/
def rowOr0 (A : FVec Ideal S50000x128 .f32) (q : Fin 128) (v : ℕ) : EReal :=
  if h : v < 50000 then A (ix2 ⟨v, h⟩ q) else 0

/-- The sum over tile k of column q. -/
abbrev tileSum (A : FVec Ideal S50000x128 .f32) (q : Fin 128) (k : ℕ) : EReal :=
  ∑ p : Fin 2000, rowOr0 A q (k * 2000 + p.val)

variable (V : (c : Dev nD) → (b : Ref sig .tc) → Buf (Elt Ideal) ((c : Thread nD τ).loc b))

/-- The column sums of point t's tile are the sums over tile t of the array's columns. -/
theorem tile_sum6 (c : Dev nD) (t : Fin cfg6.N) (q : Fin 128) (x : FVec Ideal S2000x128 .f32) (hx : x = iblk6 V c 0 t) :
    ∑ p : Fin 2000, x (ix2 p q) = tileSum (V c (Pipeline.arrRef spec6 0)) q t.val := by
  subst hx
  have ht : t.val < 25 := Nat.lt_of_lt_of_eq t.isLt (N_6 : cfg6.N = 25)
  refine Finset.sum_congr rfl fun p _ => ?_
  have hp : p.val < 2000 := p.isLt
  have hlt : t.val * 2000 + p.val < 50000 := by omega
  unfold rowOr0
  rw [dif_pos hlt]
  exact iblk6_0_apply V c t p q ⟨t.val * 2000 + p.val, hlt⟩ (by show t.val * 2000 + p.val = 2000 * t.val + p.val; omega)

/-- THE ACCUMULATOR after point n, at column q: the sums over tiles 0 to n of the array's column q. -/
theorem acc6_apply (c : Dev nD) : ∀ (n : ℕ) (hn : n < cfg6.N) (q : Fin 128),
    ((sAt6 (F := Ideal) V c n hn : S1x128.Idx → Ideal .f32) (ix2 (0 : Fin 1) q) : EReal)
      = ∑ k ∈ Finset.range (n + 1), tileSum (V c (Pipeline.arrRef spec6 0)) q k
  | 0, hn, q => by
    rw [sAt6]
    refine (congrFun (pieceA6 (F := Ideal) c ⟨0, hn⟩ _ _ (iblk6 V c 0 ⟨0, hn⟩)) (ix2 (0 : Fin 1) q)).trans ?_
    refine (poolAcc_apply poolZero (iblk6 V c 0 ⟨0, hn⟩) q).trans ?_
    rw [poolZero_apply, zero_add, Finset.sum_range_one]
    exact tile_sum6 V c ⟨0, hn⟩ q _ rfl
  | n + 1, hn, q => by
    rw [sAt6]
    by_cases h24 : n + 1 = 24
    · simp only [dif_pos h24]
      refine (congrFun (pieceC6_scr (F := Ideal) c ⟨n + 1, hn⟩ _ _ (iblk6 V c 0 ⟨n + 1, hn⟩) (iblk6 V c 1 ⟨n + 1, hn⟩)
        (iblk6 V c 2 ⟨n + 1, hn⟩) (sAt6 V c n (Nat.lt_of_succ_lt hn))) (ix2 (0 : Fin 1) q)).trans ?_
      refine (poolAcc_apply (sAt6 V c n (Nat.lt_of_succ_lt hn)) (iblk6 V c 0 ⟨n + 1, hn⟩) q).trans ?_
      rw [acc6_apply c n (Nat.lt_of_succ_lt hn) q, Finset.sum_range_succ _ (n + 1)]
      congr 1
      exact tile_sum6 V c ⟨n + 1, hn⟩ q _ rfl
    · simp only [dif_neg h24]
      refine (congrFun (pieceB6 (F := Ideal) c ⟨n + 1, hn⟩ _ _ (iblk6 V c 0 ⟨n + 1, hn⟩)
        (sAt6 V c n (Nat.lt_of_succ_lt hn))) (ix2 (0 : Fin 1) q)).trans ?_
      refine (poolAcc_apply (sAt6 V c n (Nat.lt_of_succ_lt hn)) (iblk6 V c 0 ⟨n + 1, hn⟩) q).trans ?_
      rw [acc6_apply c n (Nat.lt_of_succ_lt hn) q, Finset.sum_range_succ _ (n + 1)]
      congr 1
      exact tile_sum6 V c ⟨n + 1, hn⟩ q _ rfl

/-- The 25 tiles' sums are the sum down the whole column. -/
theorem sum_tiles6 (A : FVec Ideal S50000x128 .f32) (q : Fin 128) :
    ∑ k ∈ Finset.range 25, tileSum A q k = ∑ v : Fin 50000, (A (ix2 v q) : EReal) := by
  refine (PoolMath.sum_25_tiles (rowOr0 A q)).trans ?_
  refine Finset.sum_congr rfl fun v _ => ?_
  unfold rowOr0
  rw [dif_pos v.isLt]

/-- WHAT THE LAST POINT STORES, at column q: the reference's pooled projection of the arrays the region was entered with. -/
theorem out6_apply (c : Dev nD) (hn : 24 < cfg6.N) (q : Fin 128) :
    (outAt6 (F := Ideal) V c 24 hn : S1x128.Idx → Ideal .f32) (ix2 (0 : Fin 1) q)
      = Cert.Spec.poolRow (F := Ideal) (V c (Pipeline.arrRef spec6 0)) (V c (Pipeline.arrRef spec6 1)) (V c (Pipeline.arrRef spec6 2))
          (ix2 (0 : Fin 1) q) := by
  show (outAt6 (F := Ideal) V c (23 + 1) hn : S1x128.Idx → Ideal .f32) (ix2 (0 : Fin 1) q) = _
  rw [outAt6]
  simp only [dif_pos (show 23 + 1 = 24 from rfl)]
  refine (congrFun (pieceC6_out (F := Ideal) c ⟨23 + 1, hn⟩ _ _ (iblk6 V c 0 ⟨23 + 1, hn⟩) (iblk6 V c 1 ⟨23 + 1, hn⟩)
    (iblk6 V c 2 ⟨23 + 1, hn⟩) (sAt6 V c 23 (Nat.lt_of_succ_lt hn))) (ix2 (0 : Fin 1) q)).trans ?_
  show poolOut (poolAcc (sAt6 V c 23 (Nat.lt_of_succ_lt hn)) (iblk6 V c 0 ⟨23 + 1, hn⟩)) (iblk6 V c 1 ⟨23 + 1, hn⟩) (iblk6 V c 2 ⟨23 + 1, hn⟩)
    (ix2 (0 : Fin 1) q) = _
  refine poolOut_eq_poolRow _ _ _ _ _ _ q (fun k => ?_) (iblk6_1_eq V c ⟨23 + 1, hn⟩) (iblk6_2_eq V c ⟨23 + 1, hn⟩)
  refine (poolAcc_apply (sAt6 V c 23 (Nat.lt_of_succ_lt hn)) (iblk6 V c 0 ⟨23 + 1, hn⟩) k).trans ?_
  have e23 : ((sAt6 (F := Ideal) V c 23 (Nat.lt_of_succ_lt hn) : S1x128.Idx → Ideal .f32) (ix2 (0 : Fin 1) k) : EReal)
      = ∑ kk ∈ Finset.range 24, tileSum (V c (Pipeline.arrRef spec6 0)) k kk := acc6_apply V c 23 (Nat.lt_of_succ_lt hn) k
  have e24 := tile_sum6 V c ⟨23 + 1, hn⟩ k _ rfl
  have hsum : (∑ kk ∈ Finset.range 24, tileSum (V c (Pipeline.arrRef spec6 0)) k kk) + tileSum (V c (Pipeline.arrRef spec6 0)) k 24
      = ∑ kk ∈ Finset.range 25, tileSum (V c (Pipeline.arrRef spec6 0)) k kk :=
    (Finset.sum_range_succ (fun kk => tileSum (V c (Pipeline.arrRef spec6 0)) k kk) 24).symm
  rw [e23, e24]
  exact hsum.trans (sum_tiles6 _ k)

/-- Where entry (0, q) of the output block sits in the output row: at (0, q). -/
theorem emb6_3 (t : Fin cfg6.N) (q : Fin 128) :
    (((cfg6.win 3).blk t).view.emb (ix2 (0 : Fin 1) q) : S1x128.Idx) = ix2 (0 : Fin 1) q := by
  obtain ⟨-, -, -, -, -, -, e0, e1⟩ := idx_facts6 t
  refine funext fun a => Fin.ext ?_
  match a with
  | ⟨0, _⟩ => show win6_3.index t (0 : Fin 2) * 1 + 1 * 0 = 0; rw [e0]
  | ⟨1, _⟩ => show win6_3.index t (1 : Fin 2) * 128 + 1 * q.val = q.val; rw [e1]; omega

/-- What the one point that writes back writes is the block of the reference's pooled projection. -/
theorem flushed6_eq (c : Dev nD) (t : Fin cfg6.N) (hf : (cfg6.win 3).flush t = true) :
    (dat6 (F := Ideal) V c).flushed 3 t = ((cfg6.win 3).blk t).view.read (Elt Ideal)
      (Cert.Spec.poolRow (F := Ideal) (V c (Pipeline.arrRef spec6 0)) (V c (Pipeline.arrRef spec6 1)) (V c (Pipeline.arrRef spec6 2))) := by
  have h24 : t.val = 24 := of_decide_eq_true ((hflush6 t).symm.trans hf)
  obtain ⟨n, hn⟩ := t
  obtain rfl : n = 24 := h24
  show (cfg6.win 3).cut (grid6.coords ⟨24, hn⟩) ((dat6 V c).after 3 ⟨24, hn⟩) = _
  rw [after6_3]
  refine funext fun (j : S1x128.Idx) => ?_
  obtain ⟨u, q, rfl⟩ : ∃ (u : Fin 1) (q : Fin 128), j = ix2 u q := ⟨j 0, j 1, eq_ix2 j⟩
  obtain rfl : u = 0 := Subsingleton.elim _ _
  have e := emb6_3 ⟨24, hn⟩ q
  show (outAt6 (F := Ideal) V c 24 hn : S1x128.Idx → Ideal .f32) (ix2 (0 : Fin 1) q)
    = Cert.Spec.poolRow (F := Ideal) _ _ _ (((cfg6.win 3).blk ⟨24, hn⟩).view.emb (ix2 (0 : Fin 1) q))
  rw [e]
  exact out6_apply V c hn q

/-- The last point's block is the whole output row. -/
theorem cover6 (i : S1x128.Idx) : ∃ t : Fin cfg6.N, (cfg6.win 3).flush t = true ∧ i ∈ ((cfg6.win 3).blk t).view.set := by
  have hi0 : (i 0).val < 1 := (i 0).isLt
  have hi1 : (i 1).val < 128 := (i 1).isLt
  have hlt : 24 < cfg6.N := by rw [show cfg6.N = 25 from N_6]; decide
  obtain ⟨-, -, -, -, -, -, e0, e1⟩ := idx_facts6 ⟨24, hlt⟩
  refine ⟨⟨24, hlt⟩, (hflush6 ⟨24, hlt⟩).trans (decide_eq_true rfl), ?_⟩
  show i ∈ ((View.whole main_v94).slice (win6_3.rect ⟨24, hlt⟩)).set
  rw [View.set_slice_whole, Rect.mem_set_unit]
  intro a
  match a with
  | ⟨0, _⟩ =>
    show win6_3.index ⟨24, hlt⟩ (0 : Fin 2) * 1 ≤ (i 0).val ∧ (i 0).val < win6_3.index ⟨24, hlt⟩ (0 : Fin 2) * 1 + 1
    rw [e0]; omega
  | ⟨1, _⟩ =>
    show win6_3.index ⟨24, hlt⟩ (1 : Fin 2) * 128 ≤ (i 1).val ∧ (i 1).val < win6_3.index ⟨24, hlt⟩ (1 : Fin 2) * 128 + 128
    rw [e1]; omega

/-- THE VALUE of region 6: its output row ends at the reference's pooled projection of the arrays it was entered with. -/
theorem value6 (c : Dev nD) :
    (dat6 (F := Ideal) V c).arrAt 3 cfg6.N
      = Cert.Spec.poolRow (F := Ideal) (V c (Pipeline.arrRef spec6 0)) (V c (Pipeline.arrRef spec6 1)) (V c (Pipeline.arrRef spec6 2)) :=
  (dat6 (F := Ideal) V c).arrAt_eq_of_cover 3 _ (fun t hf => flushed6_eq V c t hf) cover6

end Cert.KernelIdeal.Hand

end
-- ==== Proof.KIV.Pool7Pieces.lean ====
/-
  Region 7 of the idealized kernel program: what each control case of the body leaves in the accumulator and, at the last
  point, in the output row, as the body's payloads of the buffers it was run from. The first point leaves zero plus the
  tile's column sums; a later point leaves what the accumulator held plus the tile's column sums; the last point stores the
  projection of the accumulator it has just updated.
-/
import proofs.«113219_j18691697672631_1_alg».proof.Proof.KI.Pool7
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F] [Named F]

theorem hz7 : (![0, 0] : Fin 2 → Nat) = fun _ => 0 := funext fun a => by fin_cases a <;> rfl

/-- The first point: the accumulator is set to zero and the tile's column sums are added. -/
theorem pieceA7 (c : Dev nD) (t : Fin cfg7.N) (h1) (h2) (x0 : Vec F S2000x128 .f32) :
    readBack7 (runA7 (F := F) c t h1 h2 x0).1 = k7_pay2 (k7_pay1 (F := F)) x0 := by
  show VS7.read (Elt F) (VS7.writes (Elt F) VS7.junk (runA7 (F := F) c t h1 h2 x0).1) = _
  rw [View.read_writes_eq_canon _ _ _ (coverA7 c t h1 h2 x0)]
  unfold runA7 kernelRun7_A
  dsimp only
  try sl_unfold_words
  rw [View.canon_cons_unit_zero hz7, View.readCov_unit_zero (S := S1x128) _ hz7]
  simp only [View.readAt_eq_ld, (hs7_0 t).read_unread, View.ld_unit_zero (S := S2000x128) hz7]

/-- A middle point: the tile's column sums are added to what the accumulator held. -/
theorem pieceB7 (c : Dev nD) (t : Fin cfg7.N) (h1) (h2) (x0 : Vec F S2000x128 .f32) (s : Vec F S1x128 .f32) :
    readBack7 (runB7 (F := F) c t h1 h2 x0 s).1 = k7_pay2 s x0 := by
  show VS7.read (Elt F) (VS7.writes (Elt F) VS7.junk (runB7 (F := F) c t h1 h2 x0 s).1) = _
  rw [View.read_writes_eq_canon _ _ _ (coverB7 c t h1 h2 x0 s)]
  unfold runB7 kernelRun7_B
  dsimp only
  try sl_unfold_words
  rw [View.canon_unit_zero hz7]
  simp only [View.readAt_eq_ld, (hs7_0 t).read_unread, hscr7.read_unread, View.ld_unit_zero (S := S2000x128) hz7,
    View.ld_unit_zero (S := S1x128) hz7]

/-- The last point, the accumulator: as at a middle point. -/
theorem pieceC7_scr (c : Dev nD) (t : Fin cfg7.N) (h1) (h2) (x0 : Vec F S2000x128 .f32) (x1 : Vec F S128x128 .f32) (x2 s : Vec F S1x128 .f32) :
    readBack7 (runC7 (F := F) c t h1 h2 x0 x1 x2 s).1.2 = k7_pay2 s x0 := by
  show VS7.read (Elt F) (VS7.writes (Elt F) VS7.junk (runC7 (F := F) c t h1 h2 x0 x1 x2 s).1.2) = _
  rw [View.read_writes_eq_canon _ _ _ (coverC7_scr c t h1 h2 x0 x1 x2 s)]
  unfold runC7 kernelRun7_C
  dsimp only
  try sl_unfold_words
  rw [View.canon_unit_zero hz7]
  simp only [View.readAt_eq_ld, (hs7_0 t).read_unread, hscr7.read_unread, View.ld_unit_zero (S := S2000x128) hz7,
    View.ld_unit_zero (S := S1x128) hz7]

/-- The last point, the output row: the projection of the accumulator just updated. -/
theorem pieceC7_out (c : Dev nD) (t : Fin cfg7.N) (h1) (h2) (x0 : Vec F S2000x128 .f32) (x1 : Vec F S128x128 .f32) (x2 s : Vec F S1x128 .f32) :
    readBack7 (runC7 (F := F) c t h1 h2 x0 x1 x2 s).1.1 = k7_pay3 (k7_pay2 s x0) x1 x2 := by
  show VS7.read (Elt F) (VS7.writes (Elt F) VS7.junk (runC7 (F := F) c t h1 h2 x0 x1 x2 s).1.1) = _
  rw [View.read_writes_eq_canon _ _ _ (coverC7_out c t h1 h2 x0 x1 x2 s)]
  unfold runC7 kernelRun7_C
  dsimp only
  try sl_unfold_words
  rw [View.canon_unit_zero hz7, View.readCov_unit_zero (S := S1x128) _ hz7]
  simp only [View.readAt_eq_ld, (hs7_0 t).read_unread, (hs7_1 t).read_unread, (hs7_2 t).read_unread, hscr7.read_unread,
    View.ld_unit_zero (S := S2000x128) hz7, View.ld_unit_zero (S := S128x128) hz7, View.ld_unit_zero (S := S1x128) hz7]

end Cert.KernelIdeal.Hand

end
-- ==== Proof.KIV.Pool7Value.lean ====
/-
  Region 7 of the idealized kernel program, as one function of the arrays it is entered with: when the region ends its
  1 x 128 output row holds the pooled projection of its input array: the logistic function of the mean over the 50000
  rows, times the projection matrix, plus the bias row. After point n of the grid of 25 the accumulator holds, at column
  q, the sum of rows 0 to 2000 (n + 1) - 1 of the array at q: each point adds its tile's column sums, and point t's tile is
  rows 2000 t to 2000 t + 1999. The last point projects the full column sums and is the one point that writes the row back.
-/
import proofs.«113219_j18691697672631_1_alg».proof.Proof.KI.Pool7
import proofs.«113219_j18691697672631_1_alg».proof.Proof.KIV.Pool7Pieces
import proofs.«113219_j18691697672631_1_alg».proof.Proof.KIV.PoolSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable [Cert.ReferenceIdeal.Facts₀]

/-- The block index maps over the grid: the tile's block is the point's; the matrix's, the bias row's and the output
    row's the one block there is. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

section Blocks

variable {F : FTy → Type} [FloatOps F] [Named F]
variable (V : (c : Dev nD) → (b : Ref sig .tc) → Buf (Elt F) ((c : Thread nD τ).loc b))

/-- Point t's tile is rows 2000 t to 2000 t + 1999 of the input array. -/
theorem iblk7_0_apply (c : Dev nD) (t : Fin cfg7.N) (p : Fin 2000) (k : Fin 128) (r : Fin 50000) (hr : r.val = 2000 * t.val + p.val) :
    (iblk7 V c 0 t : S2000x128.Idx → Elt F .f32) (ix2 p k) = (V c (Pipeline.arrRef spec7 0) : S50000x128.Idx → Elt F .f32) (ix2 r k) := by
  obtain ⟨e0, e1, -⟩ := idx_facts7 t
  unfold iblk7
  rw [View.read_apply]
  refine congrArg (V c (Pipeline.arrRef spec7 0) : S50000x128.Idx → Elt F .f32) (funext fun a => Fin.ext ?_)
  match a with
  | ⟨0, _⟩ => show win7_0.index t (0 : Fin 2) * 2000 + 1 * p.val = r.val; rw [e0, hr]; omega
  | ⟨1, _⟩ => show win7_0.index t (1 : Fin 2) * 128 + 1 * k.val = k.val; rw [e1]; omega

/-- Every point's matrix block is the whole projection matrix. -/
theorem iblk7_1_eq (c : Dev nD) (t : Fin cfg7.N) :
    (iblk7 V c 1 t : S128x128.Idx → Elt F .f32) = (V c (Pipeline.arrRef spec7 1) : S128x128.Idx → Elt F .f32) := by
  obtain ⟨-, -, e0, e1, -⟩ := idx_facts7 t
  funext x
  unfold iblk7
  rw [View.read_apply]
  refine congrArg (V c (Pipeline.arrRef spec7 1) : S128x128.Idx → Elt F .f32) (funext fun a => Fin.ext ?_)
  match a with
  | ⟨0, _⟩ => show win7_1.index t (0 : Fin 2) * 128 + 1 * (x 0).val = (x 0).val; rw [e0]; omega
  | ⟨1, _⟩ => show win7_1.index t (1 : Fin 2) * 128 + 1 * (x 1).val = (x 1).val; rw [e1]; omega

/-- Every point's bias block is the whole bias row. -/
theorem iblk7_2_eq (c : Dev nD) (t : Fin cfg7.N) :
    (iblk7 V c 2 t : S1x128.Idx → Elt F .f32) = (V c (Pipeline.arrRef spec7 2) : S1x128.Idx → Elt F .f32) := by
  obtain ⟨-, -, -, -, e0, e1, -⟩ := idx_facts7 t
  funext x
  unfold iblk7
  rw [View.read_apply]
  refine congrArg (V c (Pipeline.arrRef spec7 2) : S1x128.Idx → Elt F .f32) (funext fun a => Fin.ext ?_)
  match a with
  | ⟨0, _⟩ => show win7_2.index t (0 : Fin 2) * 1 + 1 * (x 0).val = (x 0).val; rw [e0]; omega
  | ⟨1, _⟩ => show win7_2.index t (1 : Fin 2) * 128 + 1 * (x 1).val = (x 1).val; rw [e1]; omega

end Blocks

/-- Row v of an array at column q, zero past the last row. -/
def rowOrZero7 (A : FVec Ideal S50000x128 .f32) (q : Fin 128) (v : ℕ) : EReal :=
  if h : v < 50000 then A (ix2 ⟨v, h⟩ q) else 0

/-- The sum over tile k of column q. -/
abbrev tileSum7 (A : FVec Ideal S50000x128 .f32) (q : Fin 128) (k : ℕ) : EReal :=
  ∑ p : Fin 2000, rowOrZero7 A q (k * 2000 + p.val)

variable (V : (c : Dev nD) → (b : Ref sig .tc) → Buf (Elt Ideal) ((c : Thread nD τ).loc b))

/-- The column sums of point t's tile are the sums over tile t of the array's columns. -/
theorem tile_sum7 (c : Dev nD) (t : Fin cfg7.N) (q : Fin 128) (x : FVec Ideal S2000x128 .f32) (hx : x = iblk7 V c 0 t) :
    ∑ p : Fin 2000, x (ix2 p q) = tileSum7 (V c (Pipeline.arrRef spec7 0)) q t.val := by
  subst hx
  have ht : t.val < 25 := Nat.lt_of_lt_of_eq t.isLt (N_7 : cfg7.N = 25)
  refine Finset.sum_congr rfl fun p _ => ?_
  have hp : p.val < 2000 := p.isLt
  have hlt : t.val * 2000 + p.val < 50000 := by omega
  unfold rowOrZero7
  rw [dif_pos hlt]
  exact iblk7_0_apply V c t p q ⟨t.val * 2000 + p.val, hlt⟩ (by show t.val * 2000 + p.val = 2000 * t.val + p.val; omega)

/-- THE ACCUMULATOR after point n, at column q: the sums over tiles 0 to n of the array's column q. -/
theorem acc7_apply (c : Dev nD) : ∀ (n : ℕ) (hn : n < cfg7.N) (q : Fin 128),
    ((sAt7 (F := Ideal) V c n hn : S1x128.Idx → Ideal .f32) (ix2 (0 : Fin 1) q) : EReal)
      = ∑ k ∈ Finset.range (n + 1), tileSum7 (V c (Pipeline.arrRef spec7 0)) q k
  | 0, hn, q => by
    rw [sAt7]
    refine (congrFun (pieceA7 (F := Ideal) c ⟨0, hn⟩ _ _ (iblk7 V c 0 ⟨0, hn⟩)) (ix2 (0 : Fin 1) q)).trans ?_
    refine (poolAcc_apply poolZero (iblk7 V c 0 ⟨0, hn⟩) q).trans ?_
    rw [poolZero_apply, zero_add, Finset.sum_range_one]
    exact tile_sum7 V c ⟨0, hn⟩ q _ rfl
  | n + 1, hn, q => by
    rw [sAt7]
    by_cases h24 : n + 1 = 24
    · simp only [dif_pos h24]
      refine (congrFun (pieceC7_scr (F := Ideal) c ⟨n + 1, hn⟩ _ _ (iblk7 V c 0 ⟨n + 1, hn⟩) (iblk7 V c 1 ⟨n + 1, hn⟩)
        (iblk7 V c 2 ⟨n + 1, hn⟩) (sAt7 V c n (Nat.lt_of_succ_lt hn))) (ix2 (0 : Fin 1) q)).trans ?_
      refine (poolAcc_apply (sAt7 V c n (Nat.lt_of_succ_lt hn)) (iblk7 V c 0 ⟨n + 1, hn⟩) q).trans ?_
      rw [acc7_apply c n (Nat.lt_of_succ_lt hn) q, Finset.sum_range_succ _ (n + 1)]
      congr 1
      exact tile_sum7 V c ⟨n + 1, hn⟩ q _ rfl
    · simp only [dif_neg h24]
      refine (congrFun (pieceB7 (F := Ideal) c ⟨n + 1, hn⟩ _ _ (iblk7 V c 0 ⟨n + 1, hn⟩)
        (sAt7 V c n (Nat.lt_of_succ_lt hn))) (ix2 (0 : Fin 1) q)).trans ?_
      refine (poolAcc_apply (sAt7 V c n (Nat.lt_of_succ_lt hn)) (iblk7 V c 0 ⟨n + 1, hn⟩) q).trans ?_
      rw [acc7_apply c n (Nat.lt_of_succ_lt hn) q, Finset.sum_range_succ _ (n + 1)]
      congr 1
      exact tile_sum7 V c ⟨n + 1, hn⟩ q _ rfl

/-- The 25 tiles' sums are the sum down the whole column. -/
theorem sum_tiles7 (A : FVec Ideal S50000x128 .f32) (q : Fin 128) :
    ∑ k ∈ Finset.range 25, tileSum7 A q k = ∑ v : Fin 50000, (A (ix2 v q) : EReal) := by
  refine (PoolMath.sum_25_tiles (rowOrZero7 A q)).trans ?_
  refine Finset.sum_congr rfl fun v _ => ?_
  unfold rowOrZero7
  rw [dif_pos v.isLt]

/-- WHAT THE LAST POINT STORES, at column q: the reference's pooled projection of the arrays the region was entered with. -/
theorem out7_apply (c : Dev nD) (hn : 24 < cfg7.N) (q : Fin 128) :
    (outAt7 (F := Ideal) V c 24 hn : S1x128.Idx → Ideal .f32) (ix2 (0 : Fin 1) q)
      = Cert.Spec.poolRow (F := Ideal) (V c (Pipeline.arrRef spec7 0)) (V c (Pipeline.arrRef spec7 1)) (V c (Pipeline.arrRef spec7 2))
          (ix2 (0 : Fin 1) q) := by
  show (outAt7 (F := Ideal) V c (23 + 1) hn : S1x128.Idx → Ideal .f32) (ix2 (0 : Fin 1) q) = _
  rw [outAt7]
  simp only [dif_pos (show 23 + 1 = 24 from rfl)]
  refine (congrFun (pieceC7_out (F := Ideal) c ⟨23 + 1, hn⟩ _ _ (iblk7 V c 0 ⟨23 + 1, hn⟩) (iblk7 V c 1 ⟨23 + 1, hn⟩)
    (iblk7 V c 2 ⟨23 + 1, hn⟩) (sAt7 V c 23 (Nat.lt_of_succ_lt hn))) (ix2 (0 : Fin 1) q)).trans ?_
  show poolOut (poolAcc (sAt7 V c 23 (Nat.lt_of_succ_lt hn)) (iblk7 V c 0 ⟨23 + 1, hn⟩)) (iblk7 V c 1 ⟨23 + 1, hn⟩) (iblk7 V c 2 ⟨23 + 1, hn⟩)
    (ix2 (0 : Fin 1) q) = _
  refine poolOut_eq_poolRow _ _ _ _ _ _ q (fun k => ?_) (iblk7_1_eq V c ⟨23 + 1, hn⟩) (iblk7_2_eq V c ⟨23 + 1, hn⟩)
  refine (poolAcc_apply (sAt7 V c 23 (Nat.lt_of_succ_lt hn)) (iblk7 V c 0 ⟨23 + 1, hn⟩) k).trans ?_
  have e23 : ((sAt7 (F := Ideal) V c 23 (Nat.lt_of_succ_lt hn) : S1x128.Idx → Ideal .f32) (ix2 (0 : Fin 1) k) : EReal)
      = ∑ kk ∈ Finset.range 24, tileSum7 (V c (Pipeline.arrRef spec7 0)) k kk := acc7_apply V c 23 (Nat.lt_of_succ_lt hn) k
  have e24 := tile_sum7 V c ⟨23 + 1, hn⟩ k _ rfl
  have hsum : (∑ kk ∈ Finset.range 24, tileSum7 (V c (Pipeline.arrRef spec7 0)) k kk) + tileSum7 (V c (Pipeline.arrRef spec7 0)) k 24
      = ∑ kk ∈ Finset.range 25, tileSum7 (V c (Pipeline.arrRef spec7 0)) k kk :=
    (Finset.sum_range_succ (fun kk => tileSum7 (V c (Pipeline.arrRef spec7 0)) k kk) 24).symm
  rw [e23, e24]
  exact hsum.trans (sum_tiles7 _ k)

/-- Where entry (0, q) of the output block sits in the output row: at (0, q). -/
theorem emb7_3 (t : Fin cfg7.N) (q : Fin 128) :
    (((cfg7.win 3).blk t).view.emb (ix2 (0 : Fin 1) q) : S1x128.Idx) = ix2 (0 : Fin 1) q := by
  obtain ⟨-, -, -, -, -, -, e0, e1⟩ := idx_facts7 t
  refine funext fun a => Fin.ext ?_
  match a with
  | ⟨0, _⟩ => show win7_3.index t (0 : Fin 2) * 1 + 1 * 0 = 0; rw [e0]
  | ⟨1, _⟩ => show win7_3.index t (1 : Fin 2) * 128 + 1 * q.val = q.val; rw [e1]; omega

/-- What the one point that writes back writes is the block of the reference's pooled projection. -/
theorem flushed7_eq (c : Dev nD) (t : Fin cfg7.N) (hf : (cfg7.win 3).flush t = true) :
    (dat7 (F := Ideal) V c).flushed 3 t = ((cfg7.win 3).blk t).view.read (Elt Ideal)
      (Cert.Spec.poolRow (F := Ideal) (V c (Pipeline.arrRef spec7 0)) (V c (Pipeline.arrRef spec7 1)) (V c (Pipeline.arrRef spec7 2))) := by
  have h24 : t.val = 24 := of_decide_eq_true ((hflush7 t).symm.trans hf)
  obtain ⟨n, hn⟩ := t
  obtain rfl : n = 24 := h24
  show (cfg7.win 3).cut (grid7.coords ⟨24, hn⟩) ((dat7 V c).after 3 ⟨24, hn⟩) = _
  rw [after7_3]
  refine funext fun (j : S1x128.Idx) => ?_
  obtain ⟨u, q, rfl⟩ : ∃ (u : Fin 1) (q : Fin 128), j = ix2 u q := ⟨j 0, j 1, eq_ix2 j⟩
  obtain rfl : u = 0 := Subsingleton.elim _ _
  have e := emb7_3 ⟨24, hn⟩ q
  show (outAt7 (F := Ideal) V c 24 hn : S1x128.Idx → Ideal .f32) (ix2 (0 : Fin 1) q)
    = Cert.Spec.poolRow (F := Ideal) _ _ _ (((cfg7.win 3).blk ⟨24, hn⟩).view.emb (ix2 (0 : Fin 1) q))
  rw [e]
  exact out7_apply V c hn q

/-- The last point's block is the whole output row. -/
theorem cover7 (i : S1x128.Idx) : ∃ t : Fin cfg7.N, (cfg7.win 3).flush t = true ∧ i ∈ ((cfg7.win 3).blk t).view.set := by
  have hi0 : (i 0).val < 1 := (i 0).isLt
  have hi1 : (i 1).val < 128 := (i 1).isLt
  have hlt : 24 < cfg7.N := by rw [show cfg7.N = 25 from N_7]; decide
  obtain ⟨-, -, -, -, -, -, e0, e1⟩ := idx_facts7 ⟨24, hlt⟩
  refine ⟨⟨24, hlt⟩, (hflush7 ⟨24, hlt⟩).trans (decide_eq_true rfl), ?_⟩
  show i ∈ ((View.whole main_v96).slice (win7_3.rect ⟨24, hlt⟩)).set
  rw [View.set_slice_whole, Rect.mem_set_unit]
  intro a
  match a with
  | ⟨0, _⟩ =>
    show win7_3.index ⟨24, hlt⟩ (0 : Fin 2) * 1 ≤ (i 0).val ∧ (i 0).val < win7_3.index ⟨24, hlt⟩ (0 : Fin 2) * 1 + 1
    rw [e0]; omega
  | ⟨1, _⟩ =>
    show win7_3.index ⟨24, hlt⟩ (1 : Fin 2) * 128 ≤ (i 1).val ∧ (i 1).val < win7_3.index ⟨24, hlt⟩ (1 : Fin 2) * 128 + 128
    rw [e1]; omega

/-- THE VALUE of region 7: its output row ends at the reference's pooled projection of the arrays it was entered with. -/
theorem value7 (c : Dev nD) :
    (dat7 (F := Ideal) V c).arrAt 3 cfg7.N
      = Cert.Spec.poolRow (F := Ideal) (V c (Pipeline.arrRef spec7 0)) (V c (Pipeline.arrRef spec7 1)) (V c (Pipeline.arrRef spec7 2)) :=
  (dat7 (F := Ideal) V c).arrAt_eq_of_cover 3 _ (fun t hf => flushed7_eq V c t hf) cover7

end Cert.KernelIdeal.Hand

end
-- ==== Proof.KIH.Kvals.lean ====
/-
  The tiled program's six results in the reference's terms, with the two pooling regions' values supplied.
-/
import proofs.«113219_j18691697672631_1_alg».proof.Proof.KIH.Results
import proofs.«113219_j18691697672631_1_alg».proof.Proof.KIV.Pool6Value
import proofs.«113219_j18691697672631_1_alg».proof.Proof.KIV.Pool7Value

noncomputable section

namespace Cert.KernelIdeal.Hand

open Cert.KernelIdeal Cert.KernelIdeal.Gen Idealize.ShloMosaic Idealize.ShloMosaic.TcCoe Idealize.SL.Sem Idealize.ShloMosaic.StableHlo

variable [Cert.ReferenceIdeal.Facts₀]

/-- The six results of the tiled program at the last boundary, as composites of the launched arguments. -/
theorem kvals (m : (ℓ : Loc nD τ sig) → Buf (Elt Ideal) ℓ) (c : Dev nD) :
    U30 m c (Proc.devRef .tc main_v59) = Cert.Spec.gconv (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    ∧ U30 m c (Proc.devRef .tc main_v92) = Cert.Spec.gconv (m ((c.tc : Thread nD τ).loc main_arg0)) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
    ∧ U30 m c (Proc.devRef .tc main_v94) = Cert.Spec.pool (Cert.Spec.gconv (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg15)) (m ((c.tc : Thread nD τ).loc main_arg16))
    ∧ U30 m c (Proc.devRef .tc main_v96) = Cert.Spec.pool (Cert.Spec.gconv (m ((c.tc : Thread nD τ).loc main_arg0)) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg15)) (m ((c.tc : Thread nD τ).loc main_arg16))
    ∧ U30 m c (Proc.devRef .tc main_v143) = Cert.Spec.gconv (Cert.Spec.permute (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    ∧ U30 m c (Proc.devRef .tc main_v176) = Cert.Spec.gconv (Cert.Spec.permute (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  kvals_of m c (value6 (tcv (U15 m)) c) (value7 (tcv (U17 m)) c)

end Cert.KernelIdeal.Hand

end
-- ==== Proof.Bridge.lean ====
/-
  The two idealized programs compute the same six arrays. The tiled program's run ends with every buffer at the last
  boundary's contents; read at the six result buffers, through the host stretches and the regions' values, these are the
  two encoders' outputs on the graph, the two pooled projections, and the two encoders' outputs on the permuted features, as
  composites of the seventeen arguments. The reference's run ends with its six results at the same composites of its own
  arguments, which agree with the tiled program's.
-/
import proofs.«113219_j18691697672631_1_alg».proof.Defs
import proofs.«113219_j18691697672631_1_alg».proof.Proof.Gen.Pre_finite_inputs
import proofs.«113219_j18691697672631_1_alg».proof.Proof.KI.RunAll
import proofs.«113219_j18691697672631_1_alg».proof.Proof.KIH.Kvals
import proofs.«113219_j18691697672631_1_alg».proof.Proof.Ref.Run

noncomputable section

open Idealize.ShloMosaic Idealize.ShloMosaic.TcCoe Idealize.SL.Sem

namespace Cert.Proof.Parts

open Cert.KernelIdeal Cert.KernelIdeal.Gen Cert.KernelIdeal.Hand in
set_option maxHeartbeats 2000000 in
/-- Run from memories that agree on the seventeen arguments, the tiled program and the reference both terminate, each
    leaves its arguments as launched, and their six results are equal arrays of extended reals. -/
theorem algebraic : Cert.algebraic_KernelIdeal_ReferenceIdeal := by
  intro m ρ m' ρ' _ hagree
  refine ⟨(fun c => Cert.Spec.gconv (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))),
    (fun c => Cert.Spec.gconv (m ((c.tc : Thread nD τ).loc main_arg0)) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))),
    (fun c => Cert.Spec.pool (Cert.Spec.gconv (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg15)) (m ((c.tc : Thread nD τ).loc main_arg16))),
    (fun c => Cert.Spec.pool (Cert.Spec.gconv (m ((c.tc : Thread nD τ).loc main_arg0)) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg15)) (m ((c.tc : Thread nD τ).loc main_arg16))),
    (fun c => Cert.Spec.gconv (Cert.Spec.permute (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))),
    (fun c => Cert.Spec.gconv (Cert.Spec.permute (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))),
    ?ker, ?ref⟩
  case ker =>
    refine (θ_run Cert.KernelIdeal.defs _ _).mono (fun r h c => ?_) (run_all (F := Ideal) m ρ)
    have hk := kvals m c
    exact ⟨(h c (Proc.devRef .tc main_v59) (mem_uc main_v59 (by decide))).trans ((congrFun (V30_eq m c) (Proc.devRef .tc main_v59)).trans hk.1),
      (h c (Proc.devRef .tc main_v92) (mem_uc main_v92 (by decide))).trans ((congrFun (V30_eq m c) (Proc.devRef .tc main_v92)).trans hk.2.1),
      (h c (Proc.devRef .tc main_v94) (mem_uc main_v94 (by decide))).trans ((congrFun (V30_eq m c) (Proc.devRef .tc main_v94)).trans hk.2.2.1),
      (h c (Proc.devRef .tc main_v96) (mem_uc main_v96 (by decide))).trans ((congrFun (V30_eq m c) (Proc.devRef .tc main_v96)).trans hk.2.2.2.1),
      (h c (Proc.devRef .tc main_v143) (mem_uc main_v143 (by decide))).trans ((congrFun (V30_eq m c) (Proc.devRef .tc main_v143)).trans hk.2.2.2.2.1),
      (h c (Proc.devRef .tc main_v176) (mem_uc main_v176 (by decide))).trans ((congrFun (V30_eq m c) (Proc.devRef .tc main_v176)).trans hk.2.2.2.2.2),
      (h c (Proc.devRef .tc main_arg0) (mem_uc main_arg0 (by decide))).trans (V30_main_arg0 m (outs m) c),
      (h c (Proc.devRef .tc main_arg1) (mem_uc main_arg1 (by decide))).trans (V30_main_arg1 m (outs m) c),
      (h c (Proc.devRef .tc main_arg2) (mem_uc main_arg2 (by decide))).trans (V30_main_arg2 m (outs m) c),
      (h c (Proc.devRef .tc main_arg3) (mem_uc main_arg3 (by decide))).trans (V30_main_arg3 m (outs m) c),
      (h c (Proc.devRef .tc main_arg4) (mem_uc main_arg4 (by decide))).trans (V30_main_arg4 m (outs m) c),
      (h c (Proc.devRef .tc main_arg5) (mem_uc main_arg5 (by decide))).trans (V30_main_arg5 m (outs m) c),
      (h c (Proc.devRef .tc main_arg6) (mem_uc main_arg6 (by decide))).trans (V30_main_arg6 m (outs m) c),
      (h c (Proc.devRef .tc main_arg7) (mem_uc main_arg7 (by decide))).trans (V30_main_arg7 m (outs m) c),
      (h c (Proc.devRef .tc main_arg8) (mem_uc main_arg8 (by decide))).trans (V30_main_arg8 m (outs m) c),
      (h c (Proc.devRef .tc main_arg9) (mem_uc main_arg9 (by decide))).trans (V30_main_arg9 m (outs m) c),
      (h c (Proc.devRef .tc main_arg10) (mem_uc main_arg10 (by decide))).trans (V30_main_arg10 m (outs m) c),
      (h c (Proc.devRef .tc main_arg11) (mem_uc main_arg11 (by decide))).trans (V30_main_arg11 m (outs m) c),
      (h c (Proc.devRef .tc main_arg12) (mem_uc main_arg12 (by decide))).trans (V30_main_arg12 m (outs m) c),
      (h c (Proc.devRef .tc main_arg13) (mem_uc main_arg13 (by decide))).trans (V30_main_arg13 m (outs m) c),
      (h c (Proc.devRef .tc main_arg14) (mem_uc main_arg14 (by decide))).trans (V30_main_arg14 m (outs m) c),
      (h c (Proc.devRef .tc main_arg15) (mem_uc main_arg15 (by decide))).trans (V30_main_arg15 m (outs m) c),
      (h c (Proc.devRef .tc main_arg16) (mem_uc main_arg16 (by decide))).trans (V30_main_arg16 m (outs m) c)⟩
  case ref =>
    refine (θ_run Cert.ReferenceIdeal.defs _ _).mono (fun r h c => ?_) (Cert.ReferenceIdeal.Hand.run (F := Ideal) m' ρ')
    obtain ⟨e0, e1, e2, e3, e4, e5, e6, e7, e8, e9, e10, e11, e12, e13, e14, e15, e16⟩ := hagree c
    obtain ⟨h0, h1, h2, h3, h4, h5, hargs⟩ := h c
    simp only [e0, e1, e2, e3, e4, e5, e6, e7, e8, e9, e10, e11, e12, e13, e14, e15, e16] at h0 h1 h2 h3 h4 h5
    exact ⟨h0, h1, h2, h3, h4, h5, hargs⟩

end Cert.Proof.Parts

end
-- ==== Proof.lean ====
/-
  The claim about the two-view graph encoder: a tiled kernel program against a plain reference.

  Both programs take node features x (50000 x 128), an edge list (source and destination node of 450000 edges), edge weights,
  two permutations of the nodes, two encoders' weights, biases and rectifier slopes, and a projection. An encoder is two
  graph convolutions, each a linear layer x W + b followed by the normalised aggregation over the edges (gather the source
  rows, scale by d(src)^(-1/2) w d(dst)^(-1/2) with d the weighted in-degree, add into the destination rows) and a rectifier
  with a per-column slope. The six results are the two encoders' outputs on the graph, the logistic of each output's mean
  over the nodes times the projection plus its bias, and the two encoders' outputs on the permuted features.

  The tiled program runs every linear layer, every rectifier (fused with the next linear layer where one follows) and the
  two pooled projections as regions over 25 tiles of 2000 rows, and leaves the gathers and the scatter-additions to host
  operations; it computes the edge normalisation once where the reference recomputes it in every convolution, and the
  pooled projection accumulates the tiles' column sums and multiplies by 1/50000 where the reference divides the sum over
  the rows by 50000.

  The parts: the ledger of the idealization (Proof/Ledger.lean); the reference's run, stretch by stretch, and its frame
  (Proof/Ref/, Proof/RefFrame.lean); per region of each tiled program the body's run at every grid point and the region as
  a segment of the main function (Proof/KI/, Proof/K/), and the program's run with every buffer read back, which gives the
  frame; the regions' final arrays as whole-array functions of their inputs (Proof/KIV/), the host stretches in the same
  terms (Proof/KIH/), and the equality of the six results (Proof/Bridge.lean). On the extended reals the two arrangements
  differ by the order and grouping of sums only, by x / 50000 = x (1/50000), and by the logistic being 1 / (1 + exp(-x)):
  no finiteness of the inputs is used.
-/
import proofs.«113219_j18691697672631_1_alg».proof.Defs
import proofs.«113219_j18691697672631_1_alg».proof.Proof.Gen.Kernel
import proofs.«113219_j18691697672631_1_alg».proof.Proof.Gen.KernelIdeal
import proofs.«113219_j18691697672631_1_alg».proof.Proof.Gen.ReferenceIdeal
import proofs.«113219_j18691697672631_1_alg».proof.Proof.Gen.Pre_finite_inputs
import proofs.«113219_j18691697672631_1_alg».proof.Proof.Ledger
import proofs.«113219_j18691697672631_1_alg».proof.Proof.RefFrame
import proofs.«113219_j18691697672631_1_alg».proof.Proof.K.RunAll
import proofs.«113219_j18691697672631_1_alg».proof.Proof.KI.RunAll
import proofs.«113219_j18691697672631_1_alg».proof.Proof.Bridge
import Idealize.ShloMosaic.Adequacy
import Idealize.ShloMosaic.Init

noncomputable section

namespace Cert.Proof

open Idealize.ShloMosaic Idealize.SL.Sem

/-- The tiled program at the word level terminates without a fault and writes no argument array. -/
theorem frame_p : Cert.frame_Kernel := fun m ρ _ => Cert.Kernel.Hand.frame (F := Bits) m ρ

/-- So does its idealization. -/
theorem frame_pi : Cert.frame_KernelIdeal := fun m ρ _ => Cert.KernelIdeal.Hand.frame (F := Ideal) m ρ

theorem claim : Cert.Claim := ⟨Cert.Kernel.Gen.facts, Cert.KernelIdeal.Gen.facts, Cert.ReferenceIdeal.Gen.facts, Cert.Pre_finite_inputs.Gen.facts,
  frame_p, frame_pi, Cert.Proof.Parts.frame_ri, Cert.Proof.Parts.preserves, Cert.Proof.Parts.algebraic⟩

end Cert.Proof

end
